-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "one_minus_beta_1" .f32 0x3F183370#32 ((19949281 / 33554432 : ℝ) : EReal)
  ∧ IdealRules.named_const.Statement Cert.KernelIdeal.κ "one_minus_beta_1" .f32 0x3F183370#32 ((19949281 / 33554432 : ℝ) : EReal)
  ∧ IdealRules.named_const.Statement Cert.KernelIdeal.κ "one_minus_beta_2" .f32 0x3F365A78#32 ((23901423 / 33554432 : ℝ) : EReal)
  ∧ IdealRules.named_const.Statement Cert.KernelIdeal.κ "one_minus_beta_2" .f32 0x3F365A78#32 ((23901423 / 33554432 : ℝ) : EReal)
  ∧ IdealRules.named_const.Statement Cert.KernelIdeal.κ "one_minus_beta_3" .f32 0x3F46E010#32 ((26066977 / 33554432 : ℝ) : EReal)
  ∧ IdealRules.named_const.Statement Cert.KernelIdeal.κ "one_minus_beta_3" .f32 0x3F46E010#32 ((26066977 / 33554432 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S700000 : Shape := ⟨1, ![700000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg6 : FVec F S4x128x128 .f32) (main_arg7 : FVec F S4x128 .f32) (main_arg8 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128x128 .f32 := Host.absf main_arg6
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  main_v33

def fn {F : FTy → Type} [FloatOps F] (main_arg0 : FVec F S100000x128 .f32) (main_arg1 : IVec S700000 32) (main_arg2 : IVec S700000 32) (main_arg3 : FVec F S128x128 .f32) (main_arg4 : FVec F S128 .f32) (main_arg5 : FVec F S4x128x128 .f32) (main_arg6 : FVec F S4x128x128 .f32) (main_arg7 : FVec F S4x128 .f32) (main_arg8 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_v13 main_v16
-- ==== Kernel.lean ====
abbrev S100000x128 : Shape := ⟨2, ![100000, 128]⟩
abbrev S700000 : Shape := ⟨1, ![700000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩
abbrev S100000 : Shape := ⟨1, ![100000]⟩
abbrev S700000x1 : Shape := ⟨2, ![700000, 1]⟩
abbrev S1x128 : Shape := ⟨2, ![1, 128]⟩
abbrev S5000x128 : Shape := ⟨2, ![5000, 128]⟩
abbrev S700000x128 : Shape := ⟨2, ![700000, 128]⟩
abbrev S1x128x128 : Shape := ⟨3, ![1, 128, 128]⟩

abbrev nBuf : Space → Nat
  | .hbm => 199
  | .vmem => 86
  | .smem => 0
  | _ => 0

abbrev hbmTy0_0 (i : Nat) : BufTy := match i % 128 with
  | 0 => ⟨S100000x128, .f32⟩
  | 1 => ⟨S700000, .i32⟩
  | 2 => ⟨S700000, .i32⟩
  | 3 => ⟨S128x128, .f32⟩
  | 4 => ⟨S128, .f32⟩
  | 5 => ⟨S4x128x128, .f32⟩
  | 6 => ⟨S4x128x128, .f32⟩
  | 7 => ⟨S4x128, .f32⟩
  | 8 => ⟨S4x128, .f32⟩
  | 9 => ⟨S_, .f32⟩
  | 10 => ⟨S700000, .f32⟩
  | 11 => ⟨S_, .f32⟩
  | 12 => ⟨S100000, .f32⟩
  | 13 => ⟨S700000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S700000, .i32⟩
  | 28 => ⟨S700000, .i1⟩
  | 29 => ⟨S_, .i32⟩
  | 30 => ⟨S700000, .i32⟩
  | 31 => ⟨S700000, .i32⟩
  | 32 => ⟨S700000, .i32⟩
  | 33 => ⟨S700000x1, .i32⟩
  | 34 => ⟨S700000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S700000, .f32⟩
  | 45 => ⟨S1x128, .f32⟩
  | 46 => ⟨S100000x128, .f32⟩
  | 47 => ⟨S_, .i32⟩
  | 48 => ⟨S700000, .i32⟩
  | 49 => ⟨S700000, .i1⟩
  | 50 => ⟨S_, .i32⟩
  | 51 => ⟨S700000, .i32⟩
  | 52 => ⟨S700000, .i32⟩
  | 53 => ⟨S700000, .i32⟩
  | 54 => ⟨S700000x1, .i32⟩
  | 55 => ⟨S700000x128, .f32⟩
  | 56 => ⟨S700000x1, .f32⟩
  | 57 => ⟨S700000x128, .f32⟩
  | 58 => ⟨S700000x128, .f32⟩
  | 59 => ⟨S_, .f32⟩
  | 60 => ⟨S100000x128, .f32⟩
  | 61 => ⟨S700000x1, .i32⟩
  | 62 => ⟨S100000x128, .f32⟩
  | 63 => ⟨S1x128x128, .f32⟩
  | 64 => ⟨S128x128, .f32⟩
  | 65 => ⟨S1x128x128, .f32⟩
  | 66 => ⟨S128x128, .f32⟩
  | 67 => ⟨S100000x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S100000x128, .f32⟩
  | 85 => ⟨S_, .i32⟩
  | 86 => ⟨S700000, .i32⟩
  | 87 => ⟨S700000, .i1⟩
  | 88 => ⟨S_, .i32⟩
  | 89 => ⟨S700000, .i32⟩
  | 90 => ⟨S700000, .i32⟩
  | 91 => ⟨S700000, .i32⟩
  | 92 => ⟨S700000x1, .i32⟩
  | 93 => ⟨S700000x128, .f32⟩
  | 94 => ⟨S700000x1, .f32⟩
  | 95 => ⟨S700000x128, .f32⟩
  | 96 => ⟨S700000x128, .f32⟩
  | 97 => ⟨S_, .f32⟩
  | 98 => ⟨S100000x128, .f32⟩
  | 99 => ⟨S700000x1, .i32⟩
  | 100 => ⟨S100000x128, .f32⟩
  | 101 => ⟨S1x128x128, .f32⟩
  | 102 => ⟨S128x128, .f32⟩
  | 103 => ⟨S1x128x128, .f32⟩
  | 104 => ⟨S128x128, .f32⟩
  | 105 => ⟨S100000x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S100000x128, .f32⟩
  | 123 => ⟨S_, .i32⟩
  | 124 => ⟨S700000, .i32⟩
  | 125 => ⟨S700000, .i1⟩
  | 126 => ⟨S_, .i32⟩
  | 127 => ⟨S700000, .i32⟩
  | _ => ⟨S100000x128, .f32⟩

abbrev hbmTy0_1 (i : Nat) : BufTy := match i % 128 with
  | 0 => ⟨S700000, .i32⟩
  | 1 => ⟨S700000, .i32⟩
  | 2 => ⟨S700000x1, .i32⟩
  | 3 => ⟨S700000x128, .f32⟩
  | 4 => ⟨S700000x1, .f32⟩
  | 5 => ⟨S700000x128, .f32⟩
  | 6 => ⟨S700000x128, .f32⟩
  | 7 => ⟨S_, .f32⟩
  | 8 => ⟨S100000x128, .f32⟩
  | 9 => ⟨S700000x1, .i32⟩
  | 10 => ⟨S100000x128, .f32⟩
  | 11 => ⟨S1x128x128, .f32⟩
  | 12 => ⟨S128x128, .f32⟩
  | 13 => ⟨S1x128x128, .f32⟩
  | 14 => ⟨S128x128, .f32⟩
  | 15 => ⟨S100000x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S128, .f32⟩
  | 28 => ⟨S1x128, .f32⟩
  | 29 => ⟨S1x128, .f32⟩
  | 30 => ⟨S128, .f32⟩
  | 31 => ⟨S1x128, .f32⟩
  | 32 => ⟨S100000x128, .f32⟩
  | 33 => ⟨S_, .i32⟩
  | 34 => ⟨S700000, .i32⟩
  | 35 => ⟨S700000, .i1⟩
  | 36 => ⟨S_, .i32⟩
  | 37 => ⟨S700000, .i32⟩
  | 38 => ⟨S700000, .i32⟩
  | 39 => ⟨S700000, .i32⟩
  | 40 => ⟨S700000x1, .i32⟩
  | 41 => ⟨S700000x128, .f32⟩
  | 42 => ⟨S700000x1, .f32⟩
  | 43 => ⟨S700000x128, .f32⟩
  | 44 => ⟨S700000x128, .f32⟩
  | 45 => ⟨S_, .f32⟩
  | 46 => ⟨S100000x128, .f32⟩
  | 47 => ⟨S700000x1, .i32⟩
  | 48 => ⟨S100000x128, .f32⟩
  | 49 => ⟨S1x128x128, .f32⟩
  | 50 => ⟨S128x128, .f32⟩
  | 51 => ⟨S1x128x128, .f32⟩
  | 52 => ⟨S128x128, .f32⟩
  | 53 => ⟨S100000x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S128x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S128x128, .f32⟩
  | .local _ .vmem, ⟨71, _⟩ => ⟨S128x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S5000x128, .f32⟩
  | .local _ .vmem, ⟨85, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_v44_2 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75_0 : Ref sig .tc := ⟨.hbm, 105, rfl⟩
abbrev main_v75_1 : Ref sig .tc := ⟨.hbm, 106, rfl⟩
abbrev main_v75_2 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_17 : Ref sig .tc := ⟨.hbm, 123, rfl⟩
abbrev main_v89 : Ref sig .tc := ⟨.hbm, 124, rfl⟩
abbrev main_v90 : Ref sig .tc := ⟨.hbm, 125, rfl⟩
abbrev main_c_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_19 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106_0 : Ref sig .tc := ⟨.hbm, 143, rfl⟩
abbrev main_v106_1 : Ref sig .tc := ⟨.hbm, 144, rfl⟩
abbrev main_v106_2 : Ref sig .tc := ⟨.hbm, 145, rfl⟩
abbrev main_cst_20 : Ref sig .tc := ⟨.hbm, 146, rfl⟩
abbrev main_v107 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_22 : Ref sig .tc := ⟨.hbm, 161, rfl⟩
abbrev main_v120 : Ref sig .tc := ⟨.hbm, 162, rfl⟩
abbrev main_v121 : Ref sig .tc := ⟨.hbm, 163, rfl⟩
abbrev main_c_23 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_24 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137_0 : Ref sig .tc := ⟨.hbm, 181, rfl⟩
abbrev main_v137_1 : Ref sig .tc := ⟨.hbm, 182, rfl⟩
abbrev main_v137_2 : Ref sig .tc := ⟨.hbm, 183, rfl⟩
abbrev main_cst_25 : Ref sig .tc := ⟨.hbm, 184, rfl⟩
abbrev main_v138 : Ref sig .tc := ⟨.hbm, 185, rfl⟩
abbrev main_v139 : Ref sig .tc := ⟨.hbm, 186, rfl⟩
abbrev main_cst_26 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc3_scratch0 : Ref sig .tc := ⟨.vmem, 36, rfl⟩
abbrev cc3_scratch1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg6_0 : Ref sig .tc := ⟨.vmem, 55, rfl⟩
abbrev cc5_scratch0 : Ref sig .tc := ⟨.vmem, 56, rfl⟩
abbrev cc5_scratch1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg4_1 : Ref sig .tc := ⟨.vmem, 73, rfl⟩
abbrev cc7_stg5_0 : Ref sig .tc := ⟨.vmem, 74, rfl⟩
abbrev cc7_stg6_0 : Ref sig .tc := ⟨.vmem, 75, rfl⟩
abbrev cc7_scratch0 : Ref sig .tc := ⟨.vmem, 76, rfl⟩
abbrev cc7_scratch1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg2_0 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg5_0 : Ref sig .tc := ⟨.vmem, 84, rfl⟩
abbrev cc8_stg5_1 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem6_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc5_sem5_0 : DmaSem sig := 50
abbrev cc5_sem6_0 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65
abbrev cc7_sem4_0 : DmaSem sig := 66
abbrev cc7_sem4_1 : DmaSem sig := 67
abbrev cc7_sem5_0 : DmaSem sig := 68
abbrev cc7_sem6_0 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_27 : BitVec 32 := 0#32
  let v50 : BitVec 1 := Scalar.cmpi .ne v49 c0_i32_27
  v50

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_27 : BitVec 32 := 0#32
  let v50 : BitVec 1 := Scalar.cmpi .ne v49 c0_i32_27
  v50

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_27 : BitVec 32 := 0#32
  let v50 : BitVec 1 := Scalar.cmpi .ne v49 c0_i32_27
  v50

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_27 : BitVec 32 := 0#32
  let v50 : BitVec 1 := Scalar.cmpi .ne v49 c0_i32_27
  v50

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  reduces_S5000x128_S128 : S5000x128.Reduces [0] S128
  bcast_S_S1x128 : S_.BroadcastsInDim S1x128 (![] : Fin 0 → Fin S1x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v44_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v75_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v75_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v101) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106_0) S5000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v106_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v106_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun i => !(k5_cond2 i == 1#1) | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v106_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v112) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v115) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v118) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v119) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v132) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v26) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v134) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v137_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v137_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v137_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v137_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v139) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v143) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v146) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v149) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v150) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x128 : Shape := ⟨2, ![100000, 128]⟩
abbrev S700000 : Shape := ⟨1, ![700000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩
abbrev S100000 : Shape := ⟨1, ![100000]⟩
abbrev S700000x1 : Shape := ⟨2, ![700000, 1]⟩
abbrev S1x128 : Shape := ⟨2, ![1, 128]⟩
abbrev S700000x128 : Shape := ⟨2, ![700000, 128]⟩
abbrev S1x128x128 : Shape := ⟨3, ![1, 128, 128]⟩

abbrev nBuf : Space → Nat
  | .hbm => 441
  | .vmem => 0
  | .smem => 0
  | _ => 0

abbrev hbmTy0_0 (i : Nat) : BufTy := match i % 128 with
  | 0 => ⟨S100000x128, .f32⟩
  | 1 => ⟨S700000, .i32⟩
  | 2 => ⟨S700000, .i32⟩
  | 3 => ⟨S128x128, .f32⟩
  | 4 => ⟨S128, .f32⟩
  | 5 => ⟨S4x128x128, .f32⟩
  | 6 => ⟨S4x128x128, .f32⟩
  | 7 => ⟨S4x128, .f32⟩
  | 8 => ⟨S4x128, .f32⟩
  | 9 => ⟨S_, .f32⟩
  | 10 => ⟨S700000, .f32⟩
  | 11 => ⟨S_, .f32⟩
  | 12 => ⟨S100000, .f32⟩
  | 13 => ⟨S700000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S700000, .i32⟩
  | 28 => ⟨S700000, .i1⟩
  | 29 => ⟨S_, .i32⟩
  | 30 => ⟨S700000, .i32⟩
  | 31 => ⟨S700000, .i32⟩
  | 32 => ⟨S700000, .i32⟩
  | 33 => ⟨S700000x1, .i32⟩
  | 34 => ⟨S700000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S700000, .f32⟩
  | 45 => ⟨S100000x128, .f32⟩
  | 46 => ⟨S1x128, .f32⟩
  | 47 => ⟨S100000x128, .f32⟩
  | 48 => ⟨S100000x128, .f32⟩
  | 49 => ⟨S_, .i32⟩
  | 50 => ⟨S700000, .i32⟩
  | 51 => ⟨S700000, .i1⟩
  | 52 => ⟨S_, .i32⟩
  | 53 => ⟨S700000, .i32⟩
  | 54 => ⟨S700000, .i32⟩
  | 55 => ⟨S700000, .i32⟩
  | 56 => ⟨S700000x1, .i32⟩
  | 57 => ⟨S700000x128, .f32⟩
  | 58 => ⟨S700000x1, .f32⟩
  | 59 => ⟨S700000x128, .f32⟩
  | 60 => ⟨S700000x128, .f32⟩
  | 61 => ⟨S_, .f32⟩
  | 62 => ⟨S100000x128, .f32⟩
  | 63 => ⟨S700000x1, .i32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S100000x128, .f32⟩
  | 87 => ⟨S100000x128, .f32⟩
  | 88 => ⟨S100000x128, .f32⟩
  | 89 => ⟨S1x128x128, .f32⟩
  | 90 => ⟨S128x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S100000x128, .f32⟩
  | 109 => ⟨S100000x128, .f32⟩
  | 110 => ⟨S100000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S_, .i32⟩
  | 20 => ⟨S700000, .i32⟩
  | 21 => ⟨S700000, .i1⟩
  | 22 => ⟨S_, .i32⟩
  | 23 => ⟨S700000, .i32⟩
  | 24 => ⟨S700000, .i32⟩
  | 25 => ⟨S700000, .i32⟩
  | 26 => ⟨S700000x1, .i32⟩
  | 27 => ⟨S700000x128, .f32⟩
  | 28 => ⟨S700000x1, .f32⟩
  | 29 => ⟨S700000x128, .f32⟩
  | 30 => ⟨S700000x128, .f32⟩
  | 31 => ⟨S_, .f32⟩
  | 32 => ⟨S100000x128, .f32⟩
  | 33 => ⟨S700000x1, .i32⟩
  | 34 => ⟨S100000x128, .f32⟩
  | 35 => ⟨S_, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S_, .f32⟩
  | 42 => ⟨S_, .f32⟩
  | 43 => ⟨S_, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S_, .f32⟩
  | 54 => ⟨S_, .f32⟩
  | 55 => ⟨S_, .f32⟩
  | 56 => ⟨S100000x128, .f32⟩
  | 57 => ⟨S100000x128, .f32⟩
  | 58 => ⟨S100000x128, .f32⟩
  | 59 => ⟨S1x128x128, .f32⟩
  | 60 => ⟨S128x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .i32⟩
  | 118 => ⟨S700000, .i32⟩
  | 119 => ⟨S700000, .i1⟩
  | 120 => ⟨S_, .i32⟩
  | 121 => ⟨S700000, .i32⟩
  | 122 => ⟨S700000, .i32⟩
  | 123 => ⟨S700000, .i32⟩
  | 124 => ⟨S700000x1, .i32⟩
  | 125 => ⟨S700000x128, .f32⟩
  | 126 => ⟨S700000x1, .f32⟩
  | 127 => ⟨S700000x128, .f32⟩
  | _ => ⟨S100000x128, .f32⟩

abbrev hbmTy0_2 (i : Nat) : BufTy := match i % 128 with
  | 0 => ⟨S700000x128, .f32⟩
  | 1 => ⟨S_, .f32⟩
  | 2 => ⟨S100000x128, .f32⟩
  | 3 => ⟨S700000x1, .i32⟩
  | 4 => ⟨S100000x128, .f32⟩
  | 5 => ⟨S_, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .f32⟩
  | 12 => ⟨S_, .f32⟩
  | 13 => ⟨S_, .f32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S_, .f32⟩
  | 20 => ⟨S100000x128, .f32⟩
  | 21 => ⟨S100000x128, .f32⟩
  | 22 => ⟨S100000x128, .f32⟩
  | 23 => ⟨S_, .f32⟩
  | 24 => ⟨S_, .f32⟩
  | 25 => ⟨S_, .f32⟩
  | 26 => ⟨S100000x128, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S700000, .i32⟩
  | 89 => ⟨S700000, .i1⟩
  | 90 => ⟨S_, .i32⟩
  | 91 => ⟨S700000, .i32⟩
  | 92 => ⟨S700000, .i32⟩
  | 93 => ⟨S700000, .i32⟩
  | 94 => ⟨S700000x1, .i32⟩
  | 95 => ⟨S700000x128, .f32⟩
  | 96 => ⟨S700000x1, .f32⟩
  | 97 => ⟨S700000x128, .f32⟩
  | 98 => ⟨S700000x128, .f32⟩
  | 99 => ⟨S_, .f32⟩
  | 100 => ⟨S100000x128, .f32⟩
  | 101 => ⟨S700000x1, .i32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S_, .f32⟩
  | 111 => ⟨S_, .f32⟩
  | 112 => ⟨S100000x128, .f32⟩
  | 113 => ⟨S100000x128, .f32⟩
  | 114 => ⟨S1x128x128, .f32⟩
  | 115 => ⟨S128x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S_, .f32⟩
  | 123 => ⟨S_, .f32⟩
  | 124 => ⟨S100000x128, .f32⟩
  | 125 => ⟨S100000x128, .f32⟩
  | 126 => ⟨S100000x128, .f32⟩
  | 127 => ⟨S1x128x128, .f32⟩
  | _ => ⟨S100000x128, .f32⟩

abbrev hbmTy0_3 (i : Nat) : BufTy := match i % 128 with
  | 0 => ⟨S128x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_cst_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_15 : Ref sig .tc := ⟨.hbm, 83, rfl⟩
abbrev main_cst_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_18 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_c_20 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_cst_3 : Ref sig .tc := ⟨.hbm, 118, rfl⟩
abbrev main_call1_v12 : Ref sig .tc := ⟨.hbm, 119, rfl⟩
abbrev main_call1_cst_4 : Ref sig .tc := ⟨.hbm, 120, rfl⟩
abbrev main_call1_call0_v0 : Ref sig .tc := ⟨.hbm, 121, rfl⟩
abbrev main_call1_call0_v1 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_21 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_call2_cst : Ref sig .tc := ⟨.hbm, 144, rfl⟩
abbrev main_call2_v0 : Ref sig .tc := ⟨.hbm, 145, rfl⟩
abbrev main_v88 : Ref sig .tc := ⟨.hbm, 146, rfl⟩
abbrev main_c_22 : Ref sig .tc := ⟨.hbm, 147, rfl⟩
abbrev main_v89 : Ref sig .tc := ⟨.hbm, 148, rfl⟩
abbrev main_v90 : Ref sig .tc := ⟨.hbm, 149, rfl⟩
abbrev main_c_23 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_24 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_25 : Ref sig .tc := ⟨.hbm, 163, rfl⟩
abbrev main_v102 : Ref sig .tc := ⟨.hbm, 164, rfl⟩
abbrev main_v103 : Ref sig .tc := ⟨.hbm, 165, rfl⟩
abbrev main_cst_26 : Ref sig .tc := ⟨.hbm, 166, rfl⟩
abbrev main_v104 : Ref sig .tc := ⟨.hbm, 167, rfl⟩
abbrev main_v105 : Ref sig .tc := ⟨.hbm, 168, rfl⟩
abbrev main_cst_27 : Ref sig .tc := ⟨.hbm, 169, rfl⟩
abbrev main_cst_28 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_29 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_cst_30 : Ref sig .tc := ⟨.hbm, 181, rfl⟩
abbrev main_cst_31 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_cst_32 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_cst_33 : Ref sig .tc := ⟨.hbm, 194, rfl⟩
abbrev main_v125 : Ref sig .tc := ⟨.hbm, 195, rfl⟩
abbrev main_cst_34 : Ref sig .tc := ⟨.hbm, 196, rfl⟩
abbrev main_v126 : Ref sig .tc := ⟨.hbm, 197, rfl⟩
abbrev main_v127 : Ref sig .tc := ⟨.hbm, 198, rfl⟩
abbrev main_c_35 : Ref sig .tc := ⟨.hbm, 199, rfl⟩
abbrev main_call3_cst : Ref sig .tc := ⟨.hbm, 200, rfl⟩
abbrev main_call3_v0 : Ref sig .tc := ⟨.hbm, 201, rfl⟩
abbrev main_call3_v1 : Ref sig .tc := ⟨.hbm, 202, rfl⟩
abbrev main_call3_cst_0 : Ref sig .tc := ⟨.hbm, 203, rfl⟩
abbrev main_call3_v2 : Ref sig .tc := ⟨.hbm, 204, rfl⟩
abbrev main_call3_v3 : Ref sig .tc := ⟨.hbm, 205, rfl⟩
abbrev main_call3_v4 : Ref sig .tc := ⟨.hbm, 206, rfl⟩
abbrev main_call3_v5 : Ref sig .tc := ⟨.hbm, 207, rfl⟩
abbrev main_call3_v6 : Ref sig .tc := ⟨.hbm, 208, rfl⟩
abbrev main_call3_v7 : Ref sig .tc := ⟨.hbm, 209, rfl⟩
abbrev main_call3_cst_1 : Ref sig .tc := ⟨.hbm, 210, rfl⟩
abbrev main_call3_v8 : Ref sig .tc := ⟨.hbm, 211, rfl⟩
abbrev main_call3_cst_2 : Ref sig .tc := ⟨.hbm, 212, rfl⟩
abbrev main_call3_v9 : Ref sig .tc := ⟨.hbm, 213, rfl⟩
abbrev main_call3_v10 : Ref sig .tc := ⟨.hbm, 214, rfl⟩
abbrev main_call3_v11 : Ref sig .tc := ⟨.hbm, 215, rfl⟩
abbrev main_call3_cst_3 : Ref sig .tc := ⟨.hbm, 216, rfl⟩
abbrev main_call3_v12 : Ref sig .tc := ⟨.hbm, 217, rfl⟩
abbrev main_call3_cst_4 : Ref sig .tc := ⟨.hbm, 218, rfl⟩
abbrev main_call3_call0_v0 : Ref sig .tc := ⟨.hbm, 219, rfl⟩
abbrev main_call3_call0_v1 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_cst_36 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_call4_cst : Ref sig .tc := ⟨.hbm, 242, rfl⟩
abbrev main_call4_v0 : Ref sig .tc := ⟨.hbm, 243, rfl⟩
abbrev main_v148 : Ref sig .tc := ⟨.hbm, 244, rfl⟩
abbrev main_c_37 : Ref sig .tc := ⟨.hbm, 245, rfl⟩
abbrev main_v149 : Ref sig .tc := ⟨.hbm, 246, rfl⟩
abbrev main_v150 : Ref sig .tc := ⟨.hbm, 247, rfl⟩
abbrev main_c_38 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_cst_39 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_cst_40 : Ref sig .tc := ⟨.hbm, 261, rfl⟩
abbrev main_v162 : Ref sig .tc := ⟨.hbm, 262, rfl⟩
abbrev main_v163 : Ref sig .tc := ⟨.hbm, 263, rfl⟩
abbrev main_cst_41 : Ref sig .tc := ⟨.hbm, 264, rfl⟩
abbrev main_v164 : Ref sig .tc := ⟨.hbm, 265, rfl⟩
abbrev main_v165 : Ref sig .tc := ⟨.hbm, 266, rfl⟩
abbrev main_cst_42 : Ref sig .tc := ⟨.hbm, 267, rfl⟩
abbrev main_cst_43 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_cst_44 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_cst_45 : Ref sig .tc := ⟨.hbm, 279, rfl⟩
abbrev main_cst_46 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_cst_47 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_cst_48 : Ref sig .tc := ⟨.hbm, 292, rfl⟩
abbrev main_v185 : Ref sig .tc := ⟨.hbm, 293, rfl⟩
abbrev main_cst_49 : Ref sig .tc := ⟨.hbm, 294, rfl⟩
abbrev main_v186 : Ref sig .tc := ⟨.hbm, 295, rfl⟩
abbrev main_v187 : Ref sig .tc := ⟨.hbm, 296, rfl⟩
abbrev main_c_50 : Ref sig .tc := ⟨.hbm, 297, rfl⟩
abbrev main_call5_cst : Ref sig .tc := ⟨.hbm, 298, rfl⟩
abbrev main_call5_v0 : Ref sig .tc := ⟨.hbm, 299, rfl⟩
abbrev main_call5_v1 : Ref sig .tc := ⟨.hbm, 300, rfl⟩
abbrev main_call5_cst_0 : Ref sig .tc := ⟨.hbm, 301, rfl⟩
abbrev main_call5_v2 : Ref sig .tc := ⟨.hbm, 302, rfl⟩
abbrev main_call5_v3 : Ref sig .tc := ⟨.hbm, 303, rfl⟩
abbrev main_call5_v4 : Ref sig .tc := ⟨.hbm, 304, rfl⟩
abbrev main_call5_v5 : Ref sig .tc := ⟨.hbm, 305, rfl⟩
abbrev main_call5_v6 : Ref sig .tc := ⟨.hbm, 306, rfl⟩
abbrev main_call5_v7 : Ref sig .tc := ⟨.hbm, 307, rfl⟩
abbrev main_call5_cst_1 : Ref sig .tc := ⟨.hbm, 308, rfl⟩
abbrev main_call5_v8 : Ref sig .tc := ⟨.hbm, 309, rfl⟩
abbrev main_call5_cst_2 : Ref sig .tc := ⟨.hbm, 310, rfl⟩
abbrev main_call5_v9 : Ref sig .tc := ⟨.hbm, 311, rfl⟩
abbrev main_call5_v10 : Ref sig .tc := ⟨.hbm, 312, rfl⟩
abbrev main_call5_v11 : Ref sig .tc := ⟨.hbm, 313, rfl⟩
abbrev main_call5_cst_3 : Ref sig .tc := ⟨.hbm, 314, rfl⟩
abbrev main_call5_v12 : Ref sig .tc := ⟨.hbm, 315, rfl⟩
abbrev main_call5_cst_4 : Ref sig .tc := ⟨.hbm, 316, rfl⟩
abbrev main_call5_call0_v0 : Ref sig .tc := ⟨.hbm, 317, rfl⟩
abbrev main_call5_call0_v1 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_cst_51 : Ref sig .tc := ⟨.hbm, 328, rfl⟩
abbrev main_v197 : Ref sig .tc := ⟨.hbm, 329, rfl⟩
abbrev main_v198 : Ref sig .tc := ⟨.hbm, 330, rfl⟩
abbrev main_v199 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_v203 : Ref sig .tc := ⟨.hbm, 335, rfl⟩
abbrev main_v204 : Ref sig .tc := ⟨.hbm, 336, rfl⟩
abbrev main_v205 : Ref sig .tc := ⟨.hbm, 337, rfl⟩
abbrev main_v206 : Ref sig .tc := ⟨.hbm, 338, rfl⟩
abbrev main_v207 : Ref sig .tc := ⟨.hbm, 339, rfl⟩
abbrev main_call6_cst : Ref sig .tc := ⟨.hbm, 340, rfl⟩
abbrev main_call6_v0 : Ref sig .tc := ⟨.hbm, 341, rfl⟩
abbrev main_v208 : Ref sig .tc := ⟨.hbm, 342, rfl⟩
abbrev main_c_52 : Ref sig .tc := ⟨.hbm, 343, rfl⟩
abbrev main_v209 : Ref sig .tc := ⟨.hbm, 344, rfl⟩
abbrev main_v210 : Ref sig .tc := ⟨.hbm, 345, rfl⟩
abbrev main_c_53 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_v215 : Ref sig .tc := ⟨.hbm, 351, rfl⟩
abbrev main_v216 : Ref sig .tc := ⟨.hbm, 352, rfl⟩
abbrev main_v217 : Ref sig .tc := ⟨.hbm, 353, rfl⟩
abbrev main_v218 : Ref sig .tc := ⟨.hbm, 354, rfl⟩
abbrev main_cst_54 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_cst_55 : Ref sig .tc := ⟨.hbm, 359, rfl⟩
abbrev main_v222 : Ref sig .tc := ⟨.hbm, 360, rfl⟩
abbrev main_v223 : Ref sig .tc := ⟨.hbm, 361, rfl⟩
abbrev main_cst_56 : Ref sig .tc := ⟨.hbm, 362, rfl⟩
abbrev main_v224 : Ref sig .tc := ⟨.hbm, 363, rfl⟩
abbrev main_v225 : Ref sig .tc := ⟨.hbm, 364, rfl⟩
abbrev main_cst_57 : Ref sig .tc := ⟨.hbm, 365, rfl⟩
abbrev main_cst_58 : Ref sig .tc := ⟨.hbm, 366, rfl⟩
abbrev main_v226 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_cst_59 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_cst_60 : Ref sig .tc := ⟨.hbm, 377, rfl⟩
abbrev main_cst_61 : Ref sig .tc := ⟨.hbm, 378, rfl⟩
abbrev main_v235 : Ref sig .tc := ⟨.hbm, 379, rfl⟩
abbrev main_v236 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_v240 : Ref sig .tc := ⟨.hbm, 384, rfl⟩
abbrev main_v241 : Ref sig .tc := ⟨.hbm, 385, rfl⟩
abbrev main_cst_62 : Ref sig .tc := ⟨.hbm, 386, rfl⟩
abbrev main_v242 : Ref sig .tc := ⟨.hbm, 387, rfl⟩
abbrev main_v243 : Ref sig .tc := ⟨.hbm, 388, rfl⟩
abbrev main_v244 : Ref sig .tc := ⟨.hbm, 389, rfl⟩
abbrev main_cst_63 : Ref sig .tc := ⟨.hbm, 390, rfl⟩
abbrev main_v245 : Ref sig .tc := ⟨.hbm, 391, rfl⟩
abbrev main_cst_64 : Ref sig .tc := ⟨.hbm, 392, rfl⟩
abbrev main_v246 : Ref sig .tc := ⟨.hbm, 393, rfl⟩
abbrev main_v247 : Ref sig .tc := ⟨.hbm, 394, rfl⟩
abbrev main_c_65 : Ref sig .tc := ⟨.hbm, 395, rfl⟩
abbrev main_call7_cst : Ref sig .tc := ⟨.hbm, 396, rfl⟩
abbrev main_call7_v0 : Ref sig .tc := ⟨.hbm, 397, rfl⟩
abbrev main_call7_v1 : Ref sig .tc := ⟨.hbm, 398, rfl⟩
abbrev main_call7_cst_0 : Ref sig .tc := ⟨.hbm, 399, rfl⟩
abbrev main_call7_v2 : Ref sig .tc := ⟨.hbm, 400, rfl⟩
abbrev main_call7_v3 : Ref sig .tc := ⟨.hbm, 401, rfl⟩
abbrev main_call7_v4 : Ref sig .tc := ⟨.hbm, 402, rfl⟩
abbrev main_call7_v5 : Ref sig .tc := ⟨.hbm, 403, rfl⟩
abbrev main_call7_v6 : Ref sig .tc := ⟨.hbm, 404, rfl⟩
abbrev main_call7_v7 : Ref sig .tc := ⟨.hbm, 405, rfl⟩
abbrev main_call7_cst_1 : Ref sig .tc := ⟨.hbm, 406, rfl⟩
abbrev main_call7_v8 : Ref sig .tc := ⟨.hbm, 407, rfl⟩
abbrev main_call7_cst_2 : Ref sig .tc := ⟨.hbm, 408, rfl⟩
abbrev main_call7_v9 : Ref sig .tc := ⟨.hbm, 409, rfl⟩
abbrev main_call7_v10 : Ref sig .tc := ⟨.hbm, 410, rfl⟩
abbrev main_call7_v11 : Ref sig .tc := ⟨.hbm, 411, rfl⟩
abbrev main_call7_cst_3 : Ref sig .tc := ⟨.hbm, 412, rfl⟩
abbrev main_call7_v12 : Ref sig .tc := ⟨.hbm, 413, rfl⟩
abbrev main_call7_cst_4 : Ref sig .tc := ⟨.hbm, 414, rfl⟩
abbrev main_call7_call0_v0 : Ref sig .tc := ⟨.hbm, 415, rfl⟩
abbrev main_call7_call0_v1 : Ref sig .tc := ⟨.hbm, 416, rfl⟩
abbrev main_v248 : Ref sig .tc := ⟨.hbm, 417, rfl⟩
abbrev main_v249 : Ref sig .tc := ⟨.hbm, 418, rfl⟩
abbrev main_v250 : Ref sig .tc := ⟨.hbm, 419, rfl⟩
abbrev main_v251 : Ref sig .tc := ⟨.hbm, 420, rfl⟩
abbrev main_v252 : Ref sig .tc := ⟨.hbm, 421, rfl⟩
abbrev main_v253 : Ref sig .tc := ⟨.hbm, 422, rfl⟩
abbrev main_v254 : Ref sig .tc := ⟨.hbm, 423, rfl⟩
abbrev main_v255 : Ref sig .tc := ⟨.hbm, 424, rfl⟩
abbrev main_v256 : Ref sig .tc := ⟨.hbm, 425, rfl⟩
abbrev main_cst_66 : Ref sig .tc := ⟨.hbm, 426, rfl⟩
abbrev main_v257 : Ref sig .tc := ⟨.hbm, 427, rfl⟩
abbrev main_v258 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_v262 : Ref sig .tc := ⟨.hbm, 432, rfl⟩
abbrev main_v263 : Ref sig .tc := ⟨.hbm, 433, rfl⟩
abbrev main_v264 : Ref sig .tc := ⟨.hbm, 434, rfl⟩
abbrev main_v265 : Ref sig .tc := ⟨.hbm, 435, rfl⟩
abbrev main_v266 : Ref sig .tc := ⟨.hbm, 436, rfl⟩
abbrev main_v267 : Ref sig .tc := ⟨.hbm, 437, rfl⟩
abbrev main_call8_cst : Ref sig .tc := ⟨.hbm, 438, rfl⟩
abbrev main_call8_v0 : Ref sig .tc := ⟨.hbm, 439, rfl⟩
abbrev main_v268 : Ref sig .tc := ⟨.hbm, 440, rfl⟩

abbrev nD : Nat := 1
abbrev τ : Topo := Topo.v7x

variable {F : FTy → Type} [FloatOps F]

class Facts₀ : Prop where
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.RefRun1.lean ====
import proofs.«163161_j55817394979591_1_alg».proof.Proof.Gen.ReferenceIdeal
import Idealize.ShloMosaic.Lib.StableHlo.Run

/-! The reference program's @main, statements of its window 0, as a list of host operations: the outlined functions'
    bodies are written out at their call sites over the call's buffer record, in the order the callee runs them. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order. -/
abbrev ops0 : List (HloOp τ sig (Elt F)) :=
  [ StableHlo.nullary main_cst (constant S_ .f32 0x3F800000#32),
    StableHlo.unary main_cst main_v0 (broadcastInDim S700000 ![] bcast_S_S700000 : (⟨S_, .f32⟩ : BufTy).Contents (Elt F) → (⟨S700000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S700000x1 ![0] bcast_S700000_S700000x1_0 : (⟨S700000, .i32⟩ : BufTy).Contents (Elt F) → (⟨S700000x1, .i32⟩ : BufTy).Contents (Elt F)),
    StableHlo.ternary main_v1 main_v2 main_v0 main_v3 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v3 main_v6 main_v7 (maximumf : (⟨S100000, .f32⟩ : BufTy).Contents (Elt F) → (⟨S100000, .f32⟩ : BufTy).Contents (Elt F) → (⟨S100000, .f32⟩ : BufTy).Contents (Elt F)),
    StableHlo.unary main_v7 main_v8 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v5) (.of main_v8) main_call0.v1 main_call0.v2 select,
    StableHlo.nullary main_c (constantI S_ 32 0#32),
    StableHlo.unary main_c main_v10 (broadcastInDim S700000 ![] bcast_S_S700000 : (⟨S_, .i32⟩ : BufTy).Contents (Elt F) → (⟨S700000, .i32⟩ : BufTy).Contents (Elt F)),
    StableHlo.binary main_arg1 main_v10 main_v11 (cmpi .slt : (⟨S700000, .i32⟩ : BufTy).Contents (Elt F) → (⟨S700000, .i32⟩ : BufTy).Contents (Elt F) → (⟨S700000, .i1⟩ : BufTy).Contents (Elt F)),
    StableHlo.nullary main_c_4 (constantI S_ 32 100000#32),
    StableHlo.unary main_c_4 main_v12 (broadcastInDim S700000 ![] bcast_S_S700000 : (⟨S_, .i32⟩ : BufTy).Contents (Elt F) → (⟨S700000, .i32⟩ : BufTy).Contents (Elt F)),
    StableHlo.binary main_arg1 main_v12 main_v13 (addi : (⟨S700000, .i32⟩ : BufTy).Contents (Elt F) → (⟨S700000, .i32⟩ : BufTy).Contents (Elt F) → (⟨S700000, .i32⟩ : BufTy).Contents (Elt F)),
    StableHlo.ternary main_v11 main_v13 main_arg1 main_v14 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v14 main_v15 (broadcastInDim S700000x1 ![0] bcast_S700000_S700000x1_0 : (⟨S700000, .i32⟩ : BufTy).Contents (Elt F) → (⟨S700000x1, .i32⟩ : BufTy).Contents (Elt F)),
    StableHlo.binary main_v9 main_v15 main_v16 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.nullary main_c_5 (constantI S_ 32 0#32),
    StableHlo.unary main_c_5 main_v17 (broadcastInDim S700000 ![] bcast_S_S700000 : (⟨S_, .i32⟩ : BufTy).Contents (Elt F) → (⟨S700000, .i32⟩ : BufTy).Contents (Elt F)),
    StableHlo.binary main_arg2 main_v17 main_v18 (cmpi .slt : (⟨S700000, .i32⟩ : BufTy).Contents (Elt F) → (⟨S700000, .i32⟩ : BufTy).Contents (Elt F) → (⟨S700000, .i1⟩ : BufTy).Contents (Elt F)),
    StableHlo.nullary main_c_6 (constantI S_ 32 100000#32),
    StableHlo.unary main_c_6 main_v19 (broadcastInDim S700000 ![] bcast_S_S700000 : (⟨S_, .i32⟩ : BufTy).Contents (Elt F) → (⟨S700000, .i32⟩ : BufTy).Contents (Elt F)),
    StableHlo.binary main_arg2 main_v19 main_v20 (addi : (⟨S700000, .i32⟩ : BufTy).Contents (Elt F) → (⟨S700000, .i32⟩ : BufTy).Contents (Elt F) → (⟨S700000, .i32⟩ : BufTy).Contents (Elt F)),
    StableHlo.ternary main_v18 main_v20 main_arg2 main_v21 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v21 main_v22 (broadcastInDim S700000x1 ![0] bcast_S700000_S700000x1_0 : (⟨S700000, .i32⟩ : BufTy).Contents (Elt F) → (⟨S700000x1, .i32⟩ : BufTy).Contents (Elt F)),
    StableHlo.binary main_v9 main_v22 main_v23 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.binary main_v16 main_v23 main_v24 (mulf : (⟨S700000, .f32⟩ : BufTy).Contents (Elt F) → (⟨S700000, .f32⟩ : BufTy).Contents (Elt F) → (⟨S700000, .f32⟩ : BufTy).Contents (Elt F)),
    StableHlo.binary main_arg0 main_arg3 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)),
    StableHlo.nullary main_c_7 (constantI S_ 32 0#32),
    StableHlo.unary main_c_7 main_v29 (broadcastInDim S700000 ![] bcast_S_S700000 : (⟨S_, .i32⟩ : BufTy).Contents (Elt F) → (⟨S700000, .i32⟩ : BufTy).Contents (Elt F)),
    StableHlo.binary main_arg1 main_v29 main_v30 (cmpi .slt : (⟨S700000, .i32⟩ : BufTy).Contents (Elt F) → (⟨S700000, .i32⟩ : BufTy).Contents (Elt F) → (⟨S700000, .i1⟩ : BufTy).Contents (Elt F)),
    StableHlo.nullary main_c_8 (constantI S_ 32 100000#32),
    StableHlo.unary main_c_8 main_v31 (broadcastInDim S700000 ![] bcast_S_S700000 : (⟨S_, .i32⟩ : BufTy).Contents (Elt F) → (⟨S700000, .i32⟩ : BufTy).Contents (Elt F)),
    StableHlo.binary main_arg1 main_v31 main_v32 (addi : (⟨S700000, .i32⟩ : BufTy).Contents (Elt F) → (⟨S700000, .i32⟩ : BufTy).Contents (Elt F) → (⟨S700000, .i32⟩ : BufTy).Contents (Elt F)),
    StableHlo.ternary main_v30 main_v32 main_arg1 main_v33 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v33 main_v34 (broadcastInDim S700000x1 ![0] bcast_S700000_S700000x1_0 : (⟨S700000, .i32⟩ : BufTy).Contents (Elt F) → (⟨S700000x1, .i32⟩ : BufTy).Contents (Elt F)),
    StableHlo.binary main_v28 main_v34 main_v35 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v24 main_v36 (broadcastInDim S700000x1 ![0] bcast_S700000_S700000x1_0 : (⟨S700000, .f32⟩ : BufTy).Contents (Elt F) → (⟨S700000x1, .f32⟩ : BufTy).Contents (Elt F)),
    StableHlo.unary main_v36 main_v37 (broadcastInDim S700000x128 ![0, 1] bcast_S700000x1_S700000x128_0_1 : (⟨S700000x1, .f32⟩ : BufTy).Contents (Elt F) → (⟨S700000x128, .f32⟩ : BufTy).Contents (Elt F)),
    StableHlo.binary main_v35 main_v37 main_v38 (mulf : (⟨S700000x128, .f32⟩ : BufTy).Contents (Elt F) → (⟨S700000x128, .f32⟩ : BufTy).Contents (Elt F) → (⟨S700000x128, .f32⟩ : BufTy).Contents (Elt F)),
    StableHlo.nullary main_cst_9 (constant S_ .f32 0x00000000#32),
    StableHlo.unary main_cst_9 main_v39 (broadcastInDim S100000x128 ![] bcast_S_S100000x128 : (⟨S_, .f32⟩ : BufTy).Contents (Elt F) → (⟨S100000x128, .f32⟩ : BufTy).Contents (Elt F)),
    StableHlo.unary main_arg2 main_v40 (broadcastInDim S700000x1 ![0] bcast_S700000_S700000x1_0 : (⟨S700000, .i32⟩ : BufTy).Contents (Elt F) → (⟨S700000x1, .i32⟩ : BufTy).Contents (Elt F)),
    StableHlo.ternary main_v39 main_v40 main_v38 main_v41 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    StableHlo.nullary main_cst_10 (constant S_ .f32 0x3F000000#32),
    StableHlo.unary main_cst_10 main_v42 (broadcastInDim S100000x128 ![] bcast_S_S100000x128 : (⟨S_, .f32⟩ : BufTy).Contents (Elt F) → (⟨S100000x128, .f32⟩ : BufTy).Contents (Elt F)),
    StableHlo.binary main_v42 main_v41 main_v43 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3F000000#32),
    StableHlo.unary main_cst_11 main_v44 (broadcastInDim S100000x128 ![] bcast_S_S100000x128 : (⟨S_, .f32⟩ : BufTy).Contents (Elt F) → (⟨S100000x128, .f32⟩ : BufTy).Contents (Elt F)),
    StableHlo.binary main_v44 main_v28 main_v45 (mulf : (⟨S100000x128, .f32⟩ : BufTy).Contents (Elt F) → (⟨S100000x128, .f32⟩ : BufTy).Contents (Elt F) → (⟨S100000x128, .f32⟩ : BufTy).Contents (Elt F)) ]

/-- The buffer each of them writes, in the same order. -/
abbrev W0 : List (Ref sig .tc) :=
  [ main_cst, main_v0, main_cst_0, main_v1, main_v2, main_v3, main_cst_1, main_v4, main_v5, main_cst_2, main_v6, main_v7, main_v8, main_cst_3, main_call0_v0, main_call0_v1, main_v9, main_c, main_v10, main_v11, main_c_4, main_v12, main_v13, main_v14, main_v15, main_v16, main_c_5, main_v17, main_v18, main_c_6, main_v19, main_v20, main_v21, main_v22, main_v23, main_v24, main_v25, main_v26, main_v27, main_v28, main_c_7, main_v29, main_v30, main_c_8, main_v31, main_v32, main_v33, main_v34, main_v35, main_v36, main_v37, main_v38, main_cst_9, main_v39, main_v40, main_v41, main_cst_10, main_v42, main_v43, main_cst_11, main_v44, main_v45 ]

/-- The window is that straight line: the callees' definitions opened at their calls, sequencing reassociated. -/
theorem part0_eq (d : Dev nD) : main_part0 (F := F) d = seq ops0 := by
  simp only [main_part0, fn_where.body, fn_where_0.body, fn_var.body, fn_relu.body, seq, bind_assoc, pure_bind]
  rfl

/-- Every operation touches TensorCore references only. -/
theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

/-- Each operation writes exactly the buffer listed beside it. -/
theorem ops0_writes : List.Forall₂ (fun op y => op.writes = {Proc.devRef (τ := τ) .tc y}) (ops0 (F := F)) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))

/-- Every operation determines all it writes (none is an allocation). -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefRun2.lean ====
import proofs.«163161_j55817394979591_1_alg».proof.Proof.Gen.ReferenceIdeal
import Idealize.ShloMosaic.Lib.StableHlo.Run

/-! The reference program's @main, statements of its window 1, as a list of host operations: the outlined functions'
    bodies are written out at their call sites over the call's buffer record, in the order the callee runs them. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 1, in order. -/
abbrev ops1 : List (HloOp τ sig (Elt F)) :=
  [ StableHlo.nullary main_cst_12 (constant S_ .f32 0x3F800000#32),
    StableHlo.nullary main_cst_13 (constant S_ .f32 0x3F317218#32),
    StableHlo.binary main_cst_12 main_cst_13 main_v46 (subf : (⟨S_, .f32⟩ : BufTy).Contents (Elt F) → (⟨S_, .f32⟩ : BufTy).Contents (Elt F) → (⟨S_, .f32⟩ : BufTy).Contents (Elt F)),
    StableHlo.unary main_v46 main_v47 (broadcastInDim S100000x128 ![] bcast_S_S100000x128 : (⟨S_, .f32⟩ : BufTy).Contents (Elt F) → (⟨S100000x128, .f32⟩ : BufTy).Contents (Elt F)),
    StableHlo.binary main_v47 main_v43 main_v48 (mulf : (⟨S100000x128, .f32⟩ : BufTy).Contents (Elt F) → (⟨S100000x128, .f32⟩ : BufTy).Contents (Elt F) → (⟨S100000x128, .f32⟩ : BufTy).Contents (Elt F)),
    StableHlo.unary main_arg5 main_v49 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v49 main_v50 rfl shapeCasts_S1x128x128_S128x128,
    StableHlo.binary main_v43 main_v50 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_14 (constant S_ .f32 0x3F317218#32),
    StableHlo.unary main_cst_14 main_v52 (broadcastInDim S100000x128 ![] bcast_S_S100000x128 : (⟨S_, .f32⟩ : BufTy).Contents (Elt F) → (⟨S100000x128, .f32⟩ : BufTy).Contents (Elt F)),
    StableHlo.binary main_v52 main_v51 main_v53 (mulf : (⟨S100000x128, .f32⟩ : BufTy).Contents (Elt F) → (⟨S100000x128, .f32⟩ : BufTy).Contents (Elt F) → (⟨S100000x128, .f32⟩ : BufTy).Contents (Elt F)),
    StableHlo.binary main_v48 main_v53 main_v54 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3F800000#32),
    StableHlo.nullary main_cst_16 (constant S_ .f32 0x3F317218#32),
    StableHlo.binary main_cst_15 main_cst_16 main_v55 (subf : (⟨S_, .f32⟩ : BufTy).Contents (Elt F) → (⟨S_, .f32⟩ : BufTy).Contents (Elt F) → (⟨S_, .f32⟩ : BufTy).Contents (Elt F)),
    StableHlo.unary main_v55 main_v56 (broadcastInDim S100000x128 ![] bcast_S_S100000x128 : (⟨S_, .f32⟩ : BufTy).Contents (Elt F) → (⟨S100000x128, .f32⟩ : BufTy).Contents (Elt F)),
    StableHlo.binary main_v56 main_v45 main_v57 (mulf : (⟨S100000x128, .f32⟩ : BufTy).Contents (Elt F) → (⟨S100000x128, .f32⟩ : BufTy).Contents (Elt F) → (⟨S100000x128, .f32⟩ : BufTy).Contents (Elt F)),
    StableHlo.binary main_v54 main_v57 main_v58 (addf : (⟨S100000x128, .f32⟩ : BufTy).Contents (Elt F) → (⟨S100000x128, .f32⟩ : BufTy).Contents (Elt F) → (⟨S100000x128, .f32⟩ : BufTy).Contents (Elt F)),
    StableHlo.unary main_arg6 main_v59 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v59 main_v60 rfl shapeCasts_S1x128x128_S128x128,
    StableHlo.binary main_v45 main_v60 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_17 (constant S_ .f32 0x3F317218#32),
    StableHlo.unary main_cst_17 main_v62 (broadcastInDim S100000x128 ![] bcast_S_S100000x128 : (⟨S_, .f32⟩ : BufTy).Contents (Elt F) → (⟨S100000x128, .f32⟩ : BufTy).Contents (Elt F)),
    StableHlo.binary main_v62 main_v61 main_v63 (mulf : (⟨S100000x128, .f32⟩ : BufTy).Contents (Elt F) → (⟨S100000x128, .f32⟩ : BufTy).Contents (Elt F) → (⟨S100000x128, .f32⟩ : BufTy).Contents (Elt F)),
    StableHlo.binary main_v58 main_v63 main_v64 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.binary main_v64 main_cst_18 main_v65 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v66 (broadcastInDim S128 ![] bcast_S_S128 : (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call1.cst (constant S_ .f32 0x00000000#32),
    StableHlo.TRef.binary (.of main_v64) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v64) main_call1.v4 main_call1.v5 subf,
    StableHlo.TRef.binary main_call1.v5 main_call1.v5 main_call1.v6 mulf,
    StableHlo.TRef.unary (.of main_c_20) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1_call0.v0 id,
    StableHlo.TRef.unary main_call1_call0.v0 main_call1_call0.v1 (broadcastInDim S128 ![] bcast_S_S128),
    StableHlo.TRef.ternary main_call1.v12 main_call1.v11 main_call1_call0.v1 main_call1_call0.v2 (fun p a b => select (broadcastInDim S128 ![] bcast_S_S128 p) a b),
    StableHlo.unary main_arg7 main_v69 ((extractStridedSlice S1x128 ![0, 0] · slices_S4x128_S1x128_0_0) : (⟨S4x128, .f32⟩ : BufTy).Contents (Elt F) → (⟨S1x128, .f32⟩ : BufTy).Contents (Elt F)),
    StableHlo.reshape main_v69 main_v70 rfl shapeCasts_S1x128_S128,
    StableHlo.unary main_v67 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v72 main_v73 (subf : (⟨S100000x128, .f32⟩ : BufTy).Contents (Elt F) → (⟨S100000x128, .f32⟩ : BufTy).Contents (Elt F) → (⟨S100000x128, .f32⟩ : BufTy).Contents (Elt F)),
    StableHlo.unary main_v70 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v73 main_v76 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v77 (broadcastInDim S128 ![] bcast_S_S128 : (⟨S_, .f32⟩ : BufTy).Contents (Elt F) → (⟨S128, .f32⟩ : BufTy).Contents (Elt F)),
    StableHlo.binary main_v68 main_v77 main_v78 (addf : (⟨S128, .f32⟩ : BufTy).Contents (Elt F) → (⟨S128, .f32⟩ : BufTy).Contents (Elt F) → (⟨S128, .f32⟩ : BufTy).Contents (Elt F)),
    StableHlo.unary main_v78 main_v79 (Host.rsqrt : (⟨S128, .f32⟩ : BufTy).Contents (Elt F) → (⟨S128, .f32⟩ : BufTy).Contents (Elt F)),
    StableHlo.unary main_v79 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v81 main_v82 (mulf : (⟨S100000x128, .f32⟩ : BufTy).Contents (Elt F) → (⟨S100000x128, .f32⟩ : BufTy).Contents (Elt F) → (⟨S100000x128, .f32⟩ : BufTy).Contents (Elt F)),
    StableHlo.unary main_arg8 main_v83 ((extractStridedSlice S1x128 ![0, 0] · slices_S4x128_S1x128_0_0) : (⟨S4x128, .f32⟩ : BufTy).Contents (Elt F) → (⟨S1x128, .f32⟩ : BufTy).Contents (Elt F)),
    StableHlo.reshape main_v83 main_v84 rfl shapeCasts_S1x128_S128,
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v86 main_v87 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v87) main_call2.v0 main_call2.v1 maximumf,
    StableHlo.nullary main_c_22 (constantI S_ 32 0#32),
    StableHlo.unary main_c_22 main_v89 (broadcastInDim S700000 ![] bcast_S_S700000 : (⟨S_, .i32⟩ : BufTy).Contents (Elt F) → (⟨S700000, .i32⟩ : BufTy).Contents (Elt F)),
    StableHlo.binary main_arg1 main_v89 main_v90 (cmpi .slt : (⟨S700000, .i32⟩ : BufTy).Contents (Elt F) → (⟨S700000, .i32⟩ : BufTy).Contents (Elt F) → (⟨S700000, .i1⟩ : BufTy).Contents (Elt F)),
    StableHlo.nullary main_c_23 (constantI S_ 32 100000#32),
    StableHlo.unary main_c_23 main_v91 (broadcastInDim S700000 ![] bcast_S_S700000 : (⟨S_, .i32⟩ : BufTy).Contents (Elt F) → (⟨S700000, .i32⟩ : BufTy).Contents (Elt F)),
    StableHlo.binary main_arg1 main_v91 main_v92 (addi : (⟨S700000, .i32⟩ : BufTy).Contents (Elt F) → (⟨S700000, .i32⟩ : BufTy).Contents (Elt F) → (⟨S700000, .i32⟩ : BufTy).Contents (Elt F)),
    StableHlo.ternary main_v90 main_v92 main_arg1 main_v93 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)) ]

/-- The buffer each of them writes, in the same order. -/
abbrev W1 : List (Ref sig .tc) :=
  [ main_cst_12, main_cst_13, main_v46, main_v47, main_v48, main_v49, main_v50, main_v51, main_cst_14, main_v52, main_v53, main_v54, main_cst_15, main_cst_16, main_v55, main_v56, main_v57, main_v58, main_v59, main_v60, main_v61, main_cst_17, main_v62, main_v63, main_v64, main_cst_18, main_v65, main_cst_19, main_v66, main_v67, main_c_20, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v68, main_v69, main_v70, main_v71, main_v72, main_v73, main_v74, main_v75, main_v76, main_cst_21, main_v77, main_v78, main_v79, main_v80, main_v81, main_v82, main_v83, main_v84, main_v85, main_v86, main_v87, main_call2_cst, main_call2_v0, main_v88, main_c_22, main_v89, main_v90, main_c_23, main_v91, main_v92, main_v93 ]

/-- The window is that straight line: the callees' definitions opened at their calls, sequencing reassociated. -/
theorem part1_eq (d : Dev nD) : main_part1 (F := F) d = seq ops1 := by
  simp only [main_part1, fn_where.body, fn_where_0.body, fn_var.body, fn_relu.body, seq, bind_assoc, pure_bind]
  rfl

/-- Every operation touches TensorCore references only. -/
theorem ops1_sub : (ops1 : List (HloOp τ sig (Elt F))).Forall fun op => op.bufs ⊆ tcRefs τ sig :=
  ⟨nullary_bufs_sub .., nullary_bufs_sub .., binary_bufs_sub .., unary_bufs_sub .., binary_bufs_sub .., unary_bufs_sub .., reshape_bufs_sub .., binary_bufs_sub .., nullary_bufs_sub .., unary_bufs_sub .., binary_bufs_sub .., binary_bufs_sub .., nullary_bufs_sub .., nullary_bufs_sub .., binary_bufs_sub .., unary_bufs_sub .., binary_bufs_sub .., binary_bufs_sub .., unary_bufs_sub .., reshape_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

/-- Each operation writes exactly the buffer listed beside it. -/
theorem ops1_writes : List.Forall₂ (fun op y => op.writes = {Proc.devRef (τ := τ) .tc y}) (ops1 (F := F)) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))

/-- Every operation determines all it writes (none is an allocation). -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefRun3.lean ====
import proofs.«163161_j55817394979591_1_alg».proof.Proof.Gen.ReferenceIdeal
import Idealize.ShloMosaic.Lib.StableHlo.Run

/-! The reference program's @main, statements of its window 2, as a list of host operations: the outlined functions'
    bodies are written out at their call sites over the call's buffer record, in the order the callee runs them. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 2, in order. -/
abbrev ops2 : List (HloOp τ sig (Elt F)) :=
  [ StableHlo.unary main_v93 main_v94 (broadcastInDim S700000x1 ![0] bcast_S700000_S700000x1_0 : (⟨S700000, .i32⟩ : BufTy).Contents (Elt F) → (⟨S700000x1, .i32⟩ : BufTy).Contents (Elt F)),
    StableHlo.binary main_v88 main_v94 main_v95 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v24 main_v96 (broadcastInDim S700000x1 ![0] bcast_S700000_S700000x1_0 : (⟨S700000, .f32⟩ : BufTy).Contents (Elt F) → (⟨S700000x1, .f32⟩ : BufTy).Contents (Elt F)),
    StableHlo.unary main_v96 main_v97 (broadcastInDim S700000x128 ![0, 1] bcast_S700000x1_S700000x128_0_1 : (⟨S700000x1, .f32⟩ : BufTy).Contents (Elt F) → (⟨S700000x128, .f32⟩ : BufTy).Contents (Elt F)),
    StableHlo.binary main_v95 main_v97 main_v98 (mulf : (⟨S700000x128, .f32⟩ : BufTy).Contents (Elt F) → (⟨S700000x128, .f32⟩ : BufTy).Contents (Elt F) → (⟨S700000x128, .f32⟩ : BufTy).Contents (Elt F)),
    StableHlo.nullary main_cst_24 (constant S_ .f32 0x00000000#32),
    StableHlo.unary main_cst_24 main_v99 (broadcastInDim S100000x128 ![] bcast_S_S100000x128 : (⟨S_, .f32⟩ : BufTy).Contents (Elt F) → (⟨S100000x128, .f32⟩ : BufTy).Contents (Elt F)),
    StableHlo.unary main_arg2 main_v100 (broadcastInDim S700000x1 ![0] bcast_S700000_S700000x1_0 : (⟨S700000, .i32⟩ : BufTy).Contents (Elt F) → (⟨S700000x1, .i32⟩ : BufTy).Contents (Elt F)),
    StableHlo.ternary main_v99 main_v100 main_v98 main_v101 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    StableHlo.nullary main_cst_25 (constant S_ .f32 0x3F000000#32),
    StableHlo.unary main_cst_25 main_v102 (broadcastInDim S100000x128 ![] bcast_S_S100000x128 : (⟨S_, .f32⟩ : BufTy).Contents (Elt F) → (⟨S100000x128, .f32⟩ : BufTy).Contents (Elt F)),
    StableHlo.binary main_v102 main_v101 main_v103 (mulf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3F000000#32),
    StableHlo.unary main_cst_26 main_v104 (broadcastInDim S100000x128 ![] bcast_S_S100000x128 : (⟨S_, .f32⟩ : BufTy).Contents (Elt F) → (⟨S100000x128, .f32⟩ : BufTy).Contents (Elt F)),
    StableHlo.binary main_v104 main_v28 main_v105 (mulf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3F800000#32),
    StableHlo.nullary main_cst_28 (constant S_ .f32 0x3ECF991F#32),
    StableHlo.binary main_cst_27 main_cst_28 main_v106 (subf : (⟨S_, .f32⟩ : BufTy).Contents (Elt F) → (⟨S_, .f32⟩ : BufTy).Contents (Elt F) → (⟨S_, .f32⟩ : BufTy).Contents (Elt F)),
    StableHlo.unary main_v106 main_v107 (broadcastInDim S100000x128 ![] bcast_S_S100000x128 : (⟨S_, .f32⟩ : BufTy).Contents (Elt F) → (⟨S100000x128, .f32⟩ : BufTy).Contents (Elt F)),
    StableHlo.binary main_v107 main_v103 main_v108 (mulf : (⟨S100000x128, .f32⟩ : BufTy).Contents (Elt F) → (⟨S100000x128, .f32⟩ : BufTy).Contents (Elt F) → (⟨S100000x128, .f32⟩ : BufTy).Contents (Elt F)),
    StableHlo.unary main_arg5 main_v109 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v109 main_v110 rfl shapeCasts_S1x128x128_S128x128,
    StableHlo.binary main_v103 main_v110 main_v111 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_29 (constant S_ .f32 0x3ECF991F#32),
    StableHlo.unary main_cst_29 main_v112 (broadcastInDim S100000x128 ![] bcast_S_S100000x128 : (⟨S_, .f32⟩ : BufTy).Contents (Elt F) → (⟨S100000x128, .f32⟩ : BufTy).Contents (Elt F)),
    StableHlo.binary main_v112 main_v111 main_v113 (mulf : (⟨S100000x128, .f32⟩ : BufTy).Contents (Elt F) → (⟨S100000x128, .f32⟩ : BufTy).Contents (Elt F) → (⟨S100000x128, .f32⟩ : BufTy).Contents (Elt F)),
    StableHlo.binary main_v108 main_v113 main_v114 (addf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3F800000#32),
    StableHlo.nullary main_cst_31 (constant S_ .f32 0x3ECF991F#32),
    StableHlo.binary main_cst_30 main_cst_31 main_v115 (subf : (⟨S_, .f32⟩ : BufTy).Contents (Elt F) → (⟨S_, .f32⟩ : BufTy).Contents (Elt F) → (⟨S_, .f32⟩ : BufTy).Contents (Elt F)),
    StableHlo.unary main_v115 main_v116 (broadcastInDim S100000x128 ![] bcast_S_S100000x128 : (⟨S_, .f32⟩ : BufTy).Contents (Elt F) → (⟨S100000x128, .f32⟩ : BufTy).Contents (Elt F)),
    StableHlo.binary main_v116 main_v105 main_v117 (mulf : (⟨S100000x128, .f32⟩ : BufTy).Contents (Elt F) → (⟨S100000x128, .f32⟩ : BufTy).Contents (Elt F) → (⟨S100000x128, .f32⟩ : BufTy).Contents (Elt F)),
    StableHlo.binary main_v114 main_v117 main_v118 (addf : (⟨S100000x128, .f32⟩ : BufTy).Contents (Elt F) → (⟨S100000x128, .f32⟩ : BufTy).Contents (Elt F) → (⟨S100000x128, .f32⟩ : BufTy).Contents (Elt F)),
    StableHlo.unary main_arg6 main_v119 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v119 main_v120 rfl shapeCasts_S1x128x128_S128x128,
    StableHlo.binary main_v105 main_v120 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_32 (constant S_ .f32 0x3ECF991F#32),
    StableHlo.unary main_cst_32 main_v122 (broadcastInDim S100000x128 ![] bcast_S_S100000x128 : (⟨S_, .f32⟩ : BufTy).Contents (Elt F) → (⟨S100000x128, .f32⟩ : BufTy).Contents (Elt F)),
    StableHlo.binary main_v122 main_v121 main_v123 (mulf : (⟨S100000x128, .f32⟩ : BufTy).Contents (Elt F) → (⟨S100000x128, .f32⟩ : BufTy).Contents (Elt F) → (⟨S100000x128, .f32⟩ : BufTy).Contents (Elt F)),
    StableHlo.binary main_v118 main_v123 main_v124 (addf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x00000000#32),
    StableHlo.binary main_v124 main_cst_33 main_v125 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_34 (constant S_ .f32 0x47C35000#32),
    StableHlo.unary main_cst_34 main_v126 (broadcastInDim S128 ![] bcast_S_S128 : (⟨S_, .f32⟩ : BufTy).Contents (Elt F) → (⟨S128, .f32⟩ : BufTy).Contents (Elt F)),
    StableHlo.binary main_v125 main_v126 main_v127 (Host.divf : (⟨S128, .f32⟩ : BufTy).Contents (Elt F) → (⟨S128, .f32⟩ : BufTy).Contents (Elt F) → (⟨S128, .f32⟩ : BufTy).Contents (Elt F)),
    StableHlo.nullary main_c_35 (constantI S_ 32 0#32),
    StableHlo.TRef.nullary main_call3.cst (constant S_ .f32 0x00000000#32),
    StableHlo.TRef.binary (.of main_v124) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v124) main_call3.v4 main_call3.v5 subf,
    StableHlo.TRef.binary main_call3.v5 main_call3.v5 main_call3.v6 mulf,
    StableHlo.TRef.unary (.of main_c_35) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3_call0.v0 id,
    StableHlo.TRef.unary main_call3_call0.v0 main_call3_call0.v1 (broadcastInDim S128 ![] bcast_S_S128),
    StableHlo.TRef.ternary main_call3.v12 main_call3.v11 main_call3_call0.v1 main_call3_call0.v2 (fun p a b => select (broadcastInDim S128 ![] bcast_S_S128 p) a b),
    StableHlo.unary main_arg7 main_v129 ((extractStridedSlice S1x128 ![1, 0] · slices_S4x128_S1x128_1_0) : (⟨S4x128, .f32⟩ : BufTy).Contents (Elt F) → (⟨S1x128, .f32⟩ : BufTy).Contents (Elt F)),
    StableHlo.reshape main_v129 main_v130 rfl shapeCasts_S1x128_S128,
    StableHlo.unary main_v127 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v132 main_v133 (subf : (⟨S100000x128, .f32⟩ : BufTy).Contents (Elt F) → (⟨S100000x128, .f32⟩ : BufTy).Contents (Elt F) → (⟨S100000x128, .f32⟩ : BufTy).Contents (Elt F)),
    StableHlo.unary main_v130 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v133 main_v136 (mulf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x3727C5AC#32),
    StableHlo.unary main_cst_36 main_v137 (broadcastInDim S128 ![] bcast_S_S128 : (⟨S_, .f32⟩ : BufTy).Contents (Elt F) → (⟨S128, .f32⟩ : BufTy).Contents (Elt F)),
    StableHlo.binary main_v128 main_v137 main_v138 (addf : (⟨S128, .f32⟩ : BufTy).Contents (Elt F) → (⟨S128, .f32⟩ : BufTy).Contents (Elt F) → (⟨S128, .f32⟩ : BufTy).Contents (Elt F)),
    StableHlo.unary main_v138 main_v139 (Host.rsqrt : (⟨S128, .f32⟩ : BufTy).Contents (Elt F) → (⟨S128, .f32⟩ : BufTy).Contents (Elt F)),
    StableHlo.unary main_v139 main_v140 (broadcastInDim S1x128 ![1] bcast_S128_S1x128_1 : (⟨S128, .f32⟩ : BufTy).Contents (Elt F) → (⟨S1x128, .f32⟩ : BufTy).Contents (Elt F)) ]

/-- The buffer each of them writes, in the same order. -/
abbrev W2 : List (Ref sig .tc) :=
  [ main_v94, main_v95, main_v96, main_v97, main_v98, main_cst_24, main_v99, main_v100, main_v101, main_cst_25, main_v102, main_v103, main_cst_26, main_v104, main_v105, main_cst_27, main_cst_28, main_v106, main_v107, main_v108, main_v109, main_v110, main_v111, main_cst_29, main_v112, main_v113, main_v114, main_cst_30, main_cst_31, main_v115, main_v116, main_v117, main_v118, main_v119, main_v120, main_v121, main_cst_32, main_v122, main_v123, main_v124, main_cst_33, main_v125, main_cst_34, main_v126, main_v127, main_c_35, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v128, main_v129, main_v130, main_v131, main_v132, main_v133, main_v134, main_v135, main_v136, main_cst_36, main_v137, main_v138, main_v139, main_v140 ]

/-- The window is that straight line: the callees' definitions opened at their calls, sequencing reassociated. -/
theorem part2_eq (d : Dev nD) : main_part2 (F := F) d = seq ops2 := by
  simp only [main_part2, fn_where.body, fn_where_0.body, fn_var.body, fn_relu.body, seq, bind_assoc, pure_bind]
  rfl

/-- Every operation touches TensorCore references only. -/
theorem ops2_sub : (ops2 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., nullary_bufs_sub .., binary_bufs_sub .., unary_bufs_sub .., binary_bufs_sub .., unary_bufs_sub .., reshape_bufs_sub .., binary_bufs_sub .., nullary_bufs_sub .., unary_bufs_sub .., binary_bufs_sub .., binary_bufs_sub .., nullary_bufs_sub .., nullary_bufs_sub .., binary_bufs_sub .., unary_bufs_sub .., binary_bufs_sub .., binary_bufs_sub .., unary_bufs_sub .., reshape_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩

/-- Each operation writes exactly the buffer listed beside it. -/
theorem ops2_writes : List.Forall₂ (fun op y => op.writes = {Proc.devRef (τ := τ) .tc y}) (ops2 (F := F)) W2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))

/-- Every operation determines all it writes (none is an allocation). -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefRun4.lean ====
import proofs.«163161_j55817394979591_1_alg».proof.Proof.Gen.ReferenceIdeal
import Idealize.ShloMosaic.Lib.StableHlo.Run

/-! The reference program's @main, statements of its window 3, as a list of host operations: the outlined functions'
    bodies are written out at their call sites over the call's buffer record, in the order the callee runs them. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 3, in order. -/
abbrev ops3 : List (HloOp τ sig (Elt F)) :=
  [ StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_arg8 main_v143 ((extractStridedSlice S1x128 ![1, 0] · slices_S4x128_S1x128_1_0) : (⟨S4x128, .f32⟩ : BufTy).Contents (Elt F) → (⟨S1x128, .f32⟩ : BufTy).Contents (Elt F)),
    StableHlo.reshape main_v143 main_v144 rfl shapeCasts_S1x128_S128,
    StableHlo.unary main_v144 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v146 main_v147 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v147) main_call4.v0 main_call4.v1 maximumf,
    StableHlo.nullary main_c_37 (constantI S_ 32 0#32),
    StableHlo.unary main_c_37 main_v149 (broadcastInDim S700000 ![] bcast_S_S700000 : (⟨S_, .i32⟩ : BufTy).Contents (Elt F) → (⟨S700000, .i32⟩ : BufTy).Contents (Elt F)),
    StableHlo.binary main_arg1 main_v149 main_v150 (cmpi .slt : (⟨S700000, .i32⟩ : BufTy).Contents (Elt F) → (⟨S700000, .i32⟩ : BufTy).Contents (Elt F) → (⟨S700000, .i1⟩ : BufTy).Contents (Elt F)),
    StableHlo.nullary main_c_38 (constantI S_ 32 100000#32),
    StableHlo.unary main_c_38 main_v151 (broadcastInDim S700000 ![] bcast_S_S700000 : (⟨S_, .i32⟩ : BufTy).Contents (Elt F) → (⟨S700000, .i32⟩ : BufTy).Contents (Elt F)),
    StableHlo.binary main_arg1 main_v151 main_v152 (addi : (⟨S700000, .i32⟩ : BufTy).Contents (Elt F) → (⟨S700000, .i32⟩ : BufTy).Contents (Elt F) → (⟨S700000, .i32⟩ : BufTy).Contents (Elt F)),
    StableHlo.ternary main_v150 main_v152 main_arg1 main_v153 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v153 main_v154 (broadcastInDim S700000x1 ![0] bcast_S700000_S700000x1_0 : (⟨S700000, .i32⟩ : BufTy).Contents (Elt F) → (⟨S700000x1, .i32⟩ : BufTy).Contents (Elt F)),
    StableHlo.binary main_v148 main_v154 main_v155 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v24 main_v156 (broadcastInDim S700000x1 ![0] bcast_S700000_S700000x1_0 : (⟨S700000, .f32⟩ : BufTy).Contents (Elt F) → (⟨S700000x1, .f32⟩ : BufTy).Contents (Elt F)),
    StableHlo.unary main_v156 main_v157 (broadcastInDim S700000x128 ![0, 1] bcast_S700000x1_S700000x128_0_1 : (⟨S700000x1, .f32⟩ : BufTy).Contents (Elt F) → (⟨S700000x128, .f32⟩ : BufTy).Contents (Elt F)),
    StableHlo.binary main_v155 main_v157 main_v158 (mulf : (⟨S700000x128, .f32⟩ : BufTy).Contents (Elt F) → (⟨S700000x128, .f32⟩ : BufTy).Contents (Elt F) → (⟨S700000x128, .f32⟩ : BufTy).Contents (Elt F)),
    StableHlo.nullary main_cst_39 (constant S_ .f32 0x00000000#32),
    StableHlo.unary main_cst_39 main_v159 (broadcastInDim S100000x128 ![] bcast_S_S100000x128 : (⟨S_, .f32⟩ : BufTy).Contents (Elt F) → (⟨S100000x128, .f32⟩ : BufTy).Contents (Elt F)),
    StableHlo.unary main_arg2 main_v160 (broadcastInDim S700000x1 ![0] bcast_S700000_S700000x1_0 : (⟨S700000, .i32⟩ : BufTy).Contents (Elt F) → (⟨S700000x1, .i32⟩ : BufTy).Contents (Elt F)),
    StableHlo.ternary main_v159 main_v160 main_v158 main_v161 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    StableHlo.nullary main_cst_40 (constant S_ .f32 0x3F000000#32),
    StableHlo.unary main_cst_40 main_v162 (broadcastInDim S100000x128 ![] bcast_S_S100000x128 : (⟨S_, .f32⟩ : BufTy).Contents (Elt F) → (⟨S100000x128, .f32⟩ : BufTy).Contents (Elt F)),
    StableHlo.binary main_v162 main_v161 main_v163 (mulf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3F000000#32),
    StableHlo.unary main_cst_41 main_v164 (broadcastInDim S100000x128 ![] bcast_S_S100000x128 : (⟨S_, .f32⟩ : BufTy).Contents (Elt F) → (⟨S100000x128, .f32⟩ : BufTy).Contents (Elt F)),
    StableHlo.binary main_v164 main_v28 main_v165 (mulf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x3F800000#32),
    StableHlo.nullary main_cst_43 (constant S_ .f32 0x3E934B11#32),
    StableHlo.binary main_cst_42 main_cst_43 main_v166 (subf : (⟨S_, .f32⟩ : BufTy).Contents (Elt F) → (⟨S_, .f32⟩ : BufTy).Contents (Elt F) → (⟨S_, .f32⟩ : BufTy).Contents (Elt F)),
    StableHlo.unary main_v166 main_v167 (broadcastInDim S100000x128 ![] bcast_S_S100000x128 : (⟨S_, .f32⟩ : BufTy).Contents (Elt F) → (⟨S100000x128, .f32⟩ : BufTy).Contents (Elt F)),
    StableHlo.binary main_v167 main_v163 main_v168 (mulf : (⟨S100000x128, .f32⟩ : BufTy).Contents (Elt F) → (⟨S100000x128, .f32⟩ : BufTy).Contents (Elt F) → (⟨S100000x128, .f32⟩ : BufTy).Contents (Elt F)),
    StableHlo.unary main_arg5 main_v169 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v169 main_v170 rfl shapeCasts_S1x128x128_S128x128,
    StableHlo.binary main_v163 main_v170 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_44 (constant S_ .f32 0x3E934B11#32),
    StableHlo.unary main_cst_44 main_v172 (broadcastInDim S100000x128 ![] bcast_S_S100000x128 : (⟨S_, .f32⟩ : BufTy).Contents (Elt F) → (⟨S100000x128, .f32⟩ : BufTy).Contents (Elt F)),
    StableHlo.binary main_v172 main_v171 main_v173 (mulf : (⟨S100000x128, .f32⟩ : BufTy).Contents (Elt F) → (⟨S100000x128, .f32⟩ : BufTy).Contents (Elt F) → (⟨S100000x128, .f32⟩ : BufTy).Contents (Elt F)),
    StableHlo.binary main_v168 main_v173 main_v174 (addf : (⟨S100000x128, .f32⟩ : BufTy).Contents (Elt F) → (⟨S100000x128, .f32⟩ : BufTy).Contents (Elt F) → (⟨S100000x128, .f32⟩ : BufTy).Contents (Elt F)),
    StableHlo.nullary main_cst_45 (constant S_ .f32 0x3F800000#32),
    StableHlo.nullary main_cst_46 (constant S_ .f32 0x3E934B11#32),
    StableHlo.binary main_cst_45 main_cst_46 main_v175 (subf : (⟨S_, .f32⟩ : BufTy).Contents (Elt F) → (⟨S_, .f32⟩ : BufTy).Contents (Elt F) → (⟨S_, .f32⟩ : BufTy).Contents (Elt F)),
    StableHlo.unary main_v175 main_v176 (broadcastInDim S100000x128 ![] bcast_S_S100000x128 : (⟨S_, .f32⟩ : BufTy).Contents (Elt F) → (⟨S100000x128, .f32⟩ : BufTy).Contents (Elt F)),
    StableHlo.binary main_v176 main_v165 main_v177 (mulf : (⟨S100000x128, .f32⟩ : BufTy).Contents (Elt F) → (⟨S100000x128, .f32⟩ : BufTy).Contents (Elt F) → (⟨S100000x128, .f32⟩ : BufTy).Contents (Elt F)),
    StableHlo.binary main_v174 main_v177 main_v178 (addf : (⟨S100000x128, .f32⟩ : BufTy).Contents (Elt F) → (⟨S100000x128, .f32⟩ : BufTy).Contents (Elt F) → (⟨S100000x128, .f32⟩ : BufTy).Contents (Elt F)),
    StableHlo.unary main_arg6 main_v179 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v179 main_v180 rfl shapeCasts_S1x128x128_S128x128,
    StableHlo.binary main_v165 main_v180 main_v181 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_47 (constant S_ .f32 0x3E934B11#32),
    StableHlo.unary main_cst_47 main_v182 (broadcastInDim S100000x128 ![] bcast_S_S100000x128 : (⟨S_, .f32⟩ : BufTy).Contents (Elt F) → (⟨S100000x128, .f32⟩ : BufTy).Contents (Elt F)),
    StableHlo.binary main_v182 main_v181 main_v183 (mulf : (⟨S100000x128, .f32⟩ : BufTy).Contents (Elt F) → (⟨S100000x128, .f32⟩ : BufTy).Contents (Elt F) → (⟨S100000x128, .f32⟩ : BufTy).Contents (Elt F)),
    StableHlo.binary main_v178 main_v183 main_v184 (addf : (⟨S100000x128, .f32⟩ : BufTy).Contents (Elt F) → (⟨S100000x128, .f32⟩ : BufTy).Contents (Elt F) → (⟨S100000x128, .f32⟩ : BufTy).Contents (Elt F)),
    StableHlo.nullary main_cst_48 (constant S_ .f32 0x00000000#32),
    StableHlo.binary main_v184 main_cst_48 main_v185 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_49 (constant S_ .f32 0x47C35000#32),
    StableHlo.unary main_cst_49 main_v186 (broadcastInDim S128 ![] bcast_S_S128 : (⟨S_, .f32⟩ : BufTy).Contents (Elt F) → (⟨S128, .f32⟩ : BufTy).Contents (Elt F)),
    StableHlo.binary main_v185 main_v186 main_v187 (Host.divf : (⟨S128, .f32⟩ : BufTy).Contents (Elt F) → (⟨S128, .f32⟩ : BufTy).Contents (Elt F) → (⟨S128, .f32⟩ : BufTy).Contents (Elt F)) ]

/-- The buffer each of them writes, in the same order. -/
abbrev W3 : List (Ref sig .tc) :=
  [ main_v141, main_v142, main_v143, main_v144, main_v145, main_v146, main_v147, main_call4_cst, main_call4_v0, main_v148, main_c_37, main_v149, main_v150, main_c_38, main_v151, main_v152, main_v153, main_v154, main_v155, main_v156, main_v157, main_v158, main_cst_39, main_v159, main_v160, main_v161, main_cst_40, main_v162, main_v163, main_cst_41, main_v164, main_v165, main_cst_42, main_cst_43, main_v166, main_v167, main_v168, main_v169, main_v170, main_v171, main_cst_44, main_v172, main_v173, main_v174, main_cst_45, main_cst_46, main_v175, main_v176, main_v177, main_v178, main_v179, main_v180, main_v181, main_cst_47, main_v182, main_v183, main_v184, main_cst_48, main_v185, main_cst_49, main_v186, main_v187 ]

/-- The window is that straight line: the callees' definitions opened at their calls, sequencing reassociated. -/
theorem part3_eq (d : Dev nD) : main_part3 (F := F) d = seq ops3 := by
  simp only [main_part3, fn_where.body, fn_where_0.body, fn_var.body, fn_relu.body, seq, bind_assoc, pure_bind]
  rfl

/-- Every operation touches TensorCore references only. -/
theorem ops3_sub : (ops3 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., nullary_bufs_sub .., binary_bufs_sub .., unary_bufs_sub .., binary_bufs_sub .., unary_bufs_sub .., reshape_bufs_sub .., binary_bufs_sub .., nullary_bufs_sub .., unary_bufs_sub .., binary_bufs_sub .., binary_bufs_sub .., nullary_bufs_sub .., nullary_bufs_sub .., binary_bufs_sub .., unary_bufs_sub .., binary_bufs_sub .., binary_bufs_sub .., unary_bufs_sub .., reshape_bufs_sub .., binary_bufs_sub .., nullary_bufs_sub .., unary_bufs_sub .., binary_bufs_sub .., binary_bufs_sub .., nullary_bufs_sub .., binary_bufs_sub .., nullary_bufs_sub .., unary_bufs_sub .., binary_bufs_sub ..⟩

/-- Each operation writes exactly the buffer listed beside it. -/
theorem ops3_writes : List.Forall₂ (fun op y => op.writes = {Proc.devRef (τ := τ) .tc y}) (ops3 (F := F)) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))

/-- Every operation determines all it writes (none is an allocation). -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefRun5.lean ====
import proofs.«163161_j55817394979591_1_alg».proof.Proof.Gen.ReferenceIdeal
import Idealize.ShloMosaic.Lib.StableHlo.Run

/-! The reference program's @main, statements of its window 4, as a list of host operations: the outlined functions'
    bodies are written out at their call sites over the call's buffer record, in the order the callee runs them. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 4, in order. -/
abbrev ops4 : List (HloOp τ sig (Elt F)) :=
  [ StableHlo.nullary main_c_50 (constantI S_ 32 0#32),
    StableHlo.TRef.nullary main_call5.cst (constant S_ .f32 0x00000000#32),
    StableHlo.TRef.binary (.of main_v184) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v184) main_call5.v4 main_call5.v5 subf,
    StableHlo.TRef.binary main_call5.v5 main_call5.v5 main_call5.v6 mulf,
    StableHlo.TRef.unary (.of main_c_50) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5_call0.v0 id,
    StableHlo.TRef.unary main_call5_call0.v0 main_call5_call0.v1 (broadcastInDim S128 ![] bcast_S_S128),
    StableHlo.TRef.ternary main_call5.v12 main_call5.v11 main_call5_call0.v1 main_call5_call0.v2 (fun p a b => select (broadcastInDim S128 ![] bcast_S_S128 p) a b),
    StableHlo.unary main_arg7 main_v189 ((extractStridedSlice S1x128 ![2, 0] · slices_S4x128_S1x128_2_0) : (⟨S4x128, .f32⟩ : BufTy).Contents (Elt F) → (⟨S1x128, .f32⟩ : BufTy).Contents (Elt F)),
    StableHlo.reshape main_v189 main_v190 rfl shapeCasts_S1x128_S128,
    StableHlo.unary main_v187 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v192 main_v193 (subf : (⟨S100000x128, .f32⟩ : BufTy).Contents (Elt F) → (⟨S100000x128, .f32⟩ : BufTy).Contents (Elt F) → (⟨S100000x128, .f32⟩ : BufTy).Contents (Elt F)),
    StableHlo.unary main_v190 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v195 main_v193 main_v196 (mulf : (⟨S100000x128, .f32⟩ : BufTy).Contents (Elt F) → (⟨S100000x128, .f32⟩ : BufTy).Contents (Elt F) → (⟨S100000x128, .f32⟩ : BufTy).Contents (Elt F)),
    StableHlo.nullary main_cst_51 (constant S_ .f32 0x3727C5AC#32),
    StableHlo.unary main_cst_51 main_v197 (broadcastInDim S128 ![] bcast_S_S128 : (⟨S_, .f32⟩ : BufTy).Contents (Elt F) → (⟨S128, .f32⟩ : BufTy).Contents (Elt F)),
    StableHlo.binary main_v188 main_v197 main_v198 (addf : (⟨S128, .f32⟩ : BufTy).Contents (Elt F) → (⟨S128, .f32⟩ : BufTy).Contents (Elt F) → (⟨S128, .f32⟩ : BufTy).Contents (Elt F)),
    StableHlo.unary main_v198 main_v199 (Host.rsqrt : (⟨S128, .f32⟩ : BufTy).Contents (Elt F) → (⟨S128, .f32⟩ : BufTy).Contents (Elt F)),
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v196 main_v201 main_v202 (mulf : (⟨S100000x128, .f32⟩ : BufTy).Contents (Elt F) → (⟨S100000x128, .f32⟩ : BufTy).Contents (Elt F) → (⟨S100000x128, .f32⟩ : BufTy).Contents (Elt F)),
    StableHlo.unary main_arg8 main_v203 ((extractStridedSlice S1x128 ![2, 0] · slices_S4x128_S1x128_2_0) : (⟨S4x128, .f32⟩ : BufTy).Contents (Elt F) → (⟨S1x128, .f32⟩ : BufTy).Contents (Elt F)),
    StableHlo.reshape main_v203 main_v204 rfl shapeCasts_S1x128_S128,
    StableHlo.unary main_v204 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S100000x128 ![0, 1] bcast_S1x128_S100000x128_0_1 : (⟨S1x128, .f32⟩ : BufTy).Contents (Elt F) → (⟨S100000x128, .f32⟩ : BufTy).Contents (Elt F)),
    StableHlo.binary main_v202 main_v206 main_v207 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v207) main_call6.v0 main_call6.v1 maximumf,
    StableHlo.nullary main_c_52 (constantI S_ 32 0#32),
    StableHlo.unary main_c_52 main_v209 (broadcastInDim S700000 ![] bcast_S_S700000 : (⟨S_, .i32⟩ : BufTy).Contents (Elt F) → (⟨S700000, .i32⟩ : BufTy).Contents (Elt F)),
    StableHlo.binary main_arg1 main_v209 main_v210 (cmpi .slt : (⟨S700000, .i32⟩ : BufTy).Contents (Elt F) → (⟨S700000, .i32⟩ : BufTy).Contents (Elt F) → (⟨S700000, .i1⟩ : BufTy).Contents (Elt F)),
    StableHlo.nullary main_c_53 (constantI S_ 32 100000#32),
    StableHlo.unary main_c_53 main_v211 (broadcastInDim S700000 ![] bcast_S_S700000 : (⟨S_, .i32⟩ : BufTy).Contents (Elt F) → (⟨S700000, .i32⟩ : BufTy).Contents (Elt F)),
    StableHlo.binary main_arg1 main_v211 main_v212 (addi : (⟨S700000, .i32⟩ : BufTy).Contents (Elt F) → (⟨S700000, .i32⟩ : BufTy).Contents (Elt F) → (⟨S700000, .i32⟩ : BufTy).Contents (Elt F)),
    StableHlo.ternary main_v210 main_v212 main_arg1 main_v213 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v213 main_v214 (broadcastInDim S700000x1 ![0] bcast_S700000_S700000x1_0 : (⟨S700000, .i32⟩ : BufTy).Contents (Elt F) → (⟨S700000x1, .i32⟩ : BufTy).Contents (Elt F)),
    StableHlo.binary main_v208 main_v214 main_v215 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v24 main_v216 (broadcastInDim S700000x1 ![0] bcast_S700000_S700000x1_0 : (⟨S700000, .f32⟩ : BufTy).Contents (Elt F) → (⟨S700000x1, .f32⟩ : BufTy).Contents (Elt F)),
    StableHlo.unary main_v216 main_v217 (broadcastInDim S700000x128 ![0, 1] bcast_S700000x1_S700000x128_0_1 : (⟨S700000x1, .f32⟩ : BufTy).Contents (Elt F) → (⟨S700000x128, .f32⟩ : BufTy).Contents (Elt F)),
    StableHlo.binary main_v215 main_v217 main_v218 (mulf : (⟨S700000x128, .f32⟩ : BufTy).Contents (Elt F) → (⟨S700000x128, .f32⟩ : BufTy).Contents (Elt F) → (⟨S700000x128, .f32⟩ : BufTy).Contents (Elt F)),
    StableHlo.nullary main_cst_54 (constant S_ .f32 0x00000000#32),
    StableHlo.unary main_cst_54 main_v219 (broadcastInDim S100000x128 ![] bcast_S_S100000x128 : (⟨S_, .f32⟩ : BufTy).Contents (Elt F) → (⟨S100000x128, .f32⟩ : BufTy).Contents (Elt F)),
    StableHlo.unary main_arg2 main_v220 (broadcastInDim S700000x1 ![0] bcast_S700000_S700000x1_0 : (⟨S700000, .i32⟩ : BufTy).Contents (Elt F) → (⟨S700000x1, .i32⟩ : BufTy).Contents (Elt F)),
    StableHlo.ternary main_v219 main_v220 main_v218 main_v221 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    StableHlo.nullary main_cst_55 (constant S_ .f32 0x3F000000#32),
    StableHlo.unary main_cst_55 main_v222 (broadcastInDim S100000x128 ![] bcast_S_S100000x128 : (⟨S_, .f32⟩ : BufTy).Contents (Elt F) → (⟨S100000x128, .f32⟩ : BufTy).Contents (Elt F)),
    StableHlo.binary main_v222 main_v221 main_v223 (mulf : (⟨S100000x128, .f32⟩ : BufTy).Contents (Elt F) → (⟨S100000x128, .f32⟩ : BufTy).Contents (Elt F) → (⟨S100000x128, .f32⟩ : BufTy).Contents (Elt F)),
    StableHlo.nullary main_cst_56 (constant S_ .f32 0x3F000000#32),
    StableHlo.unary main_cst_56 main_v224 (broadcastInDim S100000x128 ![] bcast_S_S100000x128 : (⟨S_, .f32⟩ : BufTy).Contents (Elt F) → (⟨S100000x128, .f32⟩ : BufTy).Contents (Elt F)),
    StableHlo.binary main_v224 main_v28 main_v225 (mulf : (⟨S100000x128, .f32⟩ : BufTy).Contents (Elt F) → (⟨S100000x128, .f32⟩ : BufTy).Contents (Elt F) → (⟨S100000x128, .f32⟩ : BufTy).Contents (Elt F)),
    StableHlo.nullary main_cst_57 (constant S_ .f32 0x3F800000#32),
    StableHlo.nullary main_cst_58 (constant S_ .f32 0x3E647FBE#32),
    StableHlo.binary main_cst_57 main_cst_58 main_v226 (subf : (⟨S_, .f32⟩ : BufTy).Contents (Elt F) → (⟨S_, .f32⟩ : BufTy).Contents (Elt F) → (⟨S_, .f32⟩ : BufTy).Contents (Elt F)),
    StableHlo.unary main_v226 main_v227 (broadcastInDim S100000x128 ![] bcast_S_S100000x128 : (⟨S_, .f32⟩ : BufTy).Contents (Elt F) → (⟨S100000x128, .f32⟩ : BufTy).Contents (Elt F)),
    StableHlo.binary main_v227 main_v223 main_v228 (mulf : (⟨S100000x128, .f32⟩ : BufTy).Contents (Elt F) → (⟨S100000x128, .f32⟩ : BufTy).Contents (Elt F) → (⟨S100000x128, .f32⟩ : BufTy).Contents (Elt F)),
    StableHlo.unary main_arg5 main_v229 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v229 main_v230 rfl shapeCasts_S1x128x128_S128x128,
    StableHlo.binary main_v223 main_v230 main_v231 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_59 (constant S_ .f32 0x3E647FBE#32),
    StableHlo.unary main_cst_59 main_v232 (broadcastInDim S100000x128 ![] bcast_S_S100000x128 : (⟨S_, .f32⟩ : BufTy).Contents (Elt F) → (⟨S100000x128, .f32⟩ : BufTy).Contents (Elt F)),
    StableHlo.binary main_v232 main_v231 main_v233 (mulf : (⟨S100000x128, .f32⟩ : BufTy).Contents (Elt F) → (⟨S100000x128, .f32⟩ : BufTy).Contents (Elt F) → (⟨S100000x128, .f32⟩ : BufTy).Contents (Elt F)),
    StableHlo.binary main_v228 main_v233 main_v234 (addf : (⟨S100000x128, .f32⟩ : BufTy).Contents (Elt F) → (⟨S100000x128, .f32⟩ : BufTy).Contents (Elt F) → (⟨S100000x128, .f32⟩ : BufTy).Contents (Elt F)),
    StableHlo.nullary main_cst_60 (constant S_ .f32 0x3F800000#32),
    StableHlo.nullary main_cst_61 (constant S_ .f32 0x3E647FBE#32),
    StableHlo.binary main_cst_60 main_cst_61 main_v235 (subf : (⟨S_, .f32⟩ : BufTy).Contents (Elt F) → (⟨S_, .f32⟩ : BufTy).Contents (Elt F) → (⟨S_, .f32⟩ : BufTy).Contents (Elt F)) ]

/-- The buffer each of them writes, in the same order. -/
abbrev W4 : List (Ref sig .tc) :=
  [ main_c_50, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v188, main_v189, main_v190, main_v191, main_v192, main_v193, main_v194, main_v195, main_v196, main_cst_51, main_v197, main_v198, main_v199, main_v200, main_v201, main_v202, main_v203, main_v204, main_v205, main_v206, main_v207, main_call6_cst, main_call6_v0, main_v208, main_c_52, main_v209, main_v210, main_c_53, main_v211, main_v212, main_v213, main_v214, main_v215, main_v216, main_v217, main_v218, main_cst_54, main_v219, main_v220, main_v221, main_cst_55, main_v222, main_v223, main_cst_56, main_v224, main_v225, main_cst_57, main_cst_58, main_v226, main_v227, main_v228, main_v229, main_v230, main_v231, main_cst_59, main_v232, main_v233, main_v234, main_cst_60, main_cst_61, main_v235 ]

/-- The window is that straight line: the callees' definitions opened at their calls, sequencing reassociated. -/
theorem part4_eq (d : Dev nD) : main_part4 (F := F) d = seq ops4 := by
  simp only [main_part4, fn_where.body, fn_where_0.body, fn_var.body, fn_relu.body, seq, bind_assoc, pure_bind]
  rfl

/-- Every operation touches TensorCore references only. -/
theorem ops4_sub : (ops4 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., nullary_bufs_sub .., binary_bufs_sub .., unary_bufs_sub .., binary_bufs_sub .., unary_bufs_sub .., reshape_bufs_sub .., binary_bufs_sub .., nullary_bufs_sub .., unary_bufs_sub .., binary_bufs_sub .., binary_bufs_sub .., nullary_bufs_sub .., nullary_bufs_sub .., binary_bufs_sub ..⟩

/-- Each operation writes exactly the buffer listed beside it. -/
theorem ops4_writes : List.Forall₂ (fun op y => op.writes = {Proc.devRef (τ := τ) .tc y}) (ops4 (F := F)) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))

/-- Every operation determines all it writes (none is an allocation). -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefRun6.lean ====
import proofs.«163161_j55817394979591_1_alg».proof.Proof.Gen.ReferenceIdeal
import Idealize.ShloMosaic.Lib.StableHlo.Run

/-! The reference program's @main, statements of its window 5, as a list of host operations: the outlined functions'
    bodies are written out at their call sites over the call's buffer record, in the order the callee runs them. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 5, in order. -/
abbrev ops5 : List (HloOp τ sig (Elt F)) :=
  [ StableHlo.unary main_v235 main_v236 (broadcastInDim S100000x128 ![] bcast_S_S100000x128 : (⟨S_, .f32⟩ : BufTy).Contents (Elt F) → (⟨S100000x128, .f32⟩ : BufTy).Contents (Elt F)),
    StableHlo.binary main_v236 main_v225 main_v237 (mulf : (⟨S100000x128, .f32⟩ : BufTy).Contents (Elt F) → (⟨S100000x128, .f32⟩ : BufTy).Contents (Elt F) → (⟨S100000x128, .f32⟩ : BufTy).Contents (Elt F)),
    StableHlo.binary main_v234 main_v237 main_v238 (addf : (⟨S100000x128, .f32⟩ : BufTy).Contents (Elt F) → (⟨S100000x128, .f32⟩ : BufTy).Contents (Elt F) → (⟨S100000x128, .f32⟩ : BufTy).Contents (Elt F)),
    StableHlo.unary main_arg6 main_v239 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v239 main_v240 rfl shapeCasts_S1x128x128_S128x128,
    StableHlo.binary main_v225 main_v240 main_v241 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_62 (constant S_ .f32 0x3E647FBE#32),
    StableHlo.unary main_cst_62 main_v242 (broadcastInDim S100000x128 ![] bcast_S_S100000x128 : (⟨S_, .f32⟩ : BufTy).Contents (Elt F) → (⟨S100000x128, .f32⟩ : BufTy).Contents (Elt F)),
    StableHlo.binary main_v242 main_v241 main_v243 (mulf : (⟨S100000x128, .f32⟩ : BufTy).Contents (Elt F) → (⟨S100000x128, .f32⟩ : BufTy).Contents (Elt F) → (⟨S100000x128, .f32⟩ : BufTy).Contents (Elt F)),
    StableHlo.binary main_v238 main_v243 main_v244 (addf : (⟨S100000x128, .f32⟩ : BufTy).Contents (Elt F) → (⟨S100000x128, .f32⟩ : BufTy).Contents (Elt F) → (⟨S100000x128, .f32⟩ : BufTy).Contents (Elt F)),
    StableHlo.nullary main_cst_63 (constant S_ .f32 0x00000000#32),
    StableHlo.binary main_v244 main_cst_63 main_v245 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_64 (constant S_ .f32 0x47C35000#32),
    StableHlo.unary main_cst_64 main_v246 (broadcastInDim S128 ![] bcast_S_S128 : (⟨S_, .f32⟩ : BufTy).Contents (Elt F) → (⟨S128, .f32⟩ : BufTy).Contents (Elt F)),
    StableHlo.binary main_v245 main_v246 main_v247 (Host.divf : (⟨S128, .f32⟩ : BufTy).Contents (Elt F) → (⟨S128, .f32⟩ : BufTy).Contents (Elt F) → (⟨S128, .f32⟩ : BufTy).Contents (Elt F)),
    StableHlo.nullary main_c_65 (constantI S_ 32 0#32),
    StableHlo.TRef.nullary main_call7.cst (constant S_ .f32 0x00000000#32),
    StableHlo.TRef.binary (.of main_v244) main_call7.cst main_call7.v0 (fun x v => Host.reduceAdd x v reducesTo_S100000x128_S128_d0 h_S_),
    StableHlo.TRef.unary main_call7.v0 main_call7.v1 (broadcastInDim S1x128 ![1] bcast_S128_S1x128_1),
    StableHlo.TRef.nullary main_call7.cst_0 (constant S_ .f32 0x47C35000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S100000x128 ![0, 1] bcast_S1x128_S100000x128_0_1),
    StableHlo.TRef.binary (.of main_v244) main_call7.v4 main_call7.v5 subf,
    StableHlo.TRef.binary main_call7.v5 main_call7.v5 main_call7.v6 mulf,
    StableHlo.TRef.unary (.of main_c_65) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7_call0.v0 id,
    StableHlo.TRef.unary main_call7_call0.v0 main_call7_call0.v1 (broadcastInDim S128 ![] bcast_S_S128),
    StableHlo.TRef.ternary main_call7.v12 main_call7.v11 main_call7_call0.v1 main_call7_call0.v2 (fun p a b => select (broadcastInDim S128 ![] bcast_S_S128 p) a b),
    StableHlo.unary main_arg7 main_v249 ((extractStridedSlice S1x128 ![3, 0] · slices_S4x128_S1x128_3_0) : (⟨S4x128, .f32⟩ : BufTy).Contents (Elt F) → (⟨S1x128, .f32⟩ : BufTy).Contents (Elt F)),
    StableHlo.reshape main_v249 main_v250 rfl shapeCasts_S1x128_S128,
    StableHlo.unary main_v247 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S100000x128 ![0, 1] bcast_S1x128_S100000x128_0_1 : (⟨S1x128, .f32⟩ : BufTy).Contents (Elt F) → (⟨S100000x128, .f32⟩ : BufTy).Contents (Elt F)),
    StableHlo.binary main_v244 main_v252 main_v253 (subf : (⟨S100000x128, .f32⟩ : BufTy).Contents (Elt F) → (⟨S100000x128, .f32⟩ : BufTy).Contents (Elt F) → (⟨S100000x128, .f32⟩ : BufTy).Contents (Elt F)),
    StableHlo.unary main_v250 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S100000x128 ![0, 1] bcast_S1x128_S100000x128_0_1 : (⟨S1x128, .f32⟩ : BufTy).Contents (Elt F) → (⟨S100000x128, .f32⟩ : BufTy).Contents (Elt F)),
    StableHlo.binary main_v255 main_v253 main_v256 (mulf : (⟨S100000x128, .f32⟩ : BufTy).Contents (Elt F) → (⟨S100000x128, .f32⟩ : BufTy).Contents (Elt F) → (⟨S100000x128, .f32⟩ : BufTy).Contents (Elt F)),
    StableHlo.nullary main_cst_66 (constant S_ .f32 0x3727C5AC#32),
    StableHlo.unary main_cst_66 main_v257 (broadcastInDim S128 ![] bcast_S_S128 : (⟨S_, .f32⟩ : BufTy).Contents (Elt F) → (⟨S128, .f32⟩ : BufTy).Contents (Elt F)),
    StableHlo.binary main_v248 main_v257 main_v258 (addf : (⟨S128, .f32⟩ : BufTy).Contents (Elt F) → (⟨S128, .f32⟩ : BufTy).Contents (Elt F) → (⟨S128, .f32⟩ : BufTy).Contents (Elt F)),
    StableHlo.unary main_v258 main_v259 (Host.rsqrt : (⟨S128, .f32⟩ : BufTy).Contents (Elt F) → (⟨S128, .f32⟩ : BufTy).Contents (Elt F)),
    StableHlo.unary main_v259 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S100000x128 ![0, 1] bcast_S1x128_S100000x128_0_1 : (⟨S1x128, .f32⟩ : BufTy).Contents (Elt F) → (⟨S100000x128, .f32⟩ : BufTy).Contents (Elt F)),
    StableHlo.binary main_v256 main_v261 main_v262 (mulf : (⟨S100000x128, .f32⟩ : BufTy).Contents (Elt F) → (⟨S100000x128, .f32⟩ : BufTy).Contents (Elt F) → (⟨S100000x128, .f32⟩ : BufTy).Contents (Elt F)),
    StableHlo.unary main_arg8 main_v263 ((extractStridedSlice S1x128 ![3, 0] · slices_S4x128_S1x128_3_0) : (⟨S4x128, .f32⟩ : BufTy).Contents (Elt F) → (⟨S1x128, .f32⟩ : BufTy).Contents (Elt F)),
    StableHlo.reshape main_v263 main_v264 rfl shapeCasts_S1x128_S128,
    StableHlo.unary main_v264 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S100000x128 ![0, 1] bcast_S1x128_S100000x128_0_1 : (⟨S1x128, .f32⟩ : BufTy).Contents (Elt F) → (⟨S100000x128, .f32⟩ : BufTy).Contents (Elt F)),
    StableHlo.binary main_v262 main_v266 main_v267 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (.of main_v267) main_call8.v0 main_call8.v1 maximumf ]

/-- The buffer each of them writes, in the same order. -/
abbrev W5 : List (Ref sig .tc) :=
  [ main_v236, main_v237, main_v238, main_v239, main_v240, main_v241, main_cst_62, main_v242, main_v243, main_v244, main_cst_63, main_v245, main_cst_64, main_v246, main_v247, main_c_65, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v248, main_v249, main_v250, main_v251, main_v252, main_v253, main_v254, main_v255, main_v256, main_cst_66, main_v257, main_v258, main_v259, main_v260, main_v261, main_v262, main_v263, main_v264, main_v265, main_v266, main_v267, main_call8_cst, main_call8_v0, main_v268 ]

/-- The window is that straight line: the callees' definitions opened at their calls, sequencing reassociated. -/
theorem part5_eq (d : Dev nD) : main_part5 (F := F) d = seq ops5 := by
  simp only [main_part5, fn_where.body, fn_where_0.body, fn_var.body, fn_relu.body, seq, bind_assoc, pure_bind]

/-- Every operation touches TensorCore references only. -/
theorem ops5_sub : (ops5 : List (HloOp τ sig (Elt F))).Forall fun op => op.bufs ⊆ tcRefs τ sig :=
  ⟨unary_bufs_sub .., binary_bufs_sub .., binary_bufs_sub .., unary_bufs_sub .., reshape_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Each operation writes exactly the buffer listed beside it. -/
theorem ops5_writes : List.Forall₂ (fun op y => op.writes = {Proc.devRef (τ := τ) .tc y}) (ops5 (F := F)) W5 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))

/-- Every operation determines all it writes (none is an allocation). -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.LibAfter.lean ====
import Idealize.ShloMosaic.Lib.StableHlo.Run
import Mathlib.Data.List.Forall2

/-! A straight line of host operations in which every buffer is written at most once (single assignment). The
    contents a buffer ends with are then those it has right after the one operation that writes it, and that
    operation reads operands whose contents no later operation changes: so the FINAL valuation satisfies one equation
    per operation, over the final contents of its operands — no walk through the later operations is needed. -/

noncomputable section

namespace Cert.Lib

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position `i` on writes ends with what it holds after the first `i` operations. -/
theorem after_eq_take (ops : List (HloOp τ sig Val)) (V : Valuation τ sig Val) (i : Nat) (b : DevRef τ sig)
    (h : ∀ op ∈ ops.drop i, b ∉ op.writes) : after ops V b = after (ops.take i) V b := by
  conv_lhs => rw [← List.take_append_drop i ops, after_append]
  exact after_of_forall_not_mem _ _ h

/-- Operations that each write the one buffer listed beside them write no reference that is not in the list. -/
theorem not_mem_writes_of_forall₂ {l : List (HloOp τ sig Val)} {W : List (Ref sig .tc)}
    (hW : List.Forall₂ (fun op y => op.writes = {Proc.devRef (τ := τ) .tc y}) l W) (r : Ref sig .tc) (hr : r ∉ W) :
    ∀ op ∈ l, Proc.devRef (τ := τ) .tc r ∉ op.writes := by
  induction hW with
  | nil => intro op hop; exact absurd hop List.not_mem_nil
  | @cons op' y l' W' h t ih =>
    intro op hop
    rcases List.mem_cons.mp hop with rfl | hop'
    · rw [h, Finset.mem_singleton]
      exact fun e => hr (Proc.devRef_injective _ e ▸ List.mem_cons_self)
    · exact ih (fun hm => hr (List.mem_cons_of_mem _ hm)) op hop'

/-- A reference that is not among the results of the operations from position `i` on ends with what it holds after the
    first `i` operations: the side condition is one membership in a literal list of references. -/
theorem after_eq_take_of_written {ops : List (HloOp τ sig Val)} {W : List (Ref sig .tc)}
    (hW : List.Forall₂ (fun op y => op.writes = {Proc.devRef (τ := τ) .tc y}) ops W) {V : Valuation τ sig Val}
    (i : Nat) (r : Ref sig .tc) (hr : r ∉ W.drop i) :
    after ops V (Proc.devRef .tc r) = after (ops.take i) V (Proc.devRef .tc r) :=
  after_eq_take ops V i _ (not_mem_writes_of_forall₂ (List.forall₂_drop i hW) r hr)

/-- THE STAGE EQUATION: the result `y` of the operation at position `N`, written by no later operation, ends at that
    operation's result over the contents after the first `N` operations. -/
theorem stage {ops : List (HloOp τ sig Val)} {W : List (Ref sig .tc)}
    (hW : List.Forall₂ (fun op y => op.writes = {Proc.devRef (τ := τ) .tc y}) ops W) {V : Valuation τ sig Val}
    (N : Nat) (op : HloOp τ sig Val) (hop : ops[N]? = some op) (y : Ref sig .tc) (hy : y ∉ W.drop (N + 1)) :
    after ops V (Proc.devRef .tc y) = op.result (after (ops.take N) V) (Proc.devRef .tc y) := by
  rw [after_eq_take_of_written hW (N + 1) y hy]
  have e : ops.take (N + 1) = ops.take N ++ [op] := by
    rw [List.take_succ, hop]; rfl
  rw [e, after_append]
  rfl

/-- A three-operand operation's result, the operands read one by one (the library states the four-operand form). -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib

end
-- ==== Proof.RefRun7.lean ====
import proofs.«163161_j55817394979591_1_alg».proof.Proof.RefRun1
import proofs.«163161_j55817394979591_1_alg».proof.Proof.RefRun2
import proofs.«163161_j55817394979591_1_alg».proof.Proof.RefRun3
import proofs.«163161_j55817394979591_1_alg».proof.Proof.RefRun4
import proofs.«163161_j55817394979591_1_alg».proof.Proof.RefRun5
import proofs.«163161_j55817394979591_1_alg».proof.Proof.RefRun6
import proofs.«163161_j55817394979591_1_alg».proof.Proof.LibAfter
import Idealize.ShloMosaic.PureOps.Ideal

/-! The reference program's run, read back. @main is a straight line of 432 host operations (its own 329 and the 103 of the nine
    calls of the outlined functions, written out at the call sites); every buffer is written by exactly one of them. So each
    execution terminates with every buffer at the fold of the operations over the launch contents, the nine argument arrays are
    left as they were, and the contents a buffer ends with are its one operation's function of the final contents of that
    operation's operands. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib

variable {F : FTy → Type} [FloatOps F]

/-- @main's operations, in order: the six windows one after the other. -/
abbrev ops : List (HloOp τ sig (Elt F)) := ops0 ++ (ops1 ++ (ops2 ++ (ops3 ++ (ops4 ++ ops5))))

/-- The buffer each operation writes, in the same order. -/
abbrev W : List (Ref sig .tc) := W0 ++ (W1 ++ (W2 ++ (W3 ++ (W4 ++ W5))))

/-- @main runs its windows in order, and each window is its list. -/
theorem main_eq (d : Dev nD) : main (F := F) d = seq ops := by
  simp only [ops, seq_append, ← part0_eq d, ← part1_eq d, ← part2_eq d, ← part3_eq d, ← part4_eq d, ← part5_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

/-- Single assignment: operation by operation, the one buffer written. -/
theorem ops_writes : List.Forall₂ (fun op y => op.writes = {Proc.devRef (τ := τ) .tc y}) (ops (F := F)) W :=
  List.rel_append ops0_writes (List.rel_append ops1_writes (List.rel_append ops2_writes
    (List.rel_append ops3_writes (List.rel_append ops4_writes ops5_writes))))

/-- The run: every weakly fair execution of @main terminates, each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A buffer no operation writes ends as it started. -/
theorem after_arg (V : Valuation τ sig (Elt F)) (r : Ref sig .tc) (hr : r ∉ W) :
    after ops V (Proc.devRef .tc r) = V (Proc.devRef .tc r) := by
  rw [after_eq_take_of_written ops_writes 0 r hr]; rfl

/-- The nine argument arrays are no operation's result. -/
theorem arg_not_written : main_arg0 ∉ W ∧ main_arg1 ∉ W ∧ main_arg2 ∉ W ∧ main_arg3 ∉ W ∧ main_arg4 ∉ W ∧ main_arg5 ∉ W
    ∧ main_arg6 ∉ W ∧ main_arg7 ∉ W ∧ main_arg8 ∉ W := by decide

/-- The frame at the exact reals: every weakly fair execution terminates and leaves the nine argument arrays unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c =>
    ⟨(h c main_arg0).trans (after_arg _ main_arg0 arg_not_written.1),
      (h c main_arg1).trans (after_arg _ main_arg1 arg_not_written.2.1),
      (h c main_arg2).trans (after_arg _ main_arg2 arg_not_written.2.2.1),
      (h c main_arg3).trans (after_arg _ main_arg3 arg_not_written.2.2.2.1),
      (h c main_arg4).trans (after_arg _ main_arg4 arg_not_written.2.2.2.2.1),
      (h c main_arg5).trans (after_arg _ main_arg5 arg_not_written.2.2.2.2.2.1),
      (h c main_arg6).trans (after_arg _ main_arg6 arg_not_written.2.2.2.2.2.2.1),
      (h c main_arg7).trans (after_arg _ main_arg7 arg_not_written.2.2.2.2.2.2.2.1),
      (h c main_arg8).trans (after_arg _ main_arg8 arg_not_written.2.2.2.2.2.2.2.2)⟩)
    (run_main m ρ)

/-! ## One equation per operation, over the final contents

Every buffer has one writer. So the contents a buffer ENDS with are its writer's function of the contents its operands END with:
the operands are written earlier (or never), and nothing later changes them or the result. Each lemma below is that statement for
one builder; the operation is found at its position in the list by computation, and the two kinds of side condition — the result
is not written again, an operand is not written from here on — are memberships in a literal list of references. -/

section Stage

variable {V : Valuation τ sig (Elt F)}

theorem st_nullary (N : Nat) {y : Ref sig .tc} {v hy} (hop : (ops (F := F))[N]? = some (nullary y v hy))
    (hyW : y ∉ W.drop (N + 1)) : after ops V (Proc.devRef .tc y) = v :=
  (stage ops_writes N _ hop y hyW).trans (nullary_result y v hy _)

theorem st_unary (N : Nat) {x y : Ref sig .tc} {f hx hy} (hop : (ops (F := F))[N]? = some (unary x y f hx hy))
    (hyW : y ∉ W.drop (N + 1)) (hxW : x ∉ W.drop N) :
    after ops V (Proc.devRef .tc y) = f (after ops V (Proc.devRef .tc x)) :=
  (stage ops_writes N _ hop y hyW).trans ((unary_result x y f hx hy _).trans
    (congrArg f (after_eq_take_of_written ops_writes N x hxW).symm))

theorem st_binary (N : Nat) {a b y : Ref sig .tc} {f ha hb hy} (hop : (ops (F := F))[N]? = some (binary a b y f ha hb hy))
    (hyW : y ∉ W.drop (N + 1)) (haW : a ∉ W.drop N) (hbW : b ∉ W.drop N) :
    after ops V (Proc.devRef .tc y) = f (after ops V (Proc.devRef .tc a)) (after ops V (Proc.devRef .tc b)) :=
  (stage ops_writes N _ hop y hyW).trans ((binary_result a b y f ha hb hy _).trans
    (congrArg₂ f (after_eq_take_of_written ops_writes N a haW).symm (after_eq_take_of_written ops_writes N b hbW).symm))

theorem st_ternary (N : Nat) {c a b y : Ref sig .tc} {f hc ha hb hy}
    (hop : (ops (F := F))[N]? = some (ternary c a b y f hc ha hb hy))
    (hyW : y ∉ W.drop (N + 1)) (hcW : c ∉ W.drop N) (haW : a ∉ W.drop N) (hbW : b ∉ W.drop N) :
    after ops V (Proc.devRef .tc y)
      = f (after ops V (Proc.devRef .tc c)) (after ops V (Proc.devRef .tc a)) (after ops V (Proc.devRef .tc b)) := by
  rw [stage ops_writes N _ hop y hyW, ternary_result]
  simp only [after_eq_take_of_written (V := V) ops_writes N c hcW, after_eq_take_of_written (V := V) ops_writes N a haW,
    after_eq_take_of_written (V := V) ops_writes N b hbW]

theorem st_reshape (N : Nat) {x y : Ref sig .tc} {he hn hx hy}
    (hop : (ops (F := F))[N]? = some (reshape x y he hn hx hy))
    (hyW : y ∉ W.drop (N + 1)) (hxW : x ∉ W.drop N) :
    after ops V (Proc.devRef .tc y) = fun i => he ▸ shapeCast y.ty.shape (after ops V (Proc.devRef .tc x)) hn i := by
  rw [stage ops_writes N _ hop y hyW, reshape_result, after_eq_take_of_written (V := V) ops_writes N x hxW]

end Stage

/-- The operation at position `N`, by its arity: the final contents of its result from those of its operands. -/
macro "sn" N:num : term => `(st_nullary $N rfl (by decide))
@[inherit_doc «termSn_»] macro "su" N:num : term => `(st_unary $N rfl (by decide) (by decide))
@[inherit_doc «termSn_»] macro "sb" N:num : term => `(st_binary $N rfl (by decide) (by decide) (by decide))
@[inherit_doc «termSn_»] macro "st" N:num : term => `(st_ternary $N rfl (by decide) (by decide) (by decide) (by decide))
@[inherit_doc «termSn_»] macro "sr" N:num : term => `(st_reshape $N rfl (by decide) (by decide))

/-! ## The argument arrays at the end -/

section Args

variable {V : Valuation τ sig (Elt F)}

theorem arg0_eq : after ops V (Proc.devRef .tc main_arg0) = V (Proc.devRef .tc main_arg0) :=
  after_arg V main_arg0 arg_not_written.1
theorem arg1_eq : after ops V (Proc.devRef .tc main_arg1) = V (Proc.devRef .tc main_arg1) :=
  after_arg V main_arg1 arg_not_written.2.1
theorem arg2_eq : after ops V (Proc.devRef .tc main_arg2) = V (Proc.devRef .tc main_arg2) :=
  after_arg V main_arg2 arg_not_written.2.2.1
theorem arg3_eq : after ops V (Proc.devRef .tc main_arg3) = V (Proc.devRef .tc main_arg3) :=
  after_arg V main_arg3 arg_not_written.2.2.2.1
theorem arg4_eq : after ops V (Proc.devRef .tc main_arg4) = V (Proc.devRef .tc main_arg4) :=
  after_arg V main_arg4 arg_not_written.2.2.2.2.1
theorem arg5_eq : after ops V (Proc.devRef .tc main_arg5) = V (Proc.devRef .tc main_arg5) :=
  after_arg V main_arg5 arg_not_written.2.2.2.2.2.1
theorem arg6_eq : after ops V (Proc.devRef .tc main_arg6) = V (Proc.devRef .tc main_arg6) :=
  after_arg V main_arg6 arg_not_written.2.2.2.2.2.2.1
theorem arg7_eq : after ops V (Proc.devRef .tc main_arg7) = V (Proc.devRef .tc main_arg7) :=
  after_arg V main_arg7 arg_not_written.2.2.2.2.2.2.2.1
theorem arg8_eq : after ops V (Proc.devRef .tc main_arg8) = V (Proc.devRef .tc main_arg8) :=
  after_arg V main_arg8 arg_not_written.2.2.2.2.2.2.2.2

end Args

/-! ## The program's value, stage by stage

The functions the program computes, named: the symmetric normalisation of the edges, the input projection, and one layer —
neighbourhood sum, the two-branch combination with the layer's constant, batch normalisation over the nodes, rectification.
Each is the composition of the operations' own functions, in the program's order and association. -/

section Value

/-- The contents of an array of shape `S` and element type `e`. -/
abbrev Arr (F : FTy → Type) (S : Shape) (e : EltTy) : Type := (⟨S, e⟩ : BufTy).Contents (Elt F)

/-- A scalar constant over the nodes, the edges, the node features. -/
def zeroN : Arr F S100000 .f32 := broadcastInDim S100000 ![] bcast_S_S100000 (constant S_ .f32 0x00000000#32)
@[inherit_doc zeroN] def oneN : Arr F S100000 .f32 := broadcastInDim S100000 ![] bcast_S_S100000 (constant S_ .f32 0x3F800000#32)
@[inherit_doc zeroN] def oneE : Arr F S700000 .f32 := broadcastInDim S700000 ![] bcast_S_S700000 (constant S_ .f32 0x3F800000#32)
/-- A scalar over the node features. -/
def splatS (s : Arr F S_ .f32) : Arr F S100000x128 .f32 := broadcastInDim S100000x128 ![] bcast_S_S100000x128 s
/-- A scalar literal over the node features. -/
def splat (b : BitVec 32) : Arr F S100000x128 .f32 := splatS (constant S_ .f32 b)
/-- A vector of 128 as every node's row. -/
def rowN (v : Arr F S128 .f32) : Arr F S100000x128 .f32 :=
  broadcastInDim S100000x128 ![0, 1] bcast_S1x128_S100000x128_0_1 (broadcastInDim S1x128 ![1] bcast_S128_S1x128_1 v)

/-- An index array as a column. -/
def col (i : Arr F S700000 .i32) : Arr F S700000x1 .i32 := broadcastInDim S700000x1 ![0] bcast_S700000_S700000x1_0 i

/-- Negative indices wrapped around: `i < 0 ? i + 100000 : i`. -/
def wrap (i : Arr F S700000 .i32) : Arr F S700000 .i32 :=
  select (cmpi .slt i (broadcastInDim S700000 ![] bcast_S_S700000 (constantI S_ 32 0#32)))
    (addi i (broadcastInDim S700000 ![] bcast_S_S700000 (constantI S_ 32 100000#32))) i

/-- The in-degree: ones summed at the destination of each edge. -/
def deg (dst : Arr F S700000 .i32) : Arr F S100000 .f32 :=
  Host.scatterAdd scatter_S100000_S700000x1_S700000_n_0_0_1 zeroN (col dst) oneE

/-- `deg^(-1/2)` where the degree is positive, zero elsewhere. -/
def dis (dst : Arr F S700000 .i32) : Arr F S100000 .f32 :=
  select (cmpf .ogt (deg dst) zeroN) (Host.rsqrt (maximumf (deg dst) oneN)) zeroN

/-- The edge weights `dis[src] * dis[dst]`. -/
def norm (src dst : Arr F S700000 .i32) : Arr F S700000 .f32 :=
  mulf (Host.gather gather_S100000_S700000x1_S700000_n_0_n_n_0_1_1 (dis dst) (col (wrap src)))
    (Host.gather gather_S100000_S700000x1_S700000_n_0_n_n_0_1_1 (dis dst) (col (wrap dst)))

/-- The product with a 128 × 128 matrix. -/
def dotW (a : Arr F S100000x128 .f32) (w : Arr F S128x128 .f32) : Arr F S100000x128 .f32 :=
  Host.dotGeneral dot_S100000x128_S128x128_S100000x128_1_0_0_1_n_n none a w

/-- The input projection `x · w + b`. -/
def h0 (x : Arr F S100000x128 .f32) (w : Arr F S128x128 .f32) (b : Arr F S128 .f32) : Arr F S100000x128 .f32 :=
  addf (dotW x w) (rowN b)

/-- The neighbourhood sum: each edge's source row times the edge weight, summed at the destination. -/
def agg (h : Arr F S100000x128 .f32) (nrm : Arr F S700000 .f32) (src dst : Arr F S700000 .i32) : Arr F S100000x128 .f32 :=
  Host.scatterAdd scatter_S100000x128_S700000x1_S700000x128_1_0_0_1 (splat 0x00000000#32) (col dst)
    (mulf (Host.gather gather_S100000x128_S700000x1_S700000x128_1_0_n_n_0_1_1128 h (col (wrap src)))
      (broadcastInDim S700000x128 ![0, 1] bcast_S700000x1_S700000x128_0_1
        (broadcastInDim S700000x1 ![0] bcast_S700000_S700000x1_0 nrm)))

/-- Half of an array (the literal one half times it). -/
def half (a : Arr F S100000x128 .f32) : Arr F S100000x128 .f32 := mulf (splat 0x3F000000#32) a

/-- One minus a literal, as the program computes it: the subtraction of two scalar constants. -/
def oneMinus (β : BitVec 32) : Arr F S_ .f32 := subf (constant S_ .f32 0x3F800000#32) (constant S_ .f32 β)

/-- The combination `(1-β)·xs + β·(xs·w1) + (1-β)·x0s + β·(x0s·w2)`, associated to the left. -/
def comb (β : BitVec 32) (xs x0s : Arr F S100000x128 .f32) (w1 w2 : Arr F S128x128 .f32) : Arr F S100000x128 .f32 :=
  addf (addf (addf (mulf (splatS (oneMinus β)) xs) (mulf (splat β) (dotW xs w1))) (mulf (splatS (oneMinus β)) x0s))
    (mulf (splat β) (dotW x0s w2))

/-- The sum over the nodes, from zero. -/
def sumN (y : Arr F S100000x128 .f32) : Arr F S128 .f32 :=
  Host.reduceAdd y (constant S_ .f32 0x00000000#32) reducesTo_S100000x128_S128_d0 h_S_

/-- The mean over the nodes. -/
def mean (y : Arr F S100000x128 .f32) : Arr F S128 .f32 :=
  Host.divf (sumN y) (broadcastInDim S128 ![] bcast_S_S128 (constant S_ .f32 0x47C35000#32))

/-- The variance's denominator `100000 - 0`, the zero an integer converted. -/
def varDen : Arr F S_ .f32 := subf (constant S_ .f32 0x47C35000#32) (sitofp .f32 (constantI S_ 32 0#32))

/-- The array minus its mean over the nodes (the mean taken on a row of shape 1 × 128). -/
def centered (y : Arr F S100000x128 .f32) : Arr F S100000x128 .f32 :=
  subf y (broadcastInDim S100000x128 ![0, 1] bcast_S1x128_S100000x128_0_1
    (Host.divf (broadcastInDim S1x128 ![1] bcast_S128_S1x128_1 (sumN y))
      (broadcastInDim S1x128 ![] bcast_S_S1x128 (constant S_ .f32 0x47C35000#32))))

/-- The variance over the nodes: the mean square deviation where the denominator is positive, the literal NaN elsewhere. -/
def var (y : Arr F S100000x128 .f32) : Arr F S128 .f32 :=
  select (broadcastInDim S128 ![] bcast_S_S128 (cmpf .ogt (varDen (F := F)) (constant S_ .f32 0x00000000#32)))
    (Host.divf (sumN (mulf (centered y) (centered y))) (broadcastInDim S128 ![] bcast_S_S128 (varDen (F := F))))
    (broadcastInDim S128 ![] bcast_S_S128 (constant S_ .f32 0x7FC00000#32))

/-- Batch normalisation over the nodes: `γ · (y - mean) · rsqrt(var + ε) + β`. -/
def bn (y : Arr F S100000x128 .f32) (γ βb : Arr F S128 .f32) : Arr F S100000x128 .f32 :=
  addf (mulf (mulf (rowN γ) (subf y (rowN (mean y))))
      (rowN (Host.rsqrt (addf (var y) (broadcastInDim S128 ![] bcast_S_S128 (constant S_ .f32 0x3727C5AC#32))))))
    (rowN βb)

/-- The positive part. -/
def relu (a : Arr F S100000x128 .f32) : Arr F S100000x128 .f32 := maximumf a (splat 0x00000000#32)

/-- One layer, from the previous layer's output `h`, the projection `h0v`, the edge weights and the layer's parameters. -/
def layerOf (β : BitVec 32) (h h0v : Arr F S100000x128 .f32) (nrm : Arr F S700000 .f32) (src dst : Arr F S700000 .i32)
    (w1 w2 : Arr F S128x128 .f32) (γ βb : Arr F S128 .f32) : Arr F S100000x128 .f32 :=
  relu (bn (comb β (half (agg h nrm src dst)) (half h0v) w1 w2) γ βb)

end Value

section Slices

/-- Layer `l`'s 128 × 128 matrix out of the four stacked ones, and its vector of 128 out of the four stacked ones. -/
def wSlice0 (w : Arr F S4x128x128 .f32) : Arr F S128x128 .f32 :=
  fun i => shapeCast S128x128 (extractStridedSlice S1x128x128 ![0, 0, 0] w slices_S4x128x128_S1x128x128_0_0_0) shapeCasts_S1x128x128_S128x128 i
@[inherit_doc wSlice0] def wSlice1 (w : Arr F S4x128x128 .f32) : Arr F S128x128 .f32 :=
  fun i => shapeCast S128x128 (extractStridedSlice S1x128x128 ![1, 0, 0] w slices_S4x128x128_S1x128x128_1_0_0) shapeCasts_S1x128x128_S128x128 i
@[inherit_doc wSlice0] def wSlice2 (w : Arr F S4x128x128 .f32) : Arr F S128x128 .f32 :=
  fun i => shapeCast S128x128 (extractStridedSlice S1x128x128 ![2, 0, 0] w slices_S4x128x128_S1x128x128_2_0_0) shapeCasts_S1x128x128_S128x128 i
@[inherit_doc wSlice0] def wSlice3 (w : Arr F S4x128x128 .f32) : Arr F S128x128 .f32 :=
  fun i => shapeCast S128x128 (extractStridedSlice S1x128x128 ![3, 0, 0] w slices_S4x128x128_S1x128x128_3_0_0) shapeCasts_S1x128x128_S128x128 i
@[inherit_doc wSlice0] def vSlice0 (v : Arr F S4x128 .f32) : Arr F S128 .f32 :=
  fun i => shapeCast S128 (extractStridedSlice S1x128 ![0, 0] v slices_S4x128_S1x128_0_0) shapeCasts_S1x128_S128 i
@[inherit_doc wSlice0] def vSlice1 (v : Arr F S4x128 .f32) : Arr F S128 .f32 :=
  fun i => shapeCast S128 (extractStridedSlice S1x128 ![1, 0] v slices_S4x128_S1x128_1_0) shapeCasts_S1x128_S128 i
@[inherit_doc wSlice0] def vSlice2 (v : Arr F S4x128 .f32) : Arr F S128 .f32 :=
  fun i => shapeCast S128 (extractStridedSlice S1x128 ![2, 0] v slices_S4x128_S1x128_2_0) shapeCasts_S1x128_S128 i
@[inherit_doc wSlice0] def vSlice3 (v : Arr F S4x128 .f32) : Arr F S128 .f32 :=
  fun i => shapeCast S128 (extractStridedSlice S1x128 ![3, 0] v slices_S4x128_S1x128_3_0) shapeCasts_S1x128_S128 i

end Slices

end Cert.ReferenceIdeal.RefValue

end
-- ==== Proof.RefRun8.lean ====
import proofs.«163161_j55817394979591_1_alg».proof.Proof.RefRun7

/-! The reference program's prologue read stage by stage: the edge weights and the input projection as functions of the
    argument arrays. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib

variable {F : FTy → Type} [FloatOps F]

/-! ## The prologue (operations 0 … 39), over the final contents -/

section Prologue

variable {V : Valuation τ sig (Elt F)}

/-- The input projection. -/
theorem fin_h0 : after ops V (Proc.devRef .tc main_v28)
    = h0 (V (Proc.devRef .tc main_arg0)) (V (Proc.devRef .tc main_arg3)) (V (Proc.devRef .tc main_arg4)) := by
  rw [sb 39, su 38, su 37, sb 36, arg0_eq, arg3_eq, arg4_eq]
  rfl

/-- The edge weights. -/
theorem fin_norm : after ops V (Proc.devRef .tc main_v24)
    = norm (V (Proc.devRef .tc main_arg1)) (V (Proc.devRef .tc main_arg2)) := by
  rw [sb 35, sb 34, su 33, st 32, sb 31, su 30, sn 29, sb 28, su 27, sn 26, sb 25, su 24, st 23, sb 22, su 21, sn 20, sb 19, su 18,
    sn 17, st 16, su 15, su 14, sn 13, su 12, sb 11, su 10, sn 9, sb 8, su 7, sn 6, st 5, su 4, su 3, sn 2, su 1, sn 0,
    arg1_eq, arg2_eq]
  rfl

end Prologue

end Cert.ReferenceIdeal.RefValue

end
-- ==== Proof.RefRun9.lean ====
import proofs.«163161_j55817394979591_1_alg».proof.Proof.RefRun7

/-! The reference program's layer 0 read stage by stage: its output as the layer function of its input, the projection, the
    edge weights and the layer's parameters. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib

variable {F : FTy → Type} [FloatOps F]

/-! ## Layer 0 (operations 40 … 137), over the final contents -/

section Layer0

variable {V : Valuation τ sig (Elt F)}

/-- The neighbourhood sum of the layer's input. -/
theorem fin_agg0 : after ops V (Proc.devRef .tc main_v41)
    = agg (after ops V (Proc.devRef .tc main_v28)) (after ops V (Proc.devRef .tc main_v24))
        (V (Proc.devRef .tc main_arg1)) (V (Proc.devRef .tc main_arg2)) := by
  rw [st 55, su 54, su 53, sn 52, sb 51, su 50, su 49, sb 48, su 47, st 46, sb 45, su 44, sn 43, sb 42, su 41, sn 40,
    arg1_eq, arg2_eq]
  rfl

/-- The combination of the halved sum and the halved projection. -/
theorem fin_y0 : after ops V (Proc.devRef .tc main_v64)
    = comb 0x3F317218#32 (half (after ops V (Proc.devRef .tc main_v41))) (half (after ops V (Proc.devRef .tc main_v28)))
        (wSlice0 (V (Proc.devRef .tc main_arg5))) (wSlice0 (V (Proc.devRef .tc main_arg6))) := by
  rw [sb 86, sb 85, su 84, sn 83, sb 82, sr 81, su 80, sb 79, sb 78, su 77, sb 76, sn 75, sn 74, sb 73, sb 72, su 71, sn 70,
    sb 69, sr 68, su 67, sb 66, su 65, sb 64, sn 63, sn 62, sb 61, su 60, sn 59, sb 58, su 57, sn 56, arg5_eq, arg6_eq]
  rfl

/-- Its variance over the nodes (the outlined variance function's twenty-two operations). -/
theorem fin_var0 : after ops V (Proc.devRef .tc main_v68) = var (after ops V (Proc.devRef .tc main_v64)) := by
  rw [st 114, su 113, su 112, sn 111, sb 110, sn 109, sb 108, su 107, sb 106, sn 105, sb 104, sn 103, su 102, sb 101, sb 100,
    su 99, sb 98, su 97, sn 96, su 95, sb 94, sn 93, sn 92]
  rfl

/-- Its batch normalisation. -/
theorem fin_bn0 : after ops V (Proc.devRef .tc main_v87)
    = bn (after ops V (Proc.devRef .tc main_v64)) (vSlice0 (V (Proc.devRef .tc main_arg7)))
        (vSlice0 (V (Proc.devRef .tc main_arg8))) := by
  rw [sb 134, su 133, su 132, sr 131, su 130, sb 129, su 128, su 127, su 126, sb 125, su 124, sn 123, sb 122, su 121, su 120,
    sb 119, su 118, su 117, sr 116, su 115, fin_var0, sb 91, su 90, sn 89, sb 88, sn 87, arg7_eq, arg8_eq]
  rfl

/-- The layer: its output from its input, the projection, the edge weights and its parameters. -/
theorem fin_layer0 : after ops V (Proc.devRef .tc main_v88)
    = layerOf 0x3F317218#32 (after ops V (Proc.devRef .tc main_v28)) (after ops V (Proc.devRef .tc main_v28))
        (after ops V (Proc.devRef .tc main_v24)) (V (Proc.devRef .tc main_arg1)) (V (Proc.devRef .tc main_arg2))
        (wSlice0 (V (Proc.devRef .tc main_arg5))) (wSlice0 (V (Proc.devRef .tc main_arg6)))
        (vSlice0 (V (Proc.devRef .tc main_arg7))) (vSlice0 (V (Proc.devRef .tc main_arg8))) := by
  rw [sb 137, su 136, sn 135, fin_bn0, fin_y0, fin_agg0]
  rfl

end Layer0

end Cert.ReferenceIdeal.RefValue

end
-- ==== Proof.RefRun10.lean ====
import proofs.«163161_j55817394979591_1_alg».proof.Proof.RefRun7

/-! The reference program's layer 1 read stage by stage: its output as the layer function of its input, the projection, the
    edge weights and the layer's parameters. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib

variable {F : FTy → Type} [FloatOps F]

/-! ## Layer 1 (operations 138 … 235), over the final contents -/

section Layer1

variable {V : Valuation τ sig (Elt F)}

/-- The neighbourhood sum of the layer's input. -/
theorem fin_agg1 : after ops V (Proc.devRef .tc main_v101)
    = agg (after ops V (Proc.devRef .tc main_v88)) (after ops V (Proc.devRef .tc main_v24))
        (V (Proc.devRef .tc main_arg1)) (V (Proc.devRef .tc main_arg2)) := by
  rw [st 153, su 152, su 151, sn 150, sb 149, su 148, su 147, sb 146, su 145, st 144, sb 143, su 142, sn 141, sb 140, su 139, sn 138,
    arg1_eq, arg2_eq]
  rfl

/-- The combination of the halved sum and the halved projection. -/
theorem fin_y1 : after ops V (Proc.devRef .tc main_v124)
    = comb 0x3ECF991F#32 (half (after ops V (Proc.devRef .tc main_v101))) (half (after ops V (Proc.devRef .tc main_v28)))
        (wSlice1 (V (Proc.devRef .tc main_arg5))) (wSlice1 (V (Proc.devRef .tc main_arg6))) := by
  rw [sb 184, sb 183, su 182, sn 181, sb 180, sr 179, su 178, sb 177, sb 176, su 175, sb 174, sn 173, sn 172, sb 171, sb 170, su 169, sn 168,
    sb 167, sr 166, su 165, sb 164, su 163, sb 162, sn 161, sn 160, sb 159, su 158, sn 157, sb 156, su 155, sn 154, arg5_eq, arg6_eq]
  rfl

/-- Its variance over the nodes (the outlined variance function's twenty-two operations). -/
theorem fin_var1 : after ops V (Proc.devRef .tc main_v128) = var (after ops V (Proc.devRef .tc main_v124)) := by
  rw [st 212, su 211, su 210, sn 209, sb 208, sn 207, sb 206, su 205, sb 204, sn 203, sb 202, sn 201, su 200, sb 199, sb 198,
    su 197, sb 196, su 195, sn 194, su 193, sb 192, sn 191, sn 190]
  rfl

/-- Its batch normalisation. -/
theorem fin_bn1 : after ops V (Proc.devRef .tc main_v147)
    = bn (after ops V (Proc.devRef .tc main_v124)) (vSlice1 (V (Proc.devRef .tc main_arg7)))
        (vSlice1 (V (Proc.devRef .tc main_arg8))) := by
  rw [sb 232, su 231, su 230, sr 229, su 228, sb 227, su 226, su 225, su 224, sb 223, su 222, sn 221, sb 220, su 219, su 218,
    sb 217, su 216, su 215, sr 214, su 213, fin_var1, sb 189, su 188, sn 187, sb 186, sn 185, arg7_eq, arg8_eq]
  rfl

/-- The layer: its output from its input, the projection, the edge weights and its parameters. -/
theorem fin_layer1 : after ops V (Proc.devRef .tc main_v148)
    = layerOf 0x3ECF991F#32 (after ops V (Proc.devRef .tc main_v88)) (after ops V (Proc.devRef .tc main_v28))
        (after ops V (Proc.devRef .tc main_v24)) (V (Proc.devRef .tc main_arg1)) (V (Proc.devRef .tc main_arg2))
        (wSlice1 (V (Proc.devRef .tc main_arg5))) (wSlice1 (V (Proc.devRef .tc main_arg6)))
        (vSlice1 (V (Proc.devRef .tc main_arg7))) (vSlice1 (V (Proc.devRef .tc main_arg8))) := by
  rw [sb 235, su 234, sn 233, fin_bn1, fin_y1, fin_agg1]
  rfl

end Layer1

end Cert.ReferenceIdeal.RefValue

end
-- ==== Proof.RefRun11.lean ====
import proofs.«163161_j55817394979591_1_alg».proof.Proof.RefRun7

/-! The reference program's layer 2 read stage by stage: its output as the layer function of its input, the projection, the
    edge weights and the layer's parameters. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib

variable {F : FTy → Type} [FloatOps F]

/-! ## Layer 2 (operations 236 … 333), over the final contents -/

section Layer2

variable {V : Valuation τ sig (Elt F)}

/-- The neighbourhood sum of the layer's input. -/
theorem fin_agg2 : after ops V (Proc.devRef .tc main_v161)
    = agg (after ops V (Proc.devRef .tc main_v148)) (after ops V (Proc.devRef .tc main_v24))
        (V (Proc.devRef .tc main_arg1)) (V (Proc.devRef .tc main_arg2)) := by
  rw [st 251, su 250, su 249, sn 248, sb 247, su 246, su 245, sb 244, su 243, st 242, sb 241, su 240, sn 239, sb 238, su 237, sn 236,
    arg1_eq, arg2_eq]
  rfl

/-- The combination of the halved sum and the halved projection. -/
theorem fin_y2 : after ops V (Proc.devRef .tc main_v184)
    = comb 0x3E934B11#32 (half (after ops V (Proc.devRef .tc main_v161))) (half (after ops V (Proc.devRef .tc main_v28)))
        (wSlice2 (V (Proc.devRef .tc main_arg5))) (wSlice2 (V (Proc.devRef .tc main_arg6))) := by
  rw [sb 282, sb 281, su 280, sn 279, sb 278, sr 277, su 276, sb 275, sb 274, su 273, sb 272, sn 271, sn 270, sb 269, sb 268, su 267, sn 266,
    sb 265, sr 264, su 263, sb 262, su 261, sb 260, sn 259, sn 258, sb 257, su 256, sn 255, sb 254, su 253, sn 252, arg5_eq, arg6_eq]
  rfl

/-- Its variance over the nodes (the outlined variance function's twenty-two operations). -/
theorem fin_var2 : after ops V (Proc.devRef .tc main_v188) = var (after ops V (Proc.devRef .tc main_v184)) := by
  rw [st 310, su 309, su 308, sn 307, sb 306, sn 305, sb 304, su 303, sb 302, sn 301, sb 300, sn 299, su 298, sb 297, sb 296,
    su 295, sb 294, su 293, sn 292, su 291, sb 290, sn 289, sn 288]
  rfl

/-- Its batch normalisation. -/
theorem fin_bn2 : after ops V (Proc.devRef .tc main_v207)
    = bn (after ops V (Proc.devRef .tc main_v184)) (vSlice2 (V (Proc.devRef .tc main_arg7)))
        (vSlice2 (V (Proc.devRef .tc main_arg8))) := by
  rw [sb 330, su 329, su 328, sr 327, su 326, sb 325, su 324, su 323, su 322, sb 321, su 320, sn 319, sb 318, su 317, su 316,
    sb 315, su 314, su 313, sr 312, su 311, fin_var2, sb 287, su 286, sn 285, sb 284, sn 283, arg7_eq, arg8_eq]
  rfl

/-- The layer: its output from its input, the projection, the edge weights and its parameters. -/
theorem fin_layer2 : after ops V (Proc.devRef .tc main_v208)
    = layerOf 0x3E934B11#32 (after ops V (Proc.devRef .tc main_v148)) (after ops V (Proc.devRef .tc main_v28))
        (after ops V (Proc.devRef .tc main_v24)) (V (Proc.devRef .tc main_arg1)) (V (Proc.devRef .tc main_arg2))
        (wSlice2 (V (Proc.devRef .tc main_arg5))) (wSlice2 (V (Proc.devRef .tc main_arg6)))
        (vSlice2 (V (Proc.devRef .tc main_arg7))) (vSlice2 (V (Proc.devRef .tc main_arg8))) := by
  rw [sb 333, su 332, sn 331, fin_bn2, fin_y2, fin_agg2]
  rfl

end Layer2

end Cert.ReferenceIdeal.RefValue

end
-- ==== Proof.RefRun12.lean ====
import proofs.«163161_j55817394979591_1_alg».proof.Proof.RefRun7

/-! The reference program's layer 3 read stage by stage: its output as the layer function of its input, the projection, the
    edge weights and the layer's parameters. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib

variable {F : FTy → Type} [FloatOps F]

/-! ## Layer 3 (operations 334 … 431), over the final contents -/

section Layer3

variable {V : Valuation τ sig (Elt F)}

/-- The neighbourhood sum of the layer's input. -/
theorem fin_agg3 : after ops V (Proc.devRef .tc main_v221)
    = agg (after ops V (Proc.devRef .tc main_v208)) (after ops V (Proc.devRef .tc main_v24))
        (V (Proc.devRef .tc main_arg1)) (V (Proc.devRef .tc main_arg2)) := by
  rw [st 349, su 348, su 347, sn 346, sb 345, su 344, su 343, sb 342, su 341, st 340, sb 339, su 338, sn 337, sb 336, su 335, sn 334,
    arg1_eq, arg2_eq]
  rfl

/-- The combination of the halved sum and the halved projection. -/
theorem fin_y3 : after ops V (Proc.devRef .tc main_v244)
    = comb 0x3E647FBE#32 (half (after ops V (Proc.devRef .tc main_v221))) (half (after ops V (Proc.devRef .tc main_v28)))
        (wSlice3 (V (Proc.devRef .tc main_arg5))) (wSlice3 (V (Proc.devRef .tc main_arg6))) := by
  rw [sb 380, sb 379, su 378, sn 377, sb 376, sr 375, su 374, sb 373, sb 372, su 371, sb 370, sn 369, sn 368, sb 367, sb 366, su 365, sn 364,
    sb 363, sr 362, su 361, sb 360, su 359, sb 358, sn 357, sn 356, sb 355, su 354, sn 353, sb 352, su 351, sn 350, arg5_eq, arg6_eq]
  rfl

/-- Its variance over the nodes (the outlined variance function's twenty-two operations). -/
theorem fin_var3 : after ops V (Proc.devRef .tc main_v248) = var (after ops V (Proc.devRef .tc main_v244)) := by
  rw [st 408, su 407, su 406, sn 405, sb 404, sn 403, sb 402, su 401, sb 400, sn 399, sb 398, sn 397, su 396, sb 395, sb 394,
    su 393, sb 392, su 391, sn 390, su 389, sb 388, sn 387, sn 386]
  rfl

/-- Its batch normalisation. -/
theorem fin_bn3 : after ops V (Proc.devRef .tc main_v267)
    = bn (after ops V (Proc.devRef .tc main_v244)) (vSlice3 (V (Proc.devRef .tc main_arg7)))
        (vSlice3 (V (Proc.devRef .tc main_arg8))) := by
  rw [sb 428, su 427, su 426, sr 425, su 424, sb 423, su 422, su 421, su 420, sb 419, su 418, sn 417, sb 416, su 415, su 414,
    sb 413, su 412, su 411, sr 410, su 409, fin_var3, sb 385, su 384, sn 383, sb 382, sn 381, arg7_eq, arg8_eq]
  rfl

/-- The layer: its output from its input, the projection, the edge weights and its parameters. -/
theorem fin_layer3 : after ops V (Proc.devRef .tc main_v268)
    = layerOf 0x3E647FBE#32 (after ops V (Proc.devRef .tc main_v208)) (after ops V (Proc.devRef .tc main_v28))
        (after ops V (Proc.devRef .tc main_v24)) (V (Proc.devRef .tc main_arg1)) (V (Proc.devRef .tc main_arg2))
        (wSlice3 (V (Proc.devRef .tc main_arg5))) (wSlice3 (V (Proc.devRef .tc main_arg6)))
        (vSlice3 (V (Proc.devRef .tc main_arg7))) (vSlice3 (V (Proc.devRef .tc main_arg8))) := by
  rw [sb 431, su 430, sn 429, fin_bn3, fin_y3, fin_agg3]
  rfl

end Layer3

end Cert.ReferenceIdeal.RefValue

end
-- ==== Proof.RefRun.lean ====
import proofs.«163161_j55817394979591_1_alg».proof.Proof.RefRun7
import proofs.«163161_j55817394979591_1_alg».proof.Proof.RefRun8
import proofs.«163161_j55817394979591_1_alg».proof.Proof.RefRun9
import proofs.«163161_j55817394979591_1_alg».proof.Proof.RefRun10
import proofs.«163161_j55817394979591_1_alg».proof.Proof.RefRun11
import proofs.«163161_j55817394979591_1_alg».proof.Proof.RefRun12

/-! The reference program's run: the operation list, the run and the frame (RefRun7, over the six windows RefRun1 … RefRun6), the
    prologue and the four layers read stage by stage (RefRun8 … RefRun12), and here the result buffer's final contents as one
    named function of the nine argument arrays. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib

variable {F : FTy → Type} [FloatOps F]

/-! ## The result -/

section Result

/-- The four layers' outputs as functions of the nine argument arrays. -/
def out0 (x : Arr F S100000x128 .f32) (src dst : Arr F S700000 .i32) (wp : Arr F S128x128 .f32) (bp : Arr F S128 .f32)
    (w1 w2 : Arr F S4x128x128 .f32) (γ βb : Arr F S4x128 .f32) : Arr F S100000x128 .f32 :=
  layerOf 0x3F317218#32 (h0 x wp bp) (h0 x wp bp) (norm src dst) src dst (wSlice0 w1) (wSlice0 w2) (vSlice0 γ) (vSlice0 βb)
@[inherit_doc out0] def out1 (x : Arr F S100000x128 .f32) (src dst : Arr F S700000 .i32) (wp : Arr F S128x128 .f32) (bp : Arr F S128 .f32)
    (w1 w2 : Arr F S4x128x128 .f32) (γ βb : Arr F S4x128 .f32) : Arr F S100000x128 .f32 :=
  layerOf 0x3ECF991F#32 (out0 x src dst wp bp w1 w2 γ βb) (h0 x wp bp) (norm src dst) src dst (wSlice1 w1) (wSlice1 w2) (vSlice1 γ) (vSlice1 βb)
@[inherit_doc out0] def out2 (x : Arr F S100000x128 .f32) (src dst : Arr F S700000 .i32) (wp : Arr F S128x128 .f32) (bp : Arr F S128 .f32)
    (w1 w2 : Arr F S4x128x128 .f32) (γ βb : Arr F S4x128 .f32) : Arr F S100000x128 .f32 :=
  layerOf 0x3E934B11#32 (out1 x src dst wp bp w1 w2 γ βb) (h0 x wp bp) (norm src dst) src dst (wSlice2 w1) (wSlice2 w2) (vSlice2 γ) (vSlice2 βb)
@[inherit_doc out0] def out3 (x : Arr F S100000x128 .f32) (src dst : Arr F S700000 .i32) (wp : Arr F S128x128 .f32) (bp : Arr F S128 .f32)
    (w1 w2 : Arr F S4x128x128 .f32) (γ βb : Arr F S4x128 .f32) : Arr F S100000x128 .f32 :=
  layerOf 0x3E647FBE#32 (out2 x src dst wp bp w1 w2 γ βb) (h0 x wp bp) (norm src dst) src dst (wSlice3 w1) (wSlice3 w2) (vSlice3 γ) (vSlice3 βb)

/-- The result buffer ends at the fourth layer's output of the argument arrays' contents. -/
theorem fin_out (V : Valuation τ sig (Elt F)) : after ops V (Proc.devRef .tc main_v268)
    = out3 (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  rw [fin_layer3, fin_layer2, fin_layer1, fin_layer0, fin_h0, fin_norm]
  rfl

/-- The result at the exact reals, from a memory's argument arrays on device `c`. -/
def result (m : (ℓ : Loc nD τ sig) → Buf (Elt Ideal) ℓ) (c : Dev nD) : Arr Ideal S100000x128 .f32 :=
  out3 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The run at the exact reals: every weakly fair execution terminates with the result buffer at `result` and the nine
    argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v268) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c =>
    ⟨(h c main_v268).trans (fin_out (launchContents m c)),
      (h c main_arg0).trans (after_arg _ main_arg0 arg_not_written.1),
      (h c main_arg1).trans (after_arg _ main_arg1 arg_not_written.2.1),
      (h c main_arg2).trans (after_arg _ main_arg2 arg_not_written.2.2.1),
      (h c main_arg3).trans (after_arg _ main_arg3 arg_not_written.2.2.2.1),
      (h c main_arg4).trans (after_arg _ main_arg4 arg_not_written.2.2.2.2.1),
      (h c main_arg5).trans (after_arg _ main_arg5 arg_not_written.2.2.2.2.2.1),
      (h c main_arg6).trans (after_arg _ main_arg6 arg_not_written.2.2.2.2.2.2.1),
      (h c main_arg7).trans (after_arg _ main_arg7 arg_not_written.2.2.2.2.2.2.2.1),
      (h c main_arg8).trans (after_arg _ main_arg8 arg_not_written.2.2.2.2.2.2.2.2)⟩)
    (run_main m ρ)

end Result

end Cert.ReferenceIdeal.RefValue

end
-- ==== Proof.KIRegion0.lean ====
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Tactic

/-!
# Region 0 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: an unfetched window's block index has not
    moved since the point before.  Window 0 (the row block of x) is fetched at every point; -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- window 1 (the weight matrix) has a constant block index and is fetched once; -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and so is window 2 (the bias row). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store go through the whole block -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 3's staging buffer after the body, from the input windows' blocks: the one whole-block store's payload
    (x narrowed to bf16, times the narrowed weight matrix, accumulated from zero, plus the bias row on every row). -/
def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The one store is a single tile the size of the block, so it covers the buffer: the tiling is checked over
    block indices (one per axis), never over the block's elements. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents and the output's at anything, runs to
    the continuation holding the inputs' as they were and the output's at `out0_3` of the inputs': the printed
    function is its skeleton: three loads, an unused load of the output buffer, one store of the whole block. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KIRegion2.lean ====
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Tactic

/-!
# Region 2 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: an unfetched window's block index has not
    moved since the point before.  Window 0 (the row block of y) is fetched at every point; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- window 1 (the row of means) has a constant block index and is fetched once; -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- so is window 2 (the row of variances), -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- window 3 (the row of scales) -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- and window 4 (the row of shifts). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store go through the whole block -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out2_5 (x0 : Vec F S5000x128 .f32) (x1 x2 x3 x4 : Vec F S1x128 .f32) : Vec F S5000x128 .f32 :=
  View.canon [⟨r2_0, k2_pay1 (View.ld x0 r2_0) (View.ld x2 r2_1) (View.ld x3 r2_1) (View.ld x1 r2_1) (View.ld x4 r2_1)⟩]

/-- The one store is a single tile the size of the block, so it covers the buffer: the tiling is checked over
    block indices (one per axis), never over the block's elements. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents and the output's at anything, runs to
    the continuation holding the inputs' as they were and the output's at `out2_5` of the inputs': the printed
    function is its skeleton: five loads, an unused load of the output buffer, one store of the whole block. -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KIRegion4.lean ====
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Tactic

/-!
# Region 4 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place: an unfetched window's block index has not
    moved since the point before.  Window 0 (the row block of y) is fetched at every point; -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- window 1 (the row of means) has a constant block index and is fetched once; -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- so is window 2 (the row of variances), -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- window 3 (the row of scales) -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- and window 4 (the row of shifts). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store go through the whole block -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out4_5 (x0 : Vec F S5000x128 .f32) (x1 x2 x3 x4 : Vec F S1x128 .f32) : Vec F S5000x128 .f32 :=
  View.canon [⟨r4_0, k4_pay1 (View.ld x0 r4_0) (View.ld x2 r4_1) (View.ld x3 r4_1) (View.ld x1 r4_1) (View.ld x4 r4_1)⟩]

/-- The one store is a single tile the size of the block, so it covers the buffer: the tiling is checked over
    block indices (one per axis), never over the block's elements. -/
theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents and the output's at anything, runs to
    the continuation holding the inputs' as they were and the output's at `out4_5` of the inputs': the printed
    function is its skeleton: five loads, an unused load of the output buffer, one store of the whole block. -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__norm_relu_kernel i arg1 harg1 arg2 harg2 arg3 harg3 arg4 harg4 arg5 harg5 arg6 harg6) K := by
  simp only [cc4__norm_relu_kernel_eq_skeleton]; unfold cc4__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point
    `t` each input's buffer at its block and the output's at `out4_5` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by
  dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KIRegion6.lean ====
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Tactic

/-!
# Region 6 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: an unfetched window's block index has not
    moved since the point before.  Window 0 (the row block of y) is fetched at every point; -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- window 1 (the row of means) has a constant block index and is fetched once; -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- so is window 2 (the row of variances), -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- window 3 (the row of scales) -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- and window 4 (the row of shifts). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each load and the store go through the whole block -/

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out6_5 (x0 : Vec F S5000x128 .f32) (x1 x2 x3 x4 : Vec F S1x128 .f32) : Vec F S5000x128 .f32 :=
  View.canon [⟨r6_0, k6_pay1 (View.ld x0 r6_0) (View.ld x2 r6_1) (View.ld x3 r6_1) (View.ld x1 r6_1) (View.ld x4 r6_1)⟩]

/-- The one store is a single tile the size of the block, so it covers the buffer: the tiling is checked over
    block indices (one per axis), never over the block's elements. -/
theorem cover6_5 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs, the inputs' at read contents and the output's at anything, runs to
    the continuation holding the inputs' as they were and the output's at `out6_5` of the inputs': the printed
    function is its skeleton: five loads, an unused load of the output buffer, one store of the whole block. -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__norm_relu_kernel i arg1 harg1 arg2 harg2 arg3 harg3 arg4 harg4 arg5 harg5 arg6 harg6) K := by
  simp only [cc6__norm_relu_kernel_eq_skeleton]; unfold cc6__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point
    `t` each input's buffer at its block and the output's at `out6_5` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KIRegion8.lean ====
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Tactic

/-!
# Region 8 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not, for any proof
    data whose array is `V`'s and whose body leaves the block in place: an unfetched window's block index has not
    moved since the point before.  Window 0 (the row block of y) is fetched at every point; -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- window 1 (the row of means) has a constant block index and is fetched once; -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- so is window 2 (the row of variances), -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- window 3 (the row of scales) -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- and window 4 (the row of shifts). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each load and the store go through the whole block -/

abbrev r8_0 : Rect S5000x128 := Rect.unit (s := S5000x128) ![0, 0] S5000x128.size inb_S5000x128_S5000x128_0_0
abbrev r8_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out8_5 (x0 : Vec F S5000x128 .f32) (x1 x2 x3 x4 : Vec F S1x128 .f32) : Vec F S5000x128 .f32 :=
  View.canon [⟨r8_0, k8_pay1 (View.ld x0 r8_0) (View.ld x2 r8_1) (View.ld x3 r8_1) (View.ld x1 r8_1) (View.ld x4 r8_1)⟩]

/-- The one store is a single tile the size of the block, so it covers the buffer: the tiling is checked over
    block indices (one per axis), never over the block's elements. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the inputs' at read contents and the output's at anything, runs to
    the continuation holding the inputs' as they were and the output's at `out8_5` of the inputs': the printed
    function is its skeleton: five loads, an unused load of the output buffer, one store of the whole block. -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__norm_relu_kernel i arg1 harg1 arg2 harg2 arg3 harg3 arg4 harg4 arg5 harg5 arg6 harg6) K := by
  simp only [cc8__norm_relu_kernel_eq_skeleton]; unfold cc8__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at point
    `t` each input's buffer at its block and the output's at `out8_5` of the input blocks; the invariant is the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KIStages.lean ====
/-
  The contents of the unscoped buffers at each of the program's twenty boundaries, written stage by stage: a host
  stretch applies its operations; a region leaves in each of its output arrays what its pipeline's proof data say the
  write-backs leave there, and every other buffer as it was. With them: the nine pipelines' proof data as one family,
  the family of what the regions leave, and for each region the two facts its record needs — after it every array of
  the region holds what the pipeline leaves, and every other buffer is untouched.
  The four accumulating regions' proof data are parameters here (any data whose arrays are the entry contents).
-/
import proofs.«163161_j55817394979591_1_alg».proof.Proof.Gen.KernelIdeal.Regions
import proofs.«163161_j55817394979591_1_alg».proof.Proof.KIRegion0
import proofs.«163161_j55817394979591_1_alg».proof.Proof.KIRegion2
import proofs.«163161_j55817394979591_1_alg».proof.Proof.KIRegion4
import proofs.«163161_j55817394979591_1_alg».proof.Proof.KIRegion6
import proofs.«163161_j55817394979591_1_alg».proof.Proof.KIRegion8

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

/-- A region's entry contents, buffer by buffer. -/
abbrev Entry (F : FTy → Type) [FloatOps F] : Type := (c : Dev nD) → (b : Ref sig .tc) → Buf (Elt F) ((c : Thread nD τ).loc b)

variable (m : (ℓ : Loc nD τ sig) → Buf (Elt F) ℓ)
variable (D1 : Entry F → (c : Dev nD) → Dat τ (Elt F) Unit ℕ (UR sig nD τ) ℕ cfg1 c)
variable (D3 : Entry F → (c : Dev nD) → Dat τ (Elt F) Unit ℕ (UR sig nD τ) ℕ cfg3 c)
variable (D5 : Entry F → (c : Dev nD) → Dat τ (Elt F) Unit ℕ (UR sig nD τ) ℕ cfg5 c)
variable (D7 : Entry F → (c : Dev nD) → Dat τ (Elt F) Unit ℕ (UR sig nD τ) ℕ cfg7 c)

/-! ## The boundaries' contents -/

/-- Before region 0: the launch contents through the first three host stretches. -/
def S3 (c : Dev nD) : Valuation τ sig (Elt F) := V3 m c
/-- What region 0 leaves in `main_v26`. -/
def o_main_v26 (c : Dev nD) : Buf (Elt F) ((c : Thread nD τ).loc main_v26) := (dat0 (fun c b => S3 m c b) c).arrAt 3 cfg0.N
/-- After region 0. -/
def S4 (c : Dev nD) : Valuation τ sig (Elt F) := Function.update (S3 m c) main_v26 (o_main_v26 m c)
/-- After the host stretch that follows it. -/
def S5 (c : Dev nD) : Valuation τ sig (Elt F) := StableHlo.after hostOps1 (S4 m c)
/-- What region 1 leaves in `main_v44_0`. -/
def o_main_v44_0 (c : Dev nD) : Buf (Elt F) ((c : Thread nD τ).loc main_v44_0) := (D1 (fun c b => S5 m c b) c).arrAt 4 cfg1.N
/-- What region 1 leaves in `main_v44_1`. -/
def o_main_v44_1 (c : Dev nD) : Buf (Elt F) ((c : Thread nD τ).loc main_v44_1) := (D1 (fun c b => S5 m c b) c).arrAt 5 cfg1.N
/-- What region 1 leaves in `main_v44_2`. -/
def o_main_v44_2 (c : Dev nD) : Buf (Elt F) ((c : Thread nD τ).loc main_v44_2) := (D1 (fun c b => S5 m c b) c).arrAt 6 cfg1.N
/-- After region 1. -/
def S6 (c : Dev nD) : Valuation τ sig (Elt F) := Function.update (Function.update (Function.update (S5 m c) main_v44_0 (o_main_v44_0 m D1 c)) main_v44_1 (o_main_v44_1 m D1 c)) main_v44_2 (o_main_v44_2 m D1 c)
/-- After the host stretch that follows it. -/
def S7 (c : Dev nD) : Valuation τ sig (Elt F) := StableHlo.after hostOps2 (S6 m D1 c)
/-- What region 2 leaves in `main_v57`. -/
def o_main_v57 (c : Dev nD) : Buf (Elt F) ((c : Thread nD τ).loc main_v57) := (dat2 (fun c b => S7 m D1 c b) c).arrAt 5 cfg2.N
/-- After region 2. -/
def S8 (c : Dev nD) : Valuation τ sig (Elt F) := Function.update (S7 m D1 c) main_v57 (o_main_v57 m D1 c)
/-- After the host stretch that follows it. -/
def S9 (c : Dev nD) : Valuation τ sig (Elt F) := StableHlo.after hostOps3 (S8 m D1 c)
/-- What region 3 leaves in `main_v75_0`. -/
def o_main_v75_0 (c : Dev nD) : Buf (Elt F) ((c : Thread nD τ).loc main_v75_0) := (D3 (fun c b => S9 m D1 c b) c).arrAt 4 cfg3.N
/-- What region 3 leaves in `main_v75_1`. -/
def o_main_v75_1 (c : Dev nD) : Buf (Elt F) ((c : Thread nD τ).loc main_v75_1) := (D3 (fun c b => S9 m D1 c b) c).arrAt 5 cfg3.N
/-- What region 3 leaves in `main_v75_2`. -/
def o_main_v75_2 (c : Dev nD) : Buf (Elt F) ((c : Thread nD τ).loc main_v75_2) := (D3 (fun c b => S9 m D1 c b) c).arrAt 6 cfg3.N
/-- After region 3. -/
def S10 (c : Dev nD) : Valuation τ sig (Elt F) := Function.update (Function.update (Function.update (S9 m D1 c) main_v75_0 (o_main_v75_0 m D1 D3 c)) main_v75_1 (o_main_v75_1 m D1 D3 c)) main_v75_2 (o_main_v75_2 m D1 D3 c)
/-- After the host stretch that follows it. -/
def S11 (c : Dev nD) : Valuation τ sig (Elt F) := StableHlo.after hostOps4 (S10 m D1 D3 c)
/-- What region 4 leaves in `main_v88`. -/
def o_main_v88 (c : Dev nD) : Buf (Elt F) ((c : Thread nD τ).loc main_v88) := (dat4 (fun c b => S11 m D1 D3 c b) c).arrAt 5 cfg4.N
/-- After region 4. -/
def S12 (c : Dev nD) : Valuation τ sig (Elt F) := Function.update (S11 m D1 D3 c) main_v88 (o_main_v88 m D1 D3 c)
/-- After the host stretch that follows it. -/
def S13 (c : Dev nD) : Valuation τ sig (Elt F) := StableHlo.after hostOps5 (S12 m D1 D3 c)
/-- What region 5 leaves in `main_v106_0`. -/
def o_main_v106_0 (c : Dev nD) : Buf (Elt F) ((c : Thread nD τ).loc main_v106_0) := (D5 (fun c b => S13 m D1 D3 c b) c).arrAt 4 cfg5.N
/-- What region 5 leaves in `main_v106_1`. -/
def o_main_v106_1 (c : Dev nD) : Buf (Elt F) ((c : Thread nD τ).loc main_v106_1) := (D5 (fun c b => S13 m D1 D3 c b) c).arrAt 5 cfg5.N
/-- What region 5 leaves in `main_v106_2`. -/
def o_main_v106_2 (c : Dev nD) : Buf (Elt F) ((c : Thread nD τ).loc main_v106_2) := (D5 (fun c b => S13 m D1 D3 c b) c).arrAt 6 cfg5.N
/-- After region 5. -/
def S14 (c : Dev nD) : Valuation τ sig (Elt F) := Function.update (Function.update (Function.update (S13 m D1 D3 c) main_v106_0 (o_main_v106_0 m D1 D3 D5 c)) main_v106_1 (o_main_v106_1 m D1 D3 D5 c)) main_v106_2 (o_main_v106_2 m D1 D3 D5 c)
/-- After the host stretch that follows it. -/
def S15 (c : Dev nD) : Valuation τ sig (Elt F) := StableHlo.after hostOps6 (S14 m D1 D3 D5 c)
/-- What region 6 leaves in `main_v119`. -/
def o_main_v119 (c : Dev nD) : Buf (Elt F) ((c : Thread nD τ).loc main_v119) := (dat6 (fun c b => S15 m D1 D3 D5 c b) c).arrAt 5 cfg6.N
/-- After region 6. -/
def S16 (c : Dev nD) : Valuation τ sig (Elt F) := Function.update (S15 m D1 D3 D5 c) main_v119 (o_main_v119 m D1 D3 D5 c)
/-- After the host stretch that follows it. -/
def S17 (c : Dev nD) : Valuation τ sig (Elt F) := StableHlo.after hostOps7 (S16 m D1 D3 D5 c)
/-- What region 7 leaves in `main_v137_0`. -/
def o_main_v137_0 (c : Dev nD) : Buf (Elt F) ((c : Thread nD τ).loc main_v137_0) := (D7 (fun c b => S17 m D1 D3 D5 c b) c).arrAt 4 cfg7.N
/-- What region 7 leaves in `main_v137_1`. -/
def o_main_v137_1 (c : Dev nD) : Buf (Elt F) ((c : Thread nD τ).loc main_v137_1) := (D7 (fun c b => S17 m D1 D3 D5 c b) c).arrAt 5 cfg7.N
/-- What region 7 leaves in `main_v137_2`. -/
def o_main_v137_2 (c : Dev nD) : Buf (Elt F) ((c : Thread nD τ).loc main_v137_2) := (D7 (fun c b => S17 m D1 D3 D5 c b) c).arrAt 6 cfg7.N
/-- After region 7. -/
def S18 (c : Dev nD) : Valuation τ sig (Elt F) := Function.update (Function.update (Function.update (S17 m D1 D3 D5 c) main_v137_0 (o_main_v137_0 m D1 D3 D5 D7 c)) main_v137_1 (o_main_v137_1 m D1 D3 D5 D7 c)) main_v137_2 (o_main_v137_2 m D1 D3 D5 D7 c)
/-- After the host stretch that follows it. -/
def S19 (c : Dev nD) : Valuation τ sig (Elt F) := StableHlo.after hostOps8 (S18 m D1 D3 D5 D7 c)
/-- What region 8 leaves in `main_v150`. -/
def o_main_v150 (c : Dev nD) : Buf (Elt F) ((c : Thread nD τ).loc main_v150) := (dat8 (fun c b => S19 m D1 D3 D5 D7 c b) c).arrAt 5 cfg8.N
/-- After region 8. -/
def S20 (c : Dev nD) : Valuation τ sig (Elt F) := Function.update (S19 m D1 D3 D5 D7 c) main_v150 (o_main_v150 m D1 D3 D5 D7 c)

/-! ## The proof data as one family -/

/-- Every pipeline's proof data, each at its region's entry contents. -/
def pd : (p : Fin 9) → (c : Dev nD) → Dat τ (Elt F) Unit ℕ (UR sig nD τ) ℕ (cfgs p) c
  | ⟨0, _⟩ => fun c => dat0 (fun c b => S3 m c b) c
  | ⟨1, _⟩ => fun c => D1 (fun c b => S5 m c b) c
  | ⟨2, _⟩ => fun c => dat2 (fun c b => S7 m D1 c b) c
  | ⟨3, _⟩ => fun c => D3 (fun c b => S9 m D1 c b) c
  | ⟨4, _⟩ => fun c => dat4 (fun c b => S11 m D1 D3 c b) c
  | ⟨5, _⟩ => fun c => D5 (fun c b => S13 m D1 D3 c b) c
  | ⟨6, _⟩ => fun c => dat6 (fun c b => S15 m D1 D3 D5 c b) c
  | ⟨7, _⟩ => fun c => D7 (fun c b => S17 m D1 D3 D5 c b) c
  | ⟨8, _⟩ => fun c => dat8 (fun c b => S19 m D1 D3 D5 D7 c b) c
  | ⟨_ + 9, h⟩ => absurd h (Nat.not_lt.2 (Nat.le_add_left _ _))

/-! ## What the regions leave, as one family -/

/-- The regions' leftovers, by buffer (each buffer is some region's output at most once, so the item number is not consulted). -/
def outs : Outs (F := F) := fun _ r c =>
  if h : r = main_v26 then h ▸ o_main_v26 m c else
  if h : r = main_v44_0 then h ▸ o_main_v44_0 m D1 c else
  if h : r = main_v44_1 then h ▸ o_main_v44_1 m D1 c else
  if h : r = main_v44_2 then h ▸ o_main_v44_2 m D1 c else
  if h : r = main_v57 then h ▸ o_main_v57 m D1 c else
  if h : r = main_v75_0 then h ▸ o_main_v75_0 m D1 D3 c else
  if h : r = main_v75_1 then h ▸ o_main_v75_1 m D1 D3 c else
  if h : r = main_v75_2 then h ▸ o_main_v75_2 m D1 D3 c else
  if h : r = main_v88 then h ▸ o_main_v88 m D1 D3 c else
  if h : r = main_v106_0 then h ▸ o_main_v106_0 m D1 D3 D5 c else
  if h : r = main_v106_1 then h ▸ o_main_v106_1 m D1 D3 D5 c else
  if h : r = main_v106_2 then h ▸ o_main_v106_2 m D1 D3 D5 c else
  if h : r = main_v119 then h ▸ o_main_v119 m D1 D3 D5 c else
  if h : r = main_v137_0 then h ▸ o_main_v137_0 m D1 D3 D5 D7 c else
  if h : r = main_v137_1 then h ▸ o_main_v137_1 m D1 D3 D5 D7 c else
  if h : r = main_v137_2 then h ▸ o_main_v137_2 m D1 D3 D5 D7 c else
  if h : r = main_v150 then h ▸ o_main_v150 m D1 D3 D5 D7 c else
  m ((c : Thread nD τ).loc r)
theorem outs_main_v26 (J : ℕ) (c : Dev nD) : outs m D1 D3 D5 D7 J main_v26 c = o_main_v26 m c := by
  unfold outs; rw [dif_pos rfl]
theorem outs_main_v44_0 (J : ℕ) (c : Dev nD) : outs m D1 D3 D5 D7 J main_v44_0 c = o_main_v44_0 m D1 c := by
  unfold outs; rw [dif_neg (by decide), dif_pos rfl]
theorem outs_main_v44_1 (J : ℕ) (c : Dev nD) : outs m D1 D3 D5 D7 J main_v44_1 c = o_main_v44_1 m D1 c := by
  unfold outs; rw [dif_neg (by decide), dif_neg (by decide), dif_pos rfl]
theorem outs_main_v44_2 (J : ℕ) (c : Dev nD) : outs m D1 D3 D5 D7 J main_v44_2 c = o_main_v44_2 m D1 c := by
  unfold outs; rw [dif_neg (by decide), dif_neg (by decide), dif_neg (by decide), dif_pos rfl]
theorem outs_main_v57 (J : ℕ) (c : Dev nD) : outs m D1 D3 D5 D7 J main_v57 c = o_main_v57 m D1 c := by
  unfold outs; rw [dif_neg (by decide), dif_neg (by decide), dif_neg (by decide), dif_neg (by decide), dif_pos rfl]
theorem outs_main_v75_0 (J : ℕ) (c : Dev nD) : outs m D1 D3 D5 D7 J main_v75_0 c = o_main_v75_0 m D1 D3 c := by
  unfold outs; rw [dif_neg (by decide), dif_neg (by decide), dif_neg (by decide), dif_neg (by decide), dif_neg (by decide), dif_pos rfl]
theorem outs_main_v75_1 (J : ℕ) (c : Dev nD) : outs m D1 D3 D5 D7 J main_v75_1 c = o_main_v75_1 m D1 D3 c := by
  unfold outs; rw [dif_neg (by decide), dif_neg (by decide), dif_neg (by decide), dif_neg (by decide), dif_neg (by decide), dif_neg (by decide), dif_pos rfl]
theorem outs_main_v75_2 (J : ℕ) (c : Dev nD) : outs m D1 D3 D5 D7 J main_v75_2 c = o_main_v75_2 m D1 D3 c := by
  unfold outs; rw [dif_neg (by decide), dif_neg (by decide), dif_neg (by decide), dif_neg (by decide), dif_neg (by decide), dif_neg (by decide), dif_neg (by decide), dif_pos rfl]
theorem outs_main_v88 (J : ℕ) (c : Dev nD) : outs m D1 D3 D5 D7 J main_v88 c = o_main_v88 m D1 D3 c := by
  unfold outs; rw [dif_neg (by decide), dif_neg (by decide), dif_neg (by decide), dif_neg (by decide), dif_neg (by decide), dif_neg (by decide), dif_neg (by decide), dif_neg (by decide), dif_pos rfl]
theorem outs_main_v106_0 (J : ℕ) (c : Dev nD) : outs m D1 D3 D5 D7 J main_v106_0 c = o_main_v106_0 m D1 D3 D5 c := by
  unfold outs; rw [dif_neg (by decide), dif_neg (by decide), dif_neg (by decide), dif_neg (by decide), dif_neg (by decide), dif_neg (by decide), dif_neg (by decide), dif_neg (by decide), dif_neg (by decide), dif_pos rfl]
theorem outs_main_v106_1 (J : ℕ) (c : Dev nD) : outs m D1 D3 D5 D7 J main_v106_1 c = o_main_v106_1 m D1 D3 D5 c := by
  unfold outs; rw [dif_neg (by decide), dif_neg (by decide), dif_neg (by decide), dif_neg (by decide), dif_neg (by decide), dif_neg (by decide), dif_neg (by decide), dif_neg (by decide), dif_neg (by decide), dif_neg (by decide), dif_pos rfl]
theorem outs_main_v106_2 (J : ℕ) (c : Dev nD) : outs m D1 D3 D5 D7 J main_v106_2 c = o_main_v106_2 m D1 D3 D5 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v119 (J : ℕ) (c : Dev nD) : outs m D1 D3 D5 D7 J main_v119 c = o_main_v119 m D1 D3 D5 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v137_0 (J : ℕ) (c : Dev nD) : outs m D1 D3 D5 D7 J main_v137_0 c = o_main_v137_0 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v137_1 (J : ℕ) (c : Dev nD) : outs m D1 D3 D5 D7 J main_v137_1 c = o_main_v137_1 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v137_2 (J : ℕ) (c : Dev nD) : outs m D1 D3 D5 D7 J main_v137_2 c = o_main_v137_2 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v150 (J : ℕ) (c : Dev nD) : outs m D1 D3 D5 D7 J main_v150 c = o_main_v150 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]

/-! ## The generated boundaries at that family are these -/

theorem V4_eq (c : Dev nD) : V4 m (outs m D1 D3 D5 D7) c = S4 m c := by
  show Function.update (V3 m c) main_v26 (outs m D1 D3 D5 D7 4 main_v26 c) = _
  rw [outs_main_v26]; rfl
theorem V5_eq (c : Dev nD) : V5 m (outs m D1 D3 D5 D7) c = S5 m c := by
  show StableHlo.after hostOps1 (V4 m (outs m D1 D3 D5 D7) c) = _
  rw [V4_eq]; rfl
theorem V6_eq (c : Dev nD) : V6 m (outs m D1 D3 D5 D7) c = S6 m D1 c := by
  show Function.update (Function.update (Function.update (V5 m (outs m D1 D3 D5 D7) c) main_v44_0 (outs m D1 D3 D5 D7 6 main_v44_0 c)) main_v44_1 (outs m D1 D3 D5 D7 6 main_v44_1 c)) main_v44_2 (outs m D1 D3 D5 D7 6 main_v44_2 c) = _
  rw [V5_eq, outs_main_v44_0, outs_main_v44_1, outs_main_v44_2]; rfl
theorem V7_eq (c : Dev nD) : V7 m (outs m D1 D3 D5 D7) c = S7 m D1 c := by
  show StableHlo.after hostOps2 (V6 m (outs m D1 D3 D5 D7) c) = _
  rw [V6_eq]; rfl
theorem V8_eq (c : Dev nD) : V8 m (outs m D1 D3 D5 D7) c = S8 m D1 c := by
  show Function.update (V7 m (outs m D1 D3 D5 D7) c) main_v57 (outs m D1 D3 D5 D7 8 main_v57 c) = _
  rw [V7_eq, outs_main_v57]; rfl
theorem V9_eq (c : Dev nD) : V9 m (outs m D1 D3 D5 D7) c = S9 m D1 c := by
  show StableHlo.after hostOps3 (V8 m (outs m D1 D3 D5 D7) c) = _
  rw [V8_eq]; rfl
theorem V10_eq (c : Dev nD) : V10 m (outs m D1 D3 D5 D7) c = S10 m D1 D3 c := by
  show Function.update (Function.update (Function.update (V9 m (outs m D1 D3 D5 D7) c) main_v75_0 (outs m D1 D3 D5 D7 10 main_v75_0 c)) main_v75_1 (outs m D1 D3 D5 D7 10 main_v75_1 c)) main_v75_2 (outs m D1 D3 D5 D7 10 main_v75_2 c) = _
  rw [V9_eq, outs_main_v75_0, outs_main_v75_1, outs_main_v75_2]; rfl
theorem V11_eq (c : Dev nD) : V11 m (outs m D1 D3 D5 D7) c = S11 m D1 D3 c := by
  show StableHlo.after hostOps4 (V10 m (outs m D1 D3 D5 D7) c) = _
  rw [V10_eq]; rfl
theorem V12_eq (c : Dev nD) : V12 m (outs m D1 D3 D5 D7) c = S12 m D1 D3 c := by
  show Function.update (V11 m (outs m D1 D3 D5 D7) c) main_v88 (outs m D1 D3 D5 D7 12 main_v88 c) = _
  rw [V11_eq, outs_main_v88]; rfl
theorem V13_eq (c : Dev nD) : V13 m (outs m D1 D3 D5 D7) c = S13 m D1 D3 c := by
  show StableHlo.after hostOps5 (V12 m (outs m D1 D3 D5 D7) c) = _
  rw [V12_eq]; rfl
theorem V14_eq (c : Dev nD) : V14 m (outs m D1 D3 D5 D7) c = S14 m D1 D3 D5 c := by
  show Function.update (Function.update (Function.update (V13 m (outs m D1 D3 D5 D7) c) main_v106_0 (outs m D1 D3 D5 D7 14 main_v106_0 c)) main_v106_1 (outs m D1 D3 D5 D7 14 main_v106_1 c)) main_v106_2 (outs m D1 D3 D5 D7 14 main_v106_2 c) = _
  rw [V13_eq, outs_main_v106_0, outs_main_v106_1, outs_main_v106_2]; rfl
theorem V15_eq (c : Dev nD) : V15 m (outs m D1 D3 D5 D7) c = S15 m D1 D3 D5 c := by
  show StableHlo.after hostOps6 (V14 m (outs m D1 D3 D5 D7) c) = _
  rw [V14_eq]; rfl
theorem V16_eq (c : Dev nD) : V16 m (outs m D1 D3 D5 D7) c = S16 m D1 D3 D5 c := by
  show Function.update (V15 m (outs m D1 D3 D5 D7) c) main_v119 (outs m D1 D3 D5 D7 16 main_v119 c) = _
  rw [V15_eq, outs_main_v119]; rfl
theorem V17_eq (c : Dev nD) : V17 m (outs m D1 D3 D5 D7) c = S17 m D1 D3 D5 c := by
  show StableHlo.after hostOps7 (V16 m (outs m D1 D3 D5 D7) c) = _
  rw [V16_eq]; rfl
theorem V18_eq (c : Dev nD) : V18 m (outs m D1 D3 D5 D7) c = S18 m D1 D3 D5 D7 c := by
  show Function.update (Function.update (Function.update (V17 m (outs m D1 D3 D5 D7) c) main_v137_0 (outs m D1 D3 D5 D7 18 main_v137_0 c)) main_v137_1 (outs m D1 D3 D5 D7 18 main_v137_1 c)) main_v137_2 (outs m D1 D3 D5 D7 18 main_v137_2 c) = _
  rw [V17_eq, outs_main_v137_0, outs_main_v137_1, outs_main_v137_2]; rfl
theorem V19_eq (c : Dev nD) : V19 m (outs m D1 D3 D5 D7) c = S19 m D1 D3 D5 D7 c := by
  show StableHlo.after hostOps8 (V18 m (outs m D1 D3 D5 D7) c) = _
  rw [V18_eq]; rfl
theorem V20_eq (c : Dev nD) : V20 m (outs m D1 D3 D5 D7) c = S20 m D1 D3 D5 D7 c := by
  show Function.update (V19 m (outs m D1 D3 D5 D7) c) main_v150 (outs m D1 D3 D5 D7 20 main_v150 c) = _
  rw [V19_eq, outs_main_v150]; rfl

/-! ## After a region: its arrays at what the pipeline leaves, every other buffer untouched -/

theorem S4_of_ne (c : Dev nD) (b : Ref sig .tc) (h_main_v26 : b ≠ main_v26) : S4 m c b = S3 m c b := by
  unfold S4; rw [Function.update_of_ne (StableHlo.devRef_ne_of_ne h_main_v26)]
theorem S4_main_v26 (c : Dev nD) : S4 m c main_v26 = o_main_v26 m c := by
  unfold S4; rw [Function.update_self]
theorem hF0 (c : Dev nD) : ∀ w : Fin cfg0.W, (pd m D1 D3 D5 D7 0 c).arrAt w cfg0.N = S4 m c (Pipeline.arrRef spec0 w)
  | ⟨0, _⟩ => (((dat0 (fun c b => S3 m c b) c).arrAt_in ⟨0, by decide⟩ rfl _).trans (A_eq0 (fun c b => S3 m c b) c ⟨0, by decide⟩)).trans (S4_of_ne m c _ (by decide)).symm
  | ⟨1, _⟩ => (((dat0 (fun c b => S3 m c b) c).arrAt_in ⟨1, by decide⟩ rfl _).trans (A_eq0 (fun c b => S3 m c b) c ⟨1, by decide⟩)).trans (S4_of_ne m c _ (by decide)).symm
  | ⟨2, _⟩ => (((dat0 (fun c b => S3 m c b) c).arrAt_in ⟨2, by decide⟩ rfl _).trans (A_eq0 (fun c b => S3 m c b) c ⟨2, by decide⟩)).trans (S4_of_ne m c _ (by decide)).symm
  | ⟨3, _⟩ => (S4_main_v26 m c).symm
  | ⟨_ + 4, h⟩ => absurd h (Nat.not_lt.2 (Nat.le_add_left _ _))
theorem hrest0 (c : Dev nD) (b : Ref sig .tc) (hb : b ∉ Finset.univ.image (Pipeline.arrRef spec0)) : S4 m c b = S3 m c b :=
  S4_of_ne m c b (fun e => hb (Finset.mem_image.mpr ⟨(3 : Fin 4), Finset.mem_univ _, (show Pipeline.arrRef spec0 (3 : Fin 4) = main_v26 from rfl).trans e.symm⟩))
theorem S6_of_ne (c : Dev nD) (b : Ref sig .tc) (h_main_v44_0 : b ≠ main_v44_0) (h_main_v44_1 : b ≠ main_v44_1) (h_main_v44_2 : b ≠ main_v44_2) : S6 m D1 c b = S5 m c b := by
  unfold S6; rw [Function.update_of_ne (StableHlo.devRef_ne_of_ne h_main_v44_2), Function.update_of_ne (StableHlo.devRef_ne_of_ne h_main_v44_1), Function.update_of_ne (StableHlo.devRef_ne_of_ne h_main_v44_0)]
theorem S6_main_v44_0 (c : Dev nD) : S6 m D1 c main_v44_0 = o_main_v44_0 m D1 c := by
  unfold S6; rw [Function.update_of_ne (StableHlo.devRef_ne_of_ne (by decide)), Function.update_of_ne (StableHlo.devRef_ne_of_ne (by decide)), Function.update_self]
theorem S6_main_v44_1 (c : Dev nD) : S6 m D1 c main_v44_1 = o_main_v44_1 m D1 c := by
  unfold S6; rw [Function.update_of_ne (StableHlo.devRef_ne_of_ne (by decide)), Function.update_self]
theorem S6_main_v44_2 (c : Dev nD) : S6 m D1 c main_v44_2 = o_main_v44_2 m D1 c := by
  unfold S6; rw [Function.update_self]
theorem hF1 (hA1 : ∀ (V : Entry F) (c : Dev nD) (w : Fin cfg1.W), (D1 V c).A w = V c (Pipeline.arrRef spec1 w)) (c : Dev nD) : ∀ w : Fin cfg1.W, (pd m D1 D3 D5 D7 1 c).arrAt w cfg1.N = S6 m D1 c (Pipeline.arrRef spec1 w)
  | ⟨0, _⟩ => (((D1 (fun c b => S5 m c b) c).arrAt_in ⟨0, by decide⟩ rfl _).trans (hA1 (fun c b => S5 m c b) c ⟨0, by decide⟩)).trans (S6_of_ne m D1 c _ (by decide) (by decide) (by decide)).symm
  | ⟨1, _⟩ => (((D1 (fun c b => S5 m c b) c).arrAt_in ⟨1, by decide⟩ rfl _).trans (hA1 (fun c b => S5 m c b) c ⟨1, by decide⟩)).trans (S6_of_ne m D1 c _ (by decide) (by decide) (by decide)).symm
  | ⟨2, _⟩ => (((D1 (fun c b => S5 m c b) c).arrAt_in ⟨2, by decide⟩ rfl _).trans (hA1 (fun c b => S5 m c b) c ⟨2, by decide⟩)).trans (S6_of_ne m D1 c _ (by decide) (by decide) (by decide)).symm
  | ⟨3, _⟩ => (((D1 (fun c b => S5 m c b) c).arrAt_in ⟨3, by decide⟩ rfl _).trans (hA1 (fun c b => S5 m c b) c ⟨3, by decide⟩)).trans (S6_of_ne m D1 c _ (by decide) (by decide) (by decide)).symm
  | ⟨4, _⟩ => (S6_main_v44_0 m D1 c).symm
  | ⟨5, _⟩ => (S6_main_v44_1 m D1 c).symm
  | ⟨6, _⟩ => (S6_main_v44_2 m D1 c).symm
  | ⟨_ + 7, h⟩ => absurd h (Nat.not_lt.2 (Nat.le_add_left _ _))
theorem hrest1 (c : Dev nD) (b : Ref sig .tc) (hb : b ∉ Finset.univ.image (Pipeline.arrRef spec1)) : S6 m D1 c b = S5 m c b :=
  S6_of_ne m D1 c b (fun e => hb (Finset.mem_image.mpr ⟨(4 : Fin 7), Finset.mem_univ _, (show Pipeline.arrRef spec1 (4 : Fin 7) = main_v44_0 from rfl).trans e.symm⟩)) (fun e => hb (Finset.mem_image.mpr ⟨(5 : Fin 7), Finset.mem_univ _, (show Pipeline.arrRef spec1 (5 : Fin 7) = main_v44_1 from rfl).trans e.symm⟩)) (fun e => hb (Finset.mem_image.mpr ⟨(6 : Fin 7), Finset.mem_univ _, (show Pipeline.arrRef spec1 (6 : Fin 7) = main_v44_2 from rfl).trans e.symm⟩))
theorem S8_of_ne (c : Dev nD) (b : Ref sig .tc) (h_main_v57 : b ≠ main_v57) : S8 m D1 c b = S7 m D1 c b := by
  unfold S8; rw [Function.update_of_ne (StableHlo.devRef_ne_of_ne h_main_v57)]
theorem S8_main_v57 (c : Dev nD) : S8 m D1 c main_v57 = o_main_v57 m D1 c := by
  unfold S8; rw [Function.update_self]
theorem hF2 (c : Dev nD) : ∀ w : Fin cfg2.W, (pd m D1 D3 D5 D7 2 c).arrAt w cfg2.N = S8 m D1 c (Pipeline.arrRef spec2 w)
  | ⟨0, _⟩ => (((dat2 (fun c b => S7 m D1 c b) c).arrAt_in ⟨0, by decide⟩ rfl _).trans (A_eq2 (fun c b => S7 m D1 c b) c ⟨0, by decide⟩)).trans (S8_of_ne m D1 c _ (by decide)).symm
  | ⟨1, _⟩ => (((dat2 (fun c b => S7 m D1 c b) c).arrAt_in ⟨1, by decide⟩ rfl _).trans (A_eq2 (fun c b => S7 m D1 c b) c ⟨1, by decide⟩)).trans (S8_of_ne m D1 c _ (by decide)).symm
  | ⟨2, _⟩ => (((dat2 (fun c b => S7 m D1 c b) c).arrAt_in ⟨2, by decide⟩ rfl _).trans (A_eq2 (fun c b => S7 m D1 c b) c ⟨2, by decide⟩)).trans (S8_of_ne m D1 c _ (by decide)).symm
  | ⟨3, _⟩ => (((dat2 (fun c b => S7 m D1 c b) c).arrAt_in ⟨3, by decide⟩ rfl _).trans (A_eq2 (fun c b => S7 m D1 c b) c ⟨3, by decide⟩)).trans (S8_of_ne m D1 c _ (by decide)).symm
  | ⟨4, _⟩ => (((dat2 (fun c b => S7 m D1 c b) c).arrAt_in ⟨4, by decide⟩ rfl _).trans (A_eq2 (fun c b => S7 m D1 c b) c ⟨4, by decide⟩)).trans (S8_of_ne m D1 c _ (by decide)).symm
  | ⟨5, _⟩ => (S8_main_v57 m D1 c).symm
  | ⟨_ + 6, h⟩ => absurd h (Nat.not_lt.2 (Nat.le_add_left _ _))
theorem hrest2 (c : Dev nD) (b : Ref sig .tc) (hb : b ∉ Finset.univ.image (Pipeline.arrRef spec2)) : S8 m D1 c b = S7 m D1 c b :=
  S8_of_ne m D1 c b (fun e => hb (Finset.mem_image.mpr ⟨(5 : Fin 6), Finset.mem_univ _, (show Pipeline.arrRef spec2 (5 : Fin 6) = main_v57 from rfl).trans e.symm⟩))
theorem S10_of_ne (c : Dev nD) (b : Ref sig .tc) (h_main_v75_0 : b ≠ main_v75_0) (h_main_v75_1 : b ≠ main_v75_1) (h_main_v75_2 : b ≠ main_v75_2) : S10 m D1 D3 c b = S9 m D1 c b := by
  unfold S10; rw [Function.update_of_ne (StableHlo.devRef_ne_of_ne h_main_v75_2), Function.update_of_ne (StableHlo.devRef_ne_of_ne h_main_v75_1), Function.update_of_ne (StableHlo.devRef_ne_of_ne h_main_v75_0)]
theorem S10_main_v75_0 (c : Dev nD) : S10 m D1 D3 c main_v75_0 = o_main_v75_0 m D1 D3 c := by
  unfold S10; rw [Function.update_of_ne (StableHlo.devRef_ne_of_ne (by decide)), Function.update_of_ne (StableHlo.devRef_ne_of_ne (by decide)), Function.update_self]
theorem S10_main_v75_1 (c : Dev nD) : S10 m D1 D3 c main_v75_1 = o_main_v75_1 m D1 D3 c := by
  unfold S10; rw [Function.update_of_ne (StableHlo.devRef_ne_of_ne (by decide)), Function.update_self]
theorem S10_main_v75_2 (c : Dev nD) : S10 m D1 D3 c main_v75_2 = o_main_v75_2 m D1 D3 c := by
  unfold S10; rw [Function.update_self]
theorem hF3 (hA3 : ∀ (V : Entry F) (c : Dev nD) (w : Fin cfg3.W), (D3 V c).A w = V c (Pipeline.arrRef spec3 w)) (c : Dev nD) : ∀ w : Fin cfg3.W, (pd m D1 D3 D5 D7 3 c).arrAt w cfg3.N = S10 m D1 D3 c (Pipeline.arrRef spec3 w)
  | ⟨0, _⟩ => (((D3 (fun c b => S9 m D1 c b) c).arrAt_in ⟨0, by decide⟩ rfl _).trans (hA3 (fun c b => S9 m D1 c b) c ⟨0, by decide⟩)).trans (S10_of_ne m D1 D3 c _ (by decide) (by decide) (by decide)).symm
  | ⟨1, _⟩ => (((D3 (fun c b => S9 m D1 c b) c).arrAt_in ⟨1, by decide⟩ rfl _).trans (hA3 (fun c b => S9 m D1 c b) c ⟨1, by decide⟩)).trans (S10_of_ne m D1 D3 c _ (by decide) (by decide) (by decide)).symm
  | ⟨2, _⟩ => (((D3 (fun c b => S9 m D1 c b) c).arrAt_in ⟨2, by decide⟩ rfl _).trans (hA3 (fun c b => S9 m D1 c b) c ⟨2, by decide⟩)).trans (S10_of_ne m D1 D3 c _ (by decide) (by decide) (by decide)).symm
  | ⟨3, _⟩ => (((D3 (fun c b => S9 m D1 c b) c).arrAt_in ⟨3, by decide⟩ rfl _).trans (hA3 (fun c b => S9 m D1 c b) c ⟨3, by decide⟩)).trans (S10_of_ne m D1 D3 c _ (by decide) (by decide) (by decide)).symm
  | ⟨4, _⟩ => (S10_main_v75_0 m D1 D3 c).symm
  | ⟨5, _⟩ => (S10_main_v75_1 m D1 D3 c).symm
  | ⟨6, _⟩ => (S10_main_v75_2 m D1 D3 c).symm
  | ⟨_ + 7, h⟩ => absurd h (Nat.not_lt.2 (Nat.le_add_left _ _))
theorem hrest3 (c : Dev nD) (b : Ref sig .tc) (hb : b ∉ Finset.univ.image (Pipeline.arrRef spec3)) : S10 m D1 D3 c b = S9 m D1 c b :=
  S10_of_ne m D1 D3 c b (fun e => hb (Finset.mem_image.mpr ⟨(4 : Fin 7), Finset.mem_univ _, (show Pipeline.arrRef spec3 (4 : Fin 7) = main_v75_0 from rfl).trans e.symm⟩)) (fun e => hb (Finset.mem_image.mpr ⟨(5 : Fin 7), Finset.mem_univ _, (show Pipeline.arrRef spec3 (5 : Fin 7) = main_v75_1 from rfl).trans e.symm⟩)) (fun e => hb (Finset.mem_image.mpr ⟨(6 : Fin 7), Finset.mem_univ _, (show Pipeline.arrRef spec3 (6 : Fin 7) = main_v75_2 from rfl).trans e.symm⟩))
theorem S12_of_ne (c : Dev nD) (b : Ref sig .tc) (h_main_v88 : b ≠ main_v88) : S12 m D1 D3 c b = S11 m D1 D3 c b := by
  unfold S12; rw [Function.update_of_ne (StableHlo.devRef_ne_of_ne h_main_v88)]
theorem S12_main_v88 (c : Dev nD) : S12 m D1 D3 c main_v88 = o_main_v88 m D1 D3 c := by
  unfold S12; rw [Function.update_self]
theorem hF4 (c : Dev nD) : ∀ w : Fin cfg4.W, (pd m D1 D3 D5 D7 4 c).arrAt w cfg4.N = S12 m D1 D3 c (Pipeline.arrRef spec4 w)
  | ⟨0, _⟩ => (((dat4 (fun c b => S11 m D1 D3 c b) c).arrAt_in ⟨0, by decide⟩ rfl _).trans (A_eq4 (fun c b => S11 m D1 D3 c b) c ⟨0, by decide⟩)).trans (S12_of_ne m D1 D3 c _ (by decide)).symm
  | ⟨1, _⟩ => (((dat4 (fun c b => S11 m D1 D3 c b) c).arrAt_in ⟨1, by decide⟩ rfl _).trans (A_eq4 (fun c b => S11 m D1 D3 c b) c ⟨1, by decide⟩)).trans (S12_of_ne m D1 D3 c _ (by decide)).symm
  | ⟨2, _⟩ => (((dat4 (fun c b => S11 m D1 D3 c b) c).arrAt_in ⟨2, by decide⟩ rfl _).trans (A_eq4 (fun c b => S11 m D1 D3 c b) c ⟨2, by decide⟩)).trans (S12_of_ne m D1 D3 c _ (by decide)).symm
  | ⟨3, _⟩ => (((dat4 (fun c b => S11 m D1 D3 c b) c).arrAt_in ⟨3, by decide⟩ rfl _).trans (A_eq4 (fun c b => S11 m D1 D3 c b) c ⟨3, by decide⟩)).trans (S12_of_ne m D1 D3 c _ (by decide)).symm
  | ⟨4, _⟩ => (((dat4 (fun c b => S11 m D1 D3 c b) c).arrAt_in ⟨4, by decide⟩ rfl _).trans (A_eq4 (fun c b => S11 m D1 D3 c b) c ⟨4, by decide⟩)).trans (S12_of_ne m D1 D3 c _ (by decide)).symm
  | ⟨5, _⟩ => (S12_main_v88 m D1 D3 c).symm
  | ⟨_ + 6, h⟩ => absurd h (Nat.not_lt.2 (Nat.le_add_left _ _))
theorem hrest4 (c : Dev nD) (b : Ref sig .tc) (hb : b ∉ Finset.univ.image (Pipeline.arrRef spec4)) : S12 m D1 D3 c b = S11 m D1 D3 c b :=
  S12_of_ne m D1 D3 c b (fun e => hb (Finset.mem_image.mpr ⟨(5 : Fin 6), Finset.mem_univ _, (show Pipeline.arrRef spec4 (5 : Fin 6) = main_v88 from rfl).trans e.symm⟩))
theorem S14_of_ne (c : Dev nD) (b : Ref sig .tc) (h_main_v106_0 : b ≠ main_v106_0) (h_main_v106_1 : b ≠ main_v106_1) (h_main_v106_2 : b ≠ main_v106_2) : S14 m D1 D3 D5 c b = S13 m D1 D3 c b := by
  unfold S14; rw [Function.update_of_ne (StableHlo.devRef_ne_of_ne h_main_v106_2), Function.update_of_ne (StableHlo.devRef_ne_of_ne h_main_v106_1), Function.update_of_ne (StableHlo.devRef_ne_of_ne h_main_v106_0)]
theorem S14_main_v106_0 (c : Dev nD) : S14 m D1 D3 D5 c main_v106_0 = o_main_v106_0 m D1 D3 D5 c := by
  unfold S14; rw [Function.update_of_ne (StableHlo.devRef_ne_of_ne (by decide)), Function.update_of_ne (StableHlo.devRef_ne_of_ne (by decide)), Function.update_self]
theorem S14_main_v106_1 (c : Dev nD) : S14 m D1 D3 D5 c main_v106_1 = o_main_v106_1 m D1 D3 D5 c := by
  unfold S14; rw [Function.update_of_ne (StableHlo.devRef_ne_of_ne (by decide)), Function.update_self]
theorem S14_main_v106_2 (c : Dev nD) : S14 m D1 D3 D5 c main_v106_2 = o_main_v106_2 m D1 D3 D5 c := by
  unfold S14; rw [Function.update_self]
theorem hF5 (hA5 : ∀ (V : Entry F) (c : Dev nD) (w : Fin cfg5.W), (D5 V c).A w = V c (Pipeline.arrRef spec5 w)) (c : Dev nD) : ∀ w : Fin cfg5.W, (pd m D1 D3 D5 D7 5 c).arrAt w cfg5.N = S14 m D1 D3 D5 c (Pipeline.arrRef spec5 w)
  | ⟨0, _⟩ => (((D5 (fun c b => S13 m D1 D3 c b) c).arrAt_in ⟨0, by decide⟩ rfl _).trans (hA5 (fun c b => S13 m D1 D3 c b) c ⟨0, by decide⟩)).trans (S14_of_ne m D1 D3 D5 c _ (by decide) (by decide) (by decide)).symm
  | ⟨1, _⟩ => (((D5 (fun c b => S13 m D1 D3 c b) c).arrAt_in ⟨1, by decide⟩ rfl _).trans (hA5 (fun c b => S13 m D1 D3 c b) c ⟨1, by decide⟩)).trans (S14_of_ne m D1 D3 D5 c _ (by decide) (by decide) (by decide)).symm
  | ⟨2, _⟩ => (((D5 (fun c b => S13 m D1 D3 c b) c).arrAt_in ⟨2, by decide⟩ rfl _).trans (hA5 (fun c b => S13 m D1 D3 c b) c ⟨2, by decide⟩)).trans (S14_of_ne m D1 D3 D5 c _ (by decide) (by decide) (by decide)).symm
  | ⟨3, _⟩ => (((D5 (fun c b => S13 m D1 D3 c b) c).arrAt_in ⟨3, by decide⟩ rfl _).trans (hA5 (fun c b => S13 m D1 D3 c b) c ⟨3, by decide⟩)).trans (S14_of_ne m D1 D3 D5 c _ (by decide) (by decide) (by decide)).symm
  | ⟨4, _⟩ => (S14_main_v106_0 m D1 D3 D5 c).symm
  | ⟨5, _⟩ => (S14_main_v106_1 m D1 D3 D5 c).symm
  | ⟨6, _⟩ => (S14_main_v106_2 m D1 D3 D5 c).symm
  | ⟨_ + 7, h⟩ => absurd h (Nat.not_lt.2 (Nat.le_add_left _ _))
theorem hrest5 (c : Dev nD) (b : Ref sig .tc) (hb : b ∉ Finset.univ.image (Pipeline.arrRef spec5)) : S14 m D1 D3 D5 c b = S13 m D1 D3 c b :=
  S14_of_ne m D1 D3 D5 c b (fun e => hb (Finset.mem_image.mpr ⟨(4 : Fin 7), Finset.mem_univ _, (show Pipeline.arrRef spec5 (4 : Fin 7) = main_v106_0 from rfl).trans e.symm⟩)) (fun e => hb (Finset.mem_image.mpr ⟨(5 : Fin 7), Finset.mem_univ _, (show Pipeline.arrRef spec5 (5 : Fin 7) = main_v106_1 from rfl).trans e.symm⟩)) (fun e => hb (Finset.mem_image.mpr ⟨(6 : Fin 7), Finset.mem_univ _, (show Pipeline.arrRef spec5 (6 : Fin 7) = main_v106_2 from rfl).trans e.symm⟩))
theorem S16_of_ne (c : Dev nD) (b : Ref sig .tc) (h_main_v119 : b ≠ main_v119) : S16 m D1 D3 D5 c b = S15 m D1 D3 D5 c b := by
  unfold S16; rw [Function.update_of_ne (StableHlo.devRef_ne_of_ne h_main_v119)]
theorem S16_main_v119 (c : Dev nD) : S16 m D1 D3 D5 c main_v119 = o_main_v119 m D1 D3 D5 c := by
  unfold S16; rw [Function.update_self]
theorem hF6 (c : Dev nD) : ∀ w : Fin cfg6.W, (pd m D1 D3 D5 D7 6 c).arrAt w cfg6.N = S16 m D1 D3 D5 c (Pipeline.arrRef spec6 w)
  | ⟨0, _⟩ => (((dat6 (fun c b => S15 m D1 D3 D5 c b) c).arrAt_in ⟨0, by decide⟩ rfl _).trans (A_eq6 (fun c b => S15 m D1 D3 D5 c b) c ⟨0, by decide⟩)).trans (S16_of_ne m D1 D3 D5 c _ (by decide)).symm
  | ⟨1, _⟩ => (((dat6 (fun c b => S15 m D1 D3 D5 c b) c).arrAt_in ⟨1, by decide⟩ rfl _).trans (A_eq6 (fun c b => S15 m D1 D3 D5 c b) c ⟨1, by decide⟩)).trans (S16_of_ne m D1 D3 D5 c _ (by decide)).symm
  | ⟨2, _⟩ => (((dat6 (fun c b => S15 m D1 D3 D5 c b) c).arrAt_in ⟨2, by decide⟩ rfl _).trans (A_eq6 (fun c b => S15 m D1 D3 D5 c b) c ⟨2, by decide⟩)).trans (S16_of_ne m D1 D3 D5 c _ (by decide)).symm
  | ⟨3, _⟩ => (((dat6 (fun c b => S15 m D1 D3 D5 c b) c).arrAt_in ⟨3, by decide⟩ rfl _).trans (A_eq6 (fun c b => S15 m D1 D3 D5 c b) c ⟨3, by decide⟩)).trans (S16_of_ne m D1 D3 D5 c _ (by decide)).symm
  | ⟨4, _⟩ => (((dat6 (fun c b => S15 m D1 D3 D5 c b) c).arrAt_in ⟨4, by decide⟩ rfl _).trans (A_eq6 (fun c b => S15 m D1 D3 D5 c b) c ⟨4, by decide⟩)).trans (S16_of_ne m D1 D3 D5 c _ (by decide)).symm
  | ⟨5, _⟩ => (S16_main_v119 m D1 D3 D5 c).symm
  | ⟨_ + 6, h⟩ => absurd h (Nat.not_lt.2 (Nat.le_add_left _ _))
theorem hrest6 (c : Dev nD) (b : Ref sig .tc) (hb : b ∉ Finset.univ.image (Pipeline.arrRef spec6)) : S16 m D1 D3 D5 c b = S15 m D1 D3 D5 c b :=
  S16_of_ne m D1 D3 D5 c b (fun e => hb (Finset.mem_image.mpr ⟨(5 : Fin 6), Finset.mem_univ _, (show Pipeline.arrRef spec6 (5 : Fin 6) = main_v119 from rfl).trans e.symm⟩))
theorem S18_of_ne (c : Dev nD) (b : Ref sig .tc) (h_main_v137_0 : b ≠ main_v137_0) (h_main_v137_1 : b ≠ main_v137_1) (h_main_v137_2 : b ≠ main_v137_2) : S18 m D1 D3 D5 D7 c b = S17 m D1 D3 D5 c b := by
  unfold S18; rw [Function.update_of_ne (StableHlo.devRef_ne_of_ne h_main_v137_2), Function.update_of_ne (StableHlo.devRef_ne_of_ne h_main_v137_1), Function.update_of_ne (StableHlo.devRef_ne_of_ne h_main_v137_0)]
theorem S18_main_v137_0 (c : Dev nD) : S18 m D1 D3 D5 D7 c main_v137_0 = o_main_v137_0 m D1 D3 D5 D7 c := by
  unfold S18; rw [Function.update_of_ne (StableHlo.devRef_ne_of_ne (by decide)), Function.update_of_ne (StableHlo.devRef_ne_of_ne (by decide)), Function.update_self]
theorem S18_main_v137_1 (c : Dev nD) : S18 m D1 D3 D5 D7 c main_v137_1 = o_main_v137_1 m D1 D3 D5 D7 c := by
  unfold S18; rw [Function.update_of_ne (StableHlo.devRef_ne_of_ne (by decide)), Function.update_self]
theorem S18_main_v137_2 (c : Dev nD) : S18 m D1 D3 D5 D7 c main_v137_2 = o_main_v137_2 m D1 D3 D5 D7 c := by
  unfold S18; rw [Function.update_self]
theorem hF7 (hA7 : ∀ (V : Entry F) (c : Dev nD) (w : Fin cfg7.W), (D7 V c).A w = V c (Pipeline.arrRef spec7 w)) (c : Dev nD) : ∀ w : Fin cfg7.W, (pd m D1 D3 D5 D7 7 c).arrAt w cfg7.N = S18 m D1 D3 D5 D7 c (Pipeline.arrRef spec7 w)
  | ⟨0, _⟩ => (((D7 (fun c b => S17 m D1 D3 D5 c b) c).arrAt_in ⟨0, by decide⟩ rfl _).trans (hA7 (fun c b => S17 m D1 D3 D5 c b) c ⟨0, by decide⟩)).trans (S18_of_ne m D1 D3 D5 D7 c _ (by decide) (by decide) (by decide)).symm
  | ⟨1, _⟩ => (((D7 (fun c b => S17 m D1 D3 D5 c b) c).arrAt_in ⟨1, by decide⟩ rfl _).trans (hA7 (fun c b => S17 m D1 D3 D5 c b) c ⟨1, by decide⟩)).trans (S18_of_ne m D1 D3 D5 D7 c _ (by decide) (by decide) (by decide)).symm
  | ⟨2, _⟩ => (((D7 (fun c b => S17 m D1 D3 D5 c b) c).arrAt_in ⟨2, by decide⟩ rfl _).trans (hA7 (fun c b => S17 m D1 D3 D5 c b) c ⟨2, by decide⟩)).trans (S18_of_ne m D1 D3 D5 D7 c _ (by decide) (by decide) (by decide)).symm
  | ⟨3, _⟩ => (((D7 (fun c b => S17 m D1 D3 D5 c b) c).arrAt_in ⟨3, by decide⟩ rfl _).trans (hA7 (fun c b => S17 m D1 D3 D5 c b) c ⟨3, by decide⟩)).trans (S18_of_ne m D1 D3 D5 D7 c _ (by decide) (by decide) (by decide)).symm
  | ⟨4, _⟩ => (S18_main_v137_0 m D1 D3 D5 D7 c).symm
  | ⟨5, _⟩ => (S18_main_v137_1 m D1 D3 D5 D7 c).symm
  | ⟨6, _⟩ => (S18_main_v137_2 m D1 D3 D5 D7 c).symm
  | ⟨_ + 7, h⟩ => absurd h (Nat.not_lt.2 (Nat.le_add_left _ _))
theorem hrest7 (c : Dev nD) (b : Ref sig .tc) (hb : b ∉ Finset.univ.image (Pipeline.arrRef spec7)) : S18 m D1 D3 D5 D7 c b = S17 m D1 D3 D5 c b :=
  S18_of_ne m D1 D3 D5 D7 c b (fun e => hb (Finset.mem_image.mpr ⟨(4 : Fin 7), Finset.mem_univ _, (show Pipeline.arrRef spec7 (4 : Fin 7) = main_v137_0 from rfl).trans e.symm⟩)) (fun e => hb (Finset.mem_image.mpr ⟨(5 : Fin 7), Finset.mem_univ _, (show Pipeline.arrRef spec7 (5 : Fin 7) = main_v137_1 from rfl).trans e.symm⟩)) (fun e => hb (Finset.mem_image.mpr ⟨(6 : Fin 7), Finset.mem_univ _, (show Pipeline.arrRef spec7 (6 : Fin 7) = main_v137_2 from rfl).trans e.symm⟩))
theorem S20_of_ne (c : Dev nD) (b : Ref sig .tc) (h_main_v150 : b ≠ main_v150) : S20 m D1 D3 D5 D7 c b = S19 m D1 D3 D5 D7 c b := by
  unfold S20; rw [Function.update_of_ne (StableHlo.devRef_ne_of_ne h_main_v150)]
theorem S20_main_v150 (c : Dev nD) : S20 m D1 D3 D5 D7 c main_v150 = o_main_v150 m D1 D3 D5 D7 c := by
  unfold S20; rw [Function.update_self]
theorem hF8 (c : Dev nD) : ∀ w : Fin cfg8.W, (pd m D1 D3 D5 D7 8 c).arrAt w cfg8.N = S20 m D1 D3 D5 D7 c (Pipeline.arrRef spec8 w)
  | ⟨0, _⟩ => (((dat8 (fun c b => S19 m D1 D3 D5 D7 c b) c).arrAt_in ⟨0, by decide⟩ rfl _).trans (A_eq8 (fun c b => S19 m D1 D3 D5 D7 c b) c ⟨0, by decide⟩)).trans (S20_of_ne m D1 D3 D5 D7 c _ (by decide)).symm
  | ⟨1, _⟩ => (((dat8 (fun c b => S19 m D1 D3 D5 D7 c b) c).arrAt_in ⟨1, by decide⟩ rfl _).trans (A_eq8 (fun c b => S19 m D1 D3 D5 D7 c b) c ⟨1, by decide⟩)).trans (S20_of_ne m D1 D3 D5 D7 c _ (by decide)).symm
  | ⟨2, _⟩ => (((dat8 (fun c b => S19 m D1 D3 D5 D7 c b) c).arrAt_in ⟨2, by decide⟩ rfl _).trans (A_eq8 (fun c b => S19 m D1 D3 D5 D7 c b) c ⟨2, by decide⟩)).trans (S20_of_ne m D1 D3 D5 D7 c _ (by decide)).symm
  | ⟨3, _⟩ => (((dat8 (fun c b => S19 m D1 D3 D5 D7 c b) c).arrAt_in ⟨3, by decide⟩ rfl _).trans (A_eq8 (fun c b => S19 m D1 D3 D5 D7 c b) c ⟨3, by decide⟩)).trans (S20_of_ne m D1 D3 D5 D7 c _ (by decide)).symm
  | ⟨4, _⟩ => (((dat8 (fun c b => S19 m D1 D3 D5 D7 c b) c).arrAt_in ⟨4, by decide⟩ rfl _).trans (A_eq8 (fun c b => S19 m D1 D3 D5 D7 c b) c ⟨4, by decide⟩)).trans (S20_of_ne m D1 D3 D5 D7 c _ (by decide)).symm
  | ⟨5, _⟩ => (S20_main_v150 m D1 D3 D5 D7 c).symm
  | ⟨_ + 6, h⟩ => absurd h (Nat.not_lt.2 (Nat.le_add_left _ _))
theorem hrest8 (c : Dev nD) (b : Ref sig .tc) (hb : b ∉ Finset.univ.image (Pipeline.arrRef spec8)) : S20 m D1 D3 D5 D7 c b = S19 m D1 D3 D5 D7 c b :=
  S20_of_ne m D1 D3 D5 D7 c b (fun e => hb (Finset.mem_image.mpr ⟨(5 : Fin 6), Finset.mem_univ _, (show Pipeline.arrRef spec8 (5 : Fin 6) = main_v150 from rfl).trans e.symm⟩))

end Cert.KernelIdeal.Hand

end
-- ==== Proof.KIFrameKit.lean ====
/-
  The nine-region program's run from its regions' records, with nothing else left open: between two items every
  unscoped buffer is held at that boundary's contents and, beside them, the core's generator register at some state and
  its dues at nothing. Given proof data for the nine pipelines and one record per region entered from and left at those
  thread states, every weakly fair execution ends with the result buffer at what the last region leaves in it and every
  argument as launched.
-/
import proofs.«163161_j55817394979591_1_alg».proof.Proof.KIRegionsVal
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

/-- No variant, no level: no core ever owes another anything in this program. -/
abbrev 𝒱₀ : Variants := Variants.none
abbrev L : GSem nD τ sig → Finset Unit := fun _ => ∅
abbrev lv : GSem nD τ sig → Unit → ℕ := fun _ _ => 0

/-- What rides beside the buffers through every item: the generator register at some state, and dues of nothing. -/
abbrev Rest (c : Dev nD) : sProp 𝕄 :=
  iprop((∃ r, prngReg c r) ∗ ∃ W, owes (c : Thread nD τ) (0 : CellTallies nD τ sig Unit) W)

variable (m : (ℓ : Loc nD τ sig) → Buf (Elt F) ℓ) (ρ : Dev nD → PrngReg) (outs : Outs (F := F))

set_option backward.isDefEq.respectTransparency.types false in
/-- The run, from the nine records. -/
theorem run_of_regions
    (pdats : (p : Fin 9) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V3 m c) ∗ Rest (F := F) c) ⊢ R0.pre c)
    (hpost0 : ∀ c : Dev nD, R0.post c ⊢ iprop(StableHlo.held (c : Thread nD τ) (Pipeline.ucRefs τ sig) (V4 m outs c) ∗ Rest (F := F) c))
    (R1 : RegionSeg (pcfgs (F := F)) adm pdats () defs₀ 𝒱₀ L lv 1)
    (hpre1 : ∀ c : Dev nD, iprop(StableHlo.held (c : Thread nD τ) (Pipeline.ucRefs τ sig) (V5 m outs c) ∗ Rest (F := F) c) ⊢ R1.pre c)
    (hpost1 : ∀ c : Dev nD, R1.post c ⊢ iprop(StableHlo.held (c : Thread nD τ) (Pipeline.ucRefs τ sig) (V6 m outs c) ∗ Rest (F := F) c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ Rest (F := F) c) ⊢ R2.pre c)
    (hpost2 : ∀ c : Dev nD, R2.post c ⊢ iprop(StableHlo.held (c : Thread nD τ) (Pipeline.ucRefs τ sig) (V8 m outs c) ∗ Rest (F := F) c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ Rest (F := F) c) ⊢ R3.pre c)
    (hpost3 : ∀ c : Dev nD, R3.post c ⊢ iprop(StableHlo.held (c : Thread nD τ) (Pipeline.ucRefs τ sig) (V10 m outs c) ∗ Rest (F := F) c))
    (R4 : RegionSeg (pcfgs (F := F)) adm pdats () defs₀ 𝒱₀ L lv 4)
    (hpre4 : ∀ c : Dev nD, iprop(StableHlo.held (c : Thread nD τ) (Pipeline.ucRefs τ sig) (V11 m outs c) ∗ Rest (F := F) c) ⊢ R4.pre c)
    (hpost4 : ∀ c : Dev nD, R4.post c ⊢ iprop(StableHlo.held (c : Thread nD τ) (Pipeline.ucRefs τ sig) (V12 m outs c) ∗ Rest (F := F) c))
    (R5 : RegionSeg (pcfgs (F := F)) adm pdats () defs₀ 𝒱₀ L lv 5)
    (hpre5 : ∀ c : Dev nD, iprop(StableHlo.held (c : Thread nD τ) (Pipeline.ucRefs τ sig) (V13 m outs c) ∗ Rest (F := F) c) ⊢ R5.pre c)
    (hpost5 : ∀ c : Dev nD, R5.post c ⊢ iprop(StableHlo.held (c : Thread nD τ) (Pipeline.ucRefs τ sig) (V14 m outs c) ∗ Rest (F := F) c))
    (R6 : RegionSeg (pcfgs (F := F)) adm pdats () defs₀ 𝒱₀ L lv 6)
    (hpre6 : ∀ c : Dev nD, iprop(StableHlo.held (c : Thread nD τ) (Pipeline.ucRefs τ sig) (V15 m outs c) ∗ Rest (F := F) c) ⊢ R6.pre c)
    (hpost6 : ∀ c : Dev nD, R6.post c ⊢ iprop(StableHlo.held (c : Thread nD τ) (Pipeline.ucRefs τ sig) (V16 m outs c) ∗ Rest (F := F) c))
    (R7 : RegionSeg (pcfgs (F := F)) adm pdats () defs₀ 𝒱₀ L lv 7)
    (hpre7 : ∀ c : Dev nD, iprop(StableHlo.held (c : Thread nD τ) (Pipeline.ucRefs τ sig) (V17 m outs c) ∗ Rest (F := F) c) ⊢ R7.pre c)
    (hpost7 : ∀ c : Dev nD, R7.post c ⊢ iprop(StableHlo.held (c : Thread nD τ) (Pipeline.ucRefs τ sig) (V18 m outs c) ∗ Rest (F := F) c))
    (R8 : RegionSeg (pcfgs (F := F)) adm pdats () defs₀ 𝒱₀ L lv 8)
    (hpre8 : ∀ c : Dev nD, iprop(StableHlo.held (c : Thread nD τ) (Pipeline.ucRefs τ sig) (V19 m outs c) ∗ Rest (F := F) c) ⊢ R8.pre c)
    (hpost8 : ∀ c : Dev nD, R8.post c ⊢ iprop(StableHlo.held (c : Thread nD τ) (Pipeline.ucRefs τ sig) (V20 m outs c) ∗ Rest (F := F) c)) :
    θ_run defs (onTc (τ := τ) (main (F := F))) ⟨m, fun _ => 0, ρ⟩ (fun r => ∀ c : Dev nD,
      r.2.mem ((c.tc : Thread nD τ).loc main_v150) = outs 20 main_v150 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.frame_cond_val (F := F) m emb₁ () 𝒱₀ L lv (fun _ _ => rfl) ρ outs pdats (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest (F := F) c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    R0 hpre0 hpost0 R1 hpre1 hpost1 R2 hpre2 hpost2 R3 hpre3 hpost3 R4 hpre4 hpost4 R5 hpre5 hpost5 R6 hpre6 hpost6 R7 hpre7 hpost7 R8 hpre8 hpost8

/-- The same run with the result forgotten: every argument ends as launched. -/
theorem frame_of_regions
    (pdats : (p : Fin 9) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V3 m c) ∗ Rest (F := F) c) ⊢ R0.pre c)
    (hpost0 : ∀ c : Dev nD, R0.post c ⊢ iprop(StableHlo.held (c : Thread nD τ) (Pipeline.ucRefs τ sig) (V4 m outs c) ∗ Rest (F := F) c))
    (R1 : RegionSeg (pcfgs (F := F)) adm pdats () defs₀ 𝒱₀ L lv 1)
    (hpre1 : ∀ c : Dev nD, iprop(StableHlo.held (c : Thread nD τ) (Pipeline.ucRefs τ sig) (V5 m outs c) ∗ Rest (F := F) c) ⊢ R1.pre c)
    (hpost1 : ∀ c : Dev nD, R1.post c ⊢ iprop(StableHlo.held (c : Thread nD τ) (Pipeline.ucRefs τ sig) (V6 m outs c) ∗ Rest (F := F) c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ Rest (F := F) c) ⊢ R2.pre c)
    (hpost2 : ∀ c : Dev nD, R2.post c ⊢ iprop(StableHlo.held (c : Thread nD τ) (Pipeline.ucRefs τ sig) (V8 m outs c) ∗ Rest (F := F) c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ Rest (F := F) c) ⊢ R3.pre c)
    (hpost3 : ∀ c : Dev nD, R3.post c ⊢ iprop(StableHlo.held (c : Thread nD τ) (Pipeline.ucRefs τ sig) (V10 m outs c) ∗ Rest (F := F) c))
    (R4 : RegionSeg (pcfgs (F := F)) adm pdats () defs₀ 𝒱₀ L lv 4)
    (hpre4 : ∀ c : Dev nD, iprop(StableHlo.held (c : Thread nD τ) (Pipeline.ucRefs τ sig) (V11 m outs c) ∗ Rest (F := F) c) ⊢ R4.pre c)
    (hpost4 : ∀ c : Dev nD, R4.post c ⊢ iprop(StableHlo.held (c : Thread nD τ) (Pipeline.ucRefs τ sig) (V12 m outs c) ∗ Rest (F := F) c))
    (R5 : RegionSeg (pcfgs (F := F)) adm pdats () defs₀ 𝒱₀ L lv 5)
    (hpre5 : ∀ c : Dev nD, iprop(StableHlo.held (c : Thread nD τ) (Pipeline.ucRefs τ sig) (V13 m outs c) ∗ Rest (F := F) c) ⊢ R5.pre c)
    (hpost5 : ∀ c : Dev nD, R5.post c ⊢ iprop(StableHlo.held (c : Thread nD τ) (Pipeline.ucRefs τ sig) (V14 m outs c) ∗ Rest (F := F) c))
    (R6 : RegionSeg (pcfgs (F := F)) adm pdats () defs₀ 𝒱₀ L lv 6)
    (hpre6 : ∀ c : Dev nD, iprop(StableHlo.held (c : Thread nD τ) (Pipeline.ucRefs τ sig) (V15 m outs c) ∗ Rest (F := F) c) ⊢ R6.pre c)
    (hpost6 : ∀ c : Dev nD, R6.post c ⊢ iprop(StableHlo.held (c : Thread nD τ) (Pipeline.ucRefs τ sig) (V16 m outs c) ∗ Rest (F := F) c))
    (R7 : RegionSeg (pcfgs (F := F)) adm pdats () defs₀ 𝒱₀ L lv 7)
    (hpre7 : ∀ c : Dev nD, iprop(StableHlo.held (c : Thread nD τ) (Pipeline.ucRefs τ sig) (V17 m outs c) ∗ Rest (F := F) c) ⊢ R7.pre c)
    (hpost7 : ∀ c : Dev nD, R7.post c ⊢ iprop(StableHlo.held (c : Thread nD τ) (Pipeline.ucRefs τ sig) (V18 m outs c) ∗ Rest (F := F) c))
    (R8 : RegionSeg (pcfgs (F := F)) adm pdats () defs₀ 𝒱₀ L lv 8)
    (hpre8 : ∀ c : Dev nD, iprop(StableHlo.held (c : Thread nD τ) (Pipeline.ucRefs τ sig) (V19 m outs c) ∗ Rest (F := F) c) ⊢ R8.pre c)
    (hpost8 : ∀ c : Dev nD, R8.post c ⊢ iprop(StableHlo.held (c : Thread nD τ) (Pipeline.ucRefs τ sig) (V20 m outs c) ∗ Rest (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2)
    (run_of_regions m ρ outs pdats R0 hpre0 hpost0 R1 hpre1 hpost1 R2 hpre2 hpost2 R3 hpre3 hpost3 R4 hpre4 hpost4 R5 hpre5 hpost5 R6 hpre6 hpost6 R7 hpre7 hpost7 R8 hpre8 hpost8)

end Cert.KernelIdeal.Hand

end
-- ==== Proof.KIReg0.lean ====
/-
  Region 0's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KIFrameKit
import proofs.«163161_j55817394979591_1_alg».proof.Proof.KIRegion0
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 0 is this region's at the entry contents, and any exit
    contents that hold the region's arrays as the pipeline leaves them (`hF`) and agree with the entry contents elsewhere (`hrest`). -/
def reg0 (h : ∀ c, pdats 0 c = dat0 (fun c b => Vin c b) c)
    (hF : ∀ c (w : Fin cfg0.W), (pdats 0 c).arrAt w cfg0.N = Vout c (Pipeline.arrRef spec0 w))
    (hrest : ∀ c (b : Ref sig .tc), b ∉ Finset.univ.image (Pipeline.arrRef spec0) → Vout c b = Vin c b) :
    RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [h c]; exact (body_obligation0 (fun c b => Vin c b) c).loose
  hwaits := Pipeline.hwaits_of_owed_zero _ _ _ _ L lv 0 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    rw [Pipeline.ownSems0_none]
    have hsplit := Pipeline.arrays_of_unscopedBufs (p := 0) (pcfgs (F := F)) adm pdats launch0.win launch0.arr_whole c
      ((pdats 0 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [h c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [h c]; rfl)
      (fun b => Vin c b) (fun b => Vout c b) ((pdats 0 c).arrAt · cfg0.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion1Runs.lean ====
/- Region 1 of the program (custom_call 1, `cc1_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' (`hA`) and whose body leaves the block in place (`hafter`): unfetched,
    the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' (`hA`) and whose body leaves the block in place (`hafter`): unfetched,
    the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' (`hA`) and whose body leaves the block in place (`hafter`): unfetched,
    the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' (`hA`) and whose body leaves the block in place (`hafter`): unfetched,
    the block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (zero the accumulators), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (copy the accumulators out), from the grid coordinate. -/
abbrev cond1_1 (i : grid1.Coords) : Prop := k1_cond2 i = 1#1
/-- It holds at the last point only — decided over the grid. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- At the first point output 5 is idle (nothing is stored into it) and its block is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- At the middle points output 5 is idle and its block is not written back. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At the last point output 5 is live: the accumulator is copied into it. -/
theorem liveAt1_5_C : ∀ t : Fin cfg1.N, ¬cond1_0 (grid1.coords t) → cond1_1 (grid1.coords t) → cfg1.idle 5 (grid1.coords t) = false := by decide +kernel

/-- At the first point output 6 is idle (nothing is stored into it) and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At the middle points output 6 is idle and its block is not written back. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last point output 6 is live: the accumulator is copied into it. -/
theorem liveAt1_6_C : ∀ t : Fin cfg1.N, ¬cond1_0 (grid1.coords t) → cond1_1 (grid1.coords t) → cfg1.idle 6 (grid1.coords t) = false := by decide +kernel

/-! ## The staging and accumulator memrefs -/

/-- One staging buffer of each output window, through which its contents are stated (the choice does not matter). -/
abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own, passed beside the windows. -/
abbrev scM1_0 : Memref sig .tc .vmem S1x128 .f32 := Memref.whole cc1_scratch0
abbrev scM1_1 : Memref sig .tc .vmem S1x128 .f32 := Memref.whole cc1_scratch1
/-- The accumulators as views: what they hold is stated through these. -/
abbrev VS1_0 : View sig .tc .vmem S1x128 .f32 := scM1_0.view
abbrev VS1_1 : View sig .tc .vmem S1x128 .f32 := scM1_1.view

/-- The region invariant with the two accumulators as memrefs owned at some contents, beside the unopened rest of
    the scoped buffers and the generator register: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.KIRegion1RunA.lean ====
/- Region 1, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KIRegion1Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion1RunB.lean ====
/- Region 1, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KIRegion1Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion1RunC.lean ====
/- Region 1, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KIRegion1Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KIRegion1.lean ====
/- Region 1 of the program (custom_call 1): the per-region half of its frame proof, assembled from the three runs.
   What each control case leaves in the outputs and the two accumulators, read back from the pieces the runs found;
   the contents after every point (`outsAt1`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KIRegion1RunA
import proofs.«163161_j55817394979591_1_alg».proof.Proof.KIRegion1RunB
import proofs.«163161_j55817394979591_1_alg».proof.Proof.KIRegion1RunC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves, read back -/

/-- What the first point leaves in output 4's staging buffer: the run's pieces read back over junk. -/
def out1_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) : Vec F S5000x128 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover1_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) (y : S5000x128.Idx) :
    ∃ pc ∈ (kernelRun1_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out1_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover1_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out1_C_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO1_4.read (Elt F) (VO1_4.writes (Elt F) VO1_4.junk (kernelRun1_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover1_C_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out1_C_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover1_C_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle1_5 : Vec F S1x128 .f32 := VO1_5.read (Elt F) VO1_5.junk
def idle1_6 : Vec F S1x128 .f32 := VO1_6.read (Elt F) VO1_6.junk

section Region1
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt1 (c : Dev nD) : (n : ℕ) → n < cfg1.N → (Vec F S5000x128 .f32 × Vec F S1x128 .f32 × Vec F S1x128 .f32 × Vec F S1x128 .f32 × Vec F S1x128 .f32)
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), idle1_5, idle1_6, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 19 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, idle1_5, idle1_6, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) (h1 : ¬t.val = 19) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), idle1_5, idle1_6, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a middle point: over what the point before left in the accumulators. -/
theorem outsAt1_B (c : Dev nD) (t : Fin cfg1.N) (h0 : ¬t.val = 0) (h1 : ¬t.val = 19) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idle1_5, idle1_6, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: over what the point before left in the accumulators. -/
theorem outsAt1_C (c : Dev nD) (t : Fin cfg1.N) (h0 : ¬t.val = 0) (h1 : t.val = 19) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant before position `n`: before the first point the class's (both accumulators at anything); afterwards
    both accumulators at what the point before left in them, beside the unopened rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): both accumulators at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ rest1 c) ∗ (∃ r, prngReg c r)) := rfl

/-- Before a point that is not the first: both accumulators at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ rest1 c) ∗ (∃ r, prngReg c r)) := by
  cases n with
  | zero => exact absurd rfl hz
  | succ n => rfl

/-! ## The pipeline's proof data -/

/-- The proof data of region 1 on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  by_cases h0 : t.val = 0
  · by_cases h1 : t.val = 19
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold out1_A_4 sout1_A_0 sout1_A_1; (try dsimp only)
      rw [PhiS1_castSucc V c t, PhiS1_zero V c _ _ h0, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _)
      isplitl [H5]; · iexists _; iexact H5
      iexists _; iexact H6
  · by_cases h1 : t.val = 19
    · rw [show (dat1 V c).leavesExact 5 t = owns (c : Thread nD τ) (ms1_5 t) fullShare ((dat1 V c).after 5 t) from by
          unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
          unfold Dat.leavesExact; rw [liveAt1_6_C t (fun h => h0 ((hcond1_0 t).mp h)) ((hcond1_1 t).mpr h1)], after1_6]
      rw [outsAt1_C V c t h0 h1]
      unfold out1_C_4 out1_C_5 out1_C_6 sout1_C_0 sout1_C_1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold out1_B_4 sout1_B_0 sout1_B_1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region1

end Cert.KernelIdeal.Hand

end
-- ==== Proof.KIReg1.lean ====
/-
  Region 1's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KIFrameKit
import proofs.«163161_j55817394979591_1_alg».proof.Proof.KIRegion1
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 1 is this region's at the entry contents, and any exit
    contents that hold the region's arrays as the pipeline leaves them (`hF`) and agree with the entry contents elsewhere (`hrest`). -/
def reg1 (h : ∀ c, pdats 1 c = dat1 (fun c b => Vin c b) c)
    (hF : ∀ c (w : Fin cfg1.W), (pdats 1 c).arrAt w cfg1.N = Vout c (Pipeline.arrRef spec1 w))
    (hrest : ∀ c (b : Ref sig .tc), b ∉ Finset.univ.image (Pipeline.arrRef spec1) → Vout c b = Vin c b) :
    RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [h c]; exact (body_obligation1 (fun c b => Vin c b) c).loose
  hwaits := Pipeline.hwaits_of_owed_zero _ _ _ _ L lv 1 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    rw [Pipeline.ownSems0_none]
    have hsplit := Pipeline.arrays_of_unscopedBufs (p := 1) (pcfgs (F := F)) adm pdats launch1.win launch1.arr_whole c
      ((pdats 1 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin1 (fun c b => Vin c b) c)
    unfold Pipeline.ΦA
    iintro ⟨Hp, -, Hr⟩
    isplitl [Hr]; · iexact Hr
    iexact Hp
  hout c := by
    rw [Pipeline.ownSems0_none, h c]
    refine (hout1 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [h c]; rfl)
      (fun b => Vin c b) (fun b => Vout c b) ((pdats 1 c).arrAt · cfg1.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIReg2.lean ====
/-
  Region 2's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KIFrameKit
import proofs.«163161_j55817394979591_1_alg».proof.Proof.KIRegion2
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 2 is this region's at the entry contents, and any exit
    contents that hold the region's arrays as the pipeline leaves them (`hF`) and agree with the entry contents elsewhere (`hrest`). -/
def reg2 (h : ∀ c, pdats 2 c = dat2 (fun c b => Vin c b) c)
    (hF : ∀ c (w : Fin cfg2.W), (pdats 2 c).arrAt w cfg2.N = Vout c (Pipeline.arrRef spec2 w))
    (hrest : ∀ c (b : Ref sig .tc), b ∉ Finset.univ.image (Pipeline.arrRef spec2) → Vout c b = Vin c b) :
    RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := by rw [h c]; exact (body_obligation2 (fun c b => Vin c b) c).loose
  hwaits := Pipeline.hwaits_of_owed_zero _ _ _ _ L lv 2 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    rw [Pipeline.ownSems0_none]
    have hsplit := Pipeline.arrays_of_unscopedBufs (p := 2) (pcfgs (F := F)) adm pdats launch2.win launch2.arr_whole c
      ((pdats 2 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [h c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [h c]; rfl)
      (fun b => Vin c b) (fun b => Vout c b) ((pdats 2 c).arrAt · cfg2.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion3Runs.lean ====
/- Region 3 of the program (custom_call 3, `cc3_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents' (`hA`) and whose body leaves the block in place (`hafter`): unfetched,
    the block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents' (`hA`) and whose body leaves the block in place (`hafter`): unfetched,
    the block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents' (`hA`) and whose body leaves the block in place (`hafter`): unfetched,
    the block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents' (`hA`) and whose body leaves the block in place (`hafter`): unfetched,
    the block index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's branch conditions -/

/-- The condition of the body's first `scf.if` (zero the accumulators), from the grid coordinate. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (copy the accumulators out), from the grid coordinate. -/
abbrev cond3_1 (i : grid3.Coords) : Prop := k3_cond2 i = 1#1
/-- It holds at the last point only — decided over the grid. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- Window 0 is never idle. -/
theorem liveAt3_0 : ∀ t : Fin cfg3.N, cfg3.idle 0 (grid3.coords t) = false := by decide +kernel
/-- Window 1 is never idle. -/
theorem liveAt3_1 : ∀ t : Fin cfg3.N, cfg3.idle 1 (grid3.coords t) = false := by decide +kernel
/-- Window 2 is never idle. -/
theorem liveAt3_2 : ∀ t : Fin cfg3.N, cfg3.idle 2 (grid3.coords t) = false := by decide +kernel
/-- Window 3 is never idle. -/
theorem liveAt3_3 : ∀ t : Fin cfg3.N, cfg3.idle 3 (grid3.coords t) = false := by decide +kernel
/-- Window 4 is never idle. -/
theorem liveAt3_4 : ∀ t : Fin cfg3.N, cfg3.idle 4 (grid3.coords t) = false := by decide +kernel
/-- At the first point output 5 is idle (nothing is stored into it) and its block is not written back. -/
theorem idleAt3_5_A : ∀ t : Fin cfg3.N, cond3_0 (grid3.coords t) → ¬cond3_1 (grid3.coords t) → cfg3.idle 5 (grid3.coords t) = true := by decide +kernel
theorem noFlush3_5_A : ∀ t : Fin cfg3.N, cond3_0 (grid3.coords t) → ¬cond3_1 (grid3.coords t) → (cfg3.win 5).flush t = false := by decide +kernel
/-- At the middle points output 5 is idle and its block is not written back. -/
theorem idleAt3_5_B : ∀ t : Fin cfg3.N, ¬cond3_0 (grid3.coords t) → ¬cond3_1 (grid3.coords t) → cfg3.idle 5 (grid3.coords t) = true := by decide +kernel
theorem noFlush3_5_B : ∀ t : Fin cfg3.N, ¬cond3_0 (grid3.coords t) → ¬cond3_1 (grid3.coords t) → (cfg3.win 5).flush t = false := by decide +kernel
/-- At the last point output 5 is live: the accumulator is copied into it. -/
theorem liveAt3_5_C : ∀ t : Fin cfg3.N, ¬cond3_0 (grid3.coords t) → cond3_1 (grid3.coords t) → cfg3.idle 5 (grid3.coords t) = false := by decide +kernel

/-- At the first point output 6 is idle (nothing is stored into it) and its block is not written back. -/
theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel
/-- At the middle points output 6 is idle and its block is not written back. -/
theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel
/-- At the last point output 6 is live: the accumulator is copied into it. -/
theorem liveAt3_6_C : ∀ t : Fin cfg3.N, ¬cond3_0 (grid3.coords t) → cond3_1 (grid3.coords t) → cfg3.idle 6 (grid3.coords t) = false := by decide +kernel

/-! ## The staging and accumulator memrefs -/

/-- One staging buffer of each output window, through which its contents are stated (the choice does not matter). -/
abbrev VO3_4 : View sig .tc .vmem S5000x128 .f32 := (Memref.whole cc3_stg4_0 : Memref sig .tc .vmem S5000x128 .f32).view
abbrev VO3_5 : View sig .tc .vmem S1x128 .f32 := (Memref.whole cc3_stg5_0 : Memref sig .tc .vmem S1x128 .f32).view
abbrev VO3_6 : View sig .tc .vmem S1x128 .f32 := (Memref.whole cc3_stg6_0 : Memref sig .tc .vmem S1x128 .f32).view
/-- Each window's current staging memref at point `t`, spelled as the pipeline passes it, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S5000x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
/-- The two accumulators: whole scoped buffers of the kernel's own, passed beside the windows. -/
abbrev scM3_0 : Memref sig .tc .vmem S1x128 .f32 := Memref.whole cc3_scratch0
abbrev scM3_1 : Memref sig .tc .vmem S1x128 .f32 := Memref.whole cc3_scratch1
/-- The accumulators as views: what they hold is stated through these. -/
abbrev VS3_0 : View sig .tc .vmem S1x128 .f32 := scM3_0.view
abbrev VS3_1 : View sig .tc .vmem S1x128 .f32 := scM3_1.view

/-- The region invariant with the two accumulators as memrefs owned at some contents, beside the unopened rest of
    the scoped buffers and the generator register: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.KIRegion3RunA.lean ====
/- Region 3, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KIRegion3Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun3_A (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion3RunB.lean ====
/- Region 3, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KIRegion3Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun3_B (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion3RunC.lean ====
/- Region 3, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KIRegion3Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun3_C (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KIRegion3.lean ====
/- Region 3 of the program (custom_call 3): the per-region half of its frame proof, assembled from the three runs.
   What each control case leaves in the outputs and the two accumulators, read back from the pieces the runs found;
   the contents after every point (`outsAt3`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KIRegion3RunA
import proofs.«163161_j55817394979591_1_alg».proof.Proof.KIRegion3RunB
import proofs.«163161_j55817394979591_1_alg».proof.Proof.KIRegion3RunC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves, read back -/

/-- What the first point leaves in output 4's staging buffer: the run's pieces read back over junk. -/
def out3_A_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) : Vec F S5000x128 .f32 :=
  VO3_4.read (Elt F) (VO3_4.writes (Elt F) VO3_4.junk (kernelRun3_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover3_A_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) (y : S5000x128.Idx) :
    ∃ pc ∈ (kernelRun3_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout3_A_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover3_A_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout3_A_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover3_A_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out3_B_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO3_4.read (Elt F) (VO3_4.writes (Elt F) VO3_4.junk (kernelRun3_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover3_B_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout3_B_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover3_B_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout3_B_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover3_B_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out3_C_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO3_4.read (Elt F) (VO3_4.writes (Elt F) VO3_4.junk (kernelRun3_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover3_C_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out3_C_5 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO3_5.read (Elt F) (VO3_5.writes (Elt F) VO3_5.junk (kernelRun3_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover3_C_5 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out3_C_6 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover3_C_6 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout3_C_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover3_C_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout3_C_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover3_C_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle3_5 : Vec F S1x128 .f32 := VO3_5.read (Elt F) VO3_5.junk
def idle3_6 : Vec F S1x128 .f32 := VO3_6.read (Elt F) VO3_6.junk

section Region3
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt3 (c : Dev nD) : (n : ℕ) → n < cfg3.N → (Vec F S5000x128 .f32 × Vec F S1x128 .f32 × Vec F S1x128 .f32 × Vec F S1x128 .f32 × Vec F S1x128 .f32)
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), idle3_5, idle3_6, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h1 : n + 1 = 19 then
      (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2)
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, idle3_5, idle3_6, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2)

/-- `outsAt3` at the first point. -/
theorem outsAt3_A (c : Dev nD) (t : Fin cfg3.N) (h0 : t.val = 0) (h1 : ¬t.val = 19) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t), idle3_5, idle3_6, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact absurd h0 (Nat.succ_ne_zero n)

/-- `outsAt3` at a middle point: over what the point before left in the accumulators. -/
theorem outsAt3_B (c : Dev nD) (t : Fin cfg3.N) (h0 : ¬t.val = 0) (h1 : ¬t.val = 19) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, idle3_5, idle3_6, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt3` at the last point: over what the point before left in the accumulators. -/
theorem outsAt3_C (c : Dev nD) (t : Fin cfg3.N) (h0 : ¬t.val = 0) (h1 : t.val = 19) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The invariant before position `n`: before the first point the class's (both accumulators at anything); afterwards
    both accumulators at what the point before left in them, beside the unopened rest and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2)) ∗ rest3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): both accumulators at that point's contents. -/
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2)) ∗ rest3 c) ∗ (∃ r, prngReg c r)) := rfl

/-- Before a point that is not the first: both accumulators at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2)) ∗ rest3 c) ∗ (∃ r, prngReg c r)) := by
  cases n with
  | zero => exact absurd rfl hz
  | succ n => rfl

/-! ## The pipeline's proof data -/

/-- The proof data of region 3 on core `c`: the arrays as the region finds them (`V`); after the body at point `t`
    each input's buffer at its block and the outputs' at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
    | ⟨6, _⟩ => (outsAt3 V c t.val t.isLt).2.2.1
  Φ t := PhiS3 V c t.val (Nat.le_of_lt_succ t.isLt)
  q _ := fullShare
  owed _ := 0

/-- The proof data's arrays are the region-entry contents (the definition projected; `V` is never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem after3_6 (c : Dev nD) (t : Fin cfg3.N) : (dat3 V c).after 6 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  rw [show (dat3 V c).leavesExact 3 t = owns (c : Thread nD τ) (ms3_3 t) fullShare ((dat3 V c).after 3 t) from by
      unfold Dat.leavesExact; rw [liveAt3_3 t], after3_3]
  rw [show (dat3 V c).leavesExact 4 t = owns (c : Thread nD τ) (ms3_4 t) fullShare ((dat3 V c).after 4 t) from by
      unfold Dat.leavesExact; rw [liveAt3_4 t], after3_4]
  by_cases h0 : t.val = 0
  · by_cases h1 : t.val = 19
    · exfalso; omega
    · rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold out3_A_4 sout3_A_0 sout3_A_1; (try dsimp only)
      rw [PhiS3_castSucc V c t, PhiS3_zero V c _ _ h0, PhiA3_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _)
            unfold owns; iexists _; isplitr
            swap; · iexact HS1
            ipureintro; exact View.read_writes_of_cover _ _ _ _ _ (scover3_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_A_4 c _ _ _ _ _ _ _ _ _ _ _ _ _ _ _ _ _ _ _ _ _ _ _ _ _)
      isplitl [H5]; · iexists _; iexact H5
      iexists _; iexact H6
  · by_cases h1 : t.val = 19
    · rw [show (dat3 V c).leavesExact 5 t = owns (c : Thread nD τ) (ms3_5 t) fullShare ((dat3 V c).after 5 t) from by
          unfold Dat.leavesExact; rw [liveAt3_5_C t (fun h => h0 ((hcond3_0 t).mp h)) ((hcond3_1 t).mpr h1)], after3_5]
      rw [show (dat3 V c).leavesExact 6 t = owns (c : Thread nD τ) (ms3_6 t) fullShare ((dat3 V c).after 6 t) from by
          unfold Dat.leavesExact; rw [liveAt3_6_C t (fun h => h0 ((hcond3_0 t).mp h)) ((hcond3_1 t).mpr h1)], after3_6]
      rw [outsAt3_C V c t h0 h1]
      unfold out3_C_4 out3_C_5 out3_C_6 sout3_C_0 sout3_C_1; (try dsimp only)
      rw [PhiS3_castSucc V c t, PhiS3_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover3_C_5 c _ _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _ _)
    · rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold out3_B_4 sout3_B_0 sout3_B_1; (try dsimp only)
      rw [PhiS3_castSucc V c t, PhiS3_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_B_4 c _ _ _ _ _ _ _ _ _ _ _ _ _ _ _ _ _ _ _ _ _ _ _ _ _ _ _)
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Region3

end Cert.KernelIdeal.Hand

end
-- ==== Proof.KIReg3.lean ====
/-
  Region 3's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KIFrameKit
import proofs.«163161_j55817394979591_1_alg».proof.Proof.KIRegion3
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 3 is this region's at the entry contents, and any exit
    contents that hold the region's arrays as the pipeline leaves them (`hF`) and agree with the entry contents elsewhere (`hrest`). -/
def reg3 (h : ∀ c, pdats 3 c = dat3 (fun c b => Vin c b) c)
    (hF : ∀ c (w : Fin cfg3.W), (pdats 3 c).arrAt w cfg3.N = Vout c (Pipeline.arrRef spec3 w))
    (hrest : ∀ c (b : Ref sig .tc), b ∉ Finset.univ.image (Pipeline.arrRef spec3) → Vout c b = Vin c b) :
    RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [h c]; exact (body_obligation3 (fun c b => Vin c b) c).loose
  hwaits := Pipeline.hwaits_of_owed_zero _ _ _ _ L lv 3 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec3 c (fun b => Vin c b)
  hentry c := by
    rw [Pipeline.ownSems0_none]
    have hsplit := Pipeline.arrays_of_unscopedBufs (p := 3) (pcfgs (F := F)) adm pdats launch3.win launch3.arr_whole c
      ((pdats 3 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin3 (fun c b => Vin c b) c)
    unfold Pipeline.ΦA
    iintro ⟨Hp, -, Hr⟩
    isplitl [Hr]; · iexact Hr
    iexact Hp
  hout c := by
    rw [Pipeline.ownSems0_none, h c]
    refine (hout3 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun _ => by rw [h c]; rfl)
      (fun b => Vin c b) (fun b => Vout c b) ((pdats 3 c).arrAt · cfg3.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIReg4.lean ====
/-
  Region 4's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KIFrameKit
import proofs.«163161_j55817394979591_1_alg».proof.Proof.KIRegion4
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 4 is this region's at the entry contents, and any exit
    contents that hold the region's arrays as the pipeline leaves them (`hF`) and agree with the entry contents elsewhere (`hrest`). -/
def reg4 (h : ∀ c, pdats 4 c = dat4 (fun c b => Vin c b) c)
    (hF : ∀ c (w : Fin cfg4.W), (pdats 4 c).arrAt w cfg4.N = Vout c (Pipeline.arrRef spec4 w))
    (hrest : ∀ c (b : Ref sig .tc), b ∉ Finset.univ.image (Pipeline.arrRef spec4) → Vout c b = Vin c b) :
    RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := by rw [h c]; exact (body_obligation4 (fun c b => Vin c b) c).loose
  hwaits := Pipeline.hwaits_of_owed_zero _ _ _ _ L lv 4 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec4 c (fun b => Vin c b)
  hentry c := by
    rw [Pipeline.ownSems0_none]
    have hsplit := Pipeline.arrays_of_unscopedBufs (p := 4) (pcfgs (F := F)) adm pdats launch4.win launch4.arr_whole c
      ((pdats 4 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 4 c).Φ 0 = Pipeline.ΦA spec4 c from by rw [h c]; rfl]; unfold Pipeline.ΦA
    iintro ⟨Hp, -, Hr⟩
    isplitl [Hr]; · iexact Hr
    iexact Hp
  hout c := by
    rw [Pipeline.ownSems0_none, show (pdats 4 c).Φ (Fin.last _) = Pipeline.ΦA spec4 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun _ => by rw [h c]; rfl)
      (fun b => Vin c b) (fun b => Vout c b) ((pdats 4 c).arrAt · cfg4.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion5Runs.lean ====
/- Region 5 of the program (custom_call 5, `cc5_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents' (`hA`) and whose body leaves the block in place (`hafter`): unfetched,
    the block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents' (`hA`) and whose body leaves the block in place (`hafter`): unfetched,
    the block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents' (`hA`) and whose body leaves the block in place (`hafter`): unfetched,
    the block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is the entry contents' (`hA`) and whose body leaves the block in place (`hafter`): unfetched,
    the block index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

end Region5

/-! ## The body's branch conditions -/

/-- The condition of the body's first `scf.if` (zero the accumulators), from the grid coordinate. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val = 0 :=
  (by decide +kernel : ∀ t : Fin grid5.N, cond5_0 (grid5.coords t) ↔ t.val = 0)

/-- The condition of the body's second `scf.if` (copy the accumulators out), from the grid coordinate. -/
abbrev cond5_1 (i : grid5.Coords) : Prop := k5_cond2 i = 1#1
/-- It holds at the last point only — decided over the grid. -/
theorem hcond5_1 : ∀ t : Fin cfg5.N, cond5_1 (grid5.coords t) ↔ t.val = 19 :=
  (by decide +kernel : ∀ t : Fin grid5.N, cond5_1 (grid5.coords t) ↔ t.val = 19)

/-! ## Where the windows are idle -/

/-- Window 0 is never idle. -/
theorem liveAt5_0 : ∀ t : Fin cfg5.N, cfg5.idle 0 (grid5.coords t) = false := by decide +kernel
/-- Window 1 is never idle. -/
theorem liveAt5_1 : ∀ t : Fin cfg5.N, cfg5.idle 1 (grid5.coords t) = false := by decide +kernel
/-- Window 2 is never idle. -/
theorem liveAt5_2 : ∀ t : Fin cfg5.N, cfg5.idle 2 (grid5.coords t) = false := by decide +kernel
/-- Window 3 is never idle. -/
theorem liveAt5_3 : ∀ t : Fin cfg5.N, cfg5.idle 3 (grid5.coords t) = false := by decide +kernel
/-- Window 4 is never idle. -/
theorem liveAt5_4 : ∀ t : Fin cfg5.N, cfg5.idle 4 (grid5.coords t) = false := by decide +kernel
/-- At the first point output 5 is idle (nothing is stored into it) and its block is not written back. -/
theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel
/-- At the middle points output 5 is idle and its block is not written back. -/
theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel
/-- At the last point output 5 is live: the accumulator is copied into it. -/
theorem liveAt5_5_C : ∀ t : Fin cfg5.N, ¬cond5_0 (grid5.coords t) → cond5_1 (grid5.coords t) → cfg5.idle 5 (grid5.coords t) = false := by decide +kernel

/-- At the first point output 6 is idle (nothing is stored into it) and its block is not written back. -/
theorem idleAt5_6_A : ∀ t : Fin cfg5.N, cond5_0 (grid5.coords t) → ¬cond5_1 (grid5.coords t) → cfg5.idle 6 (grid5.coords t) = true := by decide +kernel
theorem noFlush5_6_A : ∀ t : Fin cfg5.N, cond5_0 (grid5.coords t) → ¬cond5_1 (grid5.coords t) → (cfg5.win 6).flush t = false := by decide +kernel
/-- At the middle points output 6 is idle and its block is not written back. -/
theorem idleAt5_6_B : ∀ t : Fin cfg5.N, ¬cond5_0 (grid5.coords t) → ¬cond5_1 (grid5.coords t) → cfg5.idle 6 (grid5.coords t) = true := by decide +kernel
theorem noFlush5_6_B : ∀ t : Fin cfg5.N, ¬cond5_0 (grid5.coords t) → ¬cond5_1 (grid5.coords t) → (cfg5.win 6).flush t = false := by decide +kernel
/-- At the last point output 6 is live: the accumulator is copied into it. -/
theorem liveAt5_6_C : ∀ t : Fin cfg5.N, ¬cond5_0 (grid5.coords t) → cond5_1 (grid5.coords t) → cfg5.idle 6 (grid5.coords t) = false := by decide +kernel

/-! ## The staging and accumulator memrefs -/

/-- One staging buffer of each output window, through which its contents are stated (the choice does not matter). -/
abbrev VO5_4 : View sig .tc .vmem S5000x128 .f32 := (Memref.whole cc5_stg4_0 : Memref sig .tc .vmem S5000x128 .f32).view
abbrev VO5_5 : View sig .tc .vmem S1x128 .f32 := (Memref.whole cc5_stg5_0 : Memref sig .tc .vmem S1x128 .f32).view
abbrev VO5_6 : View sig .tc .vmem S1x128 .f32 := (Memref.whole cc5_stg6_0 : Memref sig .tc .vmem S1x128 .f32).view
/-- Each window's current staging memref at point `t`, spelled as the pipeline passes it, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S5000x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
/-- The two accumulators: whole scoped buffers of the kernel's own, passed beside the windows. -/
abbrev scM5_0 : Memref sig .tc .vmem S1x128 .f32 := Memref.whole cc5_scratch0
abbrev scM5_1 : Memref sig .tc .vmem S1x128 .f32 := Memref.whole cc5_scratch1
/-- The accumulators as views: what they hold is stated through these. -/
abbrev VS5_0 : View sig .tc .vmem S1x128 .f32 := scM5_0.view
abbrev VS5_1 : View sig .tc .vmem S1x128 .f32 := scM5_1.view

/-- The region invariant with the two accumulators as memrefs owned at some contents, beside the unopened rest of
    the scoped buffers and the generator register: what the body obligation hands the run and takes back. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.KernelIdeal.Hand

end
-- ==== Proof.KIRegion5RunA.lean ====
/- Region 5, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KIRegion5Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun5_A (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion5RunB.lean ====
/- Region 5, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KIRegion5Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun5_B (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion5RunC.lean ====
/- Region 5, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KIRegion5Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun5_C (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KIRegion5.lean ====
/- Region 5 of the program (custom_call 5): the per-region half of its frame proof, assembled from the three runs.
   What each control case leaves in the outputs and the two accumulators, read back from the pieces the runs found;
   the contents after every point (`outsAt5`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KIRegion5RunA
import proofs.«163161_j55817394979591_1_alg».proof.Proof.KIRegion5RunB
import proofs.«163161_j55817394979591_1_alg».proof.Proof.KIRegion5RunC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves, read back -/

/-- What the first point leaves in output 4's staging buffer: the run's pieces read back over junk. -/
def out5_A_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) : Vec F S5000x128 .f32 :=
  VO5_4.read (Elt F) (VO5_4.writes (Elt F) VO5_4.junk (kernelRun5_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover5_A_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) (y : S5000x128.Idx) :
    ∃ pc ∈ (kernelRun5_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout5_A_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) : Vec F S1x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover5_A_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) (y : S1x128.Idx) :
    ∃ pc ∈ (kernelRun5_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout5_A_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) : Vec F S1x128 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover5_A_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) (y : S1x128.Idx) :
    ∃ pc ∈ (kernelRun5_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out5_B_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO5_4.read (Elt F) (VO5_4.writes (Elt F) VO5_4.junk (kernelRun5_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover5_B_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun5_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout5_B_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover5_B_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout5_B_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover5_B_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out5_C_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO5_4.read (Elt F) (VO5_4.writes (Elt F) VO5_4.junk (kernelRun5_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover5_C_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out5_C_5 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO5_5.read (Elt F) (VO5_5.writes (Elt F) VO5_5.junk (kernelRun5_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover5_C_5 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out5_C_6 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO5_6.read (Elt F) (VO5_6.writes (Elt F) VO5_6.junk (kernelRun5_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover5_C_6 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout5_C_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover5_C_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout5_C_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover5_C_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle5_5 : Vec F S1x128 .f32 := VO5_5.read (Elt F) VO5_5.junk
def idle5_6 : Vec F S1x128 .f32 := VO5_6.read (Elt F) VO5_6.junk

section Region5
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt5 (c : Dev nD) : (n : ℕ) → n < cfg5.N → (Vec F S5000x128 .f32 × Vec F S1x128 .f32 × Vec F S1x128 .f32 × Vec F S1x128 .f32 × Vec F S1x128 .f32)
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), idle5_5, idle5_6, sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩))
  | n + 1, hn =>
    if h1 : n + 1 = 19 then
      (out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2)
    else
      (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, idle5_5, idle5_6, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2)

/-- `outsAt5` at the first point. -/
theorem outsAt5_A (c : Dev nD) (t : Fin cfg5.N) (h0 : t.val = 0) (h1 : ¬t.val = 19) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t), idle5_5, idle5_6, sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact absurd h0 (Nat.succ_ne_zero n)

/-- `outsAt5` at a middle point: over what the point before left in the accumulators. -/
theorem outsAt5_B (c : Dev nD) (t : Fin cfg5.N) (h0 : ¬t.val = 0) (h1 : ¬t.val = 19) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, idle5_5, idle5_6, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt5` at the last point: over what the point before left in the accumulators. -/
theorem outsAt5_C (c : Dev nD) (t : Fin cfg5.N) (h0 : ¬t.val = 0) (h1 : t.val = 19) :
    outsAt5 V c t.val t.isLt = (out5_C_4 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The invariant before position `n`: before the first point the class's (both accumulators at anything); afterwards
    both accumulators at what the point before left in them, beside the unopened rest and the generator register. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.2.1) ∗ owns (c : Thread nD τ) scM5_1 fullShare ((outsAt5 V c n hn).2.2.2.2)) ∗ rest5 c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): both accumulators at that point's contents. -/
theorem PhiS5_succ (c : Dev nD) (n : ℕ) (hn : n < cfg5.N) :
    PhiS5 V c (n + 1) hn = iprop(iprop(iprop(owns (c : Thread nD τ) scM5_0 fullShare ((outsAt5 V c n hn).2.2.2.1) ∗ owns (c : Thread nD τ) scM5_1 fullShare ((outsAt5 V c n hn).2.2.2.2)) ∗ rest5 c) ∗ (∃ r, prngReg c r)) := rfl

/-- Before a point that is not the first: both accumulators at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.2.1) ∗ owns (c : Thread nD τ) scM5_1 fullShare ((outsAt5 V c (n - 1) (by omega)).2.2.2.2)) ∗ rest5 c) ∗ (∃ r, prngReg c r)) := by
  cases n with
  | zero => exact absurd rfl hz
  | succ n => rfl

/-! ## The pipeline's proof data -/

/-- The proof data of region 5 on core `c`: the arrays as the region finds them (`V`); after the body at point `t`
    each input's buffer at its block and the outputs' at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
    | ⟨5, _⟩ => (outsAt5 V c t.val t.isLt).2.1
    | ⟨6, _⟩ => (outsAt5 V c t.val t.isLt).2.2.1
  Φ t := PhiS5 V c t.val (Nat.le_of_lt_succ t.isLt)
  q _ := fullShare
  owed _ := 0

/-- The proof data's arrays are the region-entry contents (the definition projected; `V` is never unfolded). -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]
theorem after5_5 (c : Dev nD) (t : Fin cfg5.N) : (dat5 V c).after 5 t = (outsAt5 V c t.val t.isLt).2.1 := by dsimp only [dat5]
theorem after5_6 (c : Dev nD) (t : Fin cfg5.N) : (dat5 V c).after 6 t = (outsAt5 V c t.val t.isLt).2.2.1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  rw [show (dat5 V c).leavesExact 3 t = owns (c : Thread nD τ) (ms5_3 t) fullShare ((dat5 V c).after 3 t) from by
      unfold Dat.leavesExact; rw [liveAt5_3 t], after5_3]
  rw [show (dat5 V c).leavesExact 4 t = owns (c : Thread nD τ) (ms5_4 t) fullShare ((dat5 V c).after 4 t) from by
      unfold Dat.leavesExact; rw [liveAt5_4 t], after5_4]
  by_cases h0 : t.val = 0
  · by_cases h1 : t.val = 19
    · exfalso; omega
    · rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
      rw [outsAt5_A V c t h0 h1]
      unfold out5_A_4 sout5_A_0 sout5_A_1; (try dsimp only)
      rw [PhiS5_castSucc V c t, PhiS5_zero V c _ _ h0, PhiA5_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _ _ _ _)
            unfold owns; iexists _; isplitr
            swap; · iexact HS1
            ipureintro; exact View.read_writes_of_cover _ _ _ _ _ (scover5_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_A_4 c _ _ _ _ _ _ _ _ _ _ _ _ _ _ _ _ _ _ _ _ _ _ _ _ _)
      isplitl [H5]; · iexists _; iexact H5
      iexists _; iexact H6
  · by_cases h1 : t.val = 19
    · rw [show (dat5 V c).leavesExact 5 t = owns (c : Thread nD τ) (ms5_5 t) fullShare ((dat5 V c).after 5 t) from by
          unfold Dat.leavesExact; rw [liveAt5_5_C t (fun h => h0 ((hcond5_0 t).mp h)) ((hcond5_1 t).mpr h1)], after5_5]
      rw [show (dat5 V c).leavesExact 6 t = owns (c : Thread nD τ) (ms5_6 t) fullShare ((dat5 V c).after 6 t) from by
          unfold Dat.leavesExact; rw [liveAt5_6_C t (fun h => h0 ((hcond5_0 t).mp h)) ((hcond5_1 t).mpr h1)], after5_6]
      rw [outsAt5_C V c t h0 h1]
      unfold out5_C_4 out5_C_5 out5_C_6 sout5_C_0 sout5_C_1; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun5_C c (grid5.coords t) _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _ _ _ _ _)
            unfold owns; iexists _; isplitr
            swap; · iexact HS1
            ipureintro; exact View.read_writes_of_cover _ _ _ _ _ (scover5_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover5_C_5 c _ _ _ _ _ _ _ _ _ _ _ _ _ _ _ _ _ _ _ _ _ _ _ _ _ _ _)
      unfold owns; iexists _; isplitr
      swap; · iexact H6
      ipureintro; exact View.read_writes_of_cover _ _ _ _ _ (cover5_C_6 c _ _ _ _ _ _ _ _ _ _ _ _ _ _ _ _ _ _ _ _ _ _ _ _ _ _ _)
    · rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
      rw [outsAt5_B V c t h0 h1]
      unfold out5_B_4 sout5_B_0 sout5_B_1; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun5_B c (grid5.coords t) _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _ _ _ _ _)
            unfold owns; iexists _; isplitr
            swap; · iexact HS1
            ipureintro; exact View.read_writes_of_cover _ _ _ _ _ (scover5_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_B_4 c _ _ _ _ _ _ _ _ _ _ _ _ _ _ _ _ _ _ _ _ _ _ _ _ _ _ _)
      isplitl [H5]; · iexists _; iexact H5
      iexists _; iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulators' named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 20 := N_5; omega)

end Region5

end Cert.KernelIdeal.Hand

end
-- ==== Proof.KIReg5.lean ====
/-
  Region 5's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KIFrameKit
import proofs.«163161_j55817394979591_1_alg».proof.Proof.KIRegion5
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 5 is this region's at the entry contents, and any exit
    contents that hold the region's arrays as the pipeline leaves them (`hF`) and agree with the entry contents elsewhere (`hrest`). -/
def reg5 (h : ∀ c, pdats 5 c = dat5 (fun c b => Vin c b) c)
    (hF : ∀ c (w : Fin cfg5.W), (pdats 5 c).arrAt w cfg5.N = Vout c (Pipeline.arrRef spec5 w))
    (hrest : ∀ c (b : Ref sig .tc), b ∉ Finset.univ.image (Pipeline.arrRef spec5) → Vout c b = Vin c b) :
    RegionSeg (pcfgs (F := F)) adm pdats () defs₀ 𝒱₀ L lv 5 where
  win := launch5.win.to₀
  block_pos := launch5.block_pos
  stage_whole := launch5.stage_whole
  K := PEmpty
  osem k := k.elim
  ho := Pipeline.OwnSemFacts.none _
  hbody c := by rw [h c]; exact (body_obligation5 (fun c b => Vin c b) c).loose
  hwaits := Pipeline.hwaits_of_owed_zero _ _ _ _ L lv 5 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec5 c (fun b => Vin c b)
  hentry c := by
    rw [Pipeline.ownSems0_none]
    have hsplit := Pipeline.arrays_of_unscopedBufs (p := 5) (pcfgs (F := F)) adm pdats launch5.win launch5.arr_whole c
      ((pdats 5 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin5 (fun c b => Vin c b) c)
    unfold Pipeline.ΦA
    iintro ⟨Hp, -, Hr⟩
    isplitl [Hr]; · iexact Hr
    iexact Hp
  hout c := by
    rw [Pipeline.ownSems0_none, h c]
    refine (hout5 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [h c]; rfl)
      (fun b => Vin c b) (fun b => Vout c b) ((pdats 5 c).arrAt · cfg5.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIReg6.lean ====
/-
  Region 6's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KIFrameKit
import proofs.«163161_j55817394979591_1_alg».proof.Proof.KIRegion6
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 6 is this region's at the entry contents, and any exit
    contents that hold the region's arrays as the pipeline leaves them (`hF`) and agree with the entry contents elsewhere (`hrest`). -/
def reg6 (h : ∀ c, pdats 6 c = dat6 (fun c b => Vin c b) c)
    (hF : ∀ c (w : Fin cfg6.W), (pdats 6 c).arrAt w cfg6.N = Vout c (Pipeline.arrRef spec6 w))
    (hrest : ∀ c (b : Ref sig .tc), b ∉ Finset.univ.image (Pipeline.arrRef spec6) → Vout c b = Vin c b) :
    RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [h c]; exact (body_obligation6 (fun c b => Vin c b) c).loose
  hwaits := Pipeline.hwaits_of_owed_zero _ _ _ _ L lv 6 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec6 c (fun b => Vin c b)
  hentry c := by
    rw [Pipeline.ownSems0_none]
    have hsplit := Pipeline.arrays_of_unscopedBufs (p := 6) (pcfgs (F := F)) adm pdats launch6.win launch6.arr_whole c
      ((pdats 6 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [h c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun _ => by rw [h c]; rfl)
      (fun b => Vin c b) (fun b => Vout c b) ((pdats 6 c).arrAt · cfg6.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRegion7Runs.lean ====
/- Region 7 of the program (custom_call 7, `cc7_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.KernelIdeal.Launch
import proofs.«163161_j55817394979591_1_alg».proof.Proof.Gen.KernelIdeal.Skeleton
import proofs.«163161_j55817394979591_1_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region7
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry contents' (`hA`) and whose body leaves the block in place (`hafter`): unfetched,
    the block index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is the entry contents' (`hA`) and whose body leaves the block in place (`hafter`): unfetched,
    the block index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is the entry contents' (`hA`) and whose body leaves the block in place (`hafter`): unfetched,
    the block index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is the entry contents' (`hA`) and whose body leaves the block in place (`hafter`): unfetched,
    the block index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

end Region7

/-! ## The body's branch conditions -/

/-- The condition of the body's first `scf.if` (zero the accumulators), from the grid coordinate. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val = 0 :=
  (by decide +kernel : ∀ t : Fin grid7.N, cond7_0 (grid7.coords t) ↔ t.val = 0)

/-- The condition of the body's second `scf.if` (copy the accumulators out), from the grid coordinate. -/
abbrev cond7_1 (i : grid7.Coords) : Prop := k7_cond2 i = 1#1
/-- It holds at the last point only — decided over the grid. -/
theorem hcond7_1 : ∀ t : Fin cfg7.N, cond7_1 (grid7.coords t) ↔ t.val = 19 :=
  (by decide +kernel : ∀ t : Fin grid7.N, cond7_1 (grid7.coords t) ↔ t.val = 19)

/-! ## Where the windows are idle -/

/-- Window 0 is never idle. -/
theorem liveAt7_0 : ∀ t : Fin cfg7.N, cfg7.idle 0 (grid7.coords t) = false := by decide +kernel
/-- Window 1 is never idle. -/
theorem liveAt7_1 : ∀ t : Fin cfg7.N, cfg7.idle 1 (grid7.coords t) = false := by decide +kernel
/-- Window 2 is never idle. -/
theorem liveAt7_2 : ∀ t : Fin cfg7.N, cfg7.idle 2 (grid7.coords t) = false := by decide +kernel
/-- Window 3 is never idle. -/
theorem liveAt7_3 : ∀ t : Fin cfg7.N, cfg7.idle 3 (grid7.coords t) = false := by decide +kernel
/-- Window 4 is never idle. -/
theorem liveAt7_4 : ∀ t : Fin cfg7.N, cfg7.idle 4 (grid7.coords t) = false := by decide +kernel
/-- At the first point output 5 is idle (nothing is stored into it) and its block is not written back. -/
theorem idleAt7_5_A : ∀ t : Fin cfg7.N, cond7_0 (grid7.coords t) → ¬cond7_1 (grid7.coords t) → cfg7.idle 5 (grid7.coords t) = true := by decide +kernel
theorem noFlush7_5_A : ∀ t : Fin cfg7.N, cond7_0 (grid7.coords t) → ¬cond7_1 (grid7.coords t) → (cfg7.win 5).flush t = false := by decide +kernel
/-- At the middle points output 5 is idle and its block is not written back. -/
theorem idleAt7_5_B : ∀ t : Fin cfg7.N, ¬cond7_0 (grid7.coords t) → ¬cond7_1 (grid7.coords t) → cfg7.idle 5 (grid7.coords t) = true := by decide +kernel
theorem noFlush7_5_B : ∀ t : Fin cfg7.N, ¬cond7_0 (grid7.coords t) → ¬cond7_1 (grid7.coords t) → (cfg7.win 5).flush t = false := by decide +kernel
/-- At the last point output 5 is live: the accumulator is copied into it. -/
theorem liveAt7_5_C : ∀ t : Fin cfg7.N, ¬cond7_0 (grid7.coords t) → cond7_1 (grid7.coords t) → cfg7.idle 5 (grid7.coords t) = false := by decide +kernel

/-- At the first point output 6 is idle (nothing is stored into it) and its block is not written back. -/
theorem idleAt7_6_A : ∀ t : Fin cfg7.N, cond7_0 (grid7.coords t) → ¬cond7_1 (grid7.coords t) → cfg7.idle 6 (grid7.coords t) = true := by decide +kernel
theorem noFlush7_6_A : ∀ t : Fin cfg7.N, cond7_0 (grid7.coords t) → ¬cond7_1 (grid7.coords t) → (cfg7.win 6).flush t = false := by decide +kernel
/-- At the middle points output 6 is idle and its block is not written back. -/
theorem idleAt7_6_B : ∀ t : Fin cfg7.N, ¬cond7_0 (grid7.coords t) → ¬cond7_1 (grid7.coords t) → cfg7.idle 6 (grid7.coords t) = true := by decide +kernel
theorem noFlush7_6_B : ∀ t : Fin cfg7.N, ¬cond7_0 (grid7.coords t) → ¬cond7_1 (grid7.coords t) → (cfg7.win 6).flush t = false := by decide +kernel
/-- At the last point output 6 is live: the accumulator is copied into it. -/
theorem liveAt7_6_C : ∀ t : Fin cfg7.N, ¬cond7_0 (grid7.coords t) → cond7_1 (grid7.coords t) → cfg7.idle 6 (grid7.coords t) = false := by decide +kernel

/-! ## The staging and accumulator memrefs -/

/-- One staging buffer of each output window, through which its contents are stated (the choice does not matter). -/
abbrev VO7_4 : View sig .tc .vmem S5000x128 .f32 := (Memref.whole cc7_stg4_0 : Memref sig .tc .vmem S5000x128 .f32).view
abbrev VO7_5 : View sig .tc .vmem S1x128 .f32 := (Memref.whole cc7_stg5_0 : Memref sig .tc .vmem S1x128 .f32).view
abbrev VO7_6 : View sig .tc .vmem S1x128 .f32 := (Memref.whole cc7_stg6_0 : Memref sig .tc .vmem S1x128 .f32).view
/-- Each window's current staging memref at point `t`, spelled as the pipeline passes it, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)
/-- The two accumulators: whole scoped buffers of the kernel's own, passed beside the windows. -/
abbrev scM7_0 : Memref sig .tc .vmem S1x128 .f32 := Memref.whole cc7_scratch0
abbrev scM7_1 : Memref sig .tc .vmem S1x128 .f32 := Memref.whole cc7_scratch1
/-- The accumulators as views: what they hold is stated through these. -/
abbrev VS7_0 : View sig .tc .vmem S1x128 .f32 := scM7_0.view
abbrev VS7_1 : View sig .tc .vmem S1x128 .f32 := scM7_1.view

/-- The region invariant with the two accumulators as memrefs owned at some contents, beside the unopened rest of
    the scoped buffers and the generator register: what the body obligation hands the run and takes back. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

end Cert.KernelIdeal.Hand

end
-- ==== Proof.KIRegion7RunA.lean ====
/- Region 7, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KIRegion7Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun7_A (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion7RunB.lean ====
/- Region 7, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KIRegion7Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun7_B (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KIRegion7RunC.lean ====
/- Region 7, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KIRegion7Runs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun7_C (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KIRegion7.lean ====
/- Region 7 of the program (custom_call 7): the per-region half of its frame proof, assembled from the three runs.
   What each control case leaves in the outputs and the two accumulators, read back from the pieces the runs found;
   the contents after every point (`outsAt7`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KIRegion7RunA
import proofs.«163161_j55817394979591_1_alg».proof.Proof.KIRegion7RunB
import proofs.«163161_j55817394979591_1_alg».proof.Proof.KIRegion7RunC

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves, read back -/

/-- What the first point leaves in output 4's staging buffer: the run's pieces read back over junk. -/
def out7_A_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) : Vec F S5000x128 .f32 :=
  VO7_4.read (Elt F) (VO7_4.writes (Elt F) VO7_4.junk (kernelRun7_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover7_A_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) (y : S5000x128.Idx) :
    ∃ pc ∈ (kernelRun7_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout7_A_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) : Vec F S1x128 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover7_A_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) (y : S1x128.Idx) :
    ∃ pc ∈ (kernelRun7_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout7_A_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) : Vec F S1x128 .f32 :=
  VS7_1.read (Elt F) (VS7_1.writes (Elt F) VS7_1.junk (kernelRun7_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover7_A_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) (y : S1x128.Idx) :
    ∃ pc ∈ (kernelRun7_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out7_B_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO7_4.read (Elt F) (VO7_4.writes (Elt F) VO7_4.junk (kernelRun7_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover7_B_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout7_B_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover7_B_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout7_B_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_1.read (Elt F) (VS7_1.writes (Elt F) VS7_1.junk (kernelRun7_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover7_B_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out7_C_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO7_4.read (Elt F) (VO7_4.writes (Elt F) VO7_4.junk (kernelRun7_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover7_C_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out7_C_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO7_5.read (Elt F) (VO7_5.writes (Elt F) VO7_5.junk (kernelRun7_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover7_C_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out7_C_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO7_6.read (Elt F) (VO7_6.writes (Elt F) VO7_6.junk (kernelRun7_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover7_C_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout7_C_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_0.read (Elt F) (VS7_0.writes (Elt F) VS7_0.junk (kernelRun7_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover7_C_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout7_C_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_1.read (Elt F) (VS7_1.writes (Elt F) VS7_1.junk (kernelRun7_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover7_C_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle7_5 : Vec F S1x128 .f32 := VO7_5.read (Elt F) VO7_5.junk
def idle7_6 : Vec F S1x128 .f32 := VO7_6.read (Elt F) VO7_6.junk

section Region7
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt7 (c : Dev nD) : (n : ℕ) → n < cfg7.N → (Vec F S5000x128 .f32 × Vec F S1x128 .f32 × Vec F S1x128 .f32 × Vec F S1x128 .f32 × Vec F S1x128 .f32)
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), idle7_5, idle7_6, sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : n + 1 = 19 then
      (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)
    else
      (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, idle7_5, idle7_6, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (h0 : t.val = 0) (h1 : ¬t.val = 19) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), idle7_5, idle7_6, sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact absurd h0 (Nat.succ_ne_zero n)

/-- `outsAt7` at a middle point: over what the point before left in the accumulators. -/
theorem outsAt7_B (c : Dev nD) (t : Fin cfg7.N) (h0 : ¬t.val = 0) (h1 : ¬t.val = 19) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, idle7_5, idle7_6, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt7` at the last point: over what the point before left in the accumulators. -/
theorem outsAt7_C (c : Dev nD) (t : Fin cfg7.N) (h0 : ¬t.val = 0) (h1 : t.val = 19) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The invariant before position `n`: before the first point the class's (both accumulators at anything); afterwards
    both accumulators at what the point before left in them, beside the unopened rest and the generator register. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2)) ∗ rest7 c) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): both accumulators at that point's contents. -/
theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2)) ∗ rest7 c) ∗ (∃ r, prngReg c r)) := rfl

/-- Before a point that is not the first: both accumulators at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2)) ∗ rest7 c) ∗ (∃ r, prngReg c r)) := by
  cases n with
  | zero => exact absurd rfl hz
  | succ n => rfl

/-! ## The pipeline's proof data -/

/-- The proof data of region 7 on core `c`: the arrays as the region finds them (`V`); after the body at point `t`
    each input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

/-- The proof data's arrays are the region-entry contents (the definition projected; `V` is never unfolded). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from by
      unfold Dat.leavesExact; rw [liveAt7_0 t], after7_0]
  rw [show (dat7 V c).leavesExact 1 t = owns (c : Thread nD τ) (ms7_1 t) fullShare ((dat7 V c).after 1 t) from by
      unfold Dat.leavesExact; rw [liveAt7_1 t], after7_1]
  rw [show (dat7 V c).leavesExact 2 t = owns (c : Thread nD τ) (ms7_2 t) fullShare ((dat7 V c).after 2 t) from by
      unfold Dat.leavesExact; rw [liveAt7_2 t], after7_2]
  rw [show (dat7 V c).leavesExact 3 t = owns (c : Thread nD τ) (ms7_3 t) fullShare ((dat7 V c).after 3 t) from by
      unfold Dat.leavesExact; rw [liveAt7_3 t], after7_3]
  rw [show (dat7 V c).leavesExact 4 t = owns (c : Thread nD τ) (ms7_4 t) fullShare ((dat7 V c).after 4 t) from by
      unfold Dat.leavesExact; rw [liveAt7_4 t], after7_4]
  by_cases h0 : t.val = 0
  · by_cases h1 : t.val = 19
    · exfalso; omega
    · rw [Dat.leavesExact_idle (dat7 V c) 5 t (idleAt7_5_A t ((hcond7_0 t).mpr h0) (fun h => h1 ((hcond7_1 t).mp h))) (noFlush7_5_A t ((hcond7_0 t).mpr h0) (fun h => h1 ((hcond7_1 t).mp h)))]
      rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
      rw [outsAt7_A V c t h0 h1]
      unfold out7_A_4 sout7_A_0 sout7_A_1; (try dsimp only)
      rw [PhiS7_castSucc V c t, PhiS7_zero V c _ _ h0, PhiA7_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_A c (grid7.coords t) _ _ _ _ _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover7_A_0 c _ _ _ _ _ _ _ _ _ _ _ _ _ _ _ _ _ _ _ _ _ _ _ _ _)
            unfold owns; iexists _; isplitr
            swap; · iexact HS1
            ipureintro; exact View.read_writes_of_cover _ _ _ _ _ (scover7_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_A_4 c _ _ _ _ _ _ _ _ _ _ _ _ _ _ _ _ _ _ _ _ _ _ _ _ _)
      isplitl [H5]; · iexists _; iexact H5
      iexists _; iexact H6
  · by_cases h1 : t.val = 19
    · rw [show (dat7 V c).leavesExact 5 t = owns (c : Thread nD τ) (ms7_5 t) fullShare ((dat7 V c).after 5 t) from by
          unfold Dat.leavesExact; rw [liveAt7_5_C t (fun h => h0 ((hcond7_0 t).mp h)) ((hcond7_1 t).mpr h1)], after7_5]
      rw [show (dat7 V c).leavesExact 6 t = owns (c : Thread nD τ) (ms7_6 t) fullShare ((dat7 V c).after 6 t) from by
          unfold Dat.leavesExact; rw [liveAt7_6_C t (fun h => h0 ((hcond7_0 t).mp h)) ((hcond7_1 t).mpr h1)], after7_6]
      rw [outsAt7_C V c t h0 h1]
      unfold out7_C_4 out7_C_5 out7_C_6 sout7_C_0 sout7_C_1; (try dsimp only)
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _ _ _ _ _ _ _)
            unfold owns; iexists _; isplitr
            swap; · iexact HS1
            ipureintro; exact View.read_writes_of_cover _ _ _ _ _ (scover7_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_C_5 c _ _ _ _ _ _ _ _ _ _ _ _ _ _ _ _ _ _ _ _ _ _ _ _ _ _ _)
      unfold owns; iexists _; isplitr
      swap; · iexact H6
      ipureintro; exact View.read_writes_of_cover _ _ _ _ _ (cover7_C_6 c _ _ _ _ _ _ _ _ _ _ _ _ _ _ _ _ _ _ _ _ _ _ _ _ _ _ _)
    · rw [Dat.leavesExact_idle (dat7 V c) 5 t (idleAt7_5_B t (fun h => h0 ((hcond7_0 t).mp h)) (fun h => h1 ((hcond7_1 t).mp h))) (noFlush7_5_B t (fun h => h0 ((hcond7_0 t).mp h)) (fun h => h1 ((hcond7_1 t).mp h)))]
      rw [Dat.leavesExact_idle (dat7 V c) 6 t (idleAt7_6_B t (fun h => h0 ((hcond7_0 t).mp h)) (fun h => h1 ((hcond7_1 t).mp h))) (noFlush7_6_B t (fun h => h0 ((hcond7_0 t).mp h)) (fun h => h1 ((hcond7_1 t).mp h)))]
      rw [outsAt7_B V c t h0 h1]
      unfold out7_B_4 sout7_B_0 sout7_B_1; (try dsimp only)
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _ _ _ _ _ _ _)
            unfold owns; iexists _; isplitr
            swap; · iexact HS1
            ipureintro; exact View.read_writes_of_cover _ _ _ _ _ (scover7_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _ _ _ _ _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 20 := N_7; omega)

end Region7

end Cert.KernelIdeal.Hand

end
-- ==== Proof.KIReg7.lean ====
/-
  Region 7's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KIFrameKit
import proofs.«163161_j55817394979591_1_alg».proof.Proof.KIRegion7
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 7 is this region's at the entry contents, and any exit
    contents that hold the region's arrays as the pipeline leaves them (`hF`) and agree with the entry contents elsewhere (`hrest`). -/
def reg7 (h : ∀ c, pdats 7 c = dat7 (fun c b => Vin c b) c)
    (hF : ∀ c (w : Fin cfg7.W), (pdats 7 c).arrAt w cfg7.N = Vout c (Pipeline.arrRef spec7 w))
    (hrest : ∀ c (b : Ref sig .tc), b ∉ Finset.univ.image (Pipeline.arrRef spec7) → Vout c b = Vin c b) :
    RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [h c]; exact (body_obligation7 (fun c b => Vin c b) c).loose
  hwaits := Pipeline.hwaits_of_owed_zero _ _ _ _ L lv 7 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec7 c (fun b => Vin c b)
  hentry c := by
    rw [Pipeline.ownSems0_none]
    have hsplit := Pipeline.arrays_of_unscopedBufs (p := 7) (pcfgs (F := F)) adm pdats launch7.win launch7.arr_whole c
      ((pdats 7 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin7 (fun c b => Vin c b) c)
    unfold Pipeline.ΦA
    iintro ⟨Hp, -, Hr⟩
    isplitl [Hr]; · iexact Hr
    iexact Hp
  hout c := by
    rw [Pipeline.ownSems0_none, h c]
    refine (hout7 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun _ => by rw [h c]; rfl)
      (fun b => Vin c b) (fun b => Vout c b) ((pdats 7 c).arrAt · cfg7.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIReg8.lean ====
/-
  Region 8's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KIFrameKit
import proofs.«163161_j55817394979591_1_alg».proof.Proof.KIRegion8
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 8 is this region's at the entry contents, and any exit
    contents that hold the region's arrays as the pipeline leaves them (`hF`) and agree with the entry contents elsewhere (`hrest`). -/
def reg8 (h : ∀ c, pdats 8 c = dat8 (fun c b => Vin c b) c)
    (hF : ∀ c (w : Fin cfg8.W), (pdats 8 c).arrAt w cfg8.N = Vout c (Pipeline.arrRef spec8 w))
    (hrest : ∀ c (b : Ref sig .tc), b ∉ Finset.univ.image (Pipeline.arrRef spec8) → Vout c b = Vin c b) :
    RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [h c]; exact (body_obligation8 (fun c b => Vin c b) c).loose
  hwaits := Pipeline.hwaits_of_owed_zero _ _ _ _ L lv 8 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec8 c (fun b => Vin c b)
  hentry c := by
    rw [Pipeline.ownSems0_none]
    have hsplit := Pipeline.arrays_of_unscopedBufs (p := 8) (pcfgs (F := F)) adm pdats launch8.win launch8.arr_whole c
      ((pdats 8 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 8 c).Φ 0 = Pipeline.ΦA spec8 c from by rw [h c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c pdats ((pdats 8 c).share_full fun _ => by rw [h c]; rfl)
      (fun b => Vin c b) (fun b => Vout c b) ((pdats 8 c).arrAt · cfg8.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.lean ====
/-
  The nine-region program's run, assembled: the boundaries' contents and the proof data family with the four
  accumulating regions' data filled in, one record per region, and the several-region launch theorem. Every weakly fair execution terminates with
  the result buffer at what the last region's pipeline leaves in it and every argument as launched.
-/
import proofs.«163161_j55817394979591_1_alg».proof.Proof.KIStages
import proofs.«163161_j55817394979591_1_alg».proof.Proof.KIFrameKit
import proofs.«163161_j55817394979591_1_alg».proof.Proof.KIReg0
import proofs.«163161_j55817394979591_1_alg».proof.Proof.KIReg1
import proofs.«163161_j55817394979591_1_alg».proof.Proof.KIReg2
import proofs.«163161_j55817394979591_1_alg».proof.Proof.KIReg3
import proofs.«163161_j55817394979591_1_alg».proof.Proof.KIReg4
import proofs.«163161_j55817394979591_1_alg».proof.Proof.KIReg5
import proofs.«163161_j55817394979591_1_alg».proof.Proof.KIReg6
import proofs.«163161_j55817394979591_1_alg».proof.Proof.KIReg7
import proofs.«163161_j55817394979591_1_alg».proof.Proof.KIReg8

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Region 0's record at the staged contents. -/
def R0 : RegionSeg (pcfgs (F := F)) adm (pd m dat1 dat3 dat5 dat7) () defs₀ 𝒱₀ L lv 0 :=
  reg0 (pd m dat1 dat3 dat5 dat7) (S3 m) (S4 m) (fun _ => rfl) (fun c => hF0 m dat1 dat3 dat5 dat7 c) (fun c => hrest0 m c)
/-- Region 1's record at the staged contents. -/
def R1 : RegionSeg (pcfgs (F := F)) adm (pd m dat1 dat3 dat5 dat7) () defs₀ 𝒱₀ L lv 1 :=
  reg1 (pd m dat1 dat3 dat5 dat7) (S5 m) (S6 m dat1) (fun _ => rfl) (fun c => hF1 m dat1 dat3 dat5 dat7 (fun V c w => A_eq1 V c w) c) (fun c => hrest1 m dat1 c)
/-- Region 2's record at the staged contents. -/
def R2 : RegionSeg (pcfgs (F := F)) adm (pd m dat1 dat3 dat5 dat7) () defs₀ 𝒱₀ L lv 2 :=
  reg2 (pd m dat1 dat3 dat5 dat7) (S7 m dat1) (S8 m dat1) (fun _ => rfl) (fun c => hF2 m dat1 dat3 dat5 dat7 c) (fun c => hrest2 m dat1 c)
/-- Region 3's record at the staged contents. -/
def R3 : RegionSeg (pcfgs (F := F)) adm (pd m dat1 dat3 dat5 dat7) () defs₀ 𝒱₀ L lv 3 :=
  reg3 (pd m dat1 dat3 dat5 dat7) (S9 m dat1) (S10 m dat1 dat3) (fun _ => rfl) (fun c => hF3 m dat1 dat3 dat5 dat7 (fun V c w => A_eq3 V c w) c) (fun c => hrest3 m dat1 dat3 c)
/-- Region 4's record at the staged contents. -/
def R4 : RegionSeg (pcfgs (F := F)) adm (pd m dat1 dat3 dat5 dat7) () defs₀ 𝒱₀ L lv 4 :=
  reg4 (pd m dat1 dat3 dat5 dat7) (S11 m dat1 dat3) (S12 m dat1 dat3) (fun _ => rfl) (fun c => hF4 m dat1 dat3 dat5 dat7 c) (fun c => hrest4 m dat1 dat3 c)
/-- Region 5's record at the staged contents. -/
def R5 : RegionSeg (pcfgs (F := F)) adm (pd m dat1 dat3 dat5 dat7) () defs₀ 𝒱₀ L lv 5 :=
  reg5 (pd m dat1 dat3 dat5 dat7) (S13 m dat1 dat3) (S14 m dat1 dat3 dat5) (fun _ => rfl) (fun c => hF5 m dat1 dat3 dat5 dat7 (fun V c w => A_eq5 V c w) c) (fun c => hrest5 m dat1 dat3 dat5 c)
/-- Region 6's record at the staged contents. -/
def R6 : RegionSeg (pcfgs (F := F)) adm (pd m dat1 dat3 dat5 dat7) () defs₀ 𝒱₀ L lv 6 :=
  reg6 (pd m dat1 dat3 dat5 dat7) (S15 m dat1 dat3 dat5) (S16 m dat1 dat3 dat5) (fun _ => rfl) (fun c => hF6 m dat1 dat3 dat5 dat7 c) (fun c => hrest6 m dat1 dat3 dat5 c)
/-- Region 7's record at the staged contents. -/
def R7 : RegionSeg (pcfgs (F := F)) adm (pd m dat1 dat3 dat5 dat7) () defs₀ 𝒱₀ L lv 7 :=
  reg7 (pd m dat1 dat3 dat5 dat7) (S17 m dat1 dat3 dat5) (S18 m dat1 dat3 dat5 dat7) (fun _ => rfl) (fun c => hF7 m dat1 dat3 dat5 dat7 (fun V c w => A_eq7 V c w) c) (fun c => hrest7 m dat1 dat3 dat5 dat7 c)
/-- Region 8's record at the staged contents. -/
def R8 : RegionSeg (pcfgs (F := F)) adm (pd m dat1 dat3 dat5 dat7) () defs₀ 𝒱₀ L lv 8 :=
  reg8 (pd m dat1 dat3 dat5 dat7) (S19 m dat1 dat3 dat5 dat7) (S20 m dat1 dat3 dat5 dat7) (fun _ => rfl) (fun c => hF8 m dat1 dat3 dat5 dat7 c) (fun c => hrest8 m dat1 dat3 dat5 dat7 c)

set_option backward.isDefEq.respectTransparency.types false in
/-- THE RUN. -/
theorem run : θ_run defs (onTc (τ := τ) (main (F := F))) ⟨m, fun _ => 0, ρ⟩ (fun r => ∀ c : Dev nD,
      r.2.mem ((c.tc : Thread nD τ).loc main_v150) = o_main_v150 m dat1 dat3 dat5 dat7 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (outs_main_v150 m dat1 dat3 dat5 dat7 20 c), (h c).2⟩)
    (run_of_regions m ρ (outs m dat1 dat3 dat5 dat7) (pd m dat1 dat3 dat5 dat7)
    (R0 m) (fun c => .rfl) (fun c => by rw [V4_eq m dat1 dat3 dat5 dat7 c]; exact .rfl)
    (R1 m) (fun c => by rw [V5_eq m dat1 dat3 dat5 dat7 c]; exact .rfl) (fun c => by rw [V6_eq m dat1 dat3 dat5 dat7 c]; exact .rfl)
    (R2 m) (fun c => by rw [V7_eq m dat1 dat3 dat5 dat7 c]; exact .rfl) (fun c => by rw [V8_eq m dat1 dat3 dat5 dat7 c]; exact .rfl)
    (R3 m) (fun c => by rw [V9_eq m dat1 dat3 dat5 dat7 c]; exact .rfl) (fun c => by rw [V10_eq m dat1 dat3 dat5 dat7 c]; exact .rfl)
    (R4 m) (fun c => by rw [V11_eq m dat1 dat3 dat5 dat7 c]; exact .rfl) (fun c => by rw [V12_eq m dat1 dat3 dat5 dat7 c]; exact .rfl)
    (R5 m) (fun c => by rw [V13_eq m dat1 dat3 dat5 dat7 c]; exact .rfl) (fun c => by rw [V14_eq m dat1 dat3 dat5 dat7 c]; exact .rfl)
    (R6 m) (fun c => by rw [V15_eq m dat1 dat3 dat5 dat7 c]; exact .rfl) (fun c => by rw [V16_eq m dat1 dat3 dat5 dat7 c]; exact .rfl)
    (R7 m) (fun c => by rw [V17_eq m dat1 dat3 dat5 dat7 c]; exact .rfl) (fun c => by rw [V18_eq m dat1 dat3 dat5 dat7 c]; exact .rfl)
    (R8 m) (fun c => by rw [V19_eq m dat1 dat3 dat5 dat7 c]; exact .rfl) (fun c => by rw [V20_eq m dat1 dat3 dat5 dat7 c]; exact .rfl))

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run m ρ)

end Cert.KernelIdeal.Hand

end
-- ==== Proof.KRegion0.lean ====
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Tactic

/-!
# Region 0 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: an unfetched window's block index has not
    moved since the point before.  Window 0 (the row block of x) is fetched at every point; -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- window 1 (the weight matrix) has a constant block index and is fetched once; -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and so is window 2 (the bias row). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store go through the whole block -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 3's staging buffer after the body, from the input windows' blocks: the one whole-block store's payload
    (x narrowed to bf16, times the narrowed weight matrix, accumulated from zero, plus the bias row on every row). -/
def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The one store is a single tile the size of the block, so it covers the buffer: the tiling is checked over
    block indices (one per axis), never over the block's elements. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents and the output's at anything, runs to
    the continuation holding the inputs' as they were and the output's at `out0_3` of the inputs': the printed
    function is its skeleton: three loads, an unused load of the output buffer, one store of the whole block. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KRegion2.lean ====
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Tactic

/-!
# Region 2 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: an unfetched window's block index has not
    moved since the point before.  Window 0 (the row block of y) is fetched at every point; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- window 1 (the row of means) has a constant block index and is fetched once; -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- so is window 2 (the row of variances), -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- window 3 (the row of scales) -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- and window 4 (the row of shifts). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store go through the whole block -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out2_5 (x0 : Vec F S5000x128 .f32) (x1 x2 x3 x4 : Vec F S1x128 .f32) : Vec F S5000x128 .f32 :=
  View.canon [⟨r2_0, k2_pay1 (View.ld x0 r2_0) (View.ld x2 r2_1) (View.ld x3 r2_1) (View.ld x1 r2_1) (View.ld x4 r2_1)⟩]

/-- The one store is a single tile the size of the block, so it covers the buffer: the tiling is checked over
    block indices (one per axis), never over the block's elements. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents and the output's at anything, runs to
    the continuation holding the inputs' as they were and the output's at `out2_5` of the inputs': the printed
    function is its skeleton: five loads, an unused load of the output buffer, one store of the whole block. -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.KRegion4.lean ====
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Tactic

/-!
# Region 4 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place: an unfetched window's block index has not
    moved since the point before.  Window 0 (the row block of y) is fetched at every point; -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- window 1 (the row of means) has a constant block index and is fetched once; -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- so is window 2 (the row of variances), -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- window 3 (the row of scales) -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- and window 4 (the row of shifts). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store go through the whole block -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out4_5 (x0 : Vec F S5000x128 .f32) (x1 x2 x3 x4 : Vec F S1x128 .f32) : Vec F S5000x128 .f32 :=
  View.canon [⟨r4_0, k4_pay1 (View.ld x0 r4_0) (View.ld x2 r4_1) (View.ld x3 r4_1) (View.ld x1 r4_1) (View.ld x4 r4_1)⟩]

/-- The one store is a single tile the size of the block, so it covers the buffer: the tiling is checked over
    block indices (one per axis), never over the block's elements. -/
theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents and the output's at anything, runs to
    the continuation holding the inputs' as they were and the output's at `out4_5` of the inputs': the printed
    function is its skeleton: five loads, an unused load of the output buffer, one store of the whole block. -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__norm_relu_kernel i arg1 harg1 arg2 harg2 arg3 harg3 arg4 harg4 arg5 harg5 arg6 harg6) K := by
  simp only [cc4__norm_relu_kernel_eq_skeleton]; unfold cc4__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point
    `t` each input's buffer at its block and the output's at `out4_5` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by
  dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KRegion6.lean ====
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Tactic

/-!
# Region 6 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: an unfetched window's block index has not
    moved since the point before.  Window 0 (the row block of y) is fetched at every point; -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- window 1 (the row of means) has a constant block index and is fetched once; -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- so is window 2 (the row of variances), -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- window 3 (the row of scales) -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- and window 4 (the row of shifts). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each load and the store go through the whole block -/

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out6_5 (x0 : Vec F S5000x128 .f32) (x1 x2 x3 x4 : Vec F S1x128 .f32) : Vec F S5000x128 .f32 :=
  View.canon [⟨r6_0, k6_pay1 (View.ld x0 r6_0) (View.ld x2 r6_1) (View.ld x3 r6_1) (View.ld x1 r6_1) (View.ld x4 r6_1)⟩]

/-- The one store is a single tile the size of the block, so it covers the buffer: the tiling is checked over
    block indices (one per axis), never over the block's elements. -/
theorem cover6_5 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs, the inputs' at read contents and the output's at anything, runs to
    the continuation holding the inputs' as they were and the output's at `out6_5` of the inputs': the printed
    function is its skeleton: five loads, an unused load of the output buffer, one store of the whole block. -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__norm_relu_kernel i arg1 harg1 arg2 harg2 arg3 harg3 arg4 harg4 arg5 harg5 arg6 harg6) K := by
  simp only [cc6__norm_relu_kernel_eq_skeleton]; unfold cc6__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point
    `t` each input's buffer at its block and the output's at `out6_5` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by
  dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KRegion8.lean ====
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Tactic

/-!
# Region 8 of @main: the body half of its frame proof

The region's kernel has one control case: it loads each input window's whole staging block, computes, and stores
the whole output block once.  So what it leaves in the output window's staging buffer is a closed function of the
input blocks at the grid point (the single store's payload laid over the buffer), and what it finds in an input
window's staging buffer is that window's block at the point, whether or not the block was fetched there (an
unfetched window's block index has not moved).  Everything is stated at a parameter `V`: the TensorCore's
buffer contents when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not, for any proof
    data whose array is `V`'s and whose body leaves the block in place: an unfetched window's block index has not
    moved since the point before.  Window 0 (the row block of y) is fetched at every point; -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- window 1 (the row of means) has a constant block index and is fetched once; -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- so is window 2 (the row of variances), -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- window 3 (the row of scales) -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- and window 4 (the row of shifts). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each load and the store go through the whole block -/

abbrev r8_0 : Rect S5000x128 := Rect.unit (s := S5000x128) ![0, 0] S5000x128.size inb_S5000x128_S5000x128_0_0
abbrev r8_1 : Rect S1x128 := Rect.unit (s := S1x128) ![0, 0] S1x128.size inb_S1x128_S1x128_0_0

/-! ## What the body leaves in the output window's buffer -/

/-- Window 5's staging buffer after the body, from the input windows' blocks `x0 … x4` (y, mean, variance, scale,
    shift): the one whole-block store's payload, max(scale · (y − mean) · rsqrt(variance + ε) + shift, 0), each
    row vector spread over the 5000 rows.  The payload takes its row operands in the order the body loads them:
    variance, scale, mean, shift. -/
def out8_5 (x0 : Vec F S5000x128 .f32) (x1 x2 x3 x4 : Vec F S1x128 .f32) : Vec F S5000x128 .f32 :=
  View.canon [⟨r8_0, k8_pay1 (View.ld x0 r8_0) (View.ld x2 r8_1) (View.ld x3 r8_1) (View.ld x1 r8_1) (View.ld x4 r8_1)⟩]

/-- The one store is a single tile the size of the block, so it covers the buffer: the tiling is checked over
    block indices (one per axis), never over the block's elements. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the inputs' at read contents and the output's at anything, runs to
    the continuation holding the inputs' as they were and the output's at `out8_5` of the inputs': the printed
    function is its skeleton: five loads, an unused load of the output buffer, one store of the whole block. -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__norm_relu_kernel i arg1 harg1 arg2 harg2 arg3 harg3 arg4 harg4 arg5 harg5 arg6 harg6) K := by
  simp only [cc8__norm_relu_kernel_eq_skeleton]; unfold cc8__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at point
    `t` each input's buffer at its block and the output's at `out8_5` of the input blocks; the invariant is the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.KStages.lean ====
/-
  The contents of the unscoped buffers at each of the program's twenty boundaries, written stage by stage: a host
  stretch applies its operations; a region leaves in each of its output arrays what its pipeline's proof data say the
  write-backs leave there, and every other buffer as it was. With them: the nine pipelines' proof data as one family,
  the family of what the regions leave, and for each region the two facts its record needs — after it every array of
  the region holds what the pipeline leaves, and every other buffer is untouched.
  The four accumulating regions' proof data are parameters here (any data whose arrays are the entry contents).
-/
import proofs.«163161_j55817394979591_1_alg».proof.Proof.Gen.Kernel.Regions
import proofs.«163161_j55817394979591_1_alg».proof.Proof.KRegion0
import proofs.«163161_j55817394979591_1_alg».proof.Proof.KRegion2
import proofs.«163161_j55817394979591_1_alg».proof.Proof.KRegion4
import proofs.«163161_j55817394979591_1_alg».proof.Proof.KRegion6
import proofs.«163161_j55817394979591_1_alg».proof.Proof.KRegion8

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]

/-- A region's entry contents, buffer by buffer. -/
abbrev Entry (F : FTy → Type) [FloatOps F] : Type := (c : Dev nD) → (b : Ref sig .tc) → Buf (Elt F) ((c : Thread nD τ).loc b)

variable (m : (ℓ : Loc nD τ sig) → Buf (Elt F) ℓ)
variable (D1 : Entry F → (c : Dev nD) → Dat τ (Elt F) Unit ℕ (UR sig nD τ) ℕ cfg1 c)
variable (D3 : Entry F → (c : Dev nD) → Dat τ (Elt F) Unit ℕ (UR sig nD τ) ℕ cfg3 c)
variable (D5 : Entry F → (c : Dev nD) → Dat τ (Elt F) Unit ℕ (UR sig nD τ) ℕ cfg5 c)
variable (D7 : Entry F → (c : Dev nD) → Dat τ (Elt F) Unit ℕ (UR sig nD τ) ℕ cfg7 c)

/-! ## The boundaries' contents -/

/-- Before region 0: the launch contents through the first three host stretches. -/
def S3 (c : Dev nD) : Valuation τ sig (Elt F) := V3 m c
/-- What region 0 leaves in `main_v26`. -/
def o_main_v26 (c : Dev nD) : Buf (Elt F) ((c : Thread nD τ).loc main_v26) := (dat0 (fun c b => S3 m c b) c).arrAt 3 cfg0.N
/-- After region 0. -/
def S4 (c : Dev nD) : Valuation τ sig (Elt F) := Function.update (S3 m c) main_v26 (o_main_v26 m c)
/-- After the host stretch that follows it. -/
def S5 (c : Dev nD) : Valuation τ sig (Elt F) := StableHlo.after hostOps1 (S4 m c)
/-- What region 1 leaves in `main_v44_0`. -/
def o_main_v44_0 (c : Dev nD) : Buf (Elt F) ((c : Thread nD τ).loc main_v44_0) := (D1 (fun c b => S5 m c b) c).arrAt 4 cfg1.N
/-- What region 1 leaves in `main_v44_1`. -/
def o_main_v44_1 (c : Dev nD) : Buf (Elt F) ((c : Thread nD τ).loc main_v44_1) := (D1 (fun c b => S5 m c b) c).arrAt 5 cfg1.N
/-- What region 1 leaves in `main_v44_2`. -/
def o_main_v44_2 (c : Dev nD) : Buf (Elt F) ((c : Thread nD τ).loc main_v44_2) := (D1 (fun c b => S5 m c b) c).arrAt 6 cfg1.N
/-- After region 1. -/
def S6 (c : Dev nD) : Valuation τ sig (Elt F) := Function.update (Function.update (Function.update (S5 m c) main_v44_0 (o_main_v44_0 m D1 c)) main_v44_1 (o_main_v44_1 m D1 c)) main_v44_2 (o_main_v44_2 m D1 c)
/-- After the host stretch that follows it. -/
def S7 (c : Dev nD) : Valuation τ sig (Elt F) := StableHlo.after hostOps2 (S6 m D1 c)
/-- What region 2 leaves in `main_v57`. -/
def o_main_v57 (c : Dev nD) : Buf (Elt F) ((c : Thread nD τ).loc main_v57) := (dat2 (fun c b => S7 m D1 c b) c).arrAt 5 cfg2.N
/-- After region 2. -/
def S8 (c : Dev nD) : Valuation τ sig (Elt F) := Function.update (S7 m D1 c) main_v57 (o_main_v57 m D1 c)
/-- After the host stretch that follows it. -/
def S9 (c : Dev nD) : Valuation τ sig (Elt F) := StableHlo.after hostOps3 (S8 m D1 c)
/-- What region 3 leaves in `main_v75_0`. -/
def o_main_v75_0 (c : Dev nD) : Buf (Elt F) ((c : Thread nD τ).loc main_v75_0) := (D3 (fun c b => S9 m D1 c b) c).arrAt 4 cfg3.N
/-- What region 3 leaves in `main_v75_1`. -/
def o_main_v75_1 (c : Dev nD) : Buf (Elt F) ((c : Thread nD τ).loc main_v75_1) := (D3 (fun c b => S9 m D1 c b) c).arrAt 5 cfg3.N
/-- What region 3 leaves in `main_v75_2`. -/
def o_main_v75_2 (c : Dev nD) : Buf (Elt F) ((c : Thread nD τ).loc main_v75_2) := (D3 (fun c b => S9 m D1 c b) c).arrAt 6 cfg3.N
/-- After region 3. -/
def S10 (c : Dev nD) : Valuation τ sig (Elt F) := Function.update (Function.update (Function.update (S9 m D1 c) main_v75_0 (o_main_v75_0 m D1 D3 c)) main_v75_1 (o_main_v75_1 m D1 D3 c)) main_v75_2 (o_main_v75_2 m D1 D3 c)
/-- After the host stretch that follows it. -/
def S11 (c : Dev nD) : Valuation τ sig (Elt F) := StableHlo.after hostOps4 (S10 m D1 D3 c)
/-- What region 4 leaves in `main_v88`. -/
def o_main_v88 (c : Dev nD) : Buf (Elt F) ((c : Thread nD τ).loc main_v88) := (dat4 (fun c b => S11 m D1 D3 c b) c).arrAt 5 cfg4.N
/-- After region 4. -/
def S12 (c : Dev nD) : Valuation τ sig (Elt F) := Function.update (S11 m D1 D3 c) main_v88 (o_main_v88 m D1 D3 c)
/-- After the host stretch that follows it. -/
def S13 (c : Dev nD) : Valuation τ sig (Elt F) := StableHlo.after hostOps5 (S12 m D1 D3 c)
/-- What region 5 leaves in `main_v106_0`. -/
def o_main_v106_0 (c : Dev nD) : Buf (Elt F) ((c : Thread nD τ).loc main_v106_0) := (D5 (fun c b => S13 m D1 D3 c b) c).arrAt 4 cfg5.N
/-- What region 5 leaves in `main_v106_1`. -/
def o_main_v106_1 (c : Dev nD) : Buf (Elt F) ((c : Thread nD τ).loc main_v106_1) := (D5 (fun c b => S13 m D1 D3 c b) c).arrAt 5 cfg5.N
/-- What region 5 leaves in `main_v106_2`. -/
def o_main_v106_2 (c : Dev nD) : Buf (Elt F) ((c : Thread nD τ).loc main_v106_2) := (D5 (fun c b => S13 m D1 D3 c b) c).arrAt 6 cfg5.N
/-- After region 5. -/
def S14 (c : Dev nD) : Valuation τ sig (Elt F) := Function.update (Function.update (Function.update (S13 m D1 D3 c) main_v106_0 (o_main_v106_0 m D1 D3 D5 c)) main_v106_1 (o_main_v106_1 m D1 D3 D5 c)) main_v106_2 (o_main_v106_2 m D1 D3 D5 c)
/-- After the host stretch that follows it. -/
def S15 (c : Dev nD) : Valuation τ sig (Elt F) := StableHlo.after hostOps6 (S14 m D1 D3 D5 c)
/-- What region 6 leaves in `main_v119`. -/
def o_main_v119 (c : Dev nD) : Buf (Elt F) ((c : Thread nD τ).loc main_v119) := (dat6 (fun c b => S15 m D1 D3 D5 c b) c).arrAt 5 cfg6.N
/-- After region 6. -/
def S16 (c : Dev nD) : Valuation τ sig (Elt F) := Function.update (S15 m D1 D3 D5 c) main_v119 (o_main_v119 m D1 D3 D5 c)
/-- After the host stretch that follows it. -/
def S17 (c : Dev nD) : Valuation τ sig (Elt F) := StableHlo.after hostOps7 (S16 m D1 D3 D5 c)
/-- What region 7 leaves in `main_v137_0`. -/
def o_main_v137_0 (c : Dev nD) : Buf (Elt F) ((c : Thread nD τ).loc main_v137_0) := (D7 (fun c b => S17 m D1 D3 D5 c b) c).arrAt 4 cfg7.N
/-- What region 7 leaves in `main_v137_1`. -/
def o_main_v137_1 (c : Dev nD) : Buf (Elt F) ((c : Thread nD τ).loc main_v137_1) := (D7 (fun c b => S17 m D1 D3 D5 c b) c).arrAt 5 cfg7.N
/-- What region 7 leaves in `main_v137_2`. -/
def o_main_v137_2 (c : Dev nD) : Buf (Elt F) ((c : Thread nD τ).loc main_v137_2) := (D7 (fun c b => S17 m D1 D3 D5 c b) c).arrAt 6 cfg7.N
/-- After region 7. -/
def S18 (c : Dev nD) : Valuation τ sig (Elt F) := Function.update (Function.update (Function.update (S17 m D1 D3 D5 c) main_v137_0 (o_main_v137_0 m D1 D3 D5 D7 c)) main_v137_1 (o_main_v137_1 m D1 D3 D5 D7 c)) main_v137_2 (o_main_v137_2 m D1 D3 D5 D7 c)
/-- After the host stretch that follows it. -/
def S19 (c : Dev nD) : Valuation τ sig (Elt F) := StableHlo.after hostOps8 (S18 m D1 D3 D5 D7 c)
/-- What region 8 leaves in `main_v150`. -/
def o_main_v150 (c : Dev nD) : Buf (Elt F) ((c : Thread nD τ).loc main_v150) := (dat8 (fun c b => S19 m D1 D3 D5 D7 c b) c).arrAt 5 cfg8.N
/-- After region 8. -/
def S20 (c : Dev nD) : Valuation τ sig (Elt F) := Function.update (S19 m D1 D3 D5 D7 c) main_v150 (o_main_v150 m D1 D3 D5 D7 c)

/-! ## The proof data as one family -/

/-- Every pipeline's proof data, each at its region's entry contents. -/
def pd : (p : Fin 9) → (c : Dev nD) → Dat τ (Elt F) Unit ℕ (UR sig nD τ) ℕ (cfgs p) c
  | ⟨0, _⟩ => fun c => dat0 (fun c b => S3 m c b) c
  | ⟨1, _⟩ => fun c => D1 (fun c b => S5 m c b) c
  | ⟨2, _⟩ => fun c => dat2 (fun c b => S7 m D1 c b) c
  | ⟨3, _⟩ => fun c => D3 (fun c b => S9 m D1 c b) c
  | ⟨4, _⟩ => fun c => dat4 (fun c b => S11 m D1 D3 c b) c
  | ⟨5, _⟩ => fun c => D5 (fun c b => S13 m D1 D3 c b) c
  | ⟨6, _⟩ => fun c => dat6 (fun c b => S15 m D1 D3 D5 c b) c
  | ⟨7, _⟩ => fun c => D7 (fun c b => S17 m D1 D3 D5 c b) c
  | ⟨8, _⟩ => fun c => dat8 (fun c b => S19 m D1 D3 D5 D7 c b) c
  | ⟨_ + 9, h⟩ => absurd h (Nat.not_lt.2 (Nat.le_add_left _ _))

/-! ## What the regions leave, as one family -/

/-- The regions' leftovers, by buffer (each buffer is some region's output at most once, so the item number is not consulted). -/
def outs : Outs (F := F) := fun _ r c =>
  if h : r = main_v26 then h ▸ o_main_v26 m c else
  if h : r = main_v44_0 then h ▸ o_main_v44_0 m D1 c else
  if h : r = main_v44_1 then h ▸ o_main_v44_1 m D1 c else
  if h : r = main_v44_2 then h ▸ o_main_v44_2 m D1 c else
  if h : r = main_v57 then h ▸ o_main_v57 m D1 c else
  if h : r = main_v75_0 then h ▸ o_main_v75_0 m D1 D3 c else
  if h : r = main_v75_1 then h ▸ o_main_v75_1 m D1 D3 c else
  if h : r = main_v75_2 then h ▸ o_main_v75_2 m D1 D3 c else
  if h : r = main_v88 then h ▸ o_main_v88 m D1 D3 c else
  if h : r = main_v106_0 then h ▸ o_main_v106_0 m D1 D3 D5 c else
  if h : r = main_v106_1 then h ▸ o_main_v106_1 m D1 D3 D5 c else
  if h : r = main_v106_2 then h ▸ o_main_v106_2 m D1 D3 D5 c else
  if h : r = main_v119 then h ▸ o_main_v119 m D1 D3 D5 c else
  if h : r = main_v137_0 then h ▸ o_main_v137_0 m D1 D3 D5 D7 c else
  if h : r = main_v137_1 then h ▸ o_main_v137_1 m D1 D3 D5 D7 c else
  if h : r = main_v137_2 then h ▸ o_main_v137_2 m D1 D3 D5 D7 c else
  if h : r = main_v150 then h ▸ o_main_v150 m D1 D3 D5 D7 c else
  m ((c : Thread nD τ).loc r)
theorem outs_main_v26 (J : ℕ) (c : Dev nD) : outs m D1 D3 D5 D7 J main_v26 c = o_main_v26 m c := by
  unfold outs; rw [dif_pos rfl]
theorem outs_main_v44_0 (J : ℕ) (c : Dev nD) : outs m D1 D3 D5 D7 J main_v44_0 c = o_main_v44_0 m D1 c := by
  unfold outs; rw [dif_neg (by decide), dif_pos rfl]
theorem outs_main_v44_1 (J : ℕ) (c : Dev nD) : outs m D1 D3 D5 D7 J main_v44_1 c = o_main_v44_1 m D1 c := by
  unfold outs; rw [dif_neg (by decide), dif_neg (by decide), dif_pos rfl]
theorem outs_main_v44_2 (J : ℕ) (c : Dev nD) : outs m D1 D3 D5 D7 J main_v44_2 c = o_main_v44_2 m D1 c := by
  unfold outs; rw [dif_neg (by decide), dif_neg (by decide), dif_neg (by decide), dif_pos rfl]
theorem outs_main_v57 (J : ℕ) (c : Dev nD) : outs m D1 D3 D5 D7 J main_v57 c = o_main_v57 m D1 c := by
  unfold outs; rw [dif_neg (by decide), dif_neg (by decide), dif_neg (by decide), dif_neg (by decide), dif_pos rfl]
theorem outs_main_v75_0 (J : ℕ) (c : Dev nD) : outs m D1 D3 D5 D7 J main_v75_0 c = o_main_v75_0 m D1 D3 c := by
  unfold outs; rw [dif_neg (by decide), dif_neg (by decide), dif_neg (by decide), dif_neg (by decide), dif_neg (by decide), dif_pos rfl]
theorem outs_main_v75_1 (J : ℕ) (c : Dev nD) : outs m D1 D3 D5 D7 J main_v75_1 c = o_main_v75_1 m D1 D3 c := by
  unfold outs; rw [dif_neg (by decide), dif_neg (by decide), dif_neg (by decide), dif_neg (by decide), dif_neg (by decide), dif_neg (by decide), dif_pos rfl]
theorem outs_main_v75_2 (J : ℕ) (c : Dev nD) : outs m D1 D3 D5 D7 J main_v75_2 c = o_main_v75_2 m D1 D3 c := by
  unfold outs; rw [dif_neg (by decide), dif_neg (by decide), dif_neg (by decide), dif_neg (by decide), dif_neg (by decide), dif_neg (by decide), dif_neg (by decide), dif_pos rfl]
theorem outs_main_v88 (J : ℕ) (c : Dev nD) : outs m D1 D3 D5 D7 J main_v88 c = o_main_v88 m D1 D3 c := by
  unfold outs; rw [dif_neg (by decide), dif_neg (by decide), dif_neg (by decide), dif_neg (by decide), dif_neg (by decide), dif_neg (by decide), dif_neg (by decide), dif_neg (by decide), dif_pos rfl]
theorem outs_main_v106_0 (J : ℕ) (c : Dev nD) : outs m D1 D3 D5 D7 J main_v106_0 c = o_main_v106_0 m D1 D3 D5 c := by
  unfold outs; rw [dif_neg (by decide), dif_neg (by decide), dif_neg (by decide), dif_neg (by decide), dif_neg (by decide), dif_neg (by decide), dif_neg (by decide), dif_neg (by decide), dif_neg (by decide), dif_pos rfl]
theorem outs_main_v106_1 (J : ℕ) (c : Dev nD) : outs m D1 D3 D5 D7 J main_v106_1 c = o_main_v106_1 m D1 D3 D5 c := by
  unfold outs; rw [dif_neg (by decide), dif_neg (by decide), dif_neg (by decide), dif_neg (by decide), dif_neg (by decide), dif_neg (by decide), dif_neg (by decide), dif_neg (by decide), dif_neg (by decide), dif_neg (by decide), dif_pos rfl]
theorem outs_main_v106_2 (J : ℕ) (c : Dev nD) : outs m D1 D3 D5 D7 J main_v106_2 c = o_main_v106_2 m D1 D3 D5 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v119 (J : ℕ) (c : Dev nD) : outs m D1 D3 D5 D7 J main_v119 c = o_main_v119 m D1 D3 D5 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v137_0 (J : ℕ) (c : Dev nD) : outs m D1 D3 D5 D7 J main_v137_0 c = o_main_v137_0 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v137_1 (J : ℕ) (c : Dev nD) : outs m D1 D3 D5 D7 J main_v137_1 c = o_main_v137_1 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v137_2 (J : ℕ) (c : Dev nD) : outs m D1 D3 D5 D7 J main_v137_2 c = o_main_v137_2 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]
theorem outs_main_v150 (J : ℕ) (c : Dev nD) : outs m D1 D3 D5 D7 J main_v150 c = o_main_v150 m D1 D3 D5 D7 c := by
  unfold outs; rw [dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_neg (by decide), dif_pos rfl]

/-! ## The generated boundaries at that family are these -/

theorem V4_eq (c : Dev nD) : V4 m (outs m D1 D3 D5 D7) c = S4 m c := by
  show Function.update (V3 m c) main_v26 (outs m D1 D3 D5 D7 4 main_v26 c) = _
  rw [outs_main_v26]; rfl
theorem V5_eq (c : Dev nD) : V5 m (outs m D1 D3 D5 D7) c = S5 m c := by
  show StableHlo.after hostOps1 (V4 m (outs m D1 D3 D5 D7) c) = _
  rw [V4_eq]; rfl
theorem V6_eq (c : Dev nD) : V6 m (outs m D1 D3 D5 D7) c = S6 m D1 c := by
  show Function.update (Function.update (Function.update (V5 m (outs m D1 D3 D5 D7) c) main_v44_0 (outs m D1 D3 D5 D7 6 main_v44_0 c)) main_v44_1 (outs m D1 D3 D5 D7 6 main_v44_1 c)) main_v44_2 (outs m D1 D3 D5 D7 6 main_v44_2 c) = _
  rw [V5_eq, outs_main_v44_0, outs_main_v44_1, outs_main_v44_2]; rfl
theorem V7_eq (c : Dev nD) : V7 m (outs m D1 D3 D5 D7) c = S7 m D1 c := by
  show StableHlo.after hostOps2 (V6 m (outs m D1 D3 D5 D7) c) = _
  rw [V6_eq]; rfl
theorem V8_eq (c : Dev nD) : V8 m (outs m D1 D3 D5 D7) c = S8 m D1 c := by
  show Function.update (V7 m (outs m D1 D3 D5 D7) c) main_v57 (outs m D1 D3 D5 D7 8 main_v57 c) = _
  rw [V7_eq, outs_main_v57]; rfl
theorem V9_eq (c : Dev nD) : V9 m (outs m D1 D3 D5 D7) c = S9 m D1 c := by
  show StableHlo.after hostOps3 (V8 m (outs m D1 D3 D5 D7) c) = _
  rw [V8_eq]; rfl
theorem V10_eq (c : Dev nD) : V10 m (outs m D1 D3 D5 D7) c = S10 m D1 D3 c := by
  show Function.update (Function.update (Function.update (V9 m (outs m D1 D3 D5 D7) c) main_v75_0 (outs m D1 D3 D5 D7 10 main_v75_0 c)) main_v75_1 (outs m D1 D3 D5 D7 10 main_v75_1 c)) main_v75_2 (outs m D1 D3 D5 D7 10 main_v75_2 c) = _
  rw [V9_eq, outs_main_v75_0, outs_main_v75_1, outs_main_v75_2]; rfl
theorem V11_eq (c : Dev nD) : V11 m (outs m D1 D3 D5 D7) c = S11 m D1 D3 c := by
  show StableHlo.after hostOps4 (V10 m (outs m D1 D3 D5 D7) c) = _
  rw [V10_eq]; rfl
theorem V12_eq (c : Dev nD) : V12 m (outs m D1 D3 D5 D7) c = S12 m D1 D3 c := by
  show Function.update (V11 m (outs m D1 D3 D5 D7) c) main_v88 (outs m D1 D3 D5 D7 12 main_v88 c) = _
  rw [V11_eq, outs_main_v88]; rfl
theorem V13_eq (c : Dev nD) : V13 m (outs m D1 D3 D5 D7) c = S13 m D1 D3 c := by
  show StableHlo.after hostOps5 (V12 m (outs m D1 D3 D5 D7) c) = _
  rw [V12_eq]; rfl
theorem V14_eq (c : Dev nD) : V14 m (outs m D1 D3 D5 D7) c = S14 m D1 D3 D5 c := by
  show Function.update (Function.update (Function.update (V13 m (outs m D1 D3 D5 D7) c) main_v106_0 (outs m D1 D3 D5 D7 14 main_v106_0 c)) main_v106_1 (outs m D1 D3 D5 D7 14 main_v106_1 c)) main_v106_2 (outs m D1 D3 D5 D7 14 main_v106_2 c) = _
  rw [V13_eq, outs_main_v106_0, outs_main_v106_1, outs_main_v106_2]; rfl
theorem V15_eq (c : Dev nD) : V15 m (outs m D1 D3 D5 D7) c = S15 m D1 D3 D5 c := by
  show StableHlo.after hostOps6 (V14 m (outs m D1 D3 D5 D7) c) = _
  rw [V14_eq]; rfl
theorem V16_eq (c : Dev nD) : V16 m (outs m D1 D3 D5 D7) c = S16 m D1 D3 D5 c := by
  show Function.update (V15 m (outs m D1 D3 D5 D7) c) main_v119 (outs m D1 D3 D5 D7 16 main_v119 c) = _
  rw [V15_eq, outs_main_v119]; rfl
theorem V17_eq (c : Dev nD) : V17 m (outs m D1 D3 D5 D7) c = S17 m D1 D3 D5 c := by
  show StableHlo.after hostOps7 (V16 m (outs m D1 D3 D5 D7) c) = _
  rw [V16_eq]; rfl
theorem V18_eq (c : Dev nD) : V18 m (outs m D1 D3 D5 D7) c = S18 m D1 D3 D5 D7 c := by
  show Function.update (Function.update (Function.update (V17 m (outs m D1 D3 D5 D7) c) main_v137_0 (outs m D1 D3 D5 D7 18 main_v137_0 c)) main_v137_1 (outs m D1 D3 D5 D7 18 main_v137_1 c)) main_v137_2 (outs m D1 D3 D5 D7 18 main_v137_2 c) = _
  rw [V17_eq, outs_main_v137_0, outs_main_v137_1, outs_main_v137_2]; rfl
theorem V19_eq (c : Dev nD) : V19 m (outs m D1 D3 D5 D7) c = S19 m D1 D3 D5 D7 c := by
  show StableHlo.after hostOps8 (V18 m (outs m D1 D3 D5 D7) c) = _
  rw [V18_eq]; rfl
theorem V20_eq (c : Dev nD) : V20 m (outs m D1 D3 D5 D7) c = S20 m D1 D3 D5 D7 c := by
  show Function.update (V19 m (outs m D1 D3 D5 D7) c) main_v150 (outs m D1 D3 D5 D7 20 main_v150 c) = _
  rw [V19_eq, outs_main_v150]; rfl

/-! ## After a region: its arrays at what the pipeline leaves, every other buffer untouched -/

theorem S4_of_ne (c : Dev nD) (b : Ref sig .tc) (h_main_v26 : b ≠ main_v26) : S4 m c b = S3 m c b := by
  unfold S4; rw [Function.update_of_ne (StableHlo.devRef_ne_of_ne h_main_v26)]
theorem S4_main_v26 (c : Dev nD) : S4 m c main_v26 = o_main_v26 m c := by
  unfold S4; rw [Function.update_self]
theorem hF0 (c : Dev nD) : ∀ w : Fin cfg0.W, (pd m D1 D3 D5 D7 0 c).arrAt w cfg0.N = S4 m c (Pipeline.arrRef spec0 w)
  | ⟨0, _⟩ => (((dat0 (fun c b => S3 m c b) c).arrAt_in ⟨0, by decide⟩ rfl _).trans (A_eq0 (fun c b => S3 m c b) c ⟨0, by decide⟩)).trans (S4_of_ne m c _ (by decide)).symm
  | ⟨1, _⟩ => (((dat0 (fun c b => S3 m c b) c).arrAt_in ⟨1, by decide⟩ rfl _).trans (A_eq0 (fun c b => S3 m c b) c ⟨1, by decide⟩)).trans (S4_of_ne m c _ (by decide)).symm
  | ⟨2, _⟩ => (((dat0 (fun c b => S3 m c b) c).arrAt_in ⟨2, by decide⟩ rfl _).trans (A_eq0 (fun c b => S3 m c b) c ⟨2, by decide⟩)).trans (S4_of_ne m c _ (by decide)).symm
  | ⟨3, _⟩ => (S4_main_v26 m c).symm
  | ⟨_ + 4, h⟩ => absurd h (Nat.not_lt.2 (Nat.le_add_left _ _))
theorem hrest0 (c : Dev nD) (b : Ref sig .tc) (hb : b ∉ Finset.univ.image (Pipeline.arrRef spec0)) : S4 m c b = S3 m c b :=
  S4_of_ne m c b (fun e => hb (Finset.mem_image.mpr ⟨(3 : Fin 4), Finset.mem_univ _, (show Pipeline.arrRef spec0 (3 : Fin 4) = main_v26 from rfl).trans e.symm⟩))
theorem S6_of_ne (c : Dev nD) (b : Ref sig .tc) (h_main_v44_0 : b ≠ main_v44_0) (h_main_v44_1 : b ≠ main_v44_1) (h_main_v44_2 : b ≠ main_v44_2) : S6 m D1 c b = S5 m c b := by
  unfold S6; rw [Function.update_of_ne (StableHlo.devRef_ne_of_ne h_main_v44_2), Function.update_of_ne (StableHlo.devRef_ne_of_ne h_main_v44_1), Function.update_of_ne (StableHlo.devRef_ne_of_ne h_main_v44_0)]
theorem S6_main_v44_0 (c : Dev nD) : S6 m D1 c main_v44_0 = o_main_v44_0 m D1 c := by
  unfold S6; rw [Function.update_of_ne (StableHlo.devRef_ne_of_ne (by decide)), Function.update_of_ne (StableHlo.devRef_ne_of_ne (by decide)), Function.update_self]
theorem S6_main_v44_1 (c : Dev nD) : S6 m D1 c main_v44_1 = o_main_v44_1 m D1 c := by
  unfold S6; rw [Function.update_of_ne (StableHlo.devRef_ne_of_ne (by decide)), Function.update_self]
theorem S6_main_v44_2 (c : Dev nD) : S6 m D1 c main_v44_2 = o_main_v44_2 m D1 c := by
  unfold S6; rw [Function.update_self]
theorem hF1 (hA1 : ∀ (V : Entry F) (c : Dev nD) (w : Fin cfg1.W), (D1 V c).A w = V c (Pipeline.arrRef spec1 w)) (c : Dev nD) : ∀ w : Fin cfg1.W, (pd m D1 D3 D5 D7 1 c).arrAt w cfg1.N = S6 m D1 c (Pipeline.arrRef spec1 w)
  | ⟨0, _⟩ => (((D1 (fun c b => S5 m c b) c).arrAt_in ⟨0, by decide⟩ rfl _).trans (hA1 (fun c b => S5 m c b) c ⟨0, by decide⟩)).trans (S6_of_ne m D1 c _ (by decide) (by decide) (by decide)).symm
  | ⟨1, _⟩ => (((D1 (fun c b => S5 m c b) c).arrAt_in ⟨1, by decide⟩ rfl _).trans (hA1 (fun c b => S5 m c b) c ⟨1, by decide⟩)).trans (S6_of_ne m D1 c _ (by decide) (by decide) (by decide)).symm
  | ⟨2, _⟩ => (((D1 (fun c b => S5 m c b) c).arrAt_in ⟨2, by decide⟩ rfl _).trans (hA1 (fun c b => S5 m c b) c ⟨2, by decide⟩)).trans (S6_of_ne m D1 c _ (by decide) (by decide) (by decide)).symm
  | ⟨3, _⟩ => (((D1 (fun c b => S5 m c b) c).arrAt_in ⟨3, by decide⟩ rfl _).trans (hA1 (fun c b => S5 m c b) c ⟨3, by decide⟩)).trans (S6_of_ne m D1 c _ (by decide) (by decide) (by decide)).symm
  | ⟨4, _⟩ => (S6_main_v44_0 m D1 c).symm
  | ⟨5, _⟩ => (S6_main_v44_1 m D1 c).symm
  | ⟨6, _⟩ => (S6_main_v44_2 m D1 c).symm
  | ⟨_ + 7, h⟩ => absurd h (Nat.not_lt.2 (Nat.le_add_left _ _))
theorem hrest1 (c : Dev nD) (b : Ref sig .tc) (hb : b ∉ Finset.univ.image (Pipeline.arrRef spec1)) : S6 m D1 c b = S5 m c b :=
  S6_of_ne m D1 c b (fun e => hb (Finset.mem_image.mpr ⟨(4 : Fin 7), Finset.mem_univ _, (show Pipeline.arrRef spec1 (4 : Fin 7) = main_v44_0 from rfl).trans e.symm⟩)) (fun e => hb (Finset.mem_image.mpr ⟨(5 : Fin 7), Finset.mem_univ _, (show Pipeline.arrRef spec1 (5 : Fin 7) = main_v44_1 from rfl).trans e.symm⟩)) (fun e => hb (Finset.mem_image.mpr ⟨(6 : Fin 7), Finset.mem_univ _, (show Pipeline.arrRef spec1 (6 : Fin 7) = main_v44_2 from rfl).trans e.symm⟩))
theorem S8_of_ne (c : Dev nD) (b : Ref sig .tc) (h_main_v57 : b ≠ main_v57) : S8 m D1 c b = S7 m D1 c b := by
  unfold S8; rw [Function.update_of_ne (StableHlo.devRef_ne_of_ne h_main_v57)]
theorem S8_main_v57 (c : Dev nD) : S8 m D1 c main_v57 = o_main_v57 m D1 c := by
  unfold S8; rw [Function.update_self]
theorem hF2 (c : Dev nD) : ∀ w : Fin cfg2.W, (pd m D1 D3 D5 D7 2 c).arrAt w cfg2.N = S8 m D1 c (Pipeline.arrRef spec2 w)
  | ⟨0, _⟩ => (((dat2 (fun c b => S7 m D1 c b) c).arrAt_in ⟨0, by decide⟩ rfl _).trans (A_eq2 (fun c b => S7 m D1 c b) c ⟨0, by decide⟩)).trans (S8_of_ne m D1 c _ (by decide)).symm
  | ⟨1, _⟩ => (((dat2 (fun c b => S7 m D1 c b) c).arrAt_in ⟨1, by decide⟩ rfl _).trans (A_eq2 (fun c b => S7 m D1 c b) c ⟨1, by decide⟩)).trans (S8_of_ne m D1 c _ (by decide)).symm
  | ⟨2, _⟩ => (((dat2 (fun c b => S7 m D1 c b) c).arrAt_in ⟨2, by decide⟩ rfl _).trans (A_eq2 (fun c b => S7 m D1 c b) c ⟨2, by decide⟩)).trans (S8_of_ne m D1 c _ (by decide)).symm
  | ⟨3, _⟩ => (((dat2 (fun c b => S7 m D1 c b) c).arrAt_in ⟨3, by decide⟩ rfl _).trans (A_eq2 (fun c b => S7 m D1 c b) c ⟨3, by decide⟩)).trans (S8_of_ne m D1 c _ (by decide)).symm
  | ⟨4, _⟩ => (((dat2 (fun c b => S7 m D1 c b) c).arrAt_in ⟨4, by decide⟩ rfl _).trans (A_eq2 (fun c b => S7 m D1 c b) c ⟨4, by decide⟩)).trans (S8_of_ne m D1 c _ (by decide)).symm
  | ⟨5, _⟩ => (S8_main_v57 m D1 c).symm
  | ⟨_ + 6, h⟩ => absurd h (Nat.not_lt.2 (Nat.le_add_left _ _))
theorem hrest2 (c : Dev nD) (b : Ref sig .tc) (hb : b ∉ Finset.univ.image (Pipeline.arrRef spec2)) : S8 m D1 c b = S7 m D1 c b :=
  S8_of_ne m D1 c b (fun e => hb (Finset.mem_image.mpr ⟨(5 : Fin 6), Finset.mem_univ _, (show Pipeline.arrRef spec2 (5 : Fin 6) = main_v57 from rfl).trans e.symm⟩))
theorem S10_of_ne (c : Dev nD) (b : Ref sig .tc) (h_main_v75_0 : b ≠ main_v75_0) (h_main_v75_1 : b ≠ main_v75_1) (h_main_v75_2 : b ≠ main_v75_2) : S10 m D1 D3 c b = S9 m D1 c b := by
  unfold S10; rw [Function.update_of_ne (StableHlo.devRef_ne_of_ne h_main_v75_2), Function.update_of_ne (StableHlo.devRef_ne_of_ne h_main_v75_1), Function.update_of_ne (StableHlo.devRef_ne_of_ne h_main_v75_0)]
theorem S10_main_v75_0 (c : Dev nD) : S10 m D1 D3 c main_v75_0 = o_main_v75_0 m D1 D3 c := by
  unfold S10; rw [Function.update_of_ne (StableHlo.devRef_ne_of_ne (by decide)), Function.update_of_ne (StableHlo.devRef_ne_of_ne (by decide)), Function.update_self]
theorem S10_main_v75_1 (c : Dev nD) : S10 m D1 D3 c main_v75_1 = o_main_v75_1 m D1 D3 c := by
  unfold S10; rw [Function.update_of_ne (StableHlo.devRef_ne_of_ne (by decide)), Function.update_self]
theorem S10_main_v75_2 (c : Dev nD) : S10 m D1 D3 c main_v75_2 = o_main_v75_2 m D1 D3 c := by
  unfold S10; rw [Function.update_self]
theorem hF3 (hA3 : ∀ (V : Entry F) (c : Dev nD) (w : Fin cfg3.W), (D3 V c).A w = V c (Pipeline.arrRef spec3 w)) (c : Dev nD) : ∀ w : Fin cfg3.W, (pd m D1 D3 D5 D7 3 c).arrAt w cfg3.N = S10 m D1 D3 c (Pipeline.arrRef spec3 w)
  | ⟨0, _⟩ => (((D3 (fun c b => S9 m D1 c b) c).arrAt_in ⟨0, by decide⟩ rfl _).trans (hA3 (fun c b => S9 m D1 c b) c ⟨0, by decide⟩)).trans (S10_of_ne m D1 D3 c _ (by decide) (by decide) (by decide)).symm
  | ⟨1, _⟩ => (((D3 (fun c b => S9 m D1 c b) c).arrAt_in ⟨1, by decide⟩ rfl _).trans (hA3 (fun c b => S9 m D1 c b) c ⟨1, by decide⟩)).trans (S10_of_ne m D1 D3 c _ (by decide) (by decide) (by decide)).symm
  | ⟨2, _⟩ => (((D3 (fun c b => S9 m D1 c b) c).arrAt_in ⟨2, by decide⟩ rfl _).trans (hA3 (fun c b => S9 m D1 c b) c ⟨2, by decide⟩)).trans (S10_of_ne m D1 D3 c _ (by decide) (by decide) (by decide)).symm
  | ⟨3, _⟩ => (((D3 (fun c b => S9 m D1 c b) c).arrAt_in ⟨3, by decide⟩ rfl _).trans (hA3 (fun c b => S9 m D1 c b) c ⟨3, by decide⟩)).trans (S10_of_ne m D1 D3 c _ (by decide) (by decide) (by decide)).symm
  | ⟨4, _⟩ => (S10_main_v75_0 m D1 D3 c).symm
  | ⟨5, _⟩ => (S10_main_v75_1 m D1 D3 c).symm
  | ⟨6, _⟩ => (S10_main_v75_2 m D1 D3 c).symm
  | ⟨_ + 7, h⟩ => absurd h (Nat.not_lt.2 (Nat.le_add_left _ _))
theorem hrest3 (c : Dev nD) (b : Ref sig .tc) (hb : b ∉ Finset.univ.image (Pipeline.arrRef spec3)) : S10 m D1 D3 c b = S9 m D1 c b :=
  S10_of_ne m D1 D3 c b (fun e => hb (Finset.mem_image.mpr ⟨(4 : Fin 7), Finset.mem_univ _, (show Pipeline.arrRef spec3 (4 : Fin 7) = main_v75_0 from rfl).trans e.symm⟩)) (fun e => hb (Finset.mem_image.mpr ⟨(5 : Fin 7), Finset.mem_univ _, (show Pipeline.arrRef spec3 (5 : Fin 7) = main_v75_1 from rfl).trans e.symm⟩)) (fun e => hb (Finset.mem_image.mpr ⟨(6 : Fin 7), Finset.mem_univ _, (show Pipeline.arrRef spec3 (6 : Fin 7) = main_v75_2 from rfl).trans e.symm⟩))
theorem S12_of_ne (c : Dev nD) (b : Ref sig .tc) (h_main_v88 : b ≠ main_v88) : S12 m D1 D3 c b = S11 m D1 D3 c b := by
  unfold S12; rw [Function.update_of_ne (StableHlo.devRef_ne_of_ne h_main_v88)]
theorem S12_main_v88 (c : Dev nD) : S12 m D1 D3 c main_v88 = o_main_v88 m D1 D3 c := by
  unfold S12; rw [Function.update_self]
theorem hF4 (c : Dev nD) : ∀ w : Fin cfg4.W, (pd m D1 D3 D5 D7 4 c).arrAt w cfg4.N = S12 m D1 D3 c (Pipeline.arrRef spec4 w)
  | ⟨0, _⟩ => (((dat4 (fun c b => S11 m D1 D3 c b) c).arrAt_in ⟨0, by decide⟩ rfl _).trans (A_eq4 (fun c b => S11 m D1 D3 c b) c ⟨0, by decide⟩)).trans (S12_of_ne m D1 D3 c _ (by decide)).symm
  | ⟨1, _⟩ => (((dat4 (fun c b => S11 m D1 D3 c b) c).arrAt_in ⟨1, by decide⟩ rfl _).trans (A_eq4 (fun c b => S11 m D1 D3 c b) c ⟨1, by decide⟩)).trans (S12_of_ne m D1 D3 c _ (by decide)).symm
  | ⟨2, _⟩ => (((dat4 (fun c b => S11 m D1 D3 c b) c).arrAt_in ⟨2, by decide⟩ rfl _).trans (A_eq4 (fun c b => S11 m D1 D3 c b) c ⟨2, by decide⟩)).trans (S12_of_ne m D1 D3 c _ (by decide)).symm
  | ⟨3, _⟩ => (((dat4 (fun c b => S11 m D1 D3 c b) c).arrAt_in ⟨3, by decide⟩ rfl _).trans (A_eq4 (fun c b => S11 m D1 D3 c b) c ⟨3, by decide⟩)).trans (S12_of_ne m D1 D3 c _ (by decide)).symm
  | ⟨4, _⟩ => (((dat4 (fun c b => S11 m D1 D3 c b) c).arrAt_in ⟨4, by decide⟩ rfl _).trans (A_eq4 (fun c b => S11 m D1 D3 c b) c ⟨4, by decide⟩)).trans (S12_of_ne m D1 D3 c _ (by decide)).symm
  | ⟨5, _⟩ => (S12_main_v88 m D1 D3 c).symm
  | ⟨_ + 6, h⟩ => absurd h (Nat.not_lt.2 (Nat.le_add_left _ _))
theorem hrest4 (c : Dev nD) (b : Ref sig .tc) (hb : b ∉ Finset.univ.image (Pipeline.arrRef spec4)) : S12 m D1 D3 c b = S11 m D1 D3 c b :=
  S12_of_ne m D1 D3 c b (fun e => hb (Finset.mem_image.mpr ⟨(5 : Fin 6), Finset.mem_univ _, (show Pipeline.arrRef spec4 (5 : Fin 6) = main_v88 from rfl).trans e.symm⟩))
theorem S14_of_ne (c : Dev nD) (b : Ref sig .tc) (h_main_v106_0 : b ≠ main_v106_0) (h_main_v106_1 : b ≠ main_v106_1) (h_main_v106_2 : b ≠ main_v106_2) : S14 m D1 D3 D5 c b = S13 m D1 D3 c b := by
  unfold S14; rw [Function.update_of_ne (StableHlo.devRef_ne_of_ne h_main_v106_2), Function.update_of_ne (StableHlo.devRef_ne_of_ne h_main_v106_1), Function.update_of_ne (StableHlo.devRef_ne_of_ne h_main_v106_0)]
theorem S14_main_v106_0 (c : Dev nD) : S14 m D1 D3 D5 c main_v106_0 = o_main_v106_0 m D1 D3 D5 c := by
  unfold S14; rw [Function.update_of_ne (StableHlo.devRef_ne_of_ne (by decide)), Function.update_of_ne (StableHlo.devRef_ne_of_ne (by decide)), Function.update_self]
theorem S14_main_v106_1 (c : Dev nD) : S14 m D1 D3 D5 c main_v106_1 = o_main_v106_1 m D1 D3 D5 c := by
  unfold S14; rw [Function.update_of_ne (StableHlo.devRef_ne_of_ne (by decide)), Function.update_self]
theorem S14_main_v106_2 (c : Dev nD) : S14 m D1 D3 D5 c main_v106_2 = o_main_v106_2 m D1 D3 D5 c := by
  unfold S14; rw [Function.update_self]
theorem hF5 (hA5 : ∀ (V : Entry F) (c : Dev nD) (w : Fin cfg5.W), (D5 V c).A w = V c (Pipeline.arrRef spec5 w)) (c : Dev nD) : ∀ w : Fin cfg5.W, (pd m D1 D3 D5 D7 5 c).arrAt w cfg5.N = S14 m D1 D3 D5 c (Pipeline.arrRef spec5 w)
  | ⟨0, _⟩ => (((D5 (fun c b => S13 m D1 D3 c b) c).arrAt_in ⟨0, by decide⟩ rfl _).trans (hA5 (fun c b => S13 m D1 D3 c b) c ⟨0, by decide⟩)).trans (S14_of_ne m D1 D3 D5 c _ (by decide) (by decide) (by decide)).symm
  | ⟨1, _⟩ => (((D5 (fun c b => S13 m D1 D3 c b) c).arrAt_in ⟨1, by decide⟩ rfl _).trans (hA5 (fun c b => S13 m D1 D3 c b) c ⟨1, by decide⟩)).trans (S14_of_ne m D1 D3 D5 c _ (by decide) (by decide) (by decide)).symm
  | ⟨2, _⟩ => (((D5 (fun c b => S13 m D1 D3 c b) c).arrAt_in ⟨2, by decide⟩ rfl _).trans (hA5 (fun c b => S13 m D1 D3 c b) c ⟨2, by decide⟩)).trans (S14_of_ne m D1 D3 D5 c _ (by decide) (by decide) (by decide)).symm
  | ⟨3, _⟩ => (((D5 (fun c b => S13 m D1 D3 c b) c).arrAt_in ⟨3, by decide⟩ rfl _).trans (hA5 (fun c b => S13 m D1 D3 c b) c ⟨3, by decide⟩)).trans (S14_of_ne m D1 D3 D5 c _ (by decide) (by decide) (by decide)).symm
  | ⟨4, _⟩ => (S14_main_v106_0 m D1 D3 D5 c).symm
  | ⟨5, _⟩ => (S14_main_v106_1 m D1 D3 D5 c).symm
  | ⟨6, _⟩ => (S14_main_v106_2 m D1 D3 D5 c).symm
  | ⟨_ + 7, h⟩ => absurd h (Nat.not_lt.2 (Nat.le_add_left _ _))
theorem hrest5 (c : Dev nD) (b : Ref sig .tc) (hb : b ∉ Finset.univ.image (Pipeline.arrRef spec5)) : S14 m D1 D3 D5 c b = S13 m D1 D3 c b :=
  S14_of_ne m D1 D3 D5 c b (fun e => hb (Finset.mem_image.mpr ⟨(4 : Fin 7), Finset.mem_univ _, (show Pipeline.arrRef spec5 (4 : Fin 7) = main_v106_0 from rfl).trans e.symm⟩)) (fun e => hb (Finset.mem_image.mpr ⟨(5 : Fin 7), Finset.mem_univ _, (show Pipeline.arrRef spec5 (5 : Fin 7) = main_v106_1 from rfl).trans e.symm⟩)) (fun e => hb (Finset.mem_image.mpr ⟨(6 : Fin 7), Finset.mem_univ _, (show Pipeline.arrRef spec5 (6 : Fin 7) = main_v106_2 from rfl).trans e.symm⟩))
theorem S16_of_ne (c : Dev nD) (b : Ref sig .tc) (h_main_v119 : b ≠ main_v119) : S16 m D1 D3 D5 c b = S15 m D1 D3 D5 c b := by
  unfold S16; rw [Function.update_of_ne (StableHlo.devRef_ne_of_ne h_main_v119)]
theorem S16_main_v119 (c : Dev nD) : S16 m D1 D3 D5 c main_v119 = o_main_v119 m D1 D3 D5 c := by
  unfold S16; rw [Function.update_self]
theorem hF6 (c : Dev nD) : ∀ w : Fin cfg6.W, (pd m D1 D3 D5 D7 6 c).arrAt w cfg6.N = S16 m D1 D3 D5 c (Pipeline.arrRef spec6 w)
  | ⟨0, _⟩ => (((dat6 (fun c b => S15 m D1 D3 D5 c b) c).arrAt_in ⟨0, by decide⟩ rfl _).trans (A_eq6 (fun c b => S15 m D1 D3 D5 c b) c ⟨0, by decide⟩)).trans (S16_of_ne m D1 D3 D5 c _ (by decide)).symm
  | ⟨1, _⟩ => (((dat6 (fun c b => S15 m D1 D3 D5 c b) c).arrAt_in ⟨1, by decide⟩ rfl _).trans (A_eq6 (fun c b => S15 m D1 D3 D5 c b) c ⟨1, by decide⟩)).trans (S16_of_ne m D1 D3 D5 c _ (by decide)).symm
  | ⟨2, _⟩ => (((dat6 (fun c b => S15 m D1 D3 D5 c b) c).arrAt_in ⟨2, by decide⟩ rfl _).trans (A_eq6 (fun c b => S15 m D1 D3 D5 c b) c ⟨2, by decide⟩)).trans (S16_of_ne m D1 D3 D5 c _ (by decide)).symm
  | ⟨3, _⟩ => (((dat6 (fun c b => S15 m D1 D3 D5 c b) c).arrAt_in ⟨3, by decide⟩ rfl _).trans (A_eq6 (fun c b => S15 m D1 D3 D5 c b) c ⟨3, by decide⟩)).trans (S16_of_ne m D1 D3 D5 c _ (by decide)).symm
  | ⟨4, _⟩ => (((dat6 (fun c b => S15 m D1 D3 D5 c b) c).arrAt_in ⟨4, by decide⟩ rfl _).trans (A_eq6 (fun c b => S15 m D1 D3 D5 c b) c ⟨4, by decide⟩)).trans (S16_of_ne m D1 D3 D5 c _ (by decide)).symm
  | ⟨5, _⟩ => (S16_main_v119 m D1 D3 D5 c).symm
  | ⟨_ + 6, h⟩ => absurd h (Nat.not_lt.2 (Nat.le_add_left _ _))
theorem hrest6 (c : Dev nD) (b : Ref sig .tc) (hb : b ∉ Finset.univ.image (Pipeline.arrRef spec6)) : S16 m D1 D3 D5 c b = S15 m D1 D3 D5 c b :=
  S16_of_ne m D1 D3 D5 c b (fun e => hb (Finset.mem_image.mpr ⟨(5 : Fin 6), Finset.mem_univ _, (show Pipeline.arrRef spec6 (5 : Fin 6) = main_v119 from rfl).trans e.symm⟩))
theorem S18_of_ne (c : Dev nD) (b : Ref sig .tc) (h_main_v137_0 : b ≠ main_v137_0) (h_main_v137_1 : b ≠ main_v137_1) (h_main_v137_2 : b ≠ main_v137_2) : S18 m D1 D3 D5 D7 c b = S17 m D1 D3 D5 c b := by
  unfold S18; rw [Function.update_of_ne (StableHlo.devRef_ne_of_ne h_main_v137_2), Function.update_of_ne (StableHlo.devRef_ne_of_ne h_main_v137_1), Function.update_of_ne (StableHlo.devRef_ne_of_ne h_main_v137_0)]
theorem S18_main_v137_0 (c : Dev nD) : S18 m D1 D3 D5 D7 c main_v137_0 = o_main_v137_0 m D1 D3 D5 D7 c := by
  unfold S18; rw [Function.update_of_ne (StableHlo.devRef_ne_of_ne (by decide)), Function.update_of_ne (StableHlo.devRef_ne_of_ne (by decide)), Function.update_self]
theorem S18_main_v137_1 (c : Dev nD) : S18 m D1 D3 D5 D7 c main_v137_1 = o_main_v137_1 m D1 D3 D5 D7 c := by
  unfold S18; rw [Function.update_of_ne (StableHlo.devRef_ne_of_ne (by decide)), Function.update_self]
theorem S18_main_v137_2 (c : Dev nD) : S18 m D1 D3 D5 D7 c main_v137_2 = o_main_v137_2 m D1 D3 D5 D7 c := by
  unfold S18; rw [Function.update_self]
theorem hF7 (hA7 : ∀ (V : Entry F) (c : Dev nD) (w : Fin cfg7.W), (D7 V c).A w = V c (Pipeline.arrRef spec7 w)) (c : Dev nD) : ∀ w : Fin cfg7.W, (pd m D1 D3 D5 D7 7 c).arrAt w cfg7.N = S18 m D1 D3 D5 D7 c (Pipeline.arrRef spec7 w)
  | ⟨0, _⟩ => (((D7 (fun c b => S17 m D1 D3 D5 c b) c).arrAt_in ⟨0, by decide⟩ rfl _).trans (hA7 (fun c b => S17 m D1 D3 D5 c b) c ⟨0, by decide⟩)).trans (S18_of_ne m D1 D3 D5 D7 c _ (by decide) (by decide) (by decide)).symm
  | ⟨1, _⟩ => (((D7 (fun c b => S17 m D1 D3 D5 c b) c).arrAt_in ⟨1, by decide⟩ rfl _).trans (hA7 (fun c b => S17 m D1 D3 D5 c b) c ⟨1, by decide⟩)).trans (S18_of_ne m D1 D3 D5 D7 c _ (by decide) (by decide) (by decide)).symm
  | ⟨2, _⟩ => (((D7 (fun c b => S17 m D1 D3 D5 c b) c).arrAt_in ⟨2, by decide⟩ rfl _).trans (hA7 (fun c b => S17 m D1 D3 D5 c b) c ⟨2, by decide⟩)).trans (S18_of_ne m D1 D3 D5 D7 c _ (by decide) (by decide) (by decide)).symm
  | ⟨3, _⟩ => (((D7 (fun c b => S17 m D1 D3 D5 c b) c).arrAt_in ⟨3, by decide⟩ rfl _).trans (hA7 (fun c b => S17 m D1 D3 D5 c b) c ⟨3, by decide⟩)).trans (S18_of_ne m D1 D3 D5 D7 c _ (by decide) (by decide) (by decide)).symm
  | ⟨4, _⟩ => (S18_main_v137_0 m D1 D3 D5 D7 c).symm
  | ⟨5, _⟩ => (S18_main_v137_1 m D1 D3 D5 D7 c).symm
  | ⟨6, _⟩ => (S18_main_v137_2 m D1 D3 D5 D7 c).symm
  | ⟨_ + 7, h⟩ => absurd h (Nat.not_lt.2 (Nat.le_add_left _ _))
theorem hrest7 (c : Dev nD) (b : Ref sig .tc) (hb : b ∉ Finset.univ.image (Pipeline.arrRef spec7)) : S18 m D1 D3 D5 D7 c b = S17 m D1 D3 D5 c b :=
  S18_of_ne m D1 D3 D5 D7 c b (fun e => hb (Finset.mem_image.mpr ⟨(4 : Fin 7), Finset.mem_univ _, (show Pipeline.arrRef spec7 (4 : Fin 7) = main_v137_0 from rfl).trans e.symm⟩)) (fun e => hb (Finset.mem_image.mpr ⟨(5 : Fin 7), Finset.mem_univ _, (show Pipeline.arrRef spec7 (5 : Fin 7) = main_v137_1 from rfl).trans e.symm⟩)) (fun e => hb (Finset.mem_image.mpr ⟨(6 : Fin 7), Finset.mem_univ _, (show Pipeline.arrRef spec7 (6 : Fin 7) = main_v137_2 from rfl).trans e.symm⟩))
theorem S20_of_ne (c : Dev nD) (b : Ref sig .tc) (h_main_v150 : b ≠ main_v150) : S20 m D1 D3 D5 D7 c b = S19 m D1 D3 D5 D7 c b := by
  unfold S20; rw [Function.update_of_ne (StableHlo.devRef_ne_of_ne h_main_v150)]
theorem S20_main_v150 (c : Dev nD) : S20 m D1 D3 D5 D7 c main_v150 = o_main_v150 m D1 D3 D5 D7 c := by
  unfold S20; rw [Function.update_self]
theorem hF8 (c : Dev nD) : ∀ w : Fin cfg8.W, (pd m D1 D3 D5 D7 8 c).arrAt w cfg8.N = S20 m D1 D3 D5 D7 c (Pipeline.arrRef spec8 w)
  | ⟨0, _⟩ => (((dat8 (fun c b => S19 m D1 D3 D5 D7 c b) c).arrAt_in ⟨0, by decide⟩ rfl _).trans (A_eq8 (fun c b => S19 m D1 D3 D5 D7 c b) c ⟨0, by decide⟩)).trans (S20_of_ne m D1 D3 D5 D7 c _ (by decide)).symm
  | ⟨1, _⟩ => (((dat8 (fun c b => S19 m D1 D3 D5 D7 c b) c).arrAt_in ⟨1, by decide⟩ rfl _).trans (A_eq8 (fun c b => S19 m D1 D3 D5 D7 c b) c ⟨1, by decide⟩)).trans (S20_of_ne m D1 D3 D5 D7 c _ (by decide)).symm
  | ⟨2, _⟩ => (((dat8 (fun c b => S19 m D1 D3 D5 D7 c b) c).arrAt_in ⟨2, by decide⟩ rfl _).trans (A_eq8 (fun c b => S19 m D1 D3 D5 D7 c b) c ⟨2, by decide⟩)).trans (S20_of_ne m D1 D3 D5 D7 c _ (by decide)).symm
  | ⟨3, _⟩ => (((dat8 (fun c b => S19 m D1 D3 D5 D7 c b) c).arrAt_in ⟨3, by decide⟩ rfl _).trans (A_eq8 (fun c b => S19 m D1 D3 D5 D7 c b) c ⟨3, by decide⟩)).trans (S20_of_ne m D1 D3 D5 D7 c _ (by decide)).symm
  | ⟨4, _⟩ => (((dat8 (fun c b => S19 m D1 D3 D5 D7 c b) c).arrAt_in ⟨4, by decide⟩ rfl _).trans (A_eq8 (fun c b => S19 m D1 D3 D5 D7 c b) c ⟨4, by decide⟩)).trans (S20_of_ne m D1 D3 D5 D7 c _ (by decide)).symm
  | ⟨5, _⟩ => (S20_main_v150 m D1 D3 D5 D7 c).symm
  | ⟨_ + 6, h⟩ => absurd h (Nat.not_lt.2 (Nat.le_add_left _ _))
theorem hrest8 (c : Dev nD) (b : Ref sig .tc) (hb : b ∉ Finset.univ.image (Pipeline.arrRef spec8)) : S20 m D1 D3 D5 D7 c b = S19 m D1 D3 D5 D7 c b :=
  S20_of_ne m D1 D3 D5 D7 c b (fun e => hb (Finset.mem_image.mpr ⟨(5 : Fin 6), Finset.mem_univ _, (show Pipeline.arrRef spec8 (5 : Fin 6) = main_v150 from rfl).trans e.symm⟩))

end Cert.Kernel.Hand

end
-- ==== Proof.KFrameKit.lean ====
/-
  The nine-region program read at machine words: its frame from its regions' records. Between two items every unscoped
  buffer is held at that boundary's contents and, beside them, the core's generator register at some state and its dues
  at nothing; given proof data for the nine pipelines and one record per region entered from and left at those thread
  states, every weakly fair execution terminates with every argument as launched.
-/
import proofs.«163161_j55817394979591_1_alg».proof.Proof.Gen.Kernel.Regions
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No variant, no level: no core ever owes another anything in this program. -/
abbrev 𝒱₀ : Variants := Variants.none
abbrev L : GSem nD τ sig → Finset Unit := fun _ => ∅
abbrev lv : GSem nD τ sig → Unit → ℕ := fun _ _ => 0

/-- What rides beside the buffers through every item: the generator register at some state, and dues of nothing. -/
abbrev Rest (c : Dev nD) : sProp 𝕄 :=
  iprop((∃ r, prngReg c r) ∗ ∃ W, owes (c : Thread nD τ) (0 : CellTallies nD τ sig Unit) W)

variable (m : (ℓ : Loc nD τ sig) → Buf (Elt F) ℓ) (ρ : Dev nD → PrngReg) (outs : Outs (F := F))

set_option backward.isDefEq.respectTransparency.types false in
/-- The frame, from the nine records. -/
theorem frame_of_regions
    (pdats : (p : Fin 9) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V3 m c) ∗ Rest (F := F) c) ⊢ R0.pre c)
    (hpost0 : ∀ c : Dev nD, R0.post c ⊢ iprop(StableHlo.held (c : Thread nD τ) (Pipeline.ucRefs τ sig) (V4 m outs c) ∗ Rest (F := F) c))
    (R1 : RegionSeg (pcfgs (F := F)) adm pdats () defs₀ 𝒱₀ L lv 1)
    (hpre1 : ∀ c : Dev nD, iprop(StableHlo.held (c : Thread nD τ) (Pipeline.ucRefs τ sig) (V5 m outs c) ∗ Rest (F := F) c) ⊢ R1.pre c)
    (hpost1 : ∀ c : Dev nD, R1.post c ⊢ iprop(StableHlo.held (c : Thread nD τ) (Pipeline.ucRefs τ sig) (V6 m outs c) ∗ Rest (F := F) c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ Rest (F := F) c) ⊢ R2.pre c)
    (hpost2 : ∀ c : Dev nD, R2.post c ⊢ iprop(StableHlo.held (c : Thread nD τ) (Pipeline.ucRefs τ sig) (V8 m outs c) ∗ Rest (F := F) c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ Rest (F := F) c) ⊢ R3.pre c)
    (hpost3 : ∀ c : Dev nD, R3.post c ⊢ iprop(StableHlo.held (c : Thread nD τ) (Pipeline.ucRefs τ sig) (V10 m outs c) ∗ Rest (F := F) c))
    (R4 : RegionSeg (pcfgs (F := F)) adm pdats () defs₀ 𝒱₀ L lv 4)
    (hpre4 : ∀ c : Dev nD, iprop(StableHlo.held (c : Thread nD τ) (Pipeline.ucRefs τ sig) (V11 m outs c) ∗ Rest (F := F) c) ⊢ R4.pre c)
    (hpost4 : ∀ c : Dev nD, R4.post c ⊢ iprop(StableHlo.held (c : Thread nD τ) (Pipeline.ucRefs τ sig) (V12 m outs c) ∗ Rest (F := F) c))
    (R5 : RegionSeg (pcfgs (F := F)) adm pdats () defs₀ 𝒱₀ L lv 5)
    (hpre5 : ∀ c : Dev nD, iprop(StableHlo.held (c : Thread nD τ) (Pipeline.ucRefs τ sig) (V13 m outs c) ∗ Rest (F := F) c) ⊢ R5.pre c)
    (hpost5 : ∀ c : Dev nD, R5.post c ⊢ iprop(StableHlo.held (c : Thread nD τ) (Pipeline.ucRefs τ sig) (V14 m outs c) ∗ Rest (F := F) c))
    (R6 : RegionSeg (pcfgs (F := F)) adm pdats () defs₀ 𝒱₀ L lv 6)
    (hpre6 : ∀ c : Dev nD, iprop(StableHlo.held (c : Thread nD τ) (Pipeline.ucRefs τ sig) (V15 m outs c) ∗ Rest (F := F) c) ⊢ R6.pre c)
    (hpost6 : ∀ c : Dev nD, R6.post c ⊢ iprop(StableHlo.held (c : Thread nD τ) (Pipeline.ucRefs τ sig) (V16 m outs c) ∗ Rest (F := F) c))
    (R7 : RegionSeg (pcfgs (F := F)) adm pdats () defs₀ 𝒱₀ L lv 7)
    (hpre7 : ∀ c : Dev nD, iprop(StableHlo.held (c : Thread nD τ) (Pipeline.ucRefs τ sig) (V17 m outs c) ∗ Rest (F := F) c) ⊢ R7.pre c)
    (hpost7 : ∀ c : Dev nD, R7.post c ⊢ iprop(StableHlo.held (c : Thread nD τ) (Pipeline.ucRefs τ sig) (V18 m outs c) ∗ Rest (F := F) c))
    (R8 : RegionSeg (pcfgs (F := F)) adm pdats () defs₀ 𝒱₀ L lv 8)
    (hpre8 : ∀ c : Dev nD, iprop(StableHlo.held (c : Thread nD τ) (Pipeline.ucRefs τ sig) (V19 m outs c) ∗ Rest (F := F) c) ⊢ R8.pre c)
    (hpost8 : ∀ c : Dev nD, R8.post c ⊢ iprop(StableHlo.held (c : Thread nD τ) (Pipeline.ucRefs τ sig) (V20 m outs c) ∗ Rest (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond (F := F) m emb₁ () 𝒱₀ L lv (fun _ _ => rfl) ρ outs pdats (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest (F := F) c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    R0 hpre0 hpost0 R1 hpre1 hpost1 R2 hpre2 hpost2 R3 hpre3 hpost3 R4 hpre4 hpost4 R5 hpre5 hpost5 R6 hpre6 hpost6 R7 hpre7 hpost7 R8 hpre8 hpost8

end Cert.Kernel.Hand

end
-- ==== Proof.KReg0.lean ====
/-
  Region 0's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KFrameKit
import proofs.«163161_j55817394979591_1_alg».proof.Proof.KRegion0
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 0 is this region's at the entry contents, and any exit
    contents that hold the region's arrays as the pipeline leaves them (`hF`) and agree with the entry contents elsewhere (`hrest`). -/
def reg0 (h : ∀ c, pdats 0 c = dat0 (fun c b => Vin c b) c)
    (hF : ∀ c (w : Fin cfg0.W), (pdats 0 c).arrAt w cfg0.N = Vout c (Pipeline.arrRef spec0 w))
    (hrest : ∀ c (b : Ref sig .tc), b ∉ Finset.univ.image (Pipeline.arrRef spec0) → Vout c b = Vin c b) :
    RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [h c]; exact (body_obligation0 (fun c b => Vin c b) c).loose
  hwaits := Pipeline.hwaits_of_owed_zero _ _ _ _ L lv 0 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec0 c (fun b => Vin c b)
  hentry c := by
    rw [Pipeline.ownSems0_none]
    have hsplit := Pipeline.arrays_of_unscopedBufs (p := 0) (pcfgs (F := F)) adm pdats launch0.win launch0.arr_whole c
      ((pdats 0 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [h c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [h c]; rfl)
      (fun b => Vin c b) (fun b => Vout c b) ((pdats 0 c).arrAt · cfg0.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion1Runs.lean ====
/- Region 1 of the program (custom_call 1, `cc1_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' (`hA`) and whose body leaves the block in place (`hafter`): unfetched,
    the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' (`hA`) and whose body leaves the block in place (`hafter`): unfetched,
    the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' (`hA`) and whose body leaves the block in place (`hafter`): unfetched,
    the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' (`hA`) and whose body leaves the block in place (`hafter`): unfetched,
    the block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (zero the accumulators), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (copy the accumulators out), from the grid coordinate. -/
abbrev cond1_1 (i : grid1.Coords) : Prop := k1_cond2 i = 1#1
/-- It holds at the last point only — decided over the grid. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- At the first point output 5 is idle (nothing is stored into it) and its block is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- At the middle points output 5 is idle and its block is not written back. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At the last point output 5 is live: the accumulator is copied into it. -/
theorem liveAt1_5_C : ∀ t : Fin cfg1.N, ¬cond1_0 (grid1.coords t) → cond1_1 (grid1.coords t) → cfg1.idle 5 (grid1.coords t) = false := by decide +kernel

/-- At the first point output 6 is idle (nothing is stored into it) and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At the middle points output 6 is idle and its block is not written back. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last point output 6 is live: the accumulator is copied into it. -/
theorem liveAt1_6_C : ∀ t : Fin cfg1.N, ¬cond1_0 (grid1.coords t) → cond1_1 (grid1.coords t) → cfg1.idle 6 (grid1.coords t) = false := by decide +kernel

/-! ## The staging and accumulator memrefs -/

/-- One staging buffer of each output window, through which its contents are stated (the choice does not matter). -/
abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own, passed beside the windows. -/
abbrev scM1_0 : Memref sig .tc .vmem S1x128 .f32 := Memref.whole cc1_scratch0
abbrev scM1_1 : Memref sig .tc .vmem S1x128 .f32 := Memref.whole cc1_scratch1
/-- The accumulators as views: what they hold is stated through these. -/
abbrev VS1_0 : View sig .tc .vmem S1x128 .f32 := scM1_0.view
abbrev VS1_1 : View sig .tc .vmem S1x128 .f32 := scM1_1.view

/-- The region invariant with the two accumulators as memrefs owned at some contents, beside the unopened rest of
    the scoped buffers and the generator register: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.KRegion1RunA.lean ====
/- Region 1, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KRegion1Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion1RunB.lean ====
/- Region 1, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KRegion1Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion1RunC.lean ====
/- Region 1, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KRegion1Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.KRegion1.lean ====
/- Region 1 of the program (custom_call 1): the per-region half of its frame proof, assembled from the three runs.
   What each control case leaves in the outputs and the two accumulators, read back from the pieces the runs found;
   the contents after every point (`outsAt1`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KRegion1RunA
import proofs.«163161_j55817394979591_1_alg».proof.Proof.KRegion1RunB
import proofs.«163161_j55817394979591_1_alg».proof.Proof.KRegion1RunC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

/-- What the first point leaves in output 4's staging buffer: the run's pieces read back over junk. -/
def out1_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) : Vec F S5000x128 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover1_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) (y : S5000x128.Idx) :
    ∃ pc ∈ (kernelRun1_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover1_A_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover1_A_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) (y : S1x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out1_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover1_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover1_B_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover1_B_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out1_C_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO1_4.read (Elt F) (VO1_4.writes (Elt F) VO1_4.junk (kernelRun1_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover1_C_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out1_C_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover1_C_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover1_C_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover1_C_0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover1_C_1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle1_5 : Vec F S1x128 .f32 := VO1_5.read (Elt F) VO1_5.junk
def idle1_6 : Vec F S1x128 .f32 := VO1_6.read (Elt F) VO1_6.junk

section Region1
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt1 (c : Dev nD) : (n : ℕ) → n < cfg1.N → (Vec F S5000x128 .f32 × Vec F S1x128 .f32 × Vec F S1x128 .f32 × Vec F S1x128 .f32 × Vec F S1x128 .f32)
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), idle1_5, idle1_6, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 19 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, idle1_5, idle1_6, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) (h1 : ¬t.val = 19) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), idle1_5, idle1_6, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a middle point: over what the point before left in the accumulators. -/
theorem outsAt1_B (c : Dev nD) (t : Fin cfg1.N) (h0 : ¬t.val = 0) (h1 : ¬t.val = 19) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idle1_5, idle1_6, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: over what the point before left in the accumulators. -/
theorem outsAt1_C (c : Dev nD) (t : Fin cfg1.N) (h0 : ¬t.val = 0) (h1 : t.val = 19) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant before position `n`: before the first point the class's (both accumulators at anything); afterwards
    both accumulators at what the point before left in them, beside the unopened rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): both accumulators at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ rest1 c) ∗ (∃ r, prngReg c r)) := rfl

/-- Before a point that is not the first: both accumulators at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ rest1 c) ∗ (∃ r, prngReg c r)) := by
  cases n with
  | zero => exact absurd rfl hz
  | succ n => rfl

/-! ## The pipeline's proof data -/

/-- The proof data of region 1 on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  by_cases h0 : t.val = 0
  · by_cases h1 : t.val = 19
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold out1_A_4 sout1_A_0 sout1_A_1; (try dsimp only)
      rw [PhiS1_castSucc V c t, PhiS1_zero V c _ _ h0, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _)
      isplitl [H5]; · iexists _; iexact H5
      iexists _; iexact H6
  · by_cases h1 : t.val = 19
    · rw [show (dat1 V c).leavesExact 5 t = owns (c : Thread nD τ) (ms1_5 t) fullShare ((dat1 V c).after 5 t) from by
          unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
          unfold Dat.leavesExact; rw [liveAt1_6_C t (fun h => h0 ((hcond1_0 t).mp h)) ((hcond1_1 t).mpr h1)], after1_6]
      rw [outsAt1_C V c t h0 h1]
      unfold out1_C_4 out1_C_5 out1_C_6 sout1_C_0 sout1_C_1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold out1_B_4 sout1_B_0 sout1_B_1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region1

end Cert.Kernel.Hand

end
-- ==== Proof.KReg1.lean ====
/-
  Region 1's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KFrameKit
import proofs.«163161_j55817394979591_1_alg».proof.Proof.KRegion1
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 1 is this region's at the entry contents, and any exit
    contents that hold the region's arrays as the pipeline leaves them (`hF`) and agree with the entry contents elsewhere (`hrest`). -/
def reg1 (h : ∀ c, pdats 1 c = dat1 (fun c b => Vin c b) c)
    (hF : ∀ c (w : Fin cfg1.W), (pdats 1 c).arrAt w cfg1.N = Vout c (Pipeline.arrRef spec1 w))
    (hrest : ∀ c (b : Ref sig .tc), b ∉ Finset.univ.image (Pipeline.arrRef spec1) → Vout c b = Vin c b) :
    RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [h c]; exact (body_obligation1 (fun c b => Vin c b) c).loose
  hwaits := Pipeline.hwaits_of_owed_zero _ _ _ _ L lv 1 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec1 c (fun b => Vin c b)
  hentry c := by
    rw [Pipeline.ownSems0_none]
    have hsplit := Pipeline.arrays_of_unscopedBufs (p := 1) (pcfgs (F := F)) adm pdats launch1.win launch1.arr_whole c
      ((pdats 1 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin1 (fun c b => Vin c b) c)
    unfold Pipeline.ΦA
    iintro ⟨Hp, -, Hr⟩
    isplitl [Hr]; · iexact Hr
    iexact Hp
  hout c := by
    rw [Pipeline.ownSems0_none, h c]
    refine (hout1 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [h c]; rfl)
      (fun b => Vin c b) (fun b => Vout c b) ((pdats 1 c).arrAt · cfg1.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg2.lean ====
/-
  Region 2's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KFrameKit
import proofs.«163161_j55817394979591_1_alg».proof.Proof.KRegion2
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 2 is this region's at the entry contents, and any exit
    contents that hold the region's arrays as the pipeline leaves them (`hF`) and agree with the entry contents elsewhere (`hrest`). -/
def reg2 (h : ∀ c, pdats 2 c = dat2 (fun c b => Vin c b) c)
    (hF : ∀ c (w : Fin cfg2.W), (pdats 2 c).arrAt w cfg2.N = Vout c (Pipeline.arrRef spec2 w))
    (hrest : ∀ c (b : Ref sig .tc), b ∉ Finset.univ.image (Pipeline.arrRef spec2) → Vout c b = Vin c b) :
    RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := by rw [h c]; exact (body_obligation2 (fun c b => Vin c b) c).loose
  hwaits := Pipeline.hwaits_of_owed_zero _ _ _ _ L lv 2 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec2 c (fun b => Vin c b)
  hentry c := by
    rw [Pipeline.ownSems0_none]
    have hsplit := Pipeline.arrays_of_unscopedBufs (p := 2) (pcfgs (F := F)) adm pdats launch2.win launch2.arr_whole c
      ((pdats 2 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [h c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [h c]; rfl)
      (fun b => Vin c b) (fun b => Vout c b) ((pdats 2 c).arrAt · cfg2.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion3Runs.lean ====
/- Region 3 of the program (custom_call 3, `cc3_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents' (`hA`) and whose body leaves the block in place (`hafter`): unfetched,
    the block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents' (`hA`) and whose body leaves the block in place (`hafter`): unfetched,
    the block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents' (`hA`) and whose body leaves the block in place (`hafter`): unfetched,
    the block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents' (`hA`) and whose body leaves the block in place (`hafter`): unfetched,
    the block index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's branch conditions -/

/-- The condition of the body's first `scf.if` (zero the accumulators), from the grid coordinate. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (copy the accumulators out), from the grid coordinate. -/
abbrev cond3_1 (i : grid3.Coords) : Prop := k3_cond2 i = 1#1
/-- It holds at the last point only — decided over the grid. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- Window 0 is never idle. -/
theorem liveAt3_0 : ∀ t : Fin cfg3.N, cfg3.idle 0 (grid3.coords t) = false := by decide +kernel
/-- Window 1 is never idle. -/
theorem liveAt3_1 : ∀ t : Fin cfg3.N, cfg3.idle 1 (grid3.coords t) = false := by decide +kernel
/-- Window 2 is never idle. -/
theorem liveAt3_2 : ∀ t : Fin cfg3.N, cfg3.idle 2 (grid3.coords t) = false := by decide +kernel
/-- Window 3 is never idle. -/
theorem liveAt3_3 : ∀ t : Fin cfg3.N, cfg3.idle 3 (grid3.coords t) = false := by decide +kernel
/-- Window 4 is never idle. -/
theorem liveAt3_4 : ∀ t : Fin cfg3.N, cfg3.idle 4 (grid3.coords t) = false := by decide +kernel
/-- At the first point output 5 is idle (nothing is stored into it) and its block is not written back. -/
theorem idleAt3_5_A : ∀ t : Fin cfg3.N, cond3_0 (grid3.coords t) → ¬cond3_1 (grid3.coords t) → cfg3.idle 5 (grid3.coords t) = true := by decide +kernel
theorem noFlush3_5_A : ∀ t : Fin cfg3.N, cond3_0 (grid3.coords t) → ¬cond3_1 (grid3.coords t) → (cfg3.win 5).flush t = false := by decide +kernel
/-- At the middle points output 5 is idle and its block is not written back. -/
theorem idleAt3_5_B : ∀ t : Fin cfg3.N, ¬cond3_0 (grid3.coords t) → ¬cond3_1 (grid3.coords t) → cfg3.idle 5 (grid3.coords t) = true := by decide +kernel
theorem noFlush3_5_B : ∀ t : Fin cfg3.N, ¬cond3_0 (grid3.coords t) → ¬cond3_1 (grid3.coords t) → (cfg3.win 5).flush t = false := by decide +kernel
/-- At the last point output 5 is live: the accumulator is copied into it. -/
theorem liveAt3_5_C : ∀ t : Fin cfg3.N, ¬cond3_0 (grid3.coords t) → cond3_1 (grid3.coords t) → cfg3.idle 5 (grid3.coords t) = false := by decide +kernel

/-- At the first point output 6 is idle (nothing is stored into it) and its block is not written back. -/
theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel
/-- At the middle points output 6 is idle and its block is not written back. -/
theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel
/-- At the last point output 6 is live: the accumulator is copied into it. -/
theorem liveAt3_6_C : ∀ t : Fin cfg3.N, ¬cond3_0 (grid3.coords t) → cond3_1 (grid3.coords t) → cfg3.idle 6 (grid3.coords t) = false := by decide +kernel

/-! ## The staging and accumulator memrefs -/

/-- One staging buffer of each output window, through which its contents are stated (the choice does not matter). -/
abbrev VO3_4 : View sig .tc .vmem S5000x128 .f32 := (Memref.whole cc3_stg4_0 : Memref sig .tc .vmem S5000x128 .f32).view
abbrev VO3_5 : View sig .tc .vmem S1x128 .f32 := (Memref.whole cc3_stg5_0 : Memref sig .tc .vmem S1x128 .f32).view
abbrev VO3_6 : View sig .tc .vmem S1x128 .f32 := (Memref.whole cc3_stg6_0 : Memref sig .tc .vmem S1x128 .f32).view
/-- Each window's current staging memref at point `t`, spelled as the pipeline passes it, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S5000x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
/-- The two accumulators: whole scoped buffers of the kernel's own, passed beside the windows. -/
abbrev scM3_0 : Memref sig .tc .vmem S1x128 .f32 := Memref.whole cc3_scratch0
abbrev scM3_1 : Memref sig .tc .vmem S1x128 .f32 := Memref.whole cc3_scratch1
/-- The accumulators as views: what they hold is stated through these. -/
abbrev VS3_0 : View sig .tc .vmem S1x128 .f32 := scM3_0.view
abbrev VS3_1 : View sig .tc .vmem S1x128 .f32 := scM3_1.view

/-- The region invariant with the two accumulators as memrefs owned at some contents, beside the unopened rest of
    the scoped buffers and the generator register: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.KRegion3RunA.lean ====
/- Region 3, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KRegion3Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun3_A (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion3RunB.lean ====
/- Region 3, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KRegion3Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun3_B (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion3RunC.lean ====
/- Region 3, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KRegion3Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun3_C (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.KRegion3.lean ====
/- Region 3 of the program (custom_call 3): the per-region half of its frame proof, assembled from the three runs.
   What each control case leaves in the outputs and the two accumulators, read back from the pieces the runs found;
   the contents after every point (`outsAt3`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KRegion3RunA
import proofs.«163161_j55817394979591_1_alg».proof.Proof.KRegion3RunB
import proofs.«163161_j55817394979591_1_alg».proof.Proof.KRegion3RunC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

/-- What the first point leaves in output 4's staging buffer: the run's pieces read back over junk. -/
def out3_A_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) : Vec F S5000x128 .f32 :=
  VO3_4.read (Elt F) (VO3_4.writes (Elt F) VO3_4.junk (kernelRun3_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover3_A_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) (y : S5000x128.Idx) :
    ∃ pc ∈ (kernelRun3_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout3_A_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover3_A_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout3_A_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover3_A_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out3_B_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO3_4.read (Elt F) (VO3_4.writes (Elt F) VO3_4.junk (kernelRun3_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover3_B_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout3_B_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover3_B_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout3_B_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover3_B_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out3_C_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO3_4.read (Elt F) (VO3_4.writes (Elt F) VO3_4.junk (kernelRun3_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover3_C_4 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out3_C_5 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO3_5.read (Elt F) (VO3_5.writes (Elt F) VO3_5.junk (kernelRun3_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover3_C_5 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out3_C_6 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover3_C_6 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout3_C_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover3_C_0 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout3_C_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover3_C_1 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle3_5 : Vec F S1x128 .f32 := VO3_5.read (Elt F) VO3_5.junk
def idle3_6 : Vec F S1x128 .f32 := VO3_6.read (Elt F) VO3_6.junk

section Region3
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt3 (c : Dev nD) : (n : ℕ) → n < cfg3.N → (Vec F S5000x128 .f32 × Vec F S1x128 .f32 × Vec F S1x128 .f32 × Vec F S1x128 .f32 × Vec F S1x128 .f32)
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), idle3_5, idle3_6, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h1 : n + 1 = 19 then
      (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2)
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, idle3_5, idle3_6, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2.2.1 (outsAt3 c n (Nat.lt_of_succ_lt hn)).2.2.2.2)

/-- `outsAt3` at the first point. -/
theorem outsAt3_A (c : Dev nD) (t : Fin cfg3.N) (h0 : t.val = 0) (h1 : ¬t.val = 19) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t), idle3_5, idle3_6, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact absurd h0 (Nat.succ_ne_zero n)

/-- `outsAt3` at a middle point: over what the point before left in the accumulators. -/
theorem outsAt3_B (c : Dev nD) (t : Fin cfg3.N) (h0 : ¬t.val = 0) (h1 : ¬t.val = 19) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, idle3_5, idle3_6, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt3` at the last point: over what the point before left in the accumulators. -/
theorem outsAt3_C (c : Dev nD) (t : Fin cfg3.N) (h0 : ¬t.val = 0) (h1 : t.val = 19) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The invariant before position `n`: before the first point the class's (both accumulators at anything); afterwards
    both accumulators at what the point before left in them, beside the unopened rest and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2)) ∗ rest3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): both accumulators at that point's contents. -/
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2)) ∗ rest3 c) ∗ (∃ r, prngReg c r)) := rfl

/-- Before a point that is not the first: both accumulators at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2)) ∗ rest3 c) ∗ (∃ r, prngReg c r)) := by
  cases n with
  | zero => exact absurd rfl hz
  | succ n => rfl

/-! ## The pipeline's proof data -/

/-- The proof data of region 3 on core `c`: the arrays as the region finds them (`V`); after the body at point `t`
    each input's buffer at its block and the outputs' at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
    | ⟨6, _⟩ => (outsAt3 V c t.val t.isLt).2.2.1
  Φ t := PhiS3 V c t.val (Nat.le_of_lt_succ t.isLt)
  q _ := fullShare
  owed _ := 0

/-- The proof data's arrays are the region-entry contents (the definition projected; `V` is never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem after3_6 (c : Dev nD) (t : Fin cfg3.N) : (dat3 V c).after 6 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  rw [show (dat3 V c).leavesExact 3 t = owns (c : Thread nD τ) (ms3_3 t) fullShare ((dat3 V c).after 3 t) from by
      unfold Dat.leavesExact; rw [liveAt3_3 t], after3_3]
  rw [show (dat3 V c).leavesExact 4 t = owns (c : Thread nD τ) (ms3_4 t) fullShare ((dat3 V c).after 4 t) from by
      unfold Dat.leavesExact; rw [liveAt3_4 t], after3_4]
  by_cases h0 : t.val = 0
  · by_cases h1 : t.val = 19
    · exfalso; omega
    · rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold out3_A_4 sout3_A_0 sout3_A_1; (try dsimp only)
      rw [PhiS3_castSucc V c t, PhiS3_zero V c _ _ h0, PhiA3_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _)
            unfold owns; iexists _; isplitr
            swap; · iexact HS1
            ipureintro; exact View.read_writes_of_cover _ _ _ _ _ (scover3_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_A_4 c _ _ _ _ _ _ _ _ _ _ _ _ _ _ _ _ _ _ _ _ _ _ _ _ _)
      isplitl [H5]; · iexists _; iexact H5
      iexists _; iexact H6
  · by_cases h1 : t.val = 19
    · rw [show (dat3 V c).leavesExact 5 t = owns (c : Thread nD τ) (ms3_5 t) fullShare ((dat3 V c).after 5 t) from by
          unfold Dat.leavesExact; rw [liveAt3_5_C t (fun h => h0 ((hcond3_0 t).mp h)) ((hcond3_1 t).mpr h1)], after3_5]
      rw [show (dat3 V c).leavesExact 6 t = owns (c : Thread nD τ) (ms3_6 t) fullShare ((dat3 V c).after 6 t) from by
          unfold Dat.leavesExact; rw [liveAt3_6_C t (fun h => h0 ((hcond3_0 t).mp h)) ((hcond3_1 t).mpr h1)], after3_6]
      rw [outsAt3_C V c t h0 h1]
      unfold out3_C_4 out3_C_5 out3_C_6 sout3_C_0 sout3_C_1; (try dsimp only)
      rw [PhiS3_castSucc V c t, PhiS3_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover3_C_5 c _ _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _ _)
    · rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold out3_B_4 sout3_B_0 sout3_B_1; (try dsimp only)
      rw [PhiS3_castSucc V c t, PhiS3_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_B_4 c _ _ _ _ _ _ _ _ _ _ _ _ _ _ _ _ _ _ _ _ _ _ _ _ _ _ _)
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Region3

end Cert.Kernel.Hand

end
-- ==== Proof.KReg3.lean ====
/-
  Region 3's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KFrameKit
import proofs.«163161_j55817394979591_1_alg».proof.Proof.KRegion3
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 3 is this region's at the entry contents, and any exit
    contents that hold the region's arrays as the pipeline leaves them (`hF`) and agree with the entry contents elsewhere (`hrest`). -/
def reg3 (h : ∀ c, pdats 3 c = dat3 (fun c b => Vin c b) c)
    (hF : ∀ c (w : Fin cfg3.W), (pdats 3 c).arrAt w cfg3.N = Vout c (Pipeline.arrRef spec3 w))
    (hrest : ∀ c (b : Ref sig .tc), b ∉ Finset.univ.image (Pipeline.arrRef spec3) → Vout c b = Vin c b) :
    RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [h c]; exact (body_obligation3 (fun c b => Vin c b) c).loose
  hwaits := Pipeline.hwaits_of_owed_zero _ _ _ _ L lv 3 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec3 c (fun b => Vin c b)
  hentry c := by
    rw [Pipeline.ownSems0_none]
    have hsplit := Pipeline.arrays_of_unscopedBufs (p := 3) (pcfgs (F := F)) adm pdats launch3.win launch3.arr_whole c
      ((pdats 3 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin3 (fun c b => Vin c b) c)
    unfold Pipeline.ΦA
    iintro ⟨Hp, -, Hr⟩
    isplitl [Hr]; · iexact Hr
    iexact Hp
  hout c := by
    rw [Pipeline.ownSems0_none, h c]
    refine (hout3 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun _ => by rw [h c]; rfl)
      (fun b => Vin c b) (fun b => Vout c b) ((pdats 3 c).arrAt · cfg3.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg4.lean ====
/-
  Region 4's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KFrameKit
import proofs.«163161_j55817394979591_1_alg».proof.Proof.KRegion4
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 4 is this region's at the entry contents, and any exit
    contents that hold the region's arrays as the pipeline leaves them (`hF`) and agree with the entry contents elsewhere (`hrest`). -/
def reg4 (h : ∀ c, pdats 4 c = dat4 (fun c b => Vin c b) c)
    (hF : ∀ c (w : Fin cfg4.W), (pdats 4 c).arrAt w cfg4.N = Vout c (Pipeline.arrRef spec4 w))
    (hrest : ∀ c (b : Ref sig .tc), b ∉ Finset.univ.image (Pipeline.arrRef spec4) → Vout c b = Vin c b) :
    RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := by rw [h c]; exact (body_obligation4 (fun c b => Vin c b) c).loose
  hwaits := Pipeline.hwaits_of_owed_zero _ _ _ _ L lv 4 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec4 c (fun b => Vin c b)
  hentry c := by
    rw [Pipeline.ownSems0_none]
    have hsplit := Pipeline.arrays_of_unscopedBufs (p := 4) (pcfgs (F := F)) adm pdats launch4.win launch4.arr_whole c
      ((pdats 4 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 4 c).Φ 0 = Pipeline.ΦA spec4 c from by rw [h c]; rfl]; unfold Pipeline.ΦA
    iintro ⟨Hp, -, Hr⟩
    isplitl [Hr]; · iexact Hr
    iexact Hp
  hout c := by
    rw [Pipeline.ownSems0_none, show (pdats 4 c).Φ (Fin.last _) = Pipeline.ΦA spec4 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun _ => by rw [h c]; rfl)
      (fun b => Vin c b) (fun b => Vout c b) ((pdats 4 c).arrAt · cfg4.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion5Runs.lean ====
/- Region 5 of the program (custom_call 5, `cc5_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents' (`hA`) and whose body leaves the block in place (`hafter`): unfetched,
    the block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents' (`hA`) and whose body leaves the block in place (`hafter`): unfetched,
    the block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents' (`hA`) and whose body leaves the block in place (`hafter`): unfetched,
    the block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is the entry contents' (`hA`) and whose body leaves the block in place (`hafter`): unfetched,
    the block index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

end Region5

/-! ## The body's branch conditions -/

/-- The condition of the body's first `scf.if` (zero the accumulators), from the grid coordinate. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val = 0 :=
  (by decide +kernel : ∀ t : Fin grid5.N, cond5_0 (grid5.coords t) ↔ t.val = 0)

/-- The condition of the body's second `scf.if` (copy the accumulators out), from the grid coordinate. -/
abbrev cond5_1 (i : grid5.Coords) : Prop := k5_cond2 i = 1#1
/-- It holds at the last point only — decided over the grid. -/
theorem hcond5_1 : ∀ t : Fin cfg5.N, cond5_1 (grid5.coords t) ↔ t.val = 19 :=
  (by decide +kernel : ∀ t : Fin grid5.N, cond5_1 (grid5.coords t) ↔ t.val = 19)

/-! ## Where the windows are idle -/

/-- Window 0 is never idle. -/
theorem liveAt5_0 : ∀ t : Fin cfg5.N, cfg5.idle 0 (grid5.coords t) = false := by decide +kernel
/-- Window 1 is never idle. -/
theorem liveAt5_1 : ∀ t : Fin cfg5.N, cfg5.idle 1 (grid5.coords t) = false := by decide +kernel
/-- Window 2 is never idle. -/
theorem liveAt5_2 : ∀ t : Fin cfg5.N, cfg5.idle 2 (grid5.coords t) = false := by decide +kernel
/-- Window 3 is never idle. -/
theorem liveAt5_3 : ∀ t : Fin cfg5.N, cfg5.idle 3 (grid5.coords t) = false := by decide +kernel
/-- Window 4 is never idle. -/
theorem liveAt5_4 : ∀ t : Fin cfg5.N, cfg5.idle 4 (grid5.coords t) = false := by decide +kernel
/-- At the first point output 5 is idle (nothing is stored into it) and its block is not written back. -/
theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel
/-- At the middle points output 5 is idle and its block is not written back. -/
theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel
/-- At the last point output 5 is live: the accumulator is copied into it. -/
theorem liveAt5_5_C : ∀ t : Fin cfg5.N, ¬cond5_0 (grid5.coords t) → cond5_1 (grid5.coords t) → cfg5.idle 5 (grid5.coords t) = false := by decide +kernel

/-- At the first point output 6 is idle (nothing is stored into it) and its block is not written back. -/
theorem idleAt5_6_A : ∀ t : Fin cfg5.N, cond5_0 (grid5.coords t) → ¬cond5_1 (grid5.coords t) → cfg5.idle 6 (grid5.coords t) = true := by decide +kernel
theorem noFlush5_6_A : ∀ t : Fin cfg5.N, cond5_0 (grid5.coords t) → ¬cond5_1 (grid5.coords t) → (cfg5.win 6).flush t = false := by decide +kernel
/-- At the middle points output 6 is idle and its block is not written back. -/
theorem idleAt5_6_B : ∀ t : Fin cfg5.N, ¬cond5_0 (grid5.coords t) → ¬cond5_1 (grid5.coords t) → cfg5.idle 6 (grid5.coords t) = true := by decide +kernel
theorem noFlush5_6_B : ∀ t : Fin cfg5.N, ¬cond5_0 (grid5.coords t) → ¬cond5_1 (grid5.coords t) → (cfg5.win 6).flush t = false := by decide +kernel
/-- At the last point output 6 is live: the accumulator is copied into it. -/
theorem liveAt5_6_C : ∀ t : Fin cfg5.N, ¬cond5_0 (grid5.coords t) → cond5_1 (grid5.coords t) → cfg5.idle 6 (grid5.coords t) = false := by decide +kernel

/-! ## The staging and accumulator memrefs -/

/-- One staging buffer of each output window, through which its contents are stated (the choice does not matter). -/
abbrev VO5_4 : View sig .tc .vmem S5000x128 .f32 := (Memref.whole cc5_stg4_0 : Memref sig .tc .vmem S5000x128 .f32).view
abbrev VO5_5 : View sig .tc .vmem S1x128 .f32 := (Memref.whole cc5_stg5_0 : Memref sig .tc .vmem S1x128 .f32).view
abbrev VO5_6 : View sig .tc .vmem S1x128 .f32 := (Memref.whole cc5_stg6_0 : Memref sig .tc .vmem S1x128 .f32).view
/-- Each window's current staging memref at point `t`, spelled as the pipeline passes it, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S5000x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
/-- The two accumulators: whole scoped buffers of the kernel's own, passed beside the windows. -/
abbrev scM5_0 : Memref sig .tc .vmem S1x128 .f32 := Memref.whole cc5_scratch0
abbrev scM5_1 : Memref sig .tc .vmem S1x128 .f32 := Memref.whole cc5_scratch1
/-- The accumulators as views: what they hold is stated through these. -/
abbrev VS5_0 : View sig .tc .vmem S1x128 .f32 := scM5_0.view
abbrev VS5_1 : View sig .tc .vmem S1x128 .f32 := scM5_1.view

/-- The region invariant with the two accumulators as memrefs owned at some contents, beside the unopened rest of
    the scoped buffers and the generator register: what the body obligation hands the run and takes back. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.Kernel.Hand

end
-- ==== Proof.KRegion5RunA.lean ====
/- Region 5, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KRegion5Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun5_A (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion5RunB.lean ====
/- Region 5, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KRegion5Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun5_B (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion5RunC.lean ====
/- Region 5, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KRegion5Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun5_C (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.KRegion5.lean ====
/- Region 5 of the program (custom_call 5): the per-region half of its frame proof, assembled from the three runs.
   What each control case leaves in the outputs and the two accumulators, read back from the pieces the runs found;
   the contents after every point (`outsAt5`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KRegion5RunA
import proofs.«163161_j55817394979591_1_alg».proof.Proof.KRegion5RunB
import proofs.«163161_j55817394979591_1_alg».proof.Proof.KRegion5RunC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

/-- What the first point leaves in output 4's staging buffer: the run's pieces read back over junk. -/
def out5_A_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) : Vec F S5000x128 .f32 :=
  VO5_4.read (Elt F) (VO5_4.writes (Elt F) VO5_4.junk (kernelRun5_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover5_A_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) (y : S5000x128.Idx) :
    ∃ pc ∈ (kernelRun5_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout5_A_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) : Vec F S1x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover5_A_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) (y : S1x128.Idx) :
    ∃ pc ∈ (kernelRun5_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout5_A_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) : Vec F S1x128 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover5_A_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) (y : S1x128.Idx) :
    ∃ pc ∈ (kernelRun5_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out5_B_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO5_4.read (Elt F) (VO5_4.writes (Elt F) VO5_4.junk (kernelRun5_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover5_B_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun5_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout5_B_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover5_B_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout5_B_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover5_B_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out5_C_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO5_4.read (Elt F) (VO5_4.writes (Elt F) VO5_4.junk (kernelRun5_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover5_C_4 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out5_C_5 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO5_5.read (Elt F) (VO5_5.writes (Elt F) VO5_5.junk (kernelRun5_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover5_C_5 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out5_C_6 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO5_6.read (Elt F) (VO5_6.writes (Elt F) VO5_6.junk (kernelRun5_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover5_C_6 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout5_C_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover5_C_0 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout5_C_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover5_C_1 (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle5_5 : Vec F S1x128 .f32 := VO5_5.read (Elt F) VO5_5.junk
def idle5_6 : Vec F S1x128 .f32 := VO5_6.read (Elt F) VO5_6.junk

section Region5
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt5 (c : Dev nD) : (n : ℕ) → n < cfg5.N → (Vec F S5000x128 .f32 × Vec F S1x128 .f32 × Vec F S1x128 .f32 × Vec F S1x128 .f32 × Vec F S1x128 .f32)
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), idle5_5, idle5_6, sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩))
  | n + 1, hn =>
    if h1 : n + 1 = 19 then
      (out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2)
    else
      (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, idle5_5, idle5_6, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2.2.2.1 (outsAt5 c n (Nat.lt_of_succ_lt hn)).2.2.2.2)

/-- `outsAt5` at the first point. -/
theorem outsAt5_A (c : Dev nD) (t : Fin cfg5.N) (h0 : t.val = 0) (h1 : ¬t.val = 19) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t), idle5_5, idle5_6, sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact absurd h0 (Nat.succ_ne_zero n)

/-- `outsAt5` at a middle point: over what the point before left in the accumulators. -/
theorem outsAt5_B (c : Dev nD) (t : Fin cfg5.N) (h0 : ¬t.val = 0) (h1 : ¬t.val = 19) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, idle5_5, idle5_6, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt5` at the last point: over what the point before left in the accumulators. -/
theorem outsAt5_C (c : Dev nD) (t : Fin cfg5.N) (h0 : ¬t.val = 0) (h1 : t.val = 19) :
    outsAt5 V c t.val t.isLt = (out5_C_4 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The invariant before position `n`: before the first point the class's (both accumulators at anything); afterwards
    both accumulators at what the point before left in them, beside the unopened rest and the generator register. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.2.1) ∗ owns (c : Thread nD τ) scM5_1 fullShare ((outsAt5 V c n hn).2.2.2.2)) ∗ rest5 c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): both accumulators at that point's contents. -/
theorem PhiS5_succ (c : Dev nD) (n : ℕ) (hn : n < cfg5.N) :
    PhiS5 V c (n + 1) hn = iprop(iprop(iprop(owns (c : Thread nD τ) scM5_0 fullShare ((outsAt5 V c n hn).2.2.2.1) ∗ owns (c : Thread nD τ) scM5_1 fullShare ((outsAt5 V c n hn).2.2.2.2)) ∗ rest5 c) ∗ (∃ r, prngReg c r)) := rfl

/-- Before a point that is not the first: both accumulators at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.2.1) ∗ owns (c : Thread nD τ) scM5_1 fullShare ((outsAt5 V c (n - 1) (by omega)).2.2.2.2)) ∗ rest5 c) ∗ (∃ r, prngReg c r)) := by
  cases n with
  | zero => exact absurd rfl hz
  | succ n => rfl

/-! ## The pipeline's proof data -/

/-- The proof data of region 5 on core `c`: the arrays as the region finds them (`V`); after the body at point `t`
    each input's buffer at its block and the outputs' at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
    | ⟨5, _⟩ => (outsAt5 V c t.val t.isLt).2.1
    | ⟨6, _⟩ => (outsAt5 V c t.val t.isLt).2.2.1
  Φ t := PhiS5 V c t.val (Nat.le_of_lt_succ t.isLt)
  q _ := fullShare
  owed _ := 0

/-- The proof data's arrays are the region-entry contents (the definition projected; `V` is never unfolded). -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]
theorem after5_5 (c : Dev nD) (t : Fin cfg5.N) : (dat5 V c).after 5 t = (outsAt5 V c t.val t.isLt).2.1 := by dsimp only [dat5]
theorem after5_6 (c : Dev nD) (t : Fin cfg5.N) : (dat5 V c).after 6 t = (outsAt5 V c t.val t.isLt).2.2.1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  rw [show (dat5 V c).leavesExact 3 t = owns (c : Thread nD τ) (ms5_3 t) fullShare ((dat5 V c).after 3 t) from by
      unfold Dat.leavesExact; rw [liveAt5_3 t], after5_3]
  rw [show (dat5 V c).leavesExact 4 t = owns (c : Thread nD τ) (ms5_4 t) fullShare ((dat5 V c).after 4 t) from by
      unfold Dat.leavesExact; rw [liveAt5_4 t], after5_4]
  by_cases h0 : t.val = 0
  · by_cases h1 : t.val = 19
    · exfalso; omega
    · rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
      rw [outsAt5_A V c t h0 h1]
      unfold out5_A_4 sout5_A_0 sout5_A_1; (try dsimp only)
      rw [PhiS5_castSucc V c t, PhiS5_zero V c _ _ h0, PhiA5_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _ _ _ _)
            unfold owns; iexists _; isplitr
            swap; · iexact HS1
            ipureintro; exact View.read_writes_of_cover _ _ _ _ _ (scover5_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_A_4 c _ _ _ _ _ _ _ _ _ _ _ _ _ _ _ _ _ _ _ _ _ _ _ _ _)
      isplitl [H5]; · iexists _; iexact H5
      iexists _; iexact H6
  · by_cases h1 : t.val = 19
    · rw [show (dat5 V c).leavesExact 5 t = owns (c : Thread nD τ) (ms5_5 t) fullShare ((dat5 V c).after 5 t) from by
          unfold Dat.leavesExact; rw [liveAt5_5_C t (fun h => h0 ((hcond5_0 t).mp h)) ((hcond5_1 t).mpr h1)], after5_5]
      rw [show (dat5 V c).leavesExact 6 t = owns (c : Thread nD τ) (ms5_6 t) fullShare ((dat5 V c).after 6 t) from by
          unfold Dat.leavesExact; rw [liveAt5_6_C t (fun h => h0 ((hcond5_0 t).mp h)) ((hcond5_1 t).mpr h1)], after5_6]
      rw [outsAt5_C V c t h0 h1]
      unfold out5_C_4 out5_C_5 out5_C_6 sout5_C_0 sout5_C_1; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun5_C c (grid5.coords t) _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _ _ _ _ _)
            unfold owns; iexists _; isplitr
            swap; · iexact HS1
            ipureintro; exact View.read_writes_of_cover _ _ _ _ _ (scover5_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover5_C_5 c _ _ _ _ _ _ _ _ _ _ _ _ _ _ _ _ _ _ _ _ _ _ _ _ _ _ _)
      unfold owns; iexists _; isplitr
      swap; · iexact H6
      ipureintro; exact View.read_writes_of_cover _ _ _ _ _ (cover5_C_6 c _ _ _ _ _ _ _ _ _ _ _ _ _ _ _ _ _ _ _ _ _ _ _ _ _ _ _)
    · rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
      rw [outsAt5_B V c t h0 h1]
      unfold out5_B_4 sout5_B_0 sout5_B_1; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun5_B c (grid5.coords t) _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _ _ _ _ _)
            unfold owns; iexists _; isplitr
            swap; · iexact HS1
            ipureintro; exact View.read_writes_of_cover _ _ _ _ _ (scover5_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_B_4 c _ _ _ _ _ _ _ _ _ _ _ _ _ _ _ _ _ _ _ _ _ _ _ _ _ _ _)
      isplitl [H5]; · iexists _; iexact H5
      iexists _; iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class's back: the accumulators' named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 20 := N_5; omega)

end Region5

end Cert.Kernel.Hand

end
-- ==== Proof.KReg5.lean ====
/-
  Region 5's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KFrameKit
import proofs.«163161_j55817394979591_1_alg».proof.Proof.KRegion5
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 5 is this region's at the entry contents, and any exit
    contents that hold the region's arrays as the pipeline leaves them (`hF`) and agree with the entry contents elsewhere (`hrest`). -/
def reg5 (h : ∀ c, pdats 5 c = dat5 (fun c b => Vin c b) c)
    (hF : ∀ c (w : Fin cfg5.W), (pdats 5 c).arrAt w cfg5.N = Vout c (Pipeline.arrRef spec5 w))
    (hrest : ∀ c (b : Ref sig .tc), b ∉ Finset.univ.image (Pipeline.arrRef spec5) → Vout c b = Vin c b) :
    RegionSeg (pcfgs (F := F)) adm pdats () defs₀ 𝒱₀ L lv 5 where
  win := launch5.win.to₀
  block_pos := launch5.block_pos
  stage_whole := launch5.stage_whole
  K := PEmpty
  osem k := k.elim
  ho := Pipeline.OwnSemFacts.none _
  hbody c := by rw [h c]; exact (body_obligation5 (fun c b => Vin c b) c).loose
  hwaits := Pipeline.hwaits_of_owed_zero _ _ _ _ L lv 5 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec5 c (fun b => Vin c b)
  hentry c := by
    rw [Pipeline.ownSems0_none]
    have hsplit := Pipeline.arrays_of_unscopedBufs (p := 5) (pcfgs (F := F)) adm pdats launch5.win launch5.arr_whole c
      ((pdats 5 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin5 (fun c b => Vin c b) c)
    unfold Pipeline.ΦA
    iintro ⟨Hp, -, Hr⟩
    isplitl [Hr]; · iexact Hr
    iexact Hp
  hout c := by
    rw [Pipeline.ownSems0_none, h c]
    refine (hout5 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [h c]; rfl)
      (fun b => Vin c b) (fun b => Vout c b) ((pdats 5 c).arrAt · cfg5.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg6.lean ====
/-
  Region 6's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KFrameKit
import proofs.«163161_j55817394979591_1_alg».proof.Proof.KRegion6
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 6 is this region's at the entry contents, and any exit
    contents that hold the region's arrays as the pipeline leaves them (`hF`) and agree with the entry contents elsewhere (`hrest`). -/
def reg6 (h : ∀ c, pdats 6 c = dat6 (fun c b => Vin c b) c)
    (hF : ∀ c (w : Fin cfg6.W), (pdats 6 c).arrAt w cfg6.N = Vout c (Pipeline.arrRef spec6 w))
    (hrest : ∀ c (b : Ref sig .tc), b ∉ Finset.univ.image (Pipeline.arrRef spec6) → Vout c b = Vin c b) :
    RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [h c]; exact (body_obligation6 (fun c b => Vin c b) c).loose
  hwaits := Pipeline.hwaits_of_owed_zero _ _ _ _ L lv 6 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec6 c (fun b => Vin c b)
  hentry c := by
    rw [Pipeline.ownSems0_none]
    have hsplit := Pipeline.arrays_of_unscopedBufs (p := 6) (pcfgs (F := F)) adm pdats launch6.win launch6.arr_whole c
      ((pdats 6 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [h c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun _ => by rw [h c]; rfl)
      (fun b => Vin c b) (fun b => Vout c b) ((pdats 6 c).arrAt · cfg6.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion7Runs.lean ====
/- Region 7 of the program (custom_call 7, `cc7_kernel`, a grid of 20 points): what the three control cases of its
   frame proof share. The body zeroes two [1,128] accumulators at the first point, adds the column sums of the
   [5000,128] result block and of its square into them at every point, and copies them to outputs 5 and 6 at the
   last point. Here: the blocks of the windows read off the region's entry contents `V`; the two branch conditions
   in closed form over the grid; where outputs 5 and 6 are idle; the staging and accumulator memrefs; and the
   region invariant with the two accumulators split off the scoped rest. -/
import proofs.«163161_j55817394979591_1_alg».proof.Proof.Gen.Kernel.Launch
import proofs.«163161_j55817394979591_1_alg».proof.Proof.Gen.Kernel.Skeleton
import proofs.«163161_j55817394979591_1_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry contents' (`hA`) and whose body leaves the block in place (`hafter`): unfetched,
    the block index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is the entry contents' (`hA`) and whose body leaves the block in place (`hafter`): unfetched,
    the block index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is the entry contents' (`hA`) and whose body leaves the block in place (`hafter`): unfetched,
    the block index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is the entry contents' (`hA`) and whose body leaves the block in place (`hafter`): unfetched,
    the block index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

end Region7

/-! ## The body's branch conditions -/

/-- The condition of the body's first `scf.if` (zero the accumulators), from the grid coordinate. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val = 0 :=
  (by decide +kernel : ∀ t : Fin grid7.N, cond7_0 (grid7.coords t) ↔ t.val = 0)

/-- The condition of the body's second `scf.if` (copy the accumulators out), from the grid coordinate. -/
abbrev cond7_1 (i : grid7.Coords) : Prop := k7_cond2 i = 1#1
/-- It holds at the last point only — decided over the grid. -/
theorem hcond7_1 : ∀ t : Fin cfg7.N, cond7_1 (grid7.coords t) ↔ t.val = 19 :=
  (by decide +kernel : ∀ t : Fin grid7.N, cond7_1 (grid7.coords t) ↔ t.val = 19)

/-! ## Where the windows are idle -/

/-- Window 0 is never idle. -/
theorem liveAt7_0 : ∀ t : Fin cfg7.N, cfg7.idle 0 (grid7.coords t) = false := by decide +kernel
/-- Window 1 is never idle. -/
theorem liveAt7_1 : ∀ t : Fin cfg7.N, cfg7.idle 1 (grid7.coords t) = false := by decide +kernel
/-- Window 2 is never idle. -/
theorem liveAt7_2 : ∀ t : Fin cfg7.N, cfg7.idle 2 (grid7.coords t) = false := by decide +kernel
/-- Window 3 is never idle. -/
theorem liveAt7_3 : ∀ t : Fin cfg7.N, cfg7.idle 3 (grid7.coords t) = false := by decide +kernel
/-- Window 4 is never idle. -/
theorem liveAt7_4 : ∀ t : Fin cfg7.N, cfg7.idle 4 (grid7.coords t) = false := by decide +kernel
/-- At the first point output 5 is idle (nothing is stored into it) and its block is not written back. -/
theorem idleAt7_5_A : ∀ t : Fin cfg7.N, cond7_0 (grid7.coords t) → ¬cond7_1 (grid7.coords t) → cfg7.idle 5 (grid7.coords t) = true := by decide +kernel
theorem noFlush7_5_A : ∀ t : Fin cfg7.N, cond7_0 (grid7.coords t) → ¬cond7_1 (grid7.coords t) → (cfg7.win 5).flush t = false := by decide +kernel
/-- At the middle points output 5 is idle and its block is not written back. -/
theorem idleAt7_5_B : ∀ t : Fin cfg7.N, ¬cond7_0 (grid7.coords t) → ¬cond7_1 (grid7.coords t) → cfg7.idle 5 (grid7.coords t) = true := by decide +kernel
theorem noFlush7_5_B : ∀ t : Fin cfg7.N, ¬cond7_0 (grid7.coords t) → ¬cond7_1 (grid7.coords t) → (cfg7.win 5).flush t = false := by decide +kernel
/-- At the last point output 5 is live: the accumulator is copied into it. -/
theorem liveAt7_5_C : ∀ t : Fin cfg7.N, ¬cond7_0 (grid7.coords t) → cond7_1 (grid7.coords t) → cfg7.idle 5 (grid7.coords t) = false := by decide +kernel

/-- At the first point output 6 is idle (nothing is stored into it) and its block is not written back. -/
theorem idleAt7_6_A : ∀ t : Fin cfg7.N, cond7_0 (grid7.coords t) → ¬cond7_1 (grid7.coords t) → cfg7.idle 6 (grid7.coords t) = true := by decide +kernel
theorem noFlush7_6_A : ∀ t : Fin cfg7.N, cond7_0 (grid7.coords t) → ¬cond7_1 (grid7.coords t) → (cfg7.win 6).flush t = false := by decide +kernel
/-- At the middle points output 6 is idle and its block is not written back. -/
theorem idleAt7_6_B : ∀ t : Fin cfg7.N, ¬cond7_0 (grid7.coords t) → ¬cond7_1 (grid7.coords t) → cfg7.idle 6 (grid7.coords t) = true := by decide +kernel
theorem noFlush7_6_B : ∀ t : Fin cfg7.N, ¬cond7_0 (grid7.coords t) → ¬cond7_1 (grid7.coords t) → (cfg7.win 6).flush t = false := by decide +kernel
/-- At the last point output 6 is live: the accumulator is copied into it. -/
theorem liveAt7_6_C : ∀ t : Fin cfg7.N, ¬cond7_0 (grid7.coords t) → cond7_1 (grid7.coords t) → cfg7.idle 6 (grid7.coords t) = false := by decide +kernel

/-! ## The staging and accumulator memrefs -/

/-- One staging buffer of each output window, through which its contents are stated (the choice does not matter). -/
abbrev VO7_4 : View sig .tc .vmem S5000x128 .f32 := (Memref.whole cc7_stg4_0 : Memref sig .tc .vmem S5000x128 .f32).view
abbrev VO7_5 : View sig .tc .vmem S1x128 .f32 := (Memref.whole cc7_stg5_0 : Memref sig .tc .vmem S1x128 .f32).view
abbrev VO7_6 : View sig .tc .vmem S1x128 .f32 := (Memref.whole cc7_stg6_0 : Memref sig .tc .vmem S1x128 .f32).view
/-- Each window's current staging memref at point `t`, spelled as the pipeline passes it, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)
/-- The two accumulators: whole scoped buffers of the kernel's own, passed beside the windows. -/
abbrev scM7_0 : Memref sig .tc .vmem S1x128 .f32 := Memref.whole cc7_scratch0
abbrev scM7_1 : Memref sig .tc .vmem S1x128 .f32 := Memref.whole cc7_scratch1
/-- The accumulators as views: what they hold is stated through these. -/
abbrev VS7_0 : View sig .tc .vmem S1x128 .f32 := scM7_0.view
abbrev VS7_1 : View sig .tc .vmem S1x128 .f32 := scM7_1.view

/-- The region invariant with the two accumulators as memrefs owned at some contents, beside the unopened rest of
    the scoped buffers and the generator register: what the body obligation hands the run and takes back. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

end Cert.Kernel.Hand

end
-- ==== Proof.KRegion7RunA.lean ====
/- Region 7, the first point (the first branch taken: both accumulators are zeroed before anything is added; the
   second branch not taken): the whole body run once. From the four input blocks, the result block's buffer and both
   accumulators at anything, and outputs 5 and 6 handed back untouched, the body runs to the continuation with the
   result block and both accumulators rewritten; the pieces the stores leave are the witness the run finds. -/
import proofs.«163161_j55817394979591_1_alg».proof.Proof.KRegion7Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the first point: `L4` in the result block's buffer,
    `LS0` / `LS1` in the accumulators (the zeroing store first, then the sum over it); with the proof that the body
    runs to any continuation that takes the inputs and the idle outputs as they were and the three written buffers
    with those pieces written. -/
noncomputable def kernelRun7_A (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion7RunB.lean ====
/- Region 7, the middle points (neither branch taken): the whole body run once. From the four input blocks, the
   result block's buffer at anything, outputs 5 and 6 handed back untouched, and the two accumulators at what the
   point before left, the body runs to the continuation with the result block and both accumulators rewritten;
   the pieces the stores leave are the witness the run finds. -/
import proofs.«163161_j55817394979591_1_alg».proof.Proof.KRegion7Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at a point where neither branch is taken: `L4` in the result
    block's buffer, `LS0` / `LS1` in the accumulators; with the proof that the body runs to any continuation that
    takes the inputs and the idle outputs as they were and the three written buffers with those pieces written. -/
noncomputable def kernelRun7_B (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KRegion7RunC.lean ====
/- Region 7, the last point (the first branch not taken; the second taken: after the sums are added, the two
   accumulators are copied into outputs 5 and 6): the whole body run once. From the four input blocks, the three
   outputs' buffers at anything, and the two accumulators at what the point before left, the body runs to the
   continuation with all three outputs and both accumulators rewritten; the pieces the stores leave are the
   witness the run finds. -/
import proofs.«163161_j55817394979591_1_alg».proof.Proof.KRegion7Runs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave, as pieces (last first), at the last point: `L4` in the result block's buffer, `L5` /
    `L6` in the two sums' buffers, `LS0` / `LS1` in the accumulators; with the proof that the body runs to any
    continuation that takes the inputs as they were and the five written buffers with those pieces written. -/
noncomputable def kernelRun7_C (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.KRegion7.lean ====
/- Region 7 of the program (custom_call 7): the per-region half of its frame proof, assembled from the three runs.
   What each control case leaves in the outputs and the two accumulators, read back from the pieces the runs found;
   the contents after every point (`outsAt7`: the first point zeroes the accumulators and adds the first block's
   column sums, every later point adds to what the point before left, the last point also copies the accumulators
   to outputs 5 and 6); the region invariant carrying both accumulators' contents beside the unopened scoped rest;
   the proof data over the region's entry contents `V`; the body obligation at every point; and the invariant's
   two ends. -/
import proofs.«163161_j55817394979591_1_alg».proof.Proof.KRegion7RunA
import proofs.«163161_j55817394979591_1_alg».proof.Proof.KRegion7RunB
import proofs.«163161_j55817394979591_1_alg».proof.Proof.KRegion7RunC

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

/-- What the first point leaves in output 4's staging buffer: the run's pieces read back over junk. -/
def out7_A_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) : Vec F S5000x128 .f32 :=
  VO7_4.read (Elt F) (VO7_4.writes (Elt F) VO7_4.junk (kernelRun7_A c i arg1 harg1 arg2 harg2 arg3 harg3 arg4 harg4 arg5 harg5 arg6 harg6 arg7 harg7 arg8 harg8 arg9 harg9 hc0 hc1 x0 x1 x2 x3).1)
/-- Those pieces cover the buffer (whole-block stores). -/
theorem cover7_A_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) (y : S5000x128.Idx) :
    ∃ pc ∈ (kernelRun7_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).1 S5000x128.size (by sl_kernel_rfl) y

/-- What the first point leaves in accumulator 0: the run's pieces read back over junk. -/
def sout7_A_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) : Vec F S1x128 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 hc1 x0 x1 x2 x3).2.1)
/-- Those pieces cover the accumulator (whole stores). -/
theorem scover7_A_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) (y : S1x128.Idx) :
    ∃ pc ∈ (kernelRun7_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.1 S1x128.size (by sl_kernel_rfl) y

/-- What the first point leaves in accumulator 1: the run's pieces read back over junk. -/
def sout7_A_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) : Vec F S1x128 .f32 :=
  VS7_1.read (Elt F) (VS7_1.writes (Elt F) VS7_1.junk (kernelRun7_A c i arg1 harg1 arg2 harg2 arg3 harg3 arg4 harg4 arg5 harg5 arg6 harg6 arg7 harg7 arg8 harg8 arg9 harg9 hc0 hc1 x0 x1 x2 x3).2.2.1)
/-- Those pieces cover the accumulator (whole stores). -/
theorem scover7_A_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) (y : S1x128.Idx) :
    ∃ pc ∈ (kernelRun7_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3).2.2.1 S1x128.size (by sl_kernel_rfl) y

/-- What the middle points leave in output 4's staging buffer: the run's pieces read back over junk. -/
def out7_B_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO7_4.read (Elt F) (VO7_4.writes (Elt F) VO7_4.junk (kernelRun7_B c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover7_B_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the middle points leave in accumulator 0: the run's pieces read back over junk. -/
def sout7_B_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 hc1 x0 x1 x2 x3 xs0 xs1).2.1)
/-- Those pieces cover the accumulator (whole stores). -/
theorem scover7_B_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the middle points leave in accumulator 1: the run's pieces read back over junk. -/
def sout7_B_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_1.read (Elt F) (VS7_1.writes (Elt F) VS7_1.junk (kernelRun7_B c i arg1 harg1 arg2 harg2 arg3 harg3 arg4 harg4 arg5 harg5 arg6 harg6 arg7 harg7 arg8 harg8 arg9 harg9 hc0 hc1 x0 x1 x2 x3 xs0 xs1).2.2.1)
/-- Those pieces cover the accumulator (whole stores). -/
theorem scover7_B_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in output 4's staging buffer: the run's pieces read back over junk. -/
def out7_C_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S5000x128 .f32 :=
  VO7_4.read (Elt F) (VO7_4.writes (Elt F) VO7_4.junk (kernelRun7_C c i arg1 harg1 arg2 harg2 arg3 harg3 arg4 harg4 arg5 harg5 arg6 harg6 arg7 harg7 arg8 harg8 arg9 harg9 hc0 hc1 x0 x1 x2 x3 xs0 xs1).1)
/-- Those pieces cover the buffer (whole-block stores). -/
theorem cover7_C_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S5000x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).1 S5000x128.size (by sl_kernel_rfl) y

/-- What the last point leaves in output 5's staging buffer: the run's pieces read back over junk. -/
def out7_C_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO7_5.read (Elt F) (VO7_5.writes (Elt F) VO7_5.junk (kernelRun7_C c i arg1 harg1 arg2 harg2 arg3 harg3 arg4 harg4 arg5 harg5 arg6 harg6 arg7 harg7 arg8 harg8 arg9 harg9 hc0 hc1 x0 x1 x2 x3 xs0 xs1).2.1)
/-- Those pieces cover the buffer (whole-block stores). -/
theorem cover7_C_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y

/-- What the last point leaves in output 6's staging buffer: the run's pieces read back over junk. -/
def out7_C_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VO7_6.read (Elt F) (VO7_6.writes (Elt F) VO7_6.junk (kernelRun7_C c i arg1 harg1 arg2 harg2 arg3 harg3 arg4 harg4 arg5 harg5 arg6 harg6 arg7 harg7 arg8 harg8 arg9 harg9 hc0 hc1 x0 x1 x2 x3 xs0 xs1).2.2.1)
/-- Those pieces cover the buffer (whole-block stores). -/
theorem cover7_C_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y

/-- What the last point leaves in accumulator 0: the run's pieces read back over junk. -/
def sout7_C_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_0.read (Elt F) (VS7_0.writes (Elt F) VS7_0.junk (kernelRun7_C c i arg1 harg1 arg2 harg2 arg3 harg3 arg4 harg4 arg5 harg5 arg6 harg6 arg7 harg7 arg8 harg8 arg9 harg9 hc0 hc1 x0 x1 x2 x3 xs0 xs1).2.2.2.1)
/-- Those pieces cover the accumulator (whole stores). -/
theorem scover7_C_0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the last point leaves in accumulator 1: the run's pieces read back over junk. -/
def sout7_C_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) : Vec F S1x128 .f32 :=
  VS7_1.read (Elt F) (VS7_1.writes (Elt F) VS7_1.junk (kernelRun7_C c i arg1 harg1 arg2 harg2 arg3 harg3 arg4 harg4 arg5 harg5 arg6 harg6 arg7 harg7 arg8 harg8 arg9 harg9 hc0 hc1 x0 x1 x2 x3 xs0 xs1).2.2.2.2.1)
/-- Those pieces cover the accumulator (whole stores). -/
theorem scover7_C_1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) (y : S1x128.Idx) :
    ∃ pc ∈ (kernelRun7_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-- A placeholder for the contents of outputs 5 and 6 at a point where they are idle: nothing consults it, since at
    those points the block is neither written back nor read at the next point. -/
def idle7_5 : Vec F S1x128 .f32 := VO7_5.read (Elt F) VO7_5.junk
def idle7_6 : Vec F S1x128 .f32 := VO7_6.read (Elt F) VO7_6.junk

section Region7
-- the TensorCore's buffer contents when the region is entered
variable (V : (c : Dev nD) → (b : Ref sig .tc) → Buf (Elt F) ((c : Thread nD τ).loc b))

/-! ## What the outputs and the accumulators hold after each point -/

/-- THE ACCUMULATION. After the body at position `n`: output 4's buffer, outputs 5 and 6's, then the two accumulators.
    The first point runs from accumulators at anything (it zeroes them); every later point runs from what the point
    before left in them; the last point is the one that also fills outputs 5 and 6. -/
def outsAt7 (c : Dev nD) : (n : ℕ) → n < cfg7.N → (Vec F S5000x128 .f32 × Vec F S1x128 .f32 × Vec F S1x128 .f32 × Vec F S1x128 .f32 × Vec F S1x128 .f32)
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), idle7_5, idle7_6, sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : n + 1 = 19 then
      (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)
    else
      (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, idle7_5, idle7_6, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (h0 : t.val = 0) (h1 : ¬t.val = 19) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), idle7_5, idle7_6, sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact absurd h0 (Nat.succ_ne_zero n)

/-- `outsAt7` at a middle point: over what the point before left in the accumulators. -/
theorem outsAt7_B (c : Dev nD) (t : Fin cfg7.N) (h0 : ¬t.val = 0) (h1 : ¬t.val = 19) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, idle7_5, idle7_6, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt7` at the last point: over what the point before left in the accumulators. -/
theorem outsAt7_C (c : Dev nD) (t : Fin cfg7.N) (h0 : ¬t.val = 0) (h1 : t.val = 19) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant, carrying both accumulators -/

/-- The scoped buffers of the core that are neither a staging buffer of this region nor one of its accumulators. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The invariant before position `n`: before the first point the class's (both accumulators at anything); afterwards
    both accumulators at what the point before left in them, beside the unopened rest and the generator register. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2)) ∗ rest7 c) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): both accumulators at that point's contents. -/
theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2)) ∗ rest7 c) ∗ (∃ r, prngReg c r)) := rfl

/-- Before a point that is not the first: both accumulators at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2)) ∗ rest7 c) ∗ (∃ r, prngReg c r)) := by
  cases n with
  | zero => exact absurd rfl hz
  | succ n => rfl

/-! ## The pipeline's proof data -/

/-- The proof data of region 7 on core `c`: the arrays as the region finds them (`V`); after the body at point `t`
    each input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

/-- The proof data's arrays are the region-entry contents (the definition projected; `V` is never unfolded). -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point. The inputs' memrefs hold their blocks; the closed forms say which case the point is in; the
    run of that case applies. The invariant hands the body both accumulators at what the point before left (at
    anything at the first point) beside the unopened rest and the generator register, and takes them back at this
    point's contents, read back through the covers. Outputs 5 and 6 come back untouched except at the last point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from by
      unfold Dat.leavesExact; rw [liveAt7_0 t], after7_0]
  rw [show (dat7 V c).leavesExact 1 t = owns (c : Thread nD τ) (ms7_1 t) fullShare ((dat7 V c).after 1 t) from by
      unfold Dat.leavesExact; rw [liveAt7_1 t], after7_1]
  rw [show (dat7 V c).leavesExact 2 t = owns (c : Thread nD τ) (ms7_2 t) fullShare ((dat7 V c).after 2 t) from by
      unfold Dat.leavesExact; rw [liveAt7_2 t], after7_2]
  rw [show (dat7 V c).leavesExact 3 t = owns (c : Thread nD τ) (ms7_3 t) fullShare ((dat7 V c).after 3 t) from by
      unfold Dat.leavesExact; rw [liveAt7_3 t], after7_3]
  rw [show (dat7 V c).leavesExact 4 t = owns (c : Thread nD τ) (ms7_4 t) fullShare ((dat7 V c).after 4 t) from by
      unfold Dat.leavesExact; rw [liveAt7_4 t], after7_4]
  by_cases h0 : t.val = 0
  · by_cases h1 : t.val = 19
    · exfalso; omega
    · rw [Dat.leavesExact_idle (dat7 V c) 5 t (idleAt7_5_A t ((hcond7_0 t).mpr h0) (fun h => h1 ((hcond7_1 t).mp h))) (noFlush7_5_A t ((hcond7_0 t).mpr h0) (fun h => h1 ((hcond7_1 t).mp h)))]
      rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
      rw [outsAt7_A V c t h0 h1]
      unfold out7_A_4 sout7_A_0 sout7_A_1; (try dsimp only)
      rw [PhiS7_castSucc V c t, PhiS7_zero V c _ _ h0, PhiA7_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_A c (grid7.coords t) _ _ _ _ _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover7_A_0 c _ _ _ _ _ _ _ _ _ _ _ _ _ _ _ _ _ _ _ _ _ _ _ _ _)
            unfold owns; iexists _; isplitr
            swap; · iexact HS1
            ipureintro; exact View.read_writes_of_cover _ _ _ _ _ (scover7_A_1 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_A_4 c _ _ _ _ _ _ _ _ _ _ _ _ _ _ _ _ _ _ _ _ _ _ _ _ _)
      isplitl [H5]; · iexists _; iexact H5
      iexists _; iexact H6
  · by_cases h1 : t.val = 19
    · rw [show (dat7 V c).leavesExact 5 t = owns (c : Thread nD τ) (ms7_5 t) fullShare ((dat7 V c).after 5 t) from by
          unfold Dat.leavesExact; rw [liveAt7_5_C t (fun h => h0 ((hcond7_0 t).mp h)) ((hcond7_1 t).mpr h1)], after7_5]
      rw [show (dat7 V c).leavesExact 6 t = owns (c : Thread nD τ) (ms7_6 t) fullShare ((dat7 V c).after 6 t) from by
          unfold Dat.leavesExact; rw [liveAt7_6_C t (fun h => h0 ((hcond7_0 t).mp h)) ((hcond7_1 t).mpr h1)], after7_6]
      rw [outsAt7_C V c t h0 h1]
      unfold out7_C_4 out7_C_5 out7_C_6 sout7_C_0 sout7_C_1; (try dsimp only)
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _ _ _ _ _ _ _)
            unfold owns; iexists _; isplitr
            swap; · iexact HS1
            ipureintro; exact View.read_writes_of_cover _ _ _ _ _ (scover7_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_C_5 c _ _ _ _ _ _ _ _ _ _ _ _ _ _ _ _ _ _ _ _ _ _ _ _ _ _ _)
      unfold owns; iexists _; isplitr
      swap; · iexact H6
      ipureintro; exact View.read_writes_of_cover _ _ _ _ _ (cover7_C_6 c _ _ _ _ _ _ _ _ _ _ _ _ _ _ _ _ _ _ _ _ _ _ _ _ _ _ _)
    · rw [Dat.leavesExact_idle (dat7 V c) 5 t (idleAt7_5_B t (fun h => h0 ((hcond7_0 t).mp h)) (fun h => h1 ((hcond7_1 t).mp h))) (noFlush7_5_B t (fun h => h0 ((hcond7_0 t).mp h)) (fun h => h1 ((hcond7_1 t).mp h)))]
      rw [Dat.leavesExact_idle (dat7 V c) 6 t (idleAt7_6_B t (fun h => h0 ((hcond7_0 t).mp h)) (fun h => h1 ((hcond7_1 t).mp h))) (noFlush7_6_B t (fun h => h0 ((hcond7_0 t).mp h)) (fun h => h1 ((hcond7_1 t).mp h)))]
      rw [outsAt7_B V c t h0 h1]
      unfold out7_B_4 sout7_B_0 sout7_B_1; (try dsimp only)
      rw [PhiS7_castSucc V c t, PhiS7_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _ _ _ _ _ _ _)
            unfold owns; iexists _; isplitr
            swap; · iexact HS1
            ipureintro; exact View.read_writes_of_cover _ _ _ _ _ (scover7_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _ _ _ _ _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 20 := N_7; omega)

end Region7

end Cert.Kernel.Hand

end
-- ==== Proof.KReg7.lean ====
/-
  Region 7's record: entered with every unscoped buffer held at the boundary's contents before it, left with them at
  the contents after it. The region's arrays are split out of the unscoped buffers and put back at what the pipeline
  leaves in them; the generator register and the scoped rest (with the kernel's two accumulators) go into the pipeline's invariant and come back; nothing is owed and the
  kernel has no semaphore of its own.
-/
import proofs.«163161_j55817394979591_1_alg».proof.Proof.KFrameKit
import proofs.«163161_j55817394979591_1_alg».proof.Proof.KRegion7
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 7 is this region's at the entry contents, and any exit
    contents that hold the region's arrays as the pipeline leaves them (`hF`) and agree with the entry contents elsewhere (`hrest`). -/
def reg7 (h : ∀ c, pdats 7 c = dat7 (fun c b => Vin c b) c)
    (hF : ∀ c (w : Fin cfg7.W), (pdats 7 c).arrAt w cfg7.N = Vout c (Pipeline.arrRef spec7 w))
    (hrest : ∀ c (b : Ref sig .tc), b ∉ Finset.univ.image (Pipeline.arrRef spec7) → Vout c b = Vin c b) :
    RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [h c]; exact (body_obligation7 (fun c b => Vin c b) c).loose
  hwaits := Pipeline.hwaits_of_owed_zero _ _ _ _ L lv 7 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec7 c (fun b => Vin c b)
  hentry c := by
    rw [Pipeline.ownSems0_none]
    have hsplit := Pipeline.arrays_of_unscopedBufs (p := 7) (pcfgs (F := F)) adm pdats launch7.win launch7.arr_whole c
      ((pdats 7 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h c]
    refine BIBase.Entails.trans ?_ (hin7 (fun c b => Vin c b) c)
    unfold Pipeline.ΦA
    iintro ⟨Hp, -, Hr⟩
    isplitl [Hr]; · iexact Hr
    iexact Hp
  hout c := by
    rw [Pipeline.ownSems0_none, h c]
    refine (hout7 (fun c b => Vin c b) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun _ => by rw [h c]; rfl)
      (fun b => Vin c b) (fun b => Vout c b) ((pdats 7 c).arrAt · cfg7.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg8.lean ====
/-
  Region 8's record: entered with every unscoped buffer held at the boundary's contents before it, left with them at
  the contents after it. The region's arrays are split out of the unscoped buffers and put back at what the pipeline
  leaves in them; the generator register goes into the pipeline's invariant and comes back; nothing is owed and the
  kernel has no semaphore of its own.
-/
import proofs.«163161_j55817394979591_1_alg».proof.Proof.KFrameKit
import proofs.«163161_j55817394979591_1_alg».proof.Proof.KRegion8
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 9) → (c : Dev nD) → Dat τ (Elt F) Unit ℕ (UR sig nD τ) ℕ (cfgs p) c)
variable (Vin Vout : Dev nD → Valuation τ sig (Elt F))

set_option backward.isDefEq.respectTransparency.types false in
/-- The record, for any family of proof data whose member 8 is this region's at the entry contents, and any exit
    contents that hold the region's arrays as the pipeline leaves them (`hF`) and agree with the entry contents elsewhere (`hrest`). -/
def reg8 (h : ∀ c, pdats 8 c = dat8 (fun c b => Vin c b) c)
    (hF : ∀ c (w : Fin cfg8.W), (pdats 8 c).arrAt w cfg8.N = Vout c (Pipeline.arrRef spec8 w))
    (hrest : ∀ c (b : Ref sig .tc), b ∉ Finset.univ.image (Pipeline.arrRef spec8) → Vout c b = Vin c b) :
    RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [h c]; exact (body_obligation8 (fun c b => Vin c b) c).loose
  hwaits := Pipeline.hwaits_of_owed_zero _ _ _ _ L lv 8 fun c t => by rw [h c]; rfl
  pre c := iprop(StableHlo.held (c : Thread nD τ) (Pipeline.ucRefs τ sig) (Vin c) ∗ Rest (F := F) c)
  post c := iprop(StableHlo.held (c : Thread nD τ) (Pipeline.ucRefs τ sig) (Vout c) ∗ Rest (F := F) c)
  X c := iprop(∃ r, prngReg c r)
  Y c := iprop(∃ r, prngReg c r)
  Z c := Pipeline.unscopedRest (Ix := Unit) (Name := ℕ) (U := UR sig nD τ) (Lvl := ℕ) spec8 c (fun b => Vin c b)
  hentry c := by
    rw [Pipeline.ownSems0_none]
    have hsplit := Pipeline.arrays_of_unscopedBufs (p := 8) (pcfgs (F := F)) adm pdats launch8.win launch8.arr_whole c
      ((pdats 8 c).share_full fun _ => by rw [h c]; rfl) (fun b => Vin c b) fun _ => by rw [h c]; rfl
    rw [Pipeline.unscopedBufs_held] at hsplit
    rw [h c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 8 c).Φ 0 = Pipeline.ΦA spec8 c from by rw [h c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [h c]; rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c pdats ((pdats 8 c).share_full fun _ => by rw [h c]; rfl)
      (fun b => Vin c b) (fun b => Vout c b) ((pdats 8 c).arrAt · cfg8.N) (hF c) (hrest c)
    rw [Pipeline.unscopedBufs_held] at hjoin
    rw [h c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrame.lean ====
/-
  The nine-region program read at machine words, assembled: the boundaries' contents and the proof data family with
  the four accumulating regions' data filled in, one record per region, and the several-region launch theorem. Every weakly fair execution
  terminates with every argument as launched.
-/
import proofs.«163161_j55817394979591_1_alg».proof.Proof.KStages
import proofs.«163161_j55817394979591_1_alg».proof.Proof.KFrameKit
import proofs.«163161_j55817394979591_1_alg».proof.Proof.KReg0
import proofs.«163161_j55817394979591_1_alg».proof.Proof.KReg1
import proofs.«163161_j55817394979591_1_alg».proof.Proof.KReg2
import proofs.«163161_j55817394979591_1_alg».proof.Proof.KReg3
import proofs.«163161_j55817394979591_1_alg».proof.Proof.KReg4
import proofs.«163161_j55817394979591_1_alg».proof.Proof.KReg5
import proofs.«163161_j55817394979591_1_alg».proof.Proof.KReg6
import proofs.«163161_j55817394979591_1_alg».proof.Proof.KReg7
import proofs.«163161_j55817394979591_1_alg».proof.Proof.KReg8

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's record at the staged contents. -/
def R0 : RegionSeg (pcfgs (F := F)) adm (pd m dat1 dat3 dat5 dat7) () defs₀ 𝒱₀ L lv 0 :=
  reg0 (pd m dat1 dat3 dat5 dat7) (S3 m) (S4 m) (fun _ => rfl) (fun c => hF0 m dat1 dat3 dat5 dat7 c) (fun c => hrest0 m c)
/-- Region 1's record at the staged contents. -/
def R1 : RegionSeg (pcfgs (F := F)) adm (pd m dat1 dat3 dat5 dat7) () defs₀ 𝒱₀ L lv 1 :=
  reg1 (pd m dat1 dat3 dat5 dat7) (S5 m) (S6 m dat1) (fun _ => rfl) (fun c => hF1 m dat1 dat3 dat5 dat7 (fun V c w => A_eq1 V c w) c) (fun c => hrest1 m dat1 c)
/-- Region 2's record at the staged contents. -/
def R2 : RegionSeg (pcfgs (F := F)) adm (pd m dat1 dat3 dat5 dat7) () defs₀ 𝒱₀ L lv 2 :=
  reg2 (pd m dat1 dat3 dat5 dat7) (S7 m dat1) (S8 m dat1) (fun _ => rfl) (fun c => hF2 m dat1 dat3 dat5 dat7 c) (fun c => hrest2 m dat1 c)
/-- Region 3's record at the staged contents. -/
def R3 : RegionSeg (pcfgs (F := F)) adm (pd m dat1 dat3 dat5 dat7) () defs₀ 𝒱₀ L lv 3 :=
  reg3 (pd m dat1 dat3 dat5 dat7) (S9 m dat1) (S10 m dat1 dat3) (fun _ => rfl) (fun c => hF3 m dat1 dat3 dat5 dat7 (fun V c w => A_eq3 V c w) c) (fun c => hrest3 m dat1 dat3 c)
/-- Region 4's record at the staged contents. -/
def R4 : RegionSeg (pcfgs (F := F)) adm (pd m dat1 dat3 dat5 dat7) () defs₀ 𝒱₀ L lv 4 :=
  reg4 (pd m dat1 dat3 dat5 dat7) (S11 m dat1 dat3) (S12 m dat1 dat3) (fun _ => rfl) (fun c => hF4 m dat1 dat3 dat5 dat7 c) (fun c => hrest4 m dat1 dat3 c)
/-- Region 5's record at the staged contents. -/
def R5 : RegionSeg (pcfgs (F := F)) adm (pd m dat1 dat3 dat5 dat7) () defs₀ 𝒱₀ L lv 5 :=
  reg5 (pd m dat1 dat3 dat5 dat7) (S13 m dat1 dat3) (S14 m dat1 dat3 dat5) (fun _ => rfl) (fun c => hF5 m dat1 dat3 dat5 dat7 (fun V c w => A_eq5 V c w) c) (fun c => hrest5 m dat1 dat3 dat5 c)
/-- Region 6's record at the staged contents. -/
def R6 : RegionSeg (pcfgs (F := F)) adm (pd m dat1 dat3 dat5 dat7) () defs₀ 𝒱₀ L lv 6 :=
  reg6 (pd m dat1 dat3 dat5 dat7) (S15 m dat1 dat3 dat5) (S16 m dat1 dat3 dat5) (fun _ => rfl) (fun c => hF6 m dat1 dat3 dat5 dat7 c) (fun c => hrest6 m dat1 dat3 dat5 c)
/-- Region 7's record at the staged contents. -/
def R7 : RegionSeg (pcfgs (F := F)) adm (pd m dat1 dat3 dat5 dat7) () defs₀ 𝒱₀ L lv 7 :=
  reg7 (pd m dat1 dat3 dat5 dat7) (S17 m dat1 dat3 dat5) (S18 m dat1 dat3 dat5 dat7) (fun _ => rfl) (fun c => hF7 m dat1 dat3 dat5 dat7 (fun V c w => A_eq7 V c w) c) (fun c => hrest7 m dat1 dat3 dat5 dat7 c)
/-- Region 8's record at the staged contents. -/
def R8 : RegionSeg (pcfgs (F := F)) adm (pd m dat1 dat3 dat5 dat7) () defs₀ 𝒱₀ L lv 8 :=
  reg8 (pd m dat1 dat3 dat5 dat7) (S19 m dat1 dat3 dat5 dat7) (S20 m dat1 dat3 dat5 dat7) (fun _ => rfl) (fun c => hF8 m dat1 dat3 dat5 dat7 c) (fun c => hrest8 m dat1 dat3 dat5 dat7 c)

set_option backward.isDefEq.respectTransparency.types false in
/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_regions m ρ (outs m dat1 dat3 dat5 dat7) (pd m dat1 dat3 dat5 dat7)
    (R0 m) (fun c => .rfl) (fun c => by rw [V4_eq m dat1 dat3 dat5 dat7 c]; exact .rfl)
    (R1 m) (fun c => by rw [V5_eq m dat1 dat3 dat5 dat7 c]; exact .rfl) (fun c => by rw [V6_eq m dat1 dat3 dat5 dat7 c]; exact .rfl)
    (R2 m) (fun c => by rw [V7_eq m dat1 dat3 dat5 dat7 c]; exact .rfl) (fun c => by rw [V8_eq m dat1 dat3 dat5 dat7 c]; exact .rfl)
    (R3 m) (fun c => by rw [V9_eq m dat1 dat3 dat5 dat7 c]; exact .rfl) (fun c => by rw [V10_eq m dat1 dat3 dat5 dat7 c]; exact .rfl)
    (R4 m) (fun c => by rw [V11_eq m dat1 dat3 dat5 dat7 c]; exact .rfl) (fun c => by rw [V12_eq m dat1 dat3 dat5 dat7 c]; exact .rfl)
    (R5 m) (fun c => by rw [V13_eq m dat1 dat3 dat5 dat7 c]; exact .rfl) (fun c => by rw [V14_eq m dat1 dat3 dat5 dat7 c]; exact .rfl)
    (R6 m) (fun c => by rw [V15_eq m dat1 dat3 dat5 dat7 c]; exact .rfl) (fun c => by rw [V16_eq m dat1 dat3 dat5 dat7 c]; exact .rfl)
    (R7 m) (fun c => by rw [V17_eq m dat1 dat3 dat5 dat7 c]; exact .rfl) (fun c => by rw [V18_eq m dat1 dat3 dat5 dat7 c]; exact .rfl)
    (R8 m) (fun c => by rw [V19_eq m dat1 dat3 dat5 dat7 c]; exact .rfl) (fun c => by rw [V20_eq m dat1 dat3 dat5 dat7 c]; exact .rfl)

end Cert.Kernel.Hand

end
-- ==== Proof.KIPersist.lean ====
/-
  Which boundary still holds what: a buffer read at a later boundary holds there what the stage that wrote it left,
  because no stage in between writes it (a host stretch writes only its own results, a region only its output arrays).
-/
import proofs.«163161_j55817394979591_1_alg».proof.Proof.KIStages

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)
variable (D1 : Entry F → (c : Dev nD) → Dat τ (Elt F) Unit ℕ (UR sig nD τ) ℕ cfg1 c)
variable (D3 : Entry F → (c : Dev nD) → Dat τ (Elt F) Unit ℕ (UR sig nD τ) ℕ cfg3 c)
variable (D5 : Entry F → (c : Dev nD) → Dat τ (Elt F) Unit ℕ (UR sig nD τ) ℕ cfg5 c)
variable (D7 : Entry F → (c : Dev nD) → Dat τ (Elt F) Unit ℕ (UR sig nD τ) ℕ cfg7 c)

/-- A host stretch's boundary is the stretch applied to the boundary before it. -/
theorem S5_def (c : Dev nD) : S5 m c = StableHlo.after hostOps1 (S4 m c) := rfl
theorem S7_def (c : Dev nD) : S7 m D1 c = StableHlo.after hostOps2 (S6 m D1 c) := rfl
theorem S9_def (c : Dev nD) : S9 m D1 c = StableHlo.after hostOps3 (S8 m D1 c) := rfl
theorem S11_def (c : Dev nD) : S11 m D1 D3 c = StableHlo.after hostOps4 (S10 m D1 D3 c) := rfl
theorem S13_def (c : Dev nD) : S13 m D1 D3 c = StableHlo.after hostOps5 (S12 m D1 D3 c) := rfl
theorem S15_def (c : Dev nD) : S15 m D1 D3 D5 c = StableHlo.after hostOps6 (S14 m D1 D3 D5 c) := rfl
theorem S17_def (c : Dev nD) : S17 m D1 D3 D5 c = StableHlo.after hostOps7 (S16 m D1 D3 D5 c) := rfl
theorem S19_def (c : Dev nD) : S19 m D1 D3 D5 D7 c = StableHlo.after hostOps8 (S18 m D1 D3 D5 D7 c) := rfl
theorem keep_main_v26_4_5 (c : Dev nD) : S5 m c main_v26 = S4 m c main_v26 :=
  (StableHlo.after_of_writes_sub hostOps1 _ hostOps1_writes (by decide : (main_v26 : Ref sig .tc) ∉ hostOps1_W))
theorem keep_main_v26_4_9 (c : Dev nD) : S9 m D1 c main_v26 = S4 m c main_v26 :=
  (StableHlo.after_of_writes_sub hostOps3 _ hostOps3_writes (by decide : (main_v26 : Ref sig .tc) ∉ hostOps3_W)).trans <| (S8_of_ne m D1 c main_v26 (by decide)).trans <| (StableHlo.after_of_writes_sub hostOps2 _ hostOps2_writes (by decide : (main_v26 : Ref sig .tc) ∉ hostOps2_W)).trans <| (S6_of_ne m D1 c main_v26 (by decide) (by decide) (by decide)).trans <| (StableHlo.after_of_writes_sub hostOps1 _ hostOps1_writes (by decide : (main_v26 : Ref sig .tc) ∉ hostOps1_W))
theorem keep_main_v26_4_13 (c : Dev nD) : S13 m D1 D3 c main_v26 = S4 m c main_v26 :=
  (StableHlo.after_of_writes_sub hostOps5 _ hostOps5_writes (by decide : (main_v26 : Ref sig .tc) ∉ hostOps5_W)).trans <| (S12_of_ne m D1 D3 c main_v26 (by decide)).trans <| (StableHlo.after_of_writes_sub hostOps4 _ hostOps4_writes (by decide : (main_v26 : Ref sig .tc) ∉ hostOps4_W)).trans <| (S10_of_ne m D1 D3 c main_v26 (by decide) (by decide) (by decide)).trans <| (StableHlo.after_of_writes_sub hostOps3 _ hostOps3_writes (by decide : (main_v26 : Ref sig .tc) ∉ hostOps3_W)).trans <| (S8_of_ne m D1 c main_v26 (by decide)).trans <| (StableHlo.after_of_writes_sub hostOps2 _ hostOps2_writes (by decide : (main_v26 : Ref sig .tc) ∉ hostOps2_W)).trans <| (S6_of_ne m D1 c main_v26 (by decide) (by decide) (by decide)).trans <| (StableHlo.after_of_writes_sub hostOps1 _ hostOps1_writes (by decide : (main_v26 : Ref sig .tc) ∉ hostOps1_W))
theorem keep_main_v26_4_17 (c : Dev nD) : S17 m D1 D3 D5 c main_v26 = S4 m c main_v26 :=
  (StableHlo.after_of_writes_sub hostOps7 _ hostOps7_writes (by decide : (main_v26 : Ref sig .tc) ∉ hostOps7_W)).trans <| (S16_of_ne m D1 D3 D5 c main_v26 (by decide)).trans <| (StableHlo.after_of_writes_sub hostOps6 _ hostOps6_writes (by decide : (main_v26 : Ref sig .tc) ∉ hostOps6_W)).trans <| (S14_of_ne m D1 D3 D5 c main_v26 (by decide) (by decide) (by decide)).trans <| (StableHlo.after_of_writes_sub hostOps5 _ hostOps5_writes (by decide : (main_v26 : Ref sig .tc) ∉ hostOps5_W)).trans <| (S12_of_ne m D1 D3 c main_v26 (by decide)).trans <| (StableHlo.after_of_writes_sub hostOps4 _ hostOps4_writes (by decide : (main_v26 : Ref sig .tc) ∉ hostOps4_W)).trans <| (S10_of_ne m D1 D3 c main_v26 (by decide) (by decide) (by decide)).trans <| (StableHlo.after_of_writes_sub hostOps3 _ hostOps3_writes (by decide : (main_v26 : Ref sig .tc) ∉ hostOps3_W)).trans <| (S8_of_ne m D1 c main_v26 (by decide)).trans <| (StableHlo.after_of_writes_sub hostOps2 _ hostOps2_writes (by decide : (main_v26 : Ref sig .tc) ∉ hostOps2_W)).trans <| (S6_of_ne m D1 c main_v26 (by decide) (by decide) (by decide)).trans <| (StableHlo.after_of_writes_sub hostOps1 _ hostOps1_writes (by decide : (main_v26 : Ref sig .tc) ∉ hostOps1_W))
theorem keep_main_v24_3_4 (c : Dev nD) : S4 m c main_v24 = S3 m c main_v24 :=
  (S4_of_ne m c main_v24 (by decide))
theorem keep_main_v24_3_8 (c : Dev nD) : S8 m D1 c main_v24 = S3 m c main_v24 :=
  (S8_of_ne m D1 c main_v24 (by decide)).trans <| (StableHlo.after_of_writes_sub hostOps2 _ hostOps2_writes (by decide : (main_v24 : Ref sig .tc) ∉ hostOps2_W)).trans <| (S6_of_ne m D1 c main_v24 (by decide) (by decide) (by decide)).trans <| (StableHlo.after_of_writes_sub hostOps1 _ hostOps1_writes (by decide : (main_v24 : Ref sig .tc) ∉ hostOps1_W)).trans <| (S4_of_ne m c main_v24 (by decide))
theorem keep_main_v24_3_12 (c : Dev nD) : S12 m D1 D3 c main_v24 = S3 m c main_v24 :=
  (S12_of_ne m D1 D3 c main_v24 (by decide)).trans <| (StableHlo.after_of_writes_sub hostOps4 _ hostOps4_writes (by decide : (main_v24 : Ref sig .tc) ∉ hostOps4_W)).trans <| (S10_of_ne m D1 D3 c main_v24 (by decide) (by decide) (by decide)).trans <| (StableHlo.after_of_writes_sub hostOps3 _ hostOps3_writes (by decide : (main_v24 : Ref sig .tc) ∉ hostOps3_W)).trans <| (S8_of_ne m D1 c main_v24 (by decide)).trans <| (StableHlo.after_of_writes_sub hostOps2 _ hostOps2_writes (by decide : (main_v24 : Ref sig .tc) ∉ hostOps2_W)).trans <| (S6_of_ne m D1 c main_v24 (by decide) (by decide) (by decide)).trans <| (StableHlo.after_of_writes_sub hostOps1 _ hostOps1_writes (by decide : (main_v24 : Ref sig .tc) ∉ hostOps1_W)).trans <| (S4_of_ne m c main_v24 (by decide))
theorem keep_main_v24_3_16 (c : Dev nD) : S16 m D1 D3 D5 c main_v24 = S3 m c main_v24 :=
  (S16_of_ne m D1 D3 D5 c main_v24 (by decide)).trans <| (StableHlo.after_of_writes_sub hostOps6 _ hostOps6_writes (by decide : (main_v24 : Ref sig .tc) ∉ hostOps6_W)).trans <| (S14_of_ne m D1 D3 D5 c main_v24 (by decide) (by decide) (by decide)).trans <| (StableHlo.after_of_writes_sub hostOps5 _ hostOps5_writes (by decide : (main_v24 : Ref sig .tc) ∉ hostOps5_W)).trans <| (S12_of_ne m D1 D3 c main_v24 (by decide)).trans <| (StableHlo.after_of_writes_sub hostOps4 _ hostOps4_writes (by decide : (main_v24 : Ref sig .tc) ∉ hostOps4_W)).trans <| (S10_of_ne m D1 D3 c main_v24 (by decide) (by decide) (by decide)).trans <| (StableHlo.after_of_writes_sub hostOps3 _ hostOps3_writes (by decide : (main_v24 : Ref sig .tc) ∉ hostOps3_W)).trans <| (S8_of_ne m D1 c main_v24 (by decide)).trans <| (StableHlo.after_of_writes_sub hostOps2 _ hostOps2_writes (by decide : (main_v24 : Ref sig .tc) ∉ hostOps2_W)).trans <| (S6_of_ne m D1 c main_v24 (by decide) (by decide) (by decide)).trans <| (StableHlo.after_of_writes_sub hostOps1 _ hostOps1_writes (by decide : (main_v24 : Ref sig .tc) ∉ hostOps1_W)).trans <| (S4_of_ne m c main_v24 (by decide))
theorem keep_main_arg1_3_4 (c : Dev nD) : S4 m c main_arg1 = S3 m c main_arg1 :=
  (S4_of_ne m c main_arg1 (by decide))
theorem keep_main_arg2_3_4 (c : Dev nD) : S4 m c main_arg2 = S3 m c main_arg2 :=
  (S4_of_ne m c main_arg2 (by decide))
theorem keep_main_arg5_3_4 (c : Dev nD) : S4 m c main_arg5 = S3 m c main_arg5 :=
  (S4_of_ne m c main_arg5 (by decide))
theorem keep_main_arg6_3_4 (c : Dev nD) : S4 m c main_arg6 = S3 m c main_arg6 :=
  (S4_of_ne m c main_arg6 (by decide))
theorem keep_main_arg1_3_8 (c : Dev nD) : S8 m D1 c main_arg1 = S3 m c main_arg1 :=
  (S8_of_ne m D1 c main_arg1 (by decide)).trans <| (StableHlo.after_of_writes_sub hostOps2 _ hostOps2_writes (by decide : (main_arg1 : Ref sig .tc) ∉ hostOps2_W)).trans <| (S6_of_ne m D1 c main_arg1 (by decide) (by decide) (by decide)).trans <| (StableHlo.after_of_writes_sub hostOps1 _ hostOps1_writes (by decide : (main_arg1 : Ref sig .tc) ∉ hostOps1_W)).trans <| (S4_of_ne m c main_arg1 (by decide))
theorem keep_main_arg2_3_8 (c : Dev nD) : S8 m D1 c main_arg2 = S3 m c main_arg2 :=
  (S8_of_ne m D1 c main_arg2 (by decide)).trans <| (StableHlo.after_of_writes_sub hostOps2 _ hostOps2_writes (by decide : (main_arg2 : Ref sig .tc) ∉ hostOps2_W)).trans <| (S6_of_ne m D1 c main_arg2 (by decide) (by decide) (by decide)).trans <| (StableHlo.after_of_writes_sub hostOps1 _ hostOps1_writes (by decide : (main_arg2 : Ref sig .tc) ∉ hostOps1_W)).trans <| (S4_of_ne m c main_arg2 (by decide))
theorem keep_main_arg5_3_8 (c : Dev nD) : S8 m D1 c main_arg5 = S3 m c main_arg5 :=
  (S8_of_ne m D1 c main_arg5 (by decide)).trans <| (StableHlo.after_of_writes_sub hostOps2 _ hostOps2_writes (by decide : (main_arg5 : Ref sig .tc) ∉ hostOps2_W)).trans <| (S6_of_ne m D1 c main_arg5 (by decide) (by decide) (by decide)).trans <| (StableHlo.after_of_writes_sub hostOps1 _ hostOps1_writes (by decide : (main_arg5 : Ref sig .tc) ∉ hostOps1_W)).trans <| (S4_of_ne m c main_arg5 (by decide))
theorem keep_main_arg6_3_8 (c : Dev nD) : S8 m D1 c main_arg6 = S3 m c main_arg6 :=
  (S8_of_ne m D1 c main_arg6 (by decide)).trans <| (StableHlo.after_of_writes_sub hostOps2 _ hostOps2_writes (by decide : (main_arg6 : Ref sig .tc) ∉ hostOps2_W)).trans <| (S6_of_ne m D1 c main_arg6 (by decide) (by decide) (by decide)).trans <| (StableHlo.after_of_writes_sub hostOps1 _ hostOps1_writes (by decide : (main_arg6 : Ref sig .tc) ∉ hostOps1_W)).trans <| (S4_of_ne m c main_arg6 (by decide))
theorem keep_main_arg1_3_12 (c : Dev nD) : S12 m D1 D3 c main_arg1 = S3 m c main_arg1 :=
  (S12_of_ne m D1 D3 c main_arg1 (by decide)).trans <| (StableHlo.after_of_writes_sub hostOps4 _ hostOps4_writes (by decide : (main_arg1 : Ref sig .tc) ∉ hostOps4_W)).trans <| (S10_of_ne m D1 D3 c main_arg1 (by decide) (by decide) (by decide)).trans <| (StableHlo.after_of_writes_sub hostOps3 _ hostOps3_writes (by decide : (main_arg1 : Ref sig .tc) ∉ hostOps3_W)).trans <| (S8_of_ne m D1 c main_arg1 (by decide)).trans <| (StableHlo.after_of_writes_sub hostOps2 _ hostOps2_writes (by decide : (main_arg1 : Ref sig .tc) ∉ hostOps2_W)).trans <| (S6_of_ne m D1 c main_arg1 (by decide) (by decide) (by decide)).trans <| (StableHlo.after_of_writes_sub hostOps1 _ hostOps1_writes (by decide : (main_arg1 : Ref sig .tc) ∉ hostOps1_W)).trans <| (S4_of_ne m c main_arg1 (by decide))
theorem keep_main_arg2_3_12 (c : Dev nD) : S12 m D1 D3 c main_arg2 = S3 m c main_arg2 :=
  (S12_of_ne m D1 D3 c main_arg2 (by decide)).trans <| (StableHlo.after_of_writes_sub hostOps4 _ hostOps4_writes (by decide : (main_arg2 : Ref sig .tc) ∉ hostOps4_W)).trans <| (S10_of_ne m D1 D3 c main_arg2 (by decide) (by decide) (by decide)).trans <| (StableHlo.after_of_writes_sub hostOps3 _ hostOps3_writes (by decide : (main_arg2 : Ref sig .tc) ∉ hostOps3_W)).trans <| (S8_of_ne m D1 c main_arg2 (by decide)).trans <| (StableHlo.after_of_writes_sub hostOps2 _ hostOps2_writes (by decide : (main_arg2 : Ref sig .tc) ∉ hostOps2_W)).trans <| (S6_of_ne m D1 c main_arg2 (by decide) (by decide) (by decide)).trans <| (StableHlo.after_of_writes_sub hostOps1 _ hostOps1_writes (by decide : (main_arg2 : Ref sig .tc) ∉ hostOps1_W)).trans <| (S4_of_ne m c main_arg2 (by decide))
theorem keep_main_arg5_3_12 (c : Dev nD) : S12 m D1 D3 c main_arg5 = S3 m c main_arg5 :=
  (S12_of_ne m D1 D3 c main_arg5 (by decide)).trans <| (StableHlo.after_of_writes_sub hostOps4 _ hostOps4_writes (by decide : (main_arg5 : Ref sig .tc) ∉ hostOps4_W)).trans <| (S10_of_ne m D1 D3 c main_arg5 (by decide) (by decide) (by decide)).trans <| (StableHlo.after_of_writes_sub hostOps3 _ hostOps3_writes (by decide : (main_arg5 : Ref sig .tc) ∉ hostOps3_W)).trans <| (S8_of_ne m D1 c main_arg5 (by decide)).trans <| (StableHlo.after_of_writes_sub hostOps2 _ hostOps2_writes (by decide : (main_arg5 : Ref sig .tc) ∉ hostOps2_W)).trans <| (S6_of_ne m D1 c main_arg5 (by decide) (by decide) (by decide)).trans <| (StableHlo.after_of_writes_sub hostOps1 _ hostOps1_writes (by decide : (main_arg5 : Ref sig .tc) ∉ hostOps1_W)).trans <| (S4_of_ne m c main_arg5 (by decide))
theorem keep_main_arg6_3_12 (c : Dev nD) : S12 m D1 D3 c main_arg6 = S3 m c main_arg6 :=
  (S12_of_ne m D1 D3 c main_arg6 (by decide)).trans <| (StableHlo.after_of_writes_sub hostOps4 _ hostOps4_writes (by decide : (main_arg6 : Ref sig .tc) ∉ hostOps4_W)).trans <| (S10_of_ne m D1 D3 c main_arg6 (by decide) (by decide) (by decide)).trans <| (StableHlo.after_of_writes_sub hostOps3 _ hostOps3_writes (by decide : (main_arg6 : Ref sig .tc) ∉ hostOps3_W)).trans <| (S8_of_ne m D1 c main_arg6 (by decide)).trans <| (StableHlo.after_of_writes_sub hostOps2 _ hostOps2_writes (by decide : (main_arg6 : Ref sig .tc) ∉ hostOps2_W)).trans <| (S6_of_ne m D1 c main_arg6 (by decide) (by decide) (by decide)).trans <| (StableHlo.after_of_writes_sub hostOps1 _ hostOps1_writes (by decide : (main_arg6 : Ref sig .tc) ∉ hostOps1_W)).trans <| (S4_of_ne m c main_arg6 (by decide))
theorem keep_main_arg1_3_16 (c : Dev nD) : S16 m D1 D3 D5 c main_arg1 = S3 m c main_arg1 :=
  (S16_of_ne m D1 D3 D5 c main_arg1 (by decide)).trans <| (StableHlo.after_of_writes_sub hostOps6 _ hostOps6_writes (by decide : (main_arg1 : Ref sig .tc) ∉ hostOps6_W)).trans <| (S14_of_ne m D1 D3 D5 c main_arg1 (by decide) (by decide) (by decide)).trans <| (StableHlo.after_of_writes_sub hostOps5 _ hostOps5_writes (by decide : (main_arg1 : Ref sig .tc) ∉ hostOps5_W)).trans <| (S12_of_ne m D1 D3 c main_arg1 (by decide)).trans <| (StableHlo.after_of_writes_sub hostOps4 _ hostOps4_writes (by decide : (main_arg1 : Ref sig .tc) ∉ hostOps4_W)).trans <| (S10_of_ne m D1 D3 c main_arg1 (by decide) (by decide) (by decide)).trans <| (StableHlo.after_of_writes_sub hostOps3 _ hostOps3_writes (by decide : (main_arg1 : Ref sig .tc) ∉ hostOps3_W)).trans <| (S8_of_ne m D1 c main_arg1 (by decide)).trans <| (StableHlo.after_of_writes_sub hostOps2 _ hostOps2_writes (by decide : (main_arg1 : Ref sig .tc) ∉ hostOps2_W)).trans <| (S6_of_ne m D1 c main_arg1 (by decide) (by decide) (by decide)).trans <| (StableHlo.after_of_writes_sub hostOps1 _ hostOps1_writes (by decide : (main_arg1 : Ref sig .tc) ∉ hostOps1_W)).trans <| (S4_of_ne m c main_arg1 (by decide))
theorem keep_main_arg2_3_16 (c : Dev nD) : S16 m D1 D3 D5 c main_arg2 = S3 m c main_arg2 :=
  (S16_of_ne m D1 D3 D5 c main_arg2 (by decide)).trans <| (StableHlo.after_of_writes_sub hostOps6 _ hostOps6_writes (by decide : (main_arg2 : Ref sig .tc) ∉ hostOps6_W)).trans <| (S14_of_ne m D1 D3 D5 c main_arg2 (by decide) (by decide) (by decide)).trans <| (StableHlo.after_of_writes_sub hostOps5 _ hostOps5_writes (by decide : (main_arg2 : Ref sig .tc) ∉ hostOps5_W)).trans <| (S12_of_ne m D1 D3 c main_arg2 (by decide)).trans <| (StableHlo.after_of_writes_sub hostOps4 _ hostOps4_writes (by decide : (main_arg2 : Ref sig .tc) ∉ hostOps4_W)).trans <| (S10_of_ne m D1 D3 c main_arg2 (by decide) (by decide) (by decide)).trans <| (StableHlo.after_of_writes_sub hostOps3 _ hostOps3_writes (by decide : (main_arg2 : Ref sig .tc) ∉ hostOps3_W)).trans <| (S8_of_ne m D1 c main_arg2 (by decide)).trans <| (StableHlo.after_of_writes_sub hostOps2 _ hostOps2_writes (by decide : (main_arg2 : Ref sig .tc) ∉ hostOps2_W)).trans <| (S6_of_ne m D1 c main_arg2 (by decide) (by decide) (by decide)).trans <| (StableHlo.after_of_writes_sub hostOps1 _ hostOps1_writes (by decide : (main_arg2 : Ref sig .tc) ∉ hostOps1_W)).trans <| (S4_of_ne m c main_arg2 (by decide))
theorem keep_main_arg5_3_16 (c : Dev nD) : S16 m D1 D3 D5 c main_arg5 = S3 m c main_arg5 :=
  (S16_of_ne m D1 D3 D5 c main_arg5 (by decide)).trans <| (StableHlo.after_of_writes_sub hostOps6 _ hostOps6_writes (by decide : (main_arg5 : Ref sig .tc) ∉ hostOps6_W)).trans <| (S14_of_ne m D1 D3 D5 c main_arg5 (by decide) (by decide) (by decide)).trans <| (StableHlo.after_of_writes_sub hostOps5 _ hostOps5_writes (by decide : (main_arg5 : Ref sig .tc) ∉ hostOps5_W)).trans <| (S12_of_ne m D1 D3 c main_arg5 (by decide)).trans <| (StableHlo.after_of_writes_sub hostOps4 _ hostOps4_writes (by decide : (main_arg5 : Ref sig .tc) ∉ hostOps4_W)).trans <| (S10_of_ne m D1 D3 c main_arg5 (by decide) (by decide) (by decide)).trans <| (StableHlo.after_of_writes_sub hostOps3 _ hostOps3_writes (by decide : (main_arg5 : Ref sig .tc) ∉ hostOps3_W)).trans <| (S8_of_ne m D1 c main_arg5 (by decide)).trans <| (StableHlo.after_of_writes_sub hostOps2 _ hostOps2_writes (by decide : (main_arg5 : Ref sig .tc) ∉ hostOps2_W)).trans <| (S6_of_ne m D1 c main_arg5 (by decide) (by decide) (by decide)).trans <| (StableHlo.after_of_writes_sub hostOps1 _ hostOps1_writes (by decide : (main_arg5 : Ref sig .tc) ∉ hostOps1_W)).trans <| (S4_of_ne m c main_arg5 (by decide))
theorem keep_main_arg6_3_16 (c : Dev nD) : S16 m D1 D3 D5 c main_arg6 = S3 m c main_arg6 :=
  (S16_of_ne m D1 D3 D5 c main_arg6 (by decide)).trans <| (StableHlo.after_of_writes_sub hostOps6 _ hostOps6_writes (by decide : (main_arg6 : Ref sig .tc) ∉ hostOps6_W)).trans <| (S14_of_ne m D1 D3 D5 c main_arg6 (by decide) (by decide) (by decide)).trans <| (StableHlo.after_of_writes_sub hostOps5 _ hostOps5_writes (by decide : (main_arg6 : Ref sig .tc) ∉ hostOps5_W)).trans <| (S12_of_ne m D1 D3 c main_arg6 (by decide)).trans <| (StableHlo.after_of_writes_sub hostOps4 _ hostOps4_writes (by decide : (main_arg6 : Ref sig .tc) ∉ hostOps4_W)).trans <| (S10_of_ne m D1 D3 c main_arg6 (by decide) (by decide) (by decide)).trans <| (StableHlo.after_of_writes_sub hostOps3 _ hostOps3_writes (by decide : (main_arg6 : Ref sig .tc) ∉ hostOps3_W)).trans <| (S8_of_ne m D1 c main_arg6 (by decide)).trans <| (StableHlo.after_of_writes_sub hostOps2 _ hostOps2_writes (by decide : (main_arg6 : Ref sig .tc) ∉ hostOps2_W)).trans <| (S6_of_ne m D1 c main_arg6 (by decide) (by decide) (by decide)).trans <| (StableHlo.after_of_writes_sub hostOps1 _ hostOps1_writes (by decide : (main_arg6 : Ref sig .tc) ∉ hostOps1_W)).trans <| (S4_of_ne m c main_arg6 (by decide))
theorem keep_main_arg7_3_6 (c : Dev nD) : S6 m D1 c main_arg7 = S3 m c main_arg7 :=
  (S6_of_ne m D1 c main_arg7 (by decide) (by decide) (by decide)).trans <| (StableHlo.after_of_writes_sub hostOps1 _ hostOps1_writes (by decide : (main_arg7 : Ref sig .tc) ∉ hostOps1_W)).trans <| (S4_of_ne m c main_arg7 (by decide))
theorem keep_main_arg8_3_6 (c : Dev nD) : S6 m D1 c main_arg8 = S3 m c main_arg8 :=
  (S6_of_ne m D1 c main_arg8 (by decide) (by decide) (by decide)).trans <| (StableHlo.after_of_writes_sub hostOps1 _ hostOps1_writes (by decide : (main_arg8 : Ref sig .tc) ∉ hostOps1_W)).trans <| (S4_of_ne m c main_arg8 (by decide))
theorem keep_main_arg7_3_10 (c : Dev nD) : S10 m D1 D3 c main_arg7 = S3 m c main_arg7 :=
  (S10_of_ne m D1 D3 c main_arg7 (by decide) (by decide) (by decide)).trans <| (StableHlo.after_of_writes_sub hostOps3 _ hostOps3_writes (by decide : (main_arg7 : Ref sig .tc) ∉ hostOps3_W)).trans <| (S8_of_ne m D1 c main_arg7 (by decide)).trans <| (StableHlo.after_of_writes_sub hostOps2 _ hostOps2_writes (by decide : (main_arg7 : Ref sig .tc) ∉ hostOps2_W)).trans <| (S6_of_ne m D1 c main_arg7 (by decide) (by decide) (by decide)).trans <| (StableHlo.after_of_writes_sub hostOps1 _ hostOps1_writes (by decide : (main_arg7 : Ref sig .tc) ∉ hostOps1_W)).trans <| (S4_of_ne m c main_arg7 (by decide))
theorem keep_main_arg8_3_10 (c : Dev nD) : S10 m D1 D3 c main_arg8 = S3 m c main_arg8 :=
  (S10_of_ne m D1 D3 c main_arg8 (by decide) (by decide) (by decide)).trans <| (StableHlo.after_of_writes_sub hostOps3 _ hostOps3_writes (by decide : (main_arg8 : Ref sig .tc) ∉ hostOps3_W)).trans <| (S8_of_ne m D1 c main_arg8 (by decide)).trans <| (StableHlo.after_of_writes_sub hostOps2 _ hostOps2_writes (by decide : (main_arg8 : Ref sig .tc) ∉ hostOps2_W)).trans <| (S6_of_ne m D1 c main_arg8 (by decide) (by decide) (by decide)).trans <| (StableHlo.after_of_writes_sub hostOps1 _ hostOps1_writes (by decide : (main_arg8 : Ref sig .tc) ∉ hostOps1_W)).trans <| (S4_of_ne m c main_arg8 (by decide))
theorem keep_main_arg7_3_14 (c : Dev nD) : S14 m D1 D3 D5 c main_arg7 = S3 m c main_arg7 :=
  (S14_of_ne m D1 D3 D5 c main_arg7 (by decide) (by decide) (by decide)).trans <| (StableHlo.after_of_writes_sub hostOps5 _ hostOps5_writes (by decide : (main_arg7 : Ref sig .tc) ∉ hostOps5_W)).trans <| (S12_of_ne m D1 D3 c main_arg7 (by decide)).trans <| (StableHlo.after_of_writes_sub hostOps4 _ hostOps4_writes (by decide : (main_arg7 : Ref sig .tc) ∉ hostOps4_W)).trans <| (S10_of_ne m D1 D3 c main_arg7 (by decide) (by decide) (by decide)).trans <| (StableHlo.after_of_writes_sub hostOps3 _ hostOps3_writes (by decide : (main_arg7 : Ref sig .tc) ∉ hostOps3_W)).trans <| (S8_of_ne m D1 c main_arg7 (by decide)).trans <| (StableHlo.after_of_writes_sub hostOps2 _ hostOps2_writes (by decide : (main_arg7 : Ref sig .tc) ∉ hostOps2_W)).trans <| (S6_of_ne m D1 c main_arg7 (by decide) (by decide) (by decide)).trans <| (StableHlo.after_of_writes_sub hostOps1 _ hostOps1_writes (by decide : (main_arg7 : Ref sig .tc) ∉ hostOps1_W)).trans <| (S4_of_ne m c main_arg7 (by decide))
theorem keep_main_arg8_3_14 (c : Dev nD) : S14 m D1 D3 D5 c main_arg8 = S3 m c main_arg8 :=
  (S14_of_ne m D1 D3 D5 c main_arg8 (by decide) (by decide) (by decide)).trans <| (StableHlo.after_of_writes_sub hostOps5 _ hostOps5_writes (by decide : (main_arg8 : Ref sig .tc) ∉ hostOps5_W)).trans <| (S12_of_ne m D1 D3 c main_arg8 (by decide)).trans <| (StableHlo.after_of_writes_sub hostOps4 _ hostOps4_writes (by decide : (main_arg8 : Ref sig .tc) ∉ hostOps4_W)).trans <| (S10_of_ne m D1 D3 c main_arg8 (by decide) (by decide) (by decide)).trans <| (StableHlo.after_of_writes_sub hostOps3 _ hostOps3_writes (by decide : (main_arg8 : Ref sig .tc) ∉ hostOps3_W)).trans <| (S8_of_ne m D1 c main_arg8 (by decide)).trans <| (StableHlo.after_of_writes_sub hostOps2 _ hostOps2_writes (by decide : (main_arg8 : Ref sig .tc) ∉ hostOps2_W)).trans <| (S6_of_ne m D1 c main_arg8 (by decide) (by decide) (by decide)).trans <| (StableHlo.after_of_writes_sub hostOps1 _ hostOps1_writes (by decide : (main_arg8 : Ref sig .tc) ∉ hostOps1_W)).trans <| (S4_of_ne m c main_arg8 (by decide))
theorem keep_main_arg7_3_18 (c : Dev nD) : S18 m D1 D3 D5 D7 c main_arg7 = S3 m c main_arg7 :=
  (S18_of_ne m D1 D3 D5 D7 c main_arg7 (by decide) (by decide) (by decide)).trans <| (StableHlo.after_of_writes_sub hostOps7 _ hostOps7_writes (by decide : (main_arg7 : Ref sig .tc) ∉ hostOps7_W)).trans <| (S16_of_ne m D1 D3 D5 c main_arg7 (by decide)).trans <| (StableHlo.after_of_writes_sub hostOps6 _ hostOps6_writes (by decide : (main_arg7 : Ref sig .tc) ∉ hostOps6_W)).trans <| (S14_of_ne m D1 D3 D5 c main_arg7 (by decide) (by decide) (by decide)).trans <| (StableHlo.after_of_writes_sub hostOps5 _ hostOps5_writes (by decide : (main_arg7 : Ref sig .tc) ∉ hostOps5_W)).trans <| (S12_of_ne m D1 D3 c main_arg7 (by decide)).trans <| (StableHlo.after_of_writes_sub hostOps4 _ hostOps4_writes (by decide : (main_arg7 : Ref sig .tc) ∉ hostOps4_W)).trans <| (S10_of_ne m D1 D3 c main_arg7 (by decide) (by decide) (by decide)).trans <| (StableHlo.after_of_writes_sub hostOps3 _ hostOps3_writes (by decide : (main_arg7 : Ref sig .tc) ∉ hostOps3_W)).trans <| (S8_of_ne m D1 c main_arg7 (by decide)).trans <| (StableHlo.after_of_writes_sub hostOps2 _ hostOps2_writes (by decide : (main_arg7 : Ref sig .tc) ∉ hostOps2_W)).trans <| (S6_of_ne m D1 c main_arg7 (by decide) (by decide) (by decide)).trans <| (StableHlo.after_of_writes_sub hostOps1 _ hostOps1_writes (by decide : (main_arg7 : Ref sig .tc) ∉ hostOps1_W)).trans <| (S4_of_ne m c main_arg7 (by decide))
theorem keep_main_arg8_3_18 (c : Dev nD) : S18 m D1 D3 D5 D7 c main_arg8 = S3 m c main_arg8 :=
  (S18_of_ne m D1 D3 D5 D7 c main_arg8 (by decide) (by decide) (by decide)).trans <| (StableHlo.after_of_writes_sub hostOps7 _ hostOps7_writes (by decide : (main_arg8 : Ref sig .tc) ∉ hostOps7_W)).trans <| (S16_of_ne m D1 D3 D5 c main_arg8 (by decide)).trans <| (StableHlo.after_of_writes_sub hostOps6 _ hostOps6_writes (by decide : (main_arg8 : Ref sig .tc) ∉ hostOps6_W)).trans <| (S14_of_ne m D1 D3 D5 c main_arg8 (by decide) (by decide) (by decide)).trans <| (StableHlo.after_of_writes_sub hostOps5 _ hostOps5_writes (by decide : (main_arg8 : Ref sig .tc) ∉ hostOps5_W)).trans <| (S12_of_ne m D1 D3 c main_arg8 (by decide)).trans <| (StableHlo.after_of_writes_sub hostOps4 _ hostOps4_writes (by decide : (main_arg8 : Ref sig .tc) ∉ hostOps4_W)).trans <| (S10_of_ne m D1 D3 c main_arg8 (by decide) (by decide) (by decide)).trans <| (StableHlo.after_of_writes_sub hostOps3 _ hostOps3_writes (by decide : (main_arg8 : Ref sig .tc) ∉ hostOps3_W)).trans <| (S8_of_ne m D1 c main_arg8 (by decide)).trans <| (StableHlo.after_of_writes_sub hostOps2 _ hostOps2_writes (by decide : (main_arg8 : Ref sig .tc) ∉ hostOps2_W)).trans <| (S6_of_ne m D1 c main_arg8 (by decide) (by decide) (by decide)).trans <| (StableHlo.after_of_writes_sub hostOps1 _ hostOps1_writes (by decide : (main_arg8 : Ref sig .tc) ∉ hostOps1_W)).trans <| (S4_of_ne m c main_arg8 (by decide))
theorem keep_main_v44_0_6_7 (c : Dev nD) : S7 m D1 c main_v44_0 = S6 m D1 c main_v44_0 :=
  (StableHlo.after_of_writes_sub hostOps2 _ hostOps2_writes (by decide : (main_v44_0 : Ref sig .tc) ∉ hostOps2_W))
theorem keep_main_v75_0_10_11 (c : Dev nD) : S11 m D1 D3 c main_v75_0 = S10 m D1 D3 c main_v75_0 :=
  (StableHlo.after_of_writes_sub hostOps4 _ hostOps4_writes (by decide : (main_v75_0 : Ref sig .tc) ∉ hostOps4_W))
theorem keep_main_v106_0_14_15 (c : Dev nD) : S15 m D1 D3 D5 c main_v106_0 = S14 m D1 D3 D5 c main_v106_0 :=
  (StableHlo.after_of_writes_sub hostOps6 _ hostOps6_writes (by decide : (main_v106_0 : Ref sig .tc) ∉ hostOps6_W))
theorem keep_main_v137_0_18_19 (c : Dev nD) : S19 m D1 D3 D5 D7 c main_v137_0 = S18 m D1 D3 D5 D7 c main_v137_0 :=
  (StableHlo.after_of_writes_sub hostOps8 _ hostOps8_writes (by decide : (main_v137_0 : Ref sig .tc) ∉ hostOps8_W))
theorem S3_main_arg0 (c : Dev nD) : S3 m c main_arg0 = m ((c : Thread nD τ).loc main_arg0) :=
  (V3_of m c main_arg0 (by decide)).trans <| (V2_of m c main_arg0 (by decide)).trans <| (V1_of m c main_arg0 (by decide))
theorem S3_main_arg1 (c : Dev nD) : S3 m c main_arg1 = m ((c : Thread nD τ).loc main_arg1) :=
  (V3_of m c main_arg1 (by decide)).trans <| (V2_of m c main_arg1 (by decide)).trans <| (V1_of m c main_arg1 (by decide))
theorem S3_main_arg2 (c : Dev nD) : S3 m c main_arg2 = m ((c : Thread nD τ).loc main_arg2) :=
  (V3_of m c main_arg2 (by decide)).trans <| (V2_of m c main_arg2 (by decide)).trans <| (V1_of m c main_arg2 (by decide))
theorem S3_main_arg3 (c : Dev nD) : S3 m c main_arg3 = m ((c : Thread nD τ).loc main_arg3) :=
  (V3_of m c main_arg3 (by decide)).trans <| (V2_of m c main_arg3 (by decide)).trans <| (V1_of m c main_arg3 (by decide))
theorem S3_main_arg4 (c : Dev nD) : S3 m c main_arg4 = m ((c : Thread nD τ).loc main_arg4) :=
  (V3_of m c main_arg4 (by decide)).trans <| (V2_of m c main_arg4 (by decide)).trans <| (V1_of m c main_arg4 (by decide))
theorem S3_main_arg5 (c : Dev nD) : S3 m c main_arg5 = m ((c : Thread nD τ).loc main_arg5) :=
  (V3_of m c main_arg5 (by decide)).trans <| (V2_of m c main_arg5 (by decide)).trans <| (V1_of m c main_arg5 (by decide))
theorem S3_main_arg6 (c : Dev nD) : S3 m c main_arg6 = m ((c : Thread nD τ).loc main_arg6) :=
  (V3_of m c main_arg6 (by decide)).trans <| (V2_of m c main_arg6 (by decide)).trans <| (V1_of m c main_arg6 (by decide))
theorem S3_main_arg7 (c : Dev nD) : S3 m c main_arg7 = m ((c : Thread nD τ).loc main_arg7) :=
  (V3_of m c main_arg7 (by decide)).trans <| (V2_of m c main_arg7 (by decide)).trans <| (V1_of m c main_arg7 (by decide))
theorem S3_main_arg8 (c : Dev nD) : S3 m c main_arg8 = m ((c : Thread nD τ).loc main_arg8) :=
  (V3_of m c main_arg8 (by decide)).trans <| (V2_of m c main_arg8 (by decide)).trans <| (V1_of m c main_arg8 (by decide))

end Cert.KernelIdeal.Hand

end
-- ==== Proof.NetDefs.lean ====
/-
  The network's layers as functions of whole arrays, entry by entry, over the extended reals.

  A matrix is a function of a rank-2 index; entries are read at `ix2 r c`. The node projection
  `x · w + b`; a layer's combination of the aggregate and the projection through two weight matrices;
  the column sums and sums of squares over the 100000 rows; the mean and the two forms of the
  variance; the normalisation by mean, variance, scale and shift followed by the rectifier.
-/
import Idealize.ShloMosaic.PureOps.Ideal
import Idealize.ShloMosaic.Lib.ValueIdx

noncomputable section

namespace Cert.Net

open Idealize.ShloMosaic Idealize.ShloMosaic.ValueIdx
open scoped BigOperators

/-- Entry `(r, c)` of `x · w + b`: the sum over `k` of `x (r, k) · w (k, c)`, plus `b (0, c)`. -/
def projAt (x : (⟨2, ![100000, 128]⟩ : Shape).Idx → EReal) (w : (⟨2, ![128, 128]⟩ : Shape).Idx → EReal)
    (b2 : (⟨2, ![1, 128]⟩ : Shape).Idx → EReal) (r : Fin 100000) (c : Fin 128) : EReal :=
  (∑ k : Fin 128, x (ix2 r k) * w (ix2 k c)) + b2 (ix2 (0 : Fin 1) c)

/-- Entry `(r, j)` of a layer's combination, with `h = 1/2` (as its `f32` literal), the aggregate `a`, the
    projection `p`, the two weight matrices and the layer's two scalars `c` and `β`:
    `c · (h · a) + β · ((h · a) · W1) + c · (h · p) + β · ((h · p) · W2)`, summed left to right. -/
def combineAt (β c : EReal) (a p : (⟨2, ![100000, 128]⟩ : Shape).Idx → EReal)
    (W1 W2 : (⟨2, ![128, 128]⟩ : Shape).Idx → EReal) (r : Fin 100000) (j : Fin 128) : EReal :=
  c * (Ideal.ofBits .f32 0x3F000000#32 * a (ix2 r j))
    + β * (∑ k : Fin 128, (Ideal.ofBits .f32 0x3F000000#32 * a (ix2 r k)) * W1 (ix2 k j))
    + c * (Ideal.ofBits .f32 0x3F000000#32 * p (ix2 r j))
    + β * (∑ k : Fin 128, (Ideal.ofBits .f32 0x3F000000#32 * p (ix2 r k)) * W2 (ix2 k j))

/-- The sum of column `j` over the 100000 rows. -/
def colSum (y : (⟨2, ![100000, 128]⟩ : Shape).Idx → EReal) : Fin 128 → EReal :=
  fun j => ∑ r : Fin 100000, y (ix2 r j)

/-- The sum of the squares of column `j` over the 100000 rows. -/
def colSumSq (y : (⟨2, ![100000, 128]⟩ : Shape).Idx → EReal) : Fin 128 → EReal :=
  fun j => ∑ r : Fin 100000, y (ix2 r j) * y (ix2 r j)

/-- A column total divided by the number of rows (as its `f32` literal). -/
def meanOf (s : Fin 128 → EReal) (j : Fin 128) : EReal :=
  Ideal.div (s j) (Ideal.ofBits .f32 0x47C35000#32)

/-- The variance from the two moments: the mean of squares minus the squared mean. -/
def varMoments (s q : Fin 128 → EReal) (j : Fin 128) : EReal :=
  meanOf q j - meanOf s j * meanOf s j

/-- The variance as the mean of the squared deviations from the column's mean. -/
def varCentred (y : (⟨2, ![100000, 128]⟩ : Shape).Idx → EReal) (j : Fin 128) : EReal :=
  Ideal.div (∑ r : Fin 100000, (y (ix2 r j) - meanOf (colSum y) j) * (y (ix2 r j) - meanOf (colSum y) j))
    (Ideal.ofBits .f32 0x47C35000#32)

/-- Entry `(r, c)` of the normalised, rectified array:
    `max (gamma c · (y (r, c) − mu c) · rsqrt (var c + eps) + beta c) 0`. -/
def normReluAt (y : (⟨2, ![100000, 128]⟩ : Shape).Idx → EReal)
    (mu var gamma beta : (⟨2, ![1, 128]⟩ : Shape).Idx → EReal) (r : Fin 100000) (c : Fin 128) : EReal :=
  max (gamma (ix2 (0 : Fin 1) c) * (y (ix2 r c) - mu (ix2 (0 : Fin 1) c))
      * Ideal.rsqrt (var (ix2 (0 : Fin 1) c) + Ideal.ofBits .f32 0x3727C5AC#32)
    + beta (ix2 (0 : Fin 1) c)) 0

end Cert.Net

end
-- ==== Proof.KIValueDefs.lean ====
/-
  Whole-array forms of the accumulating regions' results over the 100000 × 128 feature array: the combination entry by
  entry, and the rows of its column sums and column sums of squares.
-/
import proofs.«163161_j55817394979591_1_alg».proof.KernelIdeal
import proofs.«163161_j55817394979591_1_alg».proof.Proof.NetDefs

noncomputable section

namespace Cert.KernelIdeal.HandValue

open Cert.KernelIdeal Idealize.ShloMosaic

/-- c·(a/2) + β·((a/2)·W1) + c·(p/2) + β·((p/2)·W2), entry by entry. -/
def combine (β c : EReal) (a p : S100000x128.Idx → EReal) (W1 W2 : S128x128.Idx → EReal) : S100000x128.Idx → EReal :=
  fun i => Cert.Net.combineAt β c a p W1 W2 (i 0) (i 1)
/-- The row of column sums. -/
def sumRow (y : S100000x128.Idx → EReal) : S1x128.Idx → EReal := fun i => Cert.Net.colSum y (i 1)
/-- The row of column sums of squares. -/
def sumSqRow (y : S100000x128.Idx → EReal) : S1x128.Idx → EReal := fun i => Cert.Net.colSumSq y (i 1)

end Cert.KernelIdeal.HandValue

end
-- ==== Proof.LibMatmulPlain.lean ====
/-
  A plain matrix product accumulated into zero, read at an entry.

  For an m × k matrix A and a k × n matrix B contracted over A's second and B's first axis (no batch axes), the
  product accumulated into the zero matrix has at (a, b) the sum over c of A (a, c) · B (c, b), at the extended
  reals — a sum indexed by `Fin k`, whatever record spells the dimension numbers.
-/
import Idealize.ShloMosaic.PureOps.Ideal.Laws
import Idealize.ShloMosaic.Lib.ValueIdx

noncomputable section

namespace Idealize.ShloMosaic.MatmulPlain

open Idealize.ShloMosaic Idealize.ShloMosaic.ValueIdx

/-- The matrix product of an m × k by a k × n matrix into the zero accumulator, at (a, b), is
    `∑ c, A (a, c) * B (c, b)`. General in m, k, n, the operand formats and the well-formedness proof. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.MatmulPlain

end
-- ==== Proof.KIValue0.lean ====
import proofs.«163161_j55817394979591_1_alg».proof.Proof.KIRegion0
import proofs.«163161_j55817394979591_1_alg».proof.Proof.LibMatmulPlain
import proofs.«163161_j55817394979591_1_alg».proof.Proof.NetDefs
import Idealize.ShloMosaic.Lib.Pipeline.Value
import Idealize.ShloMosaic.Lib.ValueIdx

/-!
# Region 0 of @main as a function of whole arrays: the node projection

The region's twenty points each write rows `5000·t … 5000·t + 4999` of the output: the matching rows of `x`
times the whole weight matrix, plus the bias row.  So the output array ends as `x · w + b`, entry by entry.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- `x · w + b` as an array. -/
def proj (x : S100000x128.Idx → EReal) (w : S128x128.Idx → EReal) (b2 : S1x128.Idx → EReal) :
    S100000x128.Idx → EReal :=
  fun i => Cert.Net.projAt x w b2 (i 0) (i 1)

/-- The offset `(0, 0)` of a whole block is the zero function. -/
theorem origin0 : (![0, 0] : Fin 2 → Nat) = fun _ => 0 := funext fun a => by fin_cases a <;> rfl

/-- The body's payload at entry `(p, q)` of a block: row `p` of the x block times column `q` of the weights,
    plus the bias row's entry `q` (the narrowings to bf16 are the identity on extended reals). -/
theorem pay0_apply (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 k q)) + x2 (ix2 (0 : Fin 1) q) := by
  unfold k0_pay1
  show addf _ _ (ix2 p q) = _
  rw [addf_apply]
  congr 1
  · exact MatmulPlain.matmul_zero_apply dot_S5000x128_S128x128_S5000x128_1_0_0_1_n_n_wf none
      (truncf .bf16 x0 bitsLt_bf16_f32) (truncf .bf16 x1 bitsLt_bf16_f32) p q
  · rw [shapeCast_self]
    refine broadcastTo_apply _ _ _ _ fun a => ?_
    match a with
    | ⟨0, _⟩ => rfl
    | ⟨1, _⟩ => rfl

-- the TensorCore's buffer contents when the region is entered
variable (V : (c : Dev nD) → (b : Ref sig .tc) → Buf (Elt Ideal) ((c : Thread nD τ).loc b))

/-- The printed index maps, decided over the twenty points: the x window and the output window sit at row block `t`,
    the weight and bias windows at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x window's block at point `t` is rows `5000·t …` of `x`. -/
theorem xblk_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e00, e01, -⟩ := idx_facts0 t
  unfold iblk0
  rw [View.read_apply]
  show (V c main_arg0 : S100000x128.Idx → EReal) _ = _
  congr 1
  funext a
  apply Fin.ext
  match a with
  | ⟨0, _⟩ => show win0_0.index t (0 : Fin 2) * 5000 + 1 * (y 0).val = (i 0).val; rw [e00, h0]; omega
  | ⟨1, _⟩ => show win0_0.index t (1 : Fin 2) * 128 + 1 * (y 1).val = (i 1).val; rw [e01, h1]; omega

/-- The weight window's block at every point is the whole weight matrix. -/
theorem wblk_apply (c : Dev nD) (t : Fin cfg0.N) (y : S128x128.Idx) :
    (iblk0 V c 1 t : Vec Ideal S128x128 .f32) y = (V c main_arg3 : S128x128.Idx → EReal) y := by
  obtain ⟨-, -, e10, e11, -⟩ := idx_facts0 t
  unfold iblk0
  rw [View.read_apply]
  show (V c main_arg3 : S128x128.Idx → EReal) _ = _
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- The bias window's block at every point is the whole bias row. -/
theorem bblk_apply (c : Dev nD) (t : Fin cfg0.N) (y : S1x128.Idx) :
    (iblk0 V c 2 t : Vec Ideal S1x128 .f32) y = (V c main_v25 : S1x128.Idx → EReal) y := by
  obtain ⟨-, -, -, -, e20, e21, -⟩ := idx_facts0 t
  unfold iblk0
  rw [View.read_apply]
  show (V c main_v25 : S1x128.Idx → EReal) _ = _
  congr 1
  funext a
  apply Fin.ext
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

/-- What point `t` writes back is block `t` of `x · w + b` of the arrays as the region finds them. -/
theorem flushed0_eq (c : Dev nD) (t : Fin cfg0.N) :
    (dat0 (F := Ideal) V c).flushed 3 t
      = ((cfg0.win 3).blk t).view.read (Elt Ideal) (proj (V c main_arg0) (V c main_arg3) (V c main_v25)) := by
  show (cfg0.win 3).cut (grid0.coords t) ((dat0 V c).after 3 t) = _
  rw [after0_3]
  unfold out0_3
  rw [View.canon_unit_zero origin0]
  simp only [View.ld_unit_zero (S := S5000x128) origin0, View.ld_unit_zero (S := S128x128) origin0,
    View.ld_unit_zero (S := S1x128) origin0]
  obtain ⟨-, -, -, -, -, -, e30, e31⟩ := idx_facts0 t
  have key : ∀ j : S5000x128.Idx, k0_pay1 (iblk0 V c 0 t) (iblk0 V c 1 t) (iblk0 V c 2 t) j
      = proj (V c main_arg0) (V c main_arg3) (V c main_v25) (((cfg0.win 3).blk t).view.emb j) := by
    intro j
    obtain ⟨p, q, rfl⟩ : ∃ (p : Fin 5000) (q : Fin 128), j = ix2 p q := ⟨j 0, j 1, eq_ix2 j⟩
    have hv0 : ((((cfg0.win 3).blk t).view.emb (ix2 p q)) 0).val = 5000 * t.val + p.val := by
      show win0_3.index t (0 : Fin 2) * 5000 + 1 * p.val = _
      rw [e30]; omega
    have hv1 : ((((cfg0.win 3).blk t).view.emb (ix2 p q)) 1).val = q.val := by
      show win0_3.index t (1 : Fin 2) * 128 + 1 * q.val = _
      rw [e31]; omega
    rw [pay0_apply]
    unfold proj Cert.Net.projAt
    congr 1
    · refine Finset.sum_congr rfl fun k _ => ?_
      rw [xblk_apply V c t (ix2 p k) (ix2 ((((cfg0.win 3).blk t).view.emb (ix2 p q)) 0) k) hv0 rfl,
        wblk_apply V c t (ix2 k q)]
      congr 2
      funext a
      apply Fin.ext
      match a with
      | ⟨0, _⟩ => rfl
      | ⟨1, _⟩ => exact hv1.symm
    · rw [bblk_apply V c t (ix2 (0 : Fin 1) q)]
      congr 1
      funext a
      apply Fin.ext
      match a with
      | ⟨0, _⟩ => rfl
      | ⟨1, _⟩ => exact hv1.symm
  funext j
  exact key j

/-- An index of the output array is in point `t`'s block iff each coordinate is in the block's range on its axis. -/
theorem mem_blk0 (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v26).slice (win0_3.rect t)).set ↔ _
  rw [View.set_slice_whole, Rect.mem_set_unit]
  exact Iff.rfl

/-- Every index of the output array is in some point's block: row `r` is in block `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- The output array after the region: `x · w + b` of the arrays as the region finds them. -/
theorem final0 (c : Dev nD) :
    (dat0 (F := Ideal) V c).arrAt 3 cfg0.N = proj (V c main_arg0) (V c main_arg3) (V c main_v25) :=
  (dat0 V c).arrAt_eq_of_cover 3 _ (fun t _ => flushed0_eq V c t) cover0

end Cert.KernelIdeal.HandValue

end
-- ==== Proof.KIValue2.lean ====
import proofs.«163161_j55817394979591_1_alg».proof.Proof.KIRegion2
import proofs.«163161_j55817394979591_1_alg».proof.Proof.NetDefs
import Idealize.ShloMosaic.PureOps.Ideal.Laws
import Idealize.ShloMosaic.Lib.Pipeline.Value
import Idealize.ShloMosaic.Lib.ValueIdx

/-!
# Region 2 of @main as a function of whole arrays: batch normalisation and the rectifier

The region's twenty points each write rows `5000·t … 5000·t + 4999` of the output: the matching rows of `y`,
centred by the row of means, scaled by the row of scales and by the reciprocal square root of the row of
variances plus epsilon, shifted by the row of shifts, and cut below at zero.  So the output array ends as that
function of `y` and the four rows, entry by entry.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The normalised, rectified array. -/
def normRelu (y : S100000x128.Idx → EReal) (mu var gamma beta : S1x128.Idx → EReal) :
    S100000x128.Idx → EReal :=
  fun i => Cert.Net.normReluAt y mu var gamma beta (i 0) (i 1)

/-- The offset `(0, 0)` of a whole block is the zero function. -/
theorem origin2 : (![0, 0] : Fin 2 → Nat) = fun _ => 0 := funext fun a => by fin_cases a <;> rfl

/-- A row spread over the 5000 rows of a block reads, at `(p, q)`, the row's entry `q`. -/
theorem spread_apply (v : FVec Ideal S1x128 .f32) (p : Fin 5000) (q : Fin 128) :
    broadcastTo S5000x128 v broadcasts_S1x128_S5000x128 (ix2 p q) = v (ix2 (0 : Fin 1) q) := by
  refine broadcastTo_apply _ _ _ _ fun a => ?_
  match a with
  | ⟨0, _⟩ => rfl
  | ⟨1, _⟩ => rfl

/-- The body's payload at entry `(p, q)` of a block, over the block of `y` and the rows in the order the body
    loads them (variance, scale, mean, shift). -/
theorem pay2_apply (x0 : Vec Ideal S5000x128 .f32) (xv xg xm xb : Vec Ideal S1x128 .f32)
    (p : Fin 5000) (q : Fin 128) :
    k2_pay1 x0 xv xg xm xb (ix2 p q)
      = max (xg (ix2 (0 : Fin 1) q) * (x0 (ix2 p q) - xm (ix2 (0 : Fin 1) q))
          * Ideal.rsqrt (xv (ix2 (0 : Fin 1) q) + Ideal.ofBits .f32 0x3727C5AC#32)
        + xb (ix2 (0 : Fin 1) q)) 0 := by
  unfold k2_pay1
  show maximumf _ _ (ix2 p q) = _
  rw [maximumf_apply, addf_apply, mulf_apply, mulf_apply, subf_apply]
  simp only [shapeCast_self, spread_apply]
  rw [broadcast_apply]
  show max (_ * _ * Ideal.rsqrt (xv (ix2 (0 : Fin 1) q) + Ideal.ofBits .f32 0x3727C5AC#32) + _)
      (Ideal.ofBits .f32 0x00000000#32) = _
  rw [Ideal.ofBits_zero_f32]

-- the TensorCore's buffer contents when the region is entered
variable (V : (c : Dev nD) → (b : Ref sig .tc) → Buf (Elt Ideal) ((c : Thread nD τ).loc b))

/-- The printed index maps, decided over the twenty points: the y window and the output window sit at row block `t`,
    the four row windows at block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The y window's block at point `t` is rows `5000·t …` of `y`. -/
theorem yblk_apply (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v44_0 : S100000x128.Idx → EReal) i := by
  obtain ⟨e00, e01, -⟩ := idx_facts2 t
  unfold iblk2
  rw [View.read_apply]
  show (V c main_v44_0 : S100000x128.Idx → EReal) _ = _
  congr 1
  funext a
  apply Fin.ext
  match a with
  | ⟨0, _⟩ => show win2_0.index t (0 : Fin 2) * 5000 + 1 * (y 0).val = (i 0).val; rw [e00, h0]; omega
  | ⟨1, _⟩ => show win2_0.index t (1 : Fin 2) * 128 + 1 * (y 1).val = (i 1).val; rw [e01, h1]; omega

/-- The window of means at every point is the whole row of means. -/
theorem mublk_apply (c : Dev nD) (t : Fin cfg2.N) (y : S1x128.Idx) :
    (iblk2 V c 1 t : Vec Ideal S1x128 .f32) y = (V c main_v46 : S1x128.Idx → EReal) y := by
  obtain ⟨-, -, e0, e1, -⟩ := idx_facts2 t
  unfold iblk2
  rw [View.read_apply]
  show (V c main_v46 : S1x128.Idx → EReal) _ = _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The window of variances at every point is the whole row of variances. -/
theorem varblk_apply (c : Dev nD) (t : Fin cfg2.N) (y : S1x128.Idx) :
    (iblk2 V c 2 t : Vec Ideal S1x128 .f32) y = (V c main_v50 : S1x128.Idx → EReal) y := by
  obtain ⟨-, -, -, -, e0, e1, -⟩ := idx_facts2 t
  unfold iblk2
  rw [View.read_apply]
  show (V c main_v50 : S1x128.Idx → EReal) _ = _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The window of scales at every point is the whole row of scales. -/
theorem gammablk_apply (c : Dev nD) (t : Fin cfg2.N) (y : S1x128.Idx) :
    (iblk2 V c 3 t : Vec Ideal S1x128 .f32) y = (V c main_v53 : S1x128.Idx → EReal) y := by
  obtain ⟨-, -, -, -, -, -, e0, e1, -⟩ := idx_facts2 t
  unfold iblk2
  rw [View.read_apply]
  show (V c main_v53 : S1x128.Idx → EReal) _ = _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The window of shifts at every point is the whole row of shifts. -/
theorem betablk_apply (c : Dev nD) (t : Fin cfg2.N) (y : S1x128.Idx) :
    (iblk2 V c 4 t : Vec Ideal S1x128 .f32) y = (V c main_v56 : S1x128.Idx → EReal) y := by
  obtain ⟨-, -, -, -, -, -, -, -, e0, e1, -⟩ := idx_facts2 t
  unfold iblk2
  rw [View.read_apply]
  show (V c main_v56 : S1x128.Idx → EReal) _ = _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- What point `t` writes back is block `t` of the normalised, rectified array of the arrays as the region finds
    them. -/
theorem flushed2_eq (c : Dev nD) (t : Fin cfg2.N) :
    (dat2 (F := Ideal) V c).flushed 5 t
      = ((cfg2.win 5).blk t).view.read (Elt Ideal)
          (normRelu (V c main_v44_0) (V c main_v46) (V c main_v50) (V c main_v53) (V c main_v56)) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S1x128) origin2]
  obtain ⟨-, -, -, -, -, -, -, -, -, -, e50, e51⟩ := idx_facts2 t
  have key : ∀ j : S5000x128.Idx,
      k2_pay1 (iblk2 V c 0 t) (iblk2 V c 2 t) (iblk2 V c 3 t) (iblk2 V c 1 t) (iblk2 V c 4 t) j
        = normRelu (V c main_v44_0) (V c main_v46) (V c main_v50) (V c main_v53) (V c main_v56)
            (((cfg2.win 5).blk t).view.emb j) := by
    intro j
    obtain ⟨p, q, rfl⟩ : ∃ (p : Fin 5000) (q : Fin 128), j = ix2 p q := ⟨j 0, j 1, eq_ix2 j⟩
    have hv0 : ((((cfg2.win 5).blk t).view.emb (ix2 p q)) 0).val = 5000 * t.val + p.val := by
      show win2_5.index t (0 : Fin 2) * 5000 + 1 * p.val = _
      rw [e50]; omega
    have hv1 : ((((cfg2.win 5).blk t).view.emb (ix2 p q)) 1).val = q.val := by
      show win2_5.index t (1 : Fin 2) * 128 + 1 * q.val = _
      rw [e51]; omega
    have hq : (ix2 (0 : Fin 1) ((((cfg2.win 5).blk t).view.emb (ix2 p q)) 1) : S1x128.Idx) = ix2 (0 : Fin 1) q := by
      funext a
      apply Fin.ext
      match a with
      | ⟨0, _⟩ => rfl
      | ⟨1, _⟩ => exact hv1
    rw [pay2_apply]
    unfold normRelu Cert.Net.normReluAt
    rw [hq, mublk_apply V c t, varblk_apply V c t, gammablk_apply V c t, betablk_apply V c t,
      yblk_apply V c t (ix2 p q) (ix2 ((((cfg2.win 5).blk t).view.emb (ix2 p q)) 0)
        ((((cfg2.win 5).blk t).view.emb (ix2 p q)) 1)) hv0 hv1]
  funext j
  exact key j

/-- An index of the output array is in point `t`'s block iff each coordinate is in the block's range on its axis. -/
theorem mem_blk2 (t : Fin cfg2.N) (i : S100000x128.Idx) :
    i ∈ ((cfg2.win 5).blk t).view.set
      ↔ ∀ a : Fin 2, win2_5.index t a * S5000x128.size a ≤ (i a).val
          ∧ (i a).val < win2_5.index t a * S5000x128.size a + S5000x128.size a := by
  show i ∈ ((View.whole main_v57).slice (win2_5.rect t)).set ↔ _
  rw [View.set_slice_whole, Rect.mem_set_unit]
  exact Iff.rfl

/-- Every index of the output array is in some point's block: row `r` is in block `r / 5000`. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, -, -, e50, e51⟩ := idx_facts2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]; omega

/-- The output array after the region: the normalised, rectified array of the arrays as the region finds them. -/
theorem final2 (c : Dev nD) :
    (dat2 (F := Ideal) V c).arrAt 5 cfg2.N
      = normRelu (V c main_v44_0) (V c main_v46) (V c main_v50) (V c main_v53) (V c main_v56) :=
  (dat2 V c).arrAt_eq_of_cover 5 _ (fun t _ => flushed2_eq V c t) cover2

end Cert.KernelIdeal.HandValue

end
-- ==== Proof.KIHost.lean ====
import proofs.«163161_j55817394979591_1_alg».proof.Proof.Gen.KernelIdeal.Regions
import Idealize.ShloMosaic.Lib.StableHlo.Run

/-!
# The host stretches between the kernel regions, read at the ideal instance

Between two regions @main runs host operations.  Each buffer a later region consumes is, after the stretch, a
fixed function of the buffers the stretch reads.  The functions are named once here, with the printed operations'
own terms as bodies, and each equation is the fold of the stretch evaluated at that one buffer.
-/

set_option maxRecDepth 16384

noncomputable section

namespace Cert.KernelIdeal.HandHost

open Idealize.ShloMosaic Idealize.ShloMosaic.TcCoe
open Idealize.ShloMosaic.StableHlo
open Cert.KernelIdeal.Gen

/-! ## The stretch before a normalise region: the statistics' rows and the parameter rows -/

/-- The row of column sums divided by the row count 100000: the column means. -/
def meanRow (s : Vec Ideal S1x128 .f32) : Vec Ideal S1x128 .f32 :=
  Host.divf (F := Ideal) s (broadcastInDim S1x128 ![] bcast_S_S1x128 (constant (F := Ideal) S_ .f32 0x47C35000#32))

/-- The column variances from the rows of column sums `s` and of column sums of squares `q`:
    q/100000 − (s/100000)·(s/100000), in the printed order. -/
def varRow (s q : Vec Ideal S1x128 .f32) : Vec Ideal S1x128 .f32 :=
  subf (Host.divf (F := Ideal) q (broadcastInDim S1x128 ![] bcast_S_S1x128 (constant (F := Ideal) S_ .f32 0x47C35000#32)))
    (mulf (meanRow s) (meanRow s))

/-- Row `l` of a four-row table is a slice of it. -/
theorem slices_row : ∀ l : Fin 4, S4x128.Slices ![l.val, 0] S1x128
  | 0 => slices_S4x128_S1x128_0_0
  | 1 => slices_S4x128_S1x128_1_0
  | 2 => slices_S4x128_S1x128_2_0
  | 3 => slices_S4x128_S1x128_3_0
  | ⟨_ + 4, h⟩ => absurd h (Nat.not_lt.2 (Nat.le_add_left _ _))

/-- Row `l` of a [4,128] parameter table, as a [1,128] row (sliced, flattened to [128], and back to [1,128]). -/
def paramRow (l : Fin 4) (g : Vec Ideal S4x128 .f32) : Vec Ideal S1x128 .f32 :=
  shapeCast S1x128 (shapeCast S128 (extractStridedSlice S1x128 ![l.val, 0] g (slices_row l)) shapeCasts_S1x128_S128) shapeCasts_S128_S1x128

/-! ## The stretch before an aggregate region: the message aggregation and the layer's weight matrices -/

/-- A node index counted from the end (negative) is wrapped by adding the node count 100000; others are kept. -/
def wrapIdx (i : Vec Ideal S700000 .i32) : Vec Ideal S700000 .i32 :=
  select (cmpi .slt i (broadcastInDim S700000 ![] bcast_S_S700000 (constantI S_ 32 0#32)))
    (addi i (broadcastInDim S700000 ![] bcast_S_S700000 (constantI S_ 32 100000#32))) i

/-- The normalised neighbour sum: for each edge the source node's row of `h` (source indices wrapped), scaled by the
    edge's norm `en`, added into a zero [100000,128] table at the destination node's row. -/
def aggregate (h : Vec Ideal S100000x128 .f32) (src dst : Vec Ideal S700000 .i32) (en : Vec Ideal S700000 .f32) :
    Vec Ideal S100000x128 .f32 :=
  Host.scatterAdd (F := Ideal) scatter_S100000x128_S700000x1_S700000x128_1_0_0_1
    (broadcastInDim S100000x128 ![] bcast_S_S100000x128 (constant (F := Ideal) S_ .f32 0x00000000#32))
    (broadcastInDim S700000x1 ![0] bcast_S700000_S700000x1_0 dst)
    (mulf
      (Host.gather gather_S100000x128_S700000x1_S700000x128_1_0_n_n_0_1_1128 h
        (broadcastInDim S700000x1 ![0] bcast_S700000_S700000x1_0 (wrapIdx src)))
      (broadcastInDim S700000x128 ![0, 1] bcast_S700000x1_S700000x128_0_1
        (broadcastInDim S700000x1 ![0] bcast_S700000_S700000x1_0 en)))

/-- Matrix `l` of a stack of four is a slice of it. -/
theorem slices_mat : ∀ l : Fin 4, S4x128x128.Slices ![l.val, 0, 0] S1x128x128
  | 0 => slices_S4x128x128_S1x128x128_0_0_0
  | 1 => slices_S4x128x128_S1x128x128_1_0_0
  | 2 => slices_S4x128x128_S1x128x128_2_0_0
  | 3 => slices_S4x128x128_S1x128x128_3_0_0
  | ⟨_ + 4, h⟩ => absurd h (Nat.not_lt.2 (Nat.le_add_left _ _))

/-- Matrix `l` of a [4,128,128] stack, as a [128,128] matrix (sliced, the unit axis dropped). -/
def weightSlice (l : Fin 4) (w : Vec Ideal S4x128x128 .f32) : Vec Ideal S128x128 .f32 :=
  shapeCast S128x128 (extractStridedSlice S1x128x128 ![l.val, 0, 0] w (slices_mat l)) shapeCasts_S1x128x128_S128x128

/-! ## The stretch before the projection region: the edge norms and the bias row -/

/-- The in-degree of every node: a one added at the destination node of every edge, into zeros. -/
def degree (dst : Vec Ideal S700000 .i32) : FVec Ideal S100000 .f32 :=
  Host.scatterAdd (F := Ideal) scatter_S100000_S700000x1_S700000_n_0_0_1
    (broadcastInDim S100000 ![] bcast_S_S100000 (constant (F := Ideal) S_ .f32 0x00000000#32))
    (broadcastInDim S700000x1 ![0] bcast_S700000_S700000x1_0 dst)
    (broadcastInDim S700000 ![] bcast_S_S700000 (constant (F := Ideal) S_ .f32 0x3F800000#32))

/-- Where the in-degree is positive. -/
def degPos (dst : Vec Ideal S700000 .i32) : Vec Ideal S100000 .i1 :=
  cmpf (F := Ideal) .ogt (degree dst) (broadcastInDim S100000 ![] bcast_S_S100000 (constant (F := Ideal) S_ .f32 0x00000000#32))

/-- The reciprocal square root of the in-degree raised to at least one. -/
def degRsqrt (dst : Vec Ideal S700000 .i32) : FVec Ideal S100000 .f32 :=
  Host.rsqrt (F := Ideal) (maximumf (F := Ideal) (degree dst) (broadcastInDim S100000 ![] bcast_S_S100000 (constant (F := Ideal) S_ .f32 0x3F800000#32)))

/-- The choice between a per-node value and a constant spread over the nodes, by a per-node flag. -/
def nodeNormOf (pos : Vec Ideal S100000 .i1) (rs : FVec Ideal S100000 .f32) (z : FVec Ideal S_ .f32) : FVec Ideal S100000 .f32 :=
  select pos rs (broadcastInDim S100000 ![] bcast_S_S100000 z)

/-- A node's norm: the reciprocal square root of its in-degree where that is positive, zero elsewhere. -/
def nodeNorm (dst : Vec Ideal S700000 .i32) : FVec Ideal S100000 .f32 :=
  nodeNormOf (degPos dst) (degRsqrt dst) (constant (F := Ideal) S_ .f32 0x00000000#32)

/-- The product, edge by edge, of a per-node value at the edge's source and at its destination (indices wrapped). -/
def edgeNormOf (nn : FVec Ideal S100000 .f32) (src dst : Vec Ideal S700000 .i32) : FVec Ideal S700000 .f32 :=
  mulf (F := Ideal) (φ := .f32)
    (Host.gather gather_S100000_S700000x1_S700000_n_0_n_n_0_1_1 nn
      (broadcastInDim S700000x1 ![0] bcast_S700000_S700000x1_0 (wrapIdx src)))
    (Host.gather gather_S100000_S700000x1_S700000_n_0_n_n_0_1_1 nn
      (broadcastInDim S700000x1 ![0] bcast_S700000_S700000x1_0 (wrapIdx dst)))

/-- An edge's norm: the product of its source node's and its destination node's norms. -/
def edgeNorm (src dst : Vec Ideal S700000 .i32) : FVec Ideal S700000 .f32 :=
  edgeNormOf (nodeNorm dst) src dst

/-- The bias vector as a one-row matrix. -/
def biasRow (b : Vec Ideal S128 .f32) : Vec Ideal S1x128 .f32 := shapeCast S1x128 b shapeCasts_S128_S1x128

/-! ## The equations of the stretches before the normalise regions -/

/-! ### `hostOps2` (layer 0) -/

theorem hostOps2_v46 (W : Valuation τ sig (Elt Ideal)) :
    StableHlo.after (hostOps2 (F := Ideal)) W (Proc.devRef .tc main_v46) = meanRow (W (Proc.devRef .tc main_v44_1)) := by
  after_results; rfl

theorem hostOps2_v50 (W : Valuation τ sig (Elt Ideal)) :
    StableHlo.after (hostOps2 (F := Ideal)) W (Proc.devRef .tc main_v50)
      = varRow (W (Proc.devRef .tc main_v44_1)) (W (Proc.devRef .tc main_v44_2)) := by
  after_results; rfl

theorem hostOps2_v53 (W : Valuation τ sig (Elt Ideal)) :
    StableHlo.after (hostOps2 (F := Ideal)) W (Proc.devRef .tc main_v53) = paramRow 0 (W (Proc.devRef .tc main_arg7)) := by
  after_results; rfl

theorem hostOps2_v56 (W : Valuation τ sig (Elt Ideal)) :
    StableHlo.after (hostOps2 (F := Ideal)) W (Proc.devRef .tc main_v56) = paramRow 0 (W (Proc.devRef .tc main_arg8)) := by
  after_results; rfl

/-! ### `hostOps4` (layer 1) -/

theorem hostOps4_v77 (W : Valuation τ sig (Elt Ideal)) :
    StableHlo.after (hostOps4 (F := Ideal)) W (Proc.devRef .tc main_v77) = meanRow (W (Proc.devRef .tc main_v75_1)) := by
  after_results; rfl

theorem hostOps4_v81 (W : Valuation τ sig (Elt Ideal)) :
    StableHlo.after (hostOps4 (F := Ideal)) W (Proc.devRef .tc main_v81)
      = varRow (W (Proc.devRef .tc main_v75_1)) (W (Proc.devRef .tc main_v75_2)) := by
  after_results; rfl

theorem hostOps4_v84 (W : Valuation τ sig (Elt Ideal)) :
    StableHlo.after (hostOps4 (F := Ideal)) W (Proc.devRef .tc main_v84) = paramRow 1 (W (Proc.devRef .tc main_arg7)) := by
  after_results; rfl

theorem hostOps4_v87 (W : Valuation τ sig (Elt Ideal)) :
    StableHlo.after (hostOps4 (F := Ideal)) W (Proc.devRef .tc main_v87) = paramRow 1 (W (Proc.devRef .tc main_arg8)) := by
  after_results; rfl

/-! ### `hostOps6` (layer 2) -/

theorem hostOps6_v108 (W : Valuation τ sig (Elt Ideal)) :
    StableHlo.after (hostOps6 (F := Ideal)) W (Proc.devRef .tc main_v108) = meanRow (W (Proc.devRef .tc main_v106_1)) := by
  after_results; rfl

theorem hostOps6_v112 (W : Valuation τ sig (Elt Ideal)) :
    StableHlo.after (hostOps6 (F := Ideal)) W (Proc.devRef .tc main_v112)
      = varRow (W (Proc.devRef .tc main_v106_1)) (W (Proc.devRef .tc main_v106_2)) := by
  after_results; rfl

theorem hostOps6_v115 (W : Valuation τ sig (Elt Ideal)) :
    StableHlo.after (hostOps6 (F := Ideal)) W (Proc.devRef .tc main_v115) = paramRow 2 (W (Proc.devRef .tc main_arg7)) := by
  after_results; rfl

theorem hostOps6_v118 (W : Valuation τ sig (Elt Ideal)) :
    StableHlo.after (hostOps6 (F := Ideal)) W (Proc.devRef .tc main_v118) = paramRow 2 (W (Proc.devRef .tc main_arg8)) := by
  after_results; rfl

/-! ### `hostOps8` (layer 3) -/

theorem hostOps8_v139 (W : Valuation τ sig (Elt Ideal)) :
    StableHlo.after (hostOps8 (F := Ideal)) W (Proc.devRef .tc main_v139) = meanRow (W (Proc.devRef .tc main_v137_1)) := by
  after_results; rfl

theorem hostOps8_v143 (W : Valuation τ sig (Elt Ideal)) :
    StableHlo.after (hostOps8 (F := Ideal)) W (Proc.devRef .tc main_v143)
      = varRow (W (Proc.devRef .tc main_v137_1)) (W (Proc.devRef .tc main_v137_2)) := by
  after_results; rfl

theorem hostOps8_v146 (W : Valuation τ sig (Elt Ideal)) :
    StableHlo.after (hostOps8 (F := Ideal)) W (Proc.devRef .tc main_v146) = paramRow 3 (W (Proc.devRef .tc main_arg7)) := by
  after_results; rfl

theorem hostOps8_v149 (W : Valuation τ sig (Elt Ideal)) :
    StableHlo.after (hostOps8 (F := Ideal)) W (Proc.devRef .tc main_v149) = paramRow 3 (W (Proc.devRef .tc main_arg8)) := by
  after_results; rfl

end Cert.KernelIdeal.HandHost
-- ==== Proof.KINet.lean ====
/-
  The tiled program's network as a function of the nine argument arrays: the edge norm, the projection H0, and per
  layer the combination of the aggregated features with H0, its statistics rows, and the normalised rectified output.
-/
import proofs.«163161_j55817394979591_1_alg».proof.Proof.KIValueDefs
import proofs.«163161_j55817394979591_1_alg».proof.Proof.KIValue0
import proofs.«163161_j55817394979591_1_alg».proof.Proof.KIValue2
import proofs.«163161_j55817394979591_1_alg».proof.Proof.KIHost

noncomputable section

namespace Cert.KernelIdeal.HandValue

open Cert.KernelIdeal Cert.KernelIdeal.Gen Cert.KernelIdeal.HandHost
open Idealize.ShloMosaic Idealize.ShloMosaic.TcCoe Idealize.SL.Sem

variable (m : (ℓ : Loc nD τ sig) → Buf (Elt Ideal) ℓ) (c : Dev nD)

/-! ## The network on the argument arrays -/

/-- Argument 0 on core `c`. -/
abbrev A0 := m ((c : Thread nD τ).loc main_arg0)
/-- Argument 1 on core `c`. -/
abbrev A1 := m ((c : Thread nD τ).loc main_arg1)
/-- Argument 2 on core `c`. -/
abbrev A2 := m ((c : Thread nD τ).loc main_arg2)
/-- Argument 3 on core `c`. -/
abbrev A3 := m ((c : Thread nD τ).loc main_arg3)
/-- Argument 4 on core `c`. -/
abbrev A4 := m ((c : Thread nD τ).loc main_arg4)
/-- Argument 5 on core `c`. -/
abbrev A5 := m ((c : Thread nD τ).loc main_arg5)
/-- Argument 6 on core `c`. -/
abbrev A6 := m ((c : Thread nD τ).loc main_arg6)
/-- Argument 7 on core `c`. -/
abbrev A7 := m ((c : Thread nD τ).loc main_arg7)
/-- Argument 8 on core `c`. -/
abbrev A8 := m ((c : Thread nD τ).loc main_arg8)
/-- The edge norm. -/
def NRM := edgeNorm (A1 m c) (A2 m c)
/-- The projection: x·W + b on every row. -/
def H0 := proj (A0 m c) (A3 m c) (biasRow (A4 m c))
/-- Layer `l`'s combination of the aggregated features `h` with the projection. -/
def Ycomb (l : Fin 4) (β cf : EReal) (h : S100000x128.Idx → EReal) : S100000x128.Idx → EReal :=
  combine β cf (aggregate h (A1 m c) (A2 m c) (NRM m c)) (H0 m c) (weightSlice l (A5 m c)) (weightSlice l (A6 m c))
/-- Layer `l`'s output: the combination normalised by its column mean and moments variance, scaled, shifted, rectified. -/
def OUT (l : Fin 4) (β cf : EReal) (h : S100000x128.Idx → EReal) : S100000x128.Idx → EReal :=
  normRelu (Ycomb m c l β cf h) (meanRow (sumRow (Ycomb m c l β cf h)))
    (varRow (sumRow (Ycomb m c l β cf h)) (sumSqRow (Ycomb m c l β cf h))) (paramRow l (A7 m c)) (paramRow l (A8 m c))

/-- The features after layer 0. -/
def H1 := OUT m c 0 (Ideal.ofBits .f32 0x3F317218#32) (Ideal.ofBits .f32 0x3E9D1BD0#32) (H0 m c)
/-- The features after layer 1. -/
def H2 := OUT m c 1 (Ideal.ofBits .f32 0x3ECF991F#32) (Named.named (F := Ideal) Cert.KernelIdeal.κ "one_minus_beta_1" (φ := .f32) 0x3F183370#32) (H1 m c)
/-- The features after layer 2. -/
def H3 := OUT m c 2 (Ideal.ofBits .f32 0x3E934B11#32) (Named.named (F := Ideal) Cert.KernelIdeal.κ "one_minus_beta_2" (φ := .f32) 0x3F365A78#32) (H2 m c)
/-- The features after layer 3. -/
def H4 := OUT m c 3 (Ideal.ofBits .f32 0x3E647FBE#32) (Named.named (F := Ideal) Cert.KernelIdeal.κ "one_minus_beta_3" (φ := .f32) 0x3F46E010#32) (H3 m c)

end Cert.KernelIdeal.HandValue

end
-- ==== Proof.KIHost0.lean ====
import proofs.«163161_j55817394979591_1_alg».proof.Proof.KIHost

/-!
# The stretch before the projection region, read at the ideal instance

Before the first region the host computes the in-degrees, the node norms (through a call of the select helper), the
edge norms, and the bias row: three lists of operations run one after the other.  Each list is read on its own and
the three are then composed.
-/

set_option maxRecDepth 16384

noncomputable section

namespace Cert.KernelIdeal.HandHost

open Idealize.ShloMosaic Idealize.ShloMosaic.TcCoe
open Idealize.ShloMosaic.StableHlo
open Cert.KernelIdeal.Gen

/-! ## The three lists before the projection region, one at a time -/

theorem hostOps0_v5 (W : Valuation τ sig (Elt Ideal)) :
    StableHlo.after (hostOps0 (F := Ideal)) W (Proc.devRef .tc main_v5) = degPos (W (Proc.devRef .tc main_arg2)) := by
  after_results; rfl

theorem hostOps0_v8 (W : Valuation τ sig (Elt Ideal)) :
    StableHlo.after (hostOps0 (F := Ideal)) W (Proc.devRef .tc main_v8) = degRsqrt (W (Proc.devRef .tc main_arg2)) := by
  after_results; rfl

theorem hostOps0_cst_3 (W : Valuation τ sig (Elt Ideal)) :
    StableHlo.after (hostOps0 (F := Ideal)) W (Proc.devRef .tc main_cst_3) = constant (F := Ideal) S_ .f32 0x00000000#32 := by
  after_results

theorem hostOps0_1_v9 (W : Valuation τ sig (Elt Ideal)) :
    StableHlo.after (hostOps0_1 (F := Ideal)) W (Proc.devRef .tc main_v9)
      = nodeNormOf (W (Proc.devRef .tc main_v5)) (W (Proc.devRef .tc main_v8)) (W (Proc.devRef .tc main_cst_3)) := by
  after_results; rfl

set_option maxHeartbeats 2000000 in
theorem hostOps0_2_v24 (W : Valuation τ sig (Elt Ideal)) :
    StableHlo.after (hostOps0_2 (F := Ideal)) W (Proc.devRef .tc main_v24)
      = edgeNormOf (W (Proc.devRef .tc main_v9)) (W (Proc.devRef .tc main_arg1)) (W (Proc.devRef .tc main_arg2)) := by
  after_results_simp; rfl

theorem hostOps0_2_v25 (W : Valuation τ sig (Elt Ideal)) :
    StableHlo.after (hostOps0_2 (F := Ideal)) W (Proc.devRef .tc main_v25) = biasRow (W (Proc.devRef .tc main_arg4)) := by
  after_results; rfl

/-! ## The three lists in sequence -/

theorem first_v24 (W : Valuation τ sig (Elt Ideal)) :
    StableHlo.after (hostOps0_2 (F := Ideal)) (StableHlo.after (hostOps0_1 (F := Ideal)) (StableHlo.after (hostOps0 (F := Ideal)) W))
        (Proc.devRef .tc main_v24)
      = edgeNorm (W (Proc.devRef .tc main_arg1)) (W (Proc.devRef .tc main_arg2)) := by
  rw [hostOps0_2_v24, hostOps0_1_v9, hostOps0_v5, hostOps0_v8, hostOps0_cst_3,
    StableHlo.after_of_writes_sub (hostOps0_1 (F := Ideal)) _ hostOps0_1_writes (r := main_arg1) (by decide),
    StableHlo.after_of_writes_sub (hostOps0_1 (F := Ideal)) _ hostOps0_1_writes (r := main_arg2) (by decide),
    StableHlo.after_of_writes_sub (hostOps0 (F := Ideal)) _ hostOps0_writes (r := main_arg1) (by decide),
    StableHlo.after_of_writes_sub (hostOps0 (F := Ideal)) _ hostOps0_writes (r := main_arg2) (by decide)]
  rfl

theorem first_v25 (W : Valuation τ sig (Elt Ideal)) :
    StableHlo.after (hostOps0_2 (F := Ideal)) (StableHlo.after (hostOps0_1 (F := Ideal)) (StableHlo.after (hostOps0 (F := Ideal)) W))
        (Proc.devRef .tc main_v25)
      = biasRow (W (Proc.devRef .tc main_arg4)) := by
  rw [hostOps0_2_v25,
    StableHlo.after_of_writes_sub (hostOps0_1 (F := Ideal)) _ hostOps0_1_writes (r := main_arg4) (by decide),
    StableHlo.after_of_writes_sub (hostOps0 (F := Ideal)) _ hostOps0_writes (r := main_arg4) (by decide)]

end Cert.KernelIdeal.HandHost
-- ==== Proof.KIHost1.lean ====
import proofs.«163161_j55817394979591_1_alg».proof.Proof.KIHost

/-!
# The stretches before the aggregate regions, read at the ideal instance

Before each aggregate region the host gathers the previous layer's rows along the edges, scales them by the edge
norms, adds them up at the destination nodes, and cuts the layer's two weight matrices out of their stacks.  Each
buffer the region consumes is the named function of the buffers the stretch reads.
-/

set_option maxRecDepth 16384

noncomputable section

namespace Cert.KernelIdeal.HandHost

open Idealize.ShloMosaic Idealize.ShloMosaic.TcCoe
open Idealize.ShloMosaic.StableHlo
open Cert.KernelIdeal.Gen

/-! ### `hostOps1` (layer 0) -/

set_option maxHeartbeats 2000000 in
theorem hostOps1_v39 (W : Valuation τ sig (Elt Ideal)) :
    StableHlo.after (hostOps1 (F := Ideal)) W (Proc.devRef .tc main_v39)
      = aggregate (W (Proc.devRef .tc main_v26)) (W (Proc.devRef .tc main_arg1)) (W (Proc.devRef .tc main_arg2)) (W (Proc.devRef .tc main_v24)) := by
  after_results_simp; rfl

theorem hostOps1_v41 (W : Valuation τ sig (Elt Ideal)) :
    StableHlo.after (hostOps1 (F := Ideal)) W (Proc.devRef .tc main_v41) = weightSlice 0 (W (Proc.devRef .tc main_arg5)) := by
  after_results; rfl

theorem hostOps1_v43 (W : Valuation τ sig (Elt Ideal)) :
    StableHlo.after (hostOps1 (F := Ideal)) W (Proc.devRef .tc main_v43) = weightSlice 0 (W (Proc.devRef .tc main_arg6)) := by
  after_results; rfl

/-! ### `hostOps3` (layer 1) -/

set_option maxHeartbeats 2000000 in
theorem hostOps3_v70 (W : Valuation τ sig (Elt Ideal)) :
    StableHlo.after (hostOps3 (F := Ideal)) W (Proc.devRef .tc main_v70)
      = aggregate (W (Proc.devRef .tc main_v57)) (W (Proc.devRef .tc main_arg1)) (W (Proc.devRef .tc main_arg2)) (W (Proc.devRef .tc main_v24)) := by
  after_results_simp; rfl

theorem hostOps3_v72 (W : Valuation τ sig (Elt Ideal)) :
    StableHlo.after (hostOps3 (F := Ideal)) W (Proc.devRef .tc main_v72) = weightSlice 1 (W (Proc.devRef .tc main_arg5)) := by
  after_results; rfl

theorem hostOps3_v74 (W : Valuation τ sig (Elt Ideal)) :
    StableHlo.after (hostOps3 (F := Ideal)) W (Proc.devRef .tc main_v74) = weightSlice 1 (W (Proc.devRef .tc main_arg6)) := by
  after_results; rfl

/-! ### `hostOps5` (layer 2) -/

set_option maxHeartbeats 2000000 in
theorem hostOps5_v101 (W : Valuation τ sig (Elt Ideal)) :
    StableHlo.after (hostOps5 (F := Ideal)) W (Proc.devRef .tc main_v101)
      = aggregate (W (Proc.devRef .tc main_v88)) (W (Proc.devRef .tc main_arg1)) (W (Proc.devRef .tc main_arg2)) (W (Proc.devRef .tc main_v24)) := by
  after_results_simp; rfl

theorem hostOps5_v103 (W : Valuation τ sig (Elt Ideal)) :
    StableHlo.after (hostOps5 (F := Ideal)) W (Proc.devRef .tc main_v103) = weightSlice 2 (W (Proc.devRef .tc main_arg5)) := by
  after_results; rfl

theorem hostOps5_v105 (W : Valuation τ sig (Elt Ideal)) :
    StableHlo.after (hostOps5 (F := Ideal)) W (Proc.devRef .tc main_v105) = weightSlice 2 (W (Proc.devRef .tc main_arg6)) := by
  after_results; rfl

/-! ### `hostOps7` (layer 3) -/

set_option maxHeartbeats 2000000 in
theorem hostOps7_v132 (W : Valuation τ sig (Elt Ideal)) :
    StableHlo.after (hostOps7 (F := Ideal)) W (Proc.devRef .tc main_v132)
      = aggregate (W (Proc.devRef .tc main_v119)) (W (Proc.devRef .tc main_arg1)) (W (Proc.devRef .tc main_arg2)) (W (Proc.devRef .tc main_v24)) := by
  after_results_simp; rfl

theorem hostOps7_v134 (W : Valuation τ sig (Elt Ideal)) :
    StableHlo.after (hostOps7 (F := Ideal)) W (Proc.devRef .tc main_v134) = weightSlice 3 (W (Proc.devRef .tc main_arg5)) := by
  after_results; rfl

theorem hostOps7_v136 (W : Valuation τ sig (Elt Ideal)) :
    StableHlo.after (hostOps7 (F := Ideal)) W (Proc.devRef .tc main_v136) = weightSlice 3 (W (Proc.devRef .tc main_arg6)) := by
  after_results; rfl

end Cert.KernelIdeal.HandHost
-- ==== Proof.KIValue1a.lean ====
import proofs.«163161_j55817394979591_1_alg».proof.Proof.Gen.KernelIdeal.Skeleton
import proofs.«163161_j55817394979591_1_alg».proof.Proof.LibMatmulPlain
import proofs.«163161_j55817394979591_1_alg».proof.Proof.NetDefs
import Idealize.ShloMosaic.PureOps.Ideal.Laws
import Idealize.ShloMosaic.Lib.Pipeline.Value
import Idealize.ShloMosaic.Lib.ValueIdx

/-!
# Region 1 of @main: the body's payloads, entry by entry

The body computes one block of the layer's combination (two matrix products and four scalings, added left
to right), adds that block's column sums and the column sums of its squares onto two rows, and starts those
rows from zero.
-/

noncomputable section

namespace Cert.KernelIdeal.HandValue

open Cert.KernelIdeal Cert.KernelIdeal.Gen
open Idealize.ShloMosaic Idealize.ShloMosaic.ValueIdx
open scoped BigOperators

/-- The combination's payload at entry `(r, j)` of a block, from the blocks of the aggregate and the projection and
    the two weight matrices. -/
theorem comb_apply (a p : Vec Ideal S5000x128 .f32) (W1 W2 : Vec Ideal S128x128 .f32) (r : Fin 5000) (j : Fin 128) :
    k1_pay5 a p W1 W2 (ix2 r j)
      = Ideal.ofBits .f32 0x3E9D1BD0#32 * (Ideal.ofBits .f32 0x3F000000#32 * a (ix2 r j))
        + Ideal.ofBits .f32 0x3F317218#32
            * (∑ k : Fin 128, (Ideal.ofBits .f32 0x3F000000#32 * a (ix2 r k)) * W1 (ix2 k j))
        + Ideal.ofBits .f32 0x3E9D1BD0#32 * (Ideal.ofBits .f32 0x3F000000#32 * p (ix2 r j))
        + Ideal.ofBits .f32 0x3F317218#32
            * (∑ k : Fin 128, (Ideal.ofBits .f32 0x3F000000#32 * p (ix2 r k)) * W2 (ix2 k j)) := by
  unfold k1_pay5
  show addf _ _ (ix2 r j) = _
  simp only [addf_apply, mulf_apply, broadcast_apply, shapeCast_self]
  refine congrArg₂ (· + ·) (congrArg₂ (· + ·) (congrArg₂ (· + ·) rfl ?_) rfl) ?_
  · exact congrArg (Ideal.ofBits .f32 0x3F317218#32 * ·)
      (MatmulPlain.matmul_zero_apply dot_S5000x128_S128x128_S5000x128_1_0_0_1_n_n_wf none
        (truncf .bf16 (mulf (broadcast S5000x128 (Scalar.ofBits (F := Ideal) .f32 0x3F000000#32)) a) bitsLt_bf16_f32)
        (truncf .bf16 W1 bitsLt_bf16_f32) r j)
  · exact congrArg (Ideal.ofBits .f32 0x3F317218#32 * ·)
      (MatmulPlain.matmul_zero_apply dot_S5000x128_S128x128_S5000x128_1_0_0_1_n_n_wf none
        (truncf .bf16 (mulf (broadcast S5000x128 (Scalar.ofBits (F := Ideal) .f32 0x3F000000#32)) p) bitsLt_bf16_f32)
        (truncf .bf16 W2 bitsLt_bf16_f32) r j)

/-- The column-sum payload at entry `(0, q)`: the row's entry plus the sum of the block's column `q`. -/
theorem colsum_apply (v : FVec Ideal S5000x128 .f32) (acc : FVec Ideal S1x128 .f32) (q : Fin 128) :
    k1_pay1 v acc (ix2 (0 : Fin 1) q) = acc (ix2 (0 : Fin 1) q) + ∑ k : Fin 5000, v (ix2 k q) := by
  unfold k1_pay1
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single v 0x00000000#32 reduces_S5000x128_S128 (.inl rfl) rfl _).trans ?_
  exact Finset.sum_congr rfl fun k _ => congrArg v (funext fun a => Fin.ext (by
    match a with
    | ⟨0, _⟩ => rfl
    | ⟨1, _⟩ => rfl))

/-- The sum-of-squares payload at entry `(0, q)`: the row's entry plus the sum of the squares of the block's
    column `q`. -/
theorem colsumsq_apply (v : FVec Ideal S5000x128 .f32) (acc : FVec Ideal S1x128 .f32) (q : Fin 128) :
    k1_pay2 v acc (ix2 (0 : Fin 1) q) = acc (ix2 (0 : Fin 1) q) + ∑ k : Fin 5000, v (ix2 k q) * v (ix2 k q) := by
  unfold k1_pay2
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single (mulf v v) 0x00000000#32 reduces_S5000x128_S128 (.inl rfl) rfl _).trans ?_
  exact Finset.sum_congr rfl fun k _ => congrArg (fun i => v i * v i) (funext fun a => Fin.ext (by
    match a with
    | ⟨0, _⟩ => rfl
    | ⟨1, _⟩ => rfl))

/-- The two rows start from zero. -/
theorem zero0_apply (i : S1x128.Idx) : k1_pay3 (F := Ideal) i = 0 := by
  unfold k1_pay3
  show shapeCast S1x128 (broadcast S1x128 (Scalar.ofBits (F := Ideal) .f32 0x00000000#32)) shapeCasts_S1x128_S1x128 i = 0
  rw [shapeCast_self, broadcast_apply]
  exact Ideal.ofBits_zero_f32

theorem zero1_apply (i : S1x128.Idx) : k1_pay4 (F := Ideal) i = 0 := by
  unfold k1_pay4
  show shapeCast S1x128 (broadcast S1x128 (Scalar.ofBits (F := Ideal) .f32 0x00000000#32)) shapeCasts_S1x128_S1x128 i = 0
  rw [shapeCast_self, broadcast_apply]
  exact Ideal.ofBits_zero_f32

end Cert.KernelIdeal.HandValue

end
-- ==== Proof.KIValue1b.lean ====
import proofs.«163161_j55817394979591_1_alg».proof.Proof.KIRegion1
import Idealize.ShloMosaic.Lib.Pipeline.Value
import Idealize.ShloMosaic.Lib.Tactic

/-!
# Region 1 of @main: what each control case leaves, as payloads of the blocks

At every point the result block's buffer ends at the combination payload of the four input blocks. The two
accumulator rows end at the column-sum and sum-of-squares payloads of that block over what they held: over
the zero rows at the first point, over the previous point's rows afterwards. At the last point outputs 5 and 6
receive the two rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic

variable {F : FTy → Type} [FloatOps F] [Named F]

/-- The offset `(0, 0)` of a whole block is the zero function. -/
theorem origin1 : (![0, 0] : Fin 2 → Nat) = fun _ => 0 := funext fun a => by fin_cases a <;> rfl

/-- The first point leaves the combination of the blocks in the result block's buffer. -/
theorem out1_A_4_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) :
    out1_A_4 c i arg1 harg1 arg2 harg2 arg3 harg3 arg4 harg4 arg5 harg5 arg6 harg6 arg7 harg7 arg8 harg8 arg9 harg9 hc0 hc1 x0 x1 x2 x3 = k1_pay5 x0 x1 x2 x3 := by
  unfold out1_A_4
  rw [View.read_writes_eq_canon _ _ _ (cover1_A_4 c i arg1 harg1 arg2 harg2 arg3 harg3 arg4 harg4 arg5 harg5 arg6 harg6 arg7 harg7 arg8 harg8 arg9 harg9 hc0 hc1 x0 x1 x2 x3)]
  unfold kernelRun1_A
  dsimp only
  try sl_unfold_words
  rw [View.canon_unit_zero origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- So does every middle point, -/
theorem out1_B_4_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    out1_B_4 c i arg1 harg1 arg2 harg2 arg3 harg3 arg4 harg4 arg5 harg5 arg6 harg6 arg7 harg7 arg8 harg8 arg9 harg9 hc0 hc1 x0 x1 x2 x3 xs0 xs1 = k1_pay5 x0 x1 x2 x3 := by
  unfold out1_B_4
  rw [View.read_writes_eq_canon _ _ _ (cover1_B_4 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  try sl_unfold_words
  rw [View.canon_unit_zero origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- and the last point. -/
theorem out1_C_4_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    out1_C_4 c i arg1 harg1 arg2 harg2 arg3 harg3 arg4 harg4 arg5 harg5 arg6 harg6 arg7 harg7 arg8 harg8 arg9 harg9 hc0 hc1 x0 x1 x2 x3 xs0 xs1 = k1_pay5 x0 x1 x2 x3 := by
  unfold out1_C_4
  rw [View.read_writes_eq_canon _ _ _ (cover1_C_4 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- The first point leaves in the first accumulator the block's column sums over the zero row, -/
theorem sout1_A_0_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) :
    sout1_A_0 c i arg1 harg1 arg2 harg2 arg3 harg3 arg4 harg4 arg5 harg5 arg6 harg6 arg7 harg7 arg8 harg8 arg9 harg9 hc0 hc1 x0 x1 x2 x3 = k1_pay1 (k1_pay5 x0 x1 x2 x3) (k1_pay3 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 hc0 hc1 x0 x1 x2 x3)]
  unfold kernelRun1_A
  dsimp only
  try sl_unfold_words
  rw [View.canon_cons_unit_zero (S := S1x128) origin1, View.readCov_unit_zero (S := S1x128) _ origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- and in the second the column sums of its squares over the zero row. -/
theorem sout1_A_1_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S128x128 .f32) (x3 : Vec F S128x128 .f32) :
    sout1_A_1 c i arg1 harg1 arg2 harg2 arg3 harg3 arg4 harg4 arg5 harg5 arg6 harg6 arg7 harg7 arg8 harg8 arg9 harg9 hc0 hc1 x0 x1 x2 x3 = k1_pay2 (k1_pay5 x0 x1 x2 x3) (k1_pay4 (F := F)) := by
  unfold sout1_A_1
  rw [View.read_writes_eq_canon _ _ _ (scover1_A_1 c i arg1 harg1 arg2 harg2 arg3 harg3 arg4 harg4 arg5 harg5 arg6 harg6 arg7 harg7 arg8 harg8 arg9 harg9 hc0 hc1 x0 x1 x2 x3)]
  unfold kernelRun1_A
  dsimp only
  try sl_unfold_words
  rw [View.canon_cons_unit_zero (S := S1x128) origin1, View.readCov_unit_zero (S := S1x128) _ origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- A middle point adds the block's column sums onto the first accumulator, -/
theorem sout1_B_0_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    sout1_B_0 c i arg1 harg1 arg2 harg2 arg3 harg3 arg4 harg4 arg5 harg5 arg6 harg6 arg7 harg7 arg8 harg8 arg9 harg9 hc0 hc1 x0 x1 x2 x3 xs0 xs1 = k1_pay1 (k1_pay5 x0 x1 x2 x3) xs0 := by
  unfold sout1_B_0
  rw [View.read_writes_eq_canon _ _ _ (scover1_B_0 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  try sl_unfold_words
  rw [View.canon_unit_zero origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- and the column sums of its squares onto the second. -/
theorem sout1_B_1_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    sout1_B_1 c i arg1 harg1 arg2 harg2 arg3 harg3 arg4 harg4 arg5 harg5 arg6 harg6 arg7 harg7 arg8 harg8 arg9 harg9 hc0 hc1 x0 x1 x2 x3 xs0 xs1 = k1_pay2 (k1_pay5 x0 x1 x2 x3) xs1 := by
  unfold sout1_B_1
  rw [View.read_writes_eq_canon _ _ _ (scover1_B_1 c i arg1 harg1 arg2 harg2 arg3 harg3 arg4 harg4 arg5 harg5 arg6 harg6 arg7 harg7 arg8 harg8 arg9 harg9 hc0 hc1 x0 x1 x2 x3 xs0 xs1)]
  unfold kernelRun1_B
  dsimp only
  try sl_unfold_words
  rw [View.canon_unit_zero origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- The last point does the same to the first accumulator -/
theorem sout1_C_0_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    sout1_C_0 c i arg1 harg1 arg2 harg2 arg3 harg3 arg4 harg4 arg5 harg5 arg6 harg6 arg7 harg7 arg8 harg8 arg9 harg9 hc0 hc1 x0 x1 x2 x3 xs0 xs1 = k1_pay1 (k1_pay5 x0 x1 x2 x3) xs0 := by
  unfold sout1_C_0
  rw [View.read_writes_eq_canon _ _ _ (scover1_C_0 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- and to the second, -/
theorem sout1_C_1_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    sout1_C_1 c i arg1 harg1 arg2 harg2 arg3 harg3 arg4 harg4 arg5 harg5 arg6 harg6 arg7 harg7 arg8 harg8 arg9 harg9 hc0 hc1 x0 x1 x2 x3 xs0 xs1 = k1_pay2 (k1_pay5 x0 x1 x2 x3) xs1 := by
  unfold sout1_C_1
  rw [View.read_writes_eq_canon _ _ _ (scover1_C_1 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- and copies the first accumulator to output 5 -/
theorem out1_C_5_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    out1_C_5 c i arg1 harg1 arg2 harg2 arg3 harg3 arg4 harg4 arg5 harg5 arg6 harg6 arg7 harg7 arg8 harg8 arg9 harg9 hc0 hc1 x0 x1 x2 x3 xs0 xs1 = k1_pay1 (k1_pay5 x0 x1 x2 x3) xs0 := by
  unfold out1_C_5
  rw [View.read_writes_eq_canon _ _ _ (cover1_C_5 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero origin1, View.readCov_unit_zero (S := S1x128) _ origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
/-- and the second to output 6. -/
theorem out1_C_6_eq (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S128x128 .f32) (x3 : Vec F S128x128 .f32) (xs0 : Vec F S1x128 .f32) (xs1 : Vec F S1x128 .f32) :
    out1_C_6 c i arg1 harg1 arg2 harg2 arg3 harg3 arg4 harg4 arg5 harg5 arg6 harg6 arg7 harg7 arg8 harg8 arg9 harg9 hc0 hc1 x0 x1 x2 x3 xs0 xs1 = k1_pay2 (k1_pay5 x0 x1 x2 x3) xs1 := by
  unfold out1_C_6
  rw [View.read_writes_eq_canon _ _ _ (cover1_C_6 c i arg1 harg1 arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero origin1, View.readCov_unit_zero (S := S1x128) _ origin1]
  simp only [View.readAt_eq_ld, harg1.read_unread, harg2.read_unread, harg3.read_unread, harg4.read_unread,
    harg8.read_unread, harg9.read_unread,
    View.ld_unit_zero (S := S5000x128) origin1, View.ld_unit_zero (S := S128x128) origin1,
    View.ld_unit_zero (S := S1x128) origin1]
end Cert.KernelIdeal.HandValue

end
-- ==== Proof.LibBlockSum.lean ====
/-
  Sums over `Fin N` taken block by block.

  A function on `Fin N` is extended by zero to the naturals (`ext0`); the sum over `Fin N` is then the sum of
  the extension over `range N` (`sum_fin_eq_sum_range`), and the sum over the first `b · (t + 1)` naturals is the
  sum over the first `b · t` plus the sum of block `t`, the `b` entries from `b · t` on (`sum_range_block`). So a
  running total built block by block reaches the whole sum, in any commutative additive monoid.
-/
import Mathlib.Algebra.BigOperators.Fin
import Mathlib.Algebra.BigOperators.Intervals

namespace Cert.Lib

open scoped BigOperators

variable {M : Type*} [AddCommMonoid M] {N : ℕ}

/-- A function on `Fin N` extended by zero to the naturals. -/
def ext0 (f : Fin N → M) (n : ℕ) : M := if h : n < N then f ⟨n, h⟩ else 0

theorem ext0_of_lt (f : Fin N → M) {n : ℕ} (h : n < N) : ext0 f n = f ⟨n, h⟩ := dif_pos h

/-- The sum over `Fin N` is the sum of the extension over `range N`. -/
theorem sum_fin_eq_sum_range (f : Fin N → M) : ∑ r : Fin N, f r = ∑ n ∈ Finset.range N, ext0 f n := by
  rw [Finset.sum_range]
  exact Finset.sum_congr rfl fun r _ => (ext0_of_lt f r.isLt).symm

/-- The first `b · (t + 1)` entries are the first `b · t` and then block `t`. -/
theorem sum_range_block (f : Fin N → M) (b t : ℕ) (h : b * (t + 1) ≤ N) :
    ∑ n ∈ Finset.range (b * (t + 1)), ext0 f n
      = ∑ n ∈ Finset.range (b * t), ext0 f n
        + ∑ k : Fin b, f ⟨b * t + k.val, by have := k.isLt; rw [Nat.mul_succ] at h; omega⟩ := by
  have e : b * (t + 1) = b * t + b := Nat.mul_succ b t
  calc ∑ n ∈ Finset.range (b * (t + 1)), ext0 f n
      = ∑ n ∈ Finset.range (b * t + b), ext0 f n := by rw [e]
    _ = ∑ n ∈ Finset.range (b * t), ext0 f n + ∑ x ∈ Finset.range b, ext0 f (b * t + x) :=
        Finset.sum_range_add _ _ _
    _ = _ := by
        rw [Finset.sum_range (fun x => ext0 f (b * t + x))]
        exact congrArg (∑ n ∈ Finset.range (b * t), ext0 f n + ·)
          (Finset.sum_congr rfl fun k _ => ext0_of_lt f _)

end Cert.Lib
-- ==== Proof.KIValue1.lean ====
import proofs.«163161_j55817394979591_1_alg».proof.Proof.KIValue1a
import proofs.«163161_j55817394979591_1_alg».proof.Proof.KIValue1b
import proofs.«163161_j55817394979591_1_alg».proof.Proof.KIValueDefs
import proofs.«163161_j55817394979591_1_alg».proof.Proof.LibBlockSum
import Idealize.ShloMosaic.Lib.Pipeline.Value
import Idealize.ShloMosaic.Lib.ValueIdx

/-!
# Region 1 of @main as functions of whole arrays: the layer's combination and its column totals

The region's twenty points each write rows `5000·t … 5000·t + 4999` of the combination of the aggregate and the
projection through the two weight matrices, and add that block's column sums, and the column sums of its squares,
onto two rows that start from zero; the last point copies the two rows out.  So the first output ends as the
combination entry by entry, and the other two as its column sums and column sums of squares over all 100000 rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-- The layer's combination of the arrays as the region finds them. -/
def Y1 (c : Dev nD) : S100000x128.Idx → EReal :=
  combine (Ideal.ofBits .f32 0x3F317218#32) (Ideal.ofBits .f32 0x3E9D1BD0#32)
    (V c main_v39) (V c main_v26) (V c main_v41) (V c main_v43)

/-- The printed index maps, decided over the twenty points: the aggregate, projection and result windows sit at row
    block `t`, the two weight windows and the two row outputs at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The aggregate window's block at point `t` is rows `5000·t …` of the aggregate. -/
theorem ablk_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v39 : S100000x128.Idx → EReal) i := by
  obtain ⟨e0, e1, -⟩ := idx_facts1 t
  unfold iblk1
  rw [View.read_apply]
  show (V c main_v39 : S100000x128.Idx → EReal) _ = _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The projection window's block at point `t` is rows `5000·t …` of the projection. -/
theorem pblk_apply (c : Dev nD) (t : Fin cfg1.N) (y : S5000x128.Idx) (i : S100000x128.Idx)
    (h0 : (i 0).val = 5000 * t.val + (y 0).val) (h1 : (i 1).val = (y 1).val) :
    (iblk1 V c 1 t : Vec Ideal S5000x128 .f32) y = (V c main_v26 : S100000x128.Idx → EReal) i := by
  obtain ⟨-, -, e0, e1, -⟩ := idx_facts1 t
  unfold iblk1
  rw [View.read_apply]
  show (V c main_v26 : S100000x128.Idx → EReal) _ = _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The first weight window's block at every point is the whole matrix. -/
theorem w1blk_apply (c : Dev nD) (t : Fin cfg1.N) (y : S128x128.Idx) :
    (iblk1 V c 2 t : Vec Ideal S128x128 .f32) y = (V c main_v41 : S128x128.Idx → EReal) y := by
  obtain ⟨-, -, -, -, e0, e1, -⟩ := idx_facts1 t
  unfold iblk1
  rw [View.read_apply]
  show (V c main_v41 : S128x128.Idx → EReal) _ = _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second weight window's block at every point is the whole matrix. -/
theorem w2blk_apply (c : Dev nD) (t : Fin cfg1.N) (y : S128x128.Idx) :
    (iblk1 V c 3 t : Vec Ideal S128x128 .f32) y = (V c main_v43 : S128x128.Idx → EReal) y := by
  obtain ⟨-, -, -, -, -, -, e0, e1, -⟩ := idx_facts1 t
  unfold iblk1
  rw [View.read_apply]
  show (V c main_v43 : S128x128.Idx → EReal) _ = _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The combination payload of the blocks at point `t`, at entry `(k, q)`, is the combination of the whole arrays
    at row `5000·t + k`. -/
theorem comb_blk (c : Dev nD) (t : Fin cfg1.N) (k : Fin 5000) (q : Fin 128) (r : Fin 100000)
    (hr : r.val = 5000 * t.val + k.val) :
    k1_pay5 (iblk1 V c 0 t) (iblk1 V c 1 t) (iblk1 V c 2 t) (iblk1 V c 3 t) (ix2 k q) = Y1 V c (ix2 r q) := by
  have ha : ∀ j : Fin 128, (iblk1 V c 0 t : Vec Ideal S5000x128 .f32) (ix2 k j)
      = (V c main_v39 : S100000x128.Idx → EReal) (ix2 r j) := fun j => ablk_apply V c t (ix2 k j) (ix2 r j) hr rfl
  have hp : ∀ j : Fin 128, (iblk1 V c 1 t : Vec Ideal S5000x128 .f32) (ix2 k j)
      = (V c main_v26 : S100000x128.Idx → EReal) (ix2 r j) := fun j => pblk_apply V c t (ix2 k j) (ix2 r j) hr rfl
  rw [comb_apply]
  show _ = Cert.Net.combineAt _ _ _ _ _ _ r q
  unfold Cert.Net.combineAt
  refine congrArg₂ (· + ·) (congrArg₂ (· + ·) (congrArg₂ (· + ·) ?_ ?_) ?_) ?_
  · rw [ha q]
  · exact congrArg (_ * ·) (Finset.sum_congr rfl fun j _ => by rw [ha j, w1blk_apply V c t (ix2 j q)])
  · rw [hp q]
  · exact congrArg (_ * ·) (Finset.sum_congr rfl fun j _ => by rw [hp j, w2blk_apply V c t (ix2 j q)])

/-- After every point the result block's buffer holds the combination payload of the point's blocks. -/
theorem outs4_eq (c : Dev nD) (t : Fin cfg1.N) :
    (outsAt1 V c t.val t.isLt).1 = k1_pay5 (iblk1 V c 0 t) (iblk1 V c 1 t) (iblk1 V c 2 t) (iblk1 V c 3 t) := by
  by_cases h0 : t.val = 0
  · have h1 : ¬t.val = 19 := by omega
    rw [outsAt1_A V c t h0 h1]
    dsimp only
    exact out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
  · by_cases h1 : t.val = 19
    · rw [outsAt1_C V c t h0 h1]
      dsimp only
      exact out1_C_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · rw [outsAt1_B V c t h0 h1]
      dsimp only
      exact out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- What point `t` writes back to the first output is block `t` of the combination. -/
theorem flushed1_4_eq (c : Dev nD) (t : Fin cfg1.N) :
    (dat1 (F := Ideal) V c).flushed 4 t = ((cfg1.win 4).blk t).view.read (Elt Ideal) (Y1 V c) := by
  show (cfg1.win 4).cut (grid1.coords t) ((dat1 V c).after 4 t) = _
  rw [after1_4, outs4_eq]
  obtain ⟨-, -, -, -, -, -, -, -, e40, e41, -⟩ := idx_facts1 t
  have key : ∀ j : S5000x128.Idx, k1_pay5 (iblk1 V c 0 t) (iblk1 V c 1 t) (iblk1 V c 2 t) (iblk1 V c 3 t) j = Y1 V c (((cfg1.win 4).blk t).view.emb j) := by
    intro j
    obtain ⟨p, q, rfl⟩ : ∃ (p : Fin 5000) (q : Fin 128), j = ix2 p q := ⟨j 0, j 1, eq_ix2 j⟩
    have hv0 : ((((cfg1.win 4).blk t).view.emb (ix2 p q)) 0).val = 5000 * t.val + p.val := by
      show win1_4.index t (0 : Fin 2) * 5000 + 1 * p.val = _
      rw [e40]; omega
    have hv1 : ((((cfg1.win 4).blk t).view.emb (ix2 p q)) 1).val = q.val := by
      show win1_4.index t (1 : Fin 2) * 128 + 1 * q.val = _
      rw [e41]; omega
    rw [comb_blk V c t p q ((((cfg1.win 4).blk t).view.emb (ix2 p q)) 0) hv0]
    congr 1
    funext a
    apply Fin.ext
    match a with
    | ⟨0, _⟩ => rfl
    | ⟨1, _⟩ => exact hv1.symm
  funext j
  exact key j

/-- An index of the first output is in point `t`'s block iff each coordinate is in the block's range on its axis. -/
theorem mem_blk1_4 (t : Fin cfg1.N) (i : S100000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v44_0).slice (win1_4.rect t)).set ↔ _
  rw [View.set_slice_whole, Rect.mem_set_unit]
  exact Iff.rfl

/-- Every index of the first output is in some point's block: row `r` is in block `r / 5000`. -/
theorem cover1_4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e40, e41, -⟩ := idx_facts1 ⟨(i 0).val / 5000, ht⟩
  refine ⟨⟨(i 0).val / 5000, ht⟩, flush1_4 _, ?_⟩
  rw [mem_blk1_4]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]; omega

/-- The first output after the region: the combination of the arrays as the region finds them. -/
theorem final1_y (c : Dev nD) : (dat1 (F := Ideal) V c).arrAt 4 cfg1.N = Y1 V c :=
  (dat1 V c).arrAt_eq_of_cover 4 _ (fun t _ => flushed1_4_eq V c t) cover1_4

/-- After point `n` the first accumulator holds, in column `q`, the total of the combination over the first
    `5000·(n + 1)` rows: by induction on the point, each point adding its block's column sums. -/
theorem acc0_eq (c : Dev nD) (q : Fin 128) : ∀ (n : ℕ) (hn : n < cfg1.N),
    (outsAt1 V c n hn).2.2.2.1 (ix2 (0 : Fin 1) q)
      = ∑ m ∈ Finset.range (5000 * (n + 1)), Cert.Lib.ext0 (fun r : Fin 100000 => Y1 V c (ix2 r q)) m
  | 0, hn => by
    have hN : cfg1.N = 20 := N_1
    have h19 : ¬(0 : ℕ) = 19 := by decide
    have e := outsAt1_A V c ⟨0, hn⟩ rfl h19
    rw [show outsAt1 V c 0 hn = _ from e]
    dsimp only
    rw [sout1_A_0_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => h19 ((hcond1_1 ⟨0, hn⟩).mp h)) (iblk1 V c 0 ⟨0, hn⟩) (iblk1 V c 1 ⟨0, hn⟩) (iblk1 V c 2 ⟨0, hn⟩) (iblk1 V c 3 ⟨0, hn⟩)]
    rw [colsum_apply, zero0_apply, zero_add,
      Cert.Lib.sum_range_block (fun r : Fin 100000 => Y1 V c (ix2 r q)) 5000 0 (by norm_num),
      show ∑ m ∈ Finset.range (5000 * 0), Cert.Lib.ext0 (fun r : Fin 100000 => Y1 V c (ix2 r q)) m = 0 from by
        rw [Nat.mul_zero, Finset.range_zero, Finset.sum_empty],
      zero_add]
    exact Finset.sum_congr rfl (fun k _ => comb_blk V c ⟨0, hn⟩ k q ⟨5000 * 0 + k.val, by have := k.isLt; omega⟩ rfl)
  | n + 1, hn => by
    have hN : cfg1.N = 20 := N_1
    have hn20 : n + 1 < 20 := hN ▸ hn
    have ih := acc0_eq c q n (Nat.lt_of_succ_lt hn)
    have hstep := Cert.Lib.sum_range_block (fun r : Fin 100000 => Y1 V c (ix2 r q)) 5000 (n + 1) (by omega)
    by_cases h1 : n + 1 = 19
    · have e := outsAt1_C V c ⟨n + 1, hn⟩ (Nat.succ_ne_zero n) h1
      rw [show outsAt1 V c (n + 1) hn = _ from e]
      dsimp only
      rw [sout1_C_0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c ((⟨n + 1, hn⟩ : Fin cfg1.N).val - 1) (Nat.lt_of_le_of_lt (Nat.sub_le _ _) (⟨n + 1, hn⟩ : Fin cfg1.N).isLt)).2.2.2.1 (outsAt1 V c ((⟨n + 1, hn⟩ : Fin cfg1.N).val - 1) (Nat.lt_of_le_of_lt (Nat.sub_le _ _) (⟨n + 1, hn⟩ : Fin cfg1.N).isLt)).2.2.2.2]
      rw [colsum_apply, hstep]
      exact congrArg₂ (· + ·) ih (Finset.sum_congr rfl (fun k _ => comb_blk V c ⟨n + 1, hn⟩ k q ⟨5000 * (n + 1) + k.val, by have := k.isLt; omega⟩ rfl))
    · have e := outsAt1_B V c ⟨n + 1, hn⟩ (Nat.succ_ne_zero n) h1
      rw [show outsAt1 V c (n + 1) hn = _ from e]
      dsimp only
      rw [sout1_B_0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c ((⟨n + 1, hn⟩ : Fin cfg1.N).val - 1) (Nat.lt_of_le_of_lt (Nat.sub_le _ _) (⟨n + 1, hn⟩ : Fin cfg1.N).isLt)).2.2.2.1 (outsAt1 V c ((⟨n + 1, hn⟩ : Fin cfg1.N).val - 1) (Nat.lt_of_le_of_lt (Nat.sub_le _ _) (⟨n + 1, hn⟩ : Fin cfg1.N).isLt)).2.2.2.2]
      rw [colsum_apply, hstep]
      exact congrArg₂ (· + ·) ih (Finset.sum_congr rfl (fun k _ => comb_blk V c ⟨n + 1, hn⟩ k q ⟨5000 * (n + 1) + k.val, by have := k.isLt; omega⟩ rfl))

/-- After point `n` the second accumulator holds, in column `q`, the total of the squared combination over the first
    `5000·(n + 1)` rows: by induction on the point, each point adding its block's column sums of squares. -/
theorem acc1_eq (c : Dev nD) (q : Fin 128) : ∀ (n : ℕ) (hn : n < cfg1.N),
    (outsAt1 V c n hn).2.2.2.2 (ix2 (0 : Fin 1) q)
      = ∑ m ∈ Finset.range (5000 * (n + 1)), Cert.Lib.ext0 (fun r : Fin 100000 => Y1 V c (ix2 r q) * Y1 V c (ix2 r q)) m
  | 0, hn => by
    have hN : cfg1.N = 20 := N_1
    have h19 : ¬(0 : ℕ) = 19 := by decide
    have e := outsAt1_A V c ⟨0, hn⟩ rfl h19
    rw [show outsAt1 V c 0 hn = _ from e]
    dsimp only
    rw [sout1_A_1_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => h19 ((hcond1_1 ⟨0, hn⟩).mp h)) (iblk1 V c 0 ⟨0, hn⟩) (iblk1 V c 1 ⟨0, hn⟩) (iblk1 V c 2 ⟨0, hn⟩) (iblk1 V c 3 ⟨0, hn⟩)]
    rw [colsumsq_apply, zero1_apply, zero_add,
      Cert.Lib.sum_range_block (fun r : Fin 100000 => Y1 V c (ix2 r q) * Y1 V c (ix2 r q)) 5000 0 (by norm_num),
      show ∑ m ∈ Finset.range (5000 * 0), Cert.Lib.ext0 (fun r : Fin 100000 => Y1 V c (ix2 r q) * Y1 V c (ix2 r q)) m = 0 from by
        rw [Nat.mul_zero, Finset.range_zero, Finset.sum_empty],
      zero_add]
    exact Finset.sum_congr rfl (fun k _ => by rw [comb_blk V c ⟨0, hn⟩ k q ⟨5000 * 0 + k.val, by have := k.isLt; omega⟩ rfl])
  | n + 1, hn => by
    have hN : cfg1.N = 20 := N_1
    have hn20 : n + 1 < 20 := hN ▸ hn
    have ih := acc1_eq c q n (Nat.lt_of_succ_lt hn)
    have hstep := Cert.Lib.sum_range_block (fun r : Fin 100000 => Y1 V c (ix2 r q) * Y1 V c (ix2 r q)) 5000 (n + 1) (by omega)
    by_cases h1 : n + 1 = 19
    · have e := outsAt1_C V c ⟨n + 1, hn⟩ (Nat.succ_ne_zero n) h1
      rw [show outsAt1 V c (n + 1) hn = _ from e]
      dsimp only
      rw [sout1_C_1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c ((⟨n + 1, hn⟩ : Fin cfg1.N).val - 1) (Nat.lt_of_le_of_lt (Nat.sub_le _ _) (⟨n + 1, hn⟩ : Fin cfg1.N).isLt)).2.2.2.1 (outsAt1 V c ((⟨n + 1, hn⟩ : Fin cfg1.N).val - 1) (Nat.lt_of_le_of_lt (Nat.sub_le _ _) (⟨n + 1, hn⟩ : Fin cfg1.N).isLt)).2.2.2.2]
      rw [colsumsq_apply, hstep]
      exact congrArg₂ (· + ·) ih (Finset.sum_congr rfl (fun k _ => by rw [comb_blk V c ⟨n + 1, hn⟩ k q ⟨5000 * (n + 1) + k.val, by have := k.isLt; omega⟩ rfl]))
    · have e := outsAt1_B V c ⟨n + 1, hn⟩ (Nat.succ_ne_zero n) h1
      rw [show outsAt1 V c (n + 1) hn = _ from e]
      dsimp only
      rw [sout1_B_1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c ((⟨n + 1, hn⟩ : Fin cfg1.N).val - 1) (Nat.lt_of_le_of_lt (Nat.sub_le _ _) (⟨n + 1, hn⟩ : Fin cfg1.N).isLt)).2.2.2.1 (outsAt1 V c ((⟨n + 1, hn⟩ : Fin cfg1.N).val - 1) (Nat.lt_of_le_of_lt (Nat.sub_le _ _) (⟨n + 1, hn⟩ : Fin cfg1.N).isLt)).2.2.2.2]
      rw [colsumsq_apply, hstep]
      exact congrArg₂ (· + ·) ih (Finset.sum_congr rfl (fun k _ => by rw [comb_blk V c ⟨n + 1, hn⟩ k q ⟨5000 * (n + 1) + k.val, by have := k.isLt; omega⟩ rfl]))

/-- At the last point output 5's buffer holds what the first accumulator holds. -/
theorem out5_eq (c : Dev nD) (t : Fin cfg1.N) (h19 : t.val = 19) :
    (outsAt1 V c t.val t.isLt).2.1 = (outsAt1 V c t.val t.isLt).2.2.2.1 := by
  have h0 : ¬t.val = 0 := by omega
  rw [outsAt1_C V c t h0 h19]
  dsimp only
  rw [out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h19) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h19) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]

/-- What the last point writes back to output 5 is the row of column sums of the combination. -/
theorem flushed1_5_eq (c : Dev nD) (t : Fin cfg1.N) (hf : (cfg1.win 5).flush t = true) :
    (dat1 (F := Ideal) V c).flushed 5 t = ((cfg1.win 5).blk t).view.read (Elt Ideal) (sumRow (Y1 V c)) := by
  have hN : cfg1.N = 20 := N_1
  have h19 : t.val = 19 := by have := (flush1_5 t).mp hf; have := t.isLt; omega
  show (cfg1.win 5).cut (grid1.coords t) ((dat1 V c).after 5 t) = _
  rw [after1_5, out5_eq V c t h19]
  obtain ⟨-, -, -, -, -, -, -, -, -, -, e0, e1, -⟩ := idx_facts1 t
  have key : ∀ j : S1x128.Idx, (outsAt1 V c t.val t.isLt).2.2.2.1 j
      = sumRow (Y1 V c) (((cfg1.win 5).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg1.win 5).blk t).view.emb (ix2 (0 : Fin 1) q)) 1).val = q.val := by
      show win1_5.index t (1 : Fin 2) * 128 + 1 * q.val = _
      rw [e1]; omega
    have hcol : (fun r : Fin 100000 => Y1 V c (ix2 r ((((cfg1.win 5).blk t).view.emb (ix2 (0 : Fin 1) q)) 1)))
        = fun r : Fin 100000 => Y1 V c (ix2 r q) := by
      have hi : ∀ r : Fin 100000, (ix2 r ((((cfg1.win 5).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y1 V c (ix2 r ((((cfg1.win 5).blk t).view.emb (ix2 (0 : Fin 1) q)) 1))
    rw [Cert.Lib.sum_fin_eq_sum_range, hcol, acc0_eq V c q t.val t.isLt, h19]
  generalize (outsAt1 V c t.val t.isLt).2.2.2.1 = X at key ⊢
  generalize sumRow (Y1 V c) = G at key ⊢
  funext j
  exact key j

/-- An index of output 5 is in point `t`'s block iff each coordinate is in the block's range on its axis. -/
theorem mem_blk1_5 (t : Fin cfg1.N) (i : S1x128.Idx) :
    i ∈ ((cfg1.win 5).blk t).view.set
      ↔ ∀ a : Fin 2, win1_5.index t a * S1x128.size a ≤ (i a).val
          ∧ (i a).val < win1_5.index t a * S1x128.size a + S1x128.size a := by
  show i ∈ ((View.whole main_v44_1).slice (win1_5.rect t)).set ↔ _
  rw [View.set_slice_whole, Rect.mem_set_unit]
  exact Iff.rfl

/-- The last point's block is the whole of output 5. -/
theorem cover1_5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  have hN : cfg1.N = 20 := N_1
  have ht : 19 < cfg1.N := by rw [hN]; omega
  obtain ⟨-, -, -, -, -, -, -, -, -, -, e0, e1, -⟩ := idx_facts1 ⟨19, ht⟩
  refine ⟨⟨19, ht⟩, (flush1_5 _).mpr rfl, ?_⟩
  rw [mem_blk1_5]
  intro a
  match a with
  | ⟨0, _⟩ =>
    show win1_5.index ⟨19, ht⟩ (0 : Fin 2) * 1 ≤ (i 0).val ∧ (i 0).val < win1_5.index ⟨19, ht⟩ (0 : Fin 2) * 1 + 1
    rw [e0]; omega
  | ⟨1, _⟩ =>
    show win1_5.index ⟨19, ht⟩ (1 : Fin 2) * 128 ≤ (i 1).val ∧ (i 1).val < win1_5.index ⟨19, ht⟩ (1 : Fin 2) * 128 + 128
    rw [e1]; omega

/-- Output 5 after the region: the row of column sums of the combination over all 100000 rows. -/
theorem final1_sum (c : Dev nD) : (dat1 (F := Ideal) V c).arrAt 5 cfg1.N = sumRow (Y1 V c) :=
  (dat1 V c).arrAt_eq_of_cover 5 _ (fun t hf => flushed1_5_eq V c t hf) cover1_5

/-- At the last point output 6's buffer holds what the second accumulator holds. -/
theorem out6_eq (c : Dev nD) (t : Fin cfg1.N) (h19 : t.val = 19) :
    (outsAt1 V c t.val t.isLt).2.2.1 = (outsAt1 V c t.val t.isLt).2.2.2.2 := by
  have h0 : ¬t.val = 0 := by omega
  rw [outsAt1_C V c t h0 h19]
  dsimp only
  rw [out1_C_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h19) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h19) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]

/-- What the last point writes back to output 6 is the row of column sums of squares of the combination. -/
theorem flushed1_6_eq (c : Dev nD) (t : Fin cfg1.N) (hf : (cfg1.win 6).flush t = true) :
    (dat1 (F := Ideal) V c).flushed 6 t = ((cfg1.win 6).blk t).view.read (Elt Ideal) (sumSqRow (Y1 V c)) := by
  have hN : cfg1.N = 20 := N_1
  have h19 : t.val = 19 := by have := (flush1_6 t).mp hf; have := t.isLt; omega
  show (cfg1.win 6).cut (grid1.coords t) ((dat1 V c).after 6 t) = _
  rw [after1_6, out6_eq V c t h19]
  obtain ⟨-, -, -, -, -, -, -, -, -, -, -, -, e0, e1⟩ := idx_facts1 t
  have key : ∀ j : S1x128.Idx, (outsAt1 V c t.val t.isLt).2.2.2.2 j
      = sumSqRow (Y1 V c) (((cfg1.win 6).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg1.win 6).blk t).view.emb (ix2 (0 : Fin 1) q)) 1).val = q.val := by
      show win1_6.index t (1 : Fin 2) * 128 + 1 * q.val = _
      rw [e1]; omega
    have hcol : (fun r : Fin 100000 => Y1 V c (ix2 r ((((cfg1.win 6).blk t).view.emb (ix2 (0 : Fin 1) q)) 1)) * Y1 V c (ix2 r ((((cfg1.win 6).blk t).view.emb (ix2 (0 : Fin 1) q)) 1)))
        = fun r : Fin 100000 => Y1 V c (ix2 r q) * Y1 V c (ix2 r q) := by
      have hi : ∀ r : Fin 100000, (ix2 r ((((cfg1.win 6).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y1 V c (ix2 r ((((cfg1.win 6).blk t).view.emb (ix2 (0 : Fin 1) q)) 1)) * Y1 V c (ix2 r ((((cfg1.win 6).blk t).view.emb (ix2 (0 : Fin 1) q)) 1))
    rw [Cert.Lib.sum_fin_eq_sum_range, hcol, acc1_eq V c q t.val t.isLt, h19]
  generalize (outsAt1 V c t.val t.isLt).2.2.2.2 = X at key ⊢
  generalize sumSqRow (Y1 V c) = G at key ⊢
  funext j
  exact key j

/-- An index of output 6 is in point `t`'s block iff each coordinate is in the block's range on its axis. -/
theorem mem_blk1_6 (t : Fin cfg1.N) (i : S1x128.Idx) :
    i ∈ ((cfg1.win 6).blk t).view.set
      ↔ ∀ a : Fin 2, win1_6.index t a * S1x128.size a ≤ (i a).val
          ∧ (i a).val < win1_6.index t a * S1x128.size a + S1x128.size a := by
  show i ∈ ((View.whole main_v44_2).slice (win1_6.rect t)).set ↔ _
  rw [View.set_slice_whole, Rect.mem_set_unit]
  exact Iff.rfl

/-- The last point's block is the whole of output 6. -/
theorem cover1_6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  have hN : cfg1.N = 20 := N_1
  have ht : 19 < cfg1.N := by rw [hN]; omega
  obtain ⟨-, -, -, -, -, -, -, -, -, -, -, -, e0, e1⟩ := idx_facts1 ⟨19, ht⟩
  refine ⟨⟨19, ht⟩, (flush1_6 _).mpr rfl, ?_⟩
  rw [mem_blk1_6]
  intro a
  match a with
  | ⟨0, _⟩ =>
    show win1_6.index ⟨19, ht⟩ (0 : Fin 2) * 1 ≤ (i 0).val ∧ (i 0).val < win1_6.index ⟨19, ht⟩ (0 : Fin 2) * 1 + 1
    rw [e0]; omega
  | ⟨1, _⟩ =>
    show win1_6.index ⟨19, ht⟩ (1 : Fin 2) * 128 ≤ (i 1).val ∧ (i 1).val < win1_6.index ⟨19, ht⟩ (1 : Fin 2) * 128 + 128
    rw [e1]; omega

/-- Output 6 after the region: the row of column sums of squares of the combination over all 100000 rows. -/
theorem final1_sumsq (c : Dev nD) : (dat1 (F := Ideal) V c).arrAt 6 cfg1.N = sumSqRow (Y1 V c) :=
  (dat1 V c).arrAt_eq_of_cover 6 _ (fun t hf => flushed1_6_eq V c t hf) cover1_6

end Cert.KernelIdeal.HandValue

end
-- ==== Proof.KIValue3a.lean ====
import proofs.«163161_j55817394979591_1_alg».proof.Proof.Gen.KernelIdeal.Skeleton
import proofs.«163161_j55817394979591_1_alg».proof.Proof.LibMatmulPlain
import proofs.«163161_j55817394979591_1_alg».proof.Proof.NetDefs
import Idealize.ShloMosaic.PureOps.Ideal.Laws
import Idealize.ShloMosaic.Lib.Pipeline.Value
import Idealize.ShloMosaic.Lib.ValueIdx

/-!
# Region 3 of @main: the body's payloads, entry by entry

The body computes one block of the layer's combination (two matrix products and four scalings, added left
to right), adds that block's column sums and the column sums of its squares onto two rows, and starts those
rows from zero.
-/

noncomputable section

namespace Cert.KernelIdeal.HandValue

open Cert.KernelIdeal Cert.KernelIdeal.Gen
open Idealize.ShloMosaic Idealize.ShloMosaic.ValueIdx
open scoped BigOperators

/-- The combination's payload at entry `(r, j)` of a block, from the blocks of the aggregate and the projection and
    the two weight matrices. -/
theorem comb3_apply (a p : Vec Ideal S5000x128 .f32) (W1 W2 : Vec Ideal S128x128 .f32) (r : Fin 5000) (j : Fin 128) :
    k3_pay5 a p W1 W2 (ix2 r j)
      = Named.named (F := Ideal) κ "one_minus_beta_1" (φ := .f32) 0x3F183370#32 * (Ideal.ofBits .f32 0x3F000000#32 * a (ix2 r j))
        + Ideal.ofBits .f32 0x3ECF991F#32
            * (∑ k : Fin 128, (Ideal.ofBits .f32 0x3F000000#32 * a (ix2 r k)) * W1 (ix2 k j))
        + Named.named (F := Ideal) κ "one_minus_beta_1" (φ := .f32) 0x3F183370#32 * (Ideal.ofBits .f32 0x3F000000#32 * p (ix2 r j))
        + Ideal.ofBits .f32 0x3ECF991F#32
            * (∑ k : Fin 128, (Ideal.ofBits .f32 0x3F000000#32 * p (ix2 r k)) * W2 (ix2 k j)) := by
  unfold k3_pay5
  show addf _ _ (ix2 r j) = _
  simp only [addf_apply, mulf_apply, broadcast_apply, shapeCast_self]
  refine congrArg₂ (· + ·) (congrArg₂ (· + ·) (congrArg₂ (· + ·) rfl ?_) rfl) ?_
  · exact congrArg (Ideal.ofBits .f32 0x3ECF991F#32 * ·)
      (MatmulPlain.matmul_zero_apply dot_S5000x128_S128x128_S5000x128_1_0_0_1_n_n_wf none
        (truncf .bf16 (mulf (broadcast S5000x128 (Scalar.ofBits (F := Ideal) .f32 0x3F000000#32)) a) bitsLt_bf16_f32)
        (truncf .bf16 W1 bitsLt_bf16_f32) r j)
  · exact congrArg (Ideal.ofBits .f32 0x3ECF991F#32 * ·)
      (MatmulPlain.matmul_zero_apply dot_S5000x128_S128x128_S5000x128_1_0_0_1_n_n_wf none
        (truncf .bf16 (mulf (broadcast S5000x128 (Scalar.ofBits (F := Ideal) .f32 0x3F000000#32)) p) bitsLt_bf16_f32)
        (truncf .bf16 W2 bitsLt_bf16_f32) r j)

/-- The column-sum payload at entry `(0, q)`: the row's entry plus the sum of the block's column `q`. -/
theorem colsum3_apply (v : FVec Ideal S5000x128 .f32) (acc : FVec Ideal S1x128 .f32) (q : Fin 128) :
    k3_pay1 v acc (ix2 (0 : Fin 1) q) = acc (ix2 (0 : Fin 1) q) + ∑ k : Fin 5000, v (ix2 k q) := by
  unfold k3_pay1
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single v 0x00000000#32 reduces_S5000x128_S128 (.inl rfl) rfl _).trans ?_
  exact Finset.sum_congr rfl fun k _ => congrArg v (funext fun a => Fin.ext (by
    match a with
    | ⟨0, _⟩ => rfl
    | ⟨1, _⟩ => rfl))

/-- The sum-of-squares payload at entry `(0, q)`: the row's entry plus the sum of the squares of the block's
    column `q`. -/
theorem colsumsq3_apply (v : FVec Ideal S5000x128 .f32) (acc : FVec Ideal S1x128 .f32) (q : Fin 128) :
    k3_pay2 v acc (ix2 (0 : Fin 1) q) = acc (ix2 (0 : Fin 1) q) + ∑ k : Fin 5000, v (ix2 k q) * v (ix2 k q) := by
  unfold k3_pay2
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single (mulf v v) 0x00000000#32 reduces_S5000x128_S128 (.inl rfl) rfl _).trans ?_
  exact Finset.sum_congr rfl fun k _ => congrArg (fun i => v i * v i) (funext fun a => Fin.ext (by
    match a with
    | ⟨0, _⟩ => rfl
    | ⟨1, _⟩ => rfl))

/-- The two rows start from zero. -/
theorem zero3_0_apply (i : S1x128.Idx) : k3_pay3 (F := Ideal) i = 0 := by
  unfold k3_pay3
  show shapeCast S1x128 (broadcast S1x128 (Scalar.ofBits (F := Ideal) .f32 0x00000000#32)) shapeCasts_S1x128_S1x128 i = 0
  rw [shapeCast_self, broadcast_apply]
  exact Ideal.ofBits_zero_f32

theorem zero3_1_apply (i : S1x128.Idx) : k3_pay4 (F := Ideal) i = 0 := by
  unfold k3_pay4
  show shapeCast S1x128 (broadcast S1x128 (Scalar.ofBits (F := Ideal) .f32 0x00000000#32)) shapeCasts_S1x128_S1x128 i = 0
  rw [shapeCast_self, broadcast_apply]
  exact Ideal.ofBits_zero_f32

end Cert.KernelIdeal.HandValue

end
-- ==== Proof.KIValue3b.lean ====
import proofs.«163161_j55817394979591_1_alg».proof.Proof.KIRegion3
import Idealize.ShloMosaic.Lib.Pipeline.Value
import Idealize.ShloMosaic.Lib.Tactic

/-!
# Region 3 of @main: what each control case leaves, as payloads of the blocks

At every point the result block's buffer ends at the combination payload of the four input blocks. The two
accumulator rows end at the column-sum and sum-of-squares payloads of that block over what they held: over
the zero rows at the first point, over the previous point's rows afterwards. At the last point outputs 5 and 6
receive the two rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic

variable {F : FTy → Type} [FloatOps F] [Named F]

/-- The offset `(0, 0)` of a whole block is the zero function. -/
theorem origin3 : (![0, 0] : Fin 2 → Nat) = fun _ => 0 := funext fun a => by fin_cases a <;> rfl

/-- The first point leaves the combination of the blocks in the result block's buffer. -/
theorem out3_A_4_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) :
    out3_A_4 c i arg1 harg1 arg2 harg2 arg3 harg3 arg4 harg4 arg5 harg5 arg6 harg6 arg7 harg7 arg8 harg8 arg9 harg9 hc0 hc1 x0 x1 x2 x3 = k3_pay5 x0 x1 x2 x3 := by
  unfold out3_A_4
  rw [View.read_writes_eq_canon _ _ _ (cover3_A_4 c i arg1 harg1 arg2 harg2 arg3 harg3 arg4 harg4 arg5 harg5 arg6 harg6 arg7 harg7 arg8 harg8 arg9 harg9 hc0 hc1 x0 x1 x2 x3)]
  unfold kernelRun3_A
  dsimp only
  try sl_unfold_words
  rw [View.canon_unit_zero origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- So does every middle point, -/
theorem out3_B_4_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    out3_B_4 c i arg1 harg1 arg2 harg2 arg3 harg3 arg4 harg4 arg5 harg5 arg6 harg6 arg7 harg7 arg8 harg8 arg9 harg9 hc0 hc1 x0 x1 x2 x3 xs0 xs1 = k3_pay5 x0 x1 x2 x3 := by
  unfold out3_B_4
  rw [View.read_writes_eq_canon _ _ _ (cover3_B_4 c i arg1 harg1 arg2 harg2 arg3 harg3 arg4 harg4 arg5 harg5 arg6 harg6 arg7 harg7 arg8 harg8 arg9 harg9 hc0 hc1 x0 x1 x2 x3 xs0 xs1)]
  unfold kernelRun3_B
  dsimp only
  try sl_unfold_words
  rw [View.canon_unit_zero origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- and the last point. -/
theorem out3_C_4_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    out3_C_4 c i arg1 harg1 arg2 harg2 arg3 harg3 arg4 harg4 arg5 harg5 arg6 harg6 arg7 harg7 arg8 harg8 arg9 harg9 hc0 hc1 x0 x1 x2 x3 xs0 xs1 = k3_pay5 x0 x1 x2 x3 := by
  unfold out3_C_4
  rw [View.read_writes_eq_canon _ _ _ (cover3_C_4 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  try sl_unfold_words
  rw [View.canon_unit_zero origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- The first point leaves in the first accumulator the block's column sums over the zero row, -/
theorem sout3_A_0_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) :
    sout3_A_0 c i arg1 harg1 arg2 harg2 arg3 harg3 arg4 harg4 arg5 harg5 arg6 harg6 arg7 harg7 arg8 harg8 arg9 harg9 hc0 hc1 x0 x1 x2 x3 = k3_pay1 (k3_pay5 x0 x1 x2 x3) (k3_pay3 (F := F)) := by
  unfold sout3_A_0
  rw [View.read_writes_eq_canon _ _ _ (scover3_A_0 c i arg1 harg1 arg2 harg2 arg3 harg3 arg4 harg4 arg5 harg5 arg6 harg6 arg7 harg7 arg8 harg8 arg9 harg9 hc0 hc1 x0 x1 x2 x3)]
  unfold kernelRun3_A
  dsimp only
  try sl_unfold_words
  rw [View.canon_cons_unit_zero (S := S1x128) origin3, View.readCov_unit_zero (S := S1x128) _ origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- and in the second the column sums of its squares over the zero row. -/
theorem sout3_A_1_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S5000x128 .f32) (x2 : Vec F S128x128 .f32) (x3 : Vec F S128x128 .f32) :
    sout3_A_1 c i arg1 harg1 arg2 harg2 arg3 harg3 arg4 harg4 arg5 harg5 arg6 harg6 arg7 harg7 arg8 harg8 arg9 harg9 hc0 hc1 x0 x1 x2 x3 = k3_pay2 (k3_pay5 x0 x1 x2 x3) (k3_pay4 (F := F)) := by
  unfold sout3_A_1
  rw [View.read_writes_eq_canon _ _ _ (scover3_A_1 c i arg1 harg1 arg2 harg2 arg3 harg3 arg4 harg4 arg5 harg5 arg6 harg6 arg7 harg7 arg8 harg8 arg9 harg9 hc0 hc1 x0 x1 x2 x3)]
  unfold kernelRun3_A
  dsimp only
  try sl_unfold_words
  rw [View.canon_cons_unit_zero (S := S1x128) origin3, View.readCov_unit_zero (S := S1x128) _ origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- A middle point adds the block's column sums onto the first accumulator, -/
theorem sout3_B_0_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    sout3_B_0 c i arg1 harg1 arg2 harg2 arg3 harg3 arg4 harg4 arg5 harg5 arg6 harg6 arg7 harg7 arg8 harg8 arg9 harg9 hc0 hc1 x0 x1 x2 x3 xs0 xs1 = k3_pay1 (k3_pay5 x0 x1 x2 x3) xs0 := by
  unfold sout3_B_0
  rw [View.read_writes_eq_canon _ _ _ (scover3_B_0 c i arg1 harg1 arg2 harg2 arg3 harg3 arg4 harg4 arg5 harg5 arg6 harg6 arg7 harg7 arg8 harg8 arg9 harg9 hc0 hc1 x0 x1 x2 x3 xs0 xs1)]
  unfold kernelRun3_B
  dsimp only
  try sl_unfold_words
  rw [View.canon_unit_zero origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- and the column sums of its squares onto the second. -/
theorem sout3_B_1_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    sout3_B_1 c i arg1 harg1 arg2 harg2 arg3 harg3 arg4 harg4 arg5 harg5 arg6 harg6 arg7 harg7 arg8 harg8 arg9 harg9 hc0 hc1 x0 x1 x2 x3 xs0 xs1 = k3_pay2 (k3_pay5 x0 x1 x2 x3) xs1 := by
  unfold sout3_B_1
  rw [View.read_writes_eq_canon _ _ _ (scover3_B_1 c i arg1 harg1 arg2 harg2 arg3 harg3 arg4 harg4 arg5 harg5 arg6 harg6 arg7 harg7 arg8 harg8 arg9 harg9 hc0 hc1 x0 x1 x2 x3 xs0 xs1)]
  unfold kernelRun3_B
  dsimp only
  try sl_unfold_words
  rw [View.canon_unit_zero origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- The last point does the same to the first accumulator -/
theorem sout3_C_0_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    sout3_C_0 c i arg1 harg1 arg2 harg2 arg3 harg3 arg4 harg4 arg5 harg5 arg6 harg6 arg7 harg7 arg8 harg8 arg9 harg9 hc0 hc1 x0 x1 x2 x3 xs0 xs1 = k3_pay1 (k3_pay5 x0 x1 x2 x3) xs0 := by
  unfold sout3_C_0
  rw [View.read_writes_eq_canon _ _ _ (scover3_C_0 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  try sl_unfold_words
  rw [View.canon_unit_zero origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- and to the second, -/
theorem sout3_C_1_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    sout3_C_1 c i arg1 harg1 arg2 harg2 arg3 harg3 arg4 harg4 arg5 harg5 arg6 harg6 arg7 harg7 arg8 harg8 arg9 harg9 hc0 hc1 x0 x1 x2 x3 xs0 xs1 = k3_pay2 (k3_pay5 x0 x1 x2 x3) xs1 := by
  unfold sout3_C_1
  rw [View.read_writes_eq_canon _ _ _ (scover3_C_1 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  try sl_unfold_words
  rw [View.canon_unit_zero origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- and copies the first accumulator to output 5 -/
theorem out3_C_5_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    out3_C_5 c i arg1 harg1 arg2 harg2 arg3 harg3 arg4 harg4 arg5 harg5 arg6 harg6 arg7 harg7 arg8 harg8 arg9 harg9 hc0 hc1 x0 x1 x2 x3 xs0 xs1 = k3_pay1 (k3_pay5 x0 x1 x2 x3) xs0 := by
  unfold out3_C_5
  rw [View.read_writes_eq_canon _ _ _ (cover3_C_5 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  try sl_unfold_words
  rw [View.canon_unit_zero origin3, View.readCov_unit_zero (S := S1x128) _ origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
/-- and the second to output 6. -/
theorem out3_C_6_eq (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S5000x128 .f32) (x2 : Vec F S128x128 .f32) (x3 : Vec F S128x128 .f32) (xs0 : Vec F S1x128 .f32) (xs1 : Vec F S1x128 .f32) :
    out3_C_6 c i arg1 harg1 arg2 harg2 arg3 harg3 arg4 harg4 arg5 harg5 arg6 harg6 arg7 harg7 arg8 harg8 arg9 harg9 hc0 hc1 x0 x1 x2 x3 xs0 xs1 = k3_pay2 (k3_pay5 x0 x1 x2 x3) xs1 := by
  unfold out3_C_6
  rw [View.read_writes_eq_canon _ _ _ (cover3_C_6 c i arg1 harg1 arg2 harg2 arg3 harg3 arg4 harg4 arg5 harg5 arg6 harg6 arg7 harg7 arg8 harg8 arg9 harg9 hc0 hc1 x0 x1 x2 x3 xs0 xs1)]
  unfold kernelRun3_C
  dsimp only
  try sl_unfold_words
  rw [View.canon_unit_zero origin3, View.readCov_unit_zero (S := S1x128) _ origin3]
  simp only [View.readAt_eq_ld, harg1.read_unread, harg2.read_unread, harg3.read_unread, harg4.read_unread,
    harg8.read_unread, harg9.read_unread,
    View.ld_unit_zero (S := S5000x128) origin3, View.ld_unit_zero (S := S128x128) origin3,
    View.ld_unit_zero (S := S1x128) origin3]
end Cert.KernelIdeal.HandValue

end
-- ==== Proof.KIValue3.lean ====
import proofs.«163161_j55817394979591_1_alg».proof.Proof.KIValue3a
import proofs.«163161_j55817394979591_1_alg».proof.Proof.KIValue3b
import proofs.«163161_j55817394979591_1_alg».proof.Proof.KIValueDefs
import proofs.«163161_j55817394979591_1_alg».proof.Proof.LibBlockSum
import Idealize.ShloMosaic.Lib.Pipeline.Value
import Idealize.ShloMosaic.Lib.ValueIdx

/-!
# Region 3 of @main as functions of whole arrays: the layer's combination and its column totals

The region's twenty points each write rows `5000·t … 5000·t + 4999` of the combination of the aggregate and the
projection through the two weight matrices, and add that block's column sums, and the column sums of its squares,
onto two rows that start from zero; the last point copies the two rows out.  So the first output ends as the
combination entry by entry, and the other two as its column sums and column sums of squares over all 100000 rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-- The layer's combination of the arrays as the region finds them. -/
def Y3 (c : Dev nD) : S100000x128.Idx → EReal :=
  combine (Ideal.ofBits .f32 0x3ECF991F#32) (Named.named (F := Ideal) κ "one_minus_beta_1" (φ := .f32) 0x3F183370#32)
    (V c main_v70) (V c main_v26) (V c main_v72) (V c main_v74)

/-- The printed index maps, decided over the twenty points: the aggregate, projection and result windows sit at row
    block `t`, the two weight windows and the two row outputs at block `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The aggregate window's block at point `t` is rows `5000·t …` of the aggregate. -/
theorem ablk3_apply (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c main_v70 : S100000x128.Idx → EReal) i := by
  obtain ⟨e0, e1, -⟩ := idx_facts3 t
  unfold iblk3
  rw [View.read_apply]
  show (V c main_v70 : S100000x128.Idx → EReal) _ = _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The projection window's block at point `t` is rows `5000·t …` of the projection. -/
theorem pblk3_apply (c : Dev nD) (t : Fin cfg3.N) (y : S5000x128.Idx) (i : S100000x128.Idx)
    (h0 : (i 0).val = 5000 * t.val + (y 0).val) (h1 : (i 1).val = (y 1).val) :
    (iblk3 V c 1 t : Vec Ideal S5000x128 .f32) y = (V c main_v26 : S100000x128.Idx → EReal) i := by
  obtain ⟨-, -, e0, e1, -⟩ := idx_facts3 t
  unfold iblk3
  rw [View.read_apply]
  show (V c main_v26 : S100000x128.Idx → EReal) _ = _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 128 + 1 * (y 1).val = (i 1).val; rw [e1, h1]; omega

/-- The first weight window's block at every point is the whole matrix. -/
theorem w1blk3_apply (c : Dev nD) (t : Fin cfg3.N) (y : S128x128.Idx) :
    (iblk3 V c 2 t : Vec Ideal S128x128 .f32) y = (V c main_v72 : S128x128.Idx → EReal) y := by
  obtain ⟨-, -, -, -, e0, e1, -⟩ := idx_facts3 t
  unfold iblk3
  rw [View.read_apply]
  show (V c main_v72 : S128x128.Idx → EReal) _ = _
  congr 1
  funext a
  apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- The second weight window's block at every point is the whole matrix. -/
theorem w2blk3_apply (c : Dev nD) (t : Fin cfg3.N) (y : S128x128.Idx) :
    (iblk3 V c 3 t : Vec Ideal S128x128 .f32) y = (V c main_v74 : S128x128.Idx → EReal) y := by
  obtain ⟨-, -, -, -, -, -, e0, e1, -⟩ := idx_facts3 t
  unfold iblk3
  rw [View.read_apply]
  show (V c main_v74 : S128x128.Idx → EReal) _ = _
  congr 1
  funext a
  apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The combination payload of the blocks at point `t`, at entry `(k, q)`, is the combination of the whole arrays
    at row `5000·t + k`. -/
theorem comb3_blk (c : Dev nD) (t : Fin cfg3.N) (k : Fin 5000) (q : Fin 128) (r : Fin 100000)
    (hr : r.val = 5000 * t.val + k.val) :
    k3_pay5 (iblk3 V c 0 t) (iblk3 V c 1 t) (iblk3 V c 2 t) (iblk3 V c 3 t) (ix2 k q) = Y3 V c (ix2 r q) := by
  have ha : ∀ j : Fin 128, (iblk3 V c 0 t : Vec Ideal S5000x128 .f32) (ix2 k j)
      = (V c main_v70 : S100000x128.Idx → EReal) (ix2 r j) := fun j => ablk3_apply V c t (ix2 k j) (ix2 r j) hr rfl
  have hp : ∀ j : Fin 128, (iblk3 V c 1 t : Vec Ideal S5000x128 .f32) (ix2 k j)
      = (V c main_v26 : S100000x128.Idx → EReal) (ix2 r j) := fun j => pblk3_apply V c t (ix2 k j) (ix2 r j) hr rfl
  rw [comb3_apply]
  show _ = Cert.Net.combineAt _ _ _ _ _ _ r q
  unfold Cert.Net.combineAt
  refine congrArg₂ (· + ·) (congrArg₂ (· + ·) (congrArg₂ (· + ·) ?_ ?_) ?_) ?_
  · rw [ha q]
  · exact congrArg (_ * ·) (Finset.sum_congr rfl fun j _ => by rw [ha j, w1blk3_apply V c t (ix2 j q)])
  · rw [hp q]
  · exact congrArg (_ * ·) (Finset.sum_congr rfl fun j _ => by rw [hp j, w2blk3_apply V c t (ix2 j q)])

/-- After every point the result block's buffer holds the combination payload of the point's blocks. -/
theorem outs3_4_eq (c : Dev nD) (t : Fin cfg3.N) :
    (outsAt3 V c t.val t.isLt).1 = k3_pay5 (iblk3 V c 0 t) (iblk3 V c 1 t) (iblk3 V c 2 t) (iblk3 V c 3 t) := by
  by_cases h0 : t.val = 0
  · have h1 : ¬t.val = 19 := by omega
    rw [outsAt3_A V c t h0 h1]
    dsimp only
    exact out3_A_4_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)
  · by_cases h1 : t.val = 19
    · rw [outsAt3_C V c t h0 h1]
      dsimp only
      exact out3_C_4_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2
    · rw [outsAt3_B V c t h0 h1]
      dsimp only
      exact out3_B_4_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2

/-- What point `t` writes back to the first output is block `t` of the combination. -/
theorem flushed3_4_eq (c : Dev nD) (t : Fin cfg3.N) :
    (dat3 (F := Ideal) V c).flushed 4 t = ((cfg3.win 4).blk t).view.read (Elt Ideal) (Y3 V c) := by
  show (cfg3.win 4).cut (grid3.coords t) ((dat3 V c).after 4 t) = _
  rw [after3_4, outs3_4_eq]
  obtain ⟨-, -, -, -, -, -, -, -, e40, e41, -⟩ := idx_facts3 t
  have key : ∀ j : S5000x128.Idx, k3_pay5 (iblk3 V c 0 t) (iblk3 V c 1 t) (iblk3 V c 2 t) (iblk3 V c 3 t) j = Y3 V c (((cfg3.win 4).blk t).view.emb j) := by
    intro j
    obtain ⟨p, q, rfl⟩ : ∃ (p : Fin 5000) (q : Fin 128), j = ix2 p q := ⟨j 0, j 1, eq_ix2 j⟩
    have hv0 : ((((cfg3.win 4).blk t).view.emb (ix2 p q)) 0).val = 5000 * t.val + p.val := by
      show win3_4.index t (0 : Fin 2) * 5000 + 1 * p.val = _
      rw [e40]; omega
    have hv1 : ((((cfg3.win 4).blk t).view.emb (ix2 p q)) 1).val = q.val := by
      show win3_4.index t (1 : Fin 2) * 128 + 1 * q.val = _
      rw [e41]; omega
    rw [comb3_blk V c t p q ((((cfg3.win 4).blk t).view.emb (ix2 p q)) 0) hv0]
    congr 1
    funext a
    apply Fin.ext
    match a with
    | ⟨0, _⟩ => rfl
    | ⟨1, _⟩ => exact hv1.symm
  funext j
  exact key j

/-- An index of the first output is in point `t`'s block iff each coordinate is in the block's range on its axis. -/
theorem mem_blk3_4 (t : Fin cfg3.N) (i : S100000x128.Idx) :
    i ∈ ((cfg3.win 4).blk t).view.set
      ↔ ∀ a : Fin 2, win3_4.index t a * S5000x128.size a ≤ (i a).val
          ∧ (i a).val < win3_4.index t a * S5000x128.size a + S5000x128.size a := by
  show i ∈ ((View.whole main_v75_0).slice (win3_4.rect t)).set ↔ _
  rw [View.set_slice_whole, Rect.mem_set_unit]
  exact Iff.rfl

/-- Every index of the first output is in some point's block: row `r` is in block `r / 5000`. -/
theorem cover3_4 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, -, -, e40, e41, -⟩ := idx_facts3 ⟨(i 0).val / 5000, ht⟩
  refine ⟨⟨(i 0).val / 5000, ht⟩, flush3_4 _, ?_⟩
  rw [mem_blk3_4]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [e41]; omega

/-- The first output after the region: the combination of the arrays as the region finds them. -/
theorem final3_y (c : Dev nD) : (dat3 (F := Ideal) V c).arrAt 4 cfg3.N = Y3 V c :=
  (dat3 V c).arrAt_eq_of_cover 4 _ (fun t _ => flushed3_4_eq V c t) cover3_4

/-- After point `n` the first accumulator holds, in column `q`, the total of the combination over the first
    `5000·(n + 1)` rows: by induction on the point, each point adding its block's column sums. -/
theorem acc3_0_eq (c : Dev nD) (q : Fin 128) : ∀ (n : ℕ) (hn : n < cfg3.N),
    (outsAt3 V c n hn).2.2.2.1 (ix2 (0 : Fin 1) q)
      = ∑ m ∈ Finset.range (5000 * (n + 1)), Cert.Lib.ext0 (fun r : Fin 100000 => Y3 V c (ix2 r q)) m
  | 0, hn => by
    have hN : cfg3.N = 20 := N_3
    have h19 : ¬(0 : ℕ) = 19 := by decide
    have e := outsAt3_A V c ⟨0, hn⟩ rfl h19
    rw [show outsAt3 V c 0 hn = _ from e]
    dsimp only
    rw [sout3_A_0_eq (F := Ideal) c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => h19 ((hcond3_1 ⟨0, hn⟩).mp h)) (iblk3 V c 0 ⟨0, hn⟩) (iblk3 V c 1 ⟨0, hn⟩) (iblk3 V c 2 ⟨0, hn⟩) (iblk3 V c 3 ⟨0, hn⟩)]
    rw [colsum3_apply, zero3_0_apply, zero_add,
      Cert.Lib.sum_range_block (fun r : Fin 100000 => Y3 V c (ix2 r q)) 5000 0 (by norm_num),
      show ∑ m ∈ Finset.range (5000 * 0), Cert.Lib.ext0 (fun r : Fin 100000 => Y3 V c (ix2 r q)) m = 0 from by
        rw [Nat.mul_zero, Finset.range_zero, Finset.sum_empty],
      zero_add]
    exact Finset.sum_congr rfl (fun k _ => comb3_blk V c ⟨0, hn⟩ k q ⟨5000 * 0 + k.val, by have := k.isLt; omega⟩ rfl)
  | n + 1, hn => by
    have hN : cfg3.N = 20 := N_3
    have hn20 : n + 1 < 20 := hN ▸ hn
    have ih := acc3_0_eq c q n (Nat.lt_of_succ_lt hn)
    have hstep := Cert.Lib.sum_range_block (fun r : Fin 100000 => Y3 V c (ix2 r q)) 5000 (n + 1) (by omega)
    by_cases h1 : n + 1 = 19
    · have e := outsAt3_C V c ⟨n + 1, hn⟩ (Nat.succ_ne_zero n) h1
      rw [show outsAt3 V c (n + 1) hn = _ from e]
      dsimp only
      rw [sout3_C_0_eq (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 V c ((⟨n + 1, hn⟩ : Fin cfg3.N).val - 1) (Nat.lt_of_le_of_lt (Nat.sub_le _ _) (⟨n + 1, hn⟩ : Fin cfg3.N).isLt)).2.2.2.1 (outsAt3 V c ((⟨n + 1, hn⟩ : Fin cfg3.N).val - 1) (Nat.lt_of_le_of_lt (Nat.sub_le _ _) (⟨n + 1, hn⟩ : Fin cfg3.N).isLt)).2.2.2.2]
      rw [colsum3_apply, hstep]
      exact congrArg₂ (· + ·) ih (Finset.sum_congr rfl (fun k _ => comb3_blk V c ⟨n + 1, hn⟩ k q ⟨5000 * (n + 1) + k.val, by have := k.isLt; omega⟩ rfl))
    · have e := outsAt3_B V c ⟨n + 1, hn⟩ (Nat.succ_ne_zero n) h1
      rw [show outsAt3 V c (n + 1) hn = _ from e]
      dsimp only
      rw [sout3_B_0_eq (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 V c ((⟨n + 1, hn⟩ : Fin cfg3.N).val - 1) (Nat.lt_of_le_of_lt (Nat.sub_le _ _) (⟨n + 1, hn⟩ : Fin cfg3.N).isLt)).2.2.2.1 (outsAt3 V c ((⟨n + 1, hn⟩ : Fin cfg3.N).val - 1) (Nat.lt_of_le_of_lt (Nat.sub_le _ _) (⟨n + 1, hn⟩ : Fin cfg3.N).isLt)).2.2.2.2]
      rw [colsum3_apply, hstep]
      exact congrArg₂ (· + ·) ih (Finset.sum_congr rfl (fun k _ => comb3_blk V c ⟨n + 1, hn⟩ k q ⟨5000 * (n + 1) + k.val, by have := k.isLt; omega⟩ rfl))

/-- After point `n` the second accumulator holds, in column `q`, the total of the squared combination over the first
    `5000·(n + 1)` rows: by induction on the point, each point adding its block's column sums of squares. -/
theorem acc3_1_eq (c : Dev nD) (q : Fin 128) : ∀ (n : ℕ) (hn : n < cfg3.N),
    (outsAt3 V c n hn).2.2.2.2 (ix2 (0 : Fin 1) q)
      = ∑ m ∈ Finset.range (5000 * (n + 1)), Cert.Lib.ext0 (fun r : Fin 100000 => Y3 V c (ix2 r q) * Y3 V c (ix2 r q)) m
  | 0, hn => by
    have hN : cfg3.N = 20 := N_3
    have h19 : ¬(0 : ℕ) = 19 := by decide
    have e := outsAt3_A V c ⟨0, hn⟩ rfl h19
    rw [show outsAt3 V c 0 hn = _ from e]
    dsimp only
    rw [sout3_A_1_eq (F := Ideal) c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) scM3_1 (Memref.isWhole_whole _) ((hcond3_0 ⟨0, hn⟩).mpr rfl) (fun h => h19 ((hcond3_1 ⟨0, hn⟩).mp h)) (iblk3 V c 0 ⟨0, hn⟩) (iblk3 V c 1 ⟨0, hn⟩) (iblk3 V c 2 ⟨0, hn⟩) (iblk3 V c 3 ⟨0, hn⟩)]
    rw [colsumsq3_apply, zero3_1_apply, zero_add,
      Cert.Lib.sum_range_block (fun r : Fin 100000 => Y3 V c (ix2 r q) * Y3 V c (ix2 r q)) 5000 0 (by norm_num),
      show ∑ m ∈ Finset.range (5000 * 0), Cert.Lib.ext0 (fun r : Fin 100000 => Y3 V c (ix2 r q) * Y3 V c (ix2 r q)) m = 0 from by
        rw [Nat.mul_zero, Finset.range_zero, Finset.sum_empty],
      zero_add]
    exact Finset.sum_congr rfl (fun k _ => by rw [comb3_blk V c ⟨0, hn⟩ k q ⟨5000 * 0 + k.val, by have := k.isLt; omega⟩ rfl])
  | n + 1, hn => by
    have hN : cfg3.N = 20 := N_3
    have hn20 : n + 1 < 20 := hN ▸ hn
    have ih := acc3_1_eq c q n (Nat.lt_of_succ_lt hn)
    have hstep := Cert.Lib.sum_range_block (fun r : Fin 100000 => Y3 V c (ix2 r q) * Y3 V c (ix2 r q)) 5000 (n + 1) (by omega)
    by_cases h1 : n + 1 = 19
    · have e := outsAt3_C V c ⟨n + 1, hn⟩ (Nat.succ_ne_zero n) h1
      rw [show outsAt3 V c (n + 1) hn = _ from e]
      dsimp only
      rw [sout3_C_1_eq (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 V c ((⟨n + 1, hn⟩ : Fin cfg3.N).val - 1) (Nat.lt_of_le_of_lt (Nat.sub_le _ _) (⟨n + 1, hn⟩ : Fin cfg3.N).isLt)).2.2.2.1 (outsAt3 V c ((⟨n + 1, hn⟩ : Fin cfg3.N).val - 1) (Nat.lt_of_le_of_lt (Nat.sub_le _ _) (⟨n + 1, hn⟩ : Fin cfg3.N).isLt)).2.2.2.2]
      rw [colsumsq3_apply, hstep]
      exact congrArg₂ (· + ·) ih (Finset.sum_congr rfl (fun k _ => by rw [comb3_blk V c ⟨n + 1, hn⟩ k q ⟨5000 * (n + 1) + k.val, by have := k.isLt; omega⟩ rfl]))
    · have e := outsAt3_B V c ⟨n + 1, hn⟩ (Nat.succ_ne_zero n) h1
      rw [show outsAt3 V c (n + 1) hn = _ from e]
      dsimp only
      rw [sout3_B_1_eq (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) scM3_1 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 V c ((⟨n + 1, hn⟩ : Fin cfg3.N).val - 1) (Nat.lt_of_le_of_lt (Nat.sub_le _ _) (⟨n + 1, hn⟩ : Fin cfg3.N).isLt)).2.2.2.1 (outsAt3 V c ((⟨n + 1, hn⟩ : Fin cfg3.N).val - 1) (Nat.lt_of_le_of_lt (Nat.sub_le _ _) (⟨n + 1, hn⟩ : Fin cfg3.N).isLt)).2.2.2.2]
      rw [colsumsq3_apply, hstep]
      exact congrArg₂ (· + ·) ih (Finset.sum_congr rfl (fun k _ => by rw [comb3_blk V c ⟨n + 1, hn⟩ k q ⟨5000 * (n + 1) + k.val, by have := k.isLt; omega⟩ rfl]))

/-- At the last point output 5's buffer holds what the first accumulator holds. -/
theorem out3_5_eq (c : Dev nD) (t : Fin cfg3.N) (h19 : t.val = 19) :
    (outsAt3 V c t.val t.isLt).2.1 = (outsAt3 V c t.val t.isLt).2.2.2.1 := by
  have h0 : ¬t.val = 0 := by omega
  rw [outsAt3_C V c t h0 h19]
  dsimp only
  rw [out3_C_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h19) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
    sout3_C_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h19) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2]

/-- What the last point writes back to output 5 is the row of column sums of the combination. -/
theorem flushed3_5_eq (c : Dev nD) (t : Fin cfg3.N) (hf : (cfg3.win 5).flush t = true) :
    (dat3 (F := Ideal) V c).flushed 5 t = ((cfg3.win 5).blk t).view.read (Elt Ideal) (sumRow (Y3 V c)) := by
  have hN : cfg3.N = 20 := N_3
  have h19 : t.val = 19 := by have := (flush3_5 t).mp hf; have := t.isLt; omega
  show (cfg3.win 5).cut (grid3.coords t) ((dat3 V c).after 5 t) = _
  rw [after3_5, out3_5_eq V c t h19]
  obtain ⟨-, -, -, -, -, -, -, -, -, -, e0, e1, -⟩ := idx_facts3 t
  have key : ∀ j : S1x128.Idx, (outsAt3 V c t.val t.isLt).2.2.2.1 j
      = sumRow (Y3 V c) (((cfg3.win 5).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg3.win 5).blk t).view.emb (ix2 (0 : Fin 1) q)) 1).val = q.val := by
      show win3_5.index t (1 : Fin 2) * 128 + 1 * q.val = _
      rw [e1]; omega
    have hcol : (fun r : Fin 100000 => Y3 V c (ix2 r ((((cfg3.win 5).blk t).view.emb (ix2 (0 : Fin 1) q)) 1)))
        = fun r : Fin 100000 => Y3 V c (ix2 r q) := by
      have hi : ∀ r : Fin 100000, (ix2 r ((((cfg3.win 5).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y3 V c (ix2 r ((((cfg3.win 5).blk t).view.emb (ix2 (0 : Fin 1) q)) 1))
    rw [Cert.Lib.sum_fin_eq_sum_range, hcol, acc3_0_eq V c q t.val t.isLt, h19]
  generalize (outsAt3 V c t.val t.isLt).2.2.2.1 = X at key ⊢
  generalize sumRow (Y3 V c) = G at key ⊢
  funext j
  exact key j

/-- An index of output 5 is in point `t`'s block iff each coordinate is in the block's range on its axis. -/
theorem mem_blk3_5 (t : Fin cfg3.N) (i : S1x128.Idx) :
    i ∈ ((cfg3.win 5).blk t).view.set
      ↔ ∀ a : Fin 2, win3_5.index t a * S1x128.size a ≤ (i a).val
          ∧ (i a).val < win3_5.index t a * S1x128.size a + S1x128.size a := by
  show i ∈ ((View.whole main_v75_1).slice (win3_5.rect t)).set ↔ _
  rw [View.set_slice_whole, Rect.mem_set_unit]
  exact Iff.rfl

/-- The last point's block is the whole of output 5. -/
theorem cover3_5 (i : S1x128.Idx) :
    ∃ t : Fin cfg3.N, (cfg3.win 5).flush t = true ∧ i ∈ ((cfg3.win 5).blk t).view.set := by
  have hi0 : (i 0).val < 1 := (i 0).isLt
  have hi1 : (i 1).val < 128 := (i 1).isLt
  have hN : cfg3.N = 20 := N_3
  have ht : 19 < cfg3.N := by rw [hN]; omega
  obtain ⟨-, -, -, -, -, -, -, -, -, -, e0, e1, -⟩ := idx_facts3 ⟨19, ht⟩
  refine ⟨⟨19, ht⟩, (flush3_5 _).mpr rfl, ?_⟩
  rw [mem_blk3_5]
  intro a
  match a with
  | ⟨0, _⟩ =>
    show win3_5.index ⟨19, ht⟩ (0 : Fin 2) * 1 ≤ (i 0).val ∧ (i 0).val < win3_5.index ⟨19, ht⟩ (0 : Fin 2) * 1 + 1
    rw [e0]; omega
  | ⟨1, _⟩ =>
    show win3_5.index ⟨19, ht⟩ (1 : Fin 2) * 128 ≤ (i 1).val ∧ (i 1).val < win3_5.index ⟨19, ht⟩ (1 : Fin 2) * 128 + 128
    rw [e1]; omega

/-- Output 5 after the region: the row of column sums of the combination over all 100000 rows. -/
theorem final3_sum (c : Dev nD) : (dat3 (F := Ideal) V c).arrAt 5 cfg3.N = sumRow (Y3 V c) :=
  (dat3 V c).arrAt_eq_of_cover 5 _ (fun t hf => flushed3_5_eq V c t hf) cover3_5

/-- At the last point output 6's buffer holds what the second accumulator holds. -/
theorem out3_6_eq (c : Dev nD) (t : Fin cfg3.N) (h19 : t.val = 19) :
    (outsAt3 V c t.val t.isLt).2.2.1 = (outsAt3 V c t.val t.isLt).2.2.2.2 := by
  have h0 : ¬t.val = 0 := by omega
  rw [outsAt3_C V c t h0 h19]
  dsimp only
  rw [out3_C_6_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h19) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
    sout3_C_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h19) (iblk3 V c 0 t) (iblk3 V c 1 t) (iblk3 V c 2 t) (iblk3 V c 3 t) (outsAt3 V c (t.val - 1) (Nat.lt_of_le_of_lt (Nat.sub_le _ _) t.isLt)).2.2.2.1 (outsAt3 V c (t.val - 1) (Nat.lt_of_le_of_lt (Nat.sub_le _ _) t.isLt)).2.2.2.2]

/-- What the last point writes back to output 6 is the row of column sums of squares of the combination. -/
theorem flushed3_6_eq (c : Dev nD) (t : Fin cfg3.N) (hf : (cfg3.win 6).flush t = true) :
    (dat3 (F := Ideal) V c).flushed 6 t = ((cfg3.win 6).blk t).view.read (Elt Ideal) (sumSqRow (Y3 V c)) := by
  have hN : cfg3.N = 20 := N_3
  have h19 : t.val = 19 := by have := (flush3_6 t).mp hf; have := t.isLt; omega
  show (cfg3.win 6).cut (grid3.coords t) ((dat3 V c).after 6 t) = _
  rw [after3_6, out3_6_eq V c t h19]
  obtain ⟨-, -, -, -, -, -, -, -, -, -, -, -, e0, e1⟩ := idx_facts3 t
  have key : ∀ j : S1x128.Idx, (outsAt3 V c t.val t.isLt).2.2.2.2 j
      = sumSqRow (Y3 V c) (((cfg3.win 6).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg3.win 6).blk t).view.emb (ix2 (0 : Fin 1) q)) 1).val = q.val := by
      show win3_6.index t (1 : Fin 2) * 128 + 1 * q.val = _
      rw [e1]; omega
    have hcol : (fun r : Fin 100000 => Y3 V c (ix2 r ((((cfg3.win 6).blk t).view.emb (ix2 (0 : Fin 1) q)) 1)) * Y3 V c (ix2 r ((((cfg3.win 6).blk t).view.emb (ix2 (0 : Fin 1) q)) 1)))
        = fun r : Fin 100000 => Y3 V c (ix2 r q) * Y3 V c (ix2 r q) := by
      have hi : ∀ r : Fin 100000, (ix2 r ((((cfg3.win 6).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y3 V c (ix2 r ((((cfg3.win 6).blk t).view.emb (ix2 (0 : Fin 1) q)) 1)) * Y3 V c (ix2 r ((((cfg3.win 6).blk t).view.emb (ix2 (0 : Fin 1) q)) 1))
    rw [Cert.Lib.sum_fin_eq_sum_range, hcol, acc3_1_eq V c q t.val t.isLt, h19]
  generalize (outsAt3 V c t.val t.isLt).2.2.2.2 = X at key ⊢
  generalize sumSqRow (Y3 V c) = G at key ⊢
  funext j
  exact key j

/-- An index of output 6 is in point `t`'s block iff each coordinate is in the block's range on its axis. -/
theorem mem_blk3_6 (t : Fin cfg3.N) (i : S1x128.Idx) :
    i ∈ ((cfg3.win 6).blk t).view.set
      ↔ ∀ a : Fin 2, win3_6.index t a * S1x128.size a ≤ (i a).val
          ∧ (i a).val < win3_6.index t a * S1x128.size a + S1x128.size a := by
  show i ∈ ((View.whole main_v75_2).slice (win3_6.rect t)).set ↔ _
  rw [View.set_slice_whole, Rect.mem_set_unit]
  exact Iff.rfl

/-- The last point's block is the whole of output 6. -/
theorem cover3_6 (i : S1x128.Idx) :
    ∃ t : Fin cfg3.N, (cfg3.win 6).flush t = true ∧ i ∈ ((cfg3.win 6).blk t).view.set := by
  have hi0 : (i 0).val < 1 := (i 0).isLt
  have hi1 : (i 1).val < 128 := (i 1).isLt
  have hN : cfg3.N = 20 := N_3
  have ht : 19 < cfg3.N := by rw [hN]; omega
  obtain ⟨-, -, -, -, -, -, -, -, -, -, -, -, e0, e1⟩ := idx_facts3 ⟨19, ht⟩
  refine ⟨⟨19, ht⟩, (flush3_6 _).mpr rfl, ?_⟩
  rw [mem_blk3_6]
  intro a
  match a with
  | ⟨0, _⟩ =>
    show win3_6.index ⟨19, ht⟩ (0 : Fin 2) * 1 ≤ (i 0).val ∧ (i 0).val < win3_6.index ⟨19, ht⟩ (0 : Fin 2) * 1 + 1
    rw [e0]; omega
  | ⟨1, _⟩ =>
    show win3_6.index ⟨19, ht⟩ (1 : Fin 2) * 128 ≤ (i 1).val ∧ (i 1).val < win3_6.index ⟨19, ht⟩ (1 : Fin 2) * 128 + 128
    rw [e1]; omega

/-- Output 6 after the region: the row of column sums of squares of the combination over all 100000 rows. -/
theorem final3_sumsq (c : Dev nD) : (dat3 (F := Ideal) V c).arrAt 6 cfg3.N = sumSqRow (Y3 V c) :=
  (dat3 V c).arrAt_eq_of_cover 6 _ (fun t hf => flushed3_6_eq V c t hf) cover3_6

end Cert.KernelIdeal.HandValue

end
-- ==== Proof.KIValue4.lean ====
import proofs.«163161_j55817394979591_1_alg».proof.Proof.KIRegion4
import proofs.«163161_j55817394979591_1_alg».proof.Proof.KIValue2
import proofs.«163161_j55817394979591_1_alg».proof.Proof.NetDefs
import Idealize.ShloMosaic.PureOps.Ideal.Laws
import Idealize.ShloMosaic.Lib.Pipeline.Value
import Idealize.ShloMosaic.Lib.ValueIdx

/-!
# Region 4 of @main as a function of whole arrays: batch normalisation and the rectifier

The region's twenty points each write rows `5000·t … 5000·t + 4999` of the output: the matching rows of `y`,
centred by the row of means, scaled by the row of scales and by the reciprocal square root of the row of
variances plus epsilon, shifted by the row of shifts, and cut below at zero.  So the output array ends as that
function of `y` and the four rows, entry by entry.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The body's payload at entry `(p, q)` of a block, over the block of `y` and the rows in the order the body
    loads them (variance, scale, mean, shift). -/
theorem pay4_apply (x0 : Vec Ideal S5000x128 .f32) (xv xg xm xb : Vec Ideal S1x128 .f32)
    (p : Fin 5000) (q : Fin 128) :
    k4_pay1 x0 xv xg xm xb (ix2 p q)
      = max (xg (ix2 (0 : Fin 1) q) * (x0 (ix2 p q) - xm (ix2 (0 : Fin 1) q))
          * Ideal.rsqrt (xv (ix2 (0 : Fin 1) q) + Ideal.ofBits .f32 0x3727C5AC#32)
        + xb (ix2 (0 : Fin 1) q)) 0 := by
  unfold k4_pay1
  show maximumf _ _ (ix2 p q) = _
  rw [maximumf_apply, addf_apply, mulf_apply, mulf_apply, subf_apply]
  simp only [shapeCast_self, spread_apply]
  rw [broadcast_apply]
  show max (_ * _ * Ideal.rsqrt (xv (ix2 (0 : Fin 1) q) + Ideal.ofBits .f32 0x3727C5AC#32) + _)
      (Ideal.ofBits .f32 0x00000000#32) = _
  rw [Ideal.ofBits_zero_f32]

-- the TensorCore's buffer contents when the region is entered
variable (V : (c : Dev nD) → (b : Ref sig .tc) → Buf (Elt Ideal) ((c : Thread nD τ).loc b))

/-- The printed index maps, decided over the twenty points: the y window and the output window sit at row block `t`,
    the four row windows at block `(0, 0)`. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The y window's block at point `t` is rows `5000·t …` of `y`. -/
theorem yblk4_apply (c : Dev nD) (t : Fin cfg4.N) (y : S5000x128.Idx) (i : S100000x128.Idx)
    (h0 : (i 0).val = 5000 * t.val + (y 0).val) (h1 : (i 1).val = (y 1).val) :
    (iblk4 V c 0 t : Vec Ideal S5000x128 .f32) y = (V c main_v75_0 : S100000x128.Idx → EReal) i := by
  obtain ⟨e00, e01, -⟩ := idx_facts4 t
  unfold iblk4
  rw [View.read_apply]
  show (V c main_v75_0 : S100000x128.Idx → EReal) _ = _
  congr 1
  funext a
  apply Fin.ext
  match a with
  | ⟨0, _⟩ => show win4_0.index t (0 : Fin 2) * 5000 + 1 * (y 0).val = (i 0).val; rw [e00, h0]; omega
  | ⟨1, _⟩ => show win4_0.index t (1 : Fin 2) * 128 + 1 * (y 1).val = (i 1).val; rw [e01, h1]; omega

/-- The window of means at every point is the whole row of means. -/
theorem mublk4_apply (c : Dev nD) (t : Fin cfg4.N) (y : S1x128.Idx) :
    (iblk4 V c 1 t : Vec Ideal S1x128 .f32) y = (V c main_v77 : S1x128.Idx → EReal) y := by
  obtain ⟨-, -, e0, e1, -⟩ := idx_facts4 t
  unfold iblk4
  rw [View.read_apply]
  show (V c main_v77 : S1x128.Idx → EReal) _ = _
  congr 1
  funext a
  apply Fin.ext
  match a with
  | ⟨0, _⟩ => show win4_1.index t (0 : Fin 2) * 1 + 1 * (y 0).val = (y 0).val; rw [e0]; omega
  | ⟨1, _⟩ => show win4_1.index t (1 : Fin 2) * 128 + 1 * (y 1).val = (y 1).val; rw [e1]; omega

/-- The window of variances at every point is the whole row of variances. -/
theorem varblk4_apply (c : Dev nD) (t : Fin cfg4.N) (y : S1x128.Idx) :
    (iblk4 V c 2 t : Vec Ideal S1x128 .f32) y = (V c main_v81 : S1x128.Idx → EReal) y := by
  obtain ⟨-, -, -, -, e0, e1, -⟩ := idx_facts4 t
  unfold iblk4
  rw [View.read_apply]
  show (V c main_v81 : S1x128.Idx → EReal) _ = _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- The window of scales at every point is the whole row of scales. -/
theorem gammablk4_apply (c : Dev nD) (t : Fin cfg4.N) (y : S1x128.Idx) :
    (iblk4 V c 3 t : Vec Ideal S1x128 .f32) y = (V c main_v84 : S1x128.Idx → EReal) y := by
  obtain ⟨-, -, -, -, -, -, e0, e1, -⟩ := idx_facts4 t
  unfold iblk4
  rw [View.read_apply]
  show (V c main_v84 : S1x128.Idx → EReal) _ = _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The window of shifts at every point is the whole row of shifts. -/
theorem betablk4_apply (c : Dev nD) (t : Fin cfg4.N) (y : S1x128.Idx) :
    (iblk4 V c 4 t : Vec Ideal S1x128 .f32) y = (V c main_v87 : S1x128.Idx → EReal) y := by
  obtain ⟨-, -, -, -, -, -, -, -, e0, e1, -⟩ := idx_facts4 t
  unfold iblk4
  rw [View.read_apply]
  show (V c main_v87 : S1x128.Idx → EReal) _ = _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- What point `t` writes back is block `t` of the normalised, rectified array of the arrays as the region finds
    them. -/
theorem flushed4_eq (c : Dev nD) (t : Fin cfg4.N) :
    (dat4 (F := Ideal) V c).flushed 5 t
      = ((cfg4.win 5).blk t).view.read (Elt Ideal)
          (normRelu (V c main_v75_0) (V c main_v77) (V c main_v81) (V c main_v84) (V c main_v87)) := by
  show (cfg4.win 5).cut (grid4.coords t) ((dat4 V c).after 5 t) = _
  rw [after4_5]
  unfold out4_5
  rw [View.canon_unit_zero origin2]
  simp only [View.ld_unit_zero (S := S5000x128) origin2, View.ld_unit_zero (S := S1x128) origin2]
  obtain ⟨-, -, -, -, -, -, -, -, -, -, e50, e51⟩ := idx_facts4 t
  have key : ∀ j : S5000x128.Idx,
      k4_pay1 (iblk4 V c 0 t) (iblk4 V c 2 t) (iblk4 V c 3 t) (iblk4 V c 1 t) (iblk4 V c 4 t) j
        = normRelu (V c main_v75_0) (V c main_v77) (V c main_v81) (V c main_v84) (V c main_v87)
            (((cfg4.win 5).blk t).view.emb j) := by
    intro j
    obtain ⟨p, q, rfl⟩ : ∃ (p : Fin 5000) (q : Fin 128), j = ix2 p q := ⟨j 0, j 1, eq_ix2 j⟩
    have hv0 : ((((cfg4.win 5).blk t).view.emb (ix2 p q)) 0).val = 5000 * t.val + p.val := by
      show win4_5.index t (0 : Fin 2) * 5000 + 1 * p.val = _
      rw [e50]; omega
    have hv1 : ((((cfg4.win 5).blk t).view.emb (ix2 p q)) 1).val = q.val := by
      show win4_5.index t (1 : Fin 2) * 128 + 1 * q.val = _
      rw [e51]; omega
    have hq : (ix2 (0 : Fin 1) ((((cfg4.win 5).blk t).view.emb (ix2 p q)) 1) : S1x128.Idx) = ix2 (0 : Fin 1) q := by
      funext a
      apply Fin.ext
      match a with
      | ⟨0, _⟩ => rfl
      | ⟨1, _⟩ => exact hv1
    rw [pay4_apply]
    unfold normRelu Cert.Net.normReluAt
    rw [hq, mublk4_apply V c t, varblk4_apply V c t, gammablk4_apply V c t, betablk4_apply V c t,
      yblk4_apply V c t (ix2 p q) (ix2 ((((cfg4.win 5).blk t).view.emb (ix2 p q)) 0)
        ((((cfg4.win 5).blk t).view.emb (ix2 p q)) 1)) hv0 hv1]
  funext j
  exact key j

/-- An index of the output array is in point `t`'s block iff each coordinate is in the block's range on its axis. -/
theorem mem_blk4 (t : Fin cfg4.N) (i : S100000x128.Idx) :
    i ∈ ((cfg4.win 5).blk t).view.set
      ↔ ∀ a : Fin 2, win4_5.index t a * S5000x128.size a ≤ (i a).val
          ∧ (i a).val < win4_5.index t a * S5000x128.size a + S5000x128.size a := by
  show i ∈ ((View.whole main_v88).slice (win4_5.rect t)).set ↔ _
  rw [View.set_slice_whole, Rect.mem_set_unit]
  exact Iff.rfl

/-- Every index of the output array is in some point's block: row `r` is in block `r / 5000`. -/
theorem cover4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨-, -, -, -, -, -, -, -, -, -, e50, e51⟩ := idx_facts4 ⟨(i 0).val / 5000, ht⟩
  refine ⟨⟨(i 0).val / 5000, ht⟩, flush4_5 _, ?_⟩
  rw [mem_blk4]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    rw [e51]; omega

/-- The output array after the region: the normalised, rectified array of the arrays as the region finds them. -/
theorem final4 (c : Dev nD) :
    (dat4 (F := Ideal) V c).arrAt 5 cfg4.N
      = normRelu (V c main_v75_0) (V c main_v77) (V c main_v81) (V c main_v84) (V c main_v87) :=
  (dat4 V c).arrAt_eq_of_cover 5 _ (fun t _ => flushed4_eq V c t) cover4

end Cert.KernelIdeal.HandValue

end
-- ==== Proof.KIValue5a.lean ====
import proofs.«163161_j55817394979591_1_alg».proof.Proof.Gen.KernelIdeal.Skeleton
import proofs.«163161_j55817394979591_1_alg».proof.Proof.LibMatmulPlain
import proofs.«163161_j55817394979591_1_alg».proof.Proof.NetDefs
import Idealize.ShloMosaic.PureOps.Ideal.Laws
import Idealize.ShloMosaic.Lib.Pipeline.Value
import Idealize.ShloMosaic.Lib.ValueIdx

/-!
# Region 5 of @main: the body's payloads, entry by entry

The body computes one block of the layer's combination (two matrix products and four scalings, added left
to right), adds that block's column sums and the column sums of its squares onto two rows, and starts those
rows from zero.
-/

noncomputable section

namespace Cert.KernelIdeal.HandValue

open Cert.KernelIdeal Cert.KernelIdeal.Gen
open Idealize.ShloMosaic Idealize.ShloMosaic.ValueIdx
open scoped BigOperators

/-- The combination's payload at entry `(r, j)` of a block, from the blocks of the aggregate and the projection and
    the two weight matrices. -/
theorem comb5_apply (a p : Vec Ideal S5000x128 .f32) (W1 W2 : Vec Ideal S128x128 .f32) (r : Fin 5000) (j : Fin 128) :
    k5_pay5 a p W1 W2 (ix2 r j)
      = Named.named (F := Ideal) κ "one_minus_beta_2" (φ := .f32) 0x3F365A78#32 * (Ideal.ofBits .f32 0x3F000000#32 * a (ix2 r j))
        + Ideal.ofBits .f32 0x3E934B11#32
            * (∑ k : Fin 128, (Ideal.ofBits .f32 0x3F000000#32 * a (ix2 r k)) * W1 (ix2 k j))
        + Named.named (F := Ideal) κ "one_minus_beta_2" (φ := .f32) 0x3F365A78#32 * (Ideal.ofBits .f32 0x3F000000#32 * p (ix2 r j))
        + Ideal.ofBits .f32 0x3E934B11#32
            * (∑ k : Fin 128, (Ideal.ofBits .f32 0x3F000000#32 * p (ix2 r k)) * W2 (ix2 k j)) := by
  unfold k5_pay5
  show addf _ _ (ix2 r j) = _
  simp only [addf_apply, mulf_apply, broadcast_apply, shapeCast_self]
  refine congrArg₂ (· + ·) (congrArg₂ (· + ·) (congrArg₂ (· + ·) rfl ?_) rfl) ?_
  · exact congrArg (Ideal.ofBits .f32 0x3E934B11#32 * ·)
      (MatmulPlain.matmul_zero_apply dot_S5000x128_S128x128_S5000x128_1_0_0_1_n_n_wf none
        (truncf .bf16 (mulf (broadcast S5000x128 (Scalar.ofBits (F := Ideal) .f32 0x3F000000#32)) a) bitsLt_bf16_f32)
        (truncf .bf16 W1 bitsLt_bf16_f32) r j)
  · exact congrArg (Ideal.ofBits .f32 0x3E934B11#32 * ·)
      (MatmulPlain.matmul_zero_apply dot_S5000x128_S128x128_S5000x128_1_0_0_1_n_n_wf none
        (truncf .bf16 (mulf (broadcast S5000x128 (Scalar.ofBits (F := Ideal) .f32 0x3F000000#32)) p) bitsLt_bf16_f32)
        (truncf .bf16 W2 bitsLt_bf16_f32) r j)

/-- The column-sum payload at entry `(0, q)`: the row's entry plus the sum of the block's column `q`. -/
theorem colsum5_apply (v : FVec Ideal S5000x128 .f32) (acc : FVec Ideal S1x128 .f32) (q : Fin 128) :
    k5_pay1 v acc (ix2 (0 : Fin 1) q) = acc (ix2 (0 : Fin 1) q) + ∑ k : Fin 5000, v (ix2 k q) := by
  unfold k5_pay1
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single v 0x00000000#32 reduces_S5000x128_S128 (.inl rfl) rfl _).trans ?_
  exact Finset.sum_congr rfl fun k _ => congrArg v (funext fun a => Fin.ext (by
    match a with
    | ⟨0, _⟩ => rfl
    | ⟨1, _⟩ => rfl))

/-- The sum-of-squares payload at entry `(0, q)`: the row's entry plus the sum of the squares of the block's
    column `q`. -/
theorem colsumsq5_apply (v : FVec Ideal S5000x128 .f32) (acc : FVec Ideal S1x128 .f32) (q : Fin 128) :
    k5_pay2 v acc (ix2 (0 : Fin 1) q) = acc (ix2 (0 : Fin 1) q) + ∑ k : Fin 5000, v (ix2 k q) * v (ix2 k q) := by
  unfold k5_pay2
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single (mulf v v) 0x00000000#32 reduces_S5000x128_S128 (.inl rfl) rfl _).trans ?_
  exact Finset.sum_congr rfl fun k _ => congrArg (fun i => v i * v i) (funext fun a => Fin.ext (by
    match a with
    | ⟨0, _⟩ => rfl
    | ⟨1, _⟩ => rfl))

/-- The two rows start from zero. -/
theorem zero5_0_apply (i : S1x128.Idx) : k5_pay3 (F := Ideal) i = 0 := by
  unfold k5_pay3
  show shapeCast S1x128 (broadcast S1x128 (Scalar.ofBits (F := Ideal) .f32 0x00000000#32)) shapeCasts_S1x128_S1x128 i = 0
  rw [shapeCast_self, broadcast_apply]
  exact Ideal.ofBits_zero_f32

theorem zero5_1_apply (i : S1x128.Idx) : k5_pay4 (F := Ideal) i = 0 := by
  unfold k5_pay4
  show shapeCast S1x128 (broadcast S1x128 (Scalar.ofBits (F := Ideal) .f32 0x00000000#32)) shapeCasts_S1x128_S1x128 i = 0
  rw [shapeCast_self, broadcast_apply]
  exact Ideal.ofBits_zero_f32

end Cert.KernelIdeal.HandValue

end
-- ==== Proof.KIValue5b.lean ====
import proofs.«163161_j55817394979591_1_alg».proof.Proof.KIRegion5
import Idealize.ShloMosaic.Lib.Pipeline.Value
import Idealize.ShloMosaic.Lib.Tactic

/-!
# Region 5 of @main: what each control case leaves, as payloads of the blocks

At every point the result block's buffer ends at the combination payload of the four input blocks. The two
accumulator rows end at the column-sum and sum-of-squares payloads of that block over what they held: over
the zero rows at the first point, over the previous point's rows afterwards. At the last point outputs 5 and 6
receive the two rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic

variable {F : FTy → Type} [FloatOps F] [Named F]

/-- The offset `(0, 0)` of a whole block is the zero function. -/
theorem origin5 : (![0, 0] : Fin 2 → Nat) = fun _ => 0 := funext fun a => by fin_cases a <;> rfl

/-- The first point leaves the combination of the blocks in the result block's buffer. -/
theorem out5_A_4_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) :
    out5_A_4 c i arg1 harg1 arg2 harg2 arg3 harg3 arg4 harg4 arg5 harg5 arg6 harg6 arg7 harg7 arg8 harg8 arg9 harg9 hc0 hc1 x0 x1 x2 x3 = k5_pay5 x0 x1 x2 x3 := by
  unfold out5_A_4
  rw [View.read_writes_eq_canon _ _ _ (cover5_A_4 c i arg1 harg1 arg2 harg2 arg3 harg3 arg4 harg4 arg5 harg5 arg6 harg6 arg7 harg7 arg8 harg8 arg9 harg9 hc0 hc1 x0 x1 x2 x3)]
  unfold kernelRun5_A
  dsimp only
  try sl_unfold_words
  rw [View.canon_unit_zero origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- So does every middle point, -/
theorem out5_B_4_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    out5_B_4 c i arg1 harg1 arg2 harg2 arg3 harg3 arg4 harg4 arg5 harg5 arg6 harg6 arg7 harg7 arg8 harg8 arg9 harg9 hc0 hc1 x0 x1 x2 x3 xs0 xs1 = k5_pay5 x0 x1 x2 x3 := by
  unfold out5_B_4
  rw [View.read_writes_eq_canon _ _ _ (cover5_B_4 c i arg1 harg1 arg2 harg2 arg3 harg3 arg4 harg4 arg5 harg5 arg6 harg6 arg7 harg7 arg8 harg8 arg9 harg9 hc0 hc1 x0 x1 x2 x3 xs0 xs1)]
  unfold kernelRun5_B
  dsimp only
  try sl_unfold_words
  rw [View.canon_unit_zero origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- and the last point. -/
theorem out5_C_4_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    out5_C_4 c i arg1 harg1 arg2 harg2 arg3 harg3 arg4 harg4 arg5 harg5 arg6 harg6 arg7 harg7 arg8 harg8 arg9 harg9 hc0 hc1 x0 x1 x2 x3 xs0 xs1 = k5_pay5 x0 x1 x2 x3 := by
  unfold out5_C_4
  rw [View.read_writes_eq_canon _ _ _ (cover5_C_4 c i arg1 harg1 arg2 harg2 arg3 harg3 arg4 harg4 arg5 harg5 arg6 harg6 arg7 harg7 arg8 harg8 arg9 harg9 hc0 hc1 x0 x1 x2 x3 xs0 xs1)]
  unfold kernelRun5_C
  dsimp only
  try sl_unfold_words
  rw [View.canon_unit_zero origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- The first point leaves in the first accumulator the block's column sums over the zero row, -/
theorem sout5_A_0_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) :
    sout5_A_0 c i arg1 harg1 arg2 harg2 arg3 harg3 arg4 harg4 arg5 harg5 arg6 harg6 arg7 harg7 arg8 harg8 arg9 harg9 hc0 hc1 x0 x1 x2 x3 = k5_pay1 (k5_pay5 x0 x1 x2 x3) (k5_pay3 (F := F)) := by
  unfold sout5_A_0
  rw [View.read_writes_eq_canon _ _ _ (scover5_A_0 c i arg1 harg1 arg2 harg2 arg3 harg3 arg4 harg4 arg5 harg5 arg6 harg6 arg7 harg7 arg8 harg8 arg9 harg9 hc0 hc1 x0 x1 x2 x3)]
  unfold kernelRun5_A
  dsimp only
  try sl_unfold_words
  rw [View.canon_cons_unit_zero (S := S1x128) origin5, View.readCov_unit_zero (S := S1x128) _ origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- and in the second the column sums of its squares over the zero row. -/
theorem sout5_A_1_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond5_0 i) (hc1 : ¬cond5_1 i)
    (x0 : Vec F S5000x128 .f32) (x1 : Vec F S5000x128 .f32) (x2 : Vec F S128x128 .f32) (x3 : Vec F S128x128 .f32) :
    sout5_A_1 c i arg1 harg1 arg2 harg2 arg3 harg3 arg4 harg4 arg5 harg5 arg6 harg6 arg7 harg7 arg8 harg8 arg9 harg9 hc0 hc1 x0 x1 x2 x3 = k5_pay2 (k5_pay5 x0 x1 x2 x3) (k5_pay4 (F := F)) := by
  unfold sout5_A_1
  rw [View.read_writes_eq_canon _ _ _ (scover5_A_1 c i arg1 harg1 arg2 harg2 arg3 harg3 arg4 harg4 arg5 harg5 arg6 harg6 arg7 harg7 arg8 harg8 arg9 harg9 hc0 hc1 x0 x1 x2 x3)]
  unfold kernelRun5_A
  dsimp only
  try sl_unfold_words
  rw [View.canon_cons_unit_zero (S := S1x128) origin5, View.readCov_unit_zero (S := S1x128) _ origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- A middle point adds the block's column sums onto the first accumulator, -/
theorem sout5_B_0_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    sout5_B_0 c i arg1 harg1 arg2 harg2 arg3 harg3 arg4 harg4 arg5 harg5 arg6 harg6 arg7 harg7 arg8 harg8 arg9 harg9 hc0 hc1 x0 x1 x2 x3 xs0 xs1 = k5_pay1 (k5_pay5 x0 x1 x2 x3) xs0 := by
  unfold sout5_B_0
  rw [View.read_writes_eq_canon _ _ _ (scover5_B_0 c i arg1 harg1 arg2 harg2 arg3 harg3 arg4 harg4 arg5 harg5 arg6 harg6 arg7 harg7 arg8 harg8 arg9 harg9 hc0 hc1 x0 x1 x2 x3 xs0 xs1)]
  unfold kernelRun5_B
  dsimp only
  try sl_unfold_words
  rw [View.canon_unit_zero origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- and the column sums of its squares onto the second. -/
theorem sout5_B_1_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : ¬cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    sout5_B_1 c i arg1 harg1 arg2 harg2 arg3 harg3 arg4 harg4 arg5 harg5 arg6 harg6 arg7 harg7 arg8 harg8 arg9 harg9 hc0 hc1 x0 x1 x2 x3 xs0 xs1 = k5_pay2 (k5_pay5 x0 x1 x2 x3) xs1 := by
  unfold sout5_B_1
  rw [View.read_writes_eq_canon _ _ _ (scover5_B_1 c i arg1 harg1 arg2 harg2 arg3 harg3 arg4 harg4 arg5 harg5 arg6 harg6 arg7 harg7 arg8 harg8 arg9 harg9 hc0 hc1 x0 x1 x2 x3 xs0 xs1)]
  unfold kernelRun5_B
  dsimp only
  try sl_unfold_words
  rw [View.canon_unit_zero origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- The last point does the same to the first accumulator -/
theorem sout5_C_0_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    sout5_C_0 c i arg1 harg1 arg2 harg2 arg3 harg3 arg4 harg4 arg5 harg5 arg6 harg6 arg7 harg7 arg8 harg8 arg9 harg9 hc0 hc1 x0 x1 x2 x3 xs0 xs1 = k5_pay1 (k5_pay5 x0 x1 x2 x3) xs0 := by
  unfold sout5_C_0
  rw [View.read_writes_eq_canon _ _ _ (scover5_C_0 c i arg1 harg1 arg2 harg2 arg3 harg3 arg4 harg4 arg5 harg5 arg6 harg6 arg7 harg7 arg8 harg8 arg9 harg9 hc0 hc1 x0 x1 x2 x3 xs0 xs1)]
  unfold kernelRun5_C
  dsimp only
  try sl_unfold_words
  rw [View.canon_unit_zero origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- and to the second, -/
theorem sout5_C_1_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    sout5_C_1 c i arg1 harg1 arg2 harg2 arg3 harg3 arg4 harg4 arg5 harg5 arg6 harg6 arg7 harg7 arg8 harg8 arg9 harg9 hc0 hc1 x0 x1 x2 x3 xs0 xs1 = k5_pay2 (k5_pay5 x0 x1 x2 x3) xs1 := by
  unfold sout5_C_1
  rw [View.read_writes_eq_canon _ _ _ (scover5_C_1 c i arg1 harg1 arg2 harg2 arg3 harg3 arg4 harg4 arg5 harg5 arg6 harg6 arg7 harg7 arg8 harg8 arg9 harg9 hc0 hc1 x0 x1 x2 x3 xs0 xs1)]
  unfold kernelRun5_C
  dsimp only
  try sl_unfold_words
  rw [View.canon_unit_zero origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- and copies the first accumulator to output 5 -/
theorem out5_C_5_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    out5_C_5 c i arg1 harg1 arg2 harg2 arg3 harg3 arg4 harg4 arg5 harg5 arg6 harg6 arg7 harg7 arg8 harg8 arg9 harg9 hc0 hc1 x0 x1 x2 x3 xs0 xs1 = k5_pay1 (k5_pay5 x0 x1 x2 x3) xs0 := by
  unfold out5_C_5
  rw [View.read_writes_eq_canon _ _ _ (cover5_C_5 c i arg1 harg1 arg2 harg2 arg3 harg3 arg4 harg4 arg5 harg5 arg6 harg6 arg7 harg7 arg8 harg8 arg9 harg9 hc0 hc1 x0 x1 x2 x3 xs0 xs1)]
  unfold kernelRun5_C
  dsimp only
  try sl_unfold_words
  rw [View.canon_unit_zero origin5, View.readCov_unit_zero (S := S1x128) _ origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
/-- and the second to output 6. -/
theorem out5_C_6_eq (c : Dev nD) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond5_0 i) (hc1 : cond5_1 i)
    (x0 : Vec F S5000x128 .f32) (x1 : Vec F S5000x128 .f32) (x2 : Vec F S128x128 .f32) (x3 : Vec F S128x128 .f32) (xs0 : Vec F S1x128 .f32) (xs1 : Vec F S1x128 .f32) :
    out5_C_6 c i arg1 harg1 arg2 harg2 arg3 harg3 arg4 harg4 arg5 harg5 arg6 harg6 arg7 harg7 arg8 harg8 arg9 harg9 hc0 hc1 x0 x1 x2 x3 xs0 xs1 = k5_pay2 (k5_pay5 x0 x1 x2 x3) xs1 := by
  unfold out5_C_6
  rw [View.read_writes_eq_canon _ _ _ (cover5_C_6 c i arg1 harg1 arg2 harg2 arg3 harg3 arg4 harg4 arg5 harg5 arg6 harg6 arg7 harg7 arg8 harg8 arg9 harg9 hc0 hc1 x0 x1 x2 x3 xs0 xs1)]
  unfold kernelRun5_C
  dsimp only
  try sl_unfold_words
  rw [View.canon_unit_zero origin5, View.readCov_unit_zero (S := S1x128) _ origin5]
  simp only [View.readAt_eq_ld, harg1.read_unread, harg2.read_unread, harg3.read_unread, harg4.read_unread,
    harg8.read_unread, harg9.read_unread,
    View.ld_unit_zero (S := S5000x128) origin5, View.ld_unit_zero (S := S128x128) origin5,
    View.ld_unit_zero (S := S1x128) origin5]
end Cert.KernelIdeal.HandValue

end
-- ==== Proof.KIValue5.lean ====
import proofs.«163161_j55817394979591_1_alg».proof.Proof.KIValue5a
import proofs.«163161_j55817394979591_1_alg».proof.Proof.KIValue5b
import proofs.«163161_j55817394979591_1_alg».proof.Proof.KIValueDefs
import proofs.«163161_j55817394979591_1_alg».proof.Proof.LibBlockSum
import Idealize.ShloMosaic.Lib.Pipeline.Value
import Idealize.ShloMosaic.Lib.ValueIdx

/-!
# Region 5 of @main as functions of whole arrays: the layer's combination and its column totals

The region's twenty points each write rows `5000·t … 5000·t + 4999` of the combination of the aggregate and the
projection through the two weight matrices, and add that block's column sums, and the column sums of its squares,
onto two rows that start from zero; the last point copies the two rows out.  So the first output ends as the
combination entry by entry, and the other two as its column sums and column sums of squares over all 100000 rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-- The layer's combination of the arrays as the region finds them. -/
def Y5 (c : Dev nD) : S100000x128.Idx → EReal :=
  combine (Ideal.ofBits .f32 0x3E934B11#32) (Named.named (F := Ideal) κ "one_minus_beta_2" (φ := .f32) 0x3F365A78#32)
    (V c main_v101) (V c main_v26) (V c main_v103) (V c main_v105)

/-- The printed index maps, decided over the twenty points: the aggregate, projection and result windows sit at row
    block `t`, the two weight windows and the two row outputs at block `(0, 0)`. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- The aggregate window's block at point `t` is rows `5000·t …` of the aggregate. -/
theorem ablk5_apply (c : Dev nD) (t : Fin cfg5.N) (y : S5000x128.Idx) (i : S100000x128.Idx)
    (h0 : (i 0).val = 5000 * t.val + (y 0).val) (h1 : (i 1).val = (y 1).val) :
    (iblk5 V c 0 t : Vec Ideal S5000x128 .f32) y = (V c main_v101 : S100000x128.Idx → EReal) i := by
  obtain ⟨e0, e1, -⟩ := idx_facts5 t
  unfold iblk5
  rw [View.read_apply]
  show (V c main_v101 : S100000x128.Idx → EReal) _ = _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- The projection window's block at point `t` is rows `5000·t …` of the projection. -/
theorem pblk5_apply (c : Dev nD) (t : Fin cfg5.N) (y : S5000x128.Idx) (i : S100000x128.Idx)
    (h0 : (i 0).val = 5000 * t.val + (y 0).val) (h1 : (i 1).val = (y 1).val) :
    (iblk5 V c 1 t : Vec Ideal S5000x128 .f32) y = (V c main_v26 : S100000x128.Idx → EReal) i := by
  obtain ⟨-, -, e0, e1, -⟩ := idx_facts5 t
  unfold iblk5
  rw [View.read_apply]
  show (V c main_v26 : S100000x128.Idx → EReal) _ = _
  congr 1
  funext a
  apply Fin.ext
  match a with
  | ⟨0, _⟩ => show win5_1.index t (0 : Fin 2) * 5000 + 1 * (y 0).val = (i 0).val; rw [e0, h0]; omega
  | ⟨1, _⟩ => show win5_1.index t (1 : Fin 2) * 128 + 1 * (y 1).val = (i 1).val; rw [e1, h1]; omega

/-- The first weight window's block at every point is the whole matrix. -/
theorem w1blk5_apply (c : Dev nD) (t : Fin cfg5.N) (y : S128x128.Idx) :
    (iblk5 V c 2 t : Vec Ideal S128x128 .f32) y = (V c main_v103 : S128x128.Idx → EReal) y := by
  obtain ⟨-, -, -, -, e0, e1, -⟩ := idx_facts5 t
  unfold iblk5
  rw [View.read_apply]
  show (V c main_v103 : S128x128.Idx → EReal) _ = _
  congr 1
  funext a
  apply Fin.ext
  match a with
  | ⟨0, _⟩ => show win5_2.index t (0 : Fin 2) * 128 + 1 * (y 0).val = (y 0).val; rw [e0]; omega
  | ⟨1, _⟩ => show win5_2.index t (1 : Fin 2) * 128 + 1 * (y 1).val = (y 1).val; rw [e1]; omega

/-- The second weight window's block at every point is the whole matrix. -/
theorem w2blk5_apply (c : Dev nD) (t : Fin cfg5.N) (y : S128x128.Idx) :
    (iblk5 V c 3 t : Vec Ideal S128x128 .f32) y = (V c main_v105 : S128x128.Idx → EReal) y := by
  obtain ⟨-, -, -, -, -, -, e0, e1, -⟩ := idx_facts5 t
  unfold iblk5
  rw [View.read_apply]
  show (V c main_v105 : S128x128.Idx → EReal) _ = _
  congr 1
  funext a
  apply Fin.ext
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- The combination payload of the blocks at point `t`, at entry `(k, q)`, is the combination of the whole arrays
    at row `5000·t + k`. -/
theorem comb5_blk (c : Dev nD) (t : Fin cfg5.N) (k : Fin 5000) (q : Fin 128) (r : Fin 100000)
    (hr : r.val = 5000 * t.val + k.val) :
    k5_pay5 (iblk5 V c 0 t) (iblk5 V c 1 t) (iblk5 V c 2 t) (iblk5 V c 3 t) (ix2 k q) = Y5 V c (ix2 r q) := by
  have ha : ∀ j : Fin 128, (iblk5 V c 0 t : Vec Ideal S5000x128 .f32) (ix2 k j)
      = (V c main_v101 : S100000x128.Idx → EReal) (ix2 r j) := fun j => ablk5_apply V c t (ix2 k j) (ix2 r j) hr rfl
  have hp : ∀ j : Fin 128, (iblk5 V c 1 t : Vec Ideal S5000x128 .f32) (ix2 k j)
      = (V c main_v26 : S100000x128.Idx → EReal) (ix2 r j) := fun j => pblk5_apply V c t (ix2 k j) (ix2 r j) hr rfl
  rw [comb5_apply]
  show _ = Cert.Net.combineAt _ _ _ _ _ _ r q
  unfold Cert.Net.combineAt
  refine congrArg₂ (· + ·) (congrArg₂ (· + ·) (congrArg₂ (· + ·) ?_ ?_) ?_) ?_
  · rw [ha q]
  · exact congrArg (_ * ·) (Finset.sum_congr rfl fun j _ => by rw [ha j, w1blk5_apply V c t (ix2 j q)])
  · rw [hp q]
  · exact congrArg (_ * ·) (Finset.sum_congr rfl fun j _ => by rw [hp j, w2blk5_apply V c t (ix2 j q)])

/-- After every point the result block's buffer holds the combination payload of the point's blocks. -/
theorem outs5_4_eq (c : Dev nD) (t : Fin cfg5.N) :
    (outsAt5 V c t.val t.isLt).1 = k5_pay5 (iblk5 V c 0 t) (iblk5 V c 1 t) (iblk5 V c 2 t) (iblk5 V c 3 t) := by
  by_cases h0 : t.val = 0
  · have h1 : ¬t.val = 19 := by omega
    rw [outsAt5_A V c t h0 h1]
    dsimp only
    exact out5_A_4_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t)
  · by_cases h1 : t.val = 19
    · rw [outsAt5_C V c t h0 h1]
      dsimp only
      exact out5_C_4_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2
    · rw [outsAt5_B V c t h0 h1]
      dsimp only
      exact out5_B_4_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2

/-- What point `t` writes back to the first output is block `t` of the combination. -/
theorem flushed5_4_eq (c : Dev nD) (t : Fin cfg5.N) :
    (dat5 (F := Ideal) V c).flushed 4 t = ((cfg5.win 4).blk t).view.read (Elt Ideal) (Y5 V c) := by
  show (cfg5.win 4).cut (grid5.coords t) ((dat5 V c).after 4 t) = _
  rw [after5_4, outs5_4_eq]
  obtain ⟨-, -, -, -, -, -, -, -, e40, e41, -⟩ := idx_facts5 t
  have key : ∀ j : S5000x128.Idx, k5_pay5 (iblk5 V c 0 t) (iblk5 V c 1 t) (iblk5 V c 2 t) (iblk5 V c 3 t) j = Y5 V c (((cfg5.win 4).blk t).view.emb j) := by
    intro j
    obtain ⟨p, q, rfl⟩ : ∃ (p : Fin 5000) (q : Fin 128), j = ix2 p q := ⟨j 0, j 1, eq_ix2 j⟩
    have hv0 : ((((cfg5.win 4).blk t).view.emb (ix2 p q)) 0).val = 5000 * t.val + p.val := by
      show win5_4.index t (0 : Fin 2) * 5000 + 1 * p.val = _
      rw [e40]; omega
    have hv1 : ((((cfg5.win 4).blk t).view.emb (ix2 p q)) 1).val = q.val := by
      show win5_4.index t (1 : Fin 2) * 128 + 1 * q.val = _
      rw [e41]; omega
    rw [comb5_blk V c t p q ((((cfg5.win 4).blk t).view.emb (ix2 p q)) 0) hv0]
    congr 1
    funext a
    apply Fin.ext
    match a with
    | ⟨0, _⟩ => rfl
    | ⟨1, _⟩ => exact hv1.symm
  funext j
  exact key j

/-- An index of the first output is in point `t`'s block iff each coordinate is in the block's range on its axis. -/
theorem mem_blk5_4 (t : Fin cfg5.N) (i : S100000x128.Idx) :
    i ∈ ((cfg5.win 4).blk t).view.set
      ↔ ∀ a : Fin 2, win5_4.index t a * S5000x128.size a ≤ (i a).val
          ∧ (i a).val < win5_4.index t a * S5000x128.size a + S5000x128.size a := by
  show i ∈ ((View.whole main_v106_0).slice (win5_4.rect t)).set ↔ _
  rw [View.set_slice_whole, Rect.mem_set_unit]
  exact Iff.rfl

/-- Every index of the first output is in some point's block: row `r` is in block `r / 5000`. -/
theorem cover5_4 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨-, -, -, -, -, -, -, -, e40, e41, -⟩ := idx_facts5 ⟨(i 0).val / 5000, ht⟩
  refine ⟨⟨(i 0).val / 5000, ht⟩, flush5_4 _, ?_⟩
  rw [mem_blk5_4]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val
      ∧ (i 1).val < win5_4.index ⟨(i 0).val / 5000, ht⟩ (1 : Fin 2) * 128 + 128
    rw [e41]; omega

/-- The first output after the region: the combination of the arrays as the region finds them. -/
theorem final5_y (c : Dev nD) : (dat5 (F := Ideal) V c).arrAt 4 cfg5.N = Y5 V c :=
  (dat5 V c).arrAt_eq_of_cover 4 _ (fun t _ => flushed5_4_eq V c t) cover5_4

/-- After point `n` the first accumulator holds, in column `q`, the total of the combination over the first
    `5000·(n + 1)` rows: by induction on the point, each point adding its block's column sums. -/
theorem acc5_0_eq (c : Dev nD) (q : Fin 128) : ∀ (n : ℕ) (hn : n < cfg5.N),
    (outsAt5 V c n hn).2.2.2.1 (ix2 (0 : Fin 1) q)
      = ∑ m ∈ Finset.range (5000 * (n + 1)), Cert.Lib.ext0 (fun r : Fin 100000 => Y5 V c (ix2 r q)) m
  | 0, hn => by
    have hN : cfg5.N = 20 := N_5
    have h19 : ¬(0 : ℕ) = 19 := by decide
    have e := outsAt5_A V c ⟨0, hn⟩ rfl h19
    rw [show outsAt5 V c 0 hn = _ from e]
    dsimp only
    rw [sout5_A_0_eq (F := Ideal) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => h19 ((hcond5_1 ⟨0, hn⟩).mp h)) (iblk5 V c 0 ⟨0, hn⟩) (iblk5 V c 1 ⟨0, hn⟩) (iblk5 V c 2 ⟨0, hn⟩) (iblk5 V c 3 ⟨0, hn⟩)]
    rw [colsum5_apply, zero5_0_apply, zero_add,
      Cert.Lib.sum_range_block (fun r : Fin 100000 => Y5 V c (ix2 r q)) 5000 0 (by norm_num),
      show ∑ m ∈ Finset.range (5000 * 0), Cert.Lib.ext0 (fun r : Fin 100000 => Y5 V c (ix2 r q)) m = 0 from by
        rw [Nat.mul_zero, Finset.range_zero, Finset.sum_empty],
      zero_add]
    exact Finset.sum_congr rfl (fun k _ => comb5_blk V c ⟨0, hn⟩ k q ⟨5000 * 0 + k.val, by have := k.isLt; omega⟩ rfl)
  | n + 1, hn => by
    have hN : cfg5.N = 20 := N_5
    have hn20 : n + 1 < 20 := hN ▸ hn
    have ih := acc5_0_eq c q n (Nat.lt_of_succ_lt hn)
    have hstep := Cert.Lib.sum_range_block (fun r : Fin 100000 => Y5 V c (ix2 r q)) 5000 (n + 1) (by omega)
    by_cases h1 : n + 1 = 19
    · have e := outsAt5_C V c ⟨n + 1, hn⟩ (Nat.succ_ne_zero n) h1
      rw [show outsAt5 V c (n + 1) hn = _ from e]
      dsimp only
      rw [sout5_C_0_eq (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 V c ((⟨n + 1, hn⟩ : Fin cfg5.N).val - 1) (Nat.lt_of_le_of_lt (Nat.sub_le _ _) (⟨n + 1, hn⟩ : Fin cfg5.N).isLt)).2.2.2.1 (outsAt5 V c ((⟨n + 1, hn⟩ : Fin cfg5.N).val - 1) (Nat.lt_of_le_of_lt (Nat.sub_le _ _) (⟨n + 1, hn⟩ : Fin cfg5.N).isLt)).2.2.2.2]
      rw [colsum5_apply, hstep]
      exact congrArg₂ (· + ·) ih (Finset.sum_congr rfl (fun k _ => comb5_blk V c ⟨n + 1, hn⟩ k q ⟨5000 * (n + 1) + k.val, by have := k.isLt; omega⟩ rfl))
    · have e := outsAt5_B V c ⟨n + 1, hn⟩ (Nat.succ_ne_zero n) h1
      rw [show outsAt5 V c (n + 1) hn = _ from e]
      dsimp only
      rw [sout5_B_0_eq (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 V c ((⟨n + 1, hn⟩ : Fin cfg5.N).val - 1) (Nat.lt_of_le_of_lt (Nat.sub_le _ _) (⟨n + 1, hn⟩ : Fin cfg5.N).isLt)).2.2.2.1 (outsAt5 V c ((⟨n + 1, hn⟩ : Fin cfg5.N).val - 1) (Nat.lt_of_le_of_lt (Nat.sub_le _ _) (⟨n + 1, hn⟩ : Fin cfg5.N).isLt)).2.2.2.2]
      rw [colsum5_apply, hstep]
      exact congrArg₂ (· + ·) ih (Finset.sum_congr rfl (fun k _ => comb5_blk V c ⟨n + 1, hn⟩ k q ⟨5000 * (n + 1) + k.val, by have := k.isLt; omega⟩ rfl))

/-- After point `n` the second accumulator holds, in column `q`, the total of the squared combination over the first
    `5000·(n + 1)` rows: by induction on the point, each point adding its block's column sums of squares. -/
theorem acc5_1_eq (c : Dev nD) (q : Fin 128) : ∀ (n : ℕ) (hn : n < cfg5.N),
    (outsAt5 V c n hn).2.2.2.2 (ix2 (0 : Fin 1) q)
      = ∑ m ∈ Finset.range (5000 * (n + 1)), Cert.Lib.ext0 (fun r : Fin 100000 => Y5 V c (ix2 r q) * Y5 V c (ix2 r q)) m
  | 0, hn => by
    have hN : cfg5.N = 20 := N_5
    have h19 : ¬(0 : ℕ) = 19 := by decide
    have e := outsAt5_A V c ⟨0, hn⟩ rfl h19
    rw [show outsAt5 V c 0 hn = _ from e]
    dsimp only
    rw [sout5_A_1_eq (F := Ideal) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr rfl) (fun h => h19 ((hcond5_1 ⟨0, hn⟩).mp h)) (iblk5 V c 0 ⟨0, hn⟩) (iblk5 V c 1 ⟨0, hn⟩) (iblk5 V c 2 ⟨0, hn⟩) (iblk5 V c 3 ⟨0, hn⟩)]
    rw [colsumsq5_apply, zero5_1_apply, zero_add,
      Cert.Lib.sum_range_block (fun r : Fin 100000 => Y5 V c (ix2 r q) * Y5 V c (ix2 r q)) 5000 0 (by norm_num),
      show ∑ m ∈ Finset.range (5000 * 0), Cert.Lib.ext0 (fun r : Fin 100000 => Y5 V c (ix2 r q) * Y5 V c (ix2 r q)) m = 0 from by
        rw [Nat.mul_zero, Finset.range_zero, Finset.sum_empty],
      zero_add]
    exact Finset.sum_congr rfl (fun k _ => by rw [comb5_blk V c ⟨0, hn⟩ k q ⟨5000 * 0 + k.val, by have := k.isLt; omega⟩ rfl])
  | n + 1, hn => by
    have hN : cfg5.N = 20 := N_5
    have hn20 : n + 1 < 20 := hN ▸ hn
    have ih := acc5_1_eq c q n (Nat.lt_of_succ_lt hn)
    have hstep := Cert.Lib.sum_range_block (fun r : Fin 100000 => Y5 V c (ix2 r q) * Y5 V c (ix2 r q)) 5000 (n + 1) (by omega)
    by_cases h1 : n + 1 = 19
    · have e := outsAt5_C V c ⟨n + 1, hn⟩ (Nat.succ_ne_zero n) h1
      rw [show outsAt5 V c (n + 1) hn = _ from e]
      dsimp only
      rw [sout5_C_1_eq (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 V c ((⟨n + 1, hn⟩ : Fin cfg5.N).val - 1) (Nat.lt_of_le_of_lt (Nat.sub_le _ _) (⟨n + 1, hn⟩ : Fin cfg5.N).isLt)).2.2.2.1 (outsAt5 V c ((⟨n + 1, hn⟩ : Fin cfg5.N).val - 1) (Nat.lt_of_le_of_lt (Nat.sub_le _ _) (⟨n + 1, hn⟩ : Fin cfg5.N).isLt)).2.2.2.2]
      rw [colsumsq5_apply, hstep]
      exact congrArg₂ (· + ·) ih (Finset.sum_congr rfl (fun k _ => by rw [comb5_blk V c ⟨n + 1, hn⟩ k q ⟨5000 * (n + 1) + k.val, by have := k.isLt; omega⟩ rfl]))
    · have e := outsAt5_B V c ⟨n + 1, hn⟩ (Nat.succ_ne_zero n) h1
      rw [show outsAt5 V c (n + 1) hn = _ from e]
      dsimp only
      rw [sout5_B_1_eq (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 V c ((⟨n + 1, hn⟩ : Fin cfg5.N).val - 1) (Nat.lt_of_le_of_lt (Nat.sub_le _ _) (⟨n + 1, hn⟩ : Fin cfg5.N).isLt)).2.2.2.1 (outsAt5 V c ((⟨n + 1, hn⟩ : Fin cfg5.N).val - 1) (Nat.lt_of_le_of_lt (Nat.sub_le _ _) (⟨n + 1, hn⟩ : Fin cfg5.N).isLt)).2.2.2.2]
      rw [colsumsq5_apply, hstep]
      exact congrArg₂ (· + ·) ih (Finset.sum_congr rfl (fun k _ => by rw [comb5_blk V c ⟨n + 1, hn⟩ k q ⟨5000 * (n + 1) + k.val, by have := k.isLt; omega⟩ rfl]))

/-- At the last point output 5's buffer holds what the first accumulator holds. -/
theorem out5_5_eq (c : Dev nD) (t : Fin cfg5.N) (h19 : t.val = 19) :
    (outsAt5 V c t.val t.isLt).2.1 = (outsAt5 V c t.val t.isLt).2.2.2.1 := by
  have h0 : ¬t.val = 0 := by omega
  rw [outsAt5_C V c t h0 h19]
  dsimp only
  rw [out5_C_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h19) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2,
    sout5_C_0_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h19) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2]

/-- What the last point writes back to output 5 is the row of column sums of the combination. -/
theorem flushed5_5_eq (c : Dev nD) (t : Fin cfg5.N) (hf : (cfg5.win 5).flush t = true) :
    (dat5 (F := Ideal) V c).flushed 5 t = ((cfg5.win 5).blk t).view.read (Elt Ideal) (sumRow (Y5 V c)) := by
  have hN : cfg5.N = 20 := N_5
  have h19 : t.val = 19 := by have := (flush5_5 t).mp hf; have := t.isLt; omega
  show (cfg5.win 5).cut (grid5.coords t) ((dat5 V c).after 5 t) = _
  rw [after5_5, out5_5_eq V c t h19]
  obtain ⟨-, -, -, -, -, -, -, -, -, -, e0, e1, -⟩ := idx_facts5 t
  have key : ∀ j : S1x128.Idx, (outsAt5 V c t.val t.isLt).2.2.2.1 j
      = sumRow (Y5 V c) (((cfg5.win 5).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg5.win 5).blk t).view.emb (ix2 (0 : Fin 1) q)) 1).val = q.val := by
      show win5_5.index t (1 : Fin 2) * 128 + 1 * q.val = _
      rw [e1]; omega
    have hcol : (fun r : Fin 100000 => Y5 V c (ix2 r ((((cfg5.win 5).blk t).view.emb (ix2 (0 : Fin 1) q)) 1)))
        = fun r : Fin 100000 => Y5 V c (ix2 r q) := by
      have hi : ∀ r : Fin 100000, (ix2 r ((((cfg5.win 5).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y5 V c (ix2 r ((((cfg5.win 5).blk t).view.emb (ix2 (0 : Fin 1) q)) 1))
    rw [Cert.Lib.sum_fin_eq_sum_range, hcol, acc5_0_eq V c q t.val t.isLt, h19]
  generalize (outsAt5 V c t.val t.isLt).2.2.2.1 = X at key ⊢
  generalize sumRow (Y5 V c) = G at key ⊢
  funext j
  exact key j

/-- An index of output 5 is in point `t`'s block iff each coordinate is in the block's range on its axis. -/
theorem mem_blk5_5 (t : Fin cfg5.N) (i : S1x128.Idx) :
    i ∈ ((cfg5.win 5).blk t).view.set
      ↔ ∀ a : Fin 2, win5_5.index t a * S1x128.size a ≤ (i a).val
          ∧ (i a).val < win5_5.index t a * S1x128.size a + S1x128.size a := by
  show i ∈ ((View.whole main_v106_1).slice (win5_5.rect t)).set ↔ _
  rw [View.set_slice_whole, Rect.mem_set_unit]
  exact Iff.rfl

/-- The last point's block is the whole of output 5. -/
theorem cover5_5 (i : S1x128.Idx) :
    ∃ t : Fin cfg5.N, (cfg5.win 5).flush t = true ∧ i ∈ ((cfg5.win 5).blk t).view.set := by
  have hi0 : (i 0).val < 1 := (i 0).isLt
  have hi1 : (i 1).val < 128 := (i 1).isLt
  have hN : cfg5.N = 20 := N_5
  have ht : 19 < cfg5.N := by rw [hN]; omega
  obtain ⟨-, -, -, -, -, -, -, -, -, -, e0, e1, -⟩ := idx_facts5 ⟨19, ht⟩
  refine ⟨⟨19, ht⟩, (flush5_5 _).mpr rfl, ?_⟩
  rw [mem_blk5_5]
  intro a
  match a with
  | ⟨0, _⟩ =>
    show win5_5.index ⟨19, ht⟩ (0 : Fin 2) * 1 ≤ (i 0).val ∧ (i 0).val < win5_5.index ⟨19, ht⟩ (0 : Fin 2) * 1 + 1
    rw [e0]; omega
  | ⟨1, _⟩ =>
    show win5_5.index ⟨19, ht⟩ (1 : Fin 2) * 128 ≤ (i 1).val ∧ (i 1).val < win5_5.index ⟨19, ht⟩ (1 : Fin 2) * 128 + 128
    rw [e1]; omega

/-- Output 5 after the region: the row of column sums of the combination over all 100000 rows. -/
theorem final5_sum (c : Dev nD) : (dat5 (F := Ideal) V c).arrAt 5 cfg5.N = sumRow (Y5 V c) :=
  (dat5 V c).arrAt_eq_of_cover 5 _ (fun t hf => flushed5_5_eq V c t hf) cover5_5

/-- At the last point output 6's buffer holds what the second accumulator holds. -/
theorem out5_6_eq (c : Dev nD) (t : Fin cfg5.N) (h19 : t.val = 19) :
    (outsAt5 V c t.val t.isLt).2.2.1 = (outsAt5 V c t.val t.isLt).2.2.2.2 := by
  have h0 : ¬t.val = 0 := by omega
  rw [outsAt5_C V c t h0 h19]
  dsimp only
  rw [out5_C_6_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h19) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2,
    sout5_C_1_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h19) (iblk5 V c 0 t) (iblk5 V c 1 t) (iblk5 V c 2 t) (iblk5 V c 3 t) (outsAt5 V c (t.val - 1) (Nat.lt_of_le_of_lt (Nat.sub_le _ _) t.isLt)).2.2.2.1 (outsAt5 V c (t.val - 1) (Nat.lt_of_le_of_lt (Nat.sub_le _ _) t.isLt)).2.2.2.2]

/-- What the last point writes back to output 6 is the row of column sums of squares of the combination. -/
theorem flushed5_6_eq (c : Dev nD) (t : Fin cfg5.N) (hf : (cfg5.win 6).flush t = true) :
    (dat5 (F := Ideal) V c).flushed 6 t = ((cfg5.win 6).blk t).view.read (Elt Ideal) (sumSqRow (Y5 V c)) := by
  have hN : cfg5.N = 20 := N_5
  have h19 : t.val = 19 := by have := (flush5_6 t).mp hf; have := t.isLt; omega
  show (cfg5.win 6).cut (grid5.coords t) ((dat5 V c).after 6 t) = _
  rw [after5_6, out5_6_eq V c t h19]
  obtain ⟨-, -, -, -, -, -, -, -, -, -, -, -, e0, e1⟩ := idx_facts5 t
  have key : ∀ j : S1x128.Idx, (outsAt5 V c t.val t.isLt).2.2.2.2 j
      = sumSqRow (Y5 V c) (((cfg5.win 6).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg5.win 6).blk t).view.emb (ix2 (0 : Fin 1) q)) 1).val = q.val := by
      show win5_6.index t (1 : Fin 2) * 128 + 1 * q.val = _
      rw [e1]; omega
    have hcol : (fun r : Fin 100000 => Y5 V c (ix2 r ((((cfg5.win 6).blk t).view.emb (ix2 (0 : Fin 1) q)) 1)) * Y5 V c (ix2 r ((((cfg5.win 6).blk t).view.emb (ix2 (0 : Fin 1) q)) 1)))
        = fun r : Fin 100000 => Y5 V c (ix2 r q) * Y5 V c (ix2 r q) := by
      have hi : ∀ r : Fin 100000, (ix2 r ((((cfg5.win 6).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y5 V c (ix2 r ((((cfg5.win 6).blk t).view.emb (ix2 (0 : Fin 1) q)) 1)) * Y5 V c (ix2 r ((((cfg5.win 6).blk t).view.emb (ix2 (0 : Fin 1) q)) 1))
    rw [Cert.Lib.sum_fin_eq_sum_range, hcol, acc5_1_eq V c q t.val t.isLt, h19]
  generalize (outsAt5 V c t.val t.isLt).2.2.2.2 = X at key ⊢
  generalize sumSqRow (Y5 V c) = G at key ⊢
  funext j
  exact key j

/-- An index of output 6 is in point `t`'s block iff each coordinate is in the block's range on its axis. -/
theorem mem_blk5_6 (t : Fin cfg5.N) (i : S1x128.Idx) :
    i ∈ ((cfg5.win 6).blk t).view.set
      ↔ ∀ a : Fin 2, win5_6.index t a * S1x128.size a ≤ (i a).val
          ∧ (i a).val < win5_6.index t a * S1x128.size a + S1x128.size a := by
  show i ∈ ((View.whole main_v106_2).slice (win5_6.rect t)).set ↔ _
  rw [View.set_slice_whole, Rect.mem_set_unit]
  exact Iff.rfl

/-- The last point's block is the whole of output 6. -/
theorem cover5_6 (i : S1x128.Idx) :
    ∃ t : Fin cfg5.N, (cfg5.win 6).flush t = true ∧ i ∈ ((cfg5.win 6).blk t).view.set := by
  have hi0 : (i 0).val < 1 := (i 0).isLt
  have hi1 : (i 1).val < 128 := (i 1).isLt
  have hN : cfg5.N = 20 := N_5
  have ht : 19 < cfg5.N := by rw [hN]; omega
  obtain ⟨-, -, -, -, -, -, -, -, -, -, -, -, e0, e1⟩ := idx_facts5 ⟨19, ht⟩
  refine ⟨⟨19, ht⟩, (flush5_6 _).mpr rfl, ?_⟩
  rw [mem_blk5_6]
  intro a
  match a with
  | ⟨0, _⟩ =>
    show win5_6.index ⟨19, ht⟩ (0 : Fin 2) * 1 ≤ (i 0).val ∧ (i 0).val < win5_6.index ⟨19, ht⟩ (0 : Fin 2) * 1 + 1
    rw [e0]; omega
  | ⟨1, _⟩ =>
    show win5_6.index ⟨19, ht⟩ (1 : Fin 2) * 128 ≤ (i 1).val ∧ (i 1).val < win5_6.index ⟨19, ht⟩ (1 : Fin 2) * 128 + 128
    rw [e1]; omega

/-- Output 6 after the region: the row of column sums of squares of the combination over all 100000 rows. -/
theorem final5_sumsq (c : Dev nD) : (dat5 (F := Ideal) V c).arrAt 6 cfg5.N = sumSqRow (Y5 V c) :=
  (dat5 V c).arrAt_eq_of_cover 6 _ (fun t hf => flushed5_6_eq V c t hf) cover5_6

end Cert.KernelIdeal.HandValue

end
-- ==== Proof.KIValue6.lean ====
import proofs.«163161_j55817394979591_1_alg».proof.Proof.KIRegion6
import proofs.«163161_j55817394979591_1_alg».proof.Proof.KIValue2
import proofs.«163161_j55817394979591_1_alg».proof.Proof.NetDefs
import Idealize.ShloMosaic.PureOps.Ideal.Laws
import Idealize.ShloMosaic.Lib.Pipeline.Value
import Idealize.ShloMosaic.Lib.ValueIdx

/-!
# Region 6 of @main as a function of whole arrays: batch normalisation and the rectifier

The region's twenty points each write rows `5000·t … 5000·t + 4999` of the output: the matching rows of `y`,
centred by the row of means, scaled by the row of scales and by the reciprocal square root of the row of
variances plus epsilon, shifted by the row of shifts, and cut below at zero.  So the output array ends as that
function of `y` and the four rows, entry by entry.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The body's payload at entry `(p, q)` of a block, over the block of `y` and the rows in the order the body
    loads them (variance, scale, mean, shift). -/
theorem pay6_apply (x0 : Vec Ideal S5000x128 .f32) (xv xg xm xb : Vec Ideal S1x128 .f32)
    (p : Fin 5000) (q : Fin 128) :
    k6_pay1 x0 xv xg xm xb (ix2 p q)
      = max (xg (ix2 (0 : Fin 1) q) * (x0 (ix2 p q) - xm (ix2 (0 : Fin 1) q))
          * Ideal.rsqrt (xv (ix2 (0 : Fin 1) q) + Ideal.ofBits .f32 0x3727C5AC#32)
        + xb (ix2 (0 : Fin 1) q)) 0 := by
  unfold k6_pay1
  show maximumf _ _ (ix2 p q) = _
  rw [maximumf_apply, addf_apply, mulf_apply, mulf_apply, subf_apply]
  simp only [shapeCast_self, spread_apply]
  rw [broadcast_apply]
  show max (_ * _ * Ideal.rsqrt (xv (ix2 (0 : Fin 1) q) + Ideal.ofBits .f32 0x3727C5AC#32) + _)
      (Ideal.ofBits .f32 0x00000000#32) = _
  rw [Ideal.ofBits_zero_f32]

-- the TensorCore's buffer contents when the region is entered
variable (V : (c : Dev nD) → (b : Ref sig .tc) → Buf (Elt Ideal) ((c : Thread nD τ).loc b))

/-- The printed index maps, decided over the twenty points: the y window and the output window sit at row block `t`,
    the four row windows at block `(0, 0)`. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The y window's block at point `t` is rows `5000·t …` of `y`. -/
theorem yblk6_apply (c : Dev nD) (t : Fin cfg6.N) (y : S5000x128.Idx) (i : S100000x128.Idx)
    (h0 : (i 0).val = 5000 * t.val + (y 0).val) (h1 : (i 1).val = (y 1).val) :
    (iblk6 V c 0 t : Vec Ideal S5000x128 .f32) y = (V c main_v106_0 : S100000x128.Idx → EReal) i := by
  obtain ⟨e00, e01, -⟩ := idx_facts6 t
  unfold iblk6
  rw [View.read_apply]
  show (V c main_v106_0 : S100000x128.Idx → EReal) _ = _
  congr 1
  funext a
  apply Fin.ext
  match a with
  | ⟨0, _⟩ => show win6_0.index t (0 : Fin 2) * 5000 + 1 * (y 0).val = (i 0).val; rw [e00, h0]; omega
  | ⟨1, _⟩ => show win6_0.index t (1 : Fin 2) * 128 + 1 * (y 1).val = (i 1).val; rw [e01, h1]; omega

/-- The window of means at every point is the whole row of means. -/
theorem mublk6_apply (c : Dev nD) (t : Fin cfg6.N) (y : S1x128.Idx) :
    (iblk6 V c 1 t : Vec Ideal S1x128 .f32) y = (V c main_v108 : S1x128.Idx → EReal) y := by
  obtain ⟨-, -, e0, e1, -⟩ := idx_facts6 t
  unfold iblk6
  rw [View.read_apply]
  show (V c main_v108 : S1x128.Idx → EReal) _ = _
  congr 1
  funext a
  apply Fin.ext
  match a with
  | ⟨0, _⟩ => show win6_1.index t (0 : Fin 2) * 1 + 1 * (y 0).val = (y 0).val; rw [e0]; omega
  | ⟨1, _⟩ => show win6_1.index t (1 : Fin 2) * 128 + 1 * (y 1).val = (y 1).val; rw [e1]; omega

/-- The window of variances at every point is the whole row of variances. -/
theorem varblk6_apply (c : Dev nD) (t : Fin cfg6.N) (y : S1x128.Idx) :
    (iblk6 V c 2 t : Vec Ideal S1x128 .f32) y = (V c main_v112 : S1x128.Idx → EReal) y := by
  obtain ⟨-, -, -, -, e0, e1, -⟩ := idx_facts6 t
  unfold iblk6
  rw [View.read_apply]
  show (V c main_v112 : S1x128.Idx → EReal) _ = _
  congr 1
  funext a
  apply Fin.ext
  match a with
  | ⟨0, _⟩ => show win6_2.index t (0 : Fin 2) * 1 + 1 * (y 0).val = (y 0).val; rw [e0]; omega
  | ⟨1, _⟩ => show win6_2.index t (1 : Fin 2) * 128 + 1 * (y 1).val = (y 1).val; rw [e1]; omega

/-- The window of scales at every point is the whole row of scales. -/
theorem gammablk6_apply (c : Dev nD) (t : Fin cfg6.N) (y : S1x128.Idx) :
    (iblk6 V c 3 t : Vec Ideal S1x128 .f32) y = (V c main_v115 : S1x128.Idx → EReal) y := by
  obtain ⟨-, -, -, -, -, -, e0, e1, -⟩ := idx_facts6 t
  unfold iblk6
  rw [View.read_apply]
  show (V c main_v115 : S1x128.Idx → EReal) _ = _
  congr 1
  funext a
  apply Fin.ext
  match a with
  | ⟨0, _⟩ => show win6_3.index t (0 : Fin 2) * 1 + 1 * (y 0).val = (y 0).val; rw [e0]; omega
  | ⟨1, _⟩ => show win6_3.index t (1 : Fin 2) * 128 + 1 * (y 1).val = (y 1).val; rw [e1]; omega

/-- The window of shifts at every point is the whole row of shifts. -/
theorem betablk6_apply (c : Dev nD) (t : Fin cfg6.N) (y : S1x128.Idx) :
    (iblk6 V c 4 t : Vec Ideal S1x128 .f32) y = (V c main_v118 : S1x128.Idx → EReal) y := by
  obtain ⟨-, -, -, -, -, -, -, -, e0, e1, -⟩ := idx_facts6 t
  unfold iblk6
  rw [View.read_apply]
  show (V c main_v118 : S1x128.Idx → EReal) _ = _
  congr 1
  funext a
  apply Fin.ext
  match a with
  | ⟨0, _⟩ => show win6_4.index t (0 : Fin 2) * 1 + 1 * (y 0).val = (y 0).val; rw [e0]; omega
  | ⟨1, _⟩ => show win6_4.index t (1 : Fin 2) * 128 + 1 * (y 1).val = (y 1).val; rw [e1]; omega

/-- What point `t` writes back is block `t` of the normalised, rectified array of the arrays as the region finds
    them. -/
theorem flushed6_eq (c : Dev nD) (t : Fin cfg6.N) :
    (dat6 (F := Ideal) V c).flushed 5 t
      = ((cfg6.win 5).blk t).view.read (Elt Ideal)
          (normRelu (V c main_v106_0) (V c main_v108) (V c main_v112) (V c main_v115) (V c main_v118)) := by
  show (cfg6.win 5).cut (grid6.coords t) ((dat6 V c).after 5 t) = _
  rw [after6_5]
  unfold out6_5
  rw [View.canon_unit_zero origin2]
  simp only [View.ld_unit_zero (S := S5000x128) origin2, View.ld_unit_zero (S := S1x128) origin2]
  obtain ⟨-, -, -, -, -, -, -, -, -, -, e50, e51⟩ := idx_facts6 t
  have key : ∀ j : S5000x128.Idx,
      k6_pay1 (iblk6 V c 0 t) (iblk6 V c 2 t) (iblk6 V c 3 t) (iblk6 V c 1 t) (iblk6 V c 4 t) j
        = normRelu (V c main_v106_0) (V c main_v108) (V c main_v112) (V c main_v115) (V c main_v118)
            (((cfg6.win 5).blk t).view.emb j) := by
    intro j
    obtain ⟨p, q, rfl⟩ : ∃ (p : Fin 5000) (q : Fin 128), j = ix2 p q := ⟨j 0, j 1, eq_ix2 j⟩
    have hv0 : ((((cfg6.win 5).blk t).view.emb (ix2 p q)) 0).val = 5000 * t.val + p.val := by
      show win6_5.index t (0 : Fin 2) * 5000 + 1 * p.val = _
      rw [e50]; omega
    have hv1 : ((((cfg6.win 5).blk t).view.emb (ix2 p q)) 1).val = q.val := by
      show win6_5.index t (1 : Fin 2) * 128 + 1 * q.val = _
      rw [e51]; omega
    have hq : (ix2 (0 : Fin 1) ((((cfg6.win 5).blk t).view.emb (ix2 p q)) 1) : S1x128.Idx) = ix2 (0 : Fin 1) q := by
      funext a
      apply Fin.ext
      match a with
      | ⟨0, _⟩ => rfl
      | ⟨1, _⟩ => exact hv1
    rw [pay6_apply]
    unfold normRelu Cert.Net.normReluAt
    rw [hq, mublk6_apply V c t, varblk6_apply V c t, gammablk6_apply V c t, betablk6_apply V c t,
      yblk6_apply V c t (ix2 p q) (ix2 ((((cfg6.win 5).blk t).view.emb (ix2 p q)) 0)
        ((((cfg6.win 5).blk t).view.emb (ix2 p q)) 1)) hv0 hv1]
  funext j
  exact key j

/-- An index of the output array is in point `t`'s block iff each coordinate is in the block's range on its axis. -/
theorem mem_blk6 (t : Fin cfg6.N) (i : S100000x128.Idx) :
    i ∈ ((cfg6.win 5).blk t).view.set
      ↔ ∀ a : Fin 2, win6_5.index t a * S5000x128.size a ≤ (i a).val
          ∧ (i a).val < win6_5.index t a * S5000x128.size a + S5000x128.size a := by
  show i ∈ ((View.whole main_v119).slice (win6_5.rect t)).set ↔ _
  rw [View.set_slice_whole, Rect.mem_set_unit]
  exact Iff.rfl

/-- Every index of the output array is in some point's block: row `r` is in block `r / 5000`. -/
theorem cover6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := N_6
  have ht : (i 0).val / 5000 < cfg6.N := by rw [hN]; omega
  obtain ⟨-, -, -, -, -, -, -, -, -, -, e50, e51⟩ := idx_facts6 ⟨(i 0).val / 5000, ht⟩
  refine ⟨⟨(i 0).val / 5000, ht⟩, flush6_5 _, ?_⟩
  rw [mem_blk6]
  intro a
  match a with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win6_5.index ⟨(i 0).val / 5000, ht⟩ (1 : Fin 2) * 128 ≤ (i 1).val
      ∧ (i 1).val < win6_5.index ⟨(i 0).val / 5000, ht⟩ (1 : Fin 2) * 128 + 128
    rw [e51]; omega

/-- The output array after the region: the normalised, rectified array of the arrays as the region finds them. -/
theorem final6 (c : Dev nD) :
    (dat6 (F := Ideal) V c).arrAt 5 cfg6.N
      = normRelu (V c main_v106_0) (V c main_v108) (V c main_v112) (V c main_v115) (V c main_v118) :=
  (dat6 V c).arrAt_eq_of_cover 5 _ (fun t _ => flushed6_eq V c t) cover6

end Cert.KernelIdeal.HandValue

end
-- ==== Proof.KIValue7a.lean ====
import proofs.«163161_j55817394979591_1_alg».proof.Proof.Gen.KernelIdeal.Skeleton
import proofs.«163161_j55817394979591_1_alg».proof.Proof.LibMatmulPlain
import proofs.«163161_j55817394979591_1_alg».proof.Proof.NetDefs
import Idealize.ShloMosaic.PureOps.Ideal.Laws
import Idealize.ShloMosaic.Lib.Pipeline.Value
import Idealize.ShloMosaic.Lib.ValueIdx

/-!
# Region 7 of @main: the body's payloads, entry by entry

The body computes one block of the layer's combination (two matrix products and four scalings, added left
to right), adds that block's column sums and the column sums of its squares onto two rows, and starts those
rows from zero.
-/

noncomputable section

namespace Cert.KernelIdeal.HandValue

open Cert.KernelIdeal Cert.KernelIdeal.Gen
open Idealize.ShloMosaic Idealize.ShloMosaic.ValueIdx
open scoped BigOperators

/-- The combination's payload at entry `(r, j)` of a block, from the blocks of the aggregate and the projection and
    the two weight matrices. -/
theorem comb7_apply (a p : Vec Ideal S5000x128 .f32) (W1 W2 : Vec Ideal S128x128 .f32) (r : Fin 5000) (j : Fin 128) :
    k7_pay5 a p W1 W2 (ix2 r j)
      = Named.named (F := Ideal) κ "one_minus_beta_3" (φ := .f32) 0x3F46E010#32 * (Ideal.ofBits .f32 0x3F000000#32 * a (ix2 r j))
        + Ideal.ofBits .f32 0x3E647FBE#32
            * (∑ k : Fin 128, (Ideal.ofBits .f32 0x3F000000#32 * a (ix2 r k)) * W1 (ix2 k j))
        + Named.named (F := Ideal) κ "one_minus_beta_3" (φ := .f32) 0x3F46E010#32 * (Ideal.ofBits .f32 0x3F000000#32 * p (ix2 r j))
        + Ideal.ofBits .f32 0x3E647FBE#32
            * (∑ k : Fin 128, (Ideal.ofBits .f32 0x3F000000#32 * p (ix2 r k)) * W2 (ix2 k j)) := by
  unfold k7_pay5
  show addf _ _ (ix2 r j) = _
  simp only [addf_apply, mulf_apply, broadcast_apply, shapeCast_self]
  refine congrArg₂ (· + ·) (congrArg₂ (· + ·) (congrArg₂ (· + ·) rfl ?_) rfl) ?_
  · exact congrArg (Ideal.ofBits .f32 0x3E647FBE#32 * ·)
      (MatmulPlain.matmul_zero_apply dot_S5000x128_S128x128_S5000x128_1_0_0_1_n_n_wf none
        (truncf .bf16 (mulf (broadcast S5000x128 (Scalar.ofBits (F := Ideal) .f32 0x3F000000#32)) a) bitsLt_bf16_f32)
        (truncf .bf16 W1 bitsLt_bf16_f32) r j)
  · exact congrArg (Ideal.ofBits .f32 0x3E647FBE#32 * ·)
      (MatmulPlain.matmul_zero_apply dot_S5000x128_S128x128_S5000x128_1_0_0_1_n_n_wf none
        (truncf .bf16 (mulf (broadcast S5000x128 (Scalar.ofBits (F := Ideal) .f32 0x3F000000#32)) p) bitsLt_bf16_f32)
        (truncf .bf16 W2 bitsLt_bf16_f32) r j)

/-- The column-sum payload at entry `(0, q)`: the row's entry plus the sum of the block's column `q`. -/
theorem colsum7_apply (v : FVec Ideal S5000x128 .f32) (acc : FVec Ideal S1x128 .f32) (q : Fin 128) :
    k7_pay1 v acc (ix2 (0 : Fin 1) q) = acc (ix2 (0 : Fin 1) q) + ∑ k : Fin 5000, v (ix2 k q) := by
  unfold k7_pay1
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single v 0x00000000#32 reduces_S5000x128_S128 (.inl rfl) rfl _).trans ?_
  exact Finset.sum_congr rfl fun k _ => congrArg v (funext fun a => Fin.ext (by
    match a with
    | ⟨0, _⟩ => rfl
    | ⟨1, _⟩ => rfl))

/-- The sum-of-squares payload at entry `(0, q)`: the row's entry plus the sum of the squares of the block's
    column `q`. -/
theorem colsumsq7_apply (v : FVec Ideal S5000x128 .f32) (acc : FVec Ideal S1x128 .f32) (q : Fin 128) :
    k7_pay2 v acc (ix2 (0 : Fin 1) q) = acc (ix2 (0 : Fin 1) q) + ∑ k : Fin 5000, v (ix2 k q) * v (ix2 k q) := by
  unfold k7_pay2
  show shapeCast S1x128 (addf acc (shapeCast S1x128 _ shapeCasts_S128_S1x128)) shapeCasts_S1x128_S1x128
      (ix2 (0 : Fin 1) q) = _
  rw [shapeCast_self, addf_apply]
  congr 1
  refine (shapeCast_addUnit_apply ![128] _ shapeCasts_S128_S1x128 (ix2 (0 : Fin 1) q)).trans ?_
  refine (Ideal.multiReduction_add_single (mulf v v) 0x00000000#32 reduces_S5000x128_S128 (.inl rfl) rfl _).trans ?_
  exact Finset.sum_congr rfl fun k _ => congrArg (fun i => v i * v i) (funext fun a => Fin.ext (by
    match a with
    | ⟨0, _⟩ => rfl
    | ⟨1, _⟩ => rfl))

/-- The two rows start from zero. -/
theorem zero7_0_apply (i : S1x128.Idx) : k7_pay3 (F := Ideal) i = 0 := by
  unfold k7_pay3
  show shapeCast S1x128 (broadcast S1x128 (Scalar.ofBits (F := Ideal) .f32 0x00000000#32)) shapeCasts_S1x128_S1x128 i = 0
  rw [shapeCast_self, broadcast_apply]
  exact Ideal.ofBits_zero_f32

theorem zero7_1_apply (i : S1x128.Idx) : k7_pay4 (F := Ideal) i = 0 := by
  unfold k7_pay4
  show shapeCast S1x128 (broadcast S1x128 (Scalar.ofBits (F := Ideal) .f32 0x00000000#32)) shapeCasts_S1x128_S1x128 i = 0
  rw [shapeCast_self, broadcast_apply]
  exact Ideal.ofBits_zero_f32

end Cert.KernelIdeal.HandValue

end
-- ==== Proof.KIValue7b.lean ====
import proofs.«163161_j55817394979591_1_alg».proof.Proof.KIRegion7
import Idealize.ShloMosaic.Lib.Pipeline.Value
import Idealize.ShloMosaic.Lib.Tactic

/-!
# Region 7 of @main: what each control case leaves, as payloads of the blocks

At every point the result block's buffer ends at the combination payload of the four input blocks. The two
accumulator rows end at the column-sum and sum-of-squares payloads of that block over what they held: over
the zero rows at the first point, over the previous point's rows afterwards. At the last point outputs 5 and 6
receive the two rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic

variable {F : FTy → Type} [FloatOps F] [Named F]

/-- The offset `(0, 0)` of a whole block is the zero function. -/
theorem origin7 : (![0, 0] : Fin 2 → Nat) = fun _ => 0 := funext fun a => by fin_cases a <;> rfl

/-- The first point leaves the combination of the blocks in the result block's buffer. -/
theorem out7_A_4_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) :
    out7_A_4 c i arg1 harg1 arg2 harg2 arg3 harg3 arg4 harg4 arg5 harg5 arg6 harg6 arg7 harg7 arg8 harg8 arg9 harg9 hc0 hc1 x0 x1 x2 x3 = k7_pay5 x0 x1 x2 x3 := by
  unfold out7_A_4
  rw [View.read_writes_eq_canon _ _ _ (cover7_A_4 c i arg1 harg1 arg2 harg2 arg3 harg3 arg4 harg4 arg5 harg5 arg6 harg6 arg7 harg7 arg8 harg8 arg9 harg9 hc0 hc1 x0 x1 x2 x3)]
  unfold kernelRun7_A
  dsimp only
  try sl_unfold_words
  rw [View.canon_unit_zero origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- So does every middle point, -/
theorem out7_B_4_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    out7_B_4 c i arg1 harg1 arg2 harg2 arg3 harg3 arg4 harg4 arg5 harg5 arg6 harg6 arg7 harg7 arg8 harg8 arg9 harg9 hc0 hc1 x0 x1 x2 x3 xs0 xs1 = k7_pay5 x0 x1 x2 x3 := by
  unfold out7_B_4
  rw [View.read_writes_eq_canon _ _ _ (cover7_B_4 c i arg1 harg1 arg2 harg2 arg3 harg3 arg4 harg4 arg5 harg5 arg6 harg6 arg7 harg7 arg8 harg8 arg9 harg9 hc0 hc1 x0 x1 x2 x3 xs0 xs1)]
  unfold kernelRun7_B
  dsimp only
  try sl_unfold_words
  rw [View.canon_unit_zero origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- and the last point. -/
theorem out7_C_4_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    out7_C_4 c i arg1 harg1 arg2 harg2 arg3 harg3 arg4 harg4 arg5 harg5 arg6 harg6 arg7 harg7 arg8 harg8 arg9 harg9 hc0 hc1 x0 x1 x2 x3 xs0 xs1 = k7_pay5 x0 x1 x2 x3 := by
  unfold out7_C_4
  rw [View.read_writes_eq_canon _ _ _ (cover7_C_4 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  rw [View.canon_unit_zero origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- The first point leaves in the first accumulator the block's column sums over the zero row, -/
theorem sout7_A_0_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) :
    sout7_A_0 c i arg1 harg1 arg2 harg2 arg3 harg3 arg4 harg4 arg5 harg5 arg6 harg6 arg7 harg7 arg8 harg8 arg9 harg9 hc0 hc1 x0 x1 x2 x3 = k7_pay1 (k7_pay5 x0 x1 x2 x3) (k7_pay3 (F := F)) := by
  unfold sout7_A_0
  rw [View.read_writes_eq_canon _ _ _ (scover7_A_0 c i arg1 harg1 arg2 harg2 arg3 harg3 arg4 harg4 arg5 harg5 arg6 harg6 arg7 harg7 arg8 harg8 arg9 harg9 hc0 hc1 x0 x1 x2 x3)]
  unfold kernelRun7_A
  dsimp only
  try sl_unfold_words
  rw [View.canon_cons_unit_zero (S := S1x128) origin7, View.readCov_unit_zero (S := S1x128) _ origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- and in the second the column sums of its squares over the zero row. -/
theorem sout7_A_1_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S128x128 .f32) (x3 : Vec F S128x128 .f32) :
    sout7_A_1 c i arg1 harg1 arg2 harg2 arg3 harg3 arg4 harg4 arg5 harg5 arg6 harg6 arg7 harg7 arg8 harg8 arg9 harg9 hc0 hc1 x0 x1 x2 x3 = k7_pay2 (k7_pay5 x0 x1 x2 x3) (k7_pay4 (F := F)) := by
  unfold sout7_A_1
  rw [View.read_writes_eq_canon _ _ _ (scover7_A_1 c i arg1 harg1 arg2 harg2 arg3 harg3 arg4 harg4 arg5 harg5 arg6 harg6 arg7 harg7 arg8 harg8 arg9 harg9 hc0 hc1 x0 x1 x2 x3)]
  unfold kernelRun7_A
  dsimp only
  try sl_unfold_words
  rw [View.canon_cons_unit_zero (S := S1x128) origin7, View.readCov_unit_zero (S := S1x128) _ origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- A middle point adds the block's column sums onto the first accumulator, -/
theorem sout7_B_0_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    sout7_B_0 c i arg1 harg1 arg2 harg2 arg3 harg3 arg4 harg4 arg5 harg5 arg6 harg6 arg7 harg7 arg8 harg8 arg9 harg9 hc0 hc1 x0 x1 x2 x3 xs0 xs1 = k7_pay1 (k7_pay5 x0 x1 x2 x3) xs0 := by
  unfold sout7_B_0
  rw [View.read_writes_eq_canon _ _ _ (scover7_B_0 c i arg1 harg1 arg2 harg2 arg3 harg3 arg4 harg4 arg5 harg5 arg6 harg6 arg7 harg7 arg8 harg8 arg9 harg9 hc0 hc1 x0 x1 x2 x3 xs0 xs1)]
  unfold kernelRun7_B
  dsimp only
  try sl_unfold_words
  rw [View.canon_unit_zero origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- and the column sums of its squares onto the second. -/
theorem sout7_B_1_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    sout7_B_1 c i arg1 harg1 arg2 harg2 arg3 harg3 arg4 harg4 arg5 harg5 arg6 harg6 arg7 harg7 arg8 harg8 arg9 harg9 hc0 hc1 x0 x1 x2 x3 xs0 xs1 = k7_pay2 (k7_pay5 x0 x1 x2 x3) xs1 := by
  unfold sout7_B_1
  rw [View.read_writes_eq_canon _ _ _ (scover7_B_1 c i arg1 harg1 arg2 harg2 arg3 harg3 arg4 harg4 arg5 harg5 arg6 harg6 arg7 harg7 arg8 harg8 arg9 harg9 hc0 hc1 x0 x1 x2 x3 xs0 xs1)]
  unfold kernelRun7_B
  dsimp only
  try sl_unfold_words
  rw [View.canon_unit_zero origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- The last point does the same to the first accumulator -/
theorem sout7_C_0_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    sout7_C_0 c i arg1 harg1 arg2 harg2 arg3 harg3 arg4 harg4 arg5 harg5 arg6 harg6 arg7 harg7 arg8 harg8 arg9 harg9 hc0 hc1 x0 x1 x2 x3 xs0 xs1 = k7_pay1 (k7_pay5 x0 x1 x2 x3) xs0 := by
  unfold sout7_C_0
  rw [View.read_writes_eq_canon _ _ _ (scover7_C_0 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  rw [View.canon_unit_zero origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- and to the second, -/
theorem sout7_C_1_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    sout7_C_1 c i arg1 harg1 arg2 harg2 arg3 harg3 arg4 harg4 arg5 harg5 arg6 harg6 arg7 harg7 arg8 harg8 arg9 harg9 hc0 hc1 x0 x1 x2 x3 xs0 xs1 = k7_pay2 (k7_pay5 x0 x1 x2 x3) xs1 := by
  unfold sout7_C_1
  rw [View.read_writes_eq_canon _ _ _ (scover7_C_1 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  rw [View.canon_unit_zero origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- and copies the first accumulator to output 5 -/
theorem out7_C_5_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    out7_C_5 c i arg1 harg1 arg2 harg2 arg3 harg3 arg4 harg4 arg5 harg5 arg6 harg6 arg7 harg7 arg8 harg8 arg9 harg9 hc0 hc1 x0 x1 x2 x3 xs0 xs1 = k7_pay1 (k7_pay5 x0 x1 x2 x3) xs0 := by
  unfold out7_C_5
  rw [View.read_writes_eq_canon _ _ _ (cover7_C_5 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  rw [View.canon_unit_zero origin7, View.readCov_unit_zero (S := S1x128) _ origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
/-- and the second to output 6. -/
theorem out7_C_6_eq (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S128x128 .f32) (x3 : Vec F S128x128 .f32) (xs0 : Vec F S1x128 .f32) (xs1 : Vec F S1x128 .f32) :
    out7_C_6 c i arg1 harg1 arg2 harg2 arg3 harg3 arg4 harg4 arg5 harg5 arg6 harg6 arg7 harg7 arg8 harg8 arg9 harg9 hc0 hc1 x0 x1 x2 x3 xs0 xs1 = k7_pay2 (k7_pay5 x0 x1 x2 x3) xs1 := by
  unfold out7_C_6
  rw [View.read_writes_eq_canon _ _ _ (cover7_C_6 c i arg1 harg1 arg2 harg2 arg3 harg3 arg4 harg4 arg5 harg5 arg6 harg6 arg7 harg7 arg8 harg8 arg9 harg9 hc0 hc1 x0 x1 x2 x3 xs0 xs1)]
  unfold kernelRun7_C
  dsimp only
  try sl_unfold_words
  rw [View.canon_unit_zero origin7, View.readCov_unit_zero (S := S1x128) _ origin7]
  simp only [View.readAt_eq_ld, harg1.read_unread, harg2.read_unread, harg3.read_unread, harg4.read_unread,
    harg8.read_unread, harg9.read_unread,
    View.ld_unit_zero (S := S5000x128) origin7, View.ld_unit_zero (S := S128x128) origin7,
    View.ld_unit_zero (S := S1x128) origin7]
end Cert.KernelIdeal.HandValue

end
-- ==== Proof.KIValue7.lean ====
import proofs.«163161_j55817394979591_1_alg».proof.Proof.KIValue7a
import proofs.«163161_j55817394979591_1_alg».proof.Proof.KIValue7b
import proofs.«163161_j55817394979591_1_alg».proof.Proof.KIValueDefs
import proofs.«163161_j55817394979591_1_alg».proof.Proof.LibBlockSum
import Idealize.ShloMosaic.Lib.Pipeline.Value
import Idealize.ShloMosaic.Lib.ValueIdx

/-!
# Region 7 of @main as functions of whole arrays: the layer's combination and its column totals

The region's twenty points each write rows `5000·t … 5000·t + 4999` of the combination of the aggregate and the
projection through the two weight matrices, and add that block's column sums, and the column sums of its squares,
onto two rows that start from zero; the last point copies the two rows out.  So the first output ends as the
combination entry by entry, and the other two as its column sums and column sums of squares over all 100000 rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-- The layer's combination of the arrays as the region finds them. -/
def Y7 (c : Dev nD) : S100000x128.Idx → EReal :=
  combine (Ideal.ofBits .f32 0x3E647FBE#32) (Named.named (F := Ideal) κ "one_minus_beta_3" (φ := .f32) 0x3F46E010#32)
    (V c main_v132) (V c main_v26) (V c main_v134) (V c main_v136)

/-- The printed index maps, decided over the twenty points: the aggregate, projection and result windows sit at row
    block `t`, the two weight windows and the two row outputs at block `(0, 0)`. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- The aggregate window's block at point `t` is rows `5000·t …` of the aggregate. -/
theorem ablk7_apply (c : Dev nD) (t : Fin cfg7.N) (y : S5000x128.Idx) (i : S100000x128.Idx)
    (h0 : (i 0).val = 5000 * t.val + (y 0).val) (h1 : (i 1).val = (y 1).val) :
    (iblk7 V c 0 t : Vec Ideal S5000x128 .f32) y = (V c main_v132 : S100000x128.Idx → EReal) i := by
  obtain ⟨e0, e1, -⟩ := idx_facts7 t
  unfold iblk7
  rw [View.read_apply]
  show (V c main_v132 : S100000x128.Idx → EReal) _ = _
  congr 1
  funext a
  apply Fin.ext
  match a with
  | ⟨0, _⟩ => show win7_0.index t (0 : Fin 2) * 5000 + 1 * (y 0).val = (i 0).val; rw [e0, h0]; omega
  | ⟨1, _⟩ => show win7_0.index t (1 : Fin 2) * 128 + 1 * (y 1).val = (i 1).val; rw [e1, h1]; omega

/-- The projection window's block at point `t` is rows `5000·t …` of the projection. -/
theorem pblk7_apply (c : Dev nD) (t : Fin cfg7.N) (y : S5000x128.Idx) (i : S100000x128.Idx)
    (h0 : (i 0).val = 5000 * t.val + (y 0).val) (h1 : (i 1).val = (y 1).val) :
    (iblk7 V c 1 t : Vec Ideal S5000x128 .f32) y = (V c main_v26 : S100000x128.Idx → EReal) i := by
  obtain ⟨-, -, e0, e1, -⟩ := idx_facts7 t
  unfold iblk7
  rw [View.read_apply]
  show (V c main_v26 : S100000x128.Idx → EReal) _ = _
  congr 1
  funext a
  apply Fin.ext
  match a with
  | ⟨0, _⟩ => show win7_1.index t (0 : Fin 2) * 5000 + 1 * (y 0).val = (i 0).val; rw [e0, h0]; omega
  | ⟨1, _⟩ => show win7_1.index t (1 : Fin 2) * 128 + 1 * (y 1).val = (i 1).val; rw [e1, h1]; omega

/-- The first weight window's block at every point is the whole matrix. -/
theorem w1blk7_apply (c : Dev nD) (t : Fin cfg7.N) (y : S128x128.Idx) :
    (iblk7 V c 2 t : Vec Ideal S128x128 .f32) y = (V c main_v134 : S128x128.Idx → EReal) y := by
  obtain ⟨-, -, -, -, e0, e1, -⟩ := idx_facts7 t
  unfold iblk7
  rw [View.read_apply]
  show (V c main_v134 : S128x128.Idx → EReal) _ = _
  congr 1
  funext a
  apply Fin.ext
  match a with
  | ⟨0, _⟩ => show win7_2.index t (0 : Fin 2) * 128 + 1 * (y 0).val = (y 0).val; rw [e0]; omega
  | ⟨1, _⟩ => show win7_2.index t (1 : Fin 2) * 128 + 1 * (y 1).val = (y 1).val; rw [e1]; omega

/-- The second weight window's block at every point is the whole matrix. -/
theorem w2blk7_apply (c : Dev nD) (t : Fin cfg7.N) (y : S128x128.Idx) :
    (iblk7 V c 3 t : Vec Ideal S128x128 .f32) y = (V c main_v136 : S128x128.Idx → EReal) y := by
  obtain ⟨-, -, -, -, -, -, e0, e1, -⟩ := idx_facts7 t
  unfold iblk7
  rw [View.read_apply]
  show (V c main_v136 : S128x128.Idx → EReal) _ = _
  congr 1
  funext a
  apply Fin.ext
  match a with
  | ⟨0, _⟩ => show win7_3.index t (0 : Fin 2) * 128 + 1 * (y 0).val = (y 0).val; rw [e0]; omega
  | ⟨1, _⟩ => show win7_3.index t (1 : Fin 2) * 128 + 1 * (y 1).val = (y 1).val; rw [e1]; omega

/-- The combination payload of the blocks at point `t`, at entry `(k, q)`, is the combination of the whole arrays
    at row `5000·t + k`. -/
theorem comb7_blk (c : Dev nD) (t : Fin cfg7.N) (k : Fin 5000) (q : Fin 128) (r : Fin 100000)
    (hr : r.val = 5000 * t.val + k.val) :
    k7_pay5 (iblk7 V c 0 t) (iblk7 V c 1 t) (iblk7 V c 2 t) (iblk7 V c 3 t) (ix2 k q) = Y7 V c (ix2 r q) := by
  have ha : ∀ j : Fin 128, (iblk7 V c 0 t : Vec Ideal S5000x128 .f32) (ix2 k j)
      = (V c main_v132 : S100000x128.Idx → EReal) (ix2 r j) := fun j => ablk7_apply V c t (ix2 k j) (ix2 r j) hr rfl
  have hp : ∀ j : Fin 128, (iblk7 V c 1 t : Vec Ideal S5000x128 .f32) (ix2 k j)
      = (V c main_v26 : S100000x128.Idx → EReal) (ix2 r j) := fun j => pblk7_apply V c t (ix2 k j) (ix2 r j) hr rfl
  rw [comb7_apply]
  show _ = Cert.Net.combineAt _ _ _ _ _ _ r q
  unfold Cert.Net.combineAt
  refine congrArg₂ (· + ·) (congrArg₂ (· + ·) (congrArg₂ (· + ·) ?_ ?_) ?_) ?_
  · rw [ha q]
  · exact congrArg (_ * ·) (Finset.sum_congr rfl fun j _ => by rw [ha j, w1blk7_apply V c t (ix2 j q)])
  · rw [hp q]
  · exact congrArg (_ * ·) (Finset.sum_congr rfl fun j _ => by rw [hp j, w2blk7_apply V c t (ix2 j q)])

/-- After every point the result block's buffer holds the combination payload of the point's blocks. -/
theorem outs7_4_eq (c : Dev nD) (t : Fin cfg7.N) :
    (outsAt7 V c t.val t.isLt).1 = k7_pay5 (iblk7 V c 0 t) (iblk7 V c 1 t) (iblk7 V c 2 t) (iblk7 V c 3 t) := by
  by_cases h0 : t.val = 0
  · have h1 : ¬t.val = 19 := by omega
    rw [outsAt7_A V c t h0 h1]
    dsimp only
    exact out7_A_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)
  · by_cases h1 : t.val = 19
    · rw [outsAt7_C V c t h0 h1]
      dsimp only
      exact out7_C_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2
    · rw [outsAt7_B V c t h0 h1]
      dsimp only
      exact out7_B_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2

/-- What point `t` writes back to the first output is block `t` of the combination. -/
theorem flushed7_4_eq (c : Dev nD) (t : Fin cfg7.N) :
    (dat7 (F := Ideal) V c).flushed 4 t = ((cfg7.win 4).blk t).view.read (Elt Ideal) (Y7 V c) := by
  show (cfg7.win 4).cut (grid7.coords t) ((dat7 V c).after 4 t) = _
  rw [after7_4, outs7_4_eq]
  obtain ⟨-, -, -, -, -, -, -, -, e40, e41, -⟩ := idx_facts7 t
  have key : ∀ j : S5000x128.Idx, k7_pay5 (iblk7 V c 0 t) (iblk7 V c 1 t) (iblk7 V c 2 t) (iblk7 V c 3 t) j = Y7 V c (((cfg7.win 4).blk t).view.emb j) := by
    intro j
    obtain ⟨p, q, rfl⟩ : ∃ (p : Fin 5000) (q : Fin 128), j = ix2 p q := ⟨j 0, j 1, eq_ix2 j⟩
    have hv0 : ((((cfg7.win 4).blk t).view.emb (ix2 p q)) 0).val = 5000 * t.val + p.val := by
      show win7_4.index t (0 : Fin 2) * 5000 + 1 * p.val = _
      rw [e40]; omega
    have hv1 : ((((cfg7.win 4).blk t).view.emb (ix2 p q)) 1).val = q.val := by
      show win7_4.index t (1 : Fin 2) * 128 + 1 * q.val = _
      rw [e41]; omega
    rw [comb7_blk V c t p q ((((cfg7.win 4).blk t).view.emb (ix2 p q)) 0) hv0]
    congr 1
    funext a
    apply Fin.ext
    match a with
    | ⟨0, _⟩ => rfl
    | ⟨1, _⟩ => exact hv1.symm
  funext j
  exact key j

/-- An index of the first output is in point `t`'s block iff each coordinate is in the block's range on its axis. -/
theorem mem_blk7_4 (t : Fin cfg7.N) (i : S100000x128.Idx) :
    i ∈ ((cfg7.win 4).blk t).view.set
      ↔ ∀ a : Fin 2, win7_4.index t a * S5000x128.size a ≤ (i a).val
          ∧ (i a).val < win7_4.index t a * S5000x128.size a + S5000x128.size a := by
  show i ∈ ((View.whole main_v137_0).slice (win7_4.rect t)).set ↔ _
  rw [View.set_slice_whole, Rect.mem_set_unit]
  exact Iff.rfl

/-- Every index of the first output is in some point's block: row `r` is in block `r / 5000`. -/
theorem cover7_4 (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  have hN : cfg7.N = 20 := N_7
  have ht : (i 0).val / 5000 < cfg7.N := by rw [hN]; omega
  obtain ⟨-, -, -, -, -, -, -, -, e40, e41, -⟩ := idx_facts7 ⟨(i 0).val / 5000, ht⟩
  refine ⟨⟨(i 0).val / 5000, ht⟩, flush7_4 _, ?_⟩
  rw [mem_blk7_4]
  intro a
  match a with
  | ⟨0, _⟩ =>
    show win7_4.index ⟨(i 0).val / 5000, ht⟩ (0 : Fin 2) * 5000 ≤ (i 0).val
      ∧ (i 0).val < win7_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win7_4.index ⟨(i 0).val / 5000, ht⟩ (1 : Fin 2) * 128 ≤ (i 1).val
      ∧ (i 1).val < win7_4.index ⟨(i 0).val / 5000, ht⟩ (1 : Fin 2) * 128 + 128
    rw [e41]; omega

/-- The first output after the region: the combination of the arrays as the region finds them. -/
theorem final7_y (c : Dev nD) : (dat7 (F := Ideal) V c).arrAt 4 cfg7.N = Y7 V c :=
  (dat7 V c).arrAt_eq_of_cover 4 _ (fun t _ => flushed7_4_eq V c t) cover7_4

/-- After point `n` the first accumulator holds, in column `q`, the total of the combination over the first
    `5000·(n + 1)` rows: by induction on the point, each point adding its block's column sums. -/
theorem acc7_0_eq (c : Dev nD) (q : Fin 128) : ∀ (n : ℕ) (hn : n < cfg7.N),
    (outsAt7 V c n hn).2.2.2.1 (ix2 (0 : Fin 1) q)
      = ∑ m ∈ Finset.range (5000 * (n + 1)), Cert.Lib.ext0 (fun r : Fin 100000 => Y7 V c (ix2 r q)) m
  | 0, hn => by
    have hN : cfg7.N = 20 := N_7
    have h19 : ¬(0 : ℕ) = 19 := by decide
    have e := outsAt7_A V c ⟨0, hn⟩ rfl h19
    rw [show outsAt7 V c 0 hn = _ from e]
    dsimp only
    rw [sout7_A_0_eq (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => h19 ((hcond7_1 ⟨0, hn⟩).mp h)) (iblk7 V c 0 ⟨0, hn⟩) (iblk7 V c 1 ⟨0, hn⟩) (iblk7 V c 2 ⟨0, hn⟩) (iblk7 V c 3 ⟨0, hn⟩)]
    rw [colsum7_apply, zero7_0_apply, zero_add,
      Cert.Lib.sum_range_block (fun r : Fin 100000 => Y7 V c (ix2 r q)) 5000 0 (by norm_num),
      show ∑ m ∈ Finset.range (5000 * 0), Cert.Lib.ext0 (fun r : Fin 100000 => Y7 V c (ix2 r q)) m = 0 from by
        rw [Nat.mul_zero, Finset.range_zero, Finset.sum_empty],
      zero_add]
    exact Finset.sum_congr rfl (fun k _ => comb7_blk V c ⟨0, hn⟩ k q ⟨5000 * 0 + k.val, by have := k.isLt; omega⟩ rfl)
  | n + 1, hn => by
    have hN : cfg7.N = 20 := N_7
    have hn20 : n + 1 < 20 := hN ▸ hn
    have ih := acc7_0_eq c q n (Nat.lt_of_succ_lt hn)
    have hstep := Cert.Lib.sum_range_block (fun r : Fin 100000 => Y7 V c (ix2 r q)) 5000 (n + 1) (by omega)
    by_cases h1 : n + 1 = 19
    · have e := outsAt7_C V c ⟨n + 1, hn⟩ (Nat.succ_ne_zero n) h1
      rw [show outsAt7 V c (n + 1) hn = _ from e]
      dsimp only
      rw [sout7_C_0_eq (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 V c ((⟨n + 1, hn⟩ : Fin cfg7.N).val - 1) (Nat.lt_of_le_of_lt (Nat.sub_le _ _) (⟨n + 1, hn⟩ : Fin cfg7.N).isLt)).2.2.2.1 (outsAt7 V c ((⟨n + 1, hn⟩ : Fin cfg7.N).val - 1) (Nat.lt_of_le_of_lt (Nat.sub_le _ _) (⟨n + 1, hn⟩ : Fin cfg7.N).isLt)).2.2.2.2]
      rw [colsum7_apply, hstep]
      exact congrArg₂ (· + ·) ih (Finset.sum_congr rfl (fun k _ => comb7_blk V c ⟨n + 1, hn⟩ k q ⟨5000 * (n + 1) + k.val, by have := k.isLt; omega⟩ rfl))
    · have e := outsAt7_B V c ⟨n + 1, hn⟩ (Nat.succ_ne_zero n) h1
      rw [show outsAt7 V c (n + 1) hn = _ from e]
      dsimp only
      rw [sout7_B_0_eq (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 V c ((⟨n + 1, hn⟩ : Fin cfg7.N).val - 1) (Nat.lt_of_le_of_lt (Nat.sub_le _ _) (⟨n + 1, hn⟩ : Fin cfg7.N).isLt)).2.2.2.1 (outsAt7 V c ((⟨n + 1, hn⟩ : Fin cfg7.N).val - 1) (Nat.lt_of_le_of_lt (Nat.sub_le _ _) (⟨n + 1, hn⟩ : Fin cfg7.N).isLt)).2.2.2.2]
      rw [colsum7_apply, hstep]
      exact congrArg₂ (· + ·) ih (Finset.sum_congr rfl (fun k _ => comb7_blk V c ⟨n + 1, hn⟩ k q ⟨5000 * (n + 1) + k.val, by have := k.isLt; omega⟩ rfl))

/-- After point `n` the second accumulator holds, in column `q`, the total of the squared combination over the first
    `5000·(n + 1)` rows: by induction on the point, each point adding its block's column sums of squares. -/
theorem acc7_1_eq (c : Dev nD) (q : Fin 128) : ∀ (n : ℕ) (hn : n < cfg7.N),
    (outsAt7 V c n hn).2.2.2.2 (ix2 (0 : Fin 1) q)
      = ∑ m ∈ Finset.range (5000 * (n + 1)), Cert.Lib.ext0 (fun r : Fin 100000 => Y7 V c (ix2 r q) * Y7 V c (ix2 r q)) m
  | 0, hn => by
    have hN : cfg7.N = 20 := N_7
    have h19 : ¬(0 : ℕ) = 19 := by decide
    have e := outsAt7_A V c ⟨0, hn⟩ rfl h19
    rw [show outsAt7 V c 0 hn = _ from e]
    dsimp only
    rw [sout7_A_1_eq (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => h19 ((hcond7_1 ⟨0, hn⟩).mp h)) (iblk7 V c 0 ⟨0, hn⟩) (iblk7 V c 1 ⟨0, hn⟩) (iblk7 V c 2 ⟨0, hn⟩) (iblk7 V c 3 ⟨0, hn⟩)]
    rw [colsumsq7_apply, zero7_1_apply, zero_add,
      Cert.Lib.sum_range_block (fun r : Fin 100000 => Y7 V c (ix2 r q) * Y7 V c (ix2 r q)) 5000 0 (by norm_num),
      show ∑ m ∈ Finset.range (5000 * 0), Cert.Lib.ext0 (fun r : Fin 100000 => Y7 V c (ix2 r q) * Y7 V c (ix2 r q)) m = 0 from by
        rw [Nat.mul_zero, Finset.range_zero, Finset.sum_empty],
      zero_add]
    exact Finset.sum_congr rfl (fun k _ => by rw [comb7_blk V c ⟨0, hn⟩ k q ⟨5000 * 0 + k.val, by have := k.isLt; omega⟩ rfl])
  | n + 1, hn => by
    have hN : cfg7.N = 20 := N_7
    have hn20 : n + 1 < 20 := hN ▸ hn
    have ih := acc7_1_eq c q n (Nat.lt_of_succ_lt hn)
    have hstep := Cert.Lib.sum_range_block (fun r : Fin 100000 => Y7 V c (ix2 r q) * Y7 V c (ix2 r q)) 5000 (n + 1) (by omega)
    by_cases h1 : n + 1 = 19
    · have e := outsAt7_C V c ⟨n + 1, hn⟩ (Nat.succ_ne_zero n) h1
      rw [show outsAt7 V c (n + 1) hn = _ from e]
      dsimp only
      rw [sout7_C_1_eq (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 V c ((⟨n + 1, hn⟩ : Fin cfg7.N).val - 1) (Nat.lt_of_le_of_lt (Nat.sub_le _ _) (⟨n + 1, hn⟩ : Fin cfg7.N).isLt)).2.2.2.1 (outsAt7 V c ((⟨n + 1, hn⟩ : Fin cfg7.N).val - 1) (Nat.lt_of_le_of_lt (Nat.sub_le _ _) (⟨n + 1, hn⟩ : Fin cfg7.N).isLt)).2.2.2.2]
      rw [colsumsq7_apply, hstep]
      exact congrArg₂ (· + ·) ih (Finset.sum_congr rfl (fun k _ => by rw [comb7_blk V c ⟨n + 1, hn⟩ k q ⟨5000 * (n + 1) + k.val, by have := k.isLt; omega⟩ rfl]))
    · have e := outsAt7_B V c ⟨n + 1, hn⟩ (Nat.succ_ne_zero n) h1
      rw [show outsAt7 V c (n + 1) hn = _ from e]
      dsimp only
      rw [sout7_B_1_eq (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 V c ((⟨n + 1, hn⟩ : Fin cfg7.N).val - 1) (Nat.lt_of_le_of_lt (Nat.sub_le _ _) (⟨n + 1, hn⟩ : Fin cfg7.N).isLt)).2.2.2.1 (outsAt7 V c ((⟨n + 1, hn⟩ : Fin cfg7.N).val - 1) (Nat.lt_of_le_of_lt (Nat.sub_le _ _) (⟨n + 1, hn⟩ : Fin cfg7.N).isLt)).2.2.2.2]
      rw [colsumsq7_apply, hstep]
      exact congrArg₂ (· + ·) ih (Finset.sum_congr rfl (fun k _ => by rw [comb7_blk V c ⟨n + 1, hn⟩ k q ⟨5000 * (n + 1) + k.val, by have := k.isLt; omega⟩ rfl]))

/-- At the last point output 5's buffer holds what the first accumulator holds. -/
theorem out7_5_eq (c : Dev nD) (t : Fin cfg7.N) (h19 : t.val = 19) :
    (outsAt7 V c t.val t.isLt).2.1 = (outsAt7 V c t.val t.isLt).2.2.2.1 := by
  have h0 : ¬t.val = 0 := by omega
  rw [outsAt7_C V c t h0 h19]
  dsimp only
  rw [out7_C_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h19) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
    sout7_C_0_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h19) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2]

/-- What the last point writes back to output 5 is the row of column sums of the combination. -/
theorem flushed7_5_eq (c : Dev nD) (t : Fin cfg7.N) (hf : (cfg7.win 5).flush t = true) :
    (dat7 (F := Ideal) V c).flushed 5 t = ((cfg7.win 5).blk t).view.read (Elt Ideal) (sumRow (Y7 V c)) := by
  have hN : cfg7.N = 20 := N_7
  have h19 : t.val = 19 := by have := (flush7_5 t).mp hf; have := t.isLt; omega
  show (cfg7.win 5).cut (grid7.coords t) ((dat7 V c).after 5 t) = _
  rw [after7_5, out7_5_eq V c t h19]
  obtain ⟨-, -, -, -, -, -, -, -, -, -, e0, e1, -⟩ := idx_facts7 t
  have key : ∀ j : S1x128.Idx, (outsAt7 V c t.val t.isLt).2.2.2.1 j
      = sumRow (Y7 V c) (((cfg7.win 5).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg7.win 5).blk t).view.emb (ix2 (0 : Fin 1) q)) 1).val = q.val := by
      show win7_5.index t (1 : Fin 2) * 128 + 1 * q.val = _
      rw [e1]; omega
    have hcol : (fun r : Fin 100000 => Y7 V c (ix2 r ((((cfg7.win 5).blk t).view.emb (ix2 (0 : Fin 1) q)) 1)))
        = fun r : Fin 100000 => Y7 V c (ix2 r q) := by
      have hi : ∀ r : Fin 100000, (ix2 r ((((cfg7.win 5).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y7 V c (ix2 r ((((cfg7.win 5).blk t).view.emb (ix2 (0 : Fin 1) q)) 1))
    rw [Cert.Lib.sum_fin_eq_sum_range, hcol, acc7_0_eq V c q t.val t.isLt, h19]
  generalize (outsAt7 V c t.val t.isLt).2.2.2.1 = X at key ⊢
  generalize sumRow (Y7 V c) = G at key ⊢
  funext j
  exact key j

/-- An index of output 5 is in point `t`'s block iff each coordinate is in the block's range on its axis. -/
theorem mem_blk7_5 (t : Fin cfg7.N) (i : S1x128.Idx) :
    i ∈ ((cfg7.win 5).blk t).view.set
      ↔ ∀ a : Fin 2, win7_5.index t a * S1x128.size a ≤ (i a).val
          ∧ (i a).val < win7_5.index t a * S1x128.size a + S1x128.size a := by
  show i ∈ ((View.whole main_v137_1).slice (win7_5.rect t)).set ↔ _
  rw [View.set_slice_whole, Rect.mem_set_unit]
  exact Iff.rfl

/-- The last point's block is the whole of output 5. -/
theorem cover7_5 (i : S1x128.Idx) :
    ∃ t : Fin cfg7.N, (cfg7.win 5).flush t = true ∧ i ∈ ((cfg7.win 5).blk t).view.set := by
  have hi0 : (i 0).val < 1 := (i 0).isLt
  have hi1 : (i 1).val < 128 := (i 1).isLt
  have hN : cfg7.N = 20 := N_7
  have ht : 19 < cfg7.N := by rw [hN]; omega
  obtain ⟨-, -, -, -, -, -, -, -, -, -, e0, e1, -⟩ := idx_facts7 ⟨19, ht⟩
  refine ⟨⟨19, ht⟩, (flush7_5 _).mpr rfl, ?_⟩
  rw [mem_blk7_5]
  intro a
  match a with
  | ⟨0, _⟩ =>
    show win7_5.index ⟨19, ht⟩ (0 : Fin 2) * 1 ≤ (i 0).val ∧ (i 0).val < win7_5.index ⟨19, ht⟩ (0 : Fin 2) * 1 + 1
    rw [e0]; omega
  | ⟨1, _⟩ =>
    show win7_5.index ⟨19, ht⟩ (1 : Fin 2) * 128 ≤ (i 1).val ∧ (i 1).val < win7_5.index ⟨19, ht⟩ (1 : Fin 2) * 128 + 128
    rw [e1]; omega

/-- Output 5 after the region: the row of column sums of the combination over all 100000 rows. -/
theorem final7_sum (c : Dev nD) : (dat7 (F := Ideal) V c).arrAt 5 cfg7.N = sumRow (Y7 V c) :=
  (dat7 V c).arrAt_eq_of_cover 5 _ (fun t hf => flushed7_5_eq V c t hf) cover7_5

/-- At the last point output 6's buffer holds what the second accumulator holds. -/
theorem out7_6_eq (c : Dev nD) (t : Fin cfg7.N) (h19 : t.val = 19) :
    (outsAt7 V c t.val t.isLt).2.2.1 = (outsAt7 V c t.val t.isLt).2.2.2.2 := by
  have h0 : ¬t.val = 0 := by omega
  rw [outsAt7_C V c t h0 h19]
  dsimp only
  rw [out7_C_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h19) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2,
    sout7_C_1_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h19) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2]

/-- What the last point writes back to output 6 is the row of column sums of squares of the combination. -/
theorem flushed7_6_eq (c : Dev nD) (t : Fin cfg7.N) (hf : (cfg7.win 6).flush t = true) :
    (dat7 (F := Ideal) V c).flushed 6 t = ((cfg7.win 6).blk t).view.read (Elt Ideal) (sumSqRow (Y7 V c)) := by
  have hN : cfg7.N = 20 := N_7
  have h19 : t.val = 19 := by have := (flush7_6 t).mp hf; have := t.isLt; omega
  show (cfg7.win 6).cut (grid7.coords t) ((dat7 V c).after 6 t) = _
  rw [after7_6, out7_6_eq V c t h19]
  obtain ⟨-, -, -, -, -, -, -, -, -, -, -, -, e0, e1⟩ := idx_facts7 t
  have key : ∀ j : S1x128.Idx, (outsAt7 V c t.val t.isLt).2.2.2.2 j
      = sumSqRow (Y7 V c) (((cfg7.win 6).blk t).view.emb j) := by
    intro j
    obtain ⟨p, q, rfl⟩ : ∃ (p : Fin 1) (q : Fin 128), j = ix2 p q := ⟨j 0, j 1, eq_ix2 j⟩
    obtain rfl : p = 0 := Subsingleton.elim _ _
    have hv1 : ((((cfg7.win 6).blk t).view.emb (ix2 (0 : Fin 1) q)) 1).val = q.val := by
      show win7_6.index t (1 : Fin 2) * 128 + 1 * q.val = _
      rw [e1]; omega
    have hcol : (fun r : Fin 100000 => Y7 V c (ix2 r ((((cfg7.win 6).blk t).view.emb (ix2 (0 : Fin 1) q)) 1)) * Y7 V c (ix2 r ((((cfg7.win 6).blk t).view.emb (ix2 (0 : Fin 1) q)) 1)))
        = fun r : Fin 100000 => Y7 V c (ix2 r q) * Y7 V c (ix2 r q) := by
      have hi : ∀ r : Fin 100000, (ix2 r ((((cfg7.win 6).blk t).view.emb (ix2 (0 : Fin 1) q)) 1) : S100000x128.Idx) = ix2 r q :=
        fun r => funext fun a => Fin.ext (by
          match a with
          | ⟨0, _⟩ => rfl
          | ⟨1, _⟩ => exact hv1)
      funext r
      rw [hi r]
    show _ = ∑ r : Fin 100000, Y7 V c (ix2 r ((((cfg7.win 6).blk t).view.emb (ix2 (0 : Fin 1) q)) 1)) * Y7 V c (ix2 r ((((cfg7.win 6).blk t).view.emb (ix2 (0 : Fin 1) q)) 1))
    rw [Cert.Lib.sum_fin_eq_sum_range, hcol, acc7_1_eq V c q t.val t.isLt, h19]
  generalize (outsAt7 V c t.val t.isLt).2.2.2.2 = X at key ⊢
  generalize sumSqRow (Y7 V c) = G at key ⊢
  funext j
  exact key j

/-- An index of output 6 is in point `t`'s block iff each coordinate is in the block's range on its axis. -/
theorem mem_blk7_6 (t : Fin cfg7.N) (i : S1x128.Idx) :
    i ∈ ((cfg7.win 6).blk t).view.set
      ↔ ∀ a : Fin 2, win7_6.index t a * S1x128.size a ≤ (i a).val
          ∧ (i a).val < win7_6.index t a * S1x128.size a + S1x128.size a := by
  show i ∈ ((View.whole main_v137_2).slice (win7_6.rect t)).set ↔ _
  rw [View.set_slice_whole, Rect.mem_set_unit]
  exact Iff.rfl

/-- The last point's block is the whole of output 6. -/
theorem cover7_6 (i : S1x128.Idx) :
    ∃ t : Fin cfg7.N, (cfg7.win 6).flush t = true ∧ i ∈ ((cfg7.win 6).blk t).view.set := by
  have hi0 : (i 0).val < 1 := (i 0).isLt
  have hi1 : (i 1).val < 128 := (i 1).isLt
  have hN : cfg7.N = 20 := N_7
  have ht : 19 < cfg7.N := by rw [hN]; omega
  obtain ⟨-, -, -, -, -, -, -, -, -, -, -, -, e0, e1⟩ := idx_facts7 ⟨19, ht⟩
  refine ⟨⟨19, ht⟩, (flush7_6 _).mpr rfl, ?_⟩
  rw [mem_blk7_6]
  intro a
  match a with
  | ⟨0, _⟩ =>
    show win7_6.index ⟨19, ht⟩ (0 : Fin 2) * 1 ≤ (i 0).val ∧ (i 0).val < win7_6.index ⟨19, ht⟩ (0 : Fin 2) * 1 + 1
    rw [e0]; omega
  | ⟨1, _⟩ =>
    show win7_6.index ⟨19, ht⟩ (1 : Fin 2) * 128 ≤ (i 1).val ∧ (i 1).val < win7_6.index ⟨19, ht⟩ (1 : Fin 2) * 128 + 128
    rw [e1]; omega

/-- Output 6 after the region: the row of column sums of squares of the combination over all 100000 rows. -/
theorem final7_sumsq (c : Dev nD) : (dat7 (F := Ideal) V c).arrAt 6 cfg7.N = sumSqRow (Y7 V c) :=
  (dat7 V c).arrAt_eq_of_cover 6 _ (fun t hf => flushed7_6_eq V c t hf) cover7_6

end Cert.KernelIdeal.HandValue

end
-- ==== Proof.KIValue8.lean ====
import proofs.«163161_j55817394979591_1_alg».proof.Proof.KIRegion8
import proofs.«163161_j55817394979591_1_alg».proof.Proof.KIValue2
import proofs.«163161_j55817394979591_1_alg».proof.Proof.NetDefs
import Idealize.ShloMosaic.PureOps.Ideal.Laws
import Idealize.ShloMosaic.Lib.Pipeline.Value
import Idealize.ShloMosaic.Lib.ValueIdx

/-!
# Region 8 of @main as a function of whole arrays: batch normalisation and the rectifier

The region's twenty points each write rows `5000·t … 5000·t + 4999` of the output: the matching rows of `y`,
centred by the row of means, scaled by the row of scales and by the reciprocal square root of the row of
variances plus epsilon, shifted by the row of shifts, and cut below at zero.  So the output array ends as that
function of `y` and the four rows, entry by entry.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-- The body's payload at entry `(p, q)` of a block, over the block of `y` and the rows in the order the body
    loads them (variance, scale, mean, shift). -/
theorem pay8_apply (x0 : Vec Ideal S5000x128 .f32) (xv xg xm xb : Vec Ideal S1x128 .f32)
    (p : Fin 5000) (q : Fin 128) :
    k8_pay1 x0 xv xg xm xb (ix2 p q)
      = max (xg (ix2 (0 : Fin 1) q) * (x0 (ix2 p q) - xm (ix2 (0 : Fin 1) q))
          * Ideal.rsqrt (xv (ix2 (0 : Fin 1) q) + Ideal.ofBits .f32 0x3727C5AC#32)
        + xb (ix2 (0 : Fin 1) q)) 0 := by
  unfold k8_pay1
  show maximumf _ _ (ix2 p q) = _
  rw [maximumf_apply, addf_apply, mulf_apply, mulf_apply, subf_apply]
  simp only [shapeCast_self, spread_apply]
  rw [broadcast_apply]
  show max (_ * _ * Ideal.rsqrt (xv (ix2 (0 : Fin 1) q) + Ideal.ofBits .f32 0x3727C5AC#32) + _)
      (Ideal.ofBits .f32 0x00000000#32) = _
  rw [Ideal.ofBits_zero_f32]

-- the TensorCore's buffer contents when the region is entered
variable (V : (c : Dev nD) → (b : Ref sig .tc) → Buf (Elt Ideal) ((c : Thread nD τ).loc b))

/-- The printed index maps, decided over the twenty points: the y window and the output window sit at row block `t`,
    the four row windows at block `(0, 0)`. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The y window's block at point `t` is rows `5000·t …` of `y`. -/
theorem yblk8_apply (c : Dev nD) (t : Fin cfg8.N) (y : S5000x128.Idx) (i : S100000x128.Idx)
    (h0 : (i 0).val = 5000 * t.val + (y 0).val) (h1 : (i 1).val = (y 1).val) :
    (iblk8 V c 0 t : Vec Ideal S5000x128 .f32) y = (V c main_v137_0 : S100000x128.Idx → EReal) i := by
  obtain ⟨e00, e01, -⟩ := idx_facts8 t
  unfold iblk8
  rw [View.read_apply]
  show (V c main_v137_0 : S100000x128.Idx → EReal) _ = _
  congr 1
  funext a
  apply Fin.ext
  match a with
  | ⟨0, _⟩ => show win8_0.index t (0 : Fin 2) * 5000 + 1 * (y 0).val = (i 0).val; rw [e00, h0]; omega
  | ⟨1, _⟩ => show win8_0.index t (1 : Fin 2) * 128 + 1 * (y 1).val = (i 1).val; rw [e01, h1]; omega

/-- The window of means at every point is the whole row of means. -/
theorem mublk8_apply (c : Dev nD) (t : Fin cfg8.N) (y : S1x128.Idx) :
    (iblk8 V c 1 t : Vec Ideal S1x128 .f32) y = (V c main_v139 : S1x128.Idx → EReal) y := by
  obtain ⟨-, -, e0, e1, -⟩ := idx_facts8 t
  unfold iblk8
  rw [View.read_apply]
  show (V c main_v139 : S1x128.Idx → EReal) _ = _
  congr 1
  funext a
  apply Fin.ext
  match a with
  | ⟨0, _⟩ => show win8_1.index t (0 : Fin 2) * 1 + 1 * (y 0).val = (y 0).val; rw [e0]; omega
  | ⟨1, _⟩ => show win8_1.index t (1 : Fin 2) * 128 + 1 * (y 1).val = (y 1).val; rw [e1]; omega

/-- The window of variances at every point is the whole row of variances. -/
theorem varblk8_apply (c : Dev nD) (t : Fin cfg8.N) (y : S1x128.Idx) :
    (iblk8 V c 2 t : Vec Ideal S1x128 .f32) y = (V c main_v143 : S1x128.Idx → EReal) y := by
  obtain ⟨-, -, -, -, e0, e1, -⟩ := idx_facts8 t
  unfold iblk8
  rw [View.read_apply]
  show (V c main_v143 : S1x128.Idx → EReal) _ = _
  congr 1
  funext a
  apply Fin.ext
  match a with
  | ⟨0, _⟩ => show win8_2.index t (0 : Fin 2) * 1 + 1 * (y 0).val = (y 0).val; rw [e0]; omega
  | ⟨1, _⟩ => show win8_2.index t (1 : Fin 2) * 128 + 1 * (y 1).val = (y 1).val; rw [e1]; omega

/-- The window of scales at every point is the whole row of scales. -/
theorem gammablk8_apply (c : Dev nD) (t : Fin cfg8.N) (y : S1x128.Idx) :
    (iblk8 V c 3 t : Vec Ideal S1x128 .f32) y = (V c main_v146 : S1x128.Idx → EReal) y := by
  obtain ⟨-, -, -, -, -, -, e0, e1, -⟩ := idx_facts8 t
  unfold iblk8
  rw [View.read_apply]
  show (V c main_v146 : S1x128.Idx → EReal) _ = _
  congr 1
  funext a
  apply Fin.ext
  match a with
  | ⟨0, _⟩ => show win8_3.index t (0 : Fin 2) * 1 + 1 * (y 0).val = (y 0).val; rw [e0]; omega
  | ⟨1, _⟩ => show win8_3.index t (1 : Fin 2) * 128 + 1 * (y 1).val = (y 1).val; rw [e1]; omega

/-- The window of shifts at every point is the whole row of shifts. -/
theorem betablk8_apply (c : Dev nD) (t : Fin cfg8.N) (y : S1x128.Idx) :
    (iblk8 V c 4 t : Vec Ideal S1x128 .f32) y = (V c main_v149 : S1x128.Idx → EReal) y := by
  obtain ⟨-, -, -, -, -, -, -, -, e0, e1, -⟩ := idx_facts8 t
  unfold iblk8
  rw [View.read_apply]
  show (V c main_v149 : S1x128.Idx → EReal) _ = _
  congr 1
  funext a
  apply Fin.ext
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

/-- What point `t` writes back is block `t` of the normalised, rectified array of the arrays as the region finds
    them. -/
theorem flushed8_eq (c : Dev nD) (t : Fin cfg8.N) :
    (dat8 (F := Ideal) V c).flushed 5 t
      = ((cfg8.win 5).blk t).view.read (Elt Ideal)
          (normRelu (V c main_v137_0) (V c main_v139) (V c main_v143) (V c main_v146) (V c main_v149)) := by
  show (cfg8.win 5).cut (grid8.coords t) ((dat8 V c).after 5 t) = _
  rw [after8_5]
  unfold out8_5
  rw [View.canon_unit_zero origin2]
  simp only [View.ld_unit_zero (S := S5000x128) origin2, View.ld_unit_zero (S := S1x128) origin2]
  obtain ⟨-, -, -, -, -, -, -, -, -, -, e50, e51⟩ := idx_facts8 t
  have key : ∀ j : S5000x128.Idx,
      k8_pay1 (iblk8 V c 0 t) (iblk8 V c 2 t) (iblk8 V c 3 t) (iblk8 V c 1 t) (iblk8 V c 4 t) j
        = normRelu (V c main_v137_0) (V c main_v139) (V c main_v143) (V c main_v146) (V c main_v149)
            (((cfg8.win 5).blk t).view.emb j) := by
    intro j
    obtain ⟨p, q, rfl⟩ : ∃ (p : Fin 5000) (q : Fin 128), j = ix2 p q := ⟨j 0, j 1, eq_ix2 j⟩
    have hv0 : ((((cfg8.win 5).blk t).view.emb (ix2 p q)) 0).val = 5000 * t.val + p.val := by
      show win8_5.index t (0 : Fin 2) * 5000 + 1 * p.val = _
      rw [e50]; omega
    have hv1 : ((((cfg8.win 5).blk t).view.emb (ix2 p q)) 1).val = q.val := by
      show win8_5.index t (1 : Fin 2) * 128 + 1 * q.val = _
      rw [e51]; omega
    have hq : (ix2 (0 : Fin 1) ((((cfg8.win 5).blk t).view.emb (ix2 p q)) 1) : S1x128.Idx) = ix2 (0 : Fin 1) q := by
      funext a
      apply Fin.ext
      match a with
      | ⟨0, _⟩ => rfl
      | ⟨1, _⟩ => exact hv1
    rw [pay8_apply]
    unfold normRelu Cert.Net.normReluAt
    rw [hq, mublk8_apply V c t, varblk8_apply V c t, gammablk8_apply V c t, betablk8_apply V c t,
      yblk8_apply V c t (ix2 p q) (ix2 ((((cfg8.win 5).blk t).view.emb (ix2 p q)) 0)
        ((((cfg8.win 5).blk t).view.emb (ix2 p q)) 1)) hv0 hv1]
  funext j
  exact key j

/-- An index of the output array is in point `t`'s block iff each coordinate is in the block's range on its axis. -/
theorem mem_blk8 (t : Fin cfg8.N) (i : S100000x128.Idx) :
    i ∈ ((cfg8.win 5).blk t).view.set
      ↔ ∀ a : Fin 2, win8_5.index t a * S5000x128.size a ≤ (i a).val
          ∧ (i a).val < win8_5.index t a * S5000x128.size a + S5000x128.size a := by
  show i ∈ ((View.whole main_v150).slice (win8_5.rect t)).set ↔ _
  rw [View.set_slice_whole, Rect.mem_set_unit]
  exact Iff.rfl

/-- Every index of the output array is in some point's block: row `r` is in block `r / 5000`. -/
theorem cover8 (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  have hN : cfg8.N = 20 := N_8
  have ht : (i 0).val / 5000 < cfg8.N := by rw [hN]; omega
  obtain ⟨-, -, -, -, -, -, -, -, -, -, e50, e51⟩ := idx_facts8 ⟨(i 0).val / 5000, ht⟩
  refine ⟨⟨(i 0).val / 5000, ht⟩, flush8_5 _, ?_⟩
  rw [mem_blk8]
  intro a
  match a with
  | ⟨0, _⟩ =>
    show win8_5.index ⟨(i 0).val / 5000, ht⟩ (0 : Fin 2) * 5000 ≤ (i 0).val
      ∧ (i 0).val < win8_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win8_5.index ⟨(i 0).val / 5000, ht⟩ (1 : Fin 2) * 128 ≤ (i 1).val
      ∧ (i 1).val < win8_5.index ⟨(i 0).val / 5000, ht⟩ (1 : Fin 2) * 128 + 128
    rw [e51]; omega

/-- The output array after the region: the normalised, rectified array of the arrays as the region finds them. -/
theorem final8 (c : Dev nD) :
    (dat8 (F := Ideal) V c).arrAt 5 cfg8.N
      = normRelu (V c main_v137_0) (V c main_v139) (V c main_v143) (V c main_v146) (V c main_v149) :=
  (dat8 V c).arrAt_eq_of_cover 5 _ (fun t _ => flushed8_eq V c t) cover8

end Cert.KernelIdeal.HandValue

end
-- ==== Proof.KIChain.lean ====
/-
  What the tiled program computes, read off its run: boundary by boundary, what each buffer a region or a host stretch
  reads holds there, as a function of the nine argument arrays — the projection H0, the edge norm, and per layer the
  aggregate of the previous features, the combination Y, its column sums and sums of squares, the mean and variance
  rows, and the normalised rectified output. The result buffer ends at the four layers applied to H0.
-/
import proofs.«163161_j55817394979591_1_alg».proof.Proof.KIPersist
import proofs.«163161_j55817394979591_1_alg».proof.Proof.KINet
import proofs.«163161_j55817394979591_1_alg».proof.Proof.KIHost0
import proofs.«163161_j55817394979591_1_alg».proof.Proof.KIHost1
import proofs.«163161_j55817394979591_1_alg».proof.Proof.KIValue0
import proofs.«163161_j55817394979591_1_alg».proof.Proof.KIValue1
import proofs.«163161_j55817394979591_1_alg».proof.Proof.KIValue2
import proofs.«163161_j55817394979591_1_alg».proof.Proof.KIValue3
import proofs.«163161_j55817394979591_1_alg».proof.Proof.KIValue4
import proofs.«163161_j55817394979591_1_alg».proof.Proof.KIValue5
import proofs.«163161_j55817394979591_1_alg».proof.Proof.KIValue6
import proofs.«163161_j55817394979591_1_alg».proof.Proof.KIValue7
import proofs.«163161_j55817394979591_1_alg».proof.Proof.KIValue8
import proofs.«163161_j55817394979591_1_alg».proof.Proof.KIRegion1
import proofs.«163161_j55817394979591_1_alg».proof.Proof.KIRegion3
import proofs.«163161_j55817394979591_1_alg».proof.Proof.KIRegion5
import proofs.«163161_j55817394979591_1_alg».proof.Proof.KIRegion7

set_option maxRecDepth 16384

noncomputable section

namespace Cert.KernelIdeal.HandValue

open Cert.KernelIdeal Cert.KernelIdeal.Gen Cert.KernelIdeal.Hand Cert.KernelIdeal.HandHost
open Idealize.ShloMosaic Idealize.ShloMosaic.TcCoe Idealize.SL.Sem

variable (m : (ℓ : Loc nD τ sig) → Buf (Elt Ideal) ℓ) (c : Dev nD)

/-! ## The first boundary and the projection -/

theorem at3_v24 : S3 m c main_v24 = NRM m c := by
  unfold S3 NRM; exact first_v24 (V0 m c)
theorem at3_v25 : S3 m c main_v25 = biasRow (A4 m c) := by
  unfold S3; exact first_v25 (V0 m c)
theorem at4_v26 : S4 m c main_v26 = H0 m c := by
  rw [S4_main_v26]; unfold o_main_v26 H0
  rw [final0, S3_main_arg0, S3_main_arg3, at3_v25]

/-! ## Layer 0 -/

theorem at5_main_v39 : S5 m c main_v39 = aggregate (H0 m c) (A1 m c) (A2 m c) (NRM m c) := by
  rw [S5_def, hostOps1_v39, at4_v26 m c, keep_main_arg1_3_4, keep_main_arg2_3_4, keep_main_v24_3_4, S3_main_arg1, S3_main_arg2, at3_v24]
theorem at5_v26 : S5 m c main_v26 = H0 m c := by
  rw [keep_main_v26_4_5, at4_v26]
theorem at5_main_v41 : S5 m c main_v41 = weightSlice 0 (A5 m c) := by
  rw [S5_def, hostOps1_v41, keep_main_arg5_3_4, S3_main_arg5]
theorem at5_main_v43 : S5 m c main_v43 = weightSlice 0 (A6 m c) := by
  rw [S5_def, hostOps1_v43, keep_main_arg6_3_4, S3_main_arg6]
theorem at6_main_v44_0 : S6 m dat1 c main_v44_0 = Ycomb m c 0 (Ideal.ofBits .f32 0x3F317218#32) (Ideal.ofBits .f32 0x3E9D1BD0#32) (H0 m c) := by
  rw [S6_main_v44_0]; unfold o_main_v44_0 Ycomb
  rw [final1_y]; unfold Y1; (try dsimp only)
  rw [at5_main_v39, at5_v26, at5_main_v41, at5_main_v43]
theorem at6_main_v44_1 : S6 m dat1 c main_v44_1 = sumRow (Ycomb m c 0 (Ideal.ofBits .f32 0x3F317218#32) (Ideal.ofBits .f32 0x3E9D1BD0#32) (H0 m c)) := by
  rw [S6_main_v44_1]; unfold o_main_v44_1 Ycomb
  rw [final1_sum]; unfold Y1; (try dsimp only)
  rw [at5_main_v39, at5_v26, at5_main_v41, at5_main_v43]
theorem at6_main_v44_2 : S6 m dat1 c main_v44_2 = sumSqRow (Ycomb m c 0 (Ideal.ofBits .f32 0x3F317218#32) (Ideal.ofBits .f32 0x3E9D1BD0#32) (H0 m c)) := by
  rw [S6_main_v44_2]; unfold o_main_v44_2 Ycomb
  rw [final1_sumsq]; unfold Y1; (try dsimp only)
  rw [at5_main_v39, at5_v26, at5_main_v41, at5_main_v43]
theorem at7_main_v44_0 : S7 m dat1 c main_v44_0 = Ycomb m c 0 (Ideal.ofBits .f32 0x3F317218#32) (Ideal.ofBits .f32 0x3E9D1BD0#32) (H0 m c) := by
  rw [keep_main_v44_0_6_7, at6_main_v44_0]
theorem at7_main_v46 : S7 m dat1 c main_v46 = meanRow (sumRow (Ycomb m c 0 (Ideal.ofBits .f32 0x3F317218#32) (Ideal.ofBits .f32 0x3E9D1BD0#32) (H0 m c))) := by
  rw [S7_def, hostOps2_v46, at6_main_v44_1]
theorem at7_main_v50 : S7 m dat1 c main_v50 = varRow (sumRow (Ycomb m c 0 (Ideal.ofBits .f32 0x3F317218#32) (Ideal.ofBits .f32 0x3E9D1BD0#32) (H0 m c))) (sumSqRow (Ycomb m c 0 (Ideal.ofBits .f32 0x3F317218#32) (Ideal.ofBits .f32 0x3E9D1BD0#32) (H0 m c))) := by
  rw [S7_def, hostOps2_v50, at6_main_v44_1, at6_main_v44_2]
theorem at7_main_v53 : S7 m dat1 c main_v53 = paramRow 0 (A7 m c) := by
  rw [S7_def, hostOps2_v53, keep_main_arg7_3_6, S3_main_arg7]
theorem at7_main_v56 : S7 m dat1 c main_v56 = paramRow 0 (A8 m c) := by
  rw [S7_def, hostOps2_v56, keep_main_arg8_3_6, S3_main_arg8]
theorem at8_main_v57 : S8 m dat1 c main_v57 = H1 m c := by
  rw [S8_main_v57]; unfold o_main_v57 H1 OUT
  rw [final2, at7_main_v44_0, at7_main_v46, at7_main_v50, at7_main_v53, at7_main_v56]

/-! ## Layer 1 -/

theorem at9_main_v70 : S9 m dat1 c main_v70 = aggregate (H1 m c) (A1 m c) (A2 m c) (NRM m c) := by
  rw [S9_def, hostOps3_v70, at8_main_v57 m c, keep_main_arg1_3_8, keep_main_arg2_3_8, keep_main_v24_3_8, S3_main_arg1, S3_main_arg2, at3_v24]
theorem at9_v26 : S9 m dat1 c main_v26 = H0 m c := by
  rw [keep_main_v26_4_9, at4_v26]
theorem at9_main_v72 : S9 m dat1 c main_v72 = weightSlice 1 (A5 m c) := by
  rw [S9_def, hostOps3_v72, keep_main_arg5_3_8, S3_main_arg5]
theorem at9_main_v74 : S9 m dat1 c main_v74 = weightSlice 1 (A6 m c) := by
  rw [S9_def, hostOps3_v74, keep_main_arg6_3_8, S3_main_arg6]
theorem at10_main_v75_0 : S10 m dat1 dat3 c main_v75_0 = Ycomb m c 1 (Ideal.ofBits .f32 0x3ECF991F#32) (Named.named (F := Ideal) Cert.KernelIdeal.κ "one_minus_beta_1" (φ := .f32) 0x3F183370#32) (H1 m c) := by
  rw [S10_main_v75_0]; unfold o_main_v75_0 Ycomb
  rw [final3_y]; unfold Y3; (try dsimp only)
  rw [at9_main_v70, at9_v26, at9_main_v72, at9_main_v74]
theorem at10_main_v75_1 : S10 m dat1 dat3 c main_v75_1 = sumRow (Ycomb m c 1 (Ideal.ofBits .f32 0x3ECF991F#32) (Named.named (F := Ideal) Cert.KernelIdeal.κ "one_minus_beta_1" (φ := .f32) 0x3F183370#32) (H1 m c)) := by
  rw [S10_main_v75_1]; unfold o_main_v75_1 Ycomb
  rw [final3_sum]; unfold Y3; (try dsimp only)
  rw [at9_main_v70, at9_v26, at9_main_v72, at9_main_v74]
theorem at10_main_v75_2 : S10 m dat1 dat3 c main_v75_2 = sumSqRow (Ycomb m c 1 (Ideal.ofBits .f32 0x3ECF991F#32) (Named.named (F := Ideal) Cert.KernelIdeal.κ "one_minus_beta_1" (φ := .f32) 0x3F183370#32) (H1 m c)) := by
  rw [S10_main_v75_2]; unfold o_main_v75_2 Ycomb
  rw [final3_sumsq]; unfold Y3; (try dsimp only)
  rw [at9_main_v70, at9_v26, at9_main_v72, at9_main_v74]
theorem at11_main_v75_0 : S11 m dat1 dat3 c main_v75_0 = Ycomb m c 1 (Ideal.ofBits .f32 0x3ECF991F#32) (Named.named (F := Ideal) Cert.KernelIdeal.κ "one_minus_beta_1" (φ := .f32) 0x3F183370#32) (H1 m c) := by
  rw [keep_main_v75_0_10_11, at10_main_v75_0]
theorem at11_main_v77 : S11 m dat1 dat3 c main_v77 = meanRow (sumRow (Ycomb m c 1 (Ideal.ofBits .f32 0x3ECF991F#32) (Named.named (F := Ideal) Cert.KernelIdeal.κ "one_minus_beta_1" (φ := .f32) 0x3F183370#32) (H1 m c))) := by
  rw [S11_def, hostOps4_v77, at10_main_v75_1]
theorem at11_main_v81 : S11 m dat1 dat3 c main_v81 = varRow (sumRow (Ycomb m c 1 (Ideal.ofBits .f32 0x3ECF991F#32) (Named.named (F := Ideal) Cert.KernelIdeal.κ "one_minus_beta_1" (φ := .f32) 0x3F183370#32) (H1 m c))) (sumSqRow (Ycomb m c 1 (Ideal.ofBits .f32 0x3ECF991F#32) (Named.named (F := Ideal) Cert.KernelIdeal.κ "one_minus_beta_1" (φ := .f32) 0x3F183370#32) (H1 m c))) := by
  rw [S11_def, hostOps4_v81, at10_main_v75_1, at10_main_v75_2]
theorem at11_main_v84 : S11 m dat1 dat3 c main_v84 = paramRow 1 (A7 m c) := by
  rw [S11_def, hostOps4_v84, keep_main_arg7_3_10, S3_main_arg7]
theorem at11_main_v87 : S11 m dat1 dat3 c main_v87 = paramRow 1 (A8 m c) := by
  rw [S11_def, hostOps4_v87, keep_main_arg8_3_10, S3_main_arg8]
theorem at12_main_v88 : S12 m dat1 dat3 c main_v88 = H2 m c := by
  rw [S12_main_v88]; unfold o_main_v88 H2 OUT
  rw [final4, at11_main_v75_0, at11_main_v77, at11_main_v81, at11_main_v84, at11_main_v87]

/-! ## Layer 2 -/

theorem at13_main_v101 : S13 m dat1 dat3 c main_v101 = aggregate (H2 m c) (A1 m c) (A2 m c) (NRM m c) := by
  rw [S13_def, hostOps5_v101, at12_main_v88 m c, keep_main_arg1_3_12, keep_main_arg2_3_12, keep_main_v24_3_12, S3_main_arg1, S3_main_arg2, at3_v24]
theorem at13_v26 : S13 m dat1 dat3 c main_v26 = H0 m c := by
  rw [keep_main_v26_4_13, at4_v26]
theorem at13_main_v103 : S13 m dat1 dat3 c main_v103 = weightSlice 2 (A5 m c) := by
  rw [S13_def, hostOps5_v103, keep_main_arg5_3_12, S3_main_arg5]
theorem at13_main_v105 : S13 m dat1 dat3 c main_v105 = weightSlice 2 (A6 m c) := by
  rw [S13_def, hostOps5_v105, keep_main_arg6_3_12, S3_main_arg6]
theorem at14_main_v106_0 : S14 m dat1 dat3 dat5 c main_v106_0 = Ycomb m c 2 (Ideal.ofBits .f32 0x3E934B11#32) (Named.named (F := Ideal) Cert.KernelIdeal.κ "one_minus_beta_2" (φ := .f32) 0x3F365A78#32) (H2 m c) := by
  rw [S14_main_v106_0]; unfold o_main_v106_0 Ycomb
  rw [final5_y]; unfold Y5; (try dsimp only)
  rw [at13_main_v101, at13_v26, at13_main_v103, at13_main_v105]
theorem at14_main_v106_1 : S14 m dat1 dat3 dat5 c main_v106_1 = sumRow (Ycomb m c 2 (Ideal.ofBits .f32 0x3E934B11#32) (Named.named (F := Ideal) Cert.KernelIdeal.κ "one_minus_beta_2" (φ := .f32) 0x3F365A78#32) (H2 m c)) := by
  rw [S14_main_v106_1]; unfold o_main_v106_1 Ycomb
  rw [final5_sum]; unfold Y5; (try dsimp only)
  rw [at13_main_v101, at13_v26, at13_main_v103, at13_main_v105]
theorem at14_main_v106_2 : S14 m dat1 dat3 dat5 c main_v106_2 = sumSqRow (Ycomb m c 2 (Ideal.ofBits .f32 0x3E934B11#32) (Named.named (F := Ideal) Cert.KernelIdeal.κ "one_minus_beta_2" (φ := .f32) 0x3F365A78#32) (H2 m c)) := by
  rw [S14_main_v106_2]; unfold o_main_v106_2 Ycomb
  rw [final5_sumsq]; unfold Y5; (try dsimp only)
  rw [at13_main_v101, at13_v26, at13_main_v103, at13_main_v105]
theorem at15_main_v106_0 : S15 m dat1 dat3 dat5 c main_v106_0 = Ycomb m c 2 (Ideal.ofBits .f32 0x3E934B11#32) (Named.named (F := Ideal) Cert.KernelIdeal.κ "one_minus_beta_2" (φ := .f32) 0x3F365A78#32) (H2 m c) := by
  rw [keep_main_v106_0_14_15, at14_main_v106_0]
theorem at15_main_v108 : S15 m dat1 dat3 dat5 c main_v108 = meanRow (sumRow (Ycomb m c 2 (Ideal.ofBits .f32 0x3E934B11#32) (Named.named (F := Ideal) Cert.KernelIdeal.κ "one_minus_beta_2" (φ := .f32) 0x3F365A78#32) (H2 m c))) := by
  rw [S15_def, hostOps6_v108, at14_main_v106_1]
theorem at15_main_v112 : S15 m dat1 dat3 dat5 c main_v112 = varRow (sumRow (Ycomb m c 2 (Ideal.ofBits .f32 0x3E934B11#32) (Named.named (F := Ideal) Cert.KernelIdeal.κ "one_minus_beta_2" (φ := .f32) 0x3F365A78#32) (H2 m c))) (sumSqRow (Ycomb m c 2 (Ideal.ofBits .f32 0x3E934B11#32) (Named.named (F := Ideal) Cert.KernelIdeal.κ "one_minus_beta_2" (φ := .f32) 0x3F365A78#32) (H2 m c))) := by
  rw [S15_def, hostOps6_v112, at14_main_v106_1, at14_main_v106_2]
theorem at15_main_v115 : S15 m dat1 dat3 dat5 c main_v115 = paramRow 2 (A7 m c) := by
  rw [S15_def, hostOps6_v115, keep_main_arg7_3_14, S3_main_arg7]
theorem at15_main_v118 : S15 m dat1 dat3 dat5 c main_v118 = paramRow 2 (A8 m c) := by
  rw [S15_def, hostOps6_v118, keep_main_arg8_3_14, S3_main_arg8]
theorem at16_main_v119 : S16 m dat1 dat3 dat5 c main_v119 = H3 m c := by
  rw [S16_main_v119]; unfold o_main_v119 H3 OUT
  rw [final6, at15_main_v106_0, at15_main_v108, at15_main_v112, at15_main_v115, at15_main_v118]

/-! ## Layer 3 -/

theorem at17_main_v132 : S17 m dat1 dat3 dat5 c main_v132 = aggregate (H3 m c) (A1 m c) (A2 m c) (NRM m c) := by
  rw [S17_def, hostOps7_v132, at16_main_v119 m c, keep_main_arg1_3_16, keep_main_arg2_3_16, keep_main_v24_3_16, S3_main_arg1, S3_main_arg2, at3_v24]
theorem at17_v26 : S17 m dat1 dat3 dat5 c main_v26 = H0 m c := by
  rw [keep_main_v26_4_17, at4_v26]
theorem at17_main_v134 : S17 m dat1 dat3 dat5 c main_v134 = weightSlice 3 (A5 m c) := by
  rw [S17_def, hostOps7_v134, keep_main_arg5_3_16, S3_main_arg5]
theorem at17_main_v136 : S17 m dat1 dat3 dat5 c main_v136 = weightSlice 3 (A6 m c) := by
  rw [S17_def, hostOps7_v136, keep_main_arg6_3_16, S3_main_arg6]
theorem at18_main_v137_0 : S18 m dat1 dat3 dat5 dat7 c main_v137_0 = Ycomb m c 3 (Ideal.ofBits .f32 0x3E647FBE#32) (Named.named (F := Ideal) Cert.KernelIdeal.κ "one_minus_beta_3" (φ := .f32) 0x3F46E010#32) (H3 m c) := by
  rw [S18_main_v137_0]; unfold o_main_v137_0 Ycomb
  rw [final7_y]; unfold Y7; (try dsimp only)
  rw [at17_main_v132, at17_v26, at17_main_v134, at17_main_v136]
theorem at18_main_v137_1 : S18 m dat1 dat3 dat5 dat7 c main_v137_1 = sumRow (Ycomb m c 3 (Ideal.ofBits .f32 0x3E647FBE#32) (Named.named (F := Ideal) Cert.KernelIdeal.κ "one_minus_beta_3" (φ := .f32) 0x3F46E010#32) (H3 m c)) := by
  rw [S18_main_v137_1]; unfold o_main_v137_1 Ycomb
  rw [final7_sum]; unfold Y7; (try dsimp only)
  rw [at17_main_v132, at17_v26, at17_main_v134, at17_main_v136]
theorem at18_main_v137_2 : S18 m dat1 dat3 dat5 dat7 c main_v137_2 = sumSqRow (Ycomb m c 3 (Ideal.ofBits .f32 0x3E647FBE#32) (Named.named (F := Ideal) Cert.KernelIdeal.κ "one_minus_beta_3" (φ := .f32) 0x3F46E010#32) (H3 m c)) := by
  rw [S18_main_v137_2]; unfold o_main_v137_2 Ycomb
  rw [final7_sumsq]; unfold Y7; (try dsimp only)
  rw [at17_main_v132, at17_v26, at17_main_v134, at17_main_v136]
theorem at19_main_v137_0 : S19 m dat1 dat3 dat5 dat7 c main_v137_0 = Ycomb m c 3 (Ideal.ofBits .f32 0x3E647FBE#32) (Named.named (F := Ideal) Cert.KernelIdeal.κ "one_minus_beta_3" (φ := .f32) 0x3F46E010#32) (H3 m c) := by
  rw [keep_main_v137_0_18_19, at18_main_v137_0]
theorem at19_main_v139 : S19 m dat1 dat3 dat5 dat7 c main_v139 = meanRow (sumRow (Ycomb m c 3 (Ideal.ofBits .f32 0x3E647FBE#32) (Named.named (F := Ideal) Cert.KernelIdeal.κ "one_minus_beta_3" (φ := .f32) 0x3F46E010#32) (H3 m c))) := by
  rw [S19_def, hostOps8_v139, at18_main_v137_1]
theorem at19_main_v143 : S19 m dat1 dat3 dat5 dat7 c main_v143 = varRow (sumRow (Ycomb m c 3 (Ideal.ofBits .f32 0x3E647FBE#32) (Named.named (F := Ideal) Cert.KernelIdeal.κ "one_minus_beta_3" (φ := .f32) 0x3F46E010#32) (H3 m c))) (sumSqRow (Ycomb m c 3 (Ideal.ofBits .f32 0x3E647FBE#32) (Named.named (F := Ideal) Cert.KernelIdeal.κ "one_minus_beta_3" (φ := .f32) 0x3F46E010#32) (H3 m c))) := by
  rw [S19_def, hostOps8_v143, at18_main_v137_1, at18_main_v137_2]
theorem at19_main_v146 : S19 m dat1 dat3 dat5 dat7 c main_v146 = paramRow 3 (A7 m c) := by
  rw [S19_def, hostOps8_v146, keep_main_arg7_3_18, S3_main_arg7]
theorem at19_main_v149 : S19 m dat1 dat3 dat5 dat7 c main_v149 = paramRow 3 (A8 m c) := by
  rw [S19_def, hostOps8_v149, keep_main_arg8_3_18, S3_main_arg8]
theorem at20_main_v150 : S20 m dat1 dat3 dat5 dat7 c main_v150 = H4 m c := by
  rw [S20_main_v150]; unfold o_main_v150 H4 OUT
  rw [final8, at19_main_v137_0, at19_main_v139, at19_main_v143, at19_main_v146, at19_main_v149]

/-! ## The result -/

/-- What the last region leaves in the result buffer is the four layers applied to the projection. -/
theorem kernel_value : o_main_v150 m dat1 dat3 dat5 dat7 c = H4 m c :=
  (S20_main_v150 m dat1 dat3 dat5 dat7 c).symm.trans (at20_main_v150 m c)

end Cert.KernelIdeal.HandValue

end
-- ==== Proof.RefRead.lean ====
import proofs.«163161_j55817394979591_1_alg».proof.Proof.RefRun7
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.StackMember

/-! The reference's value functions read at an index, at the exact reals: each is the textbook expression in the entries of its
    arguments — a matrix product as a sum over the contracted coordinate, a sum over the nodes as a sum over `Fin 100000`, a
    vector of 128 spread over the rows read at its column. -/

noncomputable section

namespace Cert.ReferenceIdeal.RefValue

open Cert.ReferenceIdeal Cert.ReferenceIdeal.Gen Idealize.ShloMosaic Idealize.ShloMosaic.ValueIdx
open scoped BigOperators

/-! ## Layout -/

/-- A vector of 128 spread over the rows reads, at `(r, j)`, its entry `j`. -/
theorem rowN_apply (v : Arr Ideal S128 .f32) (r : Fin 100000) (j : Fin 128) : rowN v (ix2 r j) = v (ix1 j) := by
  unfold rowN
  refine (broadcastInDim_apply _ _ _ (ix2 r j) (ix2 (0 : Fin 1) j) fun a => ?_).trans ?_
  · match a with
    | ⟨0, _⟩ => rfl
    | ⟨1, _⟩ => rfl
  · exact broadcastInDim_apply _ _ v (ix2 (0 : Fin 1) j) (ix1 j) fun a => by
      match a with
      | ⟨0, _⟩ => rfl

/-- A scalar over the node features reads the scalar everywhere. -/
theorem splatS_apply (s : Arr Ideal S_ .f32) (i : S100000x128.Idx) : splatS s i = s ix0 :=
  broadcastInDim_scalar_apply _ s i

/-- A literal over the node features reads the literal's value everywhere. -/
theorem splat_apply (b : BitVec 32) (i : S100000x128.Idx) : splat (F := Ideal) b i = Ideal.ofBits .f32 b :=
  splatS_apply _ i

/-! ## The products and the projection -/

/-- The product with a 128 × 128 matrix at `(r, j)`: the sum over the contracted coordinate. -/
theorem dotW_apply (a : Arr Ideal S100000x128 .f32) (w : Arr Ideal S128x128 .f32) (r : Fin 100000) (j : Fin 128) :
    dotW a w (ix2 r j) = ∑ k : Fin 128, a (ix2 r k) * w (ix2 k j) :=
  StackMember.dotGeneral_plain_apply (m := 100000) (n := 128) (k := 128) none a w r j

/-- The input projection at `(r, j)`. -/
theorem h0_apply (x : Arr Ideal S100000x128 .f32) (w : Arr Ideal S128x128 .f32) (b : Arr Ideal S128 .f32)
    (r : Fin 100000) (j : Fin 128) :
    h0 x w b (ix2 r j) = (∑ k : Fin 128, x (ix2 r k) * w (ix2 k j)) + b (ix1 j) := by
  unfold h0
  rw [addf_apply, dotW_apply, rowN_apply]

/-! ## The sum and the mean over the nodes -/

/-- The sum over the nodes at column `j` (the initial zero absorbed). -/
theorem sumN_apply (y : Arr Ideal S100000x128 .f32) (j : Fin 128) : sumN y (ix1 j) = ∑ r : Fin 100000, y (ix2 r j) := by
  unfold sumN
  refine (Ideal.hostReduceAdd_single reducesTo_S100000x128_S128_d0 (by decide : S100000x128.Reduces [0] S128) y _ (ix1 j)).trans ?_
  show Ideal.ofBits .f32 0x00000000#32 + ∑ r : Fin 100000, y _ = _
  rw [Ideal.ofBits_zero_f32, zero_add]
  refine Finset.sum_congr rfl fun r _ => congrArg y (funext fun a => Fin.ext ?_)
  match a with
  | ⟨0, _⟩ => rfl
  | ⟨1, _⟩ => rfl

/-- The mean over the nodes at column `j`. -/
theorem mean_apply (y : Arr Ideal S100000x128 .f32) (j : Fin 128) :
    mean y (ix1 j) = Ideal.div (∑ r : Fin 100000, y (ix2 r j)) (Ideal.ofBits .f32 0x47C35000#32) := by
  unfold mean
  rw [hostDivf_apply, sumN_apply]
  rfl

/-! ## The combination -/

/-- Half of an array at an index. -/
theorem half_apply (a : Arr Ideal S100000x128 .f32) (i : S100000x128.Idx) :
    half a i = Ideal.ofBits .f32 0x3F000000#32 * a i := by
  unfold half
  rw [mulf_apply, splat_apply]

/-- One minus a literal is the exact difference of the two literals' values. -/
theorem oneMinus_apply (β : BitVec 32) :
    oneMinus (F := Ideal) β ix0 = Ideal.ofBits .f32 0x3F800000#32 - Ideal.ofBits .f32 β := rfl

/-- The combination at `(r, j)`: with `c` the exact difference `1 - β` of the two literals,
    `c · xs + β · (xs · w1) + c · x0s + β · (x0s · w2)`, summed left to right. -/
theorem comb_apply (β : BitVec 32) (xs x0s : Arr Ideal S100000x128 .f32) (w1 w2 : Arr Ideal S128x128 .f32)
    (r : Fin 100000) (j : Fin 128) :
    comb β xs x0s w1 w2 (ix2 r j)
      = (Ideal.ofBits .f32 0x3F800000#32 - Ideal.ofBits .f32 β) * xs (ix2 r j)
        + Ideal.ofBits .f32 β * (∑ k : Fin 128, xs (ix2 r k) * w1 (ix2 k j))
        + (Ideal.ofBits .f32 0x3F800000#32 - Ideal.ofBits .f32 β) * x0s (ix2 r j)
        + Ideal.ofBits .f32 β * (∑ k : Fin 128, x0s (ix2 r k) * w2 (ix2 k j)) := by
  unfold comb
  rw [addf_apply, addf_apply, addf_apply, mulf_apply, mulf_apply, mulf_apply, mulf_apply, splatS_apply, splat_apply,
    dotW_apply, dotW_apply, oneMinus_apply]

/-! ## The variance -/

/-- The variance's denominator is `100000` minus the integer zero read as a float. -/
theorem varDen_apply : varDen (F := Ideal) ix0
    = Ideal.ofBits .f32 0x47C35000#32 - (((0#32 : BitVec 32).toInt : ℝ) : EReal) := rfl

/-- A vector of 128 as a row of shape 1 × 128 reads, at `(0, j)`, its entry `j`. -/
theorem row1_apply (v : Arr Ideal S128 .f32) (j : Fin 128) :
    broadcastInDim S1x128 ![1] bcast_S128_S1x128_1 v (ix2 (0 : Fin 1) j) = v (ix1 j) :=
  broadcastInDim_apply _ _ v (ix2 (0 : Fin 1) j) (ix1 j) fun a => by
    match a with
    | ⟨0, _⟩ => rfl

/-- The array minus its mean over the nodes, at `(r, j)`. -/
theorem centered_apply (y : Arr Ideal S100000x128 .f32) (r : Fin 100000) (j : Fin 128) :
    centered y (ix2 r j)
      = y (ix2 r j) - Ideal.div (∑ r' : Fin 100000, y (ix2 r' j)) (Ideal.ofBits .f32 0x47C35000#32) := by
  unfold centered
  rw [subf_apply]
  refine congrArg (y (ix2 r j) - ·) ?_
  refine (broadcastInDim_apply _ _ _ (ix2 r j) (ix2 (0 : Fin 1) j) fun a => ?_).trans ?_
  · match a with
    | ⟨0, _⟩ => rfl
    | ⟨1, _⟩ => rfl
  · rw [hostDivf_apply, row1_apply, sumN_apply, broadcastInDim_scalar_apply]
    rfl

/-- The variance at column `j`, the guard of its denominator left as the comparison it is: where `100000 - 0 > 0` the mean
    square deviation (a square as the product of the deviation with itself), elsewhere the literal `0x7FC00000`. -/
theorem var_apply (y : Arr Ideal S100000x128 .f32) (j : Fin 128) :
    var y (ix1 j)
      = Scalar.select
          (Ideal.cmp .ogt (Ideal.ofBits .f32 0x47C35000#32 - (((0#32 : BitVec 32).toInt : ℝ) : EReal))
            (Ideal.ofBits .f32 0x00000000#32))
          (Ideal.div
            (∑ r : Fin 100000,
              (y (ix2 r j) - Ideal.div (∑ r' : Fin 100000, y (ix2 r' j)) (Ideal.ofBits .f32 0x47C35000#32))
                * (y (ix2 r j) - Ideal.div (∑ r' : Fin 100000, y (ix2 r' j)) (Ideal.ofBits .f32 0x47C35000#32)))
            (Ideal.ofBits .f32 0x47C35000#32 - (((0#32 : BitVec 32).toInt : ℝ) : EReal)))
          (Ideal.ofBits .f32 0x7FC00000#32) := by
  unfold var
  rw [select_apply, hostDivf_apply, sumN_apply]
  simp only [broadcastInDim_scalar_apply, mulf_apply, centered_apply]
  rfl

/-- … and with the guard decided (`100000 - 0 > 0` holds): the mean square deviation. -/
theorem var_apply_of_pos (y : Arr Ideal S100000x128 .f32) (j : Fin 128)
    (hcmp : Ideal.cmp .ogt (Ideal.ofBits .f32 0x47C35000#32 - (((0#32 : BitVec 32).toInt : ℝ) : EReal))
      (Ideal.ofBits .f32 0x00000000#32) = 1#1) :
    var y (ix1 j)
      = Ideal.div
          (∑ r : Fin 100000,
            (y (ix2 r j) - Ideal.div (∑ r' : Fin 100000, y (ix2 r' j)) (Ideal.ofBits .f32 0x47C35000#32))
              * (y (ix2 r j) - Ideal.div (∑ r' : Fin 100000, y (ix2 r' j)) (Ideal.ofBits .f32 0x47C35000#32)))
          (Ideal.ofBits .f32 0x47C35000#32 - (((0#32 : BitVec 32).toInt : ℝ) : EReal)) := by
  rw [var_apply, hcmp, select_one]

/-! ## Normalisation and rectification -/

/-- Batch normalisation at `(r, j)`, over the mean and the variance at column `j`. -/
theorem bn_apply (y : Arr Ideal S100000x128 .f32) (γ βb : Arr Ideal S128 .f32) (r : Fin 100000) (j : Fin 128) :
    bn y γ βb (ix2 r j)
      = γ (ix1 j) * (y (ix2 r j) - mean y (ix1 j)) * Ideal.rsqrt (var y (ix1 j) + Ideal.ofBits .f32 0x3727C5AC#32)
        + βb (ix1 j) := by
  unfold bn
  rw [addf_apply, mulf_apply, mulf_apply, subf_apply, rowN_apply, rowN_apply, rowN_apply, rowN_apply]
  rfl

/-- The positive part at an index. -/
theorem relu_apply (a : Arr Ideal S100000x128 .f32) (i : S100000x128.Idx) : relu a i = max (a i) 0 := by
  unfold relu
  rw [maximumf_apply, splat_apply, Ideal.ofBits_zero_f32]

/-! ## One layer -/

/-- The combination of the halved neighbourhood sum and the halved projection at `(r, j)`, the halves written out. -/
theorem comb_half_apply (β : BitVec 32) (a p : Arr Ideal S100000x128 .f32) (w1 w2 : Arr Ideal S128x128 .f32)
    (r : Fin 100000) (j : Fin 128) :
    comb β (half a) (half p) w1 w2 (ix2 r j)
      = (Ideal.ofBits .f32 0x3F800000#32 - Ideal.ofBits .f32 β) * (Ideal.ofBits .f32 0x3F000000#32 * a (ix2 r j))
        + Ideal.ofBits .f32 β * (∑ k : Fin 128, (Ideal.ofBits .f32 0x3F000000#32 * a (ix2 r k)) * w1 (ix2 k j))
        + (Ideal.ofBits .f32 0x3F800000#32 - Ideal.ofBits .f32 β) * (Ideal.ofBits .f32 0x3F000000#32 * p (ix2 r j))
        + Ideal.ofBits .f32 β * (∑ k : Fin 128, (Ideal.ofBits .f32 0x3F000000#32 * p (ix2 r k)) * w2 (ix2 k j)) := by
  rw [comb_apply]
  simp only [half_apply]

/-- One layer at `(r, j)`: the rectified normalisation of its combination `y`, over `y`'s mean and variance at column `j`;
    the neighbourhood sum stays the function it is. -/
theorem layerOf_apply (β : BitVec 32) (h h0v : Arr Ideal S100000x128 .f32) (nrm : Arr Ideal S700000 .f32)
    (src dst : Arr Ideal S700000 .i32) (w1 w2 : Arr Ideal S128x128 .f32) (γ βb : Arr Ideal S128 .f32)
    (r : Fin 100000) (j : Fin 128) :
    layerOf β h h0v nrm src dst w1 w2 γ βb (ix2 r j)
      = max (γ (ix1 j)
            * (comb β (half (agg h nrm src dst)) (half h0v) w1 w2 (ix2 r j)
                - mean (comb β (half (agg h nrm src dst)) (half h0v) w1 w2) (ix1 j))
            * Ideal.rsqrt (var (comb β (half (agg h nrm src dst)) (half h0v) w1 w2) (ix1 j)
                + Ideal.ofBits .f32 0x3727C5AC#32)
          + βb (ix1 j)) 0 := by
  unfold layerOf
  rw [relu_apply, bn_apply]

end Cert.ReferenceIdeal.RefValue

end
-- ==== Proof.LibVariance.lean ====
/-
  The population variance of a finite family of reals, two ways.

  For a family `y : ι → ℝ` over a finite index type and a nonzero divisor `n` equal to the
  number of indices, the mean of the squared deviations from the mean equals the mean of the
  squares minus the square of the mean:

    (∑ i, (y i - μ) * (y i - μ)) / n = (∑ i, y i * y i) / n - μ * μ,   μ = (∑ j, y j) / n.

  `var_real` is this identity over `ℝ`. `coe_sum` moves the coercion `ℝ → EReal` through a
  finite sum. The `E`-lemmas restate the identity over the extended reals, on coerced real
  entries, with the extended-real division `Idealize.ShloMosaic.Ideal.div` by the coerced
  divisor. `var_nonneg` says the mean of squared deviations (from any centre) is nonnegative.
-/
import Mathlib.Data.EReal.Inv
import Mathlib.Algebra.BigOperators.Group.Finset.Basic
import Mathlib.Algebra.BigOperators.Field
import Mathlib.Algebra.Order.BigOperators.Ring.Finset
import Mathlib.Tactic.Ring
import Mathlib.Tactic.FieldSimp
import Mathlib.Tactic.Positivity
import Idealize.ShloMosaic.PureOps.Ideal

namespace Cert.Lib

open scoped BigOperators

variable {ι : Type} [Fintype ι]

/-- The mean of squared deviations from the mean is the mean of squares minus the squared mean. -/
theorem var_real (y : ι → ℝ) (n : ℝ) (hn : n ≠ 0) (hcard : (Fintype.card ι : ℝ) = n) :
    (∑ i, (y i - (∑ j, y j) / n) * (y i - (∑ j, y j) / n)) / n
      = (∑ i, y i * y i) / n - ((∑ j, y j) / n) * ((∑ j, y j) / n) := by
  set S : ℝ := ∑ j, y j with hS
  have h1 : ∑ i, (y i - S / n) * (y i - S / n)
      = (∑ i, y i * y i) - 2 * (S / n) * S + n * ((S / n) * (S / n)) := by
    have : ∀ i, (y i - S / n) * (y i - S / n)
        = y i * y i - 2 * (S / n) * y i + (S / n) * (S / n) := fun i => by ring
    simp only [this, Finset.sum_add_distrib, Finset.sum_sub_distrib, ← Finset.mul_sum,
      Finset.sum_const, Finset.card_univ, nsmul_eq_mul, hcard, ← hS]
    ring
  rw [h1]
  field_simp
  ring

/-- The coercion of a finite sum of reals is the sum of the coercions. -/
theorem coe_sum {κ : Type} (s : Finset κ) (y : κ → ℝ) :
    ((∑ i ∈ s, y i : ℝ) : EReal) = ∑ i ∈ s, (y i : EReal) := by
  classical
  induction s using Finset.induction_on with
  | empty => simp
  | insert a s ha ih => rw [Finset.sum_insert ha, Finset.sum_insert ha, EReal.coe_add, ih]

/-- The mean of squared deviations from any centre is nonnegative, for a positive divisor. -/
theorem var_nonneg (y : ι → ℝ) (μ n : ℝ) (hn : 0 < n) :
    0 ≤ (∑ i, (y i - μ) * (y i - μ)) / n :=
  div_nonneg (Finset.sum_nonneg fun i _ => mul_self_nonneg _) hn.le

/-! ### The same on the extended reals

The entries are coerced reals, sums are `Finset` sums of extended reals, division is
`Ideal.div` by the coerced nonzero divisor. Each side of the identity is first computed as the
coercion of the corresponding real expression (`div_coe_coe`, `mean_coe`, `centered_coe`,
`moments_coe`); `var_ereal` joins them through `var_real`. The primed forms have `0 + ∑ …`
(a sum started from an initial value `0`) in place of `∑ …`. -/

open Idealize.ShloMosaic

/-- A coerced real divided by a coerced nonzero real is the coerced quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The mean of coerced reals is the coerced real mean. -/
theorem mean_coe (y : ι → ℝ) {n : ℝ} (hn : n ≠ 0) :
    Ideal.div (∑ i, (y i : EReal)) (n : EReal) = (((∑ i, y i) / n : ℝ) : EReal) := by
  rw [← coe_sum, div_coe_coe _ hn]

/-- `mean_coe` for a sum started from `0`. -/
theorem mean_coe' (y : ι → ℝ) {n : ℝ} (hn : n ≠ 0) :
    Ideal.div (0 + ∑ i, (y i : EReal)) (n : EReal) = (((∑ i, y i) / n : ℝ) : EReal) := by
  rw [zero_add, mean_coe y hn]

/-- The mean of squared deviations from a real centre, on coerced reals, is the coerced real one. -/
theorem centered_coe_of (y : ι → ℝ) (μ : ℝ) {n : ℝ} (hn : n ≠ 0) :
    Ideal.div (∑ i, ((y i : EReal) - (μ : EReal)) * ((y i : EReal) - (μ : EReal))) (n : EReal)
      = (((∑ i, (y i - μ) * (y i - μ)) / n : ℝ) : EReal) := by
  simp only [← EReal.coe_sub, ← EReal.coe_mul]
  exact mean_coe (fun i => (y i - μ) * (y i - μ)) hn

/-- The mean of squared deviations from the mean, on coerced reals, is the coerced real one. -/
theorem centered_coe (y : ι → ℝ) {n : ℝ} (hn : n ≠ 0) :
    Ideal.div (∑ i, ((y i : EReal) - Ideal.div (∑ j, (y j : EReal)) (n : EReal))
        * ((y i : EReal) - Ideal.div (∑ j, (y j : EReal)) (n : EReal))) (n : EReal)
      = (((∑ i, (y i - (∑ j, y j) / n) * (y i - (∑ j, y j) / n)) / n : ℝ) : EReal) := by
  rw [mean_coe y hn]
  exact centered_coe_of y _ hn

/-- `centered_coe` with both sums started from `0`. -/
theorem centered_coe' (y : ι → ℝ) {n : ℝ} (hn : n ≠ 0) :
    Ideal.div (0 + ∑ i, ((y i : EReal) - Ideal.div (0 + ∑ j, (y j : EReal)) (n : EReal))
        * ((y i : EReal) - Ideal.div (0 + ∑ j, (y j : EReal)) (n : EReal))) (n : EReal)
      = (((∑ i, (y i - (∑ j, y j) / n) * (y i - (∑ j, y j) / n)) / n : ℝ) : EReal) := by
  simp only [zero_add]
  exact centered_coe y hn

/-- The mean of squares minus the squared mean, on coerced reals, is the coerced real one. -/
theorem moments_coe (y : ι → ℝ) {n : ℝ} (hn : n ≠ 0) :
    Ideal.div (∑ i, (y i : EReal) * (y i : EReal)) (n : EReal)
        - Ideal.div (∑ j, (y j : EReal)) (n : EReal) * Ideal.div (∑ j, (y j : EReal)) (n : EReal)
      = (((∑ i, y i * y i) / n - ((∑ j, y j) / n) * ((∑ j, y j) / n) : ℝ) : EReal) := by
  rw [mean_coe y hn]
  simp only [← EReal.coe_mul]
  rw [mean_coe (fun i => y i * y i) hn, ← EReal.coe_sub]

/-- `moments_coe` with both sums started from `0`. -/
theorem moments_coe' (y : ι → ℝ) {n : ℝ} (hn : n ≠ 0) :
    Ideal.div (0 + ∑ i, (y i : EReal) * (y i : EReal)) (n : EReal)
        - Ideal.div (0 + ∑ j, (y j : EReal)) (n : EReal) * Ideal.div (0 + ∑ j, (y j : EReal)) (n : EReal)
      = (((∑ i, y i * y i) / n - ((∑ j, y j) / n) * ((∑ j, y j) / n) : ℝ) : EReal) := by
  simp only [zero_add]
  exact moments_coe y hn

/-- On coerced reals, with `Ideal.div` by the coerced count: the mean of squared deviations from the
    mean is the mean of squares minus the squared mean. -/
theorem var_ereal (y : ι → ℝ) (n : ℝ) (hn : n ≠ 0) (hcard : (Fintype.card ι : ℝ) = n) :
    Ideal.div (∑ i, ((y i : EReal) - Ideal.div (∑ j, (y j : EReal)) (n : EReal))
        * ((y i : EReal) - Ideal.div (∑ j, (y j : EReal)) (n : EReal))) (n : EReal)
      = Ideal.div (∑ i, (y i : EReal) * (y i : EReal)) (n : EReal)
        - Ideal.div (∑ j, (y j : EReal)) (n : EReal) * Ideal.div (∑ j, (y j : EReal)) (n : EReal) := by
  rw [centered_coe y hn, moments_coe y hn, var_real y n hn hcard]

/-- `var_ereal` with the sums of the left side (the centred form) started from `0`. -/
theorem var_ereal_zl (y : ι → ℝ) (n : ℝ) (hn : n ≠ 0) (hcard : (Fintype.card ι : ℝ) = n) :
    Ideal.div (0 + ∑ i, ((y i : EReal) - Ideal.div (0 + ∑ j, (y j : EReal)) (n : EReal))
        * ((y i : EReal) - Ideal.div (0 + ∑ j, (y j : EReal)) (n : EReal))) (n : EReal)
      = Ideal.div (∑ i, (y i : EReal) * (y i : EReal)) (n : EReal)
        - Ideal.div (∑ j, (y j : EReal)) (n : EReal) * Ideal.div (∑ j, (y j : EReal)) (n : EReal) := by
  rw [centered_coe' y hn, moments_coe y hn, var_real y n hn hcard]

/-- `var_ereal` with every sum started from `0`. -/
theorem var_ereal_zz (y : ι → ℝ) (n : ℝ) (hn : n ≠ 0) (hcard : (Fintype.card ι : ℝ) = n) :
    Ideal.div (0 + ∑ i, ((y i : EReal) - Ideal.div (0 + ∑ j, (y j : EReal)) (n : EReal))
        * ((y i : EReal) - Ideal.div (0 + ∑ j, (y j : EReal)) (n : EReal))) (n : EReal)
      = Ideal.div (0 + ∑ i, (y i : EReal) * (y i : EReal)) (n : EReal)
        - Ideal.div (0 + ∑ j, (y j : EReal)) (n : EReal) * Ideal.div (0 + ∑ j, (y j : EReal)) (n : EReal) := by
  rw [centered_coe' y hn, moments_coe' y hn, var_real y n hn hcard]

/-- The centred variance of coerced reals, as an extended real, is nonnegative (positive divisor). -/
theorem var_ereal_nonneg (y : ι → ℝ) {n : ℝ} (hn : 0 < n) :
    0 ≤ Ideal.div (∑ i, ((y i : EReal) - Ideal.div (∑ j, (y j : EReal)) (n : EReal))
        * ((y i : EReal) - Ideal.div (∑ j, (y j : EReal)) (n : EReal))) (n : EReal) := by
  rw [centered_coe y hn.ne']
  exact_mod_cast var_nonneg y _ n hn

end Cert.Lib
-- ==== Proof.Finite.lean ====
/-
  Finite extended reals. `IsReal x` says the extended real `x` is (the coercion of) a real
  number. The predicate is closed under sum, difference, product, negation, maximum, minimum,
  finite sums, division by a nonzero real and the reciprocal square root of a positive real;
  the float literals of the network denote reals (their exact values are stated); and a
  variance of reals plus a positive real is positive, so its reciprocal square root is a real.
-/
import Idealize.ShloMosaic.PureOps.Ideal
import proofs.«163161_j55817394979591_1_alg».proof.Proof.LibVariance

namespace Cert.Net

open Idealize.ShloMosaic
open scoped BigOperators

/-- The extended real `x` is a real number. -/
def IsReal (x : EReal) : Prop := ∃ r : ℝ, x = (r : EReal)

namespace IsReal

variable {x y : EReal}

theorem coe (r : ℝ) : IsReal (r : EReal) := ⟨r, rfl⟩
theorem zero : IsReal 0 := ⟨0, EReal.coe_zero.symm⟩
theorem one : IsReal 1 := ⟨1, EReal.coe_one.symm⟩

theorem ne_top (h : IsReal x) : x ≠ ⊤ := by obtain ⟨r, rfl⟩ := h; exact EReal.coe_ne_top r
theorem ne_bot (h : IsReal x) : x ≠ ⊥ := by obtain ⟨r, rfl⟩ := h; exact EReal.coe_ne_bot r

/-- An extended real that is neither infinity is a real. -/
theorem of_ne (ht : x ≠ ⊤) (hb : x ≠ ⊥) : IsReal x := ⟨x.toReal, (EReal.coe_toReal ht hb).symm⟩

theorem iff_ne : IsReal x ↔ x ≠ ⊤ ∧ x ≠ ⊥ := ⟨fun h => ⟨h.ne_top, h.ne_bot⟩, fun h => of_ne h.1 h.2⟩

/-- A real is the coercion of its real part. -/
theorem eq_coe_toReal (h : IsReal x) : x = (x.toReal : EReal) := (EReal.coe_toReal h.ne_top h.ne_bot).symm

/-- A family of reals is the coercion of a real family. -/
theorem exists_fun {κ : Type} {f : κ → EReal} (h : ∀ i, IsReal (f i)) :
    ∃ g : κ → ℝ, f = fun i => (g i : EReal) :=
  ⟨fun i => (f i).toReal, funext fun i => (h i).eq_coe_toReal⟩

/-- Finite in absolute value (`max x (-x) < ⊤`) is the same as being a real. -/
theorem iff_abs_lt_top : IsReal x ↔ max x (-x) < ⊤ := by
  constructor
  · rintro ⟨r, rfl⟩
    rw [← EReal.coe_neg]
    exact max_lt (EReal.coe_lt_top _) (EReal.coe_lt_top _)
  · intro h
    refine of_ne ?_ ?_
    · rintro rfl; simp at h
    · rintro rfl; simp at h

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

theorem neg (hx : IsReal x) : IsReal (-x) := by
  obtain ⟨a, rfl⟩ := hx; exact ⟨-a, (EReal.coe_neg a).symm⟩

theorem max (hx : IsReal x) (hy : IsReal y) : IsReal (max x y) := by
  rcases max_choice x y with h | h <;> rw [h] <;> assumption

theorem min (hx : IsReal x) (hy : IsReal y) : IsReal (min x y) := by
  rcases min_choice x y with h | h <;> rw [h] <;> assumption

/-- A finite sum of reals is a real. -/
theorem sum {κ : Type} (s : Finset κ) (f : κ → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

theorem sum_univ {κ : Type} [Fintype κ] (f : κ → EReal) (h : ∀ i, IsReal (f i)) : IsReal (∑ i, f i) :=
  sum _ _ fun i _ => h i

/-- A real divided by a nonzero real is a real. -/
theorem div (hx : IsReal x) {n : ℝ} (hn : n ≠ 0) : IsReal (Ideal.div x (n : EReal)) := by
  obtain ⟨a, rfl⟩ := hx; exact ⟨a / n, Cert.Lib.div_coe_coe a hn⟩

/-- A real divided by a real that is not zero is a real. -/
theorem div_of (hx : IsReal x) (hy : IsReal y) (h0 : y ≠ 0) : IsReal (Ideal.div x y) := by
  obtain ⟨b, rfl⟩ := hy
  exact hx.div (by rintro rfl; exact h0 EReal.coe_zero)

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem rsqrt {r : ℝ} (hr : 0 < r) : IsReal (Ideal.rsqrt (r : EReal)) := ⟨_, rsqrt_coe_pos hr⟩

/-- The reciprocal square root of a positive real is a real. -/
theorem rsqrt_of_pos (hx : IsReal x) (h0 : 0 < x) : IsReal (Ideal.rsqrt x) := by
  obtain ⟨r, rfl⟩ := hx; exact rsqrt (EReal.coe_pos.mp h0)

end IsReal

/-! ### The float literals of the network, as the reals their patterns denote -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

/-- The batch-normalisation epsilon, `10995116 · 2⁻⁴⁰`. -/
theorem ofBits_eps : Ideal.ofBits .f32 0x3727C5AC#32 = ((10995116 / 1099511627776 : ℝ) : EReal) := by
  simp [Ideal.ofBits, Ideal.ieee, -EReal.coe_mul]; norm_num

theorem ofBits_3F317218 : Ideal.ofBits .f32 0x3F317218#32 = ((11629080 / 16777216 : ℝ) : EReal) := by
  simp [Ideal.ofBits, Ideal.ieee, -EReal.coe_mul]; norm_num

theorem ofBits_3ECF991F : Ideal.ofBits .f32 0x3ECF991F#32 = ((13605151 / 33554432 : ℝ) : EReal) := by
  simp [Ideal.ofBits, Ideal.ieee, -EReal.coe_mul]; norm_num

theorem ofBits_3E934B11 : Ideal.ofBits .f32 0x3E934B11#32 = ((9653009 / 33554432 : ℝ) : EReal) := by
  simp [Ideal.ofBits, Ideal.ieee, -EReal.coe_mul]; norm_num

theorem ofBits_3E647FBE : Ideal.ofBits .f32 0x3E647FBE#32 = ((7487455 / 33554432 : ℝ) : EReal) := by
  simp [Ideal.ofBits, Ideal.ieee, -EReal.coe_mul]; norm_num

theorem ofBits_3E9D1BD0 : Ideal.ofBits .f32 0x3E9D1BD0#32 = ((10296272 / 33554432 : ℝ) : EReal) := by
  simp [Ideal.ofBits, Ideal.ieee, -EReal.coe_mul]; norm_num

/-- The epsilon is positive. -/
theorem ofBits_eps_pos : 0 < Ideal.ofBits .f32 0x3727C5AC#32 := by
  rw [ofBits_eps]; exact EReal.coe_pos.mpr (by norm_num)

/-- The divisor `100000` is not zero, and is the number of indices of `Fin 100000`. -/
theorem n_ne_zero : (100000 : ℝ) ≠ 0 := by norm_num
theorem n_pos : (0 : ℝ) < 100000 := by norm_num
theorem card_fin_n : (Fintype.card (Fin 100000) : ℝ) = 100000 := by simp

/-- Subtracting the integer `0`, read as a float, from `100000` leaves `100000`. -/
theorem n_sub_zero : Ideal.ofBits .f32 0x47C35000#32 - (((0#32 : BitVec 32).toInt : ℝ) : EReal)
    = ((100000 : ℝ) : EReal) := by
  rw [ofBits_100000]; simp

/-- `1 - β` for the four layers' `β` literals: the first is itself an `f32` literal, the other
    three are the dyadic rationals below. -/
theorem one_sub_3F317218 : (1 : EReal) - Ideal.ofBits .f32 0x3F317218#32 = Ideal.ofBits .f32 0x3E9D1BD0#32 := by
  rw [ofBits_3F317218, ofBits_3E9D1BD0, ← EReal.coe_one, ← EReal.coe_sub]; norm_num
theorem one_sub_3ECF991F :
    (1 : EReal) - Ideal.ofBits .f32 0x3ECF991F#32 = ((19949281 / 33554432 : ℝ) : EReal) := by
  rw [ofBits_3ECF991F, ← EReal.coe_one, ← EReal.coe_sub]; norm_num
theorem one_sub_3E934B11 :
    (1 : EReal) - Ideal.ofBits .f32 0x3E934B11#32 = ((23901423 / 33554432 : ℝ) : EReal) := by
  rw [ofBits_3E934B11, ← EReal.coe_one, ← EReal.coe_sub]; norm_num
theorem one_sub_3E647FBE :
    (1 : EReal) - Ideal.ofBits .f32 0x3E647FBE#32 = ((26066977 / 33554432 : ℝ) : EReal) := by
  rw [ofBits_3E647FBE, ← EReal.coe_one, ← EReal.coe_sub]; norm_num

/-! Each literal is a real. -/
theorem isReal_ofBits_zero : IsReal (Ideal.ofBits .f32 0x00000000#32) := by rw [ofBits_zero]; exact IsReal.zero
theorem isReal_ofBits_one : IsReal (Ideal.ofBits .f32 0x3F800000#32) := by rw [ofBits_one]; exact IsReal.one
theorem isReal_ofBits_half : IsReal (Ideal.ofBits .f32 0x3F000000#32) := ⟨_, ofBits_half⟩
theorem isReal_ofBits_100000 : IsReal (Ideal.ofBits .f32 0x47C35000#32) := ⟨_, ofBits_100000⟩
theorem isReal_ofBits_eps : IsReal (Ideal.ofBits .f32 0x3727C5AC#32) := ⟨_, ofBits_eps⟩
theorem isReal_ofBits_3F317218 : IsReal (Ideal.ofBits .f32 0x3F317218#32) := ⟨_, ofBits_3F317218⟩
theorem isReal_ofBits_3ECF991F : IsReal (Ideal.ofBits .f32 0x3ECF991F#32) := ⟨_, ofBits_3ECF991F⟩
theorem isReal_ofBits_3E934B11 : IsReal (Ideal.ofBits .f32 0x3E934B11#32) := ⟨_, ofBits_3E934B11⟩
theorem isReal_ofBits_3E647FBE : IsReal (Ideal.ofBits .f32 0x3E647FBE#32) := ⟨_, ofBits_3E647FBE⟩
theorem isReal_ofBits_3E9D1BD0 : IsReal (Ideal.ofBits .f32 0x3E9D1BD0#32) := ⟨_, ofBits_3E9D1BD0⟩

/-! The three named values are reals. -/
theorem isReal_named_1 : IsReal ((19949281 / 33554432 : ℝ) : EReal) := IsReal.coe _
theorem isReal_named_2 : IsReal ((23901423 / 33554432 : ℝ) : EReal) := IsReal.coe _
theorem isReal_named_3 : IsReal ((26066977 / 33554432 : ℝ) : EReal) := IsReal.coe _

/-! ### A nonnegative real plus a positive real, and its reciprocal square root -/

/-- A nonnegative real plus a positive real is positive. -/
theorem add_pos_of_isReal {v e : EReal} (hv : IsReal v) (hv0 : 0 ≤ v) (he : IsReal e) (he0 : 0 < e) :
    0 < v + e := by
  obtain ⟨a, rfl⟩ := hv; obtain ⟨b, rfl⟩ := he
  rw [← EReal.coe_add]
  exact EReal.coe_pos.mpr (add_pos_of_nonneg_of_pos (EReal.coe_nonneg.mp hv0) (EReal.coe_pos.mp he0))

/-- So the reciprocal square root of such a sum is a real. -/
theorem isReal_rsqrt_add {v e : EReal} (hv : IsReal v) (hv0 : 0 ≤ v) (he : IsReal e) (he0 : 0 < e) :
    IsReal (Ideal.rsqrt (v + e)) :=
  (hv.add he).rsqrt_of_pos (add_pos_of_isReal hv hv0 he he0)

section Var

variable {ι : Type} [Fintype ι]

/-- The centred variance of reals is a real. -/
theorem isReal_var (y : ι → ℝ) {n : ℝ} (hn : n ≠ 0) :
    IsReal (Ideal.div (∑ i, ((y i : EReal) - Ideal.div (∑ j, (y j : EReal)) (n : EReal))
        * ((y i : EReal) - Ideal.div (∑ j, (y j : EReal)) (n : EReal))) (n : EReal)) :=
  ⟨_, Cert.Lib.centered_coe y hn⟩

/-- The centred variance of reals plus a positive real is positive. -/
theorem var_add_pos (y : ι → ℝ) {n : ℝ} (hn : 0 < n) {e : EReal} (he : IsReal e) (he0 : 0 < e) :
    0 < Ideal.div (∑ i, ((y i : EReal) - Ideal.div (∑ j, (y j : EReal)) (n : EReal))
        * ((y i : EReal) - Ideal.div (∑ j, (y j : EReal)) (n : EReal))) (n : EReal) + e :=
  add_pos_of_isReal (isReal_var y hn.ne') (Cert.Lib.var_ereal_nonneg y hn) he he0

/-- Hence its reciprocal square root is a real. -/
theorem isReal_rsqrt_var_add (y : ι → ℝ) {n : ℝ} (hn : 0 < n) {e : EReal} (he : IsReal e) (he0 : 0 < e) :
    IsReal (Ideal.rsqrt (Ideal.div (∑ i, ((y i : EReal) - Ideal.div (∑ j, (y j : EReal)) (n : EReal))
        * ((y i : EReal) - Ideal.div (∑ j, (y j : EReal)) (n : EReal))) (n : EReal) + e)) :=
  isReal_rsqrt_add (isReal_var y hn.ne') (Cert.Lib.var_ereal_nonneg y hn) he he0

/-- The same three with every sum started from `0`. -/
theorem isReal_var' (y : ι → ℝ) {n : ℝ} (hn : n ≠ 0) :
    IsReal (Ideal.div (0 + ∑ i, ((y i : EReal) - Ideal.div (0 + ∑ j, (y j : EReal)) (n : EReal))
        * ((y i : EReal) - Ideal.div (0 + ∑ j, (y j : EReal)) (n : EReal))) (n : EReal)) :=
  ⟨_, Cert.Lib.centered_coe' y hn⟩

theorem var_add_pos' (y : ι → ℝ) {n : ℝ} (hn : 0 < n) {e : EReal} (he : IsReal e) (he0 : 0 < e) :
    0 < Ideal.div (0 + ∑ i, ((y i : EReal) - Ideal.div (0 + ∑ j, (y j : EReal)) (n : EReal))
        * ((y i : EReal) - Ideal.div (0 + ∑ j, (y j : EReal)) (n : EReal))) (n : EReal) + e := by
  simp only [zero_add]; exact var_add_pos y hn he he0

theorem isReal_rsqrt_var_add' (y : ι → ℝ) {n : ℝ} (hn : 0 < n) {e : EReal} (he : IsReal e) (he0 : 0 < e) :
    IsReal (Ideal.rsqrt (Ideal.div (0 + ∑ i, ((y i : EReal) - Ideal.div (0 + ∑ j, (y j : EReal)) (n : EReal))
        * ((y i : EReal) - Ideal.div (0 + ∑ j, (y j : EReal)) (n : EReal))) (n : EReal) + e)) := by
  simp only [zero_add]; exact isReal_rsqrt_var_add y hn he he0

/-- The mean of squares minus the squared mean, of reals, is a real; it is the centred variance, so
    it is nonnegative, positive after adding a positive real, and then has a real reciprocal square
    root. -/
theorem isReal_moments (y : ι → ℝ) {n : ℝ} (hn : n ≠ 0) :
    IsReal (Ideal.div (∑ i, (y i : EReal) * (y i : EReal)) (n : EReal)
        - Ideal.div (∑ j, (y j : EReal)) (n : EReal) * Ideal.div (∑ j, (y j : EReal)) (n : EReal)) :=
  ⟨_, Cert.Lib.moments_coe y hn⟩

theorem moments_nonneg (y : ι → ℝ) {n : ℝ} (hn : 0 < n) (hcard : (Fintype.card ι : ℝ) = n) :
    0 ≤ Ideal.div (∑ i, (y i : EReal) * (y i : EReal)) (n : EReal)
        - Ideal.div (∑ j, (y j : EReal)) (n : EReal) * Ideal.div (∑ j, (y j : EReal)) (n : EReal) := by
  rw [← Cert.Lib.var_ereal y n hn.ne' hcard]; exact Cert.Lib.var_ereal_nonneg y hn

theorem moments_add_pos (y : ι → ℝ) {n : ℝ} (hn : 0 < n) (hcard : (Fintype.card ι : ℝ) = n)
    {e : EReal} (he : IsReal e) (he0 : 0 < e) :
    0 < Ideal.div (∑ i, (y i : EReal) * (y i : EReal)) (n : EReal)
        - Ideal.div (∑ j, (y j : EReal)) (n : EReal) * Ideal.div (∑ j, (y j : EReal)) (n : EReal) + e :=
  add_pos_of_isReal (isReal_moments y hn.ne') (moments_nonneg y hn hcard) he he0

theorem isReal_rsqrt_moments_add (y : ι → ℝ) {n : ℝ} (hn : 0 < n) (hcard : (Fintype.card ι : ℝ) = n)
    {e : EReal} (he : IsReal e) (he0 : 0 < e) :
    IsReal (Ideal.rsqrt (Ideal.div (∑ i, (y i : EReal) * (y i : EReal)) (n : EReal)
        - Ideal.div (∑ j, (y j : EReal)) (n : EReal) * Ideal.div (∑ j, (y j : EReal)) (n : EReal) + e)) :=
  isReal_rsqrt_add (isReal_moments y hn.ne') (moments_nonneg y hn hcard) he he0

end Var

end Cert.Net
-- ==== Proof.RefRead2.lean ====
import proofs.«163161_j55817394979591_1_alg».proof.Proof.RefRead
import proofs.«163161_j55817394979591_1_alg».proof.Proof.NetDefs
import proofs.«163161_j55817394979591_1_alg».proof.Proof.Finite

/-! The reference's value functions at an index, restated in the network's own vocabulary: the projection, a layer's combination,
    the column sum, mean and centred variance, and the rectified normalisation, each entry by entry. A vector of 128 enters as the
    row of shape 1 × 128 it is spread from. -/

noncomputable section

namespace Cert.ReferenceIdeal.RefValue

open Cert.ReferenceIdeal Cert.ReferenceIdeal.Gen Idealize.ShloMosaic Idealize.ShloMosaic.ValueIdx Cert.Net
open scoped BigOperators

/-- A vector of 128 as the row of shape 1 × 128 with the same entries. -/
def asRow (v : Arr Ideal S128 .f32) : (⟨2, ![1, 128]⟩ : Shape).Idx → EReal := fun i => v (ix1 (i 1))

theorem asRow_apply (v : Arr Ideal S128 .f32) (c : Fin 128) : asRow v (ix2 (0 : Fin 1) c) = v (ix1 c) := rfl

/-- The input projection, entry by entry. -/
theorem h0_apply_net (x : Arr Ideal S100000x128 .f32) (w : Arr Ideal S128x128 .f32) (b : Arr Ideal S128 .f32)
    (r : Fin 100000) (j : Fin 128) : h0 x w b (ix2 r j) = projAt x w (asRow b) r j := by
  rw [h0_apply]
  rfl

/-- A layer's combination of the halved arrays, entry by entry; `1 - β` is the exact difference of the two literals. -/
theorem comb_half_apply_net (β : BitVec 32) (a p : Arr Ideal S100000x128 .f32) (w1 w2 : Arr Ideal S128x128 .f32)
    (r : Fin 100000) (j : Fin 128) :
    comb β (half a) (half p) w1 w2 (ix2 r j)
      = combineAt (Ideal.ofBits .f32 β) (Ideal.ofBits .f32 0x3F800000#32 - Ideal.ofBits .f32 β) a p w1 w2 r j := by
  rw [comb_half_apply]
  rfl

/-- … and as a whole array. -/
theorem comb_half_eq_net (β : BitVec 32) (a p : Arr Ideal S100000x128 .f32) (w1 w2 : Arr Ideal S128x128 .f32) :
    comb β (half a) (half p) w1 w2
      = fun i => combineAt (Ideal.ofBits .f32 β) (Ideal.ofBits .f32 0x3F800000#32 - Ideal.ofBits .f32 β) a p w1 w2 (i 0) (i 1) :=
  funext fun i => (congrArg (comb β (half a) (half p) w1 w2) (eq_ix2 i)).trans (comb_half_apply_net β a p w1 w2 (i 0) (i 1))

/-- The mean over the nodes is the column sum over the number of rows. -/
theorem mean_apply_net (y : Arr Ideal S100000x128 .f32) (j : Fin 128) : mean y (ix1 j) = meanOf (colSum y) j := by
  rw [mean_apply]
  rfl

/-- The variance's guard holds: `100000 - 0 > 0`. -/
theorem cmp_varDen : Ideal.cmp .ogt (Ideal.ofBits .f32 0x47C35000#32 - (((0#32 : BitVec 32).toInt : ℝ) : EReal))
    (Ideal.ofBits .f32 0x00000000#32) = 1#1 := by
  rw [n_sub_zero, ofBits_zero]
  have h : (0 : EReal) < ((100000 : ℝ) : EReal) := EReal.coe_pos.mpr n_pos
  simp [Ideal.cmp, h]

/-- The variance over the nodes is the centred variance. -/
theorem var_apply_net (y : Arr Ideal S100000x128 .f32) (j : Fin 128) : var y (ix1 j) = varCentred y j := by
  rw [var_apply_of_pos y j cmp_varDen, n_sub_zero, ← ofBits_100000]
  rfl

/-- One layer, entry by entry: the rectified normalisation of its combination `y` by `y`'s own mean and centred variance. -/
theorem layerOf_apply_net (β : BitVec 32) (h h0v : Arr Ideal S100000x128 .f32) (nrm : Arr Ideal S700000 .f32)
    (src dst : Arr Ideal S700000 .i32) (w1 w2 : Arr Ideal S128x128 .f32) (γ βb : Arr Ideal S128 .f32)
    (r : Fin 100000) (j : Fin 128) :
    layerOf β h h0v nrm src dst w1 w2 γ βb (ix2 r j)
      = normReluAt
          (fun i => combineAt (Ideal.ofBits .f32 β) (Ideal.ofBits .f32 0x3F800000#32 - Ideal.ofBits .f32 β)
            (agg h nrm src dst) h0v w1 w2 (i 0) (i 1))
          (fun i => meanOf (colSum fun i => combineAt (Ideal.ofBits .f32 β) (Ideal.ofBits .f32 0x3F800000#32 - Ideal.ofBits .f32 β)
            (agg h nrm src dst) h0v w1 w2 (i 0) (i 1)) (i 1))
          (fun i => varCentred (fun i => combineAt (Ideal.ofBits .f32 β) (Ideal.ofBits .f32 0x3F800000#32 - Ideal.ofBits .f32 β)
            (agg h nrm src dst) h0v w1 w2 (i 0) (i 1)) (i 1))
          (asRow γ) (asRow βb) r j := by
  rw [layerOf_apply, mean_apply_net, var_apply_net, comb_half_eq_net]
  rfl

end Cert.ReferenceIdeal.RefValue

end
-- ==== Proof.NetLaws.lean ====
import proofs.«163161_j55817394979591_1_alg».proof.Proof.NetDefs
import proofs.«163161_j55817394979591_1_alg».proof.Proof.Finite

/-! The layer's laws over the extended reals: on real entries the two forms of the variance agree, and every value a layer
    computes from real entries — projection, combination, mean, variance, rectified normalisation — is again a real. Arrays are
    functions of a rank-2 index read at `ix2 r c`; a vector of 128 is a row of shape 1 × 128 read at `ix2 0 c`. -/

noncomputable section

namespace Cert.Net

open Idealize.ShloMosaic Idealize.ShloMosaic.ValueIdx
open scoped BigOperators

section Column

variable {y : (⟨2, ![100000, 128]⟩ : Shape).Idx → EReal}

/-- A column of an array of reals is the coercion of a real family over the rows. -/
theorem exists_col (hy : ∀ i, IsReal (y i)) (j : Fin 128) : ∃ g : Fin 100000 → ℝ, ∀ r, y (ix2 r j) = (g r : EReal) :=
  ⟨fun r => (y (ix2 r j)).toReal, fun r => (hy _).eq_coe_toReal⟩

/-- (L1) On real entries the variance from the two moments is the centred variance. -/
theorem var_moments_eq_centred (hy : ∀ i, IsReal (y i)) (j : Fin 128) :
    varMoments (colSum y) (colSumSq y) j = varCentred y j := by
  obtain ⟨g, hg⟩ := exists_col hy j
  unfold varMoments varCentred meanOf colSum colSumSq
  simp only [hg]
  rw [ofBits_100000]
  exact (Cert.Lib.var_ereal g 100000 n_ne_zero card_fin_n).symm

/-- The mean of a column of reals is a real. -/
theorem isReal_meanOf_colSum (hy : ∀ i, IsReal (y i)) (j : Fin 128) : IsReal (meanOf (colSum y) j) := by
  unfold meanOf colSum
  rw [ofBits_100000]
  exact (IsReal.sum_univ _ fun r => hy _).div n_ne_zero

/-- The centred variance of a column of reals is a real … -/
theorem isReal_varCentred (hy : ∀ i, IsReal (y i)) (j : Fin 128) : IsReal (varCentred y j) := by
  obtain ⟨g, hg⟩ := exists_col hy j
  unfold varCentred meanOf colSum
  simp only [hg]
  rw [ofBits_100000]
  exact isReal_var g n_ne_zero

/-- … and is not negative. -/
theorem varCentred_nonneg (hy : ∀ i, IsReal (y i)) (j : Fin 128) : 0 ≤ varCentred y j := by
  obtain ⟨g, hg⟩ := exists_col hy j
  unfold varCentred meanOf colSum
  simp only [hg]
  rw [ofBits_100000]
  exact Cert.Lib.var_ereal_nonneg g n_pos

/-- The same two facts for the variance from the moments. -/
theorem isReal_varMoments (hy : ∀ i, IsReal (y i)) (j : Fin 128) : IsReal (varMoments (colSum y) (colSumSq y) j) := by
  rw [var_moments_eq_centred hy]; exact isReal_varCentred hy j

theorem varMoments_nonneg (hy : ∀ i, IsReal (y i)) (j : Fin 128) : 0 ≤ varMoments (colSum y) (colSumSq y) j := by
  rw [var_moments_eq_centred hy]; exact varCentred_nonneg hy j

/-- The reciprocal square root the normalisation multiplies by is a real: the variance plus the positive literal is positive. -/
theorem isReal_rsqrt_varCentred_add (hy : ∀ i, IsReal (y i)) (j : Fin 128) :
    IsReal (Ideal.rsqrt (varCentred y j + Ideal.ofBits .f32 0x3727C5AC#32)) :=
  isReal_rsqrt_add (isReal_varCentred hy j) (varCentred_nonneg hy j) isReal_ofBits_eps ofBits_eps_pos

theorem isReal_rsqrt_varMoments_add (hy : ∀ i, IsReal (y i)) (j : Fin 128) :
    IsReal (Ideal.rsqrt (varMoments (colSum y) (colSumSq y) j + Ideal.ofBits .f32 0x3727C5AC#32)) := by
  rw [var_moments_eq_centred hy]; exact isReal_rsqrt_varCentred_add hy j

end Column

/-- (L2) The projection of reals is a real. -/
theorem isReal_projAt {x : (⟨2, ![100000, 128]⟩ : Shape).Idx → EReal} {w : (⟨2, ![128, 128]⟩ : Shape).Idx → EReal}
    {b2 : (⟨2, ![1, 128]⟩ : Shape).Idx → EReal} (hx : ∀ i, IsReal (x i)) (hw : ∀ i, IsReal (w i)) (hb : ∀ i, IsReal (b2 i))
    (r : Fin 100000) (c : Fin 128) : IsReal (projAt x w b2 r c) :=
  (IsReal.sum_univ _ fun k => (hx _).mul (hw _)).add (hb _)

/-- (L2) A layer's combination of reals, with real coefficients, is a real. -/
theorem isReal_combineAt {β c : EReal} {a p : (⟨2, ![100000, 128]⟩ : Shape).Idx → EReal}
    {W1 W2 : (⟨2, ![128, 128]⟩ : Shape).Idx → EReal} (hβ : IsReal β) (hc : IsReal c) (ha : ∀ i, IsReal (a i))
    (hp : ∀ i, IsReal (p i)) (h1 : ∀ i, IsReal (W1 i)) (h2 : ∀ i, IsReal (W2 i)) (r : Fin 100000) (j : Fin 128) :
    IsReal (combineAt β c a p W1 W2 r j) :=
  (((hc.mul (isReal_ofBits_half.mul (ha _))).add
      (hβ.mul (IsReal.sum_univ _ fun k => (isReal_ofBits_half.mul (ha _)).mul (h1 _)))).add
    (hc.mul (isReal_ofBits_half.mul (hp _)))).add
    (hβ.mul (IsReal.sum_univ _ fun k => (isReal_ofBits_half.mul (hp _)).mul (h2 _)))

/-- (L3) The rectified normalisation of an array of reals by its own mean and centred variance, with real scale and shift, is a
    real. -/
theorem isReal_normReluAt {y : (⟨2, ![100000, 128]⟩ : Shape).Idx → EReal} {gamma beta : (⟨2, ![1, 128]⟩ : Shape).Idx → EReal}
    (hy : ∀ i, IsReal (y i)) (hg : ∀ i, IsReal (gamma i)) (hb : ∀ i, IsReal (beta i)) (r : Fin 100000) (c : Fin 128) :
    IsReal (normReluAt y (fun i => meanOf (colSum y) (i 1)) (fun i => varCentred y (i 1)) gamma beta r c) :=
  ((((hg _).mul ((hy _).sub (isReal_meanOf_colSum hy c))).mul (isReal_rsqrt_varCentred_add hy c)).add (hb _)).max IsReal.zero

/-- (L4) The same with the variance from the two moments. -/
theorem isReal_normReluAt_moments {y : (⟨2, ![100000, 128]⟩ : Shape).Idx → EReal}
    {gamma beta : (⟨2, ![1, 128]⟩ : Shape).Idx → EReal}
    (hy : ∀ i, IsReal (y i)) (hg : ∀ i, IsReal (gamma i)) (hb : ∀ i, IsReal (beta i)) (r : Fin 100000) (c : Fin 128) :
    IsReal (normReluAt y (fun i => meanOf (colSum y) (i 1)) (fun i => varMoments (colSum y) (colSumSq y) (i 1)) gamma beta r c) :=
  ((((hg _).mul ((hy _).sub (isReal_meanOf_colSum hy c))).mul (isReal_rsqrt_varMoments_add hy c)).add (hb _)).max IsReal.zero

/-- (L4) … and the two normalisations agree. -/
theorem normReluAt_moments_eq_centred {y : (⟨2, ![100000, 128]⟩ : Shape).Idx → EReal}
    {mu gamma beta : (⟨2, ![1, 128]⟩ : Shape).Idx → EReal} (hy : ∀ i, IsReal (y i)) (r : Fin 100000) (c : Fin 128) :
    normReluAt y mu (fun i => varMoments (colSum y) (colSumSq y) (i 1)) gamma beta r c
      = normReluAt y mu (fun i => varCentred y (i 1)) gamma beta r c := by
  exact congrArg (fun v => normReluAt y mu v gamma beta r c) (funext fun i => var_moments_eq_centred hy (i 1))

/-! ### (L5) The layers' coefficients: one, as its literal, minus each layer's literal -/

theorem lit_one_sub_3F317218 :
    Ideal.ofBits .f32 0x3F800000#32 - Ideal.ofBits .f32 0x3F317218#32 = Ideal.ofBits .f32 0x3E9D1BD0#32 := by
  rw [ofBits_one]; exact one_sub_3F317218
theorem lit_one_sub_3ECF991F :
    Ideal.ofBits .f32 0x3F800000#32 - Ideal.ofBits .f32 0x3ECF991F#32 = ((19949281 / 33554432 : ℝ) : EReal) := by
  rw [ofBits_one]; exact one_sub_3ECF991F
theorem lit_one_sub_3E934B11 :
    Ideal.ofBits .f32 0x3F800000#32 - Ideal.ofBits .f32 0x3E934B11#32 = ((23901423 / 33554432 : ℝ) : EReal) := by
  rw [ofBits_one]; exact one_sub_3E934B11
theorem lit_one_sub_3E647FBE :
    Ideal.ofBits .f32 0x3F800000#32 - Ideal.ofBits .f32 0x3E647FBE#32 = ((26066977 / 33554432 : ℝ) : EReal) := by
  rw [ofBits_one]; exact one_sub_3E647FBE

/-- Each such difference is a real. -/
theorem isReal_lit_one_sub_3F317218 : IsReal (Ideal.ofBits .f32 0x3F800000#32 - Ideal.ofBits .f32 0x3F317218#32) :=
  isReal_ofBits_one.sub isReal_ofBits_3F317218
theorem isReal_lit_one_sub_3ECF991F : IsReal (Ideal.ofBits .f32 0x3F800000#32 - Ideal.ofBits .f32 0x3ECF991F#32) :=
  isReal_ofBits_one.sub isReal_ofBits_3ECF991F
theorem isReal_lit_one_sub_3E934B11 : IsReal (Ideal.ofBits .f32 0x3F800000#32 - Ideal.ofBits .f32 0x3E934B11#32) :=
  isReal_ofBits_one.sub isReal_ofBits_3E934B11
theorem isReal_lit_one_sub_3E647FBE : IsReal (Ideal.ofBits .f32 0x3F800000#32 - Ideal.ofBits .f32 0x3E647FBE#32) :=
  isReal_ofBits_one.sub isReal_ofBits_3E647FBE

end Cert.Net

end
-- ==== Proof.Bridge.lean ====
import proofs.«163161_j55817394979591_1_alg».proof.Proof.KINet
import proofs.«163161_j55817394979591_1_alg».proof.Proof.RefRead2
import proofs.«163161_j55817394979591_1_alg».proof.Proof.NetLaws
import proofs.«163161_j55817394979591_1_alg».proof.Proof.RefRun

/-! The tiled program's network and the reference's are one function of the nine argument arrays, on real entries. Layer by
    layer: the tiled program's combination is the reference's (the neighbourhood sums are the same operations, the coefficient
    `1 - β` the same real), its column mean the reference's mean, and its variance from the two moments the reference's centred
    variance — the one place the entries must be reals. -/

noncomputable section

namespace Cert.Bridge

open Idealize.ShloMosaic Idealize.ShloMosaic.ValueIdx Idealize.ShloMosaic.TcCoe Idealize.SL.Sem
open Cert.Net Cert.KernelIdeal Cert.KernelIdeal.HandValue Cert.KernelIdeal.HandHost Cert.ReferenceIdeal.RefValue

/-! ### The two programs print the same host operations for the neighbourhood sum and the edge weights -/

set_option maxRecDepth 16384 in
/-- The tiled program's neighbourhood sum is the reference's (the same operations; the dimension records are equal constants). -/
theorem aggregate_agg (h : Vec Ideal Cert.KernelIdeal.S100000x128 .f32) (src dst : Vec Ideal Cert.KernelIdeal.S700000 .i32)
    (en : Vec Ideal Cert.KernelIdeal.S700000 .f32) : aggregate h src dst en = agg (F := Ideal) h en src dst := rfl

set_option maxRecDepth 16384 in
/-- The tiled program's edge weights are the reference's. -/
theorem edgeNorm_norm (src dst : Vec Ideal Cert.KernelIdeal.S700000 .i32) : edgeNorm src dst = norm (F := Ideal) src dst := rfl

variable (m : (ℓ : Loc nD τ sig) → Buf (Elt Ideal) ℓ) (c : Dev nD)

/-- One layer. With the tiled program's slices and statistics rows read as the reference's (`hws1` … `hvar`), the coefficient
    `cf` the exact `1 - β`, and the combination's entries real, the tiled program's layer output is the reference's layer. -/
theorem layer_eq (l : Fin 4) (βw : BitVec 32) (cf : EReal)
    (hcf : Ideal.ofBits .f32 0x3F800000#32 - Ideal.ofBits .f32 βw = cf)
    (w1 w2 : Arr Ideal Cert.ReferenceIdeal.S128x128 .f32) (γ βb : Arr Ideal Cert.ReferenceIdeal.S128 .f32)
    (hws1 : weightSlice l (A5 m c) = w1) (hws2 : weightSlice l (A6 m c) = w2)
    (hp7 : paramRow l (A7 m c) = asRow γ) (hp8 : paramRow l (A8 m c) = asRow βb)
    (hmean : ∀ y : Cert.KernelIdeal.S100000x128.Idx → EReal, meanRow (sumRow y) = fun i => meanOf (colSum y) (i 1))
    (hvar : ∀ y : Cert.KernelIdeal.S100000x128.Idx → EReal,
      varRow (sumRow y) (sumSqRow y) = fun i => varMoments (colSum y) (colSumSq y) (i 1))
    (h : Cert.KernelIdeal.S100000x128.Idx → EReal)
    (hY : ∀ i, IsReal (Ycomb m c l (Ideal.ofBits .f32 βw) cf h i)) :
    OUT m c l (Ideal.ofBits .f32 βw) cf h
      = layerOf βw h (H0 m c) (NRM m c) (A1 m c) (A2 m c) w1 w2 γ βb := by
  have hYk : Ycomb m c l (Ideal.ofBits .f32 βw) cf h
      = fun i => combineAt (Ideal.ofBits .f32 βw) (Ideal.ofBits .f32 0x3F800000#32 - Ideal.ofBits .f32 βw)
          (agg h (NRM m c) (A1 m c) (A2 m c)) (H0 m c) w1 w2 (i 0) (i 1) := by
    unfold Ycomb combine
    rw [aggregate_agg, hws1, hws2, hcf]
  funext i
  obtain ⟨r, j, rfl⟩ : ∃ (r : Fin 100000) (j : Fin 128), i = ix2 r j := ⟨i 0, i 1, eq_ix2 i⟩
  rw [layerOf_apply_net]
  rw [hYk] at hY
  unfold OUT normRelu
  rw [hYk, hmean, hvar, hp7, hp8]
  exact normReluAt_moments_eq_centred hY r j

/-- What the tiled program's host stretches compute, read as the reference spells it: the mean and moments-variance rows of a
    column-sum row, the bias row, and each layer's weight matrix and parameter rows as the reference's slices. -/
structure HostReads : Prop where
  mean : ∀ y : Cert.KernelIdeal.S100000x128.Idx → EReal, meanRow (sumRow y) = fun i => meanOf (colSum y) (i 1)
  var : ∀ y : Cert.KernelIdeal.S100000x128.Idx → EReal,
    varRow (sumRow y) (sumSqRow y) = fun i => varMoments (colSum y) (colSumSq y) (i 1)
  bias : ∀ b : Vec Ideal Cert.KernelIdeal.S128 .f32, biasRow b = asRow b
  w0 : ∀ w : Vec Ideal Cert.KernelIdeal.S4x128x128 .f32, weightSlice 0 w = wSlice0 w
  w1 : ∀ w : Vec Ideal Cert.KernelIdeal.S4x128x128 .f32, weightSlice 1 w = wSlice1 w
  w2 : ∀ w : Vec Ideal Cert.KernelIdeal.S4x128x128 .f32, weightSlice 2 w = wSlice2 w
  w3 : ∀ w : Vec Ideal Cert.KernelIdeal.S4x128x128 .f32, weightSlice 3 w = wSlice3 w
  p0 : ∀ g : Vec Ideal Cert.KernelIdeal.S4x128 .f32, paramRow 0 g = asRow (vSlice0 g)
  p1 : ∀ g : Vec Ideal Cert.KernelIdeal.S4x128 .f32, paramRow 1 g = asRow (vSlice1 g)
  p2 : ∀ g : Vec Ideal Cert.KernelIdeal.S4x128 .f32, paramRow 2 g = asRow (vSlice2 g)
  p3 : ∀ g : Vec Ideal Cert.KernelIdeal.S4x128 .f32, paramRow 3 g = asRow (vSlice3 g)

/-! ### Slices of arrays of reals are arrays of reals -/

theorem isReal_asRow {v : Arr Ideal Cert.ReferenceIdeal.S128 .f32} (hv : ∀ i, IsReal (v i)) : ∀ i, IsReal (asRow v i) :=
  fun _ => hv _
theorem isReal_wSlice0 {w : Arr Ideal Cert.ReferenceIdeal.S4x128x128 .f32} (hw : ∀ i, IsReal (w i)) : ∀ i, IsReal (wSlice0 w i) :=
  fun _ => by unfold wSlice0 shapeCast extractStridedSlice; exact hw _
theorem isReal_vSlice0 {g : Arr Ideal Cert.ReferenceIdeal.S4x128 .f32} (hg : ∀ i, IsReal (g i)) : ∀ i, IsReal (vSlice0 g i) :=
  fun _ => by unfold vSlice0 shapeCast extractStridedSlice; exact hg _
theorem isReal_wSlice1 {w : Arr Ideal Cert.ReferenceIdeal.S4x128x128 .f32} (hw : ∀ i, IsReal (w i)) : ∀ i, IsReal (wSlice1 w i) :=
  fun _ => by unfold wSlice1 shapeCast extractStridedSlice; exact hw _
theorem isReal_vSlice1 {g : Arr Ideal Cert.ReferenceIdeal.S4x128 .f32} (hg : ∀ i, IsReal (g i)) : ∀ i, IsReal (vSlice1 g i) :=
  fun _ => by unfold vSlice1 shapeCast extractStridedSlice; exact hg _
theorem isReal_wSlice2 {w : Arr Ideal Cert.ReferenceIdeal.S4x128x128 .f32} (hw : ∀ i, IsReal (w i)) : ∀ i, IsReal (wSlice2 w i) :=
  fun _ => by unfold wSlice2 shapeCast extractStridedSlice; exact hw _
theorem isReal_vSlice2 {g : Arr Ideal Cert.ReferenceIdeal.S4x128 .f32} (hg : ∀ i, IsReal (g i)) : ∀ i, IsReal (vSlice2 g i) :=
  fun _ => by unfold vSlice2 shapeCast extractStridedSlice; exact hg _
theorem isReal_wSlice3 {w : Arr Ideal Cert.ReferenceIdeal.S4x128x128 .f32} (hw : ∀ i, IsReal (w i)) : ∀ i, IsReal (wSlice3 w i) :=
  fun _ => by unfold wSlice3 shapeCast extractStridedSlice; exact hw _
theorem isReal_vSlice3 {g : Arr Ideal Cert.ReferenceIdeal.S4x128 .f32} (hg : ∀ i, IsReal (g i)) : ∀ i, IsReal (vSlice3 g i) :=
  fun _ => by unfold vSlice3 shapeCast extractStridedSlice; exact hg _

/-! ### The named coefficients -/

theorem named1 : Named.named (F := Ideal) Cert.KernelIdeal.κ "one_minus_beta_1" (φ := .f32) 0x3F183370#32
    = ((19949281 / 33554432 : ℝ) : EReal) := IdealRules.named_const.ideal_named_scalar _ _ _ _ rfl
theorem named2 : Named.named (F := Ideal) Cert.KernelIdeal.κ "one_minus_beta_2" (φ := .f32) 0x3F365A78#32
    = ((23901423 / 33554432 : ℝ) : EReal) := IdealRules.named_const.ideal_named_scalar _ _ _ _ rfl
theorem named3 : Named.named (F := Ideal) Cert.KernelIdeal.κ "one_minus_beta_3" (φ := .f32) 0x3F46E010#32
    = ((26066977 / 33554432 : ℝ) : EReal) := IdealRules.named_const.ideal_named_scalar _ _ _ _ rfl

/-! ### The projection -/

/-- The edge weights are the reference's. -/
theorem NRM_eq : NRM m c = norm (A1 m c) (A2 m c) := edgeNorm_norm _ _

/-- The projection is the reference's. -/
theorem H0_eq (hbias : biasRow (A4 m c) = asRow (A4 m c)) : H0 m c = h0 (A0 m c) (A3 m c) (A4 m c) := by
  funext i
  obtain ⟨r, j, rfl⟩ : ∃ (r : Fin 100000) (j : Fin 128), i = ix2 r j := ⟨i 0, i 1, eq_ix2 i⟩
  rw [h0_apply_net]
  unfold H0 proj
  rw [hbias]

/-- On real arguments the projection's entries are reals. -/
theorem H0_real (hbias : biasRow (A4 m c) = asRow (A4 m c)) (hx : ∀ i, IsReal (A0 m c i)) (hw : ∀ i, IsReal (A3 m c i))
    (hb : ∀ i, IsReal (A4 m c i)) : ∀ i, IsReal (H0 m c i) := fun i => by
  unfold H0 proj
  rw [hbias]
  exact isReal_projAt hx hw (isReal_asRow hb) _ _

/-! ### One layer: the equation and the realness it hands on -/

/-- The combination's entries are reals when its ingredients' are. -/
theorem Ycomb_real (l : Fin 4) (βe cf : EReal) (h : Cert.KernelIdeal.S100000x128.Idx → EReal) (hβ : IsReal βe) (hc : IsReal cf)
    (hagg : ∀ i, IsReal (aggregate h (A1 m c) (A2 m c) (NRM m c) i)) (hH0 : ∀ i, IsReal (H0 m c i))
    (h1 : ∀ i, IsReal (weightSlice l (A5 m c) i)) (h2 : ∀ i, IsReal (weightSlice l (A6 m c) i)) :
    ∀ i, IsReal (Ycomb m c l βe cf h i) := fun i => by
  unfold Ycomb combine
  exact isReal_combineAt hβ hc hagg hH0 h1 h2 _ _

/-- One layer of the tiled program is the reference's layer, and its entries are reals again. -/
theorem step (R : HostReads) (l : Fin 4) (βw : BitVec 32) (cf : EReal)
    (hcf : Ideal.ofBits .f32 0x3F800000#32 - Ideal.ofBits .f32 βw = cf) (hβ : IsReal (Ideal.ofBits .f32 βw))
    (w1 w2 : Arr Ideal Cert.ReferenceIdeal.S128x128 .f32) (γ βb : Arr Ideal Cert.ReferenceIdeal.S128 .f32)
    (hws1 : weightSlice l (A5 m c) = w1) (hws2 : weightSlice l (A6 m c) = w2)
    (hp7 : paramRow l (A7 m c) = asRow γ) (hp8 : paramRow l (A8 m c) = asRow βb)
    (hw1 : ∀ i, IsReal (w1 i)) (hw2 : ∀ i, IsReal (w2 i)) (hγ : ∀ i, IsReal (γ i)) (hβb : ∀ i, IsReal (βb i))
    (hH0 : ∀ i, IsReal (H0 m c i))
    (hagg : ∀ h : Cert.KernelIdeal.S100000x128.Idx → EReal, (∀ i, IsReal (h i)) → ∀ i, IsReal (agg h (NRM m c) (A1 m c) (A2 m c) i))
    (h : Cert.KernelIdeal.S100000x128.Idx → EReal) (hh : ∀ i, IsReal (h i)) :
    OUT m c l (Ideal.ofBits .f32 βw) cf h = layerOf βw h (H0 m c) (NRM m c) (A1 m c) (A2 m c) w1 w2 γ βb
      ∧ ∀ i, IsReal (OUT m c l (Ideal.ofBits .f32 βw) cf h i) := by
  have hc : IsReal cf := hcf ▸ isReal_ofBits_one.sub hβ
  have hY : ∀ i, IsReal (Ycomb m c l (Ideal.ofBits .f32 βw) cf h i) :=
    Ycomb_real m c l _ cf h hβ hc (fun i => by rw [aggregate_agg]; exact hagg h hh i) hH0
      (fun i => by rw [hws1]; exact hw1 i) (fun i => by rw [hws2]; exact hw2 i)
  refine ⟨layer_eq m c l βw cf hcf w1 w2 γ βb hws1 hws2 hp7 hp8 R.mean R.var h hY, fun i => ?_⟩
  unfold OUT normRelu
  rw [R.mean, R.var, hp7, hp8]
  exact isReal_normReluAt_moments hY (isReal_asRow hγ) (isReal_asRow hβb) _ _

/-! ### The four layers -/

/-- The tiled program's network is the reference's, on real arguments (the host reads, and the realness of the edge weights'
    neighbourhood sums, as hypotheses). -/
theorem bridge_of (R : HostReads)
    (hagg : ∀ h : Cert.KernelIdeal.S100000x128.Idx → EReal, (∀ i, IsReal (h i)) →
      ∀ i, IsReal (agg h (norm (A1 m c) (A2 m c)) (A1 m c) (A2 m c) i))
    (hx : ∀ i, IsReal (A0 m c i)) (hw : ∀ i, IsReal (A3 m c i)) (hb : ∀ i, IsReal (A4 m c i))
    (hw1 : ∀ i, IsReal (A5 m c i)) (hw2 : ∀ i, IsReal (A6 m c i)) (hg : ∀ i, IsReal (A7 m c i))
    (hbb : ∀ i, IsReal (A8 m c i)) :
    H4 m c = out3 (F := Ideal) (A0 m c) (A1 m c) (A2 m c) (A3 m c) (A4 m c) (A5 m c) (A6 m c) (A7 m c) (A8 m c) := by
  have eN : NRM m c = norm (A1 m c) (A2 m c) := NRM_eq m c
  have e0 : H0 m c = h0 (A0 m c) (A3 m c) (A4 m c) := H0_eq m c (R.bias _)
  have r0 : ∀ i, IsReal (H0 m c i) := H0_real m c (R.bias _) hx hw hb
  have hagg' : ∀ h : Cert.KernelIdeal.S100000x128.Idx → EReal, (∀ i, IsReal (h i)) →
      ∀ i, IsReal (agg h (NRM m c) (A1 m c) (A2 m c) i) := by rw [eN]; exact hagg
  obtain ⟨e1, r1⟩ := step m c R 0 0x3F317218#32 _ lit_one_sub_3F317218 isReal_ofBits_3F317218
    (wSlice0 (A5 m c)) (wSlice0 (A6 m c)) (vSlice0 (A7 m c)) (vSlice0 (A8 m c)) (R.w0 _) (R.w0 _) (R.p0 _) (R.p0 _)
    (isReal_wSlice0 hw1) (isReal_wSlice0 hw2) (isReal_vSlice0 hg) (isReal_vSlice0 hbb) r0 hagg' (H0 m c) r0
  obtain ⟨e2, r2⟩ := step m c R 1 0x3ECF991F#32 _ (lit_one_sub_3ECF991F.trans named1.symm) isReal_ofBits_3ECF991F
    (wSlice1 (A5 m c)) (wSlice1 (A6 m c)) (vSlice1 (A7 m c)) (vSlice1 (A8 m c)) (R.w1 _) (R.w1 _) (R.p1 _) (R.p1 _)
    (isReal_wSlice1 hw1) (isReal_wSlice1 hw2) (isReal_vSlice1 hg) (isReal_vSlice1 hbb) r0 hagg' (H1 m c) r1
  obtain ⟨e3, r3⟩ := step m c R 2 0x3E934B11#32 _ (lit_one_sub_3E934B11.trans named2.symm) isReal_ofBits_3E934B11
    (wSlice2 (A5 m c)) (wSlice2 (A6 m c)) (vSlice2 (A7 m c)) (vSlice2 (A8 m c)) (R.w2 _) (R.w2 _) (R.p2 _) (R.p2 _)
    (isReal_wSlice2 hw1) (isReal_wSlice2 hw2) (isReal_vSlice2 hg) (isReal_vSlice2 hbb) r0 hagg' (H2 m c) r2
  obtain ⟨e4, -⟩ := step m c R 3 0x3E647FBE#32 _ (lit_one_sub_3E647FBE.trans named3.symm) isReal_ofBits_3E647FBE
    (wSlice3 (A5 m c)) (wSlice3 (A6 m c)) (vSlice3 (A7 m c)) (vSlice3 (A8 m c)) (R.w3 _) (R.w3 _) (R.p3 _) (R.p3 _)
    (isReal_wSlice3 hw1) (isReal_wSlice3 hw2) (isReal_vSlice3 hg) (isReal_vSlice3 hbb) r0 hagg' (H3 m c) r3
  have E1 : H1 m c = out0 (F := Ideal) (A0 m c) (A1 m c) (A2 m c) (A3 m c) (A4 m c) (A5 m c) (A6 m c) (A7 m c) (A8 m c) :=
    e1.trans (by rw [e0, eN]; rfl)
  have E2 : H2 m c = out1 (F := Ideal) (A0 m c) (A1 m c) (A2 m c) (A3 m c) (A4 m c) (A5 m c) (A6 m c) (A7 m c) (A8 m c) :=
    e2.trans (by rw [E1, e0, eN]; rfl)
  have E3 : H3 m c = out2 (F := Ideal) (A0 m c) (A1 m c) (A2 m c) (A3 m c) (A4 m c) (A5 m c) (A6 m c) (A7 m c) (A8 m c) :=
    e3.trans (by rw [E2, e0, eN]; rfl)
  exact e4.trans (by rw [E3, e0, eN]; rfl)

/-! ### The host reads, proved here from the definitions -/

theorem meanRow_sumRow (y : Cert.KernelIdeal.S100000x128.Idx → EReal) : meanRow (sumRow y) = fun i => meanOf (colSum y) (i 1) := by
  funext i
  unfold meanRow
  rw [hostDivf_apply, broadcastInDim_scalar_apply]
  rfl

theorem varRow_sumRow (y : Cert.KernelIdeal.S100000x128.Idx → EReal) :
    varRow (sumRow y) (sumSqRow y) = fun i => varMoments (colSum y) (colSumSq y) (i 1) := by
  funext i
  unfold varRow
  rw [subf_apply, mulf_apply, hostDivf_apply, broadcastInDim_scalar_apply, meanRow_sumRow]
  rfl

theorem biasRow_asRow (b : Vec Ideal Cert.KernelIdeal.S128 .f32) : biasRow b = asRow b := by
  funext i
  obtain ⟨u, j, rfl⟩ : ∃ (u : Fin 1) (j : Fin 128), i = ix2 u j := ⟨i 0, i 1, eq_ix2 i⟩
  exact shapeCast_a_1a_apply b _ u j

theorem weightSlice_0 (w : Vec Ideal Cert.KernelIdeal.S4x128x128 .f32) : weightSlice 0 w = wSlice0 w := rfl
theorem paramRow_0 (g : Vec Ideal Cert.KernelIdeal.S4x128 .f32) : paramRow 0 g = asRow (vSlice0 g) := by
  funext i
  obtain ⟨u, j, rfl⟩ : ∃ (u : Fin 1) (j : Fin 128), i = ix2 u j := ⟨i 0, i 1, eq_ix2 i⟩
  exact shapeCast_a_1a_apply _ _ u j
theorem weightSlice_1 (w : Vec Ideal Cert.KernelIdeal.S4x128x128 .f32) : weightSlice 1 w = wSlice1 w := rfl
theorem paramRow_1 (g : Vec Ideal Cert.KernelIdeal.S4x128 .f32) : paramRow 1 g = asRow (vSlice1 g) := by
  funext i
  obtain ⟨u, j, rfl⟩ : ∃ (u : Fin 1) (j : Fin 128), i = ix2 u j := ⟨i 0, i 1, eq_ix2 i⟩
  exact shapeCast_a_1a_apply _ _ u j
theorem weightSlice_2 (w : Vec Ideal Cert.KernelIdeal.S4x128x128 .f32) : weightSlice 2 w = wSlice2 w := rfl
theorem paramRow_2 (g : Vec Ideal Cert.KernelIdeal.S4x128 .f32) : paramRow 2 g = asRow (vSlice2 g) := by
  funext i
  obtain ⟨u, j, rfl⟩ : ∃ (u : Fin 1) (j : Fin 128), i = ix2 u j := ⟨i 0, i 1, eq_ix2 i⟩
  exact shapeCast_a_1a_apply _ _ u j
theorem weightSlice_3 (w : Vec Ideal Cert.KernelIdeal.S4x128x128 .f32) : weightSlice 3 w = wSlice3 w := rfl
theorem paramRow_3 (g : Vec Ideal Cert.KernelIdeal.S4x128 .f32) : paramRow 3 g = asRow (vSlice3 g) := by
  funext i
  obtain ⟨u, j, rfl⟩ : ∃ (u : Fin 1) (j : Fin 128), i = ix2 u j := ⟨i 0, i 1, eq_ix2 i⟩
  exact shapeCast_a_1a_apply _ _ u j

/-- The host reads hold. -/
theorem hostReads : HostReads :=
  ⟨meanRow_sumRow, varRow_sumRow, biasRow_asRow, weightSlice_0, weightSlice_1, weightSlice_2, weightSlice_3,
    paramRow_0, paramRow_1, paramRow_2, paramRow_3⟩

/-- The tiled program's network is the reference's, on real arguments, given that the neighbourhood sum of an array of reals is
    an array of reals. -/
theorem bridge
    (hagg : ∀ h : Cert.KernelIdeal.S100000x128.Idx → EReal, (∀ i, IsReal (h i)) →
      ∀ i, IsReal (agg h (norm (A1 m c) (A2 m c)) (A1 m c) (A2 m c) i))
    (hx : ∀ i, IsReal (A0 m c i)) (hw : ∀ i, IsReal (A3 m c i)) (hb : ∀ i, IsReal (A4 m c i))
    (hw1 : ∀ i, IsReal (A5 m c i)) (hw2 : ∀ i, IsReal (A6 m c i)) (hg : ∀ i, IsReal (A7 m c i))
    (hbb : ∀ i, IsReal (A8 m c i)) :
    H4 m c = out3 (F := Ideal) (A0 m c) (A1 m c) (A2 m c) (A3 m c) (A4 m c) (A5 m c) (A6 m c) (A7 m c) (A8 m c) :=
  bridge_of m c hostReads hagg hx hw hb hw1 hw2 hg hbb

end Cert.Bridge

end
-- ==== Proof.FiniteArgs.lean ====
import proofs.«163161_j55817394979591_1_alg».proof.Pre_finite_inputs
import proofs.«163161_j55817394979591_1_alg».proof.Proof.Finite
import Idealize.ShloMosaic.Lib.ReduceAll
import Idealize.ShloMosaic.Lib.IdealHost

/-! From the precondition to the entries: the precondition is the conjunction, over the seven float argument arrays, of
    `all (|x| < +inf)`; at the exact reals an entry whose absolute value is below `+inf` is a real number. The two integer
    arrays are not constrained. -/

namespace Cert.Pre_finite_inputs.Hand

open Idealize.ShloMosaic Idealize.ShloMosaic.ValueIdx Cert.Pre_finite_inputs Cert.Net

/-- The rank-0 shape has one index. -/
instance : Subsingleton S_.Idx := ⟨fun _ _ => funext fun d => d.elim0⟩

/-- The word `0x7F800000` is `+inf`. -/
theorem ofBits_inf : Ideal.ofBits .f32 0x7F800000#32 = (⊤ : EReal) := by
  simp [Ideal.ofBits, Ideal.ieee]

/-- An extended real whose absolute value compares below `+inf` is a real. -/
theorem isReal_of_abs_olt (a : EReal)
    (h : Ideal.cmp .olt (max a (-a)) (Ideal.ofBits .f32 0x7F800000#32) = 1#1) : IsReal a := by
  rw [ofBits_inf] at h
  refine IsReal.iff_abs_lt_top.2 ?_
  by_contra hn
  simp [Ideal.cmp, hn] at h

variable [Facts]

/-- An array whose `all (|x| < +inf)` came out 1 has only real entries. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
        (constantI S_ 1 1#1) hr hu ix0 = 1#1) (i : s.Idx) : IsReal (x i) := by
  have h := Host.reduce_andi_all _ _ hr hu ix0 e i
  rw [cmpf_apply, broadcastInDim_scalar_apply] at h
  exact isReal_of_abs_olt (x i) h

/-- Under the precondition every entry of the seven float argument arrays is a real. -/
theorem reals_of_pre (x : FVec Ideal S100000x128 .f32) (src dst : IVec S700000 32) (w_proj : FVec Ideal S128x128 .f32)
    (b_proj : FVec Ideal S128 .f32) (w1 w2 : FVec Ideal S4x128x128 .f32) (gamma beta_bn : FVec Ideal S4x128 .f32)
    (h : fn (F := Ideal) x src dst w_proj b_proj w1 w2 gamma beta_bn = fun _ => 1#1) :
    (∀ i, IsReal (x i)) ∧ (∀ i, IsReal (w_proj i)) ∧ (∀ i, IsReal (b_proj i)) ∧ (∀ i, IsReal (w1 i)) ∧ (∀ i, IsReal (w2 i))
      ∧ (∀ i, IsReal (gamma i)) ∧ (∀ i, IsReal (beta_bn i)) := by
  have h0 : fn (F := Ideal) x src dst w_proj b_proj w1 w2 gamma beta_bn ix0 = 1#1 := congrFun h ix0
  have hand : ∀ (a b : IVec S_ 1) (i : S_.Idx), andi a b i = IntOp.andi (a i) (b i) := fun _ _ _ => rfl
  unfold fn fn_part1 at h0
  simp only [hand, IntOp.andi_eq_one] at h0
  obtain ⟨⟨⟨⟨⟨⟨e0, e3⟩, e4⟩, e5⟩, e6⟩, e7⟩, e8⟩ := h0
  exact ⟨all_real x _ _ _ e0, all_real w_proj _ _ _ e3, all_real b_proj _ _ _ e4, all_real w1 _ _ _ e5,
    all_real w2 _ _ _ e6, all_real gamma _ _ _ e7, all_real beta_bn _ _ _ e8⟩

end Cert.Pre_finite_inputs.Hand
-- ==== Proof.AggRealRows.lean ====
import proofs.«163161_j55817394979591_1_alg».proof.Proof.RefRun7
import proofs.«163161_j55817394979591_1_alg».proof.Proof.Finite

/-!
# The neighbourhood sum of real arrays is real

Every entry of the neighbourhood sum is the zero it starts from plus a finite sum of products: each summand is an
entry of the feature array (the gathered source row's) times an entry of the edge-weight array.  So when every
feature entry and every edge weight is a real number, so is every entry of the sum.  Which rows are gathered and
where the products are added does not matter for this.
-/

noncomputable section

namespace Cert.ReferenceIdeal.RefValue

open Idealize.ShloMosaic Cert.ReferenceIdeal Cert.Net

/-- The neighbourhood sum of a real feature array under real edge weights is real at every entry, whatever the
    edges' source and destination indices. -/
theorem agg_real (h : Arr Ideal S100000x128 .f32) (nrm : Arr Ideal S700000 .f32) (src dst : Arr Ideal S700000 .i32)
    (hh : ∀ i, IsReal (h i)) (hn : ∀ e, IsReal (nrm e)) : ∀ i, IsReal (agg (F := Ideal) h nrm src dst i) := by
  intro i
  show IsReal (Ideal.hostScatterAdd _ _ _ _ i)
  unfold Ideal.hostScatterAdd
  refine IsReal.add ?_ (IsReal.sum _ _ fun J _ => ?_)
  · exact isReal_ofBits_zero
  · exact IsReal.mul (hh _) (hn _)

end Cert.ReferenceIdeal.RefValue
-- ==== Proof.AggRealNorm.lean ====
import proofs.«163161_j55817394979591_1_alg».proof.Proof.RefRun7
import proofs.«163161_j55817394979591_1_alg».proof.Proof.Finite

/-!
# The edge weights are real

A node's in-degree is zero plus a finite sum of ones, so it is a real number.  Raised to at least one it is a
positive real, whose reciprocal square root is real; the node's norm is that or zero, real either way.  An edge's
weight is the product of two nodes' norms.  Each step is stated for an arbitrary real array first, so that the
in-degrees themselves are never opened.
-/

noncomputable section

namespace Cert.ReferenceIdeal.RefValue

open Idealize.ShloMosaic Cert.ReferenceIdeal Cert.Net

/-- A choice between two reals by a one-bit word is real, whatever the word. -/
theorem select_real (b : BitVec 1) {x y : EReal} (hx : IsReal x) (hy : IsReal y) : IsReal (Scalar.select b x y) := by
  unfold Scalar.select
  split
  · exact hx
  · exact hy

/-- The reciprocal square root of a real raised to at least one is real. -/
theorem rsqrt_max_one_real {x : EReal} (hx : IsReal x) :
    IsReal (Ideal.rsqrt (max x (Ideal.ofBits .f32 0x3F800000#32))) := by
  have h01 : (0 : EReal) < 1 := by rw [← EReal.coe_one]; exact EReal.coe_pos.mpr one_pos
  rw [ofBits_one]
  exact IsReal.rsqrt_of_pos (IsReal.max hx IsReal.one) (lt_of_lt_of_le h01 (le_max_right _ _))

/-- For ANY real array `d` over the nodes and ANY flags `c`: the reciprocal square root of `d` raised to at least
    one where flagged, zero elsewhere, is real at every node. -/
theorem dis_form_real (c : IVec S100000 1) (d : FVec Ideal S100000 .f32) (hd : ∀ n, IsReal (d n)) :
    ∀ n, IsReal (select c (Host.rsqrt (F := Ideal) (φ := .f32) (maximumf (F := Ideal) (φ := .f32) d (oneN (F := Ideal))))
      (zeroN (F := Ideal)) n) := by
  intro n
  show IsReal (Scalar.select (c n) (Ideal.rsqrt (max (d n) (Ideal.ofBits .f32 0x3F800000#32)))
    (Ideal.ofBits .f32 0x00000000#32))
  exact select_real _ (rsqrt_max_one_real (hd n)) isReal_ofBits_zero

/-- For ANY real array `d` over the nodes: the product of its entries at two gathered nodes is real at every edge. -/
theorem norm_form_real (d : FVec Ideal S100000 .f32) (hd : ∀ n, IsReal (d n)) (i j : Arr Ideal S700000x1 .i32) :
    ∀ e, IsReal (mulf (F := Ideal) (φ := .f32) (Host.gather gather_S100000_S700000x1_S700000_n_0_n_n_0_1_1 d i)
      (Host.gather gather_S100000_S700000x1_S700000_n_0_n_n_0_1_1 d j) e) :=
  fun e => IsReal.mul (hd _) (hd _)

/-- Every in-degree is real: zero plus a finite sum of ones. -/
theorem deg_real (dst : Arr Ideal S700000 .i32) : ∀ n, IsReal (deg (F := Ideal) dst n) := by
  intro n
  show IsReal (Ideal.hostScatterAdd _ _ _ _ n)
  unfold Ideal.hostScatterAdd
  refine IsReal.add ?_ (IsReal.sum _ _ fun J _ => ?_)
  · exact isReal_ofBits_zero
  · exact isReal_ofBits_one

/-- Every node's norm is real. -/
theorem dis_real (dst : Arr Ideal S700000 .i32) : ∀ n, IsReal (dis (F := Ideal) dst n) := by
  intro n
  unfold dis
  exact dis_form_real _ _ (deg_real dst) n

/-- Every edge's weight is real: the product of its two end nodes' norms. -/
theorem norm_real (src dst : Arr Ideal S700000 .i32) : ∀ e, IsReal (norm (F := Ideal) src dst e) := by
  intro e
  unfold norm
  exact norm_form_real _ (dis_real dst) _ _ e

end Cert.ReferenceIdeal.RefValue
-- ==== Proof.Algebraic.lean ====
/-
  The two programs compute the same network. The tiled program's run leaves the four layers applied to the projection
  in its result buffer; the plain program's run leaves its own composition of the layers there; entry by entry the two
  agree — the projection, the aggregation and the combination are the same expressions, the column means the same
  quotients, and the variance Σy²/N − μ² equals Σ(y − μ)²/N because every y is a finite real, which finite inputs
  guarantee through every layer (degrees are non-negative, variances are non-negative, so every inverse square root is
  taken of a positive real).
-/
import proofs.«163161_j55817394979591_1_alg».proof.Defs
import proofs.«163161_j55817394979591_1_alg».proof.Proof.Gen.KernelIdeal
import proofs.«163161_j55817394979591_1_alg».proof.Proof.Gen.ReferenceIdeal
import proofs.«163161_j55817394979591_1_alg».proof.Proof.Gen.Pre_finite_inputs
import proofs.«163161_j55817394979591_1_alg».proof.Proof.KIFrame
import proofs.«163161_j55817394979591_1_alg».proof.Proof.KIChain
import proofs.«163161_j55817394979591_1_alg».proof.Proof.RefRun
import proofs.«163161_j55817394979591_1_alg».proof.Proof.Bridge
import proofs.«163161_j55817394979591_1_alg».proof.Proof.FiniteArgs
import proofs.«163161_j55817394979591_1_alg».proof.Proof.AggRealRows
import proofs.«163161_j55817394979591_1_alg».proof.Proof.AggRealNorm

noncomputable section

namespace Cert.Proof

open Idealize.ShloMosaic Idealize.SL.Sem

/-- Both programs compute the same four-layer network. The tiled program's run leaves the four layers applied to the
    projection in its result buffer; the plain program's run leaves its own composition of the layers there; entry by
    entry the two agree: the projection, the aggregation and the combination are the same expressions, the column
    means are the same quotients, and the variance Σy²/N − μ² equals Σ(y − μ)²/N because every y is a finite real —
    which finite inputs guarantee through every layer (degrees are non-negative, the variance is non-negative, so
    every inverse square root is taken of a positive real). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.o_main_v150 (F := Ideal) m Cert.KernelIdeal.Hand.dat1 Cert.KernelIdeal.Hand.dat3
      Cert.KernelIdeal.Hand.dat5 Cert.KernelIdeal.Hand.dat7 c, Cert.KernelIdeal.Hand.run (F := Ideal) m ρ, ?_⟩
  refine (θ_run Cert.ReferenceIdeal.defs _ _).mono (fun _ h c => ⟨(h c).1.trans ?_, (h c).2⟩)
    (Cert.ReferenceIdeal.RefValue.run m' ρ')
  obtain ⟨hx, hw, hb, hw1, hw2, hg, hbb⟩ := Cert.Pre_finite_inputs.Hand.reals_of_pre _ _ _ _ _ _ _ _ _ (hpre c)
  have hk := Cert.KernelIdeal.HandValue.kernel_value m c
  have hbr := Cert.Bridge.bridge m c
    (fun h hh => Cert.ReferenceIdeal.RefValue.agg_real h _ _ _ hh (Cert.ReferenceIdeal.RefValue.norm_real _ _))
    hx hw hb hw1 hw2 hg hbb
  show Cert.ReferenceIdeal.RefValue.result m' c
    = Cert.KernelIdeal.Hand.o_main_v150 (F := Ideal) m Cert.KernelIdeal.Hand.dat1 Cert.KernelIdeal.Hand.dat3
        Cert.KernelIdeal.Hand.dat5 Cert.KernelIdeal.Hand.dat7 c
  rw [hk, hbr]
  unfold Cert.ReferenceIdeal.RefValue.result
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

end Cert.Proof

end
-- ==== Proof.lean ====
/-
  A four-layer graph network with batch normalisation: a projection x·W + b, and per layer the degree-normalised
  neighbourhood sum of the previous features, the combination
      c·(a/2) + β·((a/2)·W1) + c·(h0/2) + β·((h0/2)·W2)      (a the aggregate, h0 the projection),
  the column mean μ and variance of the result over all 100000 rows, and relu(γ·(y − μ)·(var + ε)^(-1/2) + δ).
  The tiled program accumulates Σy and Σy² block by block and takes var = Σy²/N − μ²; the plain one takes
  var = Σ(y − μ)²/N.  On extended reals the two agree wherever every y is finite, which finite inputs guarantee.
  The coefficient c is 1 − β on both sides: the tiled program carries it as one rounded word per layer, read for
  layers 1..3 as the exact difference 1 − β (the three named constants below); for layer 0 the word is that difference.
-/
import proofs.«163161_j55817394979591_1_alg».proof.Defs
import proofs.«163161_j55817394979591_1_alg».proof.Proof.Gen.Kernel
import proofs.«163161_j55817394979591_1_alg».proof.Proof.Gen.Kernel.Skeleton
import proofs.«163161_j55817394979591_1_alg».proof.Proof.Gen.Kernel.Launch
import proofs.«163161_j55817394979591_1_alg».proof.Proof.Gen.Kernel.Regions
import proofs.«163161_j55817394979591_1_alg».proof.Proof.Gen.Kernel.Points
import proofs.«163161_j55817394979591_1_alg».proof.Proof.Gen.KernelIdeal
import proofs.«163161_j55817394979591_1_alg».proof.Proof.Gen.KernelIdeal.Skeleton
import proofs.«163161_j55817394979591_1_alg».proof.Proof.Gen.KernelIdeal.Launch
import proofs.«163161_j55817394979591_1_alg».proof.Proof.Gen.KernelIdeal.Regions
import proofs.«163161_j55817394979591_1_alg».proof.Proof.Gen.KernelIdeal.Points
import proofs.«163161_j55817394979591_1_alg».proof.Proof.Gen.ReferenceIdeal
import proofs.«163161_j55817394979591_1_alg».proof.Proof.Gen.Pre_finite_inputs
import proofs.«163161_j55817394979591_1_alg».proof.Proof.RefRun
import proofs.«163161_j55817394979591_1_alg».proof.Proof.KIFrame
import proofs.«163161_j55817394979591_1_alg».proof.Proof.KFrame
import proofs.«163161_j55817394979591_1_alg».proof.Proof.Algebraic
import Idealize.ShloMosaic.Adequacy
import Idealize.ShloMosaic.Init

noncomputable section

namespace Cert.Proof

open Idealize.ShloMosaic Idealize.SL.Sem

/-- Each named coefficient word denotes, at the exact level, the difference 1 − β of its layer (β the layer's
    printed word): 1 − 13605151/2^25, 1 − 9653009/2^25 and 1 − 7487455/2^25. Each is used twice in its layer. -/
theorem preserves : Cert.preserves_Kernel_KernelIdeal :=
  ⟨IdealRules.named_const.statement Cert.KernelIdeal.κ "one_minus_beta_1" .f32 0x3F183370#32 ((19949281 / 33554432 : ℝ) : EReal) rfl,
   IdealRules.named_const.statement Cert.KernelIdeal.κ "one_minus_beta_1" .f32 0x3F183370#32 ((19949281 / 33554432 : ℝ) : EReal) rfl,
   IdealRules.named_const.statement Cert.KernelIdeal.κ "one_minus_beta_2" .f32 0x3F365A78#32 ((23901423 / 33554432 : ℝ) : EReal) rfl,
   IdealRules.named_const.statement Cert.KernelIdeal.κ "one_minus_beta_2" .f32 0x3F365A78#32 ((23901423 / 33554432 : ℝ) : EReal) rfl,
   IdealRules.named_const.statement Cert.KernelIdeal.κ "one_minus_beta_3" .f32 0x3F46E010#32 ((26066977 / 33554432 : ℝ) : EReal) rfl,
   IdealRules.named_const.statement Cert.KernelIdeal.κ "one_minus_beta_3" .f32 0x3F46E010#32 ((26066977 / 33554432 : ℝ) : EReal) rfl⟩

/-- The tiled program at machine words: the same nine regions and host stretches; the frame does not depend on how the
    arithmetic is read. -/
theorem frame_kernel : Cert.frame_Kernel (hKernel := Cert.Kernel.Gen.facts)
    (hPre_finite_inputs := Cert.Pre_finite_inputs.Gen.facts) :=
  fun m ρ _ => Cert.Kernel.Hand.frame (F := Bits) m ρ

/-- The tiled program at the exact level: nine kernel regions between host stretches; each region's pipeline stages its
    windows, runs its body at every grid point and writes its outputs back, and no item writes an argument. -/
theorem frame_kernel_ideal : Cert.frame_KernelIdeal (hKernelIdeal := Cert.KernelIdeal.Gen.facts)
    (hPre_finite_inputs := Cert.Pre_finite_inputs.Gen.facts) :=
  fun m ρ _ => Cert.KernelIdeal.Hand.frame (F := Ideal) m ρ

/-- The plain program is a straight line of host operations: it runs to the end and writes no argument. -/
theorem frame_reference : Cert.frame_ReferenceIdeal (hReferenceIdeal := Cert.ReferenceIdeal.Gen.facts)
    (hPre_finite_inputs := Cert.Pre_finite_inputs.Gen.facts) :=
  fun m ρ _ => Cert.ReferenceIdeal.RefValue.frame m ρ

theorem claim : Cert.Claim := ⟨Cert.Kernel.Gen.facts, Cert.KernelIdeal.Gen.facts, Cert.ReferenceIdeal.Gen.facts, Cert.Pre_finite_inputs.Gen.facts, by
  exact ⟨frame_kernel, frame_kernel_ideal, frame_reference, preserves, algebraic⟩⟩

end Cert.Proof

end
